-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S16x64 : Shape := ⟨2, ![16, 64]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part8 {F : FTy → Type} [FloatOps F] (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  main_v138

def fn_part7 {F : FTy → Type} [FloatOps F] (main_arg26 : FVec F S64 .f32) (main_arg27 : FVec F S64x16 .f32) (main_arg28 : FVec F S16 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x16 .f32 := Host.absf main_arg27
  let main_cst_50 : FVec F S_ .f32 := constant S_ .f32 0x7F800000#32
  let main_v130 : FVec F S64x16 .f32 := broadcastInDim S64x16 ![] bcast_S_S64x16 main_cst_50
  let main_v131 : IVec S64x16 1 := cmpf .olt main_v129 main_v130
  let main_c_51 : IVec S_ 1 := constantI S_ 1 1#1
  let main_v132 : IVec S_ 1 := (fun x v => Host.reduce IntOp.andi x v reducesTo_S64x16_S_d0_1 h_S_) main_v131 main_c_51
  let main_v133 : IVec S_ 1 := andi main_v128 main_v132
  let main_v134 : FVec F S16 .f32 := Host.absf main_arg28
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_v133 main_v136

def fn_part6 {F : FTy → Type} [FloatOps F] (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg25
  fn_part7 (F := F) main_arg26 main_arg27 main_arg28 main_v118 main_v119

def fn_part5 {F : FTy → Type} [FloatOps F] (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S16x64 .f32) (main_arg16 : FVec F S64 .f32) (main_arg17 : FVec F S128x64 .f32) (main_arg18 : FVec F S64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v63 : IVec S_ 1) (main_v67 : IVec S_ 1) : IVec S_ 1 :=
  let main_v68 : IVec S_ 1 := andi main_v63 main_v67
  let main_v69 : FVec F S16x64 .f32 := Host.absf main_arg15
  let main_cst_26 : FVec F S_ .f32 := constant S_ .f32 0x7F800000#32
  let main_v70 : FVec F S16x64 .f32 := broadcastInDim S16x64 ![] bcast_S_S16x64 main_cst_26
  let main_v71 : IVec S16x64 1 := cmpf .olt main_v69 main_v70
  let main_c_27 : IVec S_ 1 := constantI S_ 1 1#1
  let main_v72 : IVec S_ 1 := (fun x v => Host.reduce IntOp.andi x v reducesTo_S16x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S64x64 .f32) (main_arg13 : FVec F S64 .f32) (main_arg14 : FVec F S64x64 .f32) (main_arg15 : FVec F S16x64 .f32) (main_arg16 : FVec F S64 .f32) (main_arg17 : FVec F S128x64 .f32) (main_arg18 : FVec F S64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64x64 .f32) (main_arg13 : FVec F S64 .f32) (main_arg14 : FVec F S64x64 .f32) (main_arg15 : FVec F S16x64 .f32) (main_arg16 : FVec F S64 .f32) (main_arg17 : FVec F S128x64 .f32) (main_arg18 : FVec F S64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S32x64 .f32) (main_arg6 : FVec F S16x64 .f32) (main_arg7 : FVec F S64 .f32) (main_arg8 : FVec F S128x64 .f32) (main_arg9 : FVec F S64 .f32) (main_arg10 : FVec F S64 .f32) (main_arg11 : FVec F S64 .f32) (main_arg12 : FVec F S64x64 .f32) (main_arg13 : FVec F S64 .f32) (main_arg14 : FVec F S64x64 .f32) (main_arg15 : FVec F S16x64 .f32) (main_arg16 : FVec F S64 .f32) (main_arg17 : FVec F S128x64 .f32) (main_arg18 : FVec F S64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x32 .f32) (main_arg1 : IVec S2x1600000 32) (main_arg2 : FVec F S1600000x16 .f32) (main_arg3 : FVec F S32x64 .f32) (main_arg4 : FVec F S64 .f32) (main_arg5 : FVec F S32x64 .f32) (main_arg6 : FVec F S16x64 .f32) (main_arg7 : FVec F S64 .f32) (main_arg8 : FVec F S128x64 .f32) (main_arg9 : FVec F S64 .f32) (main_arg10 : FVec F S64 .f32) (main_arg11 : FVec F S64 .f32) (main_arg12 : FVec F S64x64 .f32) (main_arg13 : FVec F S64 .f32) (main_arg14 : FVec F S64x64 .f32) (main_arg15 : FVec F S16x64 .f32) (main_arg16 : FVec F S64 .f32) (main_arg17 : FVec F S128x64 .f32) (main_arg18 : FVec F S64 .f32) (main_arg19 : FVec F S64 .f32) (main_arg20 : FVec F S64 .f32) (main_arg21 : FVec F S64 .f32) (main_arg22 : FVec F S64 .f32) (main_arg23 : FVec F S64 .f32) (main_arg24 : FVec F S64 .f32) (main_arg25 : FVec F S64 .f32) (main_arg26 : FVec F S64 .f32) (main_arg27 : FVec F S64x16 .f32) (main_arg28 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S16x64 : Shape := ⟨2, ![16, 64]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x16 : Shape := ⟨2, ![100000, 16]⟩
abbrev S1700000x16 : Shape := ⟨2, ![1700000, 16]⟩
abbrev S1700000x1 : Shape := ⟨2, ![1700000, 1]⟩
abbrev S100000x1 : Shape := ⟨2, ![100000, 1]⟩
abbrev S1700000x32 : Shape := ⟨2, ![1700000, 32]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S10000x16 : Shape := ⟨2, ![10000, 16]⟩
abbrev S50000x128 : Shape := ⟨2, ![50000, 128]⟩
abbrev S1x128 : Shape := ⟨2, ![1, 128]⟩
abbrev S5000x128 : Shape := ⟨2, ![5000, 128]⟩
abbrev S128 : Shape := ⟨1, ![128]⟩
abbrev S1x16 : Shape := ⟨2, ![1, 16]⟩

abbrev nBuf : Space → Nat
  | .hbm => 284
  | .vmem => 102
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S32x64, .f32⟩
  | 4 => ⟨S64, .f32⟩
  | 5 => ⟨S32x64, .f32⟩
  | 6 => ⟨S16x64, .f32⟩
  | 7 => ⟨S64, .f32⟩
  | 8 => ⟨S128x64, .f32⟩
  | 9 => ⟨S64, .f32⟩
  | 10 => ⟨S64, .f32⟩
  | 11 => ⟨S64, .f32⟩
  | 12 => ⟨S64x64, .f32⟩
  | 13 => ⟨S64, .f32⟩
  | 14 => ⟨S64x64, .f32⟩
  | 15 => ⟨S16x64, .f32⟩
  | 16 => ⟨S64, .f32⟩
  | 17 => ⟨S128x64, .f32⟩
  | 18 => ⟨S64, .f32⟩
  | 19 => ⟨S64, .f32⟩
  | 20 => ⟨S64, .f32⟩
  | 21 => ⟨S64, .f32⟩
  | 22 => ⟨S64, .f32⟩
  | 23 => ⟨S64, .f32⟩
  | 24 => ⟨S64, .f32⟩
  | 25 => ⟨S64, .f32⟩
  | 26 => ⟨S64, .f32⟩
  | 27 => ⟨S64x16, .f32⟩
  | 28 => ⟨S16, .f32⟩
  | 29 => ⟨S100000, .i32⟩
  | 30 => ⟨S1x1600000, .i32⟩
  | 31 => ⟨S1600000, .i32⟩
  | 32 => ⟨S1700000, .i32⟩
  | 33 => ⟨S1x1600000, .i32⟩
  | 34 => ⟨S1600000, .i32⟩
  | 35 => ⟨S1700000, .i32⟩
  | 36 => ⟨S_, .f32⟩
  | 37 => ⟨S100000x16, .f32⟩
  | 38 => ⟨S1700000x16, .f32⟩
  | 39 => ⟨S_, .f32⟩
  | 40 => ⟨S1700000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S100000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S100000x32, .f32⟩
  | 66 => ⟨S100000x32, .f32⟩
  | 67 => ⟨S1x64, .f32⟩
  | 68 => ⟨S100000x64, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x64, .f32⟩
  | 78 => ⟨S64x64, .f32⟩
  | 79 => ⟨S64x64, .f32⟩
  | 80 => ⟨S1x64, .f32⟩
  | 81 => ⟨S1x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S50000x128, .f32⟩
  | 88 => ⟨S50000x128, .f32⟩
  | 89 => ⟨S50000x128, .f32⟩
  | 90 => ⟨S1x128, .f32⟩
  | 91 => ⟨S1x128, .f32⟩
  | 92 => ⟨S1x64, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S64, .f32⟩
  | 99 => ⟨S_, .f32⟩
  | 100 => ⟨S64, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S64, .f32⟩
  | 108 => ⟨S_, .f32⟩
  | 109 => ⟨S64, .f32⟩
  | 110 => ⟨S64, .f32⟩
  | 111 => ⟨S_, .f32⟩
  | 112 => ⟨S64, .f32⟩
  | 113 => ⟨S64, .f32⟩
  | 114 => ⟨S64, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S50000x128, .f32⟩
  | 124 => ⟨S100000x64, .f32⟩
  | 125 => ⟨S50000x128, .f32⟩
  | 126 => ⟨S1x128, .f32⟩
  | 127 => ⟨S1x128, .f32⟩
  | _ => ⟨S100000x32, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S64, .f32⟩
  | 7 => ⟨S_, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S50000x128, .f32⟩
  | 38 => ⟨S100000x64, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S64x64, .f32⟩
  | 66 => ⟨S64x64, .f32⟩
  | 67 => ⟨S1x64, .f32⟩
  | 68 => ⟨S1x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S50000x128, .f32⟩
  | 75 => ⟨S50000x128, .f32⟩
  | 76 => ⟨S50000x128, .f32⟩
  | 77 => ⟨S1x128, .f32⟩
  | 78 => ⟨S1x128, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S64, .f32⟩
  | 86 => ⟨S_, .f32⟩
  | 87 => ⟨S64, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S64, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S50000x128, .f32⟩
  | 111 => ⟨S100000x64, .f32⟩
  | 112 => ⟨S50000x128, .f32⟩
  | 113 => ⟨S1x128, .f32⟩
  | 114 => ⟨S1x128, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S64, .f32⟩
  | 122 => ⟨S_, .f32⟩
  | 123 => ⟨S64, .f32⟩
  | 124 => ⟨S64, .f32⟩
  | 125 => ⟨S64, .f32⟩
  | 126 => ⟨S_, .f32⟩
  | 127 => ⟨S64, .f32⟩
  | _ => ⟨S100000x32, .f32⟩

abbrev hbmTy0_2 (i : Nat) : BufTy := match i % 128 with
  | 0 => ⟨S64, .f32⟩
  | 1 => ⟨S64, .f32⟩
  | 2 => ⟨S_, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S50000x128, .f32⟩
  | 25 => ⟨S100000x64, .f32⟩
  | 26 => ⟨S1x16, .f32⟩
  | 27 => ⟨S100000x16, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x16, .f32⟩
  | .local _ .vmem, ⟨12, _⟩ => ⟨S10000x16, .f32⟩
  | .local _ .vmem, ⟨13, _⟩ => ⟨S16x64, .f32⟩
  | .local _ .vmem, ⟨14, _⟩ => ⟨S1x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .f32⟩
  | .local _ .vmem, ⟨53, _⟩ => ⟨S1x64, .f32⟩
  | .local _ .vmem, ⟨54, _⟩ => ⟨S64x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x16, .f32⟩
  | .local _ .vmem, ⟨60, _⟩ => ⟨S10000x16, .f32⟩
  | .local _ .vmem, ⟨61, _⟩ => ⟨S16x64, .f32⟩
  | .local _ .vmem, ⟨62, _⟩ => ⟨S1x64, .f32⟩
  | .local _ .vmem, ⟨63, _⟩ => ⟨S64x64, .f32⟩
  | .local _ .vmem, ⟨64, _⟩ => ⟨S64x64, .f32⟩
  | .local _ .vmem, ⟨65, _⟩ => ⟨S1x64, .f32⟩
  | .local _ .vmem, ⟨66, _⟩ => ⟨S10000x64, .f32⟩
  | .local _ .vmem, ⟨67, _⟩ => ⟨S10000x64, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S10000x64, .f32⟩
  | .local _ .vmem, ⟨97, _⟩ => ⟨S10000x64, .f32⟩
  | .local _ .vmem, ⟨98, _⟩ => ⟨S64x16, .f32⟩
  | .local _ .vmem, ⟨99, _⟩ => ⟨S1x16, .f32⟩
  | .local _ .vmem, ⟨100, _⟩ => ⟨S10000x16, .f32⟩
  | .local _ .vmem, ⟨101, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_6 : Ref sig .tc := ⟨.hbm, 69, rfl⟩
abbrev main_v32 : Ref sig .tc := ⟨.hbm, 70, rfl⟩
abbrev main_v33 : Ref sig .tc := ⟨.hbm, 71, rfl⟩
abbrev main_c_7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49_0 : Ref sig .tc := ⟨.hbm, 89, rfl⟩
abbrev main_v49_1 : Ref sig .tc := ⟨.hbm, 90, rfl⟩
abbrev main_v49_2 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_9 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_10 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_11 : Ref sig .tc := ⟨.hbm, 108, rfl⟩
abbrev main_v64 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80_0 : Ref sig .tc := ⟨.hbm, 126, rfl⟩
abbrev main_v80_1 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_13 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_14 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_15 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_16 : Ref sig .tc := ⟨.hbm, 150, rfl⟩
abbrev main_v100 : Ref sig .tc := ⟨.hbm, 151, rfl⟩
abbrev main_v101 : Ref sig .tc := ⟨.hbm, 152, rfl⟩
abbrev main_cst_17 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_18 : Ref sig .tc := ⟨.hbm, 167, rfl⟩
abbrev main_v115 : Ref sig .tc := ⟨.hbm, 168, rfl⟩
abbrev main_v116 : Ref sig .tc := ⟨.hbm, 169, rfl⟩
abbrev main_c_19 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_20 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_c_21 : Ref sig .tc := ⟨.hbm, 184, rfl⟩
abbrev main_v129 : Ref sig .tc := ⟨.hbm, 185, rfl⟩
abbrev main_v130 : Ref sig .tc := ⟨.hbm, 186, rfl⟩
abbrev main_c_22 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_23 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146_0 : Ref sig .tc := ⟨.hbm, 204, rfl⟩
abbrev main_v146_1 : Ref sig .tc := ⟨.hbm, 205, rfl⟩
abbrev main_v146_2 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_24 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_25 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_26 : Ref sig .tc := ⟨.hbm, 223, rfl⟩
abbrev main_v161 : Ref sig .tc := ⟨.hbm, 224, rfl⟩
abbrev main_v162 : Ref sig .tc := ⟨.hbm, 225, rfl⟩
abbrev main_cst_27 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177_0 : Ref sig .tc := ⟨.hbm, 241, rfl⟩
abbrev main_v177_1 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_28 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_29 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_cst_30 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_31 : Ref sig .tc := ⟨.hbm, 265, rfl⟩
abbrev main_v197 : Ref sig .tc := ⟨.hbm, 266, rfl⟩
abbrev main_v198 : Ref sig .tc := ⟨.hbm, 267, rfl⟩
abbrev main_cst_32 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg6_0 : Ref sig .tc := ⟨.vmem, 65, rfl⟩
abbrev cc7_stg7_0 : Ref sig .tc := ⟨.vmem, 66, rfl⟩
abbrev cc7_stg7_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg2_1 : Ref sig .tc := ⟨.vmem, 73, rfl⟩
abbrev cc8_stg3_0 : Ref sig .tc := ⟨.vmem, 74, rfl⟩
abbrev cc8_stg4_0 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg5_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg3_1 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem5_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem7_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem2_1 : DmaSem sig := 73
abbrev cc8_sem3_0 : DmaSem sig := 74
abbrev cc8_sem4_0 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem5_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem3_1 : DmaSem sig := 101

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S16x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x16 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x16 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x16 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000x16 : S_.BroadcastsInDim S100000x16 (![] : Fin 0 → Fin S100000x16.rank)
  concatenates_S1600000x16_S100000x16_S1700000x16_d0 : Shape.Concatenates [S1600000x16, S100000x16] S1700000x16 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S128x64_S64x64_0_0 : S128x64.Slices ![0, 0] S64x64
  slices_S128x64_S64x64_64_0 : S128x64.Slices ![64, 0] S64x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S128 : S5000x128.Reduces [0] S128
  shapeCasts_S128_S1x128 : S128.ShapeCasts S1x128
  slices_S1x128_S1x64_0_0 : S1x128.Slices ![0, 0] S1x64
  slices_S1x128_S1x64_0_64 : S1x128.Slices ![0, 64] S1x64
  shapeCasts_S1x64_S64 : S1x64.ShapeCasts S64
  bcast_S_S64 : S_.BroadcastsInDim S64 (![] : Fin 0 → Fin S64.rank)
  concatenates_S64_S64_S128_d0 : Shape.Concatenates [S64, S64] S128 0
  broadcasts_S1x128_S5000x128 : S1x128.Broadcasts S5000x128
  shapeCasts_S50000x128_S100000x64 : S50000x128.ShapeCasts S100000x64
  bcast_S100000x1_S100000x64_0_1 : S100000x1.BroadcastsInDim S100000x64 (![0, 1] : Fin 2 → Fin S100000x64.rank)
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  dot_S10000x16_S16x64_S10000x64_1_0_0_1_n_n_wf : DotDims.WF S10000x16 S16x64 S10000x64 [1] [0] [0] [1] [] []
  dot_S10000x64_S64x64_S10000x64_1_0_0_1_n_n_wf : DotDims.WF S10000x64 S64x64 S10000x64 [1] [0] [0] [1] [] []
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S1700000x16.size a
  hwx1_1 : ∀ i : grid1.Coords, EltTy.bits .f32 = 32 ∨ (Rect.block (s := S1700000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S1700000x64.size a
  hwx1_7 : ∀ i : grid1.Coords, EltTy.bits .f32 = 32 ∨ (Rect.block (s := S1700000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S1700000x64.size a
  hwx7_0 : ∀ i : grid7.Coords, EltTy.bits .f32 = 32 ∨ (Rect.block (s := S1700000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x16.size a ≤ S1700000x16.size a
  hwx7_1 : ∀ i : grid7.Coords, EltTy.bits .f32 = 32 ∨ (Rect.block (s := S1700000x16) S10000x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x64.size a ≤ S16x64.size a
  hwx7_2 : ∀ i : grid7.Coords, EltTy.bits .f32 = 32 ∨ (Rect.block (s := S16x64) S16x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x64.size a ≤ S1700000x64.size a
  hwx7_7 : ∀ i : grid7.Coords, EltTy.bits .f32 = 32 ∨ (Rect.block (s := S1700000x64) S10000x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x16.size a ≤ S64x16.size a
  hwx12_1 : ∀ i : grid12.Coords, EltTy.bits .f32 = 32 ∨ (Rect.block (s := S64x16) S64x16.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x16.size a ≤ S1x16.size a
  hwx12_2 : ∀ i : grid12.Coords, EltTy.bits .f32 = 32 ∨ (Rect.block (s := S1x16) S1x16.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x16.size a ≤ S100000x16.size a
  hwx12_3 : ∀ i : grid12.Coords, EltTy.bits .f32 = 32 ∨ (Rect.block (s := S100000x16) S10000x16.size (cc12_transform_3 i) (hinb12_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v29) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v126) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v114) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v128) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v135) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S10000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg15) S16x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v138) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v136) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v139) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v140) S10000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v144) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v145) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v146_0) S5000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v146_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v146_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v167) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v169) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v171) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v173) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v174) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v176) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v177_0) S1x128.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v177_1) S1x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v176) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v203) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v205) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v207) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v209) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v210) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v211) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg27) S64x16.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v212) S1x16.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v213) S10000x16.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S16x64 : Shape := ⟨2, ![16, 64]⟩
abbrev S128x64 : Shape := ⟨2, ![128, 64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x16 : Shape := ⟨2, ![100000, 16]⟩
abbrev S1700000x16 : Shape := ⟨2, ![1700000, 16]⟩
abbrev S1700000x64 : Shape := ⟨2, ![1700000, 64]⟩
abbrev S1x64 : Shape := ⟨2, ![1, 64]⟩
abbrev S1700000x1 : Shape := ⟨2, ![1700000, 1]⟩
abbrev S1700000x32 : Shape := ⟨2, ![1700000, 32]⟩
abbrev S100000x1 : Shape := ⟨2, ![100000, 1]⟩
abbrev S100000x64 : Shape := ⟨2, ![100000, 64]⟩
abbrev S1700000x128 : Shape := ⟨2, ![1700000, 128]⟩
abbrev S1x16 : Shape := ⟨2, ![1, 16]⟩

abbrev nBuf : Space → Nat
  | .hbm => 309
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S32x64, .f32⟩
  | 4 => ⟨S64, .f32⟩
  | 5 => ⟨S32x64, .f32⟩
  | 6 => ⟨S16x64, .f32⟩
  | 7 => ⟨S64, .f32⟩
  | 8 => ⟨S128x64, .f32⟩
  | 9 => ⟨S64, .f32⟩
  | 10 => ⟨S64, .f32⟩
  | 11 => ⟨S64, .f32⟩
  | 12 => ⟨S64x64, .f32⟩
  | 13 => ⟨S64, .f32⟩
  | 14 => ⟨S64x64, .f32⟩
  | 15 => ⟨S16x64, .f32⟩
  | 16 => ⟨S64, .f32⟩
  | 17 => ⟨S128x64, .f32⟩
  | 18 => ⟨S64, .f32⟩
  | 19 => ⟨S64, .f32⟩
  | 20 => ⟨S64, .f32⟩
  | 21 => ⟨S64, .f32⟩
  | 22 => ⟨S64, .f32⟩
  | 23 => ⟨S64, .f32⟩
  | 24 => ⟨S64, .f32⟩
  | 25 => ⟨S64, .f32⟩
  | 26 => ⟨S64, .f32⟩
  | 27 => ⟨S64x16, .f32⟩
  | 28 => ⟨S16, .f32⟩
  | 29 => ⟨S100000, .i32⟩
  | 30 => ⟨S1x1600000, .i32⟩
  | 31 => ⟨S1600000, .i32⟩
  | 32 => ⟨S1700000, .i32⟩
  | 33 => ⟨S1x1600000, .i32⟩
  | 34 => ⟨S1600000, .i32⟩
  | 35 => ⟨S1700000, .i32⟩
  | 36 => ⟨S_, .f32⟩
  | 37 => ⟨S100000x16, .f32⟩
  | 38 => ⟨S1700000x16, .f32⟩
  | 39 => ⟨S1700000x64, .f32⟩
  | 40 => ⟨S1x64, .f32⟩
  | 41 => ⟨S1700000x64, .f32⟩
  | 42 => ⟨S1700000x64, .f32⟩
  | 43 => ⟨S_, .f32⟩
  | 44 => ⟨S1700000, .f32⟩
  | 45 => ⟨S_, .f32⟩
  | 46 => ⟨S100000, .f32⟩
  | 47 => ⟨S1700000x1, .i32⟩
  | 48 => ⟨S100000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x32, .f32⟩
  | 58 => ⟨S_, .f32⟩
  | 59 => ⟨S100000x32, .f32⟩
  | 60 => ⟨S1700000x1, .i32⟩
  | 61 => ⟨S100000x32, .f32⟩
  | 62 => ⟨S_, .f32⟩
  | 63 => ⟨S100000, .f32⟩
  | 64 => ⟨S100000, .f32⟩
  | 65 => ⟨S100000x1, .f32⟩
  | 66 => ⟨S100000x32, .f32⟩
  | 67 => ⟨S100000x32, .f32⟩
  | 68 => ⟨S100000x64, .f32⟩
  | 69 => ⟨S1x64, .f32⟩
  | 70 => ⟨S100000x64, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x128, .f32⟩
  | 84 => ⟨S1700000x64, .f32⟩
  | 85 => ⟨S1x64, .f32⟩
  | 86 => ⟨S1700000x64, .f32⟩
  | 87 => ⟨S1700000x64, .f32⟩
  | 88 => ⟨S1700000x64, .f32⟩
  | 89 => ⟨S1700000x64, .f32⟩
  | 90 => ⟨S_, .f32⟩
  | 91 => ⟨S1700000x64, .f32⟩
  | 92 => ⟨S1700000x64, .f32⟩
  | 93 => ⟨S_, .f32⟩
  | 94 => ⟨S1700000x64, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x32, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S64, .f32⟩
  | 19 => ⟨S1x64, .f32⟩
  | 20 => ⟨S100000x64, .f32⟩
  | 21 => ⟨S100000x64, .f32⟩
  | 22 => ⟨S100000x64, .f32⟩
  | 23 => ⟨S_, .f32⟩
  | 24 => ⟨S64, .f32⟩
  | 25 => ⟨S_, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S_, .f32⟩
  | 32 => ⟨S64, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1700000x64, .f32⟩
  | 45 => ⟨S1x64, .f32⟩
  | 46 => ⟨S1700000x64, .f32⟩
  | 47 => ⟨S1700000x64, .f32⟩
  | 48 => ⟨S_, .f32⟩
  | 49 => ⟨S1700000, .f32⟩
  | 50 => ⟨S_, .f32⟩
  | 51 => ⟨S100000, .f32⟩
  | 52 => ⟨S1700000x1, .i32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S_, .f32⟩
  | 68 => ⟨S100000, .f32⟩
  | 69 => ⟨S100000, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S100000x64, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x64, .f32⟩
  | 88 => ⟨S1700000x128, .f32⟩
  | 89 => ⟨S1700000x64, .f32⟩
  | 90 => ⟨S1x64, .f32⟩
  | 91 => ⟨S1700000x64, .f32⟩
  | 92 => ⟨S1700000x64, .f32⟩
  | 93 => ⟨S1700000x64, .f32⟩
  | 94 => ⟨S1700000x64, .f32⟩
  | 95 => ⟨S_, .f32⟩
  | 96 => ⟨S1700000x64, .f32⟩
  | 97 => ⟨S1700000x64, .f32⟩
  | 98 => ⟨S_, .f32⟩
  | 99 => ⟨S1700000x64, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S100000x64, .f32⟩
  | 107 => ⟨S_, .f32⟩
  | 108 => ⟨S64, .f32⟩
  | 109 => ⟨S_, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x32, .f32⟩

abbrev hbmTy0_2 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S64, .f32⟩
  | 30 => ⟨S_, .f32⟩
  | 31 => ⟨S64, .f32⟩
  | 32 => ⟨S64, .f32⟩
  | 33 => ⟨S1x64, .f32⟩
  | 34 => ⟨S100000x64, .f32⟩
  | 35 => ⟨S100000x64, .f32⟩
  | 36 => ⟨S_, .f32⟩
  | 37 => ⟨S64, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x16, .f32⟩
  | 50 => ⟨S1x16, .f32⟩
  | 51 => ⟨S100000x16, .f32⟩
  | 52 => ⟨S100000x16, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_3 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_5 : Ref sig .tc := ⟨.hbm, 74, rfl⟩
abbrev main_v38 : Ref sig .tc := ⟨.hbm, 75, rfl⟩
abbrev main_v39 : Ref sig .tc := ⟨.hbm, 76, rfl⟩
abbrev main_c_6 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_7 : Ref sig .tc := ⟨.hbm, 90, rfl⟩
abbrev main_v52 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_9 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_10 : Ref sig .tc := ⟨.hbm, 102, rfl⟩
abbrev main_v61 : Ref sig .tc := ⟨.hbm, 103, rfl⟩
abbrev main_cst_11 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_12 : Ref sig .tc := ⟨.hbm, 111, rfl⟩
abbrev main_v68 : Ref sig .tc := ⟨.hbm, 112, rfl⟩
abbrev main_cst_13 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_15 : Ref sig .tc := ⟨.hbm, 132, rfl⟩
abbrev main_v86 : Ref sig .tc := ⟨.hbm, 133, rfl⟩
abbrev main_v87 : Ref sig .tc := ⟨.hbm, 134, rfl⟩
abbrev main_call0_cst : Ref sig .tc := ⟨.hbm, 135, rfl⟩
abbrev main_call0_v0 : Ref sig .tc := ⟨.hbm, 136, rfl⟩
abbrev main_v88 : Ref sig .tc := ⟨.hbm, 137, rfl⟩
abbrev main_call1_cst : Ref sig .tc := ⟨.hbm, 138, rfl⟩
abbrev main_call1_v0 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_cst_17 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_18 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_20 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call2_cst : Ref sig .tc := ⟨.hbm, 169, rfl⟩
abbrev main_call2_v0 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_21 : Ref sig .tc := ⟨.hbm, 176, rfl⟩
abbrev main_v118 : Ref sig .tc := ⟨.hbm, 177, rfl⟩
abbrev main_cst_22 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_23 : Ref sig .tc := ⟨.hbm, 182, rfl⟩
abbrev main_v122 : Ref sig .tc := ⟨.hbm, 183, rfl⟩
abbrev main_v123 : Ref sig .tc := ⟨.hbm, 184, rfl⟩
abbrev main_c_24 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_25 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_26 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_c_27 : Ref sig .tc := ⟨.hbm, 207, rfl⟩
abbrev main_v143 : Ref sig .tc := ⟨.hbm, 208, rfl⟩
abbrev main_v144 : Ref sig .tc := ⟨.hbm, 209, rfl⟩
abbrev main_c_28 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_29 : Ref sig .tc := ⟨.hbm, 223, rfl⟩
abbrev main_v157 : Ref sig .tc := ⟨.hbm, 224, rfl⟩
abbrev main_v158 : Ref sig .tc := ⟨.hbm, 225, rfl⟩
abbrev main_cst_30 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_cst_31 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_32 : Ref sig .tc := ⟨.hbm, 235, rfl⟩
abbrev main_v166 : Ref sig .tc := ⟨.hbm, 236, rfl⟩
abbrev main_cst_33 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_34 : Ref sig .tc := ⟨.hbm, 244, rfl⟩
abbrev main_v173 : Ref sig .tc := ⟨.hbm, 245, rfl⟩
abbrev main_cst_35 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_36 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_37 : Ref sig .tc := ⟨.hbm, 265, rfl⟩
abbrev main_v191 : Ref sig .tc := ⟨.hbm, 266, rfl⟩
abbrev main_v192 : Ref sig .tc := ⟨.hbm, 267, rfl⟩
abbrev main_call3_cst : Ref sig .tc := ⟨.hbm, 268, rfl⟩
abbrev main_call3_v0 : Ref sig .tc := ⟨.hbm, 269, rfl⟩
abbrev main_v193 : Ref sig .tc := ⟨.hbm, 270, rfl⟩
abbrev main_call4_cst : Ref sig .tc := ⟨.hbm, 271, rfl⟩
abbrev main_call4_v0 : Ref sig .tc := ⟨.hbm, 272, rfl⟩
abbrev main_v194 : Ref sig .tc := ⟨.hbm, 273, rfl⟩
abbrev main_cst_38 : Ref sig .tc := ⟨.hbm, 274, rfl⟩
abbrev main_v195 : Ref sig .tc := ⟨.hbm, 275, rfl⟩
abbrev main_cst_39 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_cst_40 : Ref sig .tc := ⟨.hbm, 284, rfl⟩
abbrev main_v203 : Ref sig .tc := ⟨.hbm, 285, rfl⟩
abbrev main_cst_41 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_cst_42 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_call5_cst : Ref sig .tc := ⟨.hbm, 302, rfl⟩
abbrev main_call5_v0 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000x16 : S_.BroadcastsInDim S100000x16 (![] : Fin 0 → Fin S100000x16.rank)
  concatenates_S1600000x16_S100000x16_S1700000x16_d0 : Shape.Concatenates [S1600000x16, S100000x16] S1700000x16 0
  bcast_S64_S1x64_1 : S64.BroadcastsInDim S1x64 (![1] : Fin 1 → Fin S1x64.rank)
  bcast_S1x64_S1700000x64_0_1 : S1x64.BroadcastsInDim S1700000x64 (![0, 1] : Fin 2 → Fin S1700000x64.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1x64_S100000x64_0_1 : S1x64.BroadcastsInDim S100000x64 (![0, 1] : Fin 2 → Fin S100000x64.rank)
  concatenates_S1700000x64_S1700000x64_S1700000x128_d1 : Shape.Concatenates [S1700000x64, S1700000x64] S1700000x128 1
  bcast_S_S1700000x64 : S_.BroadcastsInDim S1700000x64 (![] : Fin 0 → Fin S1700000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S1700000x16_S16x64_S1700000x64_1_0_0_1_n_n_wf : DotDims.WF S1700000x16 S16x64 S1700000x64 [1] [0] [0] [1] [] []
  scatter_S100000_S1700000x1_S1700000_n_0_0_1_wf : ScatterDims.WF S100000 S1700000x1 S1700000 [] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  dot_S1700000x128_S128x64_S1700000x64_1_0_0_1_n_n_wf : DotDims.WF S1700000x128 S128x64 S1700000x64 [1] [0] [0] [1] [] []
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def dot_S1700000x16_S16x64_S1700000x64_1_0_0_1_n_n : DotDims S1700000x16 S16x64 S1700000x64 where
  lhsContracting := [1]
  rhsContracting := [0]
  lhsNonContracting := [0]
  rhsNonContracting := [1]
  lhsBatch := []
  rhsBatch := []
  wf := dot_S1700000x16_S16x64_S1700000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def dot_S1700000x128_S128x64_S1700000x64_1_0_0_1_n_n : DotDims S1700000x128 S128x64 S1700000x64 where
  lhsContracting := [1]
  rhsContracting := [0]
  lhsNonContracting := [0]
  rhsNonContracting := [1]
  lhsBatch := []
  rhsBatch := []
  wf := dot_S1700000x128_S128x64_S1700000x64_1_0_0_1_n_n_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.RefStep.lean ====
/-
  The reference's 280 host operations, run one after the other from contents V, leave in the result buffer the last
  stage function of the arguments' contents. One step per operation, over the suffixes of the list: before operation k
  the contents W hold, at every buffer an earlier operation wrote and a later one still reads, that buffer's stage
  function of V's argument contents, and at the argument buffers what V holds; operation k's result is its function of
  its operands, which is the next stage function by definition.
-/
import proofs.«106696_j33449205301454_2_alg».proof.Proof.Gen.ReferenceIdeal
import proofs.«106696_j33449205301454_2_alg».proof.Proof.ReadP
import Idealize.ShloMosaic.Lib.StableHlo.Run

set_option maxRecDepth 16384

noncomputable section

namespace Cert.ReferenceIdeal.RunStep

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each, and the suffixes of their list -/

abbrev o1 : HloOp τ sig (Elt F) := nullary main_v0 (iotaInDim S100000 32 0)
abbrev o2 : HloOp τ sig (Elt F) := unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F))
abbrev o3 : HloOp τ sig (Elt F) := reshape main_v1 main_v2 rfl shapeCasts_S1x1600000_S1600000
abbrev o4 : HloOp τ sig (Elt F) := binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
abbrev o5 : HloOp τ sig (Elt F) := unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F))
abbrev o6 : HloOp τ sig (Elt F) := reshape main_v4 main_v5 rfl shapeCasts_S1x1600000_S1600000
abbrev o7 : HloOp τ sig (Elt F) := binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
abbrev o8 : HloOp τ sig (Elt F) := nullary main_cst (constant S_ .f32 0x3F800000#32)
abbrev o9 : HloOp τ sig (Elt F) := unary main_cst main_v7 (broadcastInDim S100000x16 ![] bcast_S_S100000x16 : (⟨S_, .f32⟩ : BufTy).Contents (Elt F) → (⟨S100000x16, .f32⟩ : BufTy).Contents (Elt F))
abbrev o10 : HloOp τ sig (Elt F) := binary main_arg2 main_v7 main_v8 ((fun a b => concatenate S1700000x16 0 [⟨S1600000x16, a⟩, ⟨S100000x16, b⟩] concatenates_S1600000x16_S100000x16_S1700000x16_d0) : (⟨S1600000x16, .f32⟩ : BufTy).Contents (Elt F) → (⟨S100000x16, .f32⟩ : BufTy).Contents (Elt F) → (⟨S1700000x16, .f32⟩ : BufTy).Contents (Elt F))
abbrev o11 : HloOp τ sig (Elt F) := binary main_v8 main_arg6 main_v9 ((fun l r => Host.dotGeneral dot_S1700000x16_S16x64_S1700000x64_1_0_0_1_n_n none l r) : (⟨S1700000x16, .f32⟩ : BufTy).Contents (Elt F) → (⟨S16x64, .f32⟩ : BufTy).Contents (Elt F) → (⟨S1700000x64, .f32⟩ : BufTy).Contents (Elt F))
abbrev o12 : HloOp τ sig (Elt F) := unary main_arg7 main_v10 (broadcastInDim S1x64 ![1] bcast_S64_S1x64_1 : (⟨S64, .f32⟩ : BufTy).Contents (Elt F) → (⟨S1x64, .f32⟩ : BufTy).Contents (Elt F))
abbrev o13 : HloOp τ sig (Elt F) := unary main_v10 main_v11 (broadcastInDim S1700000x64 ![0, 1] bcast_S1x64_S1700000x64_0_1 : (⟨S1x64, .f32⟩ : BufTy).Contents (Elt F) → (⟨S1700000x64, .f32⟩ : BufTy).Contents (Elt F))
abbrev o14 : HloOp τ sig (Elt F) := binary main_v9 main_v11 main_v12 (addf : (⟨S1700000x64, .f32⟩ : BufTy).Contents (Elt F) → (⟨S1700000x64, .f32⟩ : BufTy).Contents (Elt F) → (⟨S1700000x64, .f32⟩ : BufTy).Contents (Elt F))
abbrev o15 : HloOp τ sig (Elt F) := nullary main_cst_0 (constant S_ .f32 0x3F800000#32)
abbrev o16 : HloOp τ sig (Elt F) := unary main_cst_0 main_v13 (broadcastInDim S1700000 ![] bcast_S_S1700000 : (⟨S_, .f32⟩ : BufTy).Contents (Elt F) → (⟨S1700000, .f32⟩ : BufTy).Contents (Elt F))
abbrev o17 : HloOp τ sig (Elt F) := nullary main_cst_1 (constant S_ .f32 0x00000000#32)
abbrev o18 : HloOp τ sig (Elt F) := unary main_cst_1 main_v14 (broadcastInDim S100000 ![] bcast_S_S100000 : (⟨S_, .f32⟩ : BufTy).Contents (Elt F) → (⟨S100000, .f32⟩ : BufTy).Contents (Elt F))
abbrev o19 : HloOp τ sig (Elt F) := unary main_v6 main_v15 (broadcastInDim S1700000x1 ![0] bcast_S1700000_S1700000x1_0 : (⟨S1700000, .i32⟩ : BufTy).Contents (Elt F) → (⟨S1700000x1, .i32⟩ : BufTy).Contents (Elt F))
abbrev o20 : HloOp τ sig (Elt F) := ternary main_v14 main_v15 main_v13 main_v16 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))
abbrev o21 : HloOp τ sig (Elt F) := nullary main_c (constantI S_ 32 0#32)
abbrev o22 : HloOp τ sig (Elt F) := unary main_c main_v17 (broadcastInDim S1700000 ![] bcast_S_S1700000 : (⟨S_, .i32⟩ : BufTy).Contents (Elt F) → (⟨S1700000, .i32⟩ : BufTy).Contents (Elt F))
abbrev o23 : HloOp τ sig (Elt F) := binary main_v3 main_v17 main_v18 (cmpi .slt : (⟨S1700000, .i32⟩ : BufTy).Contents (Elt F) → (⟨S1700000, .i32⟩ : BufTy).Contents (Elt F) → (⟨S1700000, .i1⟩ : BufTy).Contents (Elt F))
abbrev o24 : HloOp τ sig (Elt F) := nullary main_c_2 (constantI S_ 32 100000#32)
abbrev o25 : HloOp τ sig (Elt F) := unary main_c_2 main_v19 (broadcastInDim S1700000 ![] bcast_S_S1700000 : (⟨S_, .i32⟩ : BufTy).Contents (Elt F) → (⟨S1700000, .i32⟩ : BufTy).Contents (Elt F))
abbrev o26 : HloOp τ sig (Elt F) := binary main_v3 main_v19 main_v20 (addi : (⟨S1700000, .i32⟩ : BufTy).Contents (Elt F) → (⟨S1700000, .i32⟩ : BufTy).Contents (Elt F) → (⟨S1700000, .i32⟩ : BufTy).Contents (Elt F))
abbrev o27 : HloOp τ sig (Elt F) := ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
abbrev o28 : HloOp τ sig (Elt F) := unary main_v21 main_v22 (broadcastInDim S1700000x1 ![0] bcast_S1700000_S1700000x1_0 : (⟨S1700000, .i32⟩ : BufTy).Contents (Elt F) → (⟨S1700000x1, .i32⟩ : BufTy).Contents (Elt F))
abbrev o29 : HloOp τ sig (Elt F) := binary main_arg0 main_v22 main_v23 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F))
abbrev o30 : HloOp τ sig (Elt F) := nullary main_cst_3 (constant S_ .f32 0x00000000#32)
abbrev o31 : HloOp τ sig (Elt F) := unary main_cst_3 main_v24 (broadcastInDim S100000x32 ![] bcast_S_S100000x32 : (⟨S_, .f32⟩ : BufTy).Contents (Elt F) → (⟨S100000x32, .f32⟩ : BufTy).Contents (Elt F))
abbrev o32 : HloOp τ sig (Elt F) := unary main_v6 main_v25 (broadcastInDim S1700000x1 ![0] bcast_S1700000_S1700000x1_0 : (⟨S1700000, .i32⟩ : BufTy).Contents (Elt F) → (⟨S1700000x1, .i32⟩ : BufTy).Contents (Elt F))
abbrev o33 : HloOp τ sig (Elt F) := ternary main_v24 main_v25 main_v23 main_v26 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F))
abbrev o34 : HloOp τ sig (Elt F) := nullary main_cst_4 (constant S_ .f32 0x3F800000#32)
abbrev o35 : HloOp τ sig (Elt F) := unary main_cst_4 main_v27 (broadcastInDim S100000 ![] bcast_S_S100000 : (⟨S_, .f32⟩ : BufTy).Contents (Elt F) → (⟨S100000, .f32⟩ : BufTy).Contents (Elt F))
abbrev o36 : HloOp τ sig (Elt F) := binary main_v16 main_v27 main_v28 (maximumf : (⟨S100000, .f32⟩ : BufTy).Contents (Elt F) → (⟨S100000, .f32⟩ : BufTy).Contents (Elt F) → (⟨S100000, .f32⟩ : BufTy).Contents (Elt F))
abbrev o37 : HloOp τ sig (Elt F) := unary main_v28 main_v29 (broadcastInDim S100000x1 ![0] bcast_S100000_S100000x1_0 : (⟨S100000, .f32⟩ : BufTy).Contents (Elt F) → (⟨S100000x1, .f32⟩ : BufTy).Contents (Elt F))
abbrev o38 : HloOp τ sig (Elt F) := unary main_v29 main_v30 (broadcastInDim S100000x32 ![0, 1] bcast_S100000x1_S100000x32_0_1 : (⟨S100000x1, .f32⟩ : BufTy).Contents (Elt F) → (⟨S100000x32, .f32⟩ : BufTy).Contents (Elt F))
abbrev o39 : HloOp τ sig (Elt F) := binary main_v26 main_v30 main_v31 (Host.divf : (⟨S100000x32, .f32⟩ : BufTy).Contents (Elt F) → (⟨S100000x32, .f32⟩ : BufTy).Contents (Elt F) → (⟨S100000x32, .f32⟩ : BufTy).Contents (Elt F))
abbrev o40 : HloOp τ sig (Elt F) := binary main_v31 main_arg3 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F))
abbrev o41 : HloOp τ sig (Elt F) := unary main_arg4 main_v33 (broadcastInDim S1x64 ![1] bcast_S64_S1x64_1 : (⟨S64, .f32⟩ : BufTy).Contents (Elt F) → (⟨S1x64, .f32⟩ : BufTy).Contents (Elt F))
abbrev o42 : HloOp τ sig (Elt F) := unary main_v33 main_v34 (broadcastInDim S100000x64 ![0, 1] bcast_S1x64_S100000x64_0_1 : (⟨S1x64, .f32⟩ : BufTy).Contents (Elt F) → (⟨S100000x64, .f32⟩ : BufTy).Contents (Elt F))
abbrev o43 : HloOp τ sig (Elt F) := binary main_v32 main_v34 main_v35 (addf : (⟨S100000x64, .f32⟩ : BufTy).Contents (Elt F) → (⟨S100000x64, .f32⟩ : BufTy).Contents (Elt F) → (⟨S100000x64, .f32⟩ : BufTy).Contents (Elt F))
abbrev o44 : HloOp τ sig (Elt F) := binary main_arg0 main_arg5 main_v36 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F))
abbrev o45 : HloOp τ sig (Elt F) := binary main_v35 main_v36 main_v37 (addf : (⟨S100000x64, .f32⟩ : BufTy).Contents (Elt F) → (⟨S100000x64, .f32⟩ : BufTy).Contents (Elt F) → (⟨S100000x64, .f32⟩ : BufTy).Contents (Elt F))
abbrev o46 : HloOp τ sig (Elt F) := nullary main_c_5 (constantI S_ 32 0#32)
abbrev o47 : HloOp τ sig (Elt F) := unary main_c_5 main_v38 (broadcastInDim S1700000 ![] bcast_S_S1700000 : (⟨S_, .i32⟩ : BufTy).Contents (Elt F) → (⟨S1700000, .i32⟩ : BufTy).Contents (Elt F))
abbrev o48 : HloOp τ sig (Elt F) := binary main_v6 main_v38 main_v39 (cmpi .slt : (⟨S1700000, .i32⟩ : BufTy).Contents (Elt F) → (⟨S1700000, .i32⟩ : BufTy).Contents (Elt F) → (⟨S1700000, .i1⟩ : BufTy).Contents (Elt F))
abbrev o49 : HloOp τ sig (Elt F) := nullary main_c_6 (constantI S_ 32 100000#32)
abbrev o50 : HloOp τ sig (Elt F) := unary main_c_6 main_v40 (broadcastInDim S1700000 ![] bcast_S_S1700000 : (⟨S_, .i32⟩ : BufTy).Contents (Elt F) → (⟨S1700000, .i32⟩ : BufTy).Contents (Elt F))
abbrev o51 : HloOp τ sig (Elt F) := binary main_v6 main_v40 main_v41 (addi : (⟨S1700000, .i32⟩ : BufTy).Contents (Elt F) → (⟨S1700000, .i32⟩ : BufTy).Contents (Elt F) → (⟨S1700000, .i32⟩ : BufTy).Contents (Elt F))
abbrev o52 : HloOp τ sig (Elt F) := ternary main_v39 main_v41 main_v6 main_v42 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
abbrev o53 : HloOp τ sig (Elt F) := unary main_v42 main_v43 (broadcastInDim S1700000x1 ![0] bcast_S1700000_S1700000x1_0 : (⟨S1700000, .i32⟩ : BufTy).Contents (Elt F) → (⟨S1700000x1, .i32⟩ : BufTy).Contents (Elt F))
abbrev o54 : HloOp τ sig (Elt F) := binary main_v37 main_v43 main_v44 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))
abbrev o55 : HloOp τ sig (Elt F) := binary main_v44 main_v12 main_v45 ((fun a b => concatenate S1700000x128 1 [⟨S1700000x64, a⟩, ⟨S1700000x64, b⟩] concatenates_S1700000x64_S1700000x64_S1700000x128_d1) : (⟨S1700000x64, .f32⟩ : BufTy).Contents (Elt F) → (⟨S1700000x64, .f32⟩ : BufTy).Contents (Elt F) → (⟨S1700000x128, .f32⟩ : BufTy).Contents (Elt F))
abbrev o56 : HloOp τ sig (Elt F) := binary main_v45 main_arg8 main_v46 ((fun l r => Host.dotGeneral dot_S1700000x128_S128x64_S1700000x64_1_0_0_1_n_n none l r) : (⟨S1700000x128, .f32⟩ : BufTy).Contents (Elt F) → (⟨S128x64, .f32⟩ : BufTy).Contents (Elt F) → (⟨S1700000x64, .f32⟩ : BufTy).Contents (Elt F))
abbrev o57 : HloOp τ sig (Elt F) := unary main_arg9 main_v47 (broadcastInDim S1x64 ![1] bcast_S64_S1x64_1 : (⟨S64, .f32⟩ : BufTy).Contents (Elt F) → (⟨S1x64, .f32⟩ : BufTy).Contents (Elt F))
abbrev o58 : HloOp τ sig (Elt F) := unary main_v47 main_v48 (broadcastInDim S1700000x64 ![0, 1] bcast_S1x64_S1700000x64_0_1 : (⟨S1x64, .f32⟩ : BufTy).Contents (Elt F) → (⟨S1700000x64, .f32⟩ : BufTy).Contents (Elt F))
abbrev o59 : HloOp τ sig (Elt F) := binary main_v46 main_v48 main_v49 (addf : (⟨S1700000x64, .f32⟩ : BufTy).Contents (Elt F) → (⟨S1700000x64, .f32⟩ : BufTy).Contents (Elt F) → (⟨S1700000x64, .f32⟩ : BufTy).Contents (Elt F))
abbrev o60 : HloOp τ sig (Elt F) := unary main_v49 main_v50 (Host.negf : (⟨S1700000x64, .f32⟩ : BufTy).Contents (Elt F) → (⟨S1700000x64, .f32⟩ : BufTy).Contents (Elt F))
abbrev o61 : HloOp τ sig (Elt F) := unary main_v50 main_v51 (Host.exp : (⟨S1700000x64, .f32⟩ : BufTy).Contents (Elt F) → (⟨S1700000x64, .f32⟩ : BufTy).Contents (Elt F))
abbrev o62 : HloOp τ sig (Elt F) := nullary main_cst_7 (constant S_ .f32 0x3F800000#32)
abbrev o63 : HloOp τ sig (Elt F) := unary main_cst_7 main_v52 (broadcastInDim S1700000x64 ![] bcast_S_S1700000x64 : (⟨S_, .f32⟩ : BufTy).Contents (Elt F) → (⟨S1700000x64, .f32⟩ : BufTy).Contents (Elt F))
abbrev o64 : HloOp τ sig (Elt F) := binary main_v52 main_v51 main_v53 (addf : (⟨S1700000x64, .f32⟩ : BufTy).Contents (Elt F) → (⟨S1700000x64, .f32⟩ : BufTy).Contents (Elt F) → (⟨S1700000x64, .f32⟩ : BufTy).Contents (Elt F))
abbrev o65 : HloOp τ sig (Elt F) := nullary main_cst_8 (constant S_ .f32 0x3F800000#32)
abbrev o66 : HloOp τ sig (Elt F) := unary main_cst_8 main_v54 (broadcastInDim S1700000x64 ![] bcast_S_S1700000x64 : (⟨S_, .f32⟩ : BufTy).Contents (Elt F) → (⟨S1700000x64, .f32⟩ : BufTy).Contents (Elt F))
abbrev o67 : HloOp τ sig (Elt F) := binary main_v54 main_v53 main_v55 (Host.divf : (⟨S1700000x64, .f32⟩ : BufTy).Contents (Elt F) → (⟨S1700000x64, .f32⟩ : BufTy).Contents (Elt F) → (⟨S1700000x64, .f32⟩ : BufTy).Contents (Elt F))
abbrev o68 : HloOp τ sig (Elt F) := binary main_v55 main_v12 main_v56 (mulf : (⟨S1700000x64, .f32⟩ : BufTy).Contents (Elt F) → (⟨S1700000x64, .f32⟩ : BufTy).Contents (Elt F) → (⟨S1700000x64, .f32⟩ : BufTy).Contents (Elt F))
abbrev o69 : HloOp τ sig (Elt F) := nullary main_cst_9 (constant S_ .f32 0x00000000#32)
abbrev o70 : HloOp τ sig (Elt F) := unary main_cst_9 main_v57 (broadcastInDim S100000x64 ![] bcast_S_S100000x64 : (⟨S_, .f32⟩ : BufTy).Contents (Elt F) → (⟨S100000x64, .f32⟩ : BufTy).Contents (Elt F))
abbrev o71 : HloOp τ sig (Elt F) := unary main_v6 main_v58 (broadcastInDim S1700000x1 ![0] bcast_S1700000_S1700000x1_0 : (⟨S1700000, .i32⟩ : BufTy).Contents (Elt F) → (⟨S1700000x1, .i32⟩ : BufTy).Contents (Elt F))
abbrev o72 : HloOp τ sig (Elt F) := ternary main_v57 main_v58 main_v56 main_v59 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))
abbrev o73 : HloOp τ sig (Elt F) := binary main_v37 main_v59 main_v60 (addf : (⟨S100000x64, .f32⟩ : BufTy).Contents (Elt F) → (⟨S100000x64, .f32⟩ : BufTy).Contents (Elt F) → (⟨S100000x64, .f32⟩ : BufTy).Contents (Elt F))
abbrev o74 : HloOp τ sig (Elt F) := nullary main_cst_10 (constant S_ .f32 0x00000000#32)
abbrev o75 : HloOp τ sig (Elt F) := binary main_v60 main_cst_10 main_v61 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o76 : HloOp τ sig (Elt F) := nullary main_cst_11 (constant S_ .f32 0x47C35000#32)
abbrev o77 : HloOp τ sig (Elt F) := unary main_cst_11 main_v62 (broadcastInDim S64 ![] bcast_S_S64 : (⟨S_, .f32⟩ : BufTy).Contents (Elt F) → (⟨S64, .f32⟩ : BufTy).Contents (Elt F))
abbrev o78 : HloOp τ sig (Elt F) := binary main_v61 main_v62 main_v63 (Host.divf : (⟨S64, .f32⟩ : BufTy).Contents (Elt F) → (⟨S64, .f32⟩ : BufTy).Contents (Elt F) → (⟨S64, .f32⟩ : BufTy).Contents (Elt F))
abbrev o79 : HloOp τ sig (Elt F) := unary main_v63 main_v64 (broadcastInDim S1x64 ![1] bcast_S64_S1x64_1 : (⟨S64, .f32⟩ : BufTy).Contents (Elt F) → (⟨S1x64, .f32⟩ : BufTy).Contents (Elt F))
abbrev o80 : HloOp τ sig (Elt F) := unary main_v64 main_v65 (broadcastInDim S100000x64 ![0, 1] bcast_S1x64_S100000x64_0_1 : (⟨S1x64, .f32⟩ : BufTy).Contents (Elt F) → (⟨S100000x64, .f32⟩ : BufTy).Contents (Elt F))
abbrev o81 : HloOp τ sig (Elt F) := binary main_v60 main_v65 main_v66 (subf : (⟨S100000x64, .f32⟩ : BufTy).Contents (Elt F) → (⟨S100000x64, .f32⟩ : BufTy).Contents (Elt F) → (⟨S100000x64, .f32⟩ : BufTy).Contents (Elt F))
abbrev o82 : HloOp τ sig (Elt F) := binary main_v66 main_v66 main_v67 (mulf : (⟨S100000x64, .f32⟩ : BufTy).Contents (Elt F) → (⟨S100000x64, .f32⟩ : BufTy).Contents (Elt F) → (⟨S100000x64, .f32⟩ : BufTy).Contents (Elt F))
abbrev o83 : HloOp τ sig (Elt F) := nullary main_cst_12 (constant S_ .f32 0x00000000#32)
abbrev o84 : HloOp τ sig (Elt F) := binary main_v67 main_cst_12 main_v68 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o85 : HloOp τ sig (Elt F) := nullary main_cst_13 (constant S_ .f32 0x47C35000#32)
abbrev o86 : HloOp τ sig (Elt F) := unary main_cst_13 main_v69 (broadcastInDim S64 ![] bcast_S_S64 : (⟨S_, .f32⟩ : BufTy).Contents (Elt F) → (⟨S64, .f32⟩ : BufTy).Contents (Elt F))
abbrev o87 : HloOp τ sig (Elt F) := binary main_v68 main_v69 main_v70 (Host.divf : (⟨S64, .f32⟩ : BufTy).Contents (Elt F) → (⟨S64, .f32⟩ : BufTy).Contents (Elt F) → (⟨S64, .f32⟩ : BufTy).Contents (Elt F))
abbrev o88 : HloOp τ sig (Elt F) := unary main_v63 main_v71 (broadcastInDim S1x64 ![1] bcast_S64_S1x64_1 : (⟨S64, .f32⟩ : BufTy).Contents (Elt F) → (⟨S1x64, .f32⟩ : BufTy).Contents (Elt F))
abbrev o89 : HloOp τ sig (Elt F) := unary main_v71 main_v72 (broadcastInDim S100000x64 ![0, 1] bcast_S1x64_S100000x64_0_1 : (⟨S1x64, .f32⟩ : BufTy).Contents (Elt F) → (⟨S100000x64, .f32⟩ : BufTy).Contents (Elt F))
abbrev o90 : HloOp τ sig (Elt F) := binary main_v60 main_v72 main_v73 (subf : (⟨S100000x64, .f32⟩ : BufTy).Contents (Elt F) → (⟨S100000x64, .f32⟩ : BufTy).Contents (Elt F) → (⟨S100000x64, .f32⟩ : BufTy).Contents (Elt F))
abbrev o91 : HloOp τ sig (Elt F) := unary main_arg10 main_v74 (broadcastInDim S1x64 ![1] bcast_S64_S1x64_1 : (⟨S64, .f32⟩ : BufTy).Contents (Elt F) → (⟨S1x64, .f32⟩ : BufTy).Contents (Elt F))
abbrev o92 : HloOp τ sig (Elt F) := unary main_v74 main_v75 (broadcastInDim S100000x64 ![0, 1] bcast_S1x64_S100000x64_0_1 : (⟨S1x64, .f32⟩ : BufTy).Contents (Elt F) → (⟨S100000x64, .f32⟩ : BufTy).Contents (Elt F))
abbrev o93 : HloOp τ sig (Elt F) := binary main_v75 main_v73 main_v76 (mulf : (⟨S100000x64, .f32⟩ : BufTy).Contents (Elt F) → (⟨S100000x64, .f32⟩ : BufTy).Contents (Elt F) → (⟨S100000x64, .f32⟩ : BufTy).Contents (Elt F))
abbrev o94 : HloOp τ sig (Elt F) := nullary main_cst_14 (constant S_ .f32 0x3727C5AC#32)
abbrev o95 : HloOp τ sig (Elt F) := unary main_cst_14 main_v77 (broadcastInDim S64 ![] bcast_S_S64 : (⟨S_, .f32⟩ : BufTy).Contents (Elt F) → (⟨S64, .f32⟩ : BufTy).Contents (Elt F))
abbrev o96 : HloOp τ sig (Elt F) := binary main_v70 main_v77 main_v78 (addf : (⟨S64, .f32⟩ : BufTy).Contents (Elt F) → (⟨S64, .f32⟩ : BufTy).Contents (Elt F) → (⟨S64, .f32⟩ : BufTy).Contents (Elt F))
abbrev o97 : HloOp τ sig (Elt F) := unary main_v78 main_v79 (Host.rsqrt : (⟨S64, .f32⟩ : BufTy).Contents (Elt F) → (⟨S64, .f32⟩ : BufTy).Contents (Elt F))
abbrev o98 : HloOp τ sig (Elt F) := unary main_v79 main_v80 (broadcastInDim S1x64 ![1] bcast_S64_S1x64_1 : (⟨S64, .f32⟩ : BufTy).Contents (Elt F) → (⟨S1x64, .f32⟩ : BufTy).Contents (Elt F))
abbrev o99 : HloOp τ sig (Elt F) := unary main_v80 main_v81 (broadcastInDim S100000x64 ![0, 1] bcast_S1x64_S100000x64_0_1 : (⟨S1x64, .f32⟩ : BufTy).Contents (Elt F) → (⟨S100000x64, .f32⟩ : BufTy).Contents (Elt F))
abbrev o100 : HloOp τ sig (Elt F) := binary main_v76 main_v81 main_v82 (mulf : (⟨S100000x64, .f32⟩ : BufTy).Contents (Elt F) → (⟨S100000x64, .f32⟩ : BufTy).Contents (Elt F) → (⟨S100000x64, .f32⟩ : BufTy).Contents (Elt F))
abbrev o101 : HloOp τ sig (Elt F) := unary main_arg11 main_v83 (broadcastInDim S1x64 ![1] bcast_S64_S1x64_1 : (⟨S64, .f32⟩ : BufTy).Contents (Elt F) → (⟨S1x64, .f32⟩ : BufTy).Contents (Elt F))
abbrev o102 : HloOp τ sig (Elt F) := unary main_v83 main_v84 (broadcastInDim S100000x64 ![0, 1] bcast_S1x64_S100000x64_0_1 : (⟨S1x64, .f32⟩ : BufTy).Contents (Elt F) → (⟨S100000x64, .f32⟩ : BufTy).Contents (Elt F))
abbrev o103 : HloOp τ sig (Elt F) := binary main_v82 main_v84 main_v85 (addf : (⟨S100000x64, .f32⟩ : BufTy).Contents (Elt F) → (⟨S100000x64, .f32⟩ : BufTy).Contents (Elt F) → (⟨S100000x64, .f32⟩ : BufTy).Contents (Elt F))
abbrev o104 : HloOp τ sig (Elt F) := nullary main_cst_15 (constant S_ .f32 0x40000000#32)
abbrev o105 : HloOp τ sig (Elt F) := unary main_cst_15 main_v86 (broadcastInDim S100000x64 ![] bcast_S_S100000x64 : (⟨S_, .f32⟩ : BufTy).Contents (Elt F) → (⟨S100000x64, .f32⟩ : BufTy).Contents (Elt F))
abbrev o106 : HloOp τ sig (Elt F) := binary main_v86 main_v85 main_v87 (mulf : (⟨S100000x64, .f32⟩ : BufTy).Contents (Elt F) → (⟨S100000x64, .f32⟩ : BufTy).Contents (Elt F) → (⟨S100000x64, .f32⟩ : BufTy).Contents (Elt F))
abbrev o107 : HloOp τ sig (Elt F) := TRef.nullary (TRef.of (T := ⟨S_, .f32⟩) main_call0_cst) (constant S_ .f32 0x00000000#32)
abbrev o108 : HloOp τ sig (Elt F) := TRef.unary (TRef.of (T := ⟨S_, .f32⟩) main_call0_cst) (TRef.of (T := ⟨S100000x64, .f32⟩) main_call0_v0) (broadcastInDim S100000x64 ![] bcast_S_S100000x64)
abbrev o109 : HloOp τ sig (Elt F) := TRef.binary (TRef.of (T := ⟨S100000x64, .f32⟩) main_v87) (TRef.of (T := ⟨S100000x64, .f32⟩) main_call0_v0) (TRef.of (T := ⟨S100000x64, .f32⟩) main_v88) maximumf
abbrev o110 : HloOp τ sig (Elt F) := TRef.nullary (TRef.of (T := ⟨S_, .f32⟩) main_call1_cst) (constant S_ .f32 0x00000000#32)
abbrev o111 : HloOp τ sig (Elt F) := TRef.unary (TRef.of (T := ⟨S_, .f32⟩) main_call1_cst) (TRef.of (T := ⟨S100000x64, .f32⟩) main_call1_v0) (broadcastInDim S100000x64 ![] bcast_S_S100000x64)
abbrev o112 : HloOp τ sig (Elt F) := TRef.binary (TRef.of (T := ⟨S100000x64, .f32⟩) main_v88) (TRef.of (T := ⟨S100000x64, .f32⟩) main_call1_v0) (TRef.of (T := ⟨S100000x64, .f32⟩) main_v89) maximumf
abbrev o113 : HloOp τ sig (Elt F) := nullary main_cst_16 (constant S_ .f32 0x00000000#32)
abbrev o114 : HloOp τ sig (Elt F) := binary main_v89 main_cst_16 main_v90 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o115 : HloOp τ sig (Elt F) := nullary main_cst_17 (constant S_ .f32 0x47C35000#32)
abbrev o116 : HloOp τ sig (Elt F) := unary main_cst_17 main_v91 (broadcastInDim S64 ![] bcast_S_S64 : (⟨S_, .f32⟩ : BufTy).Contents (Elt F) → (⟨S64, .f32⟩ : BufTy).Contents (Elt F))
abbrev o117 : HloOp τ sig (Elt F) := binary main_v90 main_v91 main_v92 (Host.divf : (⟨S64, .f32⟩ : BufTy).Contents (Elt F) → (⟨S64, .f32⟩ : BufTy).Contents (Elt F) → (⟨S64, .f32⟩ : BufTy).Contents (Elt F))
abbrev o118 : HloOp τ sig (Elt F) := binary main_arg23 main_v92 main_v93 (mulf : (⟨S64, .f32⟩ : BufTy).Contents (Elt F) → (⟨S64, .f32⟩ : BufTy).Contents (Elt F) → (⟨S64, .f32⟩ : BufTy).Contents (Elt F))
abbrev o119 : HloOp τ sig (Elt F) := unary main_v93 main_v94 (broadcastInDim S1x64 ![1] bcast_S64_S1x64_1 : (⟨S64, .f32⟩ : BufTy).Contents (Elt F) → (⟨S1x64, .f32⟩ : BufTy).Contents (Elt F))
abbrev o120 : HloOp τ sig (Elt F) := unary main_v94 main_v95 (broadcastInDim S100000x64 ![0, 1] bcast_S1x64_S100000x64_0_1 : (⟨S1x64, .f32⟩ : BufTy).Contents (Elt F) → (⟨S100000x64, .f32⟩ : BufTy).Contents (Elt F))
abbrev o121 : HloOp τ sig (Elt F) := binary main_v89 main_v95 main_v96 (subf : (⟨S100000x64, .f32⟩ : BufTy).Contents (Elt F) → (⟨S100000x64, .f32⟩ : BufTy).Contents (Elt F) → (⟨S100000x64, .f32⟩ : BufTy).Contents (Elt F))
abbrev o122 : HloOp τ sig (Elt F) := binary main_v96 main_v96 main_v97 (mulf : (⟨S100000x64, .f32⟩ : BufTy).Contents (Elt F) → (⟨S100000x64, .f32⟩ : BufTy).Contents (Elt F) → (⟨S100000x64, .f32⟩ : BufTy).Contents (Elt F))
abbrev o123 : HloOp τ sig (Elt F) := nullary main_cst_18 (constant S_ .f32 0x00000000#32)
abbrev o124 : HloOp τ sig (Elt F) := binary main_v97 main_cst_18 main_v98 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o125 : HloOp τ sig (Elt F) := nullary main_cst_19 (constant S_ .f32 0x47C35000#32)
abbrev o126 : HloOp τ sig (Elt F) := unary main_cst_19 main_v99 (broadcastInDim S64 ![] bcast_S_S64 : (⟨S_, .f32⟩ : BufTy).Contents (Elt F) → (⟨S64, .f32⟩ : BufTy).Contents (Elt F))
abbrev o127 : HloOp τ sig (Elt F) := binary main_v98 main_v99 main_v100 (Host.divf : (⟨S64, .f32⟩ : BufTy).Contents (Elt F) → (⟨S64, .f32⟩ : BufTy).Contents (Elt F) → (⟨S64, .f32⟩ : BufTy).Contents (Elt F))
abbrev o128 : HloOp τ sig (Elt F) := unary main_arg21 main_v101 (broadcastInDim S1x64 ![1] bcast_S64_S1x64_1 : (⟨S64, .f32⟩ : BufTy).Contents (Elt F) → (⟨S1x64, .f32⟩ : BufTy).Contents (Elt F))
abbrev o129 : HloOp τ sig (Elt F) := unary main_v101 main_v102 (broadcastInDim S100000x64 ![0, 1] bcast_S1x64_S100000x64_0_1 : (⟨S1x64, .f32⟩ : BufTy).Contents (Elt F) → (⟨S100000x64, .f32⟩ : BufTy).Contents (Elt F))
abbrev o130 : HloOp τ sig (Elt F) := binary main_v102 main_v96 main_v103 (mulf : (⟨S100000x64, .f32⟩ : BufTy).Contents (Elt F) → (⟨S100000x64, .f32⟩ : BufTy).Contents (Elt F) → (⟨S100000x64, .f32⟩ : BufTy).Contents (Elt F))
abbrev o131 : HloOp τ sig (Elt F) := nullary main_cst_20 (constant S_ .f32 0x3727C5AC#32)
abbrev o132 : HloOp τ sig (Elt F) := unary main_cst_20 main_v104 (broadcastInDim S64 ![] bcast_S_S64 : (⟨S_, .f32⟩ : BufTy).Contents (Elt F) → (⟨S64, .f32⟩ : BufTy).Contents (Elt F))
abbrev o133 : HloOp τ sig (Elt F) := binary main_v100 main_v104 main_v105 (addf : (⟨S64, .f32⟩ : BufTy).Contents (Elt F) → (⟨S64, .f32⟩ : BufTy).Contents (Elt F) → (⟨S64, .f32⟩ : BufTy).Contents (Elt F))
abbrev o134 : HloOp τ sig (Elt F) := unary main_v105 main_v106 (Host.rsqrt : (⟨S64, .f32⟩ : BufTy).Contents (Elt F) → (⟨S64, .f32⟩ : BufTy).Contents (Elt F))
abbrev o135 : HloOp τ sig (Elt F) := unary main_v106 main_v107 (broadcastInDim S1x64 ![1] bcast_S64_S1x64_1 : (⟨S64, .f32⟩ : BufTy).Contents (Elt F) → (⟨S1x64, .f32⟩ : BufTy).Contents (Elt F))
abbrev o136 : HloOp τ sig (Elt F) := unary main_v107 main_v108 (broadcastInDim S100000x64 ![0, 1] bcast_S1x64_S100000x64_0_1 : (⟨S1x64, .f32⟩ : BufTy).Contents (Elt F) → (⟨S100000x64, .f32⟩ : BufTy).Contents (Elt F))
abbrev o137 : HloOp τ sig (Elt F) := binary main_v103 main_v108 main_v109 (mulf : (⟨S100000x64, .f32⟩ : BufTy).Contents (Elt F) → (⟨S100000x64, .f32⟩ : BufTy).Contents (Elt F) → (⟨S100000x64, .f32⟩ : BufTy).Contents (Elt F))
abbrev o138 : HloOp τ sig (Elt F) := unary main_arg22 main_v110 (broadcastInDim S1x64 ![1] bcast_S64_S1x64_1 : (⟨S64, .f32⟩ : BufTy).Contents (Elt F) → (⟨S1x64, .f32⟩ : BufTy).Contents (Elt F))
abbrev o139 : HloOp τ sig (Elt F) := unary main_v110 main_v111 (broadcastInDim S100000x64 ![0, 1] bcast_S1x64_S100000x64_0_1 : (⟨S1x64, .f32⟩ : BufTy).Contents (Elt F) → (⟨S100000x64, .f32⟩ : BufTy).Contents (Elt F))
abbrev o140 : HloOp τ sig (Elt F) := binary main_v109 main_v111 main_v112 (addf : (⟨S100000x64, .f32⟩ : BufTy).Contents (Elt F) → (⟨S100000x64, .f32⟩ : BufTy).Contents (Elt F) → (⟨S100000x64, .f32⟩ : BufTy).Contents (Elt F))
abbrev o141 : HloOp τ sig (Elt F) := TRef.nullary (TRef.of (T := ⟨S_, .f32⟩) main_call2_cst) (constant S_ .f32 0x00000000#32)
abbrev o142 : HloOp τ sig (Elt F) := TRef.unary (TRef.of (T := ⟨S_, .f32⟩) main_call2_cst) (TRef.of (T := ⟨S100000x64, .f32⟩) main_call2_v0) (broadcastInDim S100000x64 ![] bcast_S_S100000x64)
abbrev o143 : HloOp τ sig (Elt F) := TRef.binary (TRef.of (T := ⟨S100000x64, .f32⟩) main_v112) (TRef.of (T := ⟨S100000x64, .f32⟩) main_call2_v0) (TRef.of (T := ⟨S100000x64, .f32⟩) main_v113) maximumf
abbrev o144 : HloOp τ sig (Elt F) := binary main_v8 main_arg15 main_v114 ((fun l r => Host.dotGeneral dot_S1700000x16_S16x64_S1700000x64_1_0_0_1_n_n none l r) : (⟨S1700000x16, .f32⟩ : BufTy).Contents (Elt F) → (⟨S16x64, .f32⟩ : BufTy).Contents (Elt F) → (⟨S1700000x64, .f32⟩ : BufTy).Contents (Elt F))
abbrev o145 : HloOp τ sig (Elt F) := unary main_arg16 main_v115 (broadcastInDim S1x64 ![1] bcast_S64_S1x64_1 : (⟨S64, .f32⟩ : BufTy).Contents (Elt F) → (⟨S1x64, .f32⟩ : BufTy).Contents (Elt F))
abbrev o146 : HloOp τ sig (Elt F) := unary main_v115 main_v116 (broadcastInDim S1700000x64 ![0, 1] bcast_S1x64_S1700000x64_0_1 : (⟨S1x64, .f32⟩ : BufTy).Contents (Elt F) → (⟨S1700000x64, .f32⟩ : BufTy).Contents (Elt F))
abbrev o147 : HloOp τ sig (Elt F) := binary main_v114 main_v116 main_v117 (addf : (⟨S1700000x64, .f32⟩ : BufTy).Contents (Elt F) → (⟨S1700000x64, .f32⟩ : BufTy).Contents (Elt F) → (⟨S1700000x64, .f32⟩ : BufTy).Contents (Elt F))
abbrev o148 : HloOp τ sig (Elt F) := nullary main_cst_21 (constant S_ .f32 0x3F800000#32)
abbrev o149 : HloOp τ sig (Elt F) := unary main_cst_21 main_v118 (broadcastInDim S1700000 ![] bcast_S_S1700000 : (⟨S_, .f32⟩ : BufTy).Contents (Elt F) → (⟨S1700000, .f32⟩ : BufTy).Contents (Elt F))
abbrev o150 : HloOp τ sig (Elt F) := nullary main_cst_22 (constant S_ .f32 0x00000000#32)
abbrev o151 : HloOp τ sig (Elt F) := unary main_cst_22 main_v119 (broadcastInDim S100000 ![] bcast_S_S100000 : (⟨S_, .f32⟩ : BufTy).Contents (Elt F) → (⟨S100000, .f32⟩ : BufTy).Contents (Elt F))
abbrev o152 : HloOp τ sig (Elt F) := unary main_v6 main_v120 (broadcastInDim S1700000x1 ![0] bcast_S1700000_S1700000x1_0 : (⟨S1700000, .i32⟩ : BufTy).Contents (Elt F) → (⟨S1700000x1, .i32⟩ : BufTy).Contents (Elt F))
abbrev o153 : HloOp τ sig (Elt F) := ternary main_v119 main_v120 main_v118 main_v121 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))
abbrev o154 : HloOp τ sig (Elt F) := nullary main_c_23 (constantI S_ 32 0#32)
abbrev o155 : HloOp τ sig (Elt F) := unary main_c_23 main_v122 (broadcastInDim S1700000 ![] bcast_S_S1700000 : (⟨S_, .i32⟩ : BufTy).Contents (Elt F) → (⟨S1700000, .i32⟩ : BufTy).Contents (Elt F))
abbrev o156 : HloOp τ sig (Elt F) := binary main_v3 main_v122 main_v123 (cmpi .slt : (⟨S1700000, .i32⟩ : BufTy).Contents (Elt F) → (⟨S1700000, .i32⟩ : BufTy).Contents (Elt F) → (⟨S1700000, .i1⟩ : BufTy).Contents (Elt F))
abbrev o157 : HloOp τ sig (Elt F) := nullary main_c_24 (constantI S_ 32 100000#32)
abbrev o158 : HloOp τ sig (Elt F) := unary main_c_24 main_v124 (broadcastInDim S1700000 ![] bcast_S_S1700000 : (⟨S_, .i32⟩ : BufTy).Contents (Elt F) → (⟨S1700000, .i32⟩ : BufTy).Contents (Elt F))
abbrev o159 : HloOp τ sig (Elt F) := binary main_v3 main_v124 main_v125 (addi : (⟨S1700000, .i32⟩ : BufTy).Contents (Elt F) → (⟨S1700000, .i32⟩ : BufTy).Contents (Elt F) → (⟨S1700000, .i32⟩ : BufTy).Contents (Elt F))
abbrev o160 : HloOp τ sig (Elt F) := ternary main_v123 main_v125 main_v3 main_v126 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
abbrev o161 : HloOp τ sig (Elt F) := unary main_v126 main_v127 (broadcastInDim S1700000x1 ![0] bcast_S1700000_S1700000x1_0 : (⟨S1700000, .i32⟩ : BufTy).Contents (Elt F) → (⟨S1700000x1, .i32⟩ : BufTy).Contents (Elt F))
abbrev o162 : HloOp τ sig (Elt F) := binary main_v113 main_v127 main_v128 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))
abbrev o163 : HloOp τ sig (Elt F) := nullary main_cst_25 (constant S_ .f32 0x00000000#32)
abbrev o164 : HloOp τ sig (Elt F) := unary main_cst_25 main_v129 (broadcastInDim S100000x64 ![] bcast_S_S100000x64 : (⟨S_, .f32⟩ : BufTy).Contents (Elt F) → (⟨S100000x64, .f32⟩ : BufTy).Contents (Elt F))
abbrev o165 : HloOp τ sig (Elt F) := unary main_v6 main_v130 (broadcastInDim S1700000x1 ![0] bcast_S1700000_S1700000x1_0 : (⟨S1700000, .i32⟩ : BufTy).Contents (Elt F) → (⟨S1700000x1, .i32⟩ : BufTy).Contents (Elt F))
abbrev o166 : HloOp τ sig (Elt F) := ternary main_v129 main_v130 main_v128 main_v131 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))
abbrev o167 : HloOp τ sig (Elt F) := nullary main_cst_26 (constant S_ .f32 0x3F800000#32)
abbrev o168 : HloOp τ sig (Elt F) := unary main_cst_26 main_v132 (broadcastInDim S100000 ![] bcast_S_S100000 : (⟨S_, .f32⟩ : BufTy).Contents (Elt F) → (⟨S100000, .f32⟩ : BufTy).Contents (Elt F))
abbrev o169 : HloOp τ sig (Elt F) := binary main_v121 main_v132 main_v133 (maximumf : (⟨S100000, .f32⟩ : BufTy).Contents (Elt F) → (⟨S100000, .f32⟩ : BufTy).Contents (Elt F) → (⟨S100000, .f32⟩ : BufTy).Contents (Elt F))
abbrev o170 : HloOp τ sig (Elt F) := unary main_v133 main_v134 (broadcastInDim S100000x1 ![0] bcast_S100000_S100000x1_0 : (⟨S100000, .f32⟩ : BufTy).Contents (Elt F) → (⟨S100000x1, .f32⟩ : BufTy).Contents (Elt F))
abbrev o171 : HloOp τ sig (Elt F) := unary main_v134 main_v135 (broadcastInDim S100000x64 ![0, 1] bcast_S100000x1_S100000x64_0_1 : (⟨S100000x1, .f32⟩ : BufTy).Contents (Elt F) → (⟨S100000x64, .f32⟩ : BufTy).Contents (Elt F))
abbrev o172 : HloOp τ sig (Elt F) := binary main_v131 main_v135 main_v136 (Host.divf : (⟨S100000x64, .f32⟩ : BufTy).Contents (Elt F) → (⟨S100000x64, .f32⟩ : BufTy).Contents (Elt F) → (⟨S100000x64, .f32⟩ : BufTy).Contents (Elt F))
abbrev o173 : HloOp τ sig (Elt F) := binary main_v136 main_arg12 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
abbrev o174 : HloOp τ sig (Elt F) := unary main_arg13 main_v138 (broadcastInDim S1x64 ![1] bcast_S64_S1x64_1 : (⟨S64, .f32⟩ : BufTy).Contents (Elt F) → (⟨S1x64, .f32⟩ : BufTy).Contents (Elt F))
abbrev o175 : HloOp τ sig (Elt F) := unary main_v138 main_v139 (broadcastInDim S100000x64 ![0, 1] bcast_S1x64_S100000x64_0_1 : (⟨S1x64, .f32⟩ : BufTy).Contents (Elt F) → (⟨S100000x64, .f32⟩ : BufTy).Contents (Elt F))
abbrev o176 : HloOp τ sig (Elt F) := binary main_v137 main_v139 main_v140 (addf : (⟨S100000x64, .f32⟩ : BufTy).Contents (Elt F) → (⟨S100000x64, .f32⟩ : BufTy).Contents (Elt F) → (⟨S100000x64, .f32⟩ : BufTy).Contents (Elt F))
abbrev o177 : HloOp τ sig (Elt F) := binary main_v113 main_arg14 main_v141 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
abbrev o178 : HloOp τ sig (Elt F) := binary main_v140 main_v141 main_v142 (addf : (⟨S100000x64, .f32⟩ : BufTy).Contents (Elt F) → (⟨S100000x64, .f32⟩ : BufTy).Contents (Elt F) → (⟨S100000x64, .f32⟩ : BufTy).Contents (Elt F))
abbrev o179 : HloOp τ sig (Elt F) := nullary main_c_27 (constantI S_ 32 0#32)
abbrev o180 : HloOp τ sig (Elt F) := unary main_c_27 main_v143 (broadcastInDim S1700000 ![] bcast_S_S1700000 : (⟨S_, .i32⟩ : BufTy).Contents (Elt F) → (⟨S1700000, .i32⟩ : BufTy).Contents (Elt F))
abbrev o181 : HloOp τ sig (Elt F) := binary main_v6 main_v143 main_v144 (cmpi .slt : (⟨S1700000, .i32⟩ : BufTy).Contents (Elt F) → (⟨S1700000, .i32⟩ : BufTy).Contents (Elt F) → (⟨S1700000, .i1⟩ : BufTy).Contents (Elt F))
abbrev o182 : HloOp τ sig (Elt F) := nullary main_c_28 (constantI S_ 32 100000#32)
abbrev o183 : HloOp τ sig (Elt F) := unary main_c_28 main_v145 (broadcastInDim S1700000 ![] bcast_S_S1700000 : (⟨S_, .i32⟩ : BufTy).Contents (Elt F) → (⟨S1700000, .i32⟩ : BufTy).Contents (Elt F))
abbrev o184 : HloOp τ sig (Elt F) := binary main_v6 main_v145 main_v146 (addi : (⟨S1700000, .i32⟩ : BufTy).Contents (Elt F) → (⟨S1700000, .i32⟩ : BufTy).Contents (Elt F) → (⟨S1700000, .i32⟩ : BufTy).Contents (Elt F))
abbrev o185 : HloOp τ sig (Elt F) := ternary main_v144 main_v146 main_v6 main_v147 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
abbrev o186 : HloOp τ sig (Elt F) := unary main_v147 main_v148 (broadcastInDim S1700000x1 ![0] bcast_S1700000_S1700000x1_0 : (⟨S1700000, .i32⟩ : BufTy).Contents (Elt F) → (⟨S1700000x1, .i32⟩ : BufTy).Contents (Elt F))
abbrev o187 : HloOp τ sig (Elt F) := binary main_v142 main_v148 main_v149 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))
abbrev o188 : HloOp τ sig (Elt F) := binary main_v149 main_v117 main_v150 ((fun a b => concatenate S1700000x128 1 [⟨S1700000x64, a⟩, ⟨S1700000x64, b⟩] concatenates_S1700000x64_S1700000x64_S1700000x128_d1) : (⟨S1700000x64, .f32⟩ : BufTy).Contents (Elt F) → (⟨S1700000x64, .f32⟩ : BufTy).Contents (Elt F) → (⟨S1700000x128, .f32⟩ : BufTy).Contents (Elt F))
abbrev o189 : HloOp τ sig (Elt F) := binary main_v150 main_arg17 main_v151 ((fun l r => Host.dotGeneral dot_S1700000x128_S128x64_S1700000x64_1_0_0_1_n_n none l r) : (⟨S1700000x128, .f32⟩ : BufTy).Contents (Elt F) → (⟨S128x64, .f32⟩ : BufTy).Contents (Elt F) → (⟨S1700000x64, .f32⟩ : BufTy).Contents (Elt F))
abbrev o190 : HloOp τ sig (Elt F) := unary main_arg18 main_v152 (broadcastInDim S1x64 ![1] bcast_S64_S1x64_1 : (⟨S64, .f32⟩ : BufTy).Contents (Elt F) → (⟨S1x64, .f32⟩ : BufTy).Contents (Elt F))
abbrev o191 : HloOp τ sig (Elt F) := unary main_v152 main_v153 (broadcastInDim S1700000x64 ![0, 1] bcast_S1x64_S1700000x64_0_1 : (⟨S1x64, .f32⟩ : BufTy).Contents (Elt F) → (⟨S1700000x64, .f32⟩ : BufTy).Contents (Elt F))
abbrev o192 : HloOp τ sig (Elt F) := binary main_v151 main_v153 main_v154 (addf : (⟨S1700000x64, .f32⟩ : BufTy).Contents (Elt F) → (⟨S1700000x64, .f32⟩ : BufTy).Contents (Elt F) → (⟨S1700000x64, .f32⟩ : BufTy).Contents (Elt F))
abbrev o193 : HloOp τ sig (Elt F) := unary main_v154 main_v155 (Host.negf : (⟨S1700000x64, .f32⟩ : BufTy).Contents (Elt F) → (⟨S1700000x64, .f32⟩ : BufTy).Contents (Elt F))
abbrev o194 : HloOp τ sig (Elt F) := unary main_v155 main_v156 (Host.exp : (⟨S1700000x64, .f32⟩ : BufTy).Contents (Elt F) → (⟨S1700000x64, .f32⟩ : BufTy).Contents (Elt F))
abbrev o195 : HloOp τ sig (Elt F) := nullary main_cst_29 (constant S_ .f32 0x3F800000#32)
abbrev o196 : HloOp τ sig (Elt F) := unary main_cst_29 main_v157 (broadcastInDim S1700000x64 ![] bcast_S_S1700000x64 : (⟨S_, .f32⟩ : BufTy).Contents (Elt F) → (⟨S1700000x64, .f32⟩ : BufTy).Contents (Elt F))
abbrev o197 : HloOp τ sig (Elt F) := binary main_v157 main_v156 main_v158 (addf : (⟨S1700000x64, .f32⟩ : BufTy).Contents (Elt F) → (⟨S1700000x64, .f32⟩ : BufTy).Contents (Elt F) → (⟨S1700000x64, .f32⟩ : BufTy).Contents (Elt F))
abbrev o198 : HloOp τ sig (Elt F) := nullary main_cst_30 (constant S_ .f32 0x3F800000#32)
abbrev o199 : HloOp τ sig (Elt F) := unary main_cst_30 main_v159 (broadcastInDim S1700000x64 ![] bcast_S_S1700000x64 : (⟨S_, .f32⟩ : BufTy).Contents (Elt F) → (⟨S1700000x64, .f32⟩ : BufTy).Contents (Elt F))
abbrev o200 : HloOp τ sig (Elt F) := binary main_v159 main_v158 main_v160 (Host.divf : (⟨S1700000x64, .f32⟩ : BufTy).Contents (Elt F) → (⟨S1700000x64, .f32⟩ : BufTy).Contents (Elt F) → (⟨S1700000x64, .f32⟩ : BufTy).Contents (Elt F))
abbrev o201 : HloOp τ sig (Elt F) := binary main_v160 main_v117 main_v161 (mulf : (⟨S1700000x64, .f32⟩ : BufTy).Contents (Elt F) → (⟨S1700000x64, .f32⟩ : BufTy).Contents (Elt F) → (⟨S1700000x64, .f32⟩ : BufTy).Contents (Elt F))
abbrev o202 : HloOp τ sig (Elt F) := nullary main_cst_31 (constant S_ .f32 0x00000000#32)
abbrev o203 : HloOp τ sig (Elt F) := unary main_cst_31 main_v162 (broadcastInDim S100000x64 ![] bcast_S_S100000x64 : (⟨S_, .f32⟩ : BufTy).Contents (Elt F) → (⟨S100000x64, .f32⟩ : BufTy).Contents (Elt F))
abbrev o204 : HloOp τ sig (Elt F) := unary main_v6 main_v163 (broadcastInDim S1700000x1 ![0] bcast_S1700000_S1700000x1_0 : (⟨S1700000, .i32⟩ : BufTy).Contents (Elt F) → (⟨S1700000x1, .i32⟩ : BufTy).Contents (Elt F))
abbrev o205 : HloOp τ sig (Elt F) := ternary main_v162 main_v163 main_v161 main_v164 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))
abbrev o206 : HloOp τ sig (Elt F) := binary main_v142 main_v164 main_v165 (addf : (⟨S100000x64, .f32⟩ : BufTy).Contents (Elt F) → (⟨S100000x64, .f32⟩ : BufTy).Contents (Elt F) → (⟨S100000x64, .f32⟩ : BufTy).Contents (Elt F))
abbrev o207 : HloOp τ sig (Elt F) := nullary main_cst_32 (constant S_ .f32 0x00000000#32)
abbrev o208 : HloOp τ sig (Elt F) := binary main_v165 main_cst_32 main_v166 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o209 : HloOp τ sig (Elt F) := nullary main_cst_33 (constant S_ .f32 0x47C35000#32)
abbrev o210 : HloOp τ sig (Elt F) := unary main_cst_33 main_v167 (broadcastInDim S64 ![] bcast_S_S64 : (⟨S_, .f32⟩ : BufTy).Contents (Elt F) → (⟨S64, .f32⟩ : BufTy).Contents (Elt F))
abbrev o211 : HloOp τ sig (Elt F) := binary main_v166 main_v167 main_v168 (Host.divf : (⟨S64, .f32⟩ : BufTy).Contents (Elt F) → (⟨S64, .f32⟩ : BufTy).Contents (Elt F) → (⟨S64, .f32⟩ : BufTy).Contents (Elt F))
abbrev o212 : HloOp τ sig (Elt F) := unary main_v168 main_v169 (broadcastInDim S1x64 ![1] bcast_S64_S1x64_1 : (⟨S64, .f32⟩ : BufTy).Contents (Elt F) → (⟨S1x64, .f32⟩ : BufTy).Contents (Elt F))
abbrev o213 : HloOp τ sig (Elt F) := unary main_v169 main_v170 (broadcastInDim S100000x64 ![0, 1] bcast_S1x64_S100000x64_0_1 : (⟨S1x64, .f32⟩ : BufTy).Contents (Elt F) → (⟨S100000x64, .f32⟩ : BufTy).Contents (Elt F))
abbrev o214 : HloOp τ sig (Elt F) := binary main_v165 main_v170 main_v171 (subf : (⟨S100000x64, .f32⟩ : BufTy).Contents (Elt F) → (⟨S100000x64, .f32⟩ : BufTy).Contents (Elt F) → (⟨S100000x64, .f32⟩ : BufTy).Contents (Elt F))
abbrev o215 : HloOp τ sig (Elt F) := binary main_v171 main_v171 main_v172 (mulf : (⟨S100000x64, .f32⟩ : BufTy).Contents (Elt F) → (⟨S100000x64, .f32⟩ : BufTy).Contents (Elt F) → (⟨S100000x64, .f32⟩ : BufTy).Contents (Elt F))
abbrev o216 : HloOp τ sig (Elt F) := nullary main_cst_34 (constant S_ .f32 0x00000000#32)
abbrev o217 : HloOp τ sig (Elt F) := binary main_v172 main_cst_34 main_v173 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o218 : HloOp τ sig (Elt F) := nullary main_cst_35 (constant S_ .f32 0x47C35000#32)
abbrev o219 : HloOp τ sig (Elt F) := unary main_cst_35 main_v174 (broadcastInDim S64 ![] bcast_S_S64 : (⟨S_, .f32⟩ : BufTy).Contents (Elt F) → (⟨S64, .f32⟩ : BufTy).Contents (Elt F))
abbrev o220 : HloOp τ sig (Elt F) := binary main_v173 main_v174 main_v175 (Host.divf : (⟨S64, .f32⟩ : BufTy).Contents (Elt F) → (⟨S64, .f32⟩ : BufTy).Contents (Elt F) → (⟨S64, .f32⟩ : BufTy).Contents (Elt F))
abbrev o221 : HloOp τ sig (Elt F) := unary main_v168 main_v176 (broadcastInDim S1x64 ![1] bcast_S64_S1x64_1 : (⟨S64, .f32⟩ : BufTy).Contents (Elt F) → (⟨S1x64, .f32⟩ : BufTy).Contents (Elt F))
abbrev o222 : HloOp τ sig (Elt F) := unary main_v176 main_v177 (broadcastInDim S100000x64 ![0, 1] bcast_S1x64_S100000x64_0_1 : (⟨S1x64, .f32⟩ : BufTy).Contents (Elt F) → (⟨S100000x64, .f32⟩ : BufTy).Contents (Elt F))
abbrev o223 : HloOp τ sig (Elt F) := binary main_v165 main_v177 main_v178 (subf : (⟨S100000x64, .f32⟩ : BufTy).Contents (Elt F) → (⟨S100000x64, .f32⟩ : BufTy).Contents (Elt F) → (⟨S100000x64, .f32⟩ : BufTy).Contents (Elt F))
abbrev o224 : HloOp τ sig (Elt F) := unary main_arg19 main_v179 (broadcastInDim S1x64 ![1] bcast_S64_S1x64_1 : (⟨S64, .f32⟩ : BufTy).Contents (Elt F) → (⟨S1x64, .f32⟩ : BufTy).Contents (Elt F))
abbrev o225 : HloOp τ sig (Elt F) := unary main_v179 main_v180 (broadcastInDim S100000x64 ![0, 1] bcast_S1x64_S100000x64_0_1 : (⟨S1x64, .f32⟩ : BufTy).Contents (Elt F) → (⟨S100000x64, .f32⟩ : BufTy).Contents (Elt F))
abbrev o226 : HloOp τ sig (Elt F) := binary main_v180 main_v178 main_v181 (mulf : (⟨S100000x64, .f32⟩ : BufTy).Contents (Elt F) → (⟨S100000x64, .f32⟩ : BufTy).Contents (Elt F) → (⟨S100000x64, .f32⟩ : BufTy).Contents (Elt F))
abbrev o227 : HloOp τ sig (Elt F) := nullary main_cst_36 (constant S_ .f32 0x3727C5AC#32)
abbrev o228 : HloOp τ sig (Elt F) := unary main_cst_36 main_v182 (broadcastInDim S64 ![] bcast_S_S64 : (⟨S_, .f32⟩ : BufTy).Contents (Elt F) → (⟨S64, .f32⟩ : BufTy).Contents (Elt F))
abbrev o229 : HloOp τ sig (Elt F) := binary main_v175 main_v182 main_v183 (addf : (⟨S64, .f32⟩ : BufTy).Contents (Elt F) → (⟨S64, .f32⟩ : BufTy).Contents (Elt F) → (⟨S64, .f32⟩ : BufTy).Contents (Elt F))
abbrev o230 : HloOp τ sig (Elt F) := unary main_v183 main_v184 (Host.rsqrt : (⟨S64, .f32⟩ : BufTy).Contents (Elt F) → (⟨S64, .f32⟩ : BufTy).Contents (Elt F))
abbrev o231 : HloOp τ sig (Elt F) := unary main_v184 main_v185 (broadcastInDim S1x64 ![1] bcast_S64_S1x64_1 : (⟨S64, .f32⟩ : BufTy).Contents (Elt F) → (⟨S1x64, .f32⟩ : BufTy).Contents (Elt F))
abbrev o232 : HloOp τ sig (Elt F) := unary main_v185 main_v186 (broadcastInDim S100000x64 ![0, 1] bcast_S1x64_S100000x64_0_1 : (⟨S1x64, .f32⟩ : BufTy).Contents (Elt F) → (⟨S100000x64, .f32⟩ : BufTy).Contents (Elt F))
abbrev o233 : HloOp τ sig (Elt F) := binary main_v181 main_v186 main_v187 (mulf : (⟨S100000x64, .f32⟩ : BufTy).Contents (Elt F) → (⟨S100000x64, .f32⟩ : BufTy).Contents (Elt F) → (⟨S100000x64, .f32⟩ : BufTy).Contents (Elt F))
abbrev o234 : HloOp τ sig (Elt F) := unary main_arg20 main_v188 (broadcastInDim S1x64 ![1] bcast_S64_S1x64_1 : (⟨S64, .f32⟩ : BufTy).Contents (Elt F) → (⟨S1x64, .f32⟩ : BufTy).Contents (Elt F))
abbrev o235 : HloOp τ sig (Elt F) := unary main_v188 main_v189 (broadcastInDim S100000x64 ![0, 1] bcast_S1x64_S100000x64_0_1 : (⟨S1x64, .f32⟩ : BufTy).Contents (Elt F) → (⟨S100000x64, .f32⟩ : BufTy).Contents (Elt F))
abbrev o236 : HloOp τ sig (Elt F) := binary main_v187 main_v189 main_v190 (addf : (⟨S100000x64, .f32⟩ : BufTy).Contents (Elt F) → (⟨S100000x64, .f32⟩ : BufTy).Contents (Elt F) → (⟨S100000x64, .f32⟩ : BufTy).Contents (Elt F))
abbrev o237 : HloOp τ sig (Elt F) := nullary main_cst_37 (constant S_ .f32 0x40000000#32)
abbrev o238 : HloOp τ sig (Elt F) := unary main_cst_37 main_v191 (broadcastInDim S100000x64 ![] bcast_S_S100000x64 : (⟨S_, .f32⟩ : BufTy).Contents (Elt F) → (⟨S100000x64, .f32⟩ : BufTy).Contents (Elt F))
abbrev o239 : HloOp τ sig (Elt F) := binary main_v191 main_v190 main_v192 (mulf : (⟨S100000x64, .f32⟩ : BufTy).Contents (Elt F) → (⟨S100000x64, .f32⟩ : BufTy).Contents (Elt F) → (⟨S100000x64, .f32⟩ : BufTy).Contents (Elt F))
abbrev o240 : HloOp τ sig (Elt F) := TRef.nullary (TRef.of (T := ⟨S_, .f32⟩) main_call3_cst) (constant S_ .f32 0x00000000#32)
abbrev o241 : HloOp τ sig (Elt F) := TRef.unary (TRef.of (T := ⟨S_, .f32⟩) main_call3_cst) (TRef.of (T := ⟨S100000x64, .f32⟩) main_call3_v0) (broadcastInDim S100000x64 ![] bcast_S_S100000x64)
abbrev o242 : HloOp τ sig (Elt F) := TRef.binary (TRef.of (T := ⟨S100000x64, .f32⟩) main_v192) (TRef.of (T := ⟨S100000x64, .f32⟩) main_call3_v0) (TRef.of (T := ⟨S100000x64, .f32⟩) main_v193) maximumf
abbrev o243 : HloOp τ sig (Elt F) := TRef.nullary (TRef.of (T := ⟨S_, .f32⟩) main_call4_cst) (constant S_ .f32 0x00000000#32)
abbrev o244 : HloOp τ sig (Elt F) := TRef.unary (TRef.of (T := ⟨S_, .f32⟩) main_call4_cst) (TRef.of (T := ⟨S100000x64, .f32⟩) main_call4_v0) (broadcastInDim S100000x64 ![] bcast_S_S100000x64)
abbrev o245 : HloOp τ sig (Elt F) := TRef.binary (TRef.of (T := ⟨S100000x64, .f32⟩) main_v193) (TRef.of (T := ⟨S100000x64, .f32⟩) main_call4_v0) (TRef.of (T := ⟨S100000x64, .f32⟩) main_v194) maximumf
abbrev o246 : HloOp τ sig (Elt F) := nullary main_cst_38 (constant S_ .f32 0x00000000#32)
abbrev o247 : HloOp τ sig (Elt F) := binary main_v194 main_cst_38 main_v195 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o248 : HloOp τ sig (Elt F) := nullary main_cst_39 (constant S_ .f32 0x47C35000#32)
abbrev o249 : HloOp τ sig (Elt F) := unary main_cst_39 main_v196 (broadcastInDim S64 ![] bcast_S_S64 : (⟨S_, .f32⟩ : BufTy).Contents (Elt F) → (⟨S64, .f32⟩ : BufTy).Contents (Elt F))
abbrev o250 : HloOp τ sig (Elt F) := binary main_v195 main_v196 main_v197 (Host.divf : (⟨S64, .f32⟩ : BufTy).Contents (Elt F) → (⟨S64, .f32⟩ : BufTy).Contents (Elt F) → (⟨S64, .f32⟩ : BufTy).Contents (Elt F))
abbrev o251 : HloOp τ sig (Elt F) := binary main_arg26 main_v197 main_v198 (mulf : (⟨S64, .f32⟩ : BufTy).Contents (Elt F) → (⟨S64, .f32⟩ : BufTy).Contents (Elt F) → (⟨S64, .f32⟩ : BufTy).Contents (Elt F))
abbrev o252 : HloOp τ sig (Elt F) := unary main_v198 main_v199 (broadcastInDim S1x64 ![1] bcast_S64_S1x64_1 : (⟨S64, .f32⟩ : BufTy).Contents (Elt F) → (⟨S1x64, .f32⟩ : BufTy).Contents (Elt F))
abbrev o253 : HloOp τ sig (Elt F) := unary main_v199 main_v200 (broadcastInDim S100000x64 ![0, 1] bcast_S1x64_S100000x64_0_1 : (⟨S1x64, .f32⟩ : BufTy).Contents (Elt F) → (⟨S100000x64, .f32⟩ : BufTy).Contents (Elt F))
abbrev o254 : HloOp τ sig (Elt F) := binary main_v194 main_v200 main_v201 (subf : (⟨S100000x64, .f32⟩ : BufTy).Contents (Elt F) → (⟨S100000x64, .f32⟩ : BufTy).Contents (Elt F) → (⟨S100000x64, .f32⟩ : BufTy).Contents (Elt F))
abbrev o255 : HloOp τ sig (Elt F) := binary main_v201 main_v201 main_v202 (mulf : (⟨S100000x64, .f32⟩ : BufTy).Contents (Elt F) → (⟨S100000x64, .f32⟩ : BufTy).Contents (Elt F) → (⟨S100000x64, .f32⟩ : BufTy).Contents (Elt F))
abbrev o256 : HloOp τ sig (Elt F) := nullary main_cst_40 (constant S_ .f32 0x00000000#32)
abbrev o257 : HloOp τ sig (Elt F) := binary main_v202 main_cst_40 main_v203 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))
abbrev o258 : HloOp τ sig (Elt F) := nullary main_cst_41 (constant S_ .f32 0x47C35000#32)
abbrev o259 : HloOp τ sig (Elt F) := unary main_cst_41 main_v204 (broadcastInDim S64 ![] bcast_S_S64 : (⟨S_, .f32⟩ : BufTy).Contents (Elt F) → (⟨S64, .f32⟩ : BufTy).Contents (Elt F))
abbrev o260 : HloOp τ sig (Elt F) := binary main_v203 main_v204 main_v205 (Host.divf : (⟨S64, .f32⟩ : BufTy).Contents (Elt F) → (⟨S64, .f32⟩ : BufTy).Contents (Elt F) → (⟨S64, .f32⟩ : BufTy).Contents (Elt F))
abbrev o261 : HloOp τ sig (Elt F) := unary main_arg24 main_v206 (broadcastInDim S1x64 ![1] bcast_S64_S1x64_1 : (⟨S64, .f32⟩ : BufTy).Contents (Elt F) → (⟨S1x64, .f32⟩ : BufTy).Contents (Elt F))
abbrev o262 : HloOp τ sig (Elt F) := unary main_v206 main_v207 (broadcastInDim S100000x64 ![0, 1] bcast_S1x64_S100000x64_0_1 : (⟨S1x64, .f32⟩ : BufTy).Contents (Elt F) → (⟨S100000x64, .f32⟩ : BufTy).Contents (Elt F))
abbrev o263 : HloOp τ sig (Elt F) := binary main_v207 main_v201 main_v208 (mulf : (⟨S100000x64, .f32⟩ : BufTy).Contents (Elt F) → (⟨S100000x64, .f32⟩ : BufTy).Contents (Elt F) → (⟨S100000x64, .f32⟩ : BufTy).Contents (Elt F))
abbrev o264 : HloOp τ sig (Elt F) := nullary main_cst_42 (constant S_ .f32 0x3727C5AC#32)
abbrev o265 : HloOp τ sig (Elt F) := unary main_cst_42 main_v209 (broadcastInDim S64 ![] bcast_S_S64 : (⟨S_, .f32⟩ : BufTy).Contents (Elt F) → (⟨S64, .f32⟩ : BufTy).Contents (Elt F))
abbrev o266 : HloOp τ sig (Elt F) := binary main_v205 main_v209 main_v210 (addf : (⟨S64, .f32⟩ : BufTy).Contents (Elt F) → (⟨S64, .f32⟩ : BufTy).Contents (Elt F) → (⟨S64, .f32⟩ : BufTy).Contents (Elt F))
abbrev o267 : HloOp τ sig (Elt F) := unary main_v210 main_v211 (Host.rsqrt : (⟨S64, .f32⟩ : BufTy).Contents (Elt F) → (⟨S64, .f32⟩ : BufTy).Contents (Elt F))
abbrev o268 : HloOp τ sig (Elt F) := unary main_v211 main_v212 (broadcastInDim S1x64 ![1] bcast_S64_S1x64_1 : (⟨S64, .f32⟩ : BufTy).Contents (Elt F) → (⟨S1x64, .f32⟩ : BufTy).Contents (Elt F))
abbrev o269 : HloOp τ sig (Elt F) := unary main_v212 main_v213 (broadcastInDim S100000x64 ![0, 1] bcast_S1x64_S100000x64_0_1 : (⟨S1x64, .f32⟩ : BufTy).Contents (Elt F) → (⟨S100000x64, .f32⟩ : BufTy).Contents (Elt F))
abbrev o270 : HloOp τ sig (Elt F) := binary main_v208 main_v213 main_v214 (mulf : (⟨S100000x64, .f32⟩ : BufTy).Contents (Elt F) → (⟨S100000x64, .f32⟩ : BufTy).Contents (Elt F) → (⟨S100000x64, .f32⟩ : BufTy).Contents (Elt F))
abbrev o271 : HloOp τ sig (Elt F) := unary main_arg25 main_v215 (broadcastInDim S1x64 ![1] bcast_S64_S1x64_1 : (⟨S64, .f32⟩ : BufTy).Contents (Elt F) → (⟨S1x64, .f32⟩ : BufTy).Contents (Elt F))
abbrev o272 : HloOp τ sig (Elt F) := unary main_v215 main_v216 (broadcastInDim S100000x64 ![0, 1] bcast_S1x64_S100000x64_0_1 : (⟨S1x64, .f32⟩ : BufTy).Contents (Elt F) → (⟨S100000x64, .f32⟩ : BufTy).Contents (Elt F))
abbrev o273 : HloOp τ sig (Elt F) := binary main_v214 main_v216 main_v217 (addf : (⟨S100000x64, .f32⟩ : BufTy).Contents (Elt F) → (⟨S100000x64, .f32⟩ : BufTy).Contents (Elt F) → (⟨S100000x64, .f32⟩ : BufTy).Contents (Elt F))
abbrev o274 : HloOp τ sig (Elt F) := TRef.nullary (TRef.of (T := ⟨S_, .f32⟩) main_call5_cst) (constant S_ .f32 0x00000000#32)
abbrev o275 : HloOp τ sig (Elt F) := TRef.unary (TRef.of (T := ⟨S_, .f32⟩) main_call5_cst) (TRef.of (T := ⟨S100000x64, .f32⟩) main_call5_v0) (broadcastInDim S100000x64 ![] bcast_S_S100000x64)
abbrev o276 : HloOp τ sig (Elt F) := TRef.binary (TRef.of (T := ⟨S100000x64, .f32⟩) main_v217) (TRef.of (T := ⟨S100000x64, .f32⟩) main_call5_v0) (TRef.of (T := ⟨S100000x64, .f32⟩) main_v218) maximumf
abbrev o277 : HloOp τ sig (Elt F) := binary main_v218 main_arg27 main_v219 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F))
abbrev o278 : HloOp τ sig (Elt F) := unary main_arg28 main_v220 (broadcastInDim S1x16 ![1] bcast_S16_S1x16_1 : (⟨S16, .f32⟩ : BufTy).Contents (Elt F) → (⟨S1x16, .f32⟩ : BufTy).Contents (Elt F))
abbrev o279 : HloOp τ sig (Elt F) := unary main_v220 main_v221 (broadcastInDim S100000x16 ![0, 1] bcast_S1x16_S100000x16_0_1 : (⟨S1x16, .f32⟩ : BufTy).Contents (Elt F) → (⟨S100000x16, .f32⟩ : BufTy).Contents (Elt F))
abbrev o280 : HloOp τ sig (Elt F) := binary main_v219 main_v221 main_v222 (addf : (⟨S100000x16, .f32⟩ : BufTy).Contents (Elt F) → (⟨S100000x16, .f32⟩ : BufTy).Contents (Elt F) → (⟨S100000x16, .f32⟩ : BufTy).Contents (Elt F))

abbrev t281 : List (HloOp τ sig (Elt F)) := []
abbrev t280 : List (HloOp τ sig (Elt F)) := o280 (F := F) :: t281
abbrev t279 : List (HloOp τ sig (Elt F)) := o279 (F := F) :: t280
abbrev t278 : List (HloOp τ sig (Elt F)) := o278 (F := F) :: t279
abbrev t277 : List (HloOp τ sig (Elt F)) := o277 (F := F) :: t278
abbrev t276 : List (HloOp τ sig (Elt F)) := o276 (F := F) :: t277
abbrev t275 : List (HloOp τ sig (Elt F)) := o275 (F := F) :: t276
abbrev t274 : List (HloOp τ sig (Elt F)) := o274 (F := F) :: t275
abbrev t273 : List (HloOp τ sig (Elt F)) := o273 (F := F) :: t274
abbrev t272 : List (HloOp τ sig (Elt F)) := o272 (F := F) :: t273
abbrev t271 : List (HloOp τ sig (Elt F)) := o271 (F := F) :: t272
abbrev t270 : List (HloOp τ sig (Elt F)) := o270 (F := F) :: t271
abbrev t269 : List (HloOp τ sig (Elt F)) := o269 (F := F) :: t270
abbrev t268 : List (HloOp τ sig (Elt F)) := o268 (F := F) :: t269
abbrev t267 : List (HloOp τ sig (Elt F)) := o267 (F := F) :: t268
abbrev t266 : List (HloOp τ sig (Elt F)) := o266 (F := F) :: t267
abbrev t265 : List (HloOp τ sig (Elt F)) := o265 (F := F) :: t266
abbrev t264 : List (HloOp τ sig (Elt F)) := o264 (F := F) :: t265
abbrev t263 : List (HloOp τ sig (Elt F)) := o263 (F := F) :: t264
abbrev t262 : List (HloOp τ sig (Elt F)) := o262 (F := F) :: t263
abbrev t261 : List (HloOp τ sig (Elt F)) := o261 (F := F) :: t262
abbrev t260 : List (HloOp τ sig (Elt F)) := o260 (F := F) :: t261
abbrev t259 : List (HloOp τ sig (Elt F)) := o259 (F := F) :: t260
abbrev t258 : List (HloOp τ sig (Elt F)) := o258 (F := F) :: t259
abbrev t257 : List (HloOp τ sig (Elt F)) := o257 (F := F) :: t258
abbrev t256 : List (HloOp τ sig (Elt F)) := o256 (F := F) :: t257
abbrev t255 : List (HloOp τ sig (Elt F)) := o255 (F := F) :: t256
abbrev t254 : List (HloOp τ sig (Elt F)) := o254 (F := F) :: t255
abbrev t253 : List (HloOp τ sig (Elt F)) := o253 (F := F) :: t254
abbrev t252 : List (HloOp τ sig (Elt F)) := o252 (F := F) :: t253
abbrev t251 : List (HloOp τ sig (Elt F)) := o251 (F := F) :: t252
abbrev t250 : List (HloOp τ sig (Elt F)) := o250 (F := F) :: t251
abbrev t249 : List (HloOp τ sig (Elt F)) := o249 (F := F) :: t250
abbrev t248 : List (HloOp τ sig (Elt F)) := o248 (F := F) :: t249
abbrev t247 : List (HloOp τ sig (Elt F)) := o247 (F := F) :: t248
abbrev t246 : List (HloOp τ sig (Elt F)) := o246 (F := F) :: t247
abbrev t245 : List (HloOp τ sig (Elt F)) := o245 (F := F) :: t246
abbrev t244 : List (HloOp τ sig (Elt F)) := o244 (F := F) :: t245
abbrev t243 : List (HloOp τ sig (Elt F)) := o243 (F := F) :: t244
abbrev t242 : List (HloOp τ sig (Elt F)) := o242 (F := F) :: t243
abbrev t241 : List (HloOp τ sig (Elt F)) := o241 (F := F) :: t242
abbrev t240 : List (HloOp τ sig (Elt F)) := o240 (F := F) :: t241
abbrev t239 : List (HloOp τ sig (Elt F)) := o239 (F := F) :: t240
abbrev t238 : List (HloOp τ sig (Elt F)) := o238 (F := F) :: t239
abbrev t237 : List (HloOp τ sig (Elt F)) := o237 (F := F) :: t238
abbrev t236 : List (HloOp τ sig (Elt F)) := o236 (F := F) :: t237
abbrev t235 : List (HloOp τ sig (Elt F)) := o235 (F := F) :: t236
abbrev t234 : List (HloOp τ sig (Elt F)) := o234 (F := F) :: t235
abbrev t233 : List (HloOp τ sig (Elt F)) := o233 (F := F) :: t234
abbrev t232 : List (HloOp τ sig (Elt F)) := o232 (F := F) :: t233
abbrev t231 : List (HloOp τ sig (Elt F)) := o231 (F := F) :: t232
abbrev t230 : List (HloOp τ sig (Elt F)) := o230 (F := F) :: t231
abbrev t229 : List (HloOp τ sig (Elt F)) := o229 (F := F) :: t230
abbrev t228 : List (HloOp τ sig (Elt F)) := o228 (F := F) :: t229
abbrev t227 : List (HloOp τ sig (Elt F)) := o227 (F := F) :: t228
abbrev t226 : List (HloOp τ sig (Elt F)) := o226 (F := F) :: t227
abbrev t225 : List (HloOp τ sig (Elt F)) := o225 (F := F) :: t226
abbrev t224 : List (HloOp τ sig (Elt F)) := o224 (F := F) :: t225
abbrev t223 : List (HloOp τ sig (Elt F)) := o223 (F := F) :: t224
abbrev t222 : List (HloOp τ sig (Elt F)) := o222 (F := F) :: t223
abbrev t221 : List (HloOp τ sig (Elt F)) := o221 (F := F) :: t222
abbrev t220 : List (HloOp τ sig (Elt F)) := o220 (F := F) :: t221
abbrev t219 : List (HloOp τ sig (Elt F)) := o219 (F := F) :: t220
abbrev t218 : List (HloOp τ sig (Elt F)) := o218 (F := F) :: t219
abbrev t217 : List (HloOp τ sig (Elt F)) := o217 (F := F) :: t218
abbrev t216 : List (HloOp τ sig (Elt F)) := o216 (F := F) :: t217
abbrev t215 : List (HloOp τ sig (Elt F)) := o215 (F := F) :: t216
abbrev t214 : List (HloOp τ sig (Elt F)) := o214 (F := F) :: t215
abbrev t213 : List (HloOp τ sig (Elt F)) := o213 (F := F) :: t214
abbrev t212 : List (HloOp τ sig (Elt F)) := o212 (F := F) :: t213
abbrev t211 : List (HloOp τ sig (Elt F)) := o211 (F := F) :: t212
abbrev t210 : List (HloOp τ sig (Elt F)) := o210 (F := F) :: t211
abbrev t209 : List (HloOp τ sig (Elt F)) := o209 (F := F) :: t210
abbrev t208 : List (HloOp τ sig (Elt F)) := o208 (F := F) :: t209
abbrev t207 : List (HloOp τ sig (Elt F)) := o207 (F := F) :: t208
abbrev t206 : List (HloOp τ sig (Elt F)) := o206 (F := F) :: t207
abbrev t205 : List (HloOp τ sig (Elt F)) := o205 (F := F) :: t206
abbrev t204 : List (HloOp τ sig (Elt F)) := o204 (F := F) :: t205
abbrev t203 : List (HloOp τ sig (Elt F)) := o203 (F := F) :: t204
abbrev t202 : List (HloOp τ sig (Elt F)) := o202 (F := F) :: t203
abbrev t201 : List (HloOp τ sig (Elt F)) := o201 (F := F) :: t202
abbrev t200 : List (HloOp τ sig (Elt F)) := o200 (F := F) :: t201
abbrev t199 : List (HloOp τ sig (Elt F)) := o199 (F := F) :: t200
abbrev t198 : List (HloOp τ sig (Elt F)) := o198 (F := F) :: t199
abbrev t197 : List (HloOp τ sig (Elt F)) := o197 (F := F) :: t198
abbrev t196 : List (HloOp τ sig (Elt F)) := o196 (F := F) :: t197
abbrev t195 : List (HloOp τ sig (Elt F)) := o195 (F := F) :: t196
abbrev t194 : List (HloOp τ sig (Elt F)) := o194 (F := F) :: t195
abbrev t193 : List (HloOp τ sig (Elt F)) := o193 (F := F) :: t194
abbrev t192 : List (HloOp τ sig (Elt F)) := o192 (F := F) :: t193
abbrev t191 : List (HloOp τ sig (Elt F)) := o191 (F := F) :: t192
abbrev t190 : List (HloOp τ sig (Elt F)) := o190 (F := F) :: t191
abbrev t189 : List (HloOp τ sig (Elt F)) := o189 (F := F) :: t190
abbrev t188 : List (HloOp τ sig (Elt F)) := o188 (F := F) :: t189
abbrev t187 : List (HloOp τ sig (Elt F)) := o187 (F := F) :: t188
abbrev t186 : List (HloOp τ sig (Elt F)) := o186 (F := F) :: t187
abbrev t185 : List (HloOp τ sig (Elt F)) := o185 (F := F) :: t186
abbrev t184 : List (HloOp τ sig (Elt F)) := o184 (F := F) :: t185
abbrev t183 : List (HloOp τ sig (Elt F)) := o183 (F := F) :: t184
abbrev t182 : List (HloOp τ sig (Elt F)) := o182 (F := F) :: t183
abbrev t181 : List (HloOp τ sig (Elt F)) := o181 (F := F) :: t182
abbrev t180 : List (HloOp τ sig (Elt F)) := o180 (F := F) :: t181
abbrev t179 : List (HloOp τ sig (Elt F)) := o179 (F := F) :: t180
abbrev t178 : List (HloOp τ sig (Elt F)) := o178 (F := F) :: t179
abbrev t177 : List (HloOp τ sig (Elt F)) := o177 (F := F) :: t178
abbrev t176 : List (HloOp τ sig (Elt F)) := o176 (F := F) :: t177
abbrev t175 : List (HloOp τ sig (Elt F)) := o175 (F := F) :: t176
abbrev t174 : List (HloOp τ sig (Elt F)) := o174 (F := F) :: t175
abbrev t173 : List (HloOp τ sig (Elt F)) := o173 (F := F) :: t174
abbrev t172 : List (HloOp τ sig (Elt F)) := o172 (F := F) :: t173
abbrev t171 : List (HloOp τ sig (Elt F)) := o171 (F := F) :: t172
abbrev t170 : List (HloOp τ sig (Elt F)) := o170 (F := F) :: t171
abbrev t169 : List (HloOp τ sig (Elt F)) := o169 (F := F) :: t170
abbrev t168 : List (HloOp τ sig (Elt F)) := o168 (F := F) :: t169
abbrev t167 : List (HloOp τ sig (Elt F)) := o167 (F := F) :: t168
abbrev t166 : List (HloOp τ sig (Elt F)) := o166 (F := F) :: t167
abbrev t165 : List (HloOp τ sig (Elt F)) := o165 (F := F) :: t166
abbrev t164 : List (HloOp τ sig (Elt F)) := o164 (F := F) :: t165
abbrev t163 : List (HloOp τ sig (Elt F)) := o163 (F := F) :: t164
abbrev t162 : List (HloOp τ sig (Elt F)) := o162 (F := F) :: t163
abbrev t161 : List (HloOp τ sig (Elt F)) := o161 (F := F) :: t162
abbrev t160 : List (HloOp τ sig (Elt F)) := o160 (F := F) :: t161
abbrev t159 : List (HloOp τ sig (Elt F)) := o159 (F := F) :: t160
abbrev t158 : List (HloOp τ sig (Elt F)) := o158 (F := F) :: t159
abbrev t157 : List (HloOp τ sig (Elt F)) := o157 (F := F) :: t158
abbrev t156 : List (HloOp τ sig (Elt F)) := o156 (F := F) :: t157
abbrev t155 : List (HloOp τ sig (Elt F)) := o155 (F := F) :: t156
abbrev t154 : List (HloOp τ sig (Elt F)) := o154 (F := F) :: t155
abbrev t153 : List (HloOp τ sig (Elt F)) := o153 (F := F) :: t154
abbrev t152 : List (HloOp τ sig (Elt F)) := o152 (F := F) :: t153
abbrev t151 : List (HloOp τ sig (Elt F)) := o151 (F := F) :: t152
abbrev t150 : List (HloOp τ sig (Elt F)) := o150 (F := F) :: t151
abbrev t149 : List (HloOp τ sig (Elt F)) := o149 (F := F) :: t150
abbrev t148 : List (HloOp τ sig (Elt F)) := o148 (F := F) :: t149
abbrev t147 : List (HloOp τ sig (Elt F)) := o147 (F := F) :: t148
abbrev t146 : List (HloOp τ sig (Elt F)) := o146 (F := F) :: t147
abbrev t145 : List (HloOp τ sig (Elt F)) := o145 (F := F) :: t146
abbrev t144 : List (HloOp τ sig (Elt F)) := o144 (F := F) :: t145
abbrev t143 : List (HloOp τ sig (Elt F)) := o143 (F := F) :: t144
abbrev t142 : List (HloOp τ sig (Elt F)) := o142 (F := F) :: t143
abbrev t141 : List (HloOp τ sig (Elt F)) := o141 (F := F) :: t142
abbrev t140 : List (HloOp τ sig (Elt F)) := o140 (F := F) :: t141
abbrev t139 : List (HloOp τ sig (Elt F)) := o139 (F := F) :: t140
abbrev t138 : List (HloOp τ sig (Elt F)) := o138 (F := F) :: t139
abbrev t137 : List (HloOp τ sig (Elt F)) := o137 (F := F) :: t138
abbrev t136 : List (HloOp τ sig (Elt F)) := o136 (F := F) :: t137
abbrev t135 : List (HloOp τ sig (Elt F)) := o135 (F := F) :: t136
abbrev t134 : List (HloOp τ sig (Elt F)) := o134 (F := F) :: t135
abbrev t133 : List (HloOp τ sig (Elt F)) := o133 (F := F) :: t134
abbrev t132 : List (HloOp τ sig (Elt F)) := o132 (F := F) :: t133
abbrev t131 : List (HloOp τ sig (Elt F)) := o131 (F := F) :: t132
abbrev t130 : List (HloOp τ sig (Elt F)) := o130 (F := F) :: t131
abbrev t129 : List (HloOp τ sig (Elt F)) := o129 (F := F) :: t130
abbrev t128 : List (HloOp τ sig (Elt F)) := o128 (F := F) :: t129
abbrev t127 : List (HloOp τ sig (Elt F)) := o127 (F := F) :: t128
abbrev t126 : List (HloOp τ sig (Elt F)) := o126 (F := F) :: t127
abbrev t125 : List (HloOp τ sig (Elt F)) := o125 (F := F) :: t126
abbrev t124 : List (HloOp τ sig (Elt F)) := o124 (F := F) :: t125
abbrev t123 : List (HloOp τ sig (Elt F)) := o123 (F := F) :: t124
abbrev t122 : List (HloOp τ sig (Elt F)) := o122 (F := F) :: t123
abbrev t121 : List (HloOp τ sig (Elt F)) := o121 (F := F) :: t122
abbrev t120 : List (HloOp τ sig (Elt F)) := o120 (F := F) :: t121
abbrev t119 : List (HloOp τ sig (Elt F)) := o119 (F := F) :: t120
abbrev t118 : List (HloOp τ sig (Elt F)) := o118 (F := F) :: t119
abbrev t117 : List (HloOp τ sig (Elt F)) := o117 (F := F) :: t118
abbrev t116 : List (HloOp τ sig (Elt F)) := o116 (F := F) :: t117
abbrev t115 : List (HloOp τ sig (Elt F)) := o115 (F := F) :: t116
abbrev t114 : List (HloOp τ sig (Elt F)) := o114 (F := F) :: t115
abbrev t113 : List (HloOp τ sig (Elt F)) := o113 (F := F) :: t114
abbrev t112 : List (HloOp τ sig (Elt F)) := o112 (F := F) :: t113
abbrev t111 : List (HloOp τ sig (Elt F)) := o111 (F := F) :: t112
abbrev t110 : List (HloOp τ sig (Elt F)) := o110 (F := F) :: t111
abbrev t109 : List (HloOp τ sig (Elt F)) := o109 (F := F) :: t110
abbrev t108 : List (HloOp τ sig (Elt F)) := o108 (F := F) :: t109
abbrev t107 : List (HloOp τ sig (Elt F)) := o107 (F := F) :: t108
abbrev t106 : List (HloOp τ sig (Elt F)) := o106 (F := F) :: t107
abbrev t105 : List (HloOp τ sig (Elt F)) := o105 (F := F) :: t106
abbrev t104 : List (HloOp τ sig (Elt F)) := o104 (F := F) :: t105
abbrev t103 : List (HloOp τ sig (Elt F)) := o103 (F := F) :: t104
abbrev t102 : List (HloOp τ sig (Elt F)) := o102 (F := F) :: t103
abbrev t101 : List (HloOp τ sig (Elt F)) := o101 (F := F) :: t102
abbrev t100 : List (HloOp τ sig (Elt F)) := o100 (F := F) :: t101
abbrev t99 : List (HloOp τ sig (Elt F)) := o99 (F := F) :: t100
abbrev t98 : List (HloOp τ sig (Elt F)) := o98 (F := F) :: t99
abbrev t97 : List (HloOp τ sig (Elt F)) := o97 (F := F) :: t98
abbrev t96 : List (HloOp τ sig (Elt F)) := o96 (F := F) :: t97
abbrev t95 : List (HloOp τ sig (Elt F)) := o95 (F := F) :: t96
abbrev t94 : List (HloOp τ sig (Elt F)) := o94 (F := F) :: t95
abbrev t93 : List (HloOp τ sig (Elt F)) := o93 (F := F) :: t94
abbrev t92 : List (HloOp τ sig (Elt F)) := o92 (F := F) :: t93
abbrev t91 : List (HloOp τ sig (Elt F)) := o91 (F := F) :: t92
abbrev t90 : List (HloOp τ sig (Elt F)) := o90 (F := F) :: t91
abbrev t89 : List (HloOp τ sig (Elt F)) := o89 (F := F) :: t90
abbrev t88 : List (HloOp τ sig (Elt F)) := o88 (F := F) :: t89
abbrev t87 : List (HloOp τ sig (Elt F)) := o87 (F := F) :: t88
abbrev t86 : List (HloOp τ sig (Elt F)) := o86 (F := F) :: t87
abbrev t85 : List (HloOp τ sig (Elt F)) := o85 (F := F) :: t86
abbrev t84 : List (HloOp τ sig (Elt F)) := o84 (F := F) :: t85
abbrev t83 : List (HloOp τ sig (Elt F)) := o83 (F := F) :: t84
abbrev t82 : List (HloOp τ sig (Elt F)) := o82 (F := F) :: t83
abbrev t81 : List (HloOp τ sig (Elt F)) := o81 (F := F) :: t82
abbrev t80 : List (HloOp τ sig (Elt F)) := o80 (F := F) :: t81
abbrev t79 : List (HloOp τ sig (Elt F)) := o79 (F := F) :: t80
abbrev t78 : List (HloOp τ sig (Elt F)) := o78 (F := F) :: t79
abbrev t77 : List (HloOp τ sig (Elt F)) := o77 (F := F) :: t78
abbrev t76 : List (HloOp τ sig (Elt F)) := o76 (F := F) :: t77
abbrev t75 : List (HloOp τ sig (Elt F)) := o75 (F := F) :: t76
abbrev t74 : List (HloOp τ sig (Elt F)) := o74 (F := F) :: t75
abbrev t73 : List (HloOp τ sig (Elt F)) := o73 (F := F) :: t74
abbrev t72 : List (HloOp τ sig (Elt F)) := o72 (F := F) :: t73
abbrev t71 : List (HloOp τ sig (Elt F)) := o71 (F := F) :: t72
abbrev t70 : List (HloOp τ sig (Elt F)) := o70 (F := F) :: t71
abbrev t69 : List (HloOp τ sig (Elt F)) := o69 (F := F) :: t70
abbrev t68 : List (HloOp τ sig (Elt F)) := o68 (F := F) :: t69
abbrev t67 : List (HloOp τ sig (Elt F)) := o67 (F := F) :: t68
abbrev t66 : List (HloOp τ sig (Elt F)) := o66 (F := F) :: t67
abbrev t65 : List (HloOp τ sig (Elt F)) := o65 (F := F) :: t66
abbrev t64 : List (HloOp τ sig (Elt F)) := o64 (F := F) :: t65
abbrev t63 : List (HloOp τ sig (Elt F)) := o63 (F := F) :: t64
abbrev t62 : List (HloOp τ sig (Elt F)) := o62 (F := F) :: t63
abbrev t61 : List (HloOp τ sig (Elt F)) := o61 (F := F) :: t62
abbrev t60 : List (HloOp τ sig (Elt F)) := o60 (F := F) :: t61
abbrev t59 : List (HloOp τ sig (Elt F)) := o59 (F := F) :: t60
abbrev t58 : List (HloOp τ sig (Elt F)) := o58 (F := F) :: t59
abbrev t57 : List (HloOp τ sig (Elt F)) := o57 (F := F) :: t58
abbrev t56 : List (HloOp τ sig (Elt F)) := o56 (F := F) :: t57
abbrev t55 : List (HloOp τ sig (Elt F)) := o55 (F := F) :: t56
abbrev t54 : List (HloOp τ sig (Elt F)) := o54 (F := F) :: t55
abbrev t53 : List (HloOp τ sig (Elt F)) := o53 (F := F) :: t54
abbrev t52 : List (HloOp τ sig (Elt F)) := o52 (F := F) :: t53
abbrev t51 : List (HloOp τ sig (Elt F)) := o51 (F := F) :: t52
abbrev t50 : List (HloOp τ sig (Elt F)) := o50 (F := F) :: t51
abbrev t49 : List (HloOp τ sig (Elt F)) := o49 (F := F) :: t50
abbrev t48 : List (HloOp τ sig (Elt F)) := o48 (F := F) :: t49
abbrev t47 : List (HloOp τ sig (Elt F)) := o47 (F := F) :: t48
abbrev t46 : List (HloOp τ sig (Elt F)) := o46 (F := F) :: t47
abbrev t45 : List (HloOp τ sig (Elt F)) := o45 (F := F) :: t46
abbrev t44 : List (HloOp τ sig (Elt F)) := o44 (F := F) :: t45
abbrev t43 : List (HloOp τ sig (Elt F)) := o43 (F := F) :: t44
abbrev t42 : List (HloOp τ sig (Elt F)) := o42 (F := F) :: t43
abbrev t41 : List (HloOp τ sig (Elt F)) := o41 (F := F) :: t42
abbrev t40 : List (HloOp τ sig (Elt F)) := o40 (F := F) :: t41
abbrev t39 : List (HloOp τ sig (Elt F)) := o39 (F := F) :: t40
abbrev t38 : List (HloOp τ sig (Elt F)) := o38 (F := F) :: t39
abbrev t37 : List (HloOp τ sig (Elt F)) := o37 (F := F) :: t38
abbrev t36 : List (HloOp τ sig (Elt F)) := o36 (F := F) :: t37
abbrev t35 : List (HloOp τ sig (Elt F)) := o35 (F := F) :: t36
abbrev t34 : List (HloOp τ sig (Elt F)) := o34 (F := F) :: t35
abbrev t33 : List (HloOp τ sig (Elt F)) := o33 (F := F) :: t34
abbrev t32 : List (HloOp τ sig (Elt F)) := o32 (F := F) :: t33
abbrev t31 : List (HloOp τ sig (Elt F)) := o31 (F := F) :: t32
abbrev t30 : List (HloOp τ sig (Elt F)) := o30 (F := F) :: t31
abbrev t29 : List (HloOp τ sig (Elt F)) := o29 (F := F) :: t30
abbrev t28 : List (HloOp τ sig (Elt F)) := o28 (F := F) :: t29
abbrev t27 : List (HloOp τ sig (Elt F)) := o27 (F := F) :: t28
abbrev t26 : List (HloOp τ sig (Elt F)) := o26 (F := F) :: t27
abbrev t25 : List (HloOp τ sig (Elt F)) := o25 (F := F) :: t26
abbrev t24 : List (HloOp τ sig (Elt F)) := o24 (F := F) :: t25
abbrev t23 : List (HloOp τ sig (Elt F)) := o23 (F := F) :: t24
abbrev t22 : List (HloOp τ sig (Elt F)) := o22 (F := F) :: t23
abbrev t21 : List (HloOp τ sig (Elt F)) := o21 (F := F) :: t22
abbrev t20 : List (HloOp τ sig (Elt F)) := o20 (F := F) :: t21
abbrev t19 : List (HloOp τ sig (Elt F)) := o19 (F := F) :: t20
abbrev t18 : List (HloOp τ sig (Elt F)) := o18 (F := F) :: t19
abbrev t17 : List (HloOp τ sig (Elt F)) := o17 (F := F) :: t18
abbrev t16 : List (HloOp τ sig (Elt F)) := o16 (F := F) :: t17
abbrev t15 : List (HloOp τ sig (Elt F)) := o15 (F := F) :: t16
abbrev t14 : List (HloOp τ sig (Elt F)) := o14 (F := F) :: t15
abbrev t13 : List (HloOp τ sig (Elt F)) := o13 (F := F) :: t14
abbrev t12 : List (HloOp τ sig (Elt F)) := o12 (F := F) :: t13
abbrev t11 : List (HloOp τ sig (Elt F)) := o11 (F := F) :: t12
abbrev t10 : List (HloOp τ sig (Elt F)) := o10 (F := F) :: t11
abbrev t9 : List (HloOp τ sig (Elt F)) := o9 (F := F) :: t10
abbrev t8 : List (HloOp τ sig (Elt F)) := o8 (F := F) :: t9
abbrev t7 : List (HloOp τ sig (Elt F)) := o7 (F := F) :: t8
abbrev t6 : List (HloOp τ sig (Elt F)) := o6 (F := F) :: t7
abbrev t5 : List (HloOp τ sig (Elt F)) := o5 (F := F) :: t6
abbrev t4 : List (HloOp τ sig (Elt F)) := o4 (F := F) :: t5
abbrev t3 : List (HloOp τ sig (Elt F)) := o3 (F := F) :: t4
abbrev t2 : List (HloOp τ sig (Elt F)) := o2 (F := F) :: t3
abbrev t1 : List (HloOp τ sig (Elt F)) := o1 (F := F) :: t2

/-! ## The argument buffers keep their contents -/

/-- The argument buffers. -/
def argList : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

variable (V : Valuation τ sig (Elt F))

abbrev a0 := V (Proc.devRef .tc main_arg0)
abbrev a1 := V (Proc.devRef .tc main_arg1)
abbrev a2 := V (Proc.devRef .tc main_arg2)
abbrev a3 := V (Proc.devRef .tc main_arg3)
abbrev a4 := V (Proc.devRef .tc main_arg4)
abbrev a5 := V (Proc.devRef .tc main_arg5)
abbrev a6 := V (Proc.devRef .tc main_arg6)
abbrev a7 := V (Proc.devRef .tc main_arg7)
abbrev a8 := V (Proc.devRef .tc main_arg8)
abbrev a9 := V (Proc.devRef .tc main_arg9)
abbrev a10 := V (Proc.devRef .tc main_arg10)
abbrev a11 := V (Proc.devRef .tc main_arg11)
abbrev a12 := V (Proc.devRef .tc main_arg12)
abbrev a13 := V (Proc.devRef .tc main_arg13)
abbrev a14 := V (Proc.devRef .tc main_arg14)
abbrev a15 := V (Proc.devRef .tc main_arg15)
abbrev a16 := V (Proc.devRef .tc main_arg16)
abbrev a17 := V (Proc.devRef .tc main_arg17)
abbrev a18 := V (Proc.devRef .tc main_arg18)
abbrev a19 := V (Proc.devRef .tc main_arg19)
abbrev a20 := V (Proc.devRef .tc main_arg20)
abbrev a21 := V (Proc.devRef .tc main_arg21)
abbrev a22 := V (Proc.devRef .tc main_arg22)
abbrev a23 := V (Proc.devRef .tc main_arg23)
abbrev a24 := V (Proc.devRef .tc main_arg24)
abbrev a25 := V (Proc.devRef .tc main_arg25)
abbrev a26 := V (Proc.devRef .tc main_arg26)
abbrev a27 := V (Proc.devRef .tc main_arg27)
abbrev a28 := V (Proc.devRef .tc main_arg28)

/-- Contents W agree with V at the argument buffers. -/
def Args (W : Valuation τ sig (Elt F)) : Prop := ∀ b ∈ argList, W (Proc.devRef .tc b) = V (Proc.devRef .tc b)

variable {V}

theorem keep_nullary {y : Ref sig .tc} (v : y.ty.Contents (Elt F)) (hy) {W : Valuation τ sig (Elt F)} (h : Args V W) (hn : y ∉ argList) :
    Args V ((nullary (τ := τ) y v hy).result W) :=
  fun b hb => (nullary_result_ne' v hy W (fun e => hn (e ▸ hb))).trans (h b hb)
theorem keep_unary {x y : Ref sig .tc} (f : x.ty.Contents (Elt F) → y.ty.Contents (Elt F)) (hx hy) {W : Valuation τ sig (Elt F)} (h : Args V W)
    (hn : y ∉ argList) : Args V ((unary (τ := τ) x y f hx hy).result W) :=
  fun b hb => (unary_result_ne' f hx hy W (fun e => hn (e ▸ hb))).trans (h b hb)
theorem keep_reshape {x y : Ref sig .tc} (he hn' hx hy) {W : Valuation τ sig (Elt F)} (h : Args V W) (hn : y ∉ argList) :
    Args V ((reshape (τ := τ) (Val := Elt F) x y he hn' hx hy).result W) :=
  fun b hb => (reshape_result_ne' he hn' hx hy W (fun e => hn (e ▸ hb))).trans (h b hb)
theorem keep_binary {a b y : Ref sig .tc} (f : a.ty.Contents (Elt F) → b.ty.Contents (Elt F) → y.ty.Contents (Elt F)) (ha hb' hy)
    {W : Valuation τ sig (Elt F)} (h : Args V W) (hn : y ∉ argList) : Args V ((binary (τ := τ) a b y f ha hb' hy).result W) :=
  fun r hr => (binary_result_ne' f ha hb' hy W (fun e => hn (e ▸ hr))).trans (h r hr)
theorem keep_ternary {c a b y : Ref sig .tc}
    (f : c.ty.Contents (Elt F) → a.ty.Contents (Elt F) → b.ty.Contents (Elt F) → y.ty.Contents (Elt F)) (hc ha hb' hy)
    {W : Valuation τ sig (Elt F)} (h : Args V W) (hn : y ∉ argList) : Args V ((ternary (τ := τ) c a b y f hc ha hb' hy).result W) :=
  fun r hr => (ternary_result_ne' f hc ha hb' hy W (fun e => hn (e ▸ hr))).trans (h r hr)

variable (V)

/-! ## One step per operation, last first -/

theorem s281 (W : Valuation τ sig (Elt F)) (hargs : Args V W) (h_main_v222 : W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V))) :
    StableHlo.after (t281 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) := h_main_v222

theorem s280 (W : Valuation τ sig (Elt F)) (hargs : Args V W)
    (h_main_v219 : W (Proc.devRef .tc main_v219) = (Cert.ReferenceIdeal.Read.val_main_v219 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V)))
    (h_main_v221 : W (Proc.devRef .tc main_v221) = (Cert.ReferenceIdeal.Read.val_main_v221 (F := F) (a28 V))) :
    StableHlo.after (t280 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s281 V ((o280 (F := F)).result W) (keep_binary _ _ _ _ hargs (by decide))
    (show ((o280 (F := F)).result W) (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) from (by rw [binary_result', h_main_v219, h_main_v221] <;> rfl))

theorem s279 (W : Valuation τ sig (Elt F)) (hargs : Args V W)
    (h_main_v219 : W (Proc.devRef .tc main_v219) = (Cert.ReferenceIdeal.Read.val_main_v219 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V)))
    (h_main_v220 : W (Proc.devRef .tc main_v220) = (Cert.ReferenceIdeal.Read.val_main_v220 (F := F) (a28 V))) :
    StableHlo.after (t279 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s280 V ((o279 (F := F)).result W) (keep_unary _ _ _ hargs (by decide))
    ((unary_result_ne' _ _ _ W (r := main_v219) (by decide)).trans h_main_v219)
    (show ((o279 (F := F)).result W) (Proc.devRef .tc main_v221) = (Cert.ReferenceIdeal.Read.val_main_v221 (F := F) (a28 V)) from (by rw [unary_result', h_main_v220] <;> rfl))

theorem s278 (W : Valuation τ sig (Elt F)) (hargs : Args V W)
    (h_main_v219 : W (Proc.devRef .tc main_v219) = (Cert.ReferenceIdeal.Read.val_main_v219 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V))) :
    StableHlo.after (t278 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s279 V ((o278 (F := F)).result W) (keep_unary _ _ _ hargs (by decide))
    ((unary_result_ne' _ _ _ W (r := main_v219) (by decide)).trans h_main_v219)
    (show ((o278 (F := F)).result W) (Proc.devRef .tc main_v220) = (Cert.ReferenceIdeal.Read.val_main_v220 (F := F) (a28 V)) from (by rw [unary_result', hargs main_arg28 (by decide)] <;> rfl))

theorem s277 (W : Valuation τ sig (Elt F)) (hargs : Args V W)
    (h_main_v218 : W (Proc.devRef .tc main_v218) = (Cert.ReferenceIdeal.Read.val_main_v218 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V))) :
    StableHlo.after (t277 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s278 V ((o277 (F := F)).result W) (keep_binary _ _ _ _ hargs (by decide))
    (show ((o277 (F := F)).result W) (Proc.devRef .tc main_v219) = (Cert.ReferenceIdeal.Read.val_main_v219 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V)) from (by rw [binary_result', h_main_v218, hargs main_arg27 (by decide)] <;> rfl))

theorem s276 (W : Valuation τ sig (Elt F)) (hargs : Args V W)
    (h_main_v217 : W (Proc.devRef .tc main_v217) = (Cert.ReferenceIdeal.Read.val_main_v217 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V)))
    (h_main_call5_v0 : W (Proc.devRef .tc main_call5_v0) = (Cert.ReferenceIdeal.Read.val_main_call5_v0 (F := F))) :
    StableHlo.after (t276 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s277 V ((o276 (F := F)).result W) (keep_binary _ _ _ _ hargs (by decide))
    (show ((o276 (F := F)).result W) (Proc.devRef .tc main_v218) = (Cert.ReferenceIdeal.Read.val_main_v218 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V)) from (by rw [binary_result', h_main_v217, h_main_call5_v0] <;> rfl))

theorem s275 (W : Valuation τ sig (Elt F)) (hargs : Args V W)
    (h_main_v217 : W (Proc.devRef .tc main_v217) = (Cert.ReferenceIdeal.Read.val_main_v217 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V)))
    (h_main_call5_cst : W (Proc.devRef .tc main_call5_cst) = (Cert.ReferenceIdeal.Read.val_main_call5_cst (F := F))) :
    StableHlo.after (t275 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s276 V ((o275 (F := F)).result W) (keep_unary _ _ _ hargs (by decide))
    ((unary_result_ne' _ _ _ W (r := main_v217) (by decide)).trans h_main_v217)
    (show ((o275 (F := F)).result W) (Proc.devRef .tc main_call5_v0) = (Cert.ReferenceIdeal.Read.val_main_call5_v0 (F := F)) from (by rw [unary_result', h_main_call5_cst] <;> rfl))

theorem s274 (W : Valuation τ sig (Elt F)) (hargs : Args V W)
    (h_main_v217 : W (Proc.devRef .tc main_v217) = (Cert.ReferenceIdeal.Read.val_main_v217 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V))) :
    StableHlo.after (t274 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s275 V ((o274 (F := F)).result W) (keep_nullary _ _ hargs (by decide))
    ((nullary_result_ne' _ _ W (r := main_v217) (by decide)).trans h_main_v217)
    (show ((o274 (F := F)).result W) (Proc.devRef .tc main_call5_cst) = (Cert.ReferenceIdeal.Read.val_main_call5_cst (F := F)) from (by rw [nullary_result'] <;> rfl))

theorem s273 (W : Valuation τ sig (Elt F)) (hargs : Args V W)
    (h_main_v214 : W (Proc.devRef .tc main_v214) = (Cert.ReferenceIdeal.Read.val_main_v214 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v216 : W (Proc.devRef .tc main_v216) = (Cert.ReferenceIdeal.Read.val_main_v216 (F := F) (a25 V))) :
    StableHlo.after (t273 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s274 V ((o273 (F := F)).result W) (keep_binary _ _ _ _ hargs (by decide))
    (show ((o273 (F := F)).result W) (Proc.devRef .tc main_v217) = (Cert.ReferenceIdeal.Read.val_main_v217 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V)) from (by rw [binary_result', h_main_v214, h_main_v216] <;> rfl))

theorem s272 (W : Valuation τ sig (Elt F)) (hargs : Args V W)
    (h_main_v214 : W (Proc.devRef .tc main_v214) = (Cert.ReferenceIdeal.Read.val_main_v214 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v215 : W (Proc.devRef .tc main_v215) = (Cert.ReferenceIdeal.Read.val_main_v215 (F := F) (a25 V))) :
    StableHlo.after (t272 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s273 V ((o272 (F := F)).result W) (keep_unary _ _ _ hargs (by decide))
    ((unary_result_ne' _ _ _ W (r := main_v214) (by decide)).trans h_main_v214)
    (show ((o272 (F := F)).result W) (Proc.devRef .tc main_v216) = (Cert.ReferenceIdeal.Read.val_main_v216 (F := F) (a25 V)) from (by rw [unary_result', h_main_v215] <;> rfl))

theorem s271 (W : Valuation τ sig (Elt F)) (hargs : Args V W)
    (h_main_v214 : W (Proc.devRef .tc main_v214) = (Cert.ReferenceIdeal.Read.val_main_v214 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V))) :
    StableHlo.after (t271 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s272 V ((o271 (F := F)).result W) (keep_unary _ _ _ hargs (by decide))
    ((unary_result_ne' _ _ _ W (r := main_v214) (by decide)).trans h_main_v214)
    (show ((o271 (F := F)).result W) (Proc.devRef .tc main_v215) = (Cert.ReferenceIdeal.Read.val_main_v215 (F := F) (a25 V)) from (by rw [unary_result', hargs main_arg25 (by decide)] <;> rfl))

theorem s270 (W : Valuation τ sig (Elt F)) (hargs : Args V W)
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v213 : W (Proc.devRef .tc main_v213) = (Cert.ReferenceIdeal.Read.val_main_v213 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t270 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s271 V ((o270 (F := F)).result W) (keep_binary _ _ _ _ hargs (by decide))
    (show ((o270 (F := F)).result W) (Proc.devRef .tc main_v214) = (Cert.ReferenceIdeal.Read.val_main_v214 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)) from (by rw [binary_result', h_main_v208, h_main_v213] <;> rfl))

theorem s269 (W : Valuation τ sig (Elt F)) (hargs : Args V W)
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v212 : W (Proc.devRef .tc main_v212) = (Cert.ReferenceIdeal.Read.val_main_v212 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t269 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s270 V ((o269 (F := F)).result W) (keep_unary _ _ _ hargs (by decide))
    ((unary_result_ne' _ _ _ W (r := main_v208) (by decide)).trans h_main_v208)
    (show ((o269 (F := F)).result W) (Proc.devRef .tc main_v213) = (Cert.ReferenceIdeal.Read.val_main_v213 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [unary_result', h_main_v212] <;> rfl))

theorem s268 (W : Valuation τ sig (Elt F)) (hargs : Args V W)
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v211 : W (Proc.devRef .tc main_v211) = (Cert.ReferenceIdeal.Read.val_main_v211 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t268 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s269 V ((o268 (F := F)).result W) (keep_unary _ _ _ hargs (by decide))
    ((unary_result_ne' _ _ _ W (r := main_v208) (by decide)).trans h_main_v208)
    (show ((o268 (F := F)).result W) (Proc.devRef .tc main_v212) = (Cert.ReferenceIdeal.Read.val_main_v212 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [unary_result', h_main_v211] <;> rfl))

theorem s267 (W : Valuation τ sig (Elt F)) (hargs : Args V W)
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v210 : W (Proc.devRef .tc main_v210) = (Cert.ReferenceIdeal.Read.val_main_v210 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t267 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s268 V ((o267 (F := F)).result W) (keep_unary _ _ _ hargs (by decide))
    ((unary_result_ne' _ _ _ W (r := main_v208) (by decide)).trans h_main_v208)
    (show ((o267 (F := F)).result W) (Proc.devRef .tc main_v211) = (Cert.ReferenceIdeal.Read.val_main_v211 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [unary_result', h_main_v210] <;> rfl))

theorem s266 (W : Valuation τ sig (Elt F)) (hargs : Args V W)
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_v209 : W (Proc.devRef .tc main_v209) = (Cert.ReferenceIdeal.Read.val_main_v209 (F := F))) :
    StableHlo.after (t266 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s267 V ((o266 (F := F)).result W) (keep_binary _ _ _ _ hargs (by decide))
    ((binary_result_ne' _ _ _ _ W (r := main_v208) (by decide)).trans h_main_v208)
    (show ((o266 (F := F)).result W) (Proc.devRef .tc main_v210) = (Cert.ReferenceIdeal.Read.val_main_v210 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', h_main_v205, h_main_v209] <;> rfl))

theorem s265 (W : Valuation τ sig (Elt F)) (hargs : Args V W)
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)))
    (h_main_cst_42 : W (Proc.devRef .tc main_cst_42) = (Cert.ReferenceIdeal.Read.val_main_cst_42 (F := F))) :
    StableHlo.after (t265 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s266 V ((o265 (F := F)).result W) (keep_unary _ _ _ hargs (by decide))
    ((unary_result_ne' _ _ _ W (r := main_v205) (by decide)).trans h_main_v205)
    ((unary_result_ne' _ _ _ W (r := main_v208) (by decide)).trans h_main_v208)
    (show ((o265 (F := F)).result W) (Proc.devRef .tc main_v209) = (Cert.ReferenceIdeal.Read.val_main_v209 (F := F)) from (by rw [unary_result', h_main_cst_42] <;> rfl))

theorem s264 (W : Valuation τ sig (Elt F)) (hargs : Args V W)
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v208 : W (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V))) :
    StableHlo.after (t264 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s265 V ((o264 (F := F)).result W) (keep_nullary _ _ hargs (by decide))
    ((nullary_result_ne' _ _ W (r := main_v205) (by decide)).trans h_main_v205)
    ((nullary_result_ne' _ _ W (r := main_v208) (by decide)).trans h_main_v208)
    (show ((o264 (F := F)).result W) (Proc.devRef .tc main_cst_42) = (Cert.ReferenceIdeal.Read.val_main_cst_42 (F := F)) from (by rw [nullary_result'] <;> rfl))

theorem s263 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v207 : W (Proc.devRef .tc main_v207) = (Cert.ReferenceIdeal.Read.val_main_v207 (F := F) (a24 V))) :
    StableHlo.after (t263 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s264 V ((o263 (F := F)).result W) (keep_binary _ _ _ _ hargs (by decide))
    ((binary_result_ne' _ _ _ _ W (r := main_v205) (by decide)).trans h_main_v205)
    (show ((o263 (F := F)).result W) (Proc.devRef .tc main_v208) = (Cert.ReferenceIdeal.Read.val_main_v208 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a26 V)) from (by rw [binary_result', h_main_v207, h_main_v201] <;> rfl))

theorem s262 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v206 : W (Proc.devRef .tc main_v206) = (Cert.ReferenceIdeal.Read.val_main_v206 (F := F) (a24 V))) :
    StableHlo.after (t262 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s263 V ((o262 (F := F)).result W) (keep_unary _ _ _ hargs (by decide))
    ((unary_result_ne' _ _ _ W (r := main_v201) (by decide)).trans h_main_v201)
    ((unary_result_ne' _ _ _ W (r := main_v205) (by decide)).trans h_main_v205)
    (show ((o262 (F := F)).result W) (Proc.devRef .tc main_v207) = (Cert.ReferenceIdeal.Read.val_main_v207 (F := F) (a24 V)) from (by rw [unary_result', h_main_v206] <;> rfl))

theorem s261 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v205 : W (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t261 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s262 V ((o261 (F := F)).result W) (keep_unary _ _ _ hargs (by decide))
    ((unary_result_ne' _ _ _ W (r := main_v201) (by decide)).trans h_main_v201)
    ((unary_result_ne' _ _ _ W (r := main_v205) (by decide)).trans h_main_v205)
    (show ((o261 (F := F)).result W) (Proc.devRef .tc main_v206) = (Cert.ReferenceIdeal.Read.val_main_v206 (F := F) (a24 V)) from (by rw [unary_result', hargs main_arg24 (by decide)] <;> rfl))

theorem s260 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v203 : W (Proc.devRef .tc main_v203) = (Cert.ReferenceIdeal.Read.val_main_v203 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v204 : W (Proc.devRef .tc main_v204) = (Cert.ReferenceIdeal.Read.val_main_v204 (F := F))) :
    StableHlo.after (t260 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s261 V ((o260 (F := F)).result W) (keep_binary _ _ _ _ hargs (by decide))
    ((binary_result_ne' _ _ _ _ W (r := main_v201) (by decide)).trans h_main_v201)
    (show ((o260 (F := F)).result W) (Proc.devRef .tc main_v205) = (Cert.ReferenceIdeal.Read.val_main_v205 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', h_main_v203, h_main_v204] <;> rfl))

theorem s259 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v203 : W (Proc.devRef .tc main_v203) = (Cert.ReferenceIdeal.Read.val_main_v203 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_cst_41 : W (Proc.devRef .tc main_cst_41) = (Cert.ReferenceIdeal.Read.val_main_cst_41 (F := F))) :
    StableHlo.after (t259 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s260 V ((o259 (F := F)).result W) (keep_unary _ _ _ hargs (by decide))
    ((unary_result_ne' _ _ _ W (r := main_v201) (by decide)).trans h_main_v201)
    ((unary_result_ne' _ _ _ W (r := main_v203) (by decide)).trans h_main_v203)
    (show ((o259 (F := F)).result W) (Proc.devRef .tc main_v204) = (Cert.ReferenceIdeal.Read.val_main_v204 (F := F)) from (by rw [unary_result', h_main_cst_41] <;> rfl))

theorem s258 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v203 : W (Proc.devRef .tc main_v203) = (Cert.ReferenceIdeal.Read.val_main_v203 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t258 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s259 V ((o258 (F := F)).result W) (keep_nullary _ _ hargs (by decide))
    ((nullary_result_ne' _ _ W (r := main_v201) (by decide)).trans h_main_v201)
    ((nullary_result_ne' _ _ W (r := main_v203) (by decide)).trans h_main_v203)
    (show ((o258 (F := F)).result W) (Proc.devRef .tc main_cst_41) = (Cert.ReferenceIdeal.Read.val_main_cst_41 (F := F)) from (by rw [nullary_result'] <;> rfl))

theorem s257 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v202 : W (Proc.devRef .tc main_v202) = (Cert.ReferenceIdeal.Read.val_main_v202 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_cst_40 : W (Proc.devRef .tc main_cst_40) = (Cert.ReferenceIdeal.Read.val_main_cst_40 (F := F))) :
    StableHlo.after (t257 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s258 V ((o257 (F := F)).result W) (keep_binary _ _ _ _ hargs (by decide))
    ((binary_result_ne' _ _ _ _ W (r := main_v201) (by decide)).trans h_main_v201)
    (show ((o257 (F := F)).result W) (Proc.devRef .tc main_v203) = (Cert.ReferenceIdeal.Read.val_main_v203 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', h_main_v202, h_main_cst_40] <;> rfl))

theorem s256 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)))
    (h_main_v202 : W (Proc.devRef .tc main_v202) = (Cert.ReferenceIdeal.Read.val_main_v202 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t256 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s257 V ((o256 (F := F)).result W) (keep_nullary _ _ hargs (by decide))
    ((nullary_result_ne' _ _ W (r := main_v201) (by decide)).trans h_main_v201)
    ((nullary_result_ne' _ _ W (r := main_v202) (by decide)).trans h_main_v202)
    (show ((o256 (F := F)).result W) (Proc.devRef .tc main_cst_40) = (Cert.ReferenceIdeal.Read.val_main_cst_40 (F := F)) from (by rw [nullary_result'] <;> rfl))

theorem s255 (W : Valuation τ sig (Elt F)) (hargs : Args V W)
    (h_main_v201 : W (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t255 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s256 V ((o255 (F := F)).result W) (keep_binary _ _ _ _ hargs (by decide))
    ((binary_result_ne' _ _ _ _ W (r := main_v201) (by decide)).trans h_main_v201)
    (show ((o255 (F := F)).result W) (Proc.devRef .tc main_v202) = (Cert.ReferenceIdeal.Read.val_main_v202 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', h_main_v201] <;> rfl))

theorem s254 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v200 : W (Proc.devRef .tc main_v200) = (Cert.ReferenceIdeal.Read.val_main_v200 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t254 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s255 V ((o254 (F := F)).result W) (keep_binary _ _ _ _ hargs (by decide))
    (show ((o254 (F := F)).result W) (Proc.devRef .tc main_v201) = (Cert.ReferenceIdeal.Read.val_main_v201 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', h_main_v194, h_main_v200] <;> rfl))

theorem s253 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v199 : W (Proc.devRef .tc main_v199) = (Cert.ReferenceIdeal.Read.val_main_v199 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t253 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s254 V ((o253 (F := F)).result W) (keep_unary _ _ _ hargs (by decide))
    ((unary_result_ne' _ _ _ W (r := main_v194) (by decide)).trans h_main_v194)
    (show ((o253 (F := F)).result W) (Proc.devRef .tc main_v200) = (Cert.ReferenceIdeal.Read.val_main_v200 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [unary_result', h_main_v199] <;> rfl))

theorem s252 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v198 : W (Proc.devRef .tc main_v198) = (Cert.ReferenceIdeal.Read.val_main_v198 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V))) :
    StableHlo.after (t252 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s253 V ((o252 (F := F)).result W) (keep_unary _ _ _ hargs (by decide))
    ((unary_result_ne' _ _ _ W (r := main_v194) (by decide)).trans h_main_v194)
    (show ((o252 (F := F)).result W) (Proc.devRef .tc main_v199) = (Cert.ReferenceIdeal.Read.val_main_v199 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [unary_result', h_main_v198] <;> rfl))

theorem s251 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v197 : W (Proc.devRef .tc main_v197) = (Cert.ReferenceIdeal.Read.val_main_v197 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t251 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s252 V ((o251 (F := F)).result W) (keep_binary _ _ _ _ hargs (by decide))
    ((binary_result_ne' _ _ _ _ W (r := main_v194) (by decide)).trans h_main_v194)
    (show ((o251 (F := F)).result W) (Proc.devRef .tc main_v198) = (Cert.ReferenceIdeal.Read.val_main_v198 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a26 V)) from (by rw [binary_result', hargs main_arg26 (by decide), h_main_v197] <;> rfl))

theorem s250 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v195 : W (Proc.devRef .tc main_v195) = (Cert.ReferenceIdeal.Read.val_main_v195 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v196 : W (Proc.devRef .tc main_v196) = (Cert.ReferenceIdeal.Read.val_main_v196 (F := F))) :
    StableHlo.after (t250 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s251 V ((o250 (F := F)).result W) (keep_binary _ _ _ _ hargs (by decide))
    ((binary_result_ne' _ _ _ _ W (r := main_v194) (by decide)).trans h_main_v194)
    (show ((o250 (F := F)).result W) (Proc.devRef .tc main_v197) = (Cert.ReferenceIdeal.Read.val_main_v197 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v195, h_main_v196] <;> rfl))

theorem s249 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v195 : W (Proc.devRef .tc main_v195) = (Cert.ReferenceIdeal.Read.val_main_v195 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_cst_39 : W (Proc.devRef .tc main_cst_39) = (Cert.ReferenceIdeal.Read.val_main_cst_39 (F := F))) :
    StableHlo.after (t249 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s250 V ((o249 (F := F)).result W) (keep_unary _ _ _ hargs (by decide))
    ((unary_result_ne' _ _ _ W (r := main_v194) (by decide)).trans h_main_v194)
    ((unary_result_ne' _ _ _ W (r := main_v195) (by decide)).trans h_main_v195)
    (show ((o249 (F := F)).result W) (Proc.devRef .tc main_v196) = (Cert.ReferenceIdeal.Read.val_main_v196 (F := F)) from (by rw [unary_result', h_main_cst_39] <;> rfl))

theorem s248 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v195 : W (Proc.devRef .tc main_v195) = (Cert.ReferenceIdeal.Read.val_main_v195 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t248 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s249 V ((o248 (F := F)).result W) (keep_nullary _ _ hargs (by decide))
    ((nullary_result_ne' _ _ W (r := main_v194) (by decide)).trans h_main_v194)
    ((nullary_result_ne' _ _ W (r := main_v195) (by decide)).trans h_main_v195)
    (show ((o248 (F := F)).result W) (Proc.devRef .tc main_cst_39) = (Cert.ReferenceIdeal.Read.val_main_cst_39 (F := F)) from (by rw [nullary_result'] <;> rfl))

theorem s247 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_cst_38 : W (Proc.devRef .tc main_cst_38) = (Cert.ReferenceIdeal.Read.val_main_cst_38 (F := F))) :
    StableHlo.after (t247 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s248 V ((o247 (F := F)).result W) (keep_binary _ _ _ _ hargs (by decide))
    ((binary_result_ne' _ _ _ _ W (r := main_v194) (by decide)).trans h_main_v194)
    (show ((o247 (F := F)).result W) (Proc.devRef .tc main_v195) = (Cert.ReferenceIdeal.Read.val_main_v195 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v194, h_main_cst_38] <;> rfl))

theorem s246 (W : Valuation τ sig (Elt F)) (hargs : Args V W)
    (h_main_v194 : W (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t246 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s247 V ((o246 (F := F)).result W) (keep_nullary _ _ hargs (by decide))
    ((nullary_result_ne' _ _ W (r := main_v194) (by decide)).trans h_main_v194)
    (show ((o246 (F := F)).result W) (Proc.devRef .tc main_cst_38) = (Cert.ReferenceIdeal.Read.val_main_cst_38 (F := F)) from (by rw [nullary_result'] <;> rfl))

theorem s245 (W : Valuation τ sig (Elt F)) (hargs : Args V W)
    (h_main_v193 : W (Proc.devRef .tc main_v193) = (Cert.ReferenceIdeal.Read.val_main_v193 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_call4_v0 : W (Proc.devRef .tc main_call4_v0) = (Cert.ReferenceIdeal.Read.val_main_call4_v0 (F := F))) :
    StableHlo.after (t245 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s246 V ((o245 (F := F)).result W) (keep_binary _ _ _ _ hargs (by decide))
    (show ((o245 (F := F)).result W) (Proc.devRef .tc main_v194) = (Cert.ReferenceIdeal.Read.val_main_v194 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v193, h_main_call4_v0] <;> rfl))

theorem s244 (W : Valuation τ sig (Elt F)) (hargs : Args V W)
    (h_main_v193 : W (Proc.devRef .tc main_v193) = (Cert.ReferenceIdeal.Read.val_main_v193 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_call4_cst : W (Proc.devRef .tc main_call4_cst) = (Cert.ReferenceIdeal.Read.val_main_call4_cst (F := F))) :
    StableHlo.after (t244 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s245 V ((o244 (F := F)).result W) (keep_unary _ _ _ hargs (by decide))
    ((unary_result_ne' _ _ _ W (r := main_v193) (by decide)).trans h_main_v193)
    (show ((o244 (F := F)).result W) (Proc.devRef .tc main_call4_v0) = (Cert.ReferenceIdeal.Read.val_main_call4_v0 (F := F)) from (by rw [unary_result', h_main_call4_cst] <;> rfl))

theorem s243 (W : Valuation τ sig (Elt F)) (hargs : Args V W)
    (h_main_v193 : W (Proc.devRef .tc main_v193) = (Cert.ReferenceIdeal.Read.val_main_v193 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t243 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s244 V ((o243 (F := F)).result W) (keep_nullary _ _ hargs (by decide))
    ((nullary_result_ne' _ _ W (r := main_v193) (by decide)).trans h_main_v193)
    (show ((o243 (F := F)).result W) (Proc.devRef .tc main_call4_cst) = (Cert.ReferenceIdeal.Read.val_main_call4_cst (F := F)) from (by rw [nullary_result'] <;> rfl))

theorem s242 (W : Valuation τ sig (Elt F)) (hargs : Args V W)
    (h_main_v192 : W (Proc.devRef .tc main_v192) = (Cert.ReferenceIdeal.Read.val_main_v192 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_call3_v0 : W (Proc.devRef .tc main_call3_v0) = (Cert.ReferenceIdeal.Read.val_main_call3_v0 (F := F))) :
    StableHlo.after (t242 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s243 V ((o242 (F := F)).result W) (keep_binary _ _ _ _ hargs (by decide))
    (show ((o242 (F := F)).result W) (Proc.devRef .tc main_v193) = (Cert.ReferenceIdeal.Read.val_main_v193 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v192, h_main_call3_v0] <;> rfl))

theorem s241 (W : Valuation τ sig (Elt F)) (hargs : Args V W)
    (h_main_v192 : W (Proc.devRef .tc main_v192) = (Cert.ReferenceIdeal.Read.val_main_v192 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_call3_cst : W (Proc.devRef .tc main_call3_cst) = (Cert.ReferenceIdeal.Read.val_main_call3_cst (F := F))) :
    StableHlo.after (t241 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s242 V ((o241 (F := F)).result W) (keep_unary _ _ _ hargs (by decide))
    ((unary_result_ne' _ _ _ W (r := main_v192) (by decide)).trans h_main_v192)
    (show ((o241 (F := F)).result W) (Proc.devRef .tc main_call3_v0) = (Cert.ReferenceIdeal.Read.val_main_call3_v0 (F := F)) from (by rw [unary_result', h_main_call3_cst] <;> rfl))

theorem s240 (W : Valuation τ sig (Elt F)) (hargs : Args V W)
    (h_main_v192 : W (Proc.devRef .tc main_v192) = (Cert.ReferenceIdeal.Read.val_main_v192 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t240 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s241 V ((o240 (F := F)).result W) (keep_nullary _ _ hargs (by decide))
    ((nullary_result_ne' _ _ W (r := main_v192) (by decide)).trans h_main_v192)
    (show ((o240 (F := F)).result W) (Proc.devRef .tc main_call3_cst) = (Cert.ReferenceIdeal.Read.val_main_call3_cst (F := F)) from (by rw [nullary_result'] <;> rfl))

theorem s239 (W : Valuation τ sig (Elt F)) (hargs : Args V W)
    (h_main_v190 : W (Proc.devRef .tc main_v190) = (Cert.ReferenceIdeal.Read.val_main_v190 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_v191 : W (Proc.devRef .tc main_v191) = (Cert.ReferenceIdeal.Read.val_main_v191 (F := F))) :
    StableHlo.after (t239 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s240 V ((o239 (F := F)).result W) (keep_binary _ _ _ _ hargs (by decide))
    (show ((o239 (F := F)).result W) (Proc.devRef .tc main_v192) = (Cert.ReferenceIdeal.Read.val_main_v192 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v191, h_main_v190] <;> rfl))

theorem s238 (W : Valuation τ sig (Elt F)) (hargs : Args V W)
    (h_main_v190 : W (Proc.devRef .tc main_v190) = (Cert.ReferenceIdeal.Read.val_main_v190 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)))
    (h_main_cst_37 : W (Proc.devRef .tc main_cst_37) = (Cert.ReferenceIdeal.Read.val_main_cst_37 (F := F))) :
    StableHlo.after (t238 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s239 V ((o238 (F := F)).result W) (keep_unary _ _ _ hargs (by decide))
    ((unary_result_ne' _ _ _ W (r := main_v190) (by decide)).trans h_main_v190)
    (show ((o238 (F := F)).result W) (Proc.devRef .tc main_v191) = (Cert.ReferenceIdeal.Read.val_main_v191 (F := F)) from (by rw [unary_result', h_main_cst_37] <;> rfl))

theorem s237 (W : Valuation τ sig (Elt F)) (hargs : Args V W)
    (h_main_v190 : W (Proc.devRef .tc main_v190) = (Cert.ReferenceIdeal.Read.val_main_v190 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V))) :
    StableHlo.after (t237 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s238 V ((o237 (F := F)).result W) (keep_nullary _ _ hargs (by decide))
    ((nullary_result_ne' _ _ W (r := main_v190) (by decide)).trans h_main_v190)
    (show ((o237 (F := F)).result W) (Proc.devRef .tc main_cst_37) = (Cert.ReferenceIdeal.Read.val_main_cst_37 (F := F)) from (by rw [nullary_result'] <;> rfl))

theorem s236 (W : Valuation τ sig (Elt F)) (hargs : Args V W)
    (h_main_v187 : W (Proc.devRef .tc main_v187) = (Cert.ReferenceIdeal.Read.val_main_v187 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v189 : W (Proc.devRef .tc main_v189) = (Cert.ReferenceIdeal.Read.val_main_v189 (F := F) (a20 V))) :
    StableHlo.after (t236 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s237 V ((o236 (F := F)).result W) (keep_binary _ _ _ _ hargs (by decide))
    (show ((o236 (F := F)).result W) (Proc.devRef .tc main_v190) = (Cert.ReferenceIdeal.Read.val_main_v190 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V)) from (by rw [binary_result', h_main_v187, h_main_v189] <;> rfl))

theorem s235 (W : Valuation τ sig (Elt F)) (hargs : Args V W)
    (h_main_v187 : W (Proc.devRef .tc main_v187) = (Cert.ReferenceIdeal.Read.val_main_v187 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v188 : W (Proc.devRef .tc main_v188) = (Cert.ReferenceIdeal.Read.val_main_v188 (F := F) (a20 V))) :
    StableHlo.after (t235 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s236 V ((o235 (F := F)).result W) (keep_unary _ _ _ hargs (by decide))
    ((unary_result_ne' _ _ _ W (r := main_v187) (by decide)).trans h_main_v187)
    (show ((o235 (F := F)).result W) (Proc.devRef .tc main_v189) = (Cert.ReferenceIdeal.Read.val_main_v189 (F := F) (a20 V)) from (by rw [unary_result', h_main_v188] <;> rfl))

theorem s234 (W : Valuation τ sig (Elt F)) (hargs : Args V W)
    (h_main_v187 : W (Proc.devRef .tc main_v187) = (Cert.ReferenceIdeal.Read.val_main_v187 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V))) :
    StableHlo.after (t234 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s235 V ((o234 (F := F)).result W) (keep_unary _ _ _ hargs (by decide))
    ((unary_result_ne' _ _ _ W (r := main_v187) (by decide)).trans h_main_v187)
    (show ((o234 (F := F)).result W) (Proc.devRef .tc main_v188) = (Cert.ReferenceIdeal.Read.val_main_v188 (F := F) (a20 V)) from (by rw [unary_result', hargs main_arg20 (by decide)] <;> rfl))

theorem s233 (W : Valuation τ sig (Elt F)) (hargs : Args V W)
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v186 : W (Proc.devRef .tc main_v186) = (Cert.ReferenceIdeal.Read.val_main_v186 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t233 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s234 V ((o233 (F := F)).result W) (keep_binary _ _ _ _ hargs (by decide))
    (show ((o233 (F := F)).result W) (Proc.devRef .tc main_v187) = (Cert.ReferenceIdeal.Read.val_main_v187 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)) from (by rw [binary_result', h_main_v181, h_main_v186] <;> rfl))

theorem s232 (W : Valuation τ sig (Elt F)) (hargs : Args V W)
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v185 : W (Proc.devRef .tc main_v185) = (Cert.ReferenceIdeal.Read.val_main_v185 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t232 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s233 V ((o232 (F := F)).result W) (keep_unary _ _ _ hargs (by decide))
    ((unary_result_ne' _ _ _ W (r := main_v181) (by decide)).trans h_main_v181)
    (show ((o232 (F := F)).result W) (Proc.devRef .tc main_v186) = (Cert.ReferenceIdeal.Read.val_main_v186 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v185] <;> rfl))

theorem s231 (W : Valuation τ sig (Elt F)) (hargs : Args V W)
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v184 : W (Proc.devRef .tc main_v184) = (Cert.ReferenceIdeal.Read.val_main_v184 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t231 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s232 V ((o231 (F := F)).result W) (keep_unary _ _ _ hargs (by decide))
    ((unary_result_ne' _ _ _ W (r := main_v181) (by decide)).trans h_main_v181)
    (show ((o231 (F := F)).result W) (Proc.devRef .tc main_v185) = (Cert.ReferenceIdeal.Read.val_main_v185 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v184] <;> rfl))

theorem s230 (W : Valuation τ sig (Elt F)) (hargs : Args V W)
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v183 : W (Proc.devRef .tc main_v183) = (Cert.ReferenceIdeal.Read.val_main_v183 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t230 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s231 V ((o230 (F := F)).result W) (keep_unary _ _ _ hargs (by decide))
    ((unary_result_ne' _ _ _ W (r := main_v181) (by decide)).trans h_main_v181)
    (show ((o230 (F := F)).result W) (Proc.devRef .tc main_v184) = (Cert.ReferenceIdeal.Read.val_main_v184 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v183] <;> rfl))

theorem s229 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_v182 : W (Proc.devRef .tc main_v182) = (Cert.ReferenceIdeal.Read.val_main_v182 (F := F))) :
    StableHlo.after (t229 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s230 V ((o229 (F := F)).result W) (keep_binary _ _ _ _ hargs (by decide))
    ((binary_result_ne' _ _ _ _ W (r := main_v181) (by decide)).trans h_main_v181)
    (show ((o229 (F := F)).result W) (Proc.devRef .tc main_v183) = (Cert.ReferenceIdeal.Read.val_main_v183 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v175, h_main_v182] <;> rfl))

theorem s228 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)))
    (h_main_cst_36 : W (Proc.devRef .tc main_cst_36) = (Cert.ReferenceIdeal.Read.val_main_cst_36 (F := F))) :
    StableHlo.after (t228 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s229 V ((o228 (F := F)).result W) (keep_unary _ _ _ hargs (by decide))
    ((unary_result_ne' _ _ _ W (r := main_v175) (by decide)).trans h_main_v175)
    ((unary_result_ne' _ _ _ W (r := main_v181) (by decide)).trans h_main_v181)
    (show ((o228 (F := F)).result W) (Proc.devRef .tc main_v182) = (Cert.ReferenceIdeal.Read.val_main_v182 (F := F)) from (by rw [unary_result', h_main_cst_36] <;> rfl))

theorem s227 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v181 : W (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V))) :
    StableHlo.after (t227 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s228 V ((o227 (F := F)).result W) (keep_nullary _ _ hargs (by decide))
    ((nullary_result_ne' _ _ W (r := main_v175) (by decide)).trans h_main_v175)
    ((nullary_result_ne' _ _ W (r := main_v181) (by decide)).trans h_main_v181)
    (show ((o227 (F := F)).result W) (Proc.devRef .tc main_cst_36) = (Cert.ReferenceIdeal.Read.val_main_cst_36 (F := F)) from (by rw [nullary_result'] <;> rfl))

theorem s226 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v178 : W (Proc.devRef .tc main_v178) = (Cert.ReferenceIdeal.Read.val_main_v178 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v180 : W (Proc.devRef .tc main_v180) = (Cert.ReferenceIdeal.Read.val_main_v180 (F := F) (a19 V))) :
    StableHlo.after (t226 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s227 V ((o226 (F := F)).result W) (keep_binary _ _ _ _ hargs (by decide))
    ((binary_result_ne' _ _ _ _ W (r := main_v175) (by decide)).trans h_main_v175)
    (show ((o226 (F := F)).result W) (Proc.devRef .tc main_v181) = (Cert.ReferenceIdeal.Read.val_main_v181 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a21 V) (a22 V) (a23 V)) from (by rw [binary_result', h_main_v180, h_main_v178] <;> rfl))

theorem s225 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v178 : W (Proc.devRef .tc main_v178) = (Cert.ReferenceIdeal.Read.val_main_v178 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v179 : W (Proc.devRef .tc main_v179) = (Cert.ReferenceIdeal.Read.val_main_v179 (F := F) (a19 V))) :
    StableHlo.after (t225 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s226 V ((o225 (F := F)).result W) (keep_unary _ _ _ hargs (by decide))
    ((unary_result_ne' _ _ _ W (r := main_v175) (by decide)).trans h_main_v175)
    ((unary_result_ne' _ _ _ W (r := main_v178) (by decide)).trans h_main_v178)
    (show ((o225 (F := F)).result W) (Proc.devRef .tc main_v180) = (Cert.ReferenceIdeal.Read.val_main_v180 (F := F) (a19 V)) from (by rw [unary_result', h_main_v179] <;> rfl))

theorem s224 (W : Valuation τ sig (Elt F)) (hargs : Args V W)
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v178 : W (Proc.devRef .tc main_v178) = (Cert.ReferenceIdeal.Read.val_main_v178 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t224 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s225 V ((o224 (F := F)).result W) (keep_unary _ _ _ hargs (by decide))
    ((unary_result_ne' _ _ _ W (r := main_v175) (by decide)).trans h_main_v175)
    ((unary_result_ne' _ _ _ W (r := main_v178) (by decide)).trans h_main_v178)
    (show ((o224 (F := F)).result W) (Proc.devRef .tc main_v179) = (Cert.ReferenceIdeal.Read.val_main_v179 (F := F) (a19 V)) from (by rw [unary_result', hargs main_arg19 (by decide)] <;> rfl))

theorem s223 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v177 : W (Proc.devRef .tc main_v177) = (Cert.ReferenceIdeal.Read.val_main_v177 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t223 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s224 V ((o223 (F := F)).result W) (keep_binary _ _ _ _ hargs (by decide))
    ((binary_result_ne' _ _ _ _ W (r := main_v175) (by decide)).trans h_main_v175)
    (show ((o223 (F := F)).result W) (Proc.devRef .tc main_v178) = (Cert.ReferenceIdeal.Read.val_main_v178 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v165, h_main_v177] <;> rfl))

theorem s222 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v176 : W (Proc.devRef .tc main_v176) = (Cert.ReferenceIdeal.Read.val_main_v176 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t222 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s223 V ((o222 (F := F)).result W) (keep_unary _ _ _ hargs (by decide))
    ((unary_result_ne' _ _ _ W (r := main_v165) (by decide)).trans h_main_v165)
    ((unary_result_ne' _ _ _ W (r := main_v175) (by decide)).trans h_main_v175)
    (show ((o222 (F := F)).result W) (Proc.devRef .tc main_v177) = (Cert.ReferenceIdeal.Read.val_main_v177 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v176] <;> rfl))

theorem s221 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v175 : W (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t221 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s222 V ((o221 (F := F)).result W) (keep_unary _ _ _ hargs (by decide))
    ((unary_result_ne' _ _ _ W (r := main_v165) (by decide)).trans h_main_v165)
    ((unary_result_ne' _ _ _ W (r := main_v175) (by decide)).trans h_main_v175)
    (show ((o221 (F := F)).result W) (Proc.devRef .tc main_v176) = (Cert.ReferenceIdeal.Read.val_main_v176 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v168] <;> rfl))

theorem s220 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v173 : W (Proc.devRef .tc main_v173) = (Cert.ReferenceIdeal.Read.val_main_v173 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v174 : W (Proc.devRef .tc main_v174) = (Cert.ReferenceIdeal.Read.val_main_v174 (F := F))) :
    StableHlo.after (t220 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s221 V ((o220 (F := F)).result W) (keep_binary _ _ _ _ hargs (by decide))
    ((binary_result_ne' _ _ _ _ W (r := main_v165) (by decide)).trans h_main_v165)
    ((binary_result_ne' _ _ _ _ W (r := main_v168) (by decide)).trans h_main_v168)
    (show ((o220 (F := F)).result W) (Proc.devRef .tc main_v175) = (Cert.ReferenceIdeal.Read.val_main_v175 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v173, h_main_v174] <;> rfl))

theorem s219 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v173 : W (Proc.devRef .tc main_v173) = (Cert.ReferenceIdeal.Read.val_main_v173 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_35 : W (Proc.devRef .tc main_cst_35) = (Cert.ReferenceIdeal.Read.val_main_cst_35 (F := F))) :
    StableHlo.after (t219 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s220 V ((o219 (F := F)).result W) (keep_unary _ _ _ hargs (by decide))
    ((unary_result_ne' _ _ _ W (r := main_v165) (by decide)).trans h_main_v165)
    ((unary_result_ne' _ _ _ W (r := main_v168) (by decide)).trans h_main_v168)
    ((unary_result_ne' _ _ _ W (r := main_v173) (by decide)).trans h_main_v173)
    (show ((o219 (F := F)).result W) (Proc.devRef .tc main_v174) = (Cert.ReferenceIdeal.Read.val_main_v174 (F := F)) from (by rw [unary_result', h_main_cst_35] <;> rfl))

theorem s218 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v173 : W (Proc.devRef .tc main_v173) = (Cert.ReferenceIdeal.Read.val_main_v173 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t218 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s219 V ((o218 (F := F)).result W) (keep_nullary _ _ hargs (by decide))
    ((nullary_result_ne' _ _ W (r := main_v165) (by decide)).trans h_main_v165)
    ((nullary_result_ne' _ _ W (r := main_v168) (by decide)).trans h_main_v168)
    ((nullary_result_ne' _ _ W (r := main_v173) (by decide)).trans h_main_v173)
    (show ((o218 (F := F)).result W) (Proc.devRef .tc main_cst_35) = (Cert.ReferenceIdeal.Read.val_main_cst_35 (F := F)) from (by rw [nullary_result'] <;> rfl))

theorem s217 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v172 : W (Proc.devRef .tc main_v172) = (Cert.ReferenceIdeal.Read.val_main_v172 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_34 : W (Proc.devRef .tc main_cst_34) = (Cert.ReferenceIdeal.Read.val_main_cst_34 (F := F))) :
    StableHlo.after (t217 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s218 V ((o217 (F := F)).result W) (keep_binary _ _ _ _ hargs (by decide))
    ((binary_result_ne' _ _ _ _ W (r := main_v165) (by decide)).trans h_main_v165)
    ((binary_result_ne' _ _ _ _ W (r := main_v168) (by decide)).trans h_main_v168)
    (show ((o217 (F := F)).result W) (Proc.devRef .tc main_v173) = (Cert.ReferenceIdeal.Read.val_main_v173 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v172, h_main_cst_34] <;> rfl))

theorem s216 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v172 : W (Proc.devRef .tc main_v172) = (Cert.ReferenceIdeal.Read.val_main_v172 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t216 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s217 V ((o216 (F := F)).result W) (keep_nullary _ _ hargs (by decide))
    ((nullary_result_ne' _ _ W (r := main_v165) (by decide)).trans h_main_v165)
    ((nullary_result_ne' _ _ W (r := main_v168) (by decide)).trans h_main_v168)
    ((nullary_result_ne' _ _ W (r := main_v172) (by decide)).trans h_main_v172)
    (show ((o216 (F := F)).result W) (Proc.devRef .tc main_cst_34) = (Cert.ReferenceIdeal.Read.val_main_cst_34 (F := F)) from (by rw [nullary_result'] <;> rfl))

theorem s215 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v171 : W (Proc.devRef .tc main_v171) = (Cert.ReferenceIdeal.Read.val_main_v171 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t215 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s216 V ((o215 (F := F)).result W) (keep_binary _ _ _ _ hargs (by decide))
    ((binary_result_ne' _ _ _ _ W (r := main_v165) (by decide)).trans h_main_v165)
    ((binary_result_ne' _ _ _ _ W (r := main_v168) (by decide)).trans h_main_v168)
    (show ((o215 (F := F)).result W) (Proc.devRef .tc main_v172) = (Cert.ReferenceIdeal.Read.val_main_v172 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v171] <;> rfl))

theorem s214 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v170 : W (Proc.devRef .tc main_v170) = (Cert.ReferenceIdeal.Read.val_main_v170 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t214 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s215 V ((o214 (F := F)).result W) (keep_binary _ _ _ _ hargs (by decide))
    ((binary_result_ne' _ _ _ _ W (r := main_v165) (by decide)).trans h_main_v165)
    ((binary_result_ne' _ _ _ _ W (r := main_v168) (by decide)).trans h_main_v168)
    (show ((o214 (F := F)).result W) (Proc.devRef .tc main_v171) = (Cert.ReferenceIdeal.Read.val_main_v171 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v165, h_main_v170] <;> rfl))

theorem s213 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v169 : W (Proc.devRef .tc main_v169) = (Cert.ReferenceIdeal.Read.val_main_v169 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t213 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s214 V ((o213 (F := F)).result W) (keep_unary _ _ _ hargs (by decide))
    ((unary_result_ne' _ _ _ W (r := main_v165) (by decide)).trans h_main_v165)
    ((unary_result_ne' _ _ _ W (r := main_v168) (by decide)).trans h_main_v168)
    (show ((o213 (F := F)).result W) (Proc.devRef .tc main_v170) = (Cert.ReferenceIdeal.Read.val_main_v170 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v169] <;> rfl))

theorem s212 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v168 : W (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t212 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s213 V ((o212 (F := F)).result W) (keep_unary _ _ _ hargs (by decide))
    ((unary_result_ne' _ _ _ W (r := main_v165) (by decide)).trans h_main_v165)
    ((unary_result_ne' _ _ _ W (r := main_v168) (by decide)).trans h_main_v168)
    (show ((o212 (F := F)).result W) (Proc.devRef .tc main_v169) = (Cert.ReferenceIdeal.Read.val_main_v169 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v168] <;> rfl))

theorem s211 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v166 : W (Proc.devRef .tc main_v166) = (Cert.ReferenceIdeal.Read.val_main_v166 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v167 : W (Proc.devRef .tc main_v167) = (Cert.ReferenceIdeal.Read.val_main_v167 (F := F))) :
    StableHlo.after (t211 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s212 V ((o211 (F := F)).result W) (keep_binary _ _ _ _ hargs (by decide))
    ((binary_result_ne' _ _ _ _ W (r := main_v165) (by decide)).trans h_main_v165)
    (show ((o211 (F := F)).result W) (Proc.devRef .tc main_v168) = (Cert.ReferenceIdeal.Read.val_main_v168 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v166, h_main_v167] <;> rfl))

theorem s210 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v166 : W (Proc.devRef .tc main_v166) = (Cert.ReferenceIdeal.Read.val_main_v166 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_33 : W (Proc.devRef .tc main_cst_33) = (Cert.ReferenceIdeal.Read.val_main_cst_33 (F := F))) :
    StableHlo.after (t210 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s211 V ((o210 (F := F)).result W) (keep_unary _ _ _ hargs (by decide))
    ((unary_result_ne' _ _ _ W (r := main_v165) (by decide)).trans h_main_v165)
    ((unary_result_ne' _ _ _ W (r := main_v166) (by decide)).trans h_main_v166)
    (show ((o210 (F := F)).result W) (Proc.devRef .tc main_v167) = (Cert.ReferenceIdeal.Read.val_main_v167 (F := F)) from (by rw [unary_result', h_main_cst_33] <;> rfl))

theorem s209 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v166 : W (Proc.devRef .tc main_v166) = (Cert.ReferenceIdeal.Read.val_main_v166 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t209 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s210 V ((o209 (F := F)).result W) (keep_nullary _ _ hargs (by decide))
    ((nullary_result_ne' _ _ W (r := main_v165) (by decide)).trans h_main_v165)
    ((nullary_result_ne' _ _ W (r := main_v166) (by decide)).trans h_main_v166)
    (show ((o209 (F := F)).result W) (Proc.devRef .tc main_cst_33) = (Cert.ReferenceIdeal.Read.val_main_cst_33 (F := F)) from (by rw [nullary_result'] <;> rfl))

theorem s208 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_32 : W (Proc.devRef .tc main_cst_32) = (Cert.ReferenceIdeal.Read.val_main_cst_32 (F := F))) :
    StableHlo.after (t208 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s209 V ((o208 (F := F)).result W) (keep_binary _ _ _ _ hargs (by decide))
    ((binary_result_ne' _ _ _ _ W (r := main_v165) (by decide)).trans h_main_v165)
    (show ((o208 (F := F)).result W) (Proc.devRef .tc main_v166) = (Cert.ReferenceIdeal.Read.val_main_v166 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v165, h_main_cst_32] <;> rfl))

theorem s207 (W : Valuation τ sig (Elt F)) (hargs : Args V W)
    (h_main_v165 : W (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t207 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s208 V ((o207 (F := F)).result W) (keep_nullary _ _ hargs (by decide))
    ((nullary_result_ne' _ _ W (r := main_v165) (by decide)).trans h_main_v165)
    (show ((o207 (F := F)).result W) (Proc.devRef .tc main_cst_32) = (Cert.ReferenceIdeal.Read.val_main_cst_32 (F := F)) from (by rw [nullary_result'] <;> rfl))

theorem s206 (W : Valuation τ sig (Elt F)) (hargs : Args V W)
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v164 : W (Proc.devRef .tc main_v164) = (Cert.ReferenceIdeal.Read.val_main_v164 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t206 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s207 V ((o206 (F := F)).result W) (keep_binary _ _ _ _ hargs (by decide))
    (show ((o206 (F := F)).result W) (Proc.devRef .tc main_v165) = (Cert.ReferenceIdeal.Read.val_main_v165 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v142, h_main_v164] <;> rfl))

theorem s205 (W : Valuation τ sig (Elt F)) (hargs : Args V W)
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v161 : W (Proc.devRef .tc main_v161) = (Cert.ReferenceIdeal.Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v162 : W (Proc.devRef .tc main_v162) = (Cert.ReferenceIdeal.Read.val_main_v162 (F := F)))
    (h_main_v163 : W (Proc.devRef .tc main_v163) = (Cert.ReferenceIdeal.Read.val_main_v163 (F := F) (a1 V))) :
    StableHlo.after (t205 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s206 V ((o205 (F := F)).result W) (keep_ternary _ _ _ _ _ hargs (by decide))
    ((ternary_result_ne' _ _ _ _ _ W (r := main_v142) (by decide)).trans h_main_v142)
    (show ((o205 (F := F)).result W) (Proc.devRef .tc main_v164) = (Cert.ReferenceIdeal.Read.val_main_v164 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [ternary_result', h_main_v162, h_main_v163, h_main_v161] <;> rfl))

theorem s204 (W : Valuation τ sig (Elt F)) (hargs : Args V W)
    (h_main_v6 : W (Proc.devRef .tc main_v6) = (Cert.ReferenceIdeal.Read.val_main_v6 (F := F) (a1 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v161 : W (Proc.devRef .tc main_v161) = (Cert.ReferenceIdeal.Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v162 : W (Proc.devRef .tc main_v162) = (Cert.ReferenceIdeal.Read.val_main_v162 (F := F))) :
    StableHlo.after (t204 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s205 V ((o204 (F := F)).result W) (keep_unary _ _ _ hargs (by decide))
    ((unary_result_ne' _ _ _ W (r := main_v142) (by decide)).trans h_main_v142)
    ((unary_result_ne' _ _ _ W (r := main_v161) (by decide)).trans h_main_v161)
    ((unary_result_ne' _ _ _ W (r := main_v162) (by decide)).trans h_main_v162)
    (show ((o204 (F := F)).result W) (Proc.devRef .tc main_v163) = (Cert.ReferenceIdeal.Read.val_main_v163 (F := F) (a1 V)) from (by rw [unary_result', h_main_v6] <;> rfl))

theorem s203 (W : Valuation τ sig (Elt F)) (hargs : Args V W)
    (h_main_v6 : W (Proc.devRef .tc main_v6) = (Cert.ReferenceIdeal.Read.val_main_v6 (F := F) (a1 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v161 : W (Proc.devRef .tc main_v161) = (Cert.ReferenceIdeal.Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_31 : W (Proc.devRef .tc main_cst_31) = (Cert.ReferenceIdeal.Read.val_main_cst_31 (F := F))) :
    StableHlo.after (t203 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s204 V ((o203 (F := F)).result W) (keep_unary _ _ _ hargs (by decide))
    ((unary_result_ne' _ _ _ W (r := main_v6) (by decide)).trans h_main_v6)
    ((unary_result_ne' _ _ _ W (r := main_v142) (by decide)).trans h_main_v142)
    ((unary_result_ne' _ _ _ W (r := main_v161) (by decide)).trans h_main_v161)
    (show ((o203 (F := F)).result W) (Proc.devRef .tc main_v162) = (Cert.ReferenceIdeal.Read.val_main_v162 (F := F)) from (by rw [unary_result', h_main_cst_31] <;> rfl))

theorem s202 (W : Valuation τ sig (Elt F)) (hargs : Args V W)
    (h_main_v6 : W (Proc.devRef .tc main_v6) = (Cert.ReferenceIdeal.Read.val_main_v6 (F := F) (a1 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v161 : W (Proc.devRef .tc main_v161) = (Cert.ReferenceIdeal.Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t202 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s203 V ((o202 (F := F)).result W) (keep_nullary _ _ hargs (by decide))
    ((nullary_result_ne' _ _ W (r := main_v6) (by decide)).trans h_main_v6)
    ((nullary_result_ne' _ _ W (r := main_v142) (by decide)).trans h_main_v142)
    ((nullary_result_ne' _ _ W (r := main_v161) (by decide)).trans h_main_v161)
    (show ((o202 (F := F)).result W) (Proc.devRef .tc main_cst_31) = (Cert.ReferenceIdeal.Read.val_main_cst_31 (F := F)) from (by rw [nullary_result'] <;> rfl))

theorem s201 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v160 : W (Proc.devRef .tc main_v160) = (Cert.ReferenceIdeal.Read.val_main_v160 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t201 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s202 V ((o201 (F := F)).result W) (keep_binary _ _ _ _ hargs (by decide))
    ((binary_result_ne' _ _ _ _ W (r := main_v6) (by decide)).trans h_main_v6)
    ((binary_result_ne' _ _ _ _ W (r := main_v142) (by decide)).trans h_main_v142)
    (show ((o201 (F := F)).result W) (Proc.devRef .tc main_v161) = (Cert.ReferenceIdeal.Read.val_main_v161 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v160, h_main_v117] <;> rfl))

theorem s200 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v158 : W (Proc.devRef .tc main_v158) = (Cert.ReferenceIdeal.Read.val_main_v158 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v159 : W (Proc.devRef .tc main_v159) = (Cert.ReferenceIdeal.Read.val_main_v159 (F := F))) :
    StableHlo.after (t200 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s201 V ((o200 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o200 (F := F)).result W) (Proc.devRef .tc main_v160) = (Cert.ReferenceIdeal.Read.val_main_v160 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v159, h_main_v158] <;> rfl))

theorem s199 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v158 : W (Proc.devRef .tc main_v158) = (Cert.ReferenceIdeal.Read.val_main_v158 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_30 : W (Proc.devRef .tc main_cst_30) = (Cert.ReferenceIdeal.Read.val_main_cst_30 (F := F))) :
    StableHlo.after (t199 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s200 V ((o199 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    ((unary_result_ne' _ _ _ W (r := main_v158) (by decide)).trans h_main_v158)
    (show ((o199 (F := F)).result W) (Proc.devRef .tc main_v159) = (Cert.ReferenceIdeal.Read.val_main_v159 (F := F)) from (by rw [unary_result', h_main_cst_30] <;> rfl))

theorem s198 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v158 : W (Proc.devRef .tc main_v158) = (Cert.ReferenceIdeal.Read.val_main_v158 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t198 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s199 V ((o198 (F := F)).result W) (keep_nullary _ _ hargs (by decide))
    ((nullary_result_ne' _ _ W (r := main_v6) (by decide)).trans h_main_v6)
    ((nullary_result_ne' _ _ W (r := main_v117) (by decide)).trans h_main_v117)
    ((nullary_result_ne' _ _ W (r := main_v142) (by decide)).trans h_main_v142)
    ((nullary_result_ne' _ _ W (r := main_v158) (by decide)).trans h_main_v158)
    (show ((o198 (F := F)).result W) (Proc.devRef .tc main_cst_30) = (Cert.ReferenceIdeal.Read.val_main_cst_30 (F := F)) from (by rw [nullary_result'] <;> rfl))

theorem s197 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v156 : W (Proc.devRef .tc main_v156) = (Cert.ReferenceIdeal.Read.val_main_v156 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_v157 : W (Proc.devRef .tc main_v157) = (Cert.ReferenceIdeal.Read.val_main_v157 (F := F))) :
    StableHlo.after (t197 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s198 V ((o197 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o197 (F := F)).result W) (Proc.devRef .tc main_v158) = (Cert.ReferenceIdeal.Read.val_main_v158 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v157, h_main_v156] <;> rfl))

theorem s196 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v156 : W (Proc.devRef .tc main_v156) = (Cert.ReferenceIdeal.Read.val_main_v156 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)))
    (h_main_cst_29 : W (Proc.devRef .tc main_cst_29) = (Cert.ReferenceIdeal.Read.val_main_cst_29 (F := F))) :
    StableHlo.after (t196 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s197 V ((o196 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    ((unary_result_ne' _ _ _ W (r := main_v156) (by decide)).trans h_main_v156)
    (show ((o196 (F := F)).result W) (Proc.devRef .tc main_v157) = (Cert.ReferenceIdeal.Read.val_main_v157 (F := F)) from (by rw [unary_result', h_main_cst_29] <;> rfl))

theorem s195 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v156 : W (Proc.devRef .tc main_v156) = (Cert.ReferenceIdeal.Read.val_main_v156 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t195 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s196 V ((o195 (F := F)).result W) (keep_nullary _ _ hargs (by decide))
    ((nullary_result_ne' _ _ W (r := main_v6) (by decide)).trans h_main_v6)
    ((nullary_result_ne' _ _ W (r := main_v117) (by decide)).trans h_main_v117)
    ((nullary_result_ne' _ _ W (r := main_v142) (by decide)).trans h_main_v142)
    ((nullary_result_ne' _ _ W (r := main_v156) (by decide)).trans h_main_v156)
    (show ((o195 (F := F)).result W) (Proc.devRef .tc main_cst_29) = (Cert.ReferenceIdeal.Read.val_main_cst_29 (F := F)) from (by rw [nullary_result'] <;> rfl))

theorem s194 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v155 : W (Proc.devRef .tc main_v155) = (Cert.ReferenceIdeal.Read.val_main_v155 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t194 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s195 V ((o194 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    (show ((o194 (F := F)).result W) (Proc.devRef .tc main_v156) = (Cert.ReferenceIdeal.Read.val_main_v156 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v155] <;> rfl))

theorem s193 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v154 : W (Proc.devRef .tc main_v154) = (Cert.ReferenceIdeal.Read.val_main_v154 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V))) :
    StableHlo.after (t193 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s194 V ((o193 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    (show ((o193 (F := F)).result W) (Proc.devRef .tc main_v155) = (Cert.ReferenceIdeal.Read.val_main_v155 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [unary_result', h_main_v154] <;> rfl))

theorem s192 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v151 : W (Proc.devRef .tc main_v151) = (Cert.ReferenceIdeal.Read.val_main_v151 (F := F) (a0 V) (a1 V) (a2 V) (a3 V) (a4 V) (a5 V) (a6 V) (a7 V) (a8 V) (a9 V) (a10 V) (a11 V) (a12 V) (a13 V) (a14 V) (a15 V) (a16 V) (a17 V) (a21 V) (a22 V) (a23 V)))
    (h_main_v153 : W (Proc.devRef .tc main_v153) = (Cert.ReferenceIdeal.Read.val_main_v153 (F := F) (a18 V))) :
    StableHlo.after (t192 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s193 V ((o192 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o192 (F := F)).result W) (Proc.devRef .tc main_v154) = (Cert.ReferenceIdeal.Read.val_main_v154 (F := F) (a0 V) (a1 V) (a2 V) (a3 V) (a4 V) (a5 V) (a6 V) (a7 V) (a8 V) (a9 V) (a10 V) (a11 V) (a12 V) (a13 V) (a14 V) (a15 V) (a16 V) (a17 V) (a18 V) (a21 V) (a22 V) (a23 V)) from (by rw [binary_result', h_main_v151, h_main_v153] <;> rfl))

theorem s191 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v151 : W (Proc.devRef .tc main_v151) = (Cert.ReferenceIdeal.Read.val_main_v151 (F := F) (a0 V) (a1 V) (a2 V) (a3 V) (a4 V) (a5 V) (a6 V) (a7 V) (a8 V) (a9 V) (a10 V) (a11 V) (a12 V) (a13 V) (a14 V) (a15 V) (a16 V) (a17 V) (a21 V) (a22 V) (a23 V)))
    (h_main_v152 : W (Proc.devRef .tc main_v152) = (Cert.ReferenceIdeal.Read.val_main_v152 (F := F) (a18 V))) :
    StableHlo.after (t191 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s192 V ((o191 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    ((unary_result_ne' _ _ _ W (r := main_v151) (by decide)).trans h_main_v151)
    (show ((o191 (F := F)).result W) (Proc.devRef .tc main_v153) = (Cert.ReferenceIdeal.Read.val_main_v153 (F := F) (a18 V)) from (by rw [unary_result', h_main_v152] <;> rfl))

theorem s190 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v151 : W (Proc.devRef .tc main_v151) = (Cert.ReferenceIdeal.Read.val_main_v151 (F := F) (a0 V) (a1 V) (a2 V) (a3 V) (a4 V) (a5 V) (a6 V) (a7 V) (a8 V) (a9 V) (a10 V) (a11 V) (a12 V) (a13 V) (a14 V) (a15 V) (a16 V) (a17 V) (a21 V) (a22 V) (a23 V))) :
    StableHlo.after (t190 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s191 V ((o190 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    ((unary_result_ne' _ _ _ W (r := main_v151) (by decide)).trans h_main_v151)
    (show ((o190 (F := F)).result W) (Proc.devRef .tc main_v152) = (Cert.ReferenceIdeal.Read.val_main_v152 (F := F) (a18 V)) from (by rw [unary_result', hargs main_arg18 (by decide)] <;> rfl))

theorem s189 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v150 : W (Proc.devRef .tc main_v150) = (Cert.ReferenceIdeal.Read.val_main_v150 (F := F) (a0 V) (a1 V) (a2 V) (a3 V) (a4 V) (a5 V) (a6 V) (a7 V) (a8 V) (a9 V) (a10 V) (a11 V) (a12 V) (a13 V) (a14 V) (a15 V) (a16 V) (a21 V) (a22 V) (a23 V))) :
    StableHlo.after (t189 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s190 V ((o189 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o189 (F := F)).result W) (Proc.devRef .tc main_v151) = (Cert.ReferenceIdeal.Read.val_main_v151 (F := F) (a0 V) (a1 V) (a2 V) (a3 V) (a4 V) (a5 V) (a6 V) (a7 V) (a8 V) (a9 V) (a10 V) (a11 V) (a12 V) (a13 V) (a14 V) (a15 V) (a16 V) (a17 V) (a21 V) (a22 V) (a23 V)) from (by rw [binary_result', h_main_v150, hargs main_arg17 (by decide)] <;> rfl))

theorem s188 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v149 : W (Proc.devRef .tc main_v149) = (Cert.ReferenceIdeal.Read.val_main_v149 (F := F) (a0 V) (a1 V) (a2 V) (a3 V) (a4 V) (a5 V) (a6 V) (a7 V) (a8 V) (a9 V) (a10 V) (a11 V) (a12 V) (a13 V) (a14 V) (a21 V) (a22 V) (a23 V))) :
    StableHlo.after (t188 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s189 V ((o188 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o188 (F := F)).result W) (Proc.devRef .tc main_v150) = (Cert.ReferenceIdeal.Read.val_main_v150 (F := F) (a0 V) (a1 V) (a2 V) (a3 V) (a4 V) (a5 V) (a6 V) (a7 V) (a8 V) (a9 V) (a10 V) (a11 V) (a12 V) (a13 V) (a14 V) (a15 V) (a16 V) (a21 V) (a22 V) (a23 V)) from (by rw [binary_result', h_main_v149, h_main_v117] <;> rfl))

theorem s187 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v148 : W (Proc.devRef .tc main_v148) = (Cert.ReferenceIdeal.Read.val_main_v148 (F := F) (a1 V))) :
    StableHlo.after (t187 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s188 V ((o187 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o187 (F := F)).result W) (Proc.devRef .tc main_v149) = (Cert.ReferenceIdeal.Read.val_main_v149 (F := F) (a0 V) (a1 V) (a2 V) (a3 V) (a4 V) (a5 V) (a6 V) (a7 V) (a8 V) (a9 V) (a10 V) (a11 V) (a12 V) (a13 V) (a14 V) (a21 V) (a22 V) (a23 V)) from (by rw [binary_result', h_main_v142, h_main_v148] <;> rfl))

theorem s186 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v147 : W (Proc.devRef .tc main_v147) = (Cert.ReferenceIdeal.Read.val_main_v147 (F := F) (a1 V))) :
    StableHlo.after (t186 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s187 V ((o186 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    (show ((o186 (F := F)).result W) (Proc.devRef .tc main_v148) = (Cert.ReferenceIdeal.Read.val_main_v148 (F := F) (a1 V)) from (by rw [unary_result', h_main_v147] <;> rfl))

theorem s185 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v144 : W (Proc.devRef .tc main_v144) = (Cert.ReferenceIdeal.Read.val_main_v144 (F := F) (a1 V)))
    (h_main_v146 : W (Proc.devRef .tc main_v146) = (Cert.ReferenceIdeal.Read.val_main_v146 (F := F) (a1 V))) :
    StableHlo.after (t185 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s186 V ((o185 (F := F)).result W) (keep_ternary _ _ _ _ _ hargs (by decide))
    ((ternary_result_ne' _ _ _ _ _ W (r := main_v6) (by decide)).trans h_main_v6)
    ((ternary_result_ne' _ _ _ _ _ W (r := main_v117) (by decide)).trans h_main_v117)
    ((ternary_result_ne' _ _ _ _ _ W (r := main_v142) (by decide)).trans h_main_v142)
    (show ((o185 (F := F)).result W) (Proc.devRef .tc main_v147) = (Cert.ReferenceIdeal.Read.val_main_v147 (F := F) (a1 V)) from (by rw [ternary_result', h_main_v144, h_main_v146, h_main_v6] <;> rfl))

theorem s184 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v144 : W (Proc.devRef .tc main_v144) = (Cert.ReferenceIdeal.Read.val_main_v144 (F := F) (a1 V)))
    (h_main_v145 : W (Proc.devRef .tc main_v145) = (Cert.ReferenceIdeal.Read.val_main_v145 (F := F))) :
    StableHlo.after (t184 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s185 V ((o184 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    ((binary_result_ne' _ _ _ _ W (r := main_v144) (by decide)).trans h_main_v144)
    (show ((o184 (F := F)).result W) (Proc.devRef .tc main_v146) = (Cert.ReferenceIdeal.Read.val_main_v146 (F := F) (a1 V)) from (by rw [binary_result', h_main_v6, h_main_v145] <;> rfl))

theorem s183 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v144 : W (Proc.devRef .tc main_v144) = (Cert.ReferenceIdeal.Read.val_main_v144 (F := F) (a1 V)))
    (h_main_c_28 : W (Proc.devRef .tc main_c_28) = (Cert.ReferenceIdeal.Read.val_main_c_28 (F := F))) :
    StableHlo.after (t183 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s184 V ((o183 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    ((unary_result_ne' _ _ _ W (r := main_v144) (by decide)).trans h_main_v144)
    (show ((o183 (F := F)).result W) (Proc.devRef .tc main_v145) = (Cert.ReferenceIdeal.Read.val_main_v145 (F := F)) from (by rw [unary_result', h_main_c_28] <;> rfl))

theorem s182 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v144 : W (Proc.devRef .tc main_v144) = (Cert.ReferenceIdeal.Read.val_main_v144 (F := F) (a1 V))) :
    StableHlo.after (t182 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s183 V ((o182 (F := F)).result W) (keep_nullary _ _ hargs (by decide))
    ((nullary_result_ne' _ _ W (r := main_v6) (by decide)).trans h_main_v6)
    ((nullary_result_ne' _ _ W (r := main_v117) (by decide)).trans h_main_v117)
    ((nullary_result_ne' _ _ W (r := main_v142) (by decide)).trans h_main_v142)
    ((nullary_result_ne' _ _ W (r := main_v144) (by decide)).trans h_main_v144)
    (show ((o182 (F := F)).result W) (Proc.devRef .tc main_c_28) = (Cert.ReferenceIdeal.Read.val_main_c_28 (F := F)) from (by rw [nullary_result'] <;> rfl))

theorem s181 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_v143 : W (Proc.devRef .tc main_v143) = (Cert.ReferenceIdeal.Read.val_main_v143 (F := F))) :
    StableHlo.after (t181 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s182 V ((o181 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v142) (by decide)).trans h_main_v142)
    (show ((o181 (F := F)).result W) (Proc.devRef .tc main_v144) = (Cert.ReferenceIdeal.Read.val_main_v144 (F := F) (a1 V)) from (by rw [binary_result', h_main_v6, h_main_v143] <;> rfl))

theorem s180 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)))
    (h_main_c_27 : W (Proc.devRef .tc main_c_27) = (Cert.ReferenceIdeal.Read.val_main_c_27 (F := F))) :
    StableHlo.after (t180 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s181 V ((o180 (F := F)).result W) (keep_unary _ _ _ hargs (by decide))
    ((unary_result_ne' _ _ _ W (r := main_v6) (by decide)).trans h_main_v6)
    ((unary_result_ne' _ _ _ W (r := main_v117) (by decide)).trans h_main_v117)
    ((unary_result_ne' _ _ _ W (r := main_v142) (by decide)).trans h_main_v142)
    (show ((o180 (F := F)).result W) (Proc.devRef .tc main_v143) = (Cert.ReferenceIdeal.Read.val_main_v143 (F := F)) from (by rw [unary_result', h_main_c_27] <;> rfl))

theorem s179 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v142 : W (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V))) :
    StableHlo.after (t179 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s180 V ((o179 (F := F)).result W) (keep_nullary _ _ hargs (by decide))
    ((nullary_result_ne' _ _ W (r := main_v6) (by decide)).trans h_main_v6)
    ((nullary_result_ne' _ _ W (r := main_v117) (by decide)).trans h_main_v117)
    ((nullary_result_ne' _ _ W (r := main_v142) (by decide)).trans h_main_v142)
    (show ((o179 (F := F)).result W) (Proc.devRef .tc main_c_27) = (Cert.ReferenceIdeal.Read.val_main_c_27 (F := F)) from (by rw [nullary_result'] <;> rfl))

theorem s178 (W : Valuation τ sig (Elt F)) (hargs : Args V W)
    (h_main_v6 : W (Proc.devRef .tc main_v6) = (Cert.ReferenceIdeal.Read.val_main_v6 (F := F) (a1 V)))
    (h_main_v117 : W (Proc.devRef .tc main_v117) = (Cert.ReferenceIdeal.Read.val_main_v117 (F := F) (a2 V) (a15 V) (a16 V)))
    (h_main_v140 : W (Proc.devRef .tc main_v140) = (Cert.ReferenceIdeal.Read.val_main_v140 (F := F) (a0 V) (a1 V) (a2 V) (a3 V) (a4 V) (a5 V) (a6 V) (a7 V) (a8 V) (a9 V) (a10 V) (a11 V) (a12 V) (a13 V) (a21 V) (a22 V) (a23 V)))
    (h_main_v141 : W (Proc.devRef .tc main_v141) = (Cert.ReferenceIdeal.Read.val_main_v141 (F := F) (a0 V) (a1 V) (a2 V) (a3 V) (a4 V) (a5 V) (a6 V) (a7 V) (a8 V) (a9 V) (a10 V) (a11 V) (a14 V) (a21 V) (a22 V) (a23 V))) :
    StableHlo.after (t178 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s179 V ((o178 (F := F)).result W) (keep_binary _ _ _ _ hargs (by decide))
    ((binary_result_ne' _ _ _ _ W (r := main_v6) (by decide)).trans h_main_v6)
    ((binary_result_ne' _ _ _ _ W (r := main_v117) (by decide)).trans h_main_v117)
    (show ((o178 (F := F)).result W) (Proc.devRef .tc main_v142) = (Cert.ReferenceIdeal.Read.val_main_v142 (F := F) (a0 V) (a1 V) (a2 V) (a3 V) (a4 V) (a5 V) (a6 V) (a7 V) (a8 V) (a9 V) (a10 V) (a11 V) (a12 V) (a13 V) (a14 V) (a21 V) (a22 V) (a23 V)) from (by rw [binary_result', h_main_v140, h_main_v141] <;> rfl))

theorem s177 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v140 : W (Proc.devRef .tc main_v140) = (Cert.ReferenceIdeal.Read.val_main_v140 (F := F) (a0 V) (a1 V) (a2 V) (a3 V) (a4 V) (a5 V) (a6 V) (a7 V) (a8 V) (a9 V) (a10 V) (a11 V) (a12 V) (a13 V) (a21 V) (a22 V) (a23 V))) :
    StableHlo.after (t177 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s178 V ((o177 (F := F)).result W) (keep_binary _ _ _ _ hargs (by decide))
    ((binary_result_ne' _ _ _ _ W (r := main_v6) (by decide)).trans h_main_v6)
    ((binary_result_ne' _ _ _ _ W (r := main_v117) (by decide)).trans h_main_v117)
    ((binary_result_ne' _ _ _ _ W (r := main_v140) (by decide)).trans h_main_v140)
    (show ((o177 (F := F)).result W) (Proc.devRef .tc main_v141) = (Cert.ReferenceIdeal.Read.val_main_v141 (F := F) (a0 V) (a1 V) (a2 V) (a3 V) (a4 V) (a5 V) (a6 V) (a7 V) (a8 V) (a9 V) (a10 V) (a11 V) (a14 V) (a21 V) (a22 V) (a23 V)) from (by rw [binary_result', h_main_v113, hargs main_arg14 (by decide)] <;> rfl))

theorem s176 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v137 : W (Proc.devRef .tc main_v137) = (Cert.ReferenceIdeal.Read.val_main_v137 (F := F) (a0 V) (a1 V) (a2 V) (a3 V) (a4 V) (a5 V) (a6 V) (a7 V) (a8 V) (a9 V) (a10 V) (a11 V) (a12 V) (a21 V) (a22 V) (a23 V)))
    (h_main_v139 : W (Proc.devRef .tc main_v139) = (Cert.ReferenceIdeal.Read.val_main_v139 (F := F) (a13 V))) :
    StableHlo.after (t176 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s177 V ((o176 (F := F)).result W) (keep_binary _ _ _ _ hargs (by decide))
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    (show ((o176 (F := F)).result W) (Proc.devRef .tc main_v140) = (Cert.ReferenceIdeal.Read.val_main_v140 (F := F) (a0 V) (a1 V) (a2 V) (a3 V) (a4 V) (a5 V) (a6 V) (a7 V) (a8 V) (a9 V) (a10 V) (a11 V) (a12 V) (a13 V) (a21 V) (a22 V) (a23 V)) from (by rw [binary_result', h_main_v137, h_main_v139] <;> rfl))

theorem s175 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v137 : W (Proc.devRef .tc main_v137) = (Cert.ReferenceIdeal.Read.val_main_v137 (F := F) (a0 V) (a1 V) (a2 V) (a3 V) (a4 V) (a5 V) (a6 V) (a7 V) (a8 V) (a9 V) (a10 V) (a11 V) (a12 V) (a21 V) (a22 V) (a23 V)))
    (h_main_v138 : W (Proc.devRef .tc main_v138) = (Cert.ReferenceIdeal.Read.val_main_v138 (F := F) (a13 V))) :
    StableHlo.after (t175 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s176 V ((o175 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v137) (by decide)).trans h_main_v137)
    (show ((o175 (F := F)).result W) (Proc.devRef .tc main_v139) = (Cert.ReferenceIdeal.Read.val_main_v139 (F := F) (a13 V)) from (by rw [unary_result', h_main_v138] <;> rfl))

theorem s174 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v137 : W (Proc.devRef .tc main_v137) = (Cert.ReferenceIdeal.Read.val_main_v137 (F := F) (a0 V) (a1 V) (a2 V) (a3 V) (a4 V) (a5 V) (a6 V) (a7 V) (a8 V) (a9 V) (a10 V) (a11 V) (a12 V) (a21 V) (a22 V) (a23 V))) :
    StableHlo.after (t174 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s175 V ((o174 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v137) (by decide)).trans h_main_v137)
    (show ((o174 (F := F)).result W) (Proc.devRef .tc main_v138) = (Cert.ReferenceIdeal.Read.val_main_v138 (F := F) (a13 V)) from (by rw [unary_result', hargs main_arg13 (by decide)] <;> rfl))

theorem s173 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v136 : W (Proc.devRef .tc main_v136) = (Cert.ReferenceIdeal.Read.val_main_v136 (F := F) (a0 V) (a1 V) (a2 V) (a3 V) (a4 V) (a5 V) (a6 V) (a7 V) (a8 V) (a9 V) (a10 V) (a11 V) (a21 V) (a22 V) (a23 V))) :
    StableHlo.after (t173 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s174 V ((o173 (F := F)).result W) (keep_binary _ _ _ _ hargs (by decide))
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    (show ((o173 (F := F)).result W) (Proc.devRef .tc main_v137) = (Cert.ReferenceIdeal.Read.val_main_v137 (F := F) (a0 V) (a1 V) (a2 V) (a3 V) (a4 V) (a5 V) (a6 V) (a7 V) (a8 V) (a9 V) (a10 V) (a11 V) (a12 V) (a21 V) (a22 V) (a23 V)) from (by rw [binary_result', h_main_v136, hargs main_arg12 (by decide)] <;> rfl))

theorem s172 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)))
    (h_main_v135 : W (Proc.devRef .tc main_v135) = (Cert.ReferenceIdeal.Read.val_main_v135 (F := F) (a1 V))) :
    StableHlo.after (t172 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s173 V ((o172 (F := F)).result W) (keep_binary _ _ _ _ hargs (by decide))
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    (show ((o172 (F := F)).result W) (Proc.devRef .tc main_v136) = (Cert.ReferenceIdeal.Read.val_main_v136 (F := F) (a0 V) (a1 V) (a2 V) (a3 V) (a4 V) (a5 V) (a6 V) (a7 V) (a8 V) (a9 V) (a10 V) (a11 V) (a21 V) (a22 V) (a23 V)) from (by rw [binary_result', h_main_v131, h_main_v135] <;> rfl))

theorem s171 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)))
    (h_main_v134 : W (Proc.devRef .tc main_v134) = (Cert.ReferenceIdeal.Read.val_main_v134 (F := F) (a1 V))) :
    StableHlo.after (t171 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s172 V ((o171 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v131) (by decide)).trans h_main_v131)
    (show ((o171 (F := F)).result W) (Proc.devRef .tc main_v135) = (Cert.ReferenceIdeal.Read.val_main_v135 (F := F) (a1 V)) from (by rw [unary_result', h_main_v134] <;> rfl))

theorem s170 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)))
    (h_main_v133 : W (Proc.devRef .tc main_v133) = (Cert.ReferenceIdeal.Read.val_main_v133 (F := F) (a1 V))) :
    StableHlo.after (t170 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s171 V ((o170 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v131) (by decide)).trans h_main_v131)
    (show ((o170 (F := F)).result W) (Proc.devRef .tc main_v134) = (Cert.ReferenceIdeal.Read.val_main_v134 (F := F) (a1 V)) from (by rw [unary_result', h_main_v133] <;> rfl))

theorem s169 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)))
    (h_main_v132 : W (Proc.devRef .tc main_v132) = (Cert.ReferenceIdeal.Read.val_main_v132 (F := F))) :
    StableHlo.after (t169 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s170 V ((o169 (F := F)).result W) (keep_binary _ _ _ _ hargs (by decide))
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    ((binary_result_ne' _ _ _ _ W (r := main_v131) (by decide)).trans h_main_v131)
    (show ((o169 (F := F)).result W) (Proc.devRef .tc main_v133) = (Cert.ReferenceIdeal.Read.val_main_v133 (F := F) (a1 V)) from (by rw [binary_result', h_main_v121, h_main_v132] <;> rfl))

theorem s168 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)))
    (h_main_cst_26 : W (Proc.devRef .tc main_cst_26) = (Cert.ReferenceIdeal.Read.val_main_cst_26 (F := F))) :
    StableHlo.after (t168 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s169 V ((o168 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    ((unary_result_ne' _ _ _ W (r := main_v131) (by decide)).trans h_main_v131)
    (show ((o168 (F := F)).result W) (Proc.devRef .tc main_v132) = (Cert.ReferenceIdeal.Read.val_main_v132 (F := F)) from (by rw [unary_result', h_main_cst_26] <;> rfl))

theorem s167 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v131 : W (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V))) :
    StableHlo.after (t167 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s168 V ((o167 (F := F)).result W) (keep_nullary _ _ hargs (by decide))
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    ((nullary_result_ne' _ _ W (r := main_v121) (by decide)).trans h_main_v121)
    ((nullary_result_ne' _ _ W (r := main_v131) (by decide)).trans h_main_v131)
    (show ((o167 (F := F)).result W) (Proc.devRef .tc main_cst_26) = (Cert.ReferenceIdeal.Read.val_main_cst_26 (F := F)) from (by rw [nullary_result'] <;> rfl))

theorem s166 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v128 : W (Proc.devRef .tc main_v128) = (Cert.ReferenceIdeal.Read.val_main_v128 (F := F) (a0 V) (a1 V) (a2 V) (a3 V) (a4 V) (a5 V) (a6 V) (a7 V) (a8 V) (a9 V) (a10 V) (a11 V) (a21 V) (a22 V) (a23 V)))
    (h_main_v129 : W (Proc.devRef .tc main_v129) = (Cert.ReferenceIdeal.Read.val_main_v129 (F := F)))
    (h_main_v130 : W (Proc.devRef .tc main_v130) = (Cert.ReferenceIdeal.Read.val_main_v130 (F := F) (a1 V))) :
    StableHlo.after (t166 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s167 V ((o166 (F := F)).result W) (keep_ternary _ _ _ _ _ hargs (by decide))
    ((ternary_result_ne' _ _ _ _ _ W (r := main_v6) (by decide)).trans h_main_v6)
    ((ternary_result_ne' _ _ _ _ _ W (r := main_v113) (by decide)).trans h_main_v113)
    ((ternary_result_ne' _ _ _ _ _ W (r := main_v117) (by decide)).trans h_main_v117)
    ((ternary_result_ne' _ _ _ _ _ W (r := main_v121) (by decide)).trans h_main_v121)
    (show ((o166 (F := F)).result W) (Proc.devRef .tc main_v131) = (Cert.ReferenceIdeal.Read.val_main_v131 (F := F) (a0 V) (a1 V) (a2 V) (a3 V) (a4 V) (a5 V) (a6 V) (a7 V) (a8 V) (a9 V) (a10 V) (a11 V) (a21 V) (a22 V) (a23 V)) from (by rw [ternary_result', h_main_v129, h_main_v130, h_main_v128] <;> rfl))

theorem s165 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v128 : W (Proc.devRef .tc main_v128) = (Cert.ReferenceIdeal.Read.val_main_v128 (F := F) (a0 V) (a1 V) (a2 V) (a3 V) (a4 V) (a5 V) (a6 V) (a7 V) (a8 V) (a9 V) (a10 V) (a11 V) (a21 V) (a22 V) (a23 V)))
    (h_main_v129 : W (Proc.devRef .tc main_v129) = (Cert.ReferenceIdeal.Read.val_main_v129 (F := F))) :
    StableHlo.after (t165 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s166 V ((o165 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    ((unary_result_ne' _ _ _ W (r := main_v128) (by decide)).trans h_main_v128)
    ((unary_result_ne' _ _ _ W (r := main_v129) (by decide)).trans h_main_v129)
    (show ((o165 (F := F)).result W) (Proc.devRef .tc main_v130) = (Cert.ReferenceIdeal.Read.val_main_v130 (F := F) (a1 V)) from (by rw [unary_result', h_main_v6] <;> rfl))

theorem s164 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v128 : W (Proc.devRef .tc main_v128) = (Cert.ReferenceIdeal.Read.val_main_v128 (F := F) (a0 V) (a1 V) (a2 V) (a3 V) (a4 V) (a5 V) (a6 V) (a7 V) (a8 V) (a9 V) (a10 V) (a11 V) (a21 V) (a22 V) (a23 V)))
    (h_main_cst_25 : W (Proc.devRef .tc main_cst_25) = (Cert.ReferenceIdeal.Read.val_main_cst_25 (F := F))) :
    StableHlo.after (t164 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s165 V ((o164 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    ((unary_result_ne' _ _ _ W (r := main_v128) (by decide)).trans h_main_v128)
    (show ((o164 (F := F)).result W) (Proc.devRef .tc main_v129) = (Cert.ReferenceIdeal.Read.val_main_v129 (F := F)) from (by rw [unary_result', h_main_cst_25] <;> rfl))

theorem s163 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v128 : W (Proc.devRef .tc main_v128) = (Cert.ReferenceIdeal.Read.val_main_v128 (F := F) (a0 V) (a1 V) (a2 V) (a3 V) (a4 V) (a5 V) (a6 V) (a7 V) (a8 V) (a9 V) (a10 V) (a11 V) (a21 V) (a22 V) (a23 V))) :
    StableHlo.after (t163 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s164 V ((o163 (F := F)).result W) (keep_nullary _ _ hargs (by decide))
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    ((nullary_result_ne' _ _ W (r := main_v121) (by decide)).trans h_main_v121)
    ((nullary_result_ne' _ _ W (r := main_v128) (by decide)).trans h_main_v128)
    (show ((o163 (F := F)).result W) (Proc.devRef .tc main_cst_25) = (Cert.ReferenceIdeal.Read.val_main_cst_25 (F := F)) from (by rw [nullary_result'] <;> rfl))

theorem s162 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v127 : W (Proc.devRef .tc main_v127) = (Cert.ReferenceIdeal.Read.val_main_v127 (F := F) (a1 V))) :
    StableHlo.after (t162 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s163 V ((o162 (F := F)).result W) (keep_binary _ _ _ _ hargs (by decide))
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    ((binary_result_ne' _ _ _ _ W (r := main_v121) (by decide)).trans h_main_v121)
    (show ((o162 (F := F)).result W) (Proc.devRef .tc main_v128) = (Cert.ReferenceIdeal.Read.val_main_v128 (F := F) (a0 V) (a1 V) (a2 V) (a3 V) (a4 V) (a5 V) (a6 V) (a7 V) (a8 V) (a9 V) (a10 V) (a11 V) (a21 V) (a22 V) (a23 V)) from (by rw [binary_result', h_main_v113, h_main_v127] <;> rfl))

theorem s161 (W : Valuation τ sig (Elt F)) (hargs : Args V W)
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v126 : W (Proc.devRef .tc main_v126) = (Cert.ReferenceIdeal.Read.val_main_v126 (F := F) (a1 V))) :
    StableHlo.after (t161 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s162 V ((o161 (F := F)).result W) (keep_unary _ _ _ hargs (by decide))
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    (show ((o161 (F := F)).result W) (Proc.devRef .tc main_v127) = (Cert.ReferenceIdeal.Read.val_main_v127 (F := F) (a1 V)) from (by rw [unary_result', h_main_v126] <;> rfl))

theorem s160 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v123 : W (Proc.devRef .tc main_v123) = (Cert.ReferenceIdeal.Read.val_main_v123 (F := F) (a1 V)))
    (h_main_v125 : W (Proc.devRef .tc main_v125) = (Cert.ReferenceIdeal.Read.val_main_v125 (F := F) (a1 V))) :
    StableHlo.after (t160 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s161 V ((o160 (F := F)).result W) (keep_ternary _ _ _ _ _ hargs (by decide))
    ((ternary_result_ne' _ _ _ _ _ W (r := main_v6) (by decide)).trans h_main_v6)
    ((ternary_result_ne' _ _ _ _ _ W (r := main_v113) (by decide)).trans h_main_v113)
    ((ternary_result_ne' _ _ _ _ _ W (r := main_v117) (by decide)).trans h_main_v117)
    ((ternary_result_ne' _ _ _ _ _ W (r := main_v121) (by decide)).trans h_main_v121)
    (show ((o160 (F := F)).result W) (Proc.devRef .tc main_v126) = (Cert.ReferenceIdeal.Read.val_main_v126 (F := F) (a1 V)) from (by rw [ternary_result', h_main_v123, h_main_v125, h_main_v3] <;> rfl))

theorem s159 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v123 : W (Proc.devRef .tc main_v123) = (Cert.ReferenceIdeal.Read.val_main_v123 (F := F) (a1 V)))
    (h_main_v124 : W (Proc.devRef .tc main_v124) = (Cert.ReferenceIdeal.Read.val_main_v124 (F := F))) :
    StableHlo.after (t159 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s160 V ((o159 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    ((binary_result_ne' _ _ _ _ W (r := main_v121) (by decide)).trans h_main_v121)
    ((binary_result_ne' _ _ _ _ W (r := main_v123) (by decide)).trans h_main_v123)
    (show ((o159 (F := F)).result W) (Proc.devRef .tc main_v125) = (Cert.ReferenceIdeal.Read.val_main_v125 (F := F) (a1 V)) from (by rw [binary_result', h_main_v3, h_main_v124] <;> rfl))

theorem s158 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v123 : W (Proc.devRef .tc main_v123) = (Cert.ReferenceIdeal.Read.val_main_v123 (F := F) (a1 V)))
    (h_main_c_24 : W (Proc.devRef .tc main_c_24) = (Cert.ReferenceIdeal.Read.val_main_c_24 (F := F))) :
    StableHlo.after (t158 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s159 V ((o158 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    ((unary_result_ne' _ _ _ W (r := main_v123) (by decide)).trans h_main_v123)
    (show ((o158 (F := F)).result W) (Proc.devRef .tc main_v124) = (Cert.ReferenceIdeal.Read.val_main_v124 (F := F)) from (by rw [unary_result', h_main_c_24] <;> rfl))

theorem s157 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v123 : W (Proc.devRef .tc main_v123) = (Cert.ReferenceIdeal.Read.val_main_v123 (F := F) (a1 V))) :
    StableHlo.after (t157 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s158 V ((o157 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    ((nullary_result_ne' _ _ W (r := main_v121) (by decide)).trans h_main_v121)
    ((nullary_result_ne' _ _ W (r := main_v123) (by decide)).trans h_main_v123)
    (show ((o157 (F := F)).result W) (Proc.devRef .tc main_c_24) = (Cert.ReferenceIdeal.Read.val_main_c_24 (F := F)) from (by rw [nullary_result'] <;> rfl))

theorem s156 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_v122 : W (Proc.devRef .tc main_v122) = (Cert.ReferenceIdeal.Read.val_main_v122 (F := F))) :
    StableHlo.after (t156 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s157 V ((o156 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v113) (by decide)).trans h_main_v113)
    ((binary_result_ne' _ _ _ _ W (r := main_v117) (by decide)).trans h_main_v117)
    ((binary_result_ne' _ _ _ _ W (r := main_v121) (by decide)).trans h_main_v121)
    (show ((o156 (F := F)).result W) (Proc.devRef .tc main_v123) = (Cert.ReferenceIdeal.Read.val_main_v123 (F := F) (a1 V)) from (by rw [binary_result', h_main_v3, h_main_v122] <;> rfl))

theorem s155 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V)))
    (h_main_c_23 : W (Proc.devRef .tc main_c_23) = (Cert.ReferenceIdeal.Read.val_main_c_23 (F := F))) :
    StableHlo.after (t155 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s156 V ((o155 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v121) (by decide)).trans h_main_v121)
    (show ((o155 (F := F)).result W) (Proc.devRef .tc main_v122) = (Cert.ReferenceIdeal.Read.val_main_v122 (F := F)) from (by rw [unary_result', h_main_c_23] <;> rfl))

theorem s154 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v121 : W (Proc.devRef .tc main_v121) = (Cert.ReferenceIdeal.Read.val_main_v121 (F := F) (a1 V))) :
    StableHlo.after (t154 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s155 V ((o154 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    ((nullary_result_ne' _ _ W (r := main_v121) (by decide)).trans h_main_v121)
    (show ((o154 (F := F)).result W) (Proc.devRef .tc main_c_23) = (Cert.ReferenceIdeal.Read.val_main_c_23 (F := F)) from (by rw [nullary_result'] <;> rfl))

theorem s153 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v118 : W (Proc.devRef .tc main_v118) = (Cert.ReferenceIdeal.Read.val_main_v118 (F := F)))
    (h_main_v119 : W (Proc.devRef .tc main_v119) = (Cert.ReferenceIdeal.Read.val_main_v119 (F := F)))
    (h_main_v120 : W (Proc.devRef .tc main_v120) = (Cert.ReferenceIdeal.Read.val_main_v120 (F := F) (a1 V))) :
    StableHlo.after (t153 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s154 V ((o153 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v113) (by decide)).trans h_main_v113)
    ((ternary_result_ne' _ _ _ _ _ W (r := main_v117) (by decide)).trans h_main_v117)
    (show ((o153 (F := F)).result W) (Proc.devRef .tc main_v121) = (Cert.ReferenceIdeal.Read.val_main_v121 (F := F) (a1 V)) from (by rw [ternary_result', h_main_v119, h_main_v120, h_main_v118] <;> rfl))

theorem s152 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v118 : W (Proc.devRef .tc main_v118) = (Cert.ReferenceIdeal.Read.val_main_v118 (F := F)))
    (h_main_v119 : W (Proc.devRef .tc main_v119) = (Cert.ReferenceIdeal.Read.val_main_v119 (F := F))) :
    StableHlo.after (t152 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s153 V ((o152 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v118) (by decide)).trans h_main_v118)
    ((unary_result_ne' _ _ _ W (r := main_v119) (by decide)).trans h_main_v119)
    (show ((o152 (F := F)).result W) (Proc.devRef .tc main_v120) = (Cert.ReferenceIdeal.Read.val_main_v120 (F := F) (a1 V)) from (by rw [unary_result', h_main_v6] <;> rfl))

theorem s151 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v118 : W (Proc.devRef .tc main_v118) = (Cert.ReferenceIdeal.Read.val_main_v118 (F := F)))
    (h_main_cst_22 : W (Proc.devRef .tc main_cst_22) = (Cert.ReferenceIdeal.Read.val_main_cst_22 (F := F))) :
    StableHlo.after (t151 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s152 V ((o151 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    ((unary_result_ne' _ _ _ W (r := main_v118) (by decide)).trans h_main_v118)
    (show ((o151 (F := F)).result W) (Proc.devRef .tc main_v119) = (Cert.ReferenceIdeal.Read.val_main_v119 (F := F)) from (by rw [unary_result', h_main_cst_22] <;> rfl))

theorem s150 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_v118 : W (Proc.devRef .tc main_v118) = (Cert.ReferenceIdeal.Read.val_main_v118 (F := F))) :
    StableHlo.after (t150 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s151 V ((o150 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    ((nullary_result_ne' _ _ W (r := main_v118) (by decide)).trans h_main_v118)
    (show ((o150 (F := F)).result W) (Proc.devRef .tc main_cst_22) = (Cert.ReferenceIdeal.Read.val_main_cst_22 (F := F)) from (by rw [nullary_result'] <;> rfl))

theorem s149 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V)))
    (h_main_cst_21 : W (Proc.devRef .tc main_cst_21) = (Cert.ReferenceIdeal.Read.val_main_cst_21 (F := F))) :
    StableHlo.after (t149 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s150 V ((o149 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v117) (by decide)).trans h_main_v117)
    (show ((o149 (F := F)).result W) (Proc.devRef .tc main_v118) = (Cert.ReferenceIdeal.Read.val_main_v118 (F := F)) from (by rw [unary_result', h_main_cst_21] <;> rfl))

theorem s148 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v117 : W (Proc.devRef .tc main_v117) = (Cert.ReferenceIdeal.Read.val_main_v117 (F := F) (a2 V) (a15 V) (a16 V))) :
    StableHlo.after (t148 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s149 V ((o148 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v113) (by decide)).trans h_main_v113)
    ((nullary_result_ne' _ _ W (r := main_v117) (by decide)).trans h_main_v117)
    (show ((o148 (F := F)).result W) (Proc.devRef .tc main_cst_21) = (Cert.ReferenceIdeal.Read.val_main_cst_21 (F := F)) from (by rw [nullary_result'] <;> rfl))

theorem s147 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v114 : W (Proc.devRef .tc main_v114) = (Cert.ReferenceIdeal.Read.val_main_v114 (F := F) (a2 V) (a15 V)))
    (h_main_v116 : W (Proc.devRef .tc main_v116) = (Cert.ReferenceIdeal.Read.val_main_v116 (F := F) (a16 V))) :
    StableHlo.after (t147 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s148 V ((o147 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v113) (by decide)).trans h_main_v113)
    (show ((o147 (F := F)).result W) (Proc.devRef .tc main_v117) = (Cert.ReferenceIdeal.Read.val_main_v117 (F := F) (a2 V) (a15 V) (a16 V)) from (by rw [binary_result', h_main_v114, h_main_v116] <;> rfl))

theorem s146 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v114 : W (Proc.devRef .tc main_v114) = (Cert.ReferenceIdeal.Read.val_main_v114 (F := F) (a2 V) (a15 V)))
    (h_main_v115 : W (Proc.devRef .tc main_v115) = (Cert.ReferenceIdeal.Read.val_main_v115 (F := F) (a16 V))) :
    StableHlo.after (t146 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s147 V ((o146 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v114) (by decide)).trans h_main_v114)
    (show ((o146 (F := F)).result W) (Proc.devRef .tc main_v116) = (Cert.ReferenceIdeal.Read.val_main_v116 (F := F) (a16 V)) from (by rw [unary_result', h_main_v115] <;> rfl))

theorem s145 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)))
    (h_main_v114 : W (Proc.devRef .tc main_v114) = (Cert.ReferenceIdeal.Read.val_main_v114 (F := F) (a2 V) (a15 V))) :
    StableHlo.after (t145 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s146 V ((o145 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v113) (by decide)).trans h_main_v113)
    ((unary_result_ne' _ _ _ W (r := main_v114) (by decide)).trans h_main_v114)
    (show ((o145 (F := F)).result W) (Proc.devRef .tc main_v115) = (Cert.ReferenceIdeal.Read.val_main_v115 (F := F) (a16 V)) from (by rw [unary_result', hargs main_arg16 (by decide)] <;> rfl))

theorem s144 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v113 : W (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V))) :
    StableHlo.after (t144 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s145 V ((o144 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v113) (by decide)).trans h_main_v113)
    (show ((o144 (F := F)).result W) (Proc.devRef .tc main_v114) = (Cert.ReferenceIdeal.Read.val_main_v114 (F := F) (a2 V) (a15 V)) from (by rw [binary_result', h_main_v8, hargs main_arg15 (by decide)] <;> rfl))

theorem s143 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v112 : W (Proc.devRef .tc main_v112) = (Cert.ReferenceIdeal.Read.val_main_v112 (F := F) (a0 V) (a1 V) (a2 V) (a3 V) (a4 V) (a5 V) (a6 V) (a7 V) (a8 V) (a9 V) (a10 V) (a11 V) (a21 V) (a22 V) (a23 V)))
    (h_main_call2_v0 : W (Proc.devRef .tc main_call2_v0) = (Cert.ReferenceIdeal.Read.val_main_call2_v0 (F := F))) :
    StableHlo.after (t143 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s144 V ((o143 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o143 (F := F)).result W) (Proc.devRef .tc main_v113) = (Cert.ReferenceIdeal.Read.val_main_v113 (F := F) (a0 V) (a1 V) (a2 V) (a3 V) (a4 V) (a5 V) (a6 V) (a7 V) (a8 V) (a9 V) (a10 V) (a11 V) (a21 V) (a22 V) (a23 V)) from (by rw [binary_result', h_main_v112, h_main_call2_v0] <;> rfl))

theorem s142 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v112 : W (Proc.devRef .tc main_v112) = (Cert.ReferenceIdeal.Read.val_main_v112 (F := F) (a0 V) (a1 V) (a2 V) (a3 V) (a4 V) (a5 V) (a6 V) (a7 V) (a8 V) (a9 V) (a10 V) (a11 V) (a21 V) (a22 V) (a23 V)))
    (h_main_call2_cst : W (Proc.devRef .tc main_call2_cst) = (Cert.ReferenceIdeal.Read.val_main_call2_cst (F := F))) :
    StableHlo.after (t142 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s143 V ((o142 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v112) (by decide)).trans h_main_v112)
    (show ((o142 (F := F)).result W) (Proc.devRef .tc main_call2_v0) = (Cert.ReferenceIdeal.Read.val_main_call2_v0 (F := F)) from (by rw [unary_result', h_main_call2_cst] <;> rfl))

theorem s141 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v112 : W (Proc.devRef .tc main_v112) = (Cert.ReferenceIdeal.Read.val_main_v112 (F := F) (a0 V) (a1 V) (a2 V) (a3 V) (a4 V) (a5 V) (a6 V) (a7 V) (a8 V) (a9 V) (a10 V) (a11 V) (a21 V) (a22 V) (a23 V))) :
    StableHlo.after (t141 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s142 V ((o141 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v112) (by decide)).trans h_main_v112)
    (show ((o141 (F := F)).result W) (Proc.devRef .tc main_call2_cst) = (Cert.ReferenceIdeal.Read.val_main_call2_cst (F := F)) from (by rw [nullary_result'] <;> rfl))

theorem s140 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v109 : W (Proc.devRef .tc main_v109) = (Cert.ReferenceIdeal.Read.val_main_v109 (F := F) (a0 V) (a1 V) (a2 V) (a3 V) (a4 V) (a5 V) (a6 V) (a7 V) (a8 V) (a9 V) (a10 V) (a11 V) (a21 V) (a23 V)))
    (h_main_v111 : W (Proc.devRef .tc main_v111) = (Cert.ReferenceIdeal.Read.val_main_v111 (F := F) (a22 V))) :
    StableHlo.after (t140 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s141 V ((o140 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o140 (F := F)).result W) (Proc.devRef .tc main_v112) = (Cert.ReferenceIdeal.Read.val_main_v112 (F := F) (a0 V) (a1 V) (a2 V) (a3 V) (a4 V) (a5 V) (a6 V) (a7 V) (a8 V) (a9 V) (a10 V) (a11 V) (a21 V) (a22 V) (a23 V)) from (by rw [binary_result', h_main_v109, h_main_v111] <;> rfl))

theorem s139 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v109 : W (Proc.devRef .tc main_v109) = (Cert.ReferenceIdeal.Read.val_main_v109 (F := F) (a0 V) (a1 V) (a2 V) (a3 V) (a4 V) (a5 V) (a6 V) (a7 V) (a8 V) (a9 V) (a10 V) (a11 V) (a21 V) (a23 V)))
    (h_main_v110 : W (Proc.devRef .tc main_v110) = (Cert.ReferenceIdeal.Read.val_main_v110 (F := F) (a22 V))) :
    StableHlo.after (t139 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s140 V ((o139 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v109) (by decide)).trans h_main_v109)
    (show ((o139 (F := F)).result W) (Proc.devRef .tc main_v111) = (Cert.ReferenceIdeal.Read.val_main_v111 (F := F) (a22 V)) from (by rw [unary_result', h_main_v110] <;> rfl))

theorem s138 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v109 : W (Proc.devRef .tc main_v109) = (Cert.ReferenceIdeal.Read.val_main_v109 (F := F) (a0 V) (a1 V) (a2 V) (a3 V) (a4 V) (a5 V) (a6 V) (a7 V) (a8 V) (a9 V) (a10 V) (a11 V) (a21 V) (a23 V))) :
    StableHlo.after (t138 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s139 V ((o138 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v109) (by decide)).trans h_main_v109)
    (show ((o138 (F := F)).result W) (Proc.devRef .tc main_v110) = (Cert.ReferenceIdeal.Read.val_main_v110 (F := F) (a22 V)) from (by rw [unary_result', hargs main_arg22 (by decide)] <;> rfl))

theorem s137 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_v108 : W (Proc.devRef .tc main_v108) = (Cert.ReferenceIdeal.Read.val_main_v108 (F := F) (a0 V) (a1 V) (a2 V) (a3 V) (a4 V) (a5 V) (a6 V) (a7 V) (a8 V) (a9 V) (a10 V) (a11 V) (a23 V))) :
    StableHlo.after (t137 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s138 V ((o137 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o137 (F := F)).result W) (Proc.devRef .tc main_v109) = (Cert.ReferenceIdeal.Read.val_main_v109 (F := F) (a0 V) (a1 V) (a2 V) (a3 V) (a4 V) (a5 V) (a6 V) (a7 V) (a8 V) (a9 V) (a10 V) (a11 V) (a21 V) (a23 V)) from (by rw [binary_result', h_main_v103, h_main_v108] <;> rfl))

theorem s136 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_v107 : W (Proc.devRef .tc main_v107) = (Cert.ReferenceIdeal.Read.val_main_v107 (F := F) (a0 V) (a1 V) (a2 V) (a3 V) (a4 V) (a5 V) (a6 V) (a7 V) (a8 V) (a9 V) (a10 V) (a11 V) (a23 V))) :
    StableHlo.after (t136 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s137 V ((o136 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v103) (by decide)).trans h_main_v103)
    (show ((o136 (F := F)).result W) (Proc.devRef .tc main_v108) = (Cert.ReferenceIdeal.Read.val_main_v108 (F := F) (a0 V) (a1 V) (a2 V) (a3 V) (a4 V) (a5 V) (a6 V) (a7 V) (a8 V) (a9 V) (a10 V) (a11 V) (a23 V)) from (by rw [unary_result', h_main_v107] <;> rfl))

theorem s135 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_v106 : W (Proc.devRef .tc main_v106) = (Cert.ReferenceIdeal.Read.val_main_v106 (F := F) (a0 V) (a1 V) (a2 V) (a3 V) (a4 V) (a5 V) (a6 V) (a7 V) (a8 V) (a9 V) (a10 V) (a11 V) (a23 V))) :
    StableHlo.after (t135 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s136 V ((o135 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v103) (by decide)).trans h_main_v103)
    (show ((o135 (F := F)).result W) (Proc.devRef .tc main_v107) = (Cert.ReferenceIdeal.Read.val_main_v107 (F := F) (a0 V) (a1 V) (a2 V) (a3 V) (a4 V) (a5 V) (a6 V) (a7 V) (a8 V) (a9 V) (a10 V) (a11 V) (a23 V)) from (by rw [unary_result', h_main_v106] <;> rfl))

theorem s134 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_v105 : W (Proc.devRef .tc main_v105) = (Cert.ReferenceIdeal.Read.val_main_v105 (F := F) (a0 V) (a1 V) (a2 V) (a3 V) (a4 V) (a5 V) (a6 V) (a7 V) (a8 V) (a9 V) (a10 V) (a11 V) (a23 V))) :
    StableHlo.after (t134 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s135 V ((o134 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v103) (by decide)).trans h_main_v103)
    (show ((o134 (F := F)).result W) (Proc.devRef .tc main_v106) = (Cert.ReferenceIdeal.Read.val_main_v106 (F := F) (a0 V) (a1 V) (a2 V) (a3 V) (a4 V) (a5 V) (a6 V) (a7 V) (a8 V) (a9 V) (a10 V) (a11 V) (a23 V)) from (by rw [unary_result', h_main_v105] <;> rfl))

theorem s133 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_v104 : W (Proc.devRef .tc main_v104) = (Cert.ReferenceIdeal.Read.val_main_v104 (F := F))) :
    StableHlo.after (t133 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s134 V ((o133 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v103) (by decide)).trans h_main_v103)
    (show ((o133 (F := F)).result W) (Proc.devRef .tc main_v105) = (Cert.ReferenceIdeal.Read.val_main_v105 (F := F) (a0 V) (a1 V) (a2 V) (a3 V) (a4 V) (a5 V) (a6 V) (a7 V) (a8 V) (a9 V) (a10 V) (a11 V) (a23 V)) from (by rw [binary_result', h_main_v100, h_main_v104] <;> rfl))

theorem s132 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)))
    (h_main_cst_20 : W (Proc.devRef .tc main_cst_20) = (Cert.ReferenceIdeal.Read.val_main_cst_20 (F := F))) :
    StableHlo.after (t132 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s133 V ((o132 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v100) (by decide)).trans h_main_v100)
    ((unary_result_ne' _ _ _ W (r := main_v103) (by decide)).trans h_main_v103)
    (show ((o132 (F := F)).result W) (Proc.devRef .tc main_v104) = (Cert.ReferenceIdeal.Read.val_main_v104 (F := F)) from (by rw [unary_result', h_main_cst_20] <;> rfl))

theorem s131 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)))
    (h_main_v103 : W (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V))) :
    StableHlo.after (t131 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s132 V ((o131 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v100) (by decide)).trans h_main_v100)
    ((nullary_result_ne' _ _ W (r := main_v103) (by decide)).trans h_main_v103)
    (show ((o131 (F := F)).result W) (Proc.devRef .tc main_cst_20) = (Cert.ReferenceIdeal.Read.val_main_cst_20 (F := F)) from (by rw [nullary_result'] <;> rfl))

theorem s130 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)))
    (h_main_v102 : W (Proc.devRef .tc main_v102) = (Cert.ReferenceIdeal.Read.val_main_v102 (F := F) (a21 V))) :
    StableHlo.after (t130 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s131 V ((o130 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v100) (by decide)).trans h_main_v100)
    (show ((o130 (F := F)).result W) (Proc.devRef .tc main_v103) = (Cert.ReferenceIdeal.Read.val_main_v103 (F := F) (a0 V) (a1 V) (a2 V) (a3 V) (a4 V) (a5 V) (a6 V) (a7 V) (a8 V) (a9 V) (a10 V) (a11 V) (a21 V) (a23 V)) from (by rw [binary_result', h_main_v102, h_main_v96] <;> rfl))

theorem s129 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)))
    (h_main_v101 : W (Proc.devRef .tc main_v101) = (Cert.ReferenceIdeal.Read.val_main_v101 (F := F) (a21 V))) :
    StableHlo.after (t129 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s130 V ((o129 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v96) (by decide)).trans h_main_v96)
    ((unary_result_ne' _ _ _ W (r := main_v100) (by decide)).trans h_main_v100)
    (show ((o129 (F := F)).result W) (Proc.devRef .tc main_v102) = (Cert.ReferenceIdeal.Read.val_main_v102 (F := F) (a21 V)) from (by rw [unary_result', h_main_v101] <;> rfl))

theorem s128 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v100 : W (Proc.devRef .tc main_v100) = (Cert.ReferenceIdeal.Read.val_main_v100 (F := F) (a0 V) (a1 V) (a2 V) (a3 V) (a4 V) (a5 V) (a6 V) (a7 V) (a8 V) (a9 V) (a10 V) (a11 V) (a23 V))) :
    StableHlo.after (t128 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s129 V ((o128 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v96) (by decide)).trans h_main_v96)
    ((unary_result_ne' _ _ _ W (r := main_v100) (by decide)).trans h_main_v100)
    (show ((o128 (F := F)).result W) (Proc.devRef .tc main_v101) = (Cert.ReferenceIdeal.Read.val_main_v101 (F := F) (a21 V)) from (by rw [unary_result', hargs main_arg21 (by decide)] <;> rfl))

theorem s127 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v98 : W (Proc.devRef .tc main_v98) = (Cert.ReferenceIdeal.Read.val_main_v98 (F := F) (a0 V) (a1 V) (a2 V) (a3 V) (a4 V) (a5 V) (a6 V) (a7 V) (a8 V) (a9 V) (a10 V) (a11 V) (a23 V)))
    (h_main_v99 : W (Proc.devRef .tc main_v99) = (Cert.ReferenceIdeal.Read.val_main_v99 (F := F))) :
    StableHlo.after (t127 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s128 V ((o127 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v96) (by decide)).trans h_main_v96)
    (show ((o127 (F := F)).result W) (Proc.devRef .tc main_v100) = (Cert.ReferenceIdeal.Read.val_main_v100 (F := F) (a0 V) (a1 V) (a2 V) (a3 V) (a4 V) (a5 V) (a6 V) (a7 V) (a8 V) (a9 V) (a10 V) (a11 V) (a23 V)) from (by rw [binary_result', h_main_v98, h_main_v99] <;> rfl))

theorem s126 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v98 : W (Proc.devRef .tc main_v98) = (Cert.ReferenceIdeal.Read.val_main_v98 (F := F) (a0 V) (a1 V) (a2 V) (a3 V) (a4 V) (a5 V) (a6 V) (a7 V) (a8 V) (a9 V) (a10 V) (a11 V) (a23 V)))
    (h_main_cst_19 : W (Proc.devRef .tc main_cst_19) = (Cert.ReferenceIdeal.Read.val_main_cst_19 (F := F))) :
    StableHlo.after (t126 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s127 V ((o126 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v96) (by decide)).trans h_main_v96)
    ((unary_result_ne' _ _ _ W (r := main_v98) (by decide)).trans h_main_v98)
    (show ((o126 (F := F)).result W) (Proc.devRef .tc main_v99) = (Cert.ReferenceIdeal.Read.val_main_v99 (F := F)) from (by rw [unary_result', h_main_cst_19] <;> rfl))

theorem s125 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v98 : W (Proc.devRef .tc main_v98) = (Cert.ReferenceIdeal.Read.val_main_v98 (F := F) (a0 V) (a1 V) (a2 V) (a3 V) (a4 V) (a5 V) (a6 V) (a7 V) (a8 V) (a9 V) (a10 V) (a11 V) (a23 V))) :
    StableHlo.after (t125 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s126 V ((o125 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v96) (by decide)).trans h_main_v96)
    ((nullary_result_ne' _ _ W (r := main_v98) (by decide)).trans h_main_v98)
    (show ((o125 (F := F)).result W) (Proc.devRef .tc main_cst_19) = (Cert.ReferenceIdeal.Read.val_main_cst_19 (F := F)) from (by rw [nullary_result'] <;> rfl))

theorem s124 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v97 : W (Proc.devRef .tc main_v97) = (Cert.ReferenceIdeal.Read.val_main_v97 (F := F) (a0 V) (a1 V) (a2 V) (a3 V) (a4 V) (a5 V) (a6 V) (a7 V) (a8 V) (a9 V) (a10 V) (a11 V) (a23 V)))
    (h_main_cst_18 : W (Proc.devRef .tc main_cst_18) = (Cert.ReferenceIdeal.Read.val_main_cst_18 (F := F))) :
    StableHlo.after (t124 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s125 V ((o124 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v96) (by decide)).trans h_main_v96)
    (show ((o124 (F := F)).result W) (Proc.devRef .tc main_v98) = (Cert.ReferenceIdeal.Read.val_main_v98 (F := F) (a0 V) (a1 V) (a2 V) (a3 V) (a4 V) (a5 V) (a6 V) (a7 V) (a8 V) (a9 V) (a10 V) (a11 V) (a23 V)) from (by rw [binary_result', h_main_v97, h_main_cst_18] <;> rfl))

theorem s123 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)))
    (h_main_v97 : W (Proc.devRef .tc main_v97) = (Cert.ReferenceIdeal.Read.val_main_v97 (F := F) (a0 V) (a1 V) (a2 V) (a3 V) (a4 V) (a5 V) (a6 V) (a7 V) (a8 V) (a9 V) (a10 V) (a11 V) (a23 V))) :
    StableHlo.after (t123 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s124 V ((o123 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v96) (by decide)).trans h_main_v96)
    ((nullary_result_ne' _ _ W (r := main_v97) (by decide)).trans h_main_v97)
    (show ((o123 (F := F)).result W) (Proc.devRef .tc main_cst_18) = (Cert.ReferenceIdeal.Read.val_main_cst_18 (F := F)) from (by rw [nullary_result'] <;> rfl))

theorem s122 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v96 : W (Proc.devRef .tc main_v96) = (Cert.ReferenceIdeal.Read.val_main_v96 (F := F) (a0 V) (a1 V) (a2 V) (a3 V) (a4 V) (a5 V) (a6 V) (a7 V) (a8 V) (a9 V) (a10 V) (a11 V) (a23 V))) :
    StableHlo.after (t122 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s123 V ((o122 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v96) (by decide)).trans h_main_v96)
    (show ((o122 (F := F)).result W) (Proc.devRef .tc main_v97) = (Cert.ReferenceIdeal.Read.val_main_v97 (F := F) (a0 V) (a1 V) (a2 V) (a3 V) (a4 V) (a5 V) (a6 V) (a7 V) (a8 V) (a9 V) (a10 V) (a11 V) (a23 V)) from (by rw [binary_result', h_main_v96] <;> rfl))

theorem s121 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v95 : W (Proc.devRef .tc main_v95) = (Cert.ReferenceIdeal.Read.val_main_v95 (F := F) (a0 V) (a1 V) (a2 V) (a3 V) (a4 V) (a5 V) (a6 V) (a7 V) (a8 V) (a9 V) (a10 V) (a11 V) (a23 V))) :
    StableHlo.after (t121 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s122 V ((o121 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o121 (F := F)).result W) (Proc.devRef .tc main_v96) = (Cert.ReferenceIdeal.Read.val_main_v96 (F := F) (a0 V) (a1 V) (a2 V) (a3 V) (a4 V) (a5 V) (a6 V) (a7 V) (a8 V) (a9 V) (a10 V) (a11 V) (a23 V)) from (by rw [binary_result', h_main_v89, h_main_v95] <;> rfl))

theorem s120 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v94 : W (Proc.devRef .tc main_v94) = (Cert.ReferenceIdeal.Read.val_main_v94 (F := F) (a0 V) (a1 V) (a2 V) (a3 V) (a4 V) (a5 V) (a6 V) (a7 V) (a8 V) (a9 V) (a10 V) (a11 V) (a23 V))) :
    StableHlo.after (t120 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s121 V ((o120 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v89) (by decide)).trans h_main_v89)
    (show ((o120 (F := F)).result W) (Proc.devRef .tc main_v95) = (Cert.ReferenceIdeal.Read.val_main_v95 (F := F) (a0 V) (a1 V) (a2 V) (a3 V) (a4 V) (a5 V) (a6 V) (a7 V) (a8 V) (a9 V) (a10 V) (a11 V) (a23 V)) from (by rw [unary_result', h_main_v94] <;> rfl))

theorem s119 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v93 : W (Proc.devRef .tc main_v93) = (Cert.ReferenceIdeal.Read.val_main_v93 (F := F) (a0 V) (a1 V) (a2 V) (a3 V) (a4 V) (a5 V) (a6 V) (a7 V) (a8 V) (a9 V) (a10 V) (a11 V) (a23 V))) :
    StableHlo.after (t119 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s120 V ((o119 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v89) (by decide)).trans h_main_v89)
    (show ((o119 (F := F)).result W) (Proc.devRef .tc main_v94) = (Cert.ReferenceIdeal.Read.val_main_v94 (F := F) (a0 V) (a1 V) (a2 V) (a3 V) (a4 V) (a5 V) (a6 V) (a7 V) (a8 V) (a9 V) (a10 V) (a11 V) (a23 V)) from (by rw [unary_result', h_main_v93] <;> rfl))

theorem s118 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v92 : W (Proc.devRef .tc main_v92) = (Cert.ReferenceIdeal.Read.val_main_v92 (F := F) (a0 V) (a1 V) (a2 V) (a3 V) (a4 V) (a5 V) (a6 V) (a7 V) (a8 V) (a9 V) (a10 V) (a11 V))) :
    StableHlo.after (t118 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s119 V ((o118 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v89) (by decide)).trans h_main_v89)
    (show ((o118 (F := F)).result W) (Proc.devRef .tc main_v93) = (Cert.ReferenceIdeal.Read.val_main_v93 (F := F) (a0 V) (a1 V) (a2 V) (a3 V) (a4 V) (a5 V) (a6 V) (a7 V) (a8 V) (a9 V) (a10 V) (a11 V) (a23 V)) from (by rw [binary_result', hargs main_arg23 (by decide), h_main_v92] <;> rfl))

theorem s117 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v90 : W (Proc.devRef .tc main_v90) = (Cert.ReferenceIdeal.Read.val_main_v90 (F := F) (a0 V) (a1 V) (a2 V) (a3 V) (a4 V) (a5 V) (a6 V) (a7 V) (a8 V) (a9 V) (a10 V) (a11 V)))
    (h_main_v91 : W (Proc.devRef .tc main_v91) = (Cert.ReferenceIdeal.Read.val_main_v91 (F := F))) :
    StableHlo.after (t117 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s118 V ((o117 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v89) (by decide)).trans h_main_v89)
    (show ((o117 (F := F)).result W) (Proc.devRef .tc main_v92) = (Cert.ReferenceIdeal.Read.val_main_v92 (F := F) (a0 V) (a1 V) (a2 V) (a3 V) (a4 V) (a5 V) (a6 V) (a7 V) (a8 V) (a9 V) (a10 V) (a11 V)) from (by rw [binary_result', h_main_v90, h_main_v91] <;> rfl))

theorem s116 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v90 : W (Proc.devRef .tc main_v90) = (Cert.ReferenceIdeal.Read.val_main_v90 (F := F) (a0 V) (a1 V) (a2 V) (a3 V) (a4 V) (a5 V) (a6 V) (a7 V) (a8 V) (a9 V) (a10 V) (a11 V)))
    (h_main_cst_17 : W (Proc.devRef .tc main_cst_17) = (Cert.ReferenceIdeal.Read.val_main_cst_17 (F := F))) :
    StableHlo.after (t116 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s117 V ((o116 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v89) (by decide)).trans h_main_v89)
    ((unary_result_ne' _ _ _ W (r := main_v90) (by decide)).trans h_main_v90)
    (show ((o116 (F := F)).result W) (Proc.devRef .tc main_v91) = (Cert.ReferenceIdeal.Read.val_main_v91 (F := F)) from (by rw [unary_result', h_main_cst_17] <;> rfl))

theorem s115 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_v90 : W (Proc.devRef .tc main_v90) = (Cert.ReferenceIdeal.Read.val_main_v90 (F := F) (a0 V) (a1 V) (a2 V) (a3 V) (a4 V) (a5 V) (a6 V) (a7 V) (a8 V) (a9 V) (a10 V) (a11 V))) :
    StableHlo.after (t115 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s116 V ((o115 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v89) (by decide)).trans h_main_v89)
    ((nullary_result_ne' _ _ W (r := main_v90) (by decide)).trans h_main_v90)
    (show ((o115 (F := F)).result W) (Proc.devRef .tc main_cst_17) = (Cert.ReferenceIdeal.Read.val_main_cst_17 (F := F)) from (by rw [nullary_result'] <;> rfl))

theorem s114 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V)))
    (h_main_cst_16 : W (Proc.devRef .tc main_cst_16) = (Cert.ReferenceIdeal.Read.val_main_cst_16 (F := F))) :
    StableHlo.after (t114 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s115 V ((o114 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v89) (by decide)).trans h_main_v89)
    (show ((o114 (F := F)).result W) (Proc.devRef .tc main_v90) = (Cert.ReferenceIdeal.Read.val_main_v90 (F := F) (a0 V) (a1 V) (a2 V) (a3 V) (a4 V) (a5 V) (a6 V) (a7 V) (a8 V) (a9 V) (a10 V) (a11 V)) from (by rw [binary_result', h_main_v89, h_main_cst_16] <;> rfl))

theorem s113 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v89 : W (Proc.devRef .tc main_v89) = (Cert.ReferenceIdeal.Read.val_main_v89 (F := F) (a0 V) (a1 V) (a2 V) (a3 V) (a4 V) (a5 V) (a6 V) (a7 V) (a8 V) (a9 V) (a10 V) (a11 V))) :
    StableHlo.after (t113 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s114 V ((o113 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v89) (by decide)).trans h_main_v89)
    (show ((o113 (F := F)).result W) (Proc.devRef .tc main_cst_16) = (Cert.ReferenceIdeal.Read.val_main_cst_16 (F := F)) from (by rw [nullary_result'] <;> rfl))

theorem s112 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v88 : W (Proc.devRef .tc main_v88) = (Cert.ReferenceIdeal.Read.val_main_v88 (F := F) (a0 V) (a1 V) (a2 V) (a3 V) (a4 V) (a5 V) (a6 V) (a7 V) (a8 V) (a9 V) (a10 V) (a11 V)))
    (h_main_call1_v0 : W (Proc.devRef .tc main_call1_v0) = (Cert.ReferenceIdeal.Read.val_main_call1_v0 (F := F))) :
    StableHlo.after (t112 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s113 V ((o112 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o112 (F := F)).result W) (Proc.devRef .tc main_v89) = (Cert.ReferenceIdeal.Read.val_main_v89 (F := F) (a0 V) (a1 V) (a2 V) (a3 V) (a4 V) (a5 V) (a6 V) (a7 V) (a8 V) (a9 V) (a10 V) (a11 V)) from (by rw [binary_result', h_main_v88, h_main_call1_v0] <;> rfl))

theorem s111 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v88 : W (Proc.devRef .tc main_v88) = (Cert.ReferenceIdeal.Read.val_main_v88 (F := F) (a0 V) (a1 V) (a2 V) (a3 V) (a4 V) (a5 V) (a6 V) (a7 V) (a8 V) (a9 V) (a10 V) (a11 V)))
    (h_main_call1_cst : W (Proc.devRef .tc main_call1_cst) = (Cert.ReferenceIdeal.Read.val_main_call1_cst (F := F))) :
    StableHlo.after (t111 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s112 V ((o111 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v88) (by decide)).trans h_main_v88)
    (show ((o111 (F := F)).result W) (Proc.devRef .tc main_call1_v0) = (Cert.ReferenceIdeal.Read.val_main_call1_v0 (F := F)) from (by rw [unary_result', h_main_call1_cst] <;> rfl))

theorem s110 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v88 : W (Proc.devRef .tc main_v88) = (Cert.ReferenceIdeal.Read.val_main_v88 (F := F) (a0 V) (a1 V) (a2 V) (a3 V) (a4 V) (a5 V) (a6 V) (a7 V) (a8 V) (a9 V) (a10 V) (a11 V))) :
    StableHlo.after (t110 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s111 V ((o110 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v88) (by decide)).trans h_main_v88)
    (show ((o110 (F := F)).result W) (Proc.devRef .tc main_call1_cst) = (Cert.ReferenceIdeal.Read.val_main_call1_cst (F := F)) from (by rw [nullary_result'] <;> rfl))

theorem s109 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v87 : W (Proc.devRef .tc main_v87) = (Cert.ReferenceIdeal.Read.val_main_v87 (F := F) (a0 V) (a1 V) (a2 V) (a3 V) (a4 V) (a5 V) (a6 V) (a7 V) (a8 V) (a9 V) (a10 V) (a11 V)))
    (h_main_call0_v0 : W (Proc.devRef .tc main_call0_v0) = (Cert.ReferenceIdeal.Read.val_main_call0_v0 (F := F))) :
    StableHlo.after (t109 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s110 V ((o109 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o109 (F := F)).result W) (Proc.devRef .tc main_v88) = (Cert.ReferenceIdeal.Read.val_main_v88 (F := F) (a0 V) (a1 V) (a2 V) (a3 V) (a4 V) (a5 V) (a6 V) (a7 V) (a8 V) (a9 V) (a10 V) (a11 V)) from (by rw [binary_result', h_main_v87, h_main_call0_v0] <;> rfl))

theorem s108 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v87 : W (Proc.devRef .tc main_v87) = (Cert.ReferenceIdeal.Read.val_main_v87 (F := F) (a0 V) (a1 V) (a2 V) (a3 V) (a4 V) (a5 V) (a6 V) (a7 V) (a8 V) (a9 V) (a10 V) (a11 V)))
    (h_main_call0_cst : W (Proc.devRef .tc main_call0_cst) = (Cert.ReferenceIdeal.Read.val_main_call0_cst (F := F))) :
    StableHlo.after (t108 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s109 V ((o108 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v87) (by decide)).trans h_main_v87)
    (show ((o108 (F := F)).result W) (Proc.devRef .tc main_call0_v0) = (Cert.ReferenceIdeal.Read.val_main_call0_v0 (F := F)) from (by rw [unary_result', h_main_call0_cst] <;> rfl))

theorem s107 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v87 : W (Proc.devRef .tc main_v87) = (Cert.ReferenceIdeal.Read.val_main_v87 (F := F) (a0 V) (a1 V) (a2 V) (a3 V) (a4 V) (a5 V) (a6 V) (a7 V) (a8 V) (a9 V) (a10 V) (a11 V))) :
    StableHlo.after (t107 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s108 V ((o107 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v87) (by decide)).trans h_main_v87)
    (show ((o107 (F := F)).result W) (Proc.devRef .tc main_call0_cst) = (Cert.ReferenceIdeal.Read.val_main_call0_cst (F := F)) from (by rw [nullary_result'] <;> rfl))

theorem s106 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v85 : W (Proc.devRef .tc main_v85) = (Cert.ReferenceIdeal.Read.val_main_v85 (F := F) (a0 V) (a1 V) (a2 V) (a3 V) (a4 V) (a5 V) (a6 V) (a7 V) (a8 V) (a9 V) (a10 V) (a11 V)))
    (h_main_v86 : W (Proc.devRef .tc main_v86) = (Cert.ReferenceIdeal.Read.val_main_v86 (F := F))) :
    StableHlo.after (t106 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s107 V ((o106 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o106 (F := F)).result W) (Proc.devRef .tc main_v87) = (Cert.ReferenceIdeal.Read.val_main_v87 (F := F) (a0 V) (a1 V) (a2 V) (a3 V) (a4 V) (a5 V) (a6 V) (a7 V) (a8 V) (a9 V) (a10 V) (a11 V)) from (by rw [binary_result', h_main_v86, h_main_v85] <;> rfl))

theorem s105 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v85 : W (Proc.devRef .tc main_v85) = (Cert.ReferenceIdeal.Read.val_main_v85 (F := F) (a0 V) (a1 V) (a2 V) (a3 V) (a4 V) (a5 V) (a6 V) (a7 V) (a8 V) (a9 V) (a10 V) (a11 V)))
    (h_main_cst_15 : W (Proc.devRef .tc main_cst_15) = (Cert.ReferenceIdeal.Read.val_main_cst_15 (F := F))) :
    StableHlo.after (t105 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s106 V ((o105 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v85) (by decide)).trans h_main_v85)
    (show ((o105 (F := F)).result W) (Proc.devRef .tc main_v86) = (Cert.ReferenceIdeal.Read.val_main_v86 (F := F)) from (by rw [unary_result', h_main_cst_15] <;> rfl))

theorem s104 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v85 : W (Proc.devRef .tc main_v85) = (Cert.ReferenceIdeal.Read.val_main_v85 (F := F) (a0 V) (a1 V) (a2 V) (a3 V) (a4 V) (a5 V) (a6 V) (a7 V) (a8 V) (a9 V) (a10 V) (a11 V))) :
    StableHlo.after (t104 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s105 V ((o104 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v85) (by decide)).trans h_main_v85)
    (show ((o104 (F := F)).result W) (Proc.devRef .tc main_cst_15) = (Cert.ReferenceIdeal.Read.val_main_cst_15 (F := F)) from (by rw [nullary_result'] <;> rfl))

theorem s103 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v82 : W (Proc.devRef .tc main_v82) = (Cert.ReferenceIdeal.Read.val_main_v82 (F := F) (a0 V) (a1 V) (a2 V) (a3 V) (a4 V) (a5 V) (a6 V) (a7 V) (a8 V) (a9 V) (a10 V)))
    (h_main_v84 : W (Proc.devRef .tc main_v84) = (Cert.ReferenceIdeal.Read.val_main_v84 (F := F) (a11 V))) :
    StableHlo.after (t103 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s104 V ((o103 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o103 (F := F)).result W) (Proc.devRef .tc main_v85) = (Cert.ReferenceIdeal.Read.val_main_v85 (F := F) (a0 V) (a1 V) (a2 V) (a3 V) (a4 V) (a5 V) (a6 V) (a7 V) (a8 V) (a9 V) (a10 V) (a11 V)) from (by rw [binary_result', h_main_v82, h_main_v84] <;> rfl))

theorem s102 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v82 : W (Proc.devRef .tc main_v82) = (Cert.ReferenceIdeal.Read.val_main_v82 (F := F) (a0 V) (a1 V) (a2 V) (a3 V) (a4 V) (a5 V) (a6 V) (a7 V) (a8 V) (a9 V) (a10 V)))
    (h_main_v83 : W (Proc.devRef .tc main_v83) = (Cert.ReferenceIdeal.Read.val_main_v83 (F := F) (a11 V))) :
    StableHlo.after (t102 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s103 V ((o102 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v82) (by decide)).trans h_main_v82)
    (show ((o102 (F := F)).result W) (Proc.devRef .tc main_v84) = (Cert.ReferenceIdeal.Read.val_main_v84 (F := F) (a11 V)) from (by rw [unary_result', h_main_v83] <;> rfl))

theorem s101 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v82 : W (Proc.devRef .tc main_v82) = (Cert.ReferenceIdeal.Read.val_main_v82 (F := F) (a0 V) (a1 V) (a2 V) (a3 V) (a4 V) (a5 V) (a6 V) (a7 V) (a8 V) (a9 V) (a10 V))) :
    StableHlo.after (t101 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s102 V ((o101 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v82) (by decide)).trans h_main_v82)
    (show ((o101 (F := F)).result W) (Proc.devRef .tc main_v83) = (Cert.ReferenceIdeal.Read.val_main_v83 (F := F) (a11 V)) from (by rw [unary_result', hargs main_arg11 (by decide)] <;> rfl))

theorem s100 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_v81 : W (Proc.devRef .tc main_v81) = (Cert.ReferenceIdeal.Read.val_main_v81 (F := F) (a0 V) (a1 V) (a2 V) (a3 V) (a4 V) (a5 V) (a6 V) (a7 V) (a8 V) (a9 V))) :
    StableHlo.after (t100 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s101 V ((o100 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o100 (F := F)).result W) (Proc.devRef .tc main_v82) = (Cert.ReferenceIdeal.Read.val_main_v82 (F := F) (a0 V) (a1 V) (a2 V) (a3 V) (a4 V) (a5 V) (a6 V) (a7 V) (a8 V) (a9 V) (a10 V)) from (by rw [binary_result', h_main_v76, h_main_v81] <;> rfl))

theorem s99 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_v80 : W (Proc.devRef .tc main_v80) = (Cert.ReferenceIdeal.Read.val_main_v80 (F := F) (a0 V) (a1 V) (a2 V) (a3 V) (a4 V) (a5 V) (a6 V) (a7 V) (a8 V) (a9 V))) :
    StableHlo.after (t99 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s100 V ((o99 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v76) (by decide)).trans h_main_v76)
    (show ((o99 (F := F)).result W) (Proc.devRef .tc main_v81) = (Cert.ReferenceIdeal.Read.val_main_v81 (F := F) (a0 V) (a1 V) (a2 V) (a3 V) (a4 V) (a5 V) (a6 V) (a7 V) (a8 V) (a9 V)) from (by rw [unary_result', h_main_v80] <;> rfl))

theorem s98 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_v79 : W (Proc.devRef .tc main_v79) = (Cert.ReferenceIdeal.Read.val_main_v79 (F := F) (a0 V) (a1 V) (a2 V) (a3 V) (a4 V) (a5 V) (a6 V) (a7 V) (a8 V) (a9 V))) :
    StableHlo.after (t98 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s99 V ((o98 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v76) (by decide)).trans h_main_v76)
    (show ((o98 (F := F)).result W) (Proc.devRef .tc main_v80) = (Cert.ReferenceIdeal.Read.val_main_v80 (F := F) (a0 V) (a1 V) (a2 V) (a3 V) (a4 V) (a5 V) (a6 V) (a7 V) (a8 V) (a9 V)) from (by rw [unary_result', h_main_v79] <;> rfl))

theorem s97 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_v78 : W (Proc.devRef .tc main_v78) = (Cert.ReferenceIdeal.Read.val_main_v78 (F := F) (a0 V) (a1 V) (a2 V) (a3 V) (a4 V) (a5 V) (a6 V) (a7 V) (a8 V) (a9 V))) :
    StableHlo.after (t97 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s98 V ((o97 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v76) (by decide)).trans h_main_v76)
    (show ((o97 (F := F)).result W) (Proc.devRef .tc main_v79) = (Cert.ReferenceIdeal.Read.val_main_v79 (F := F) (a0 V) (a1 V) (a2 V) (a3 V) (a4 V) (a5 V) (a6 V) (a7 V) (a8 V) (a9 V)) from (by rw [unary_result', h_main_v78] <;> rfl))

theorem s96 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_v77 : W (Proc.devRef .tc main_v77) = (Cert.ReferenceIdeal.Read.val_main_v77 (F := F))) :
    StableHlo.after (t96 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s97 V ((o96 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v76) (by decide)).trans h_main_v76)
    (show ((o96 (F := F)).result W) (Proc.devRef .tc main_v78) = (Cert.ReferenceIdeal.Read.val_main_v78 (F := F) (a0 V) (a1 V) (a2 V) (a3 V) (a4 V) (a5 V) (a6 V) (a7 V) (a8 V) (a9 V)) from (by rw [binary_result', h_main_v70, h_main_v77] <;> rfl))

theorem s95 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V)))
    (h_main_cst_14 : W (Proc.devRef .tc main_cst_14) = (Cert.ReferenceIdeal.Read.val_main_cst_14 (F := F))) :
    StableHlo.after (t95 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s96 V ((o95 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v70) (by decide)).trans h_main_v70)
    ((unary_result_ne' _ _ _ W (r := main_v76) (by decide)).trans h_main_v76)
    (show ((o95 (F := F)).result W) (Proc.devRef .tc main_v77) = (Cert.ReferenceIdeal.Read.val_main_v77 (F := F)) from (by rw [unary_result', h_main_cst_14] <;> rfl))

theorem s94 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v76 : W (Proc.devRef .tc main_v76) = (Cert.ReferenceIdeal.Read.val_main_v76 (F := F) (a0 V) (a1 V) (a2 V) (a3 V) (a4 V) (a5 V) (a6 V) (a7 V) (a8 V) (a9 V) (a10 V))) :
    StableHlo.after (t94 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s95 V ((o94 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v70) (by decide)).trans h_main_v70)
    ((nullary_result_ne' _ _ W (r := main_v76) (by decide)).trans h_main_v76)
    (show ((o94 (F := F)).result W) (Proc.devRef .tc main_cst_14) = (Cert.ReferenceIdeal.Read.val_main_cst_14 (F := F)) from (by rw [nullary_result'] <;> rfl))

theorem s93 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v73 : W (Proc.devRef .tc main_v73) = (Cert.ReferenceIdeal.Read.val_main_v73 (F := F) (a0 V) (a1 V) (a2 V) (a3 V) (a4 V) (a5 V) (a6 V) (a7 V) (a8 V) (a9 V)))
    (h_main_v75 : W (Proc.devRef .tc main_v75) = (Cert.ReferenceIdeal.Read.val_main_v75 (F := F) (a10 V))) :
    StableHlo.after (t93 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s94 V ((o93 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v70) (by decide)).trans h_main_v70)
    (show ((o93 (F := F)).result W) (Proc.devRef .tc main_v76) = (Cert.ReferenceIdeal.Read.val_main_v76 (F := F) (a0 V) (a1 V) (a2 V) (a3 V) (a4 V) (a5 V) (a6 V) (a7 V) (a8 V) (a9 V) (a10 V)) from (by rw [binary_result', h_main_v75, h_main_v73] <;> rfl))

theorem s92 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v73 : W (Proc.devRef .tc main_v73) = (Cert.ReferenceIdeal.Read.val_main_v73 (F := F) (a0 V) (a1 V) (a2 V) (a3 V) (a4 V) (a5 V) (a6 V) (a7 V) (a8 V) (a9 V)))
    (h_main_v74 : W (Proc.devRef .tc main_v74) = (Cert.ReferenceIdeal.Read.val_main_v74 (F := F) (a10 V))) :
    StableHlo.after (t92 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s93 V ((o92 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v70) (by decide)).trans h_main_v70)
    ((unary_result_ne' _ _ _ W (r := main_v73) (by decide)).trans h_main_v73)
    (show ((o92 (F := F)).result W) (Proc.devRef .tc main_v75) = (Cert.ReferenceIdeal.Read.val_main_v75 (F := F) (a10 V)) from (by rw [unary_result', h_main_v74] <;> rfl))

theorem s91 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v73 : W (Proc.devRef .tc main_v73) = (Cert.ReferenceIdeal.Read.val_main_v73 (F := F) (a0 V) (a1 V) (a2 V) (a3 V) (a4 V) (a5 V) (a6 V) (a7 V) (a8 V) (a9 V))) :
    StableHlo.after (t91 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s92 V ((o91 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v70) (by decide)).trans h_main_v70)
    ((unary_result_ne' _ _ _ W (r := main_v73) (by decide)).trans h_main_v73)
    (show ((o91 (F := F)).result W) (Proc.devRef .tc main_v74) = (Cert.ReferenceIdeal.Read.val_main_v74 (F := F) (a10 V)) from (by rw [unary_result', hargs main_arg10 (by decide)] <;> rfl))

theorem s90 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v72 : W (Proc.devRef .tc main_v72) = (Cert.ReferenceIdeal.Read.val_main_v72 (F := F) (a0 V) (a1 V) (a2 V) (a3 V) (a4 V) (a5 V) (a6 V) (a7 V) (a8 V) (a9 V))) :
    StableHlo.after (t90 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s91 V ((o90 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v70) (by decide)).trans h_main_v70)
    (show ((o90 (F := F)).result W) (Proc.devRef .tc main_v73) = (Cert.ReferenceIdeal.Read.val_main_v73 (F := F) (a0 V) (a1 V) (a2 V) (a3 V) (a4 V) (a5 V) (a6 V) (a7 V) (a8 V) (a9 V)) from (by rw [binary_result', h_main_v60, h_main_v72] <;> rfl))

theorem s89 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v70 : W (Proc.devRef .tc main_v70) = (Cert.ReferenceIdeal.Read.val_main_v70 (F := F) (a0 V) (a1 V) (a2 V) (a3 V) (a4 V) (a5 V) (a6 V) (a7 V) (a8 V) (a9 V)))
    (h_main_v71 : W (Proc.devRef .tc main_v71) = (Cert.ReferenceIdeal.Read.val_main_v71 (F := F) (a0 V) (a1 V) (a2 V) (a3 V) (a4 V) (a5 V) (a6 V) (a7 V) (a8 V) (a9 V))) :
    StableHlo.after (t89 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s90 V ((o89 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v70) (by decide)).trans h_main_v70)
    (show ((o89 (F := F)).result W) (Proc.devRef .tc main_v72) = (Cert.ReferenceIdeal.Read.val_main_v72 (F := F) (a0 V) (a1 V) (a2 V) (a3 V) (a4 V) (a5 V) (a6 V) (a7 V) (a8 V) (a9 V)) from (by rw [unary_result', h_main_v71] <;> rfl))

theorem s88 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v70 : W (Proc.devRef .tc main_v70) = (Cert.ReferenceIdeal.Read.val_main_v70 (F := F) (a0 V) (a1 V) (a2 V) (a3 V) (a4 V) (a5 V) (a6 V) (a7 V) (a8 V) (a9 V))) :
    StableHlo.after (t88 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s89 V ((o88 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v70) (by decide)).trans h_main_v70)
    (show ((o88 (F := F)).result W) (Proc.devRef .tc main_v71) = (Cert.ReferenceIdeal.Read.val_main_v71 (F := F) (a0 V) (a1 V) (a2 V) (a3 V) (a4 V) (a5 V) (a6 V) (a7 V) (a8 V) (a9 V)) from (by rw [unary_result', h_main_v63] <;> rfl))

theorem s87 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v68 : W (Proc.devRef .tc main_v68) = (Cert.ReferenceIdeal.Read.val_main_v68 (F := F) (a0 V) (a1 V) (a2 V) (a3 V) (a4 V) (a5 V) (a6 V) (a7 V) (a8 V) (a9 V)))
    (h_main_v69 : W (Proc.devRef .tc main_v69) = (Cert.ReferenceIdeal.Read.val_main_v69 (F := F))) :
    StableHlo.after (t87 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s88 V ((o87 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    ((binary_result_ne' _ _ _ _ W (r := main_v63) (by decide)).trans h_main_v63)
    (show ((o87 (F := F)).result W) (Proc.devRef .tc main_v70) = (Cert.ReferenceIdeal.Read.val_main_v70 (F := F) (a0 V) (a1 V) (a2 V) (a3 V) (a4 V) (a5 V) (a6 V) (a7 V) (a8 V) (a9 V)) from (by rw [binary_result', h_main_v68, h_main_v69] <;> rfl))

theorem s86 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v68 : W (Proc.devRef .tc main_v68) = (Cert.ReferenceIdeal.Read.val_main_v68 (F := F) (a0 V) (a1 V) (a2 V) (a3 V) (a4 V) (a5 V) (a6 V) (a7 V) (a8 V) (a9 V)))
    (h_main_cst_13 : W (Proc.devRef .tc main_cst_13) = (Cert.ReferenceIdeal.Read.val_main_cst_13 (F := F))) :
    StableHlo.after (t86 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s87 V ((o86 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v63) (by decide)).trans h_main_v63)
    ((unary_result_ne' _ _ _ W (r := main_v68) (by decide)).trans h_main_v68)
    (show ((o86 (F := F)).result W) (Proc.devRef .tc main_v69) = (Cert.ReferenceIdeal.Read.val_main_v69 (F := F)) from (by rw [unary_result', h_main_cst_13] <;> rfl))

theorem s85 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v68 : W (Proc.devRef .tc main_v68) = (Cert.ReferenceIdeal.Read.val_main_v68 (F := F) (a0 V) (a1 V) (a2 V) (a3 V) (a4 V) (a5 V) (a6 V) (a7 V) (a8 V) (a9 V))) :
    StableHlo.after (t85 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s86 V ((o85 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v60) (by decide)).trans h_main_v60)
    ((nullary_result_ne' _ _ W (r := main_v63) (by decide)).trans h_main_v63)
    ((nullary_result_ne' _ _ W (r := main_v68) (by decide)).trans h_main_v68)
    (show ((o85 (F := F)).result W) (Proc.devRef .tc main_cst_13) = (Cert.ReferenceIdeal.Read.val_main_cst_13 (F := F)) from (by rw [nullary_result'] <;> rfl))

theorem s84 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v67 : W (Proc.devRef .tc main_v67) = (Cert.ReferenceIdeal.Read.val_main_v67 (F := F) (a0 V) (a1 V) (a2 V) (a3 V) (a4 V) (a5 V) (a6 V) (a7 V) (a8 V) (a9 V)))
    (h_main_cst_12 : W (Proc.devRef .tc main_cst_12) = (Cert.ReferenceIdeal.Read.val_main_cst_12 (F := F))) :
    StableHlo.after (t84 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s85 V ((o84 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    ((binary_result_ne' _ _ _ _ W (r := main_v63) (by decide)).trans h_main_v63)
    (show ((o84 (F := F)).result W) (Proc.devRef .tc main_v68) = (Cert.ReferenceIdeal.Read.val_main_v68 (F := F) (a0 V) (a1 V) (a2 V) (a3 V) (a4 V) (a5 V) (a6 V) (a7 V) (a8 V) (a9 V)) from (by rw [binary_result', h_main_v67, h_main_cst_12] <;> rfl))

theorem s83 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v67 : W (Proc.devRef .tc main_v67) = (Cert.ReferenceIdeal.Read.val_main_v67 (F := F) (a0 V) (a1 V) (a2 V) (a3 V) (a4 V) (a5 V) (a6 V) (a7 V) (a8 V) (a9 V))) :
    StableHlo.after (t83 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s84 V ((o83 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v60) (by decide)).trans h_main_v60)
    ((nullary_result_ne' _ _ W (r := main_v63) (by decide)).trans h_main_v63)
    ((nullary_result_ne' _ _ W (r := main_v67) (by decide)).trans h_main_v67)
    (show ((o83 (F := F)).result W) (Proc.devRef .tc main_cst_12) = (Cert.ReferenceIdeal.Read.val_main_cst_12 (F := F)) from (by rw [nullary_result'] <;> rfl))

theorem s82 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v66 : W (Proc.devRef .tc main_v66) = (Cert.ReferenceIdeal.Read.val_main_v66 (F := F) (a0 V) (a1 V) (a2 V) (a3 V) (a4 V) (a5 V) (a6 V) (a7 V) (a8 V) (a9 V))) :
    StableHlo.after (t82 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s83 V ((o82 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    ((binary_result_ne' _ _ _ _ W (r := main_v63) (by decide)).trans h_main_v63)
    (show ((o82 (F := F)).result W) (Proc.devRef .tc main_v67) = (Cert.ReferenceIdeal.Read.val_main_v67 (F := F) (a0 V) (a1 V) (a2 V) (a3 V) (a4 V) (a5 V) (a6 V) (a7 V) (a8 V) (a9 V)) from (by rw [binary_result', h_main_v66] <;> rfl))

theorem s81 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v65 : W (Proc.devRef .tc main_v65) = (Cert.ReferenceIdeal.Read.val_main_v65 (F := F) (a0 V) (a1 V) (a2 V) (a3 V) (a4 V) (a5 V) (a6 V) (a7 V) (a8 V) (a9 V))) :
    StableHlo.after (t81 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s82 V ((o81 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    ((binary_result_ne' _ _ _ _ W (r := main_v63) (by decide)).trans h_main_v63)
    (show ((o81 (F := F)).result W) (Proc.devRef .tc main_v66) = (Cert.ReferenceIdeal.Read.val_main_v66 (F := F) (a0 V) (a1 V) (a2 V) (a3 V) (a4 V) (a5 V) (a6 V) (a7 V) (a8 V) (a9 V)) from (by rw [binary_result', h_main_v60, h_main_v65] <;> rfl))

theorem s80 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V)))
    (h_main_v64 : W (Proc.devRef .tc main_v64) = (Cert.ReferenceIdeal.Read.val_main_v64 (F := F) (a0 V) (a1 V) (a2 V) (a3 V) (a4 V) (a5 V) (a6 V) (a7 V) (a8 V) (a9 V))) :
    StableHlo.after (t80 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s81 V ((o80 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v63) (by decide)).trans h_main_v63)
    (show ((o80 (F := F)).result W) (Proc.devRef .tc main_v65) = (Cert.ReferenceIdeal.Read.val_main_v65 (F := F) (a0 V) (a1 V) (a2 V) (a3 V) (a4 V) (a5 V) (a6 V) (a7 V) (a8 V) (a9 V)) from (by rw [unary_result', h_main_v64] <;> rfl))

theorem s79 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v63 : W (Proc.devRef .tc main_v63) = (Cert.ReferenceIdeal.Read.val_main_v63 (F := F) (a0 V) (a1 V) (a2 V) (a3 V) (a4 V) (a5 V) (a6 V) (a7 V) (a8 V) (a9 V))) :
    StableHlo.after (t79 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s80 V ((o79 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v63) (by decide)).trans h_main_v63)
    (show ((o79 (F := F)).result W) (Proc.devRef .tc main_v64) = (Cert.ReferenceIdeal.Read.val_main_v64 (F := F) (a0 V) (a1 V) (a2 V) (a3 V) (a4 V) (a5 V) (a6 V) (a7 V) (a8 V) (a9 V)) from (by rw [unary_result', h_main_v63] <;> rfl))

theorem s78 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v61 : W (Proc.devRef .tc main_v61) = (Cert.ReferenceIdeal.Read.val_main_v61 (F := F) (a0 V) (a1 V) (a2 V) (a3 V) (a4 V) (a5 V) (a6 V) (a7 V) (a8 V) (a9 V)))
    (h_main_v62 : W (Proc.devRef .tc main_v62) = (Cert.ReferenceIdeal.Read.val_main_v62 (F := F))) :
    StableHlo.after (t78 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s79 V ((o78 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    (show ((o78 (F := F)).result W) (Proc.devRef .tc main_v63) = (Cert.ReferenceIdeal.Read.val_main_v63 (F := F) (a0 V) (a1 V) (a2 V) (a3 V) (a4 V) (a5 V) (a6 V) (a7 V) (a8 V) (a9 V)) from (by rw [binary_result', h_main_v61, h_main_v62] <;> rfl))

theorem s77 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v61 : W (Proc.devRef .tc main_v61) = (Cert.ReferenceIdeal.Read.val_main_v61 (F := F) (a0 V) (a1 V) (a2 V) (a3 V) (a4 V) (a5 V) (a6 V) (a7 V) (a8 V) (a9 V)))
    (h_main_cst_11 : W (Proc.devRef .tc main_cst_11) = (Cert.ReferenceIdeal.Read.val_main_cst_11 (F := F))) :
    StableHlo.after (t77 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s78 V ((o77 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v60) (by decide)).trans h_main_v60)
    ((unary_result_ne' _ _ _ W (r := main_v61) (by decide)).trans h_main_v61)
    (show ((o77 (F := F)).result W) (Proc.devRef .tc main_v62) = (Cert.ReferenceIdeal.Read.val_main_v62 (F := F)) from (by rw [unary_result', h_main_cst_11] <;> rfl))

theorem s76 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_v61 : W (Proc.devRef .tc main_v61) = (Cert.ReferenceIdeal.Read.val_main_v61 (F := F) (a0 V) (a1 V) (a2 V) (a3 V) (a4 V) (a5 V) (a6 V) (a7 V) (a8 V) (a9 V))) :
    StableHlo.after (t76 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s77 V ((o76 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v60) (by decide)).trans h_main_v60)
    ((nullary_result_ne' _ _ W (r := main_v61) (by decide)).trans h_main_v61)
    (show ((o76 (F := F)).result W) (Proc.devRef .tc main_cst_11) = (Cert.ReferenceIdeal.Read.val_main_cst_11 (F := F)) from (by rw [nullary_result'] <;> rfl))

theorem s75 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V)))
    (h_main_cst_10 : W (Proc.devRef .tc main_cst_10) = (Cert.ReferenceIdeal.Read.val_main_cst_10 (F := F))) :
    StableHlo.after (t75 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s76 V ((o75 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v60) (by decide)).trans h_main_v60)
    (show ((o75 (F := F)).result W) (Proc.devRef .tc main_v61) = (Cert.ReferenceIdeal.Read.val_main_v61 (F := F) (a0 V) (a1 V) (a2 V) (a3 V) (a4 V) (a5 V) (a6 V) (a7 V) (a8 V) (a9 V)) from (by rw [binary_result', h_main_v60, h_main_cst_10] <;> rfl))

theorem s74 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v60 : W (Proc.devRef .tc main_v60) = (Cert.ReferenceIdeal.Read.val_main_v60 (F := F) (a0 V) (a1 V) (a2 V) (a3 V) (a4 V) (a5 V) (a6 V) (a7 V) (a8 V) (a9 V))) :
    StableHlo.after (t74 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s75 V ((o74 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v60) (by decide)).trans h_main_v60)
    (show ((o74 (F := F)).result W) (Proc.devRef .tc main_cst_10) = (Cert.ReferenceIdeal.Read.val_main_cst_10 (F := F)) from (by rw [nullary_result'] <;> rfl))

theorem s73 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v37 : W (Proc.devRef .tc main_v37) = (Cert.ReferenceIdeal.Read.val_main_v37 (F := F) (a0 V) (a1 V) (a3 V) (a4 V) (a5 V)))
    (h_main_v59 : W (Proc.devRef .tc main_v59) = (Cert.ReferenceIdeal.Read.val_main_v59 (F := F) (a0 V) (a1 V) (a2 V) (a3 V) (a4 V) (a5 V) (a6 V) (a7 V) (a8 V) (a9 V))) :
    StableHlo.after (t73 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s74 V ((o73 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o73 (F := F)).result W) (Proc.devRef .tc main_v60) = (Cert.ReferenceIdeal.Read.val_main_v60 (F := F) (a0 V) (a1 V) (a2 V) (a3 V) (a4 V) (a5 V) (a6 V) (a7 V) (a8 V) (a9 V)) from (by rw [binary_result', h_main_v37, h_main_v59] <;> rfl))

theorem s72 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v37 : W (Proc.devRef .tc main_v37) = (Cert.ReferenceIdeal.Read.val_main_v37 (F := F) (a0 V) (a1 V) (a3 V) (a4 V) (a5 V)))
    (h_main_v56 : W (Proc.devRef .tc main_v56) = (Cert.ReferenceIdeal.Read.val_main_v56 (F := F) (a0 V) (a1 V) (a2 V) (a3 V) (a4 V) (a5 V) (a6 V) (a7 V) (a8 V) (a9 V)))
    (h_main_v57 : W (Proc.devRef .tc main_v57) = (Cert.ReferenceIdeal.Read.val_main_v57 (F := F)))
    (h_main_v58 : W (Proc.devRef .tc main_v58) = (Cert.ReferenceIdeal.Read.val_main_v58 (F := F) (a1 V))) :
    StableHlo.after (t72 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s73 V ((o72 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v8) (by decide)).trans h_main_v8)
    ((ternary_result_ne' _ _ _ _ _ W (r := main_v37) (by decide)).trans h_main_v37)
    (show ((o72 (F := F)).result W) (Proc.devRef .tc main_v59) = (Cert.ReferenceIdeal.Read.val_main_v59 (F := F) (a0 V) (a1 V) (a2 V) (a3 V) (a4 V) (a5 V) (a6 V) (a7 V) (a8 V) (a9 V)) from (by rw [ternary_result', h_main_v57, h_main_v58, h_main_v56] <;> rfl))

theorem s71 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v37 : W (Proc.devRef .tc main_v37) = (Cert.ReferenceIdeal.Read.val_main_v37 (F := F) (a0 V) (a1 V) (a3 V) (a4 V) (a5 V)))
    (h_main_v56 : W (Proc.devRef .tc main_v56) = (Cert.ReferenceIdeal.Read.val_main_v56 (F := F) (a0 V) (a1 V) (a2 V) (a3 V) (a4 V) (a5 V) (a6 V) (a7 V) (a8 V) (a9 V)))
    (h_main_v57 : W (Proc.devRef .tc main_v57) = (Cert.ReferenceIdeal.Read.val_main_v57 (F := F))) :
    StableHlo.after (t71 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s72 V ((o71 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v37) (by decide)).trans h_main_v37)
    ((unary_result_ne' _ _ _ W (r := main_v56) (by decide)).trans h_main_v56)
    ((unary_result_ne' _ _ _ W (r := main_v57) (by decide)).trans h_main_v57)
    (show ((o71 (F := F)).result W) (Proc.devRef .tc main_v58) = (Cert.ReferenceIdeal.Read.val_main_v58 (F := F) (a1 V)) from (by rw [unary_result', h_main_v6] <;> rfl))

theorem s70 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v37 : W (Proc.devRef .tc main_v37) = (Cert.ReferenceIdeal.Read.val_main_v37 (F := F) (a0 V) (a1 V) (a3 V) (a4 V) (a5 V)))
    (h_main_v56 : W (Proc.devRef .tc main_v56) = (Cert.ReferenceIdeal.Read.val_main_v56 (F := F) (a0 V) (a1 V) (a2 V) (a3 V) (a4 V) (a5 V) (a6 V) (a7 V) (a8 V) (a9 V)))
    (h_main_cst_9 : W (Proc.devRef .tc main_cst_9) = (Cert.ReferenceIdeal.Read.val_main_cst_9 (F := F))) :
    StableHlo.after (t70 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s71 V ((o70 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v37) (by decide)).trans h_main_v37)
    ((unary_result_ne' _ _ _ W (r := main_v56) (by decide)).trans h_main_v56)
    (show ((o70 (F := F)).result W) (Proc.devRef .tc main_v57) = (Cert.ReferenceIdeal.Read.val_main_v57 (F := F)) from (by rw [unary_result', h_main_cst_9] <;> rfl))

theorem s69 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v37 : W (Proc.devRef .tc main_v37) = (Cert.ReferenceIdeal.Read.val_main_v37 (F := F) (a0 V) (a1 V) (a3 V) (a4 V) (a5 V)))
    (h_main_v56 : W (Proc.devRef .tc main_v56) = (Cert.ReferenceIdeal.Read.val_main_v56 (F := F) (a0 V) (a1 V) (a2 V) (a3 V) (a4 V) (a5 V) (a6 V) (a7 V) (a8 V) (a9 V))) :
    StableHlo.after (t69 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s70 V ((o69 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v37) (by decide)).trans h_main_v37)
    ((nullary_result_ne' _ _ W (r := main_v56) (by decide)).trans h_main_v56)
    (show ((o69 (F := F)).result W) (Proc.devRef .tc main_cst_9) = (Cert.ReferenceIdeal.Read.val_main_cst_9 (F := F)) from (by rw [nullary_result'] <;> rfl))

theorem s68 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v55 : W (Proc.devRef .tc main_v55) = (Cert.ReferenceIdeal.Read.val_main_v55 (F := F) (a0 V) (a1 V) (a2 V) (a3 V) (a4 V) (a5 V) (a6 V) (a7 V) (a8 V) (a9 V))) :
    StableHlo.after (t68 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s69 V ((o68 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v37) (by decide)).trans h_main_v37)
    (show ((o68 (F := F)).result W) (Proc.devRef .tc main_v56) = (Cert.ReferenceIdeal.Read.val_main_v56 (F := F) (a0 V) (a1 V) (a2 V) (a3 V) (a4 V) (a5 V) (a6 V) (a7 V) (a8 V) (a9 V)) from (by rw [binary_result', h_main_v55, h_main_v12] <;> rfl))

theorem s67 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v53 : W (Proc.devRef .tc main_v53) = (Cert.ReferenceIdeal.Read.val_main_v53 (F := F) (a0 V) (a1 V) (a2 V) (a3 V) (a4 V) (a5 V) (a6 V) (a7 V) (a8 V) (a9 V)))
    (h_main_v54 : W (Proc.devRef .tc main_v54) = (Cert.ReferenceIdeal.Read.val_main_v54 (F := F))) :
    StableHlo.after (t67 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s68 V ((o67 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o67 (F := F)).result W) (Proc.devRef .tc main_v55) = (Cert.ReferenceIdeal.Read.val_main_v55 (F := F) (a0 V) (a1 V) (a2 V) (a3 V) (a4 V) (a5 V) (a6 V) (a7 V) (a8 V) (a9 V)) from (by rw [binary_result', h_main_v54, h_main_v53] <;> rfl))

theorem s66 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v53 : W (Proc.devRef .tc main_v53) = (Cert.ReferenceIdeal.Read.val_main_v53 (F := F) (a0 V) (a1 V) (a2 V) (a3 V) (a4 V) (a5 V) (a6 V) (a7 V) (a8 V) (a9 V)))
    (h_main_cst_8 : W (Proc.devRef .tc main_cst_8) = (Cert.ReferenceIdeal.Read.val_main_cst_8 (F := F))) :
    StableHlo.after (t66 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s67 V ((o66 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    ((unary_result_ne' _ _ _ W (r := main_v53) (by decide)).trans h_main_v53)
    (show ((o66 (F := F)).result W) (Proc.devRef .tc main_v54) = (Cert.ReferenceIdeal.Read.val_main_v54 (F := F)) from (by rw [unary_result', h_main_cst_8] <;> rfl))

theorem s65 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v53 : W (Proc.devRef .tc main_v53) = (Cert.ReferenceIdeal.Read.val_main_v53 (F := F) (a0 V) (a1 V) (a2 V) (a3 V) (a4 V) (a5 V) (a6 V) (a7 V) (a8 V) (a9 V))) :
    StableHlo.after (t65 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s66 V ((o65 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v37) (by decide)).trans h_main_v37)
    ((nullary_result_ne' _ _ W (r := main_v53) (by decide)).trans h_main_v53)
    (show ((o65 (F := F)).result W) (Proc.devRef .tc main_cst_8) = (Cert.ReferenceIdeal.Read.val_main_cst_8 (F := F)) from (by rw [nullary_result'] <;> rfl))

theorem s64 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v51 : W (Proc.devRef .tc main_v51) = (Cert.ReferenceIdeal.Read.val_main_v51 (F := F) (a0 V) (a1 V) (a2 V) (a3 V) (a4 V) (a5 V) (a6 V) (a7 V) (a8 V) (a9 V)))
    (h_main_v52 : W (Proc.devRef .tc main_v52) = (Cert.ReferenceIdeal.Read.val_main_v52 (F := F))) :
    StableHlo.after (t64 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s65 V ((o64 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o64 (F := F)).result W) (Proc.devRef .tc main_v53) = (Cert.ReferenceIdeal.Read.val_main_v53 (F := F) (a0 V) (a1 V) (a2 V) (a3 V) (a4 V) (a5 V) (a6 V) (a7 V) (a8 V) (a9 V)) from (by rw [binary_result', h_main_v52, h_main_v51] <;> rfl))

theorem s63 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v51 : W (Proc.devRef .tc main_v51) = (Cert.ReferenceIdeal.Read.val_main_v51 (F := F) (a0 V) (a1 V) (a2 V) (a3 V) (a4 V) (a5 V) (a6 V) (a7 V) (a8 V) (a9 V)))
    (h_main_cst_7 : W (Proc.devRef .tc main_cst_7) = (Cert.ReferenceIdeal.Read.val_main_cst_7 (F := F))) :
    StableHlo.after (t63 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s64 V ((o63 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    ((unary_result_ne' _ _ _ W (r := main_v51) (by decide)).trans h_main_v51)
    (show ((o63 (F := F)).result W) (Proc.devRef .tc main_v52) = (Cert.ReferenceIdeal.Read.val_main_v52 (F := F)) from (by rw [unary_result', h_main_cst_7] <;> rfl))

theorem s62 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v51 : W (Proc.devRef .tc main_v51) = (Cert.ReferenceIdeal.Read.val_main_v51 (F := F) (a0 V) (a1 V) (a2 V) (a3 V) (a4 V) (a5 V) (a6 V) (a7 V) (a8 V) (a9 V))) :
    StableHlo.after (t62 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s63 V ((o62 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v37) (by decide)).trans h_main_v37)
    ((nullary_result_ne' _ _ W (r := main_v51) (by decide)).trans h_main_v51)
    (show ((o62 (F := F)).result W) (Proc.devRef .tc main_cst_7) = (Cert.ReferenceIdeal.Read.val_main_cst_7 (F := F)) from (by rw [nullary_result'] <;> rfl))

theorem s61 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v50 : W (Proc.devRef .tc main_v50) = (Cert.ReferenceIdeal.Read.val_main_v50 (F := F) (a0 V) (a1 V) (a2 V) (a3 V) (a4 V) (a5 V) (a6 V) (a7 V) (a8 V) (a9 V))) :
    StableHlo.after (t61 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s62 V ((o61 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    (show ((o61 (F := F)).result W) (Proc.devRef .tc main_v51) = (Cert.ReferenceIdeal.Read.val_main_v51 (F := F) (a0 V) (a1 V) (a2 V) (a3 V) (a4 V) (a5 V) (a6 V) (a7 V) (a8 V) (a9 V)) from (by rw [unary_result', h_main_v50] <;> rfl))

theorem s60 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v49 : W (Proc.devRef .tc main_v49) = (Cert.ReferenceIdeal.Read.val_main_v49 (F := F) (a0 V) (a1 V) (a2 V) (a3 V) (a4 V) (a5 V) (a6 V) (a7 V) (a8 V) (a9 V))) :
    StableHlo.after (t60 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s61 V ((o60 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    (show ((o60 (F := F)).result W) (Proc.devRef .tc main_v50) = (Cert.ReferenceIdeal.Read.val_main_v50 (F := F) (a0 V) (a1 V) (a2 V) (a3 V) (a4 V) (a5 V) (a6 V) (a7 V) (a8 V) (a9 V)) from (by rw [unary_result', h_main_v49] <;> rfl))

theorem s59 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v46 : W (Proc.devRef .tc main_v46) = (Cert.ReferenceIdeal.Read.val_main_v46 (F := F) (a0 V) (a1 V) (a2 V) (a3 V) (a4 V) (a5 V) (a6 V) (a7 V) (a8 V)))
    (h_main_v48 : W (Proc.devRef .tc main_v48) = (Cert.ReferenceIdeal.Read.val_main_v48 (F := F) (a9 V))) :
    StableHlo.after (t59 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s60 V ((o59 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o59 (F := F)).result W) (Proc.devRef .tc main_v49) = (Cert.ReferenceIdeal.Read.val_main_v49 (F := F) (a0 V) (a1 V) (a2 V) (a3 V) (a4 V) (a5 V) (a6 V) (a7 V) (a8 V) (a9 V)) from (by rw [binary_result', h_main_v46, h_main_v48] <;> rfl))

theorem s58 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v46 : W (Proc.devRef .tc main_v46) = (Cert.ReferenceIdeal.Read.val_main_v46 (F := F) (a0 V) (a1 V) (a2 V) (a3 V) (a4 V) (a5 V) (a6 V) (a7 V) (a8 V)))
    (h_main_v47 : W (Proc.devRef .tc main_v47) = (Cert.ReferenceIdeal.Read.val_main_v47 (F := F) (a9 V))) :
    StableHlo.after (t58 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s59 V ((o58 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    ((unary_result_ne' _ _ _ W (r := main_v46) (by decide)).trans h_main_v46)
    (show ((o58 (F := F)).result W) (Proc.devRef .tc main_v48) = (Cert.ReferenceIdeal.Read.val_main_v48 (F := F) (a9 V)) from (by rw [unary_result', h_main_v47] <;> rfl))

theorem s57 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v46 : W (Proc.devRef .tc main_v46) = (Cert.ReferenceIdeal.Read.val_main_v46 (F := F) (a0 V) (a1 V) (a2 V) (a3 V) (a4 V) (a5 V) (a6 V) (a7 V) (a8 V))) :
    StableHlo.after (t57 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s58 V ((o57 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    ((unary_result_ne' _ _ _ W (r := main_v46) (by decide)).trans h_main_v46)
    (show ((o57 (F := F)).result W) (Proc.devRef .tc main_v47) = (Cert.ReferenceIdeal.Read.val_main_v47 (F := F) (a9 V)) from (by rw [unary_result', hargs main_arg9 (by decide)] <;> rfl))

theorem s56 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v45 : W (Proc.devRef .tc main_v45) = (Cert.ReferenceIdeal.Read.val_main_v45 (F := F) (a0 V) (a1 V) (a2 V) (a3 V) (a4 V) (a5 V) (a6 V) (a7 V))) :
    StableHlo.after (t56 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s57 V ((o56 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o56 (F := F)).result W) (Proc.devRef .tc main_v46) = (Cert.ReferenceIdeal.Read.val_main_v46 (F := F) (a0 V) (a1 V) (a2 V) (a3 V) (a4 V) (a5 V) (a6 V) (a7 V) (a8 V)) from (by rw [binary_result', h_main_v45, hargs main_arg8 (by decide)] <;> rfl))

theorem s55 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v44 : W (Proc.devRef .tc main_v44) = (Cert.ReferenceIdeal.Read.val_main_v44 (F := F) (a0 V) (a1 V) (a3 V) (a4 V) (a5 V))) :
    StableHlo.after (t55 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s56 V ((o55 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o55 (F := F)).result W) (Proc.devRef .tc main_v45) = (Cert.ReferenceIdeal.Read.val_main_v45 (F := F) (a0 V) (a1 V) (a2 V) (a3 V) (a4 V) (a5 V) (a6 V) (a7 V)) from (by rw [binary_result', h_main_v44, h_main_v12] <;> rfl))

theorem s54 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v43 : W (Proc.devRef .tc main_v43) = (Cert.ReferenceIdeal.Read.val_main_v43 (F := F) (a1 V))) :
    StableHlo.after (t54 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s55 V ((o54 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o54 (F := F)).result W) (Proc.devRef .tc main_v44) = (Cert.ReferenceIdeal.Read.val_main_v44 (F := F) (a0 V) (a1 V) (a3 V) (a4 V) (a5 V)) from (by rw [binary_result', h_main_v37, h_main_v43] <;> rfl))

theorem s53 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v42 : W (Proc.devRef .tc main_v42) = (Cert.ReferenceIdeal.Read.val_main_v42 (F := F) (a1 V))) :
    StableHlo.after (t53 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s54 V ((o53 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    (show ((o53 (F := F)).result W) (Proc.devRef .tc main_v43) = (Cert.ReferenceIdeal.Read.val_main_v43 (F := F) (a1 V)) from (by rw [unary_result', h_main_v42] <;> rfl))

theorem s52 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v39 : W (Proc.devRef .tc main_v39) = (Cert.ReferenceIdeal.Read.val_main_v39 (F := F) (a1 V)))
    (h_main_v41 : W (Proc.devRef .tc main_v41) = (Cert.ReferenceIdeal.Read.val_main_v41 (F := F) (a1 V))) :
    StableHlo.after (t52 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s53 V ((o52 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v8) (by decide)).trans h_main_v8)
    ((ternary_result_ne' _ _ _ _ _ W (r := main_v12) (by decide)).trans h_main_v12)
    ((ternary_result_ne' _ _ _ _ _ W (r := main_v37) (by decide)).trans h_main_v37)
    (show ((o52 (F := F)).result W) (Proc.devRef .tc main_v42) = (Cert.ReferenceIdeal.Read.val_main_v42 (F := F) (a1 V)) from (by rw [ternary_result', h_main_v39, h_main_v41, h_main_v6] <;> rfl))

theorem s51 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v39 : W (Proc.devRef .tc main_v39) = (Cert.ReferenceIdeal.Read.val_main_v39 (F := F) (a1 V)))
    (h_main_v40 : W (Proc.devRef .tc main_v40) = (Cert.ReferenceIdeal.Read.val_main_v40 (F := F))) :
    StableHlo.after (t51 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s52 V ((o51 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    ((binary_result_ne' _ _ _ _ W (r := main_v39) (by decide)).trans h_main_v39)
    (show ((o51 (F := F)).result W) (Proc.devRef .tc main_v41) = (Cert.ReferenceIdeal.Read.val_main_v41 (F := F) (a1 V)) from (by rw [binary_result', h_main_v6, h_main_v40] <;> rfl))

theorem s50 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v39 : W (Proc.devRef .tc main_v39) = (Cert.ReferenceIdeal.Read.val_main_v39 (F := F) (a1 V)))
    (h_main_c_6 : W (Proc.devRef .tc main_c_6) = (Cert.ReferenceIdeal.Read.val_main_c_6 (F := F))) :
    StableHlo.after (t50 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s51 V ((o50 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    ((unary_result_ne' _ _ _ W (r := main_v39) (by decide)).trans h_main_v39)
    (show ((o50 (F := F)).result W) (Proc.devRef .tc main_v40) = (Cert.ReferenceIdeal.Read.val_main_v40 (F := F)) from (by rw [unary_result', h_main_c_6] <;> rfl))

theorem s49 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v39 : W (Proc.devRef .tc main_v39) = (Cert.ReferenceIdeal.Read.val_main_v39 (F := F) (a1 V))) :
    StableHlo.after (t49 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s50 V ((o49 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v37) (by decide)).trans h_main_v37)
    ((nullary_result_ne' _ _ W (r := main_v39) (by decide)).trans h_main_v39)
    (show ((o49 (F := F)).result W) (Proc.devRef .tc main_c_6) = (Cert.ReferenceIdeal.Read.val_main_c_6 (F := F)) from (by rw [nullary_result'] <;> rfl))

theorem s48 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_v38 : W (Proc.devRef .tc main_v38) = (Cert.ReferenceIdeal.Read.val_main_v38 (F := F))) :
    StableHlo.after (t48 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s49 V ((o48 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v37) (by decide)).trans h_main_v37)
    (show ((o48 (F := F)).result W) (Proc.devRef .tc main_v39) = (Cert.ReferenceIdeal.Read.val_main_v39 (F := F) (a1 V)) from (by rw [binary_result', h_main_v6, h_main_v38] <;> rfl))

theorem s47 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V)))
    (h_main_c_5 : W (Proc.devRef .tc main_c_5) = (Cert.ReferenceIdeal.Read.val_main_c_5 (F := F))) :
    StableHlo.after (t47 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s48 V ((o47 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v37) (by decide)).trans h_main_v37)
    (show ((o47 (F := F)).result W) (Proc.devRef .tc main_v38) = (Cert.ReferenceIdeal.Read.val_main_v38 (F := F)) from (by rw [unary_result', h_main_c_5] <;> rfl))

theorem s46 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v37 : W (Proc.devRef .tc main_v37) = (Cert.ReferenceIdeal.Read.val_main_v37 (F := F) (a0 V) (a1 V) (a3 V) (a4 V) (a5 V))) :
    StableHlo.after (t46 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s47 V ((o46 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v37) (by decide)).trans h_main_v37)
    (show ((o46 (F := F)).result W) (Proc.devRef .tc main_c_5) = (Cert.ReferenceIdeal.Read.val_main_c_5 (F := F)) from (by rw [nullary_result'] <;> rfl))

theorem s45 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v35 : W (Proc.devRef .tc main_v35) = (Cert.ReferenceIdeal.Read.val_main_v35 (F := F) (a0 V) (a1 V) (a3 V) (a4 V)))
    (h_main_v36 : W (Proc.devRef .tc main_v36) = (Cert.ReferenceIdeal.Read.val_main_v36 (F := F) (a0 V) (a5 V))) :
    StableHlo.after (t45 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s46 V ((o45 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    (show ((o45 (F := F)).result W) (Proc.devRef .tc main_v37) = (Cert.ReferenceIdeal.Read.val_main_v37 (F := F) (a0 V) (a1 V) (a3 V) (a4 V) (a5 V)) from (by rw [binary_result', h_main_v35, h_main_v36] <;> rfl))

theorem s44 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v35 : W (Proc.devRef .tc main_v35) = (Cert.ReferenceIdeal.Read.val_main_v35 (F := F) (a0 V) (a1 V) (a3 V) (a4 V))) :
    StableHlo.after (t44 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s45 V ((o44 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v35) (by decide)).trans h_main_v35)
    (show ((o44 (F := F)).result W) (Proc.devRef .tc main_v36) = (Cert.ReferenceIdeal.Read.val_main_v36 (F := F) (a0 V) (a5 V)) from (by rw [binary_result', hargs main_arg0 (by decide), hargs main_arg5 (by decide)] <;> rfl))

theorem s43 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v32 : W (Proc.devRef .tc main_v32) = (Cert.ReferenceIdeal.Read.val_main_v32 (F := F) (a0 V) (a1 V) (a3 V)))
    (h_main_v34 : W (Proc.devRef .tc main_v34) = (Cert.ReferenceIdeal.Read.val_main_v34 (F := F) (a4 V))) :
    StableHlo.after (t43 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s44 V ((o43 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    (show ((o43 (F := F)).result W) (Proc.devRef .tc main_v35) = (Cert.ReferenceIdeal.Read.val_main_v35 (F := F) (a0 V) (a1 V) (a3 V) (a4 V)) from (by rw [binary_result', h_main_v32, h_main_v34] <;> rfl))

theorem s42 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v32 : W (Proc.devRef .tc main_v32) = (Cert.ReferenceIdeal.Read.val_main_v32 (F := F) (a0 V) (a1 V) (a3 V)))
    (h_main_v33 : W (Proc.devRef .tc main_v33) = (Cert.ReferenceIdeal.Read.val_main_v33 (F := F) (a4 V))) :
    StableHlo.after (t42 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s43 V ((o42 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v32) (by decide)).trans h_main_v32)
    (show ((o42 (F := F)).result W) (Proc.devRef .tc main_v34) = (Cert.ReferenceIdeal.Read.val_main_v34 (F := F) (a4 V)) from (by rw [unary_result', h_main_v33] <;> rfl))

theorem s41 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v32 : W (Proc.devRef .tc main_v32) = (Cert.ReferenceIdeal.Read.val_main_v32 (F := F) (a0 V) (a1 V) (a3 V))) :
    StableHlo.after (t41 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s42 V ((o41 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v32) (by decide)).trans h_main_v32)
    (show ((o41 (F := F)).result W) (Proc.devRef .tc main_v33) = (Cert.ReferenceIdeal.Read.val_main_v33 (F := F) (a4 V)) from (by rw [unary_result', hargs main_arg4 (by decide)] <;> rfl))

theorem s40 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v31 : W (Proc.devRef .tc main_v31) = (Cert.ReferenceIdeal.Read.val_main_v31 (F := F) (a0 V) (a1 V))) :
    StableHlo.after (t40 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s41 V ((o40 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    (show ((o40 (F := F)).result W) (Proc.devRef .tc main_v32) = (Cert.ReferenceIdeal.Read.val_main_v32 (F := F) (a0 V) (a1 V) (a3 V)) from (by rw [binary_result', h_main_v31, hargs main_arg3 (by decide)] <;> rfl))

theorem s39 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v26 : W (Proc.devRef .tc main_v26) = (Cert.ReferenceIdeal.Read.val_main_v26 (F := F) (a0 V) (a1 V)))
    (h_main_v30 : W (Proc.devRef .tc main_v30) = (Cert.ReferenceIdeal.Read.val_main_v30 (F := F) (a1 V))) :
    StableHlo.after (t39 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s40 V ((o39 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    (show ((o39 (F := F)).result W) (Proc.devRef .tc main_v31) = (Cert.ReferenceIdeal.Read.val_main_v31 (F := F) (a0 V) (a1 V)) from (by rw [binary_result', h_main_v26, h_main_v30] <;> rfl))

theorem s38 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v26 : W (Proc.devRef .tc main_v26) = (Cert.ReferenceIdeal.Read.val_main_v26 (F := F) (a0 V) (a1 V)))
    (h_main_v29 : W (Proc.devRef .tc main_v29) = (Cert.ReferenceIdeal.Read.val_main_v29 (F := F) (a1 V))) :
    StableHlo.after (t38 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s39 V ((o38 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v26) (by decide)).trans h_main_v26)
    (show ((o38 (F := F)).result W) (Proc.devRef .tc main_v30) = (Cert.ReferenceIdeal.Read.val_main_v30 (F := F) (a1 V)) from (by rw [unary_result', h_main_v29] <;> rfl))

theorem s37 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v26 : W (Proc.devRef .tc main_v26) = (Cert.ReferenceIdeal.Read.val_main_v26 (F := F) (a0 V) (a1 V)))
    (h_main_v28 : W (Proc.devRef .tc main_v28) = (Cert.ReferenceIdeal.Read.val_main_v28 (F := F) (a1 V))) :
    StableHlo.after (t37 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s38 V ((o37 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v26) (by decide)).trans h_main_v26)
    (show ((o37 (F := F)).result W) (Proc.devRef .tc main_v29) = (Cert.ReferenceIdeal.Read.val_main_v29 (F := F) (a1 V)) from (by rw [unary_result', h_main_v28] <;> rfl))

theorem s36 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v26 : W (Proc.devRef .tc main_v26) = (Cert.ReferenceIdeal.Read.val_main_v26 (F := F) (a0 V) (a1 V)))
    (h_main_v27 : W (Proc.devRef .tc main_v27) = (Cert.ReferenceIdeal.Read.val_main_v27 (F := F))) :
    StableHlo.after (t36 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s37 V ((o36 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v26) (by decide)).trans h_main_v26)
    (show ((o36 (F := F)).result W) (Proc.devRef .tc main_v28) = (Cert.ReferenceIdeal.Read.val_main_v28 (F := F) (a1 V)) from (by rw [binary_result', h_main_v16, h_main_v27] <;> rfl))

theorem s35 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v26 : W (Proc.devRef .tc main_v26) = (Cert.ReferenceIdeal.Read.val_main_v26 (F := F) (a0 V) (a1 V)))
    (h_main_cst_4 : W (Proc.devRef .tc main_cst_4) = (Cert.ReferenceIdeal.Read.val_main_cst_4 (F := F))) :
    StableHlo.after (t35 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s36 V ((o35 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    ((unary_result_ne' _ _ _ W (r := main_v26) (by decide)).trans h_main_v26)
    (show ((o35 (F := F)).result W) (Proc.devRef .tc main_v27) = (Cert.ReferenceIdeal.Read.val_main_v27 (F := F)) from (by rw [unary_result', h_main_cst_4] <;> rfl))

theorem s34 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v26 : W (Proc.devRef .tc main_v26) = (Cert.ReferenceIdeal.Read.val_main_v26 (F := F) (a0 V) (a1 V))) :
    StableHlo.after (t34 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s35 V ((o34 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v16) (by decide)).trans h_main_v16)
    ((nullary_result_ne' _ _ W (r := main_v26) (by decide)).trans h_main_v26)
    (show ((o34 (F := F)).result W) (Proc.devRef .tc main_cst_4) = (Cert.ReferenceIdeal.Read.val_main_cst_4 (F := F)) from (by rw [nullary_result'] <;> rfl))

theorem s33 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v23 : W (Proc.devRef .tc main_v23) = (Cert.ReferenceIdeal.Read.val_main_v23 (F := F) (a0 V) (a1 V)))
    (h_main_v24 : W (Proc.devRef .tc main_v24) = (Cert.ReferenceIdeal.Read.val_main_v24 (F := F)))
    (h_main_v25 : W (Proc.devRef .tc main_v25) = (Cert.ReferenceIdeal.Read.val_main_v25 (F := F) (a1 V))) :
    StableHlo.after (t33 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s34 V ((o33 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v8) (by decide)).trans h_main_v8)
    ((ternary_result_ne' _ _ _ _ _ W (r := main_v12) (by decide)).trans h_main_v12)
    ((ternary_result_ne' _ _ _ _ _ W (r := main_v16) (by decide)).trans h_main_v16)
    (show ((o33 (F := F)).result W) (Proc.devRef .tc main_v26) = (Cert.ReferenceIdeal.Read.val_main_v26 (F := F) (a0 V) (a1 V)) from (by rw [ternary_result', h_main_v24, h_main_v25, h_main_v23] <;> rfl))

theorem s32 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v23 : W (Proc.devRef .tc main_v23) = (Cert.ReferenceIdeal.Read.val_main_v23 (F := F) (a0 V) (a1 V)))
    (h_main_v24 : W (Proc.devRef .tc main_v24) = (Cert.ReferenceIdeal.Read.val_main_v24 (F := F))) :
    StableHlo.after (t32 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s33 V ((o32 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    ((unary_result_ne' _ _ _ W (r := main_v23) (by decide)).trans h_main_v23)
    ((unary_result_ne' _ _ _ W (r := main_v24) (by decide)).trans h_main_v24)
    (show ((o32 (F := F)).result W) (Proc.devRef .tc main_v25) = (Cert.ReferenceIdeal.Read.val_main_v25 (F := F) (a1 V)) from (by rw [unary_result', h_main_v6] <;> rfl))

theorem s31 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v23 : W (Proc.devRef .tc main_v23) = (Cert.ReferenceIdeal.Read.val_main_v23 (F := F) (a0 V) (a1 V)))
    (h_main_cst_3 : W (Proc.devRef .tc main_cst_3) = (Cert.ReferenceIdeal.Read.val_main_cst_3 (F := F))) :
    StableHlo.after (t31 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s32 V ((o31 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    ((unary_result_ne' _ _ _ W (r := main_v23) (by decide)).trans h_main_v23)
    (show ((o31 (F := F)).result W) (Proc.devRef .tc main_v24) = (Cert.ReferenceIdeal.Read.val_main_v24 (F := F)) from (by rw [unary_result', h_main_cst_3] <;> rfl))

theorem s30 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v23 : W (Proc.devRef .tc main_v23) = (Cert.ReferenceIdeal.Read.val_main_v23 (F := F) (a0 V) (a1 V))) :
    StableHlo.after (t30 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s31 V ((o30 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v16) (by decide)).trans h_main_v16)
    ((nullary_result_ne' _ _ W (r := main_v23) (by decide)).trans h_main_v23)
    (show ((o30 (F := F)).result W) (Proc.devRef .tc main_cst_3) = (Cert.ReferenceIdeal.Read.val_main_cst_3 (F := F)) from (by rw [nullary_result'] <;> rfl))

theorem s29 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v22 : W (Proc.devRef .tc main_v22) = (Cert.ReferenceIdeal.Read.val_main_v22 (F := F) (a1 V))) :
    StableHlo.after (t29 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s30 V ((o29 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v16) (by decide)).trans h_main_v16)
    (show ((o29 (F := F)).result W) (Proc.devRef .tc main_v23) = (Cert.ReferenceIdeal.Read.val_main_v23 (F := F) (a0 V) (a1 V)) from (by rw [binary_result', hargs main_arg0 (by decide), h_main_v22] <;> rfl))

theorem s28 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v21 : W (Proc.devRef .tc main_v21) = (Cert.ReferenceIdeal.Read.val_main_v21 (F := F) (a1 V))) :
    StableHlo.after (t28 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s29 V ((o28 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    (show ((o28 (F := F)).result W) (Proc.devRef .tc main_v22) = (Cert.ReferenceIdeal.Read.val_main_v22 (F := F) (a1 V)) from (by rw [unary_result', h_main_v21] <;> rfl))

theorem s27 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v18 : W (Proc.devRef .tc main_v18) = (Cert.ReferenceIdeal.Read.val_main_v18 (F := F) (a1 V)))
    (h_main_v20 : W (Proc.devRef .tc main_v20) = (Cert.ReferenceIdeal.Read.val_main_v20 (F := F) (a1 V))) :
    StableHlo.after (t27 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s28 V ((o27 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v8) (by decide)).trans h_main_v8)
    ((ternary_result_ne' _ _ _ _ _ W (r := main_v12) (by decide)).trans h_main_v12)
    ((ternary_result_ne' _ _ _ _ _ W (r := main_v16) (by decide)).trans h_main_v16)
    (show ((o27 (F := F)).result W) (Proc.devRef .tc main_v21) = (Cert.ReferenceIdeal.Read.val_main_v21 (F := F) (a1 V)) from (by rw [ternary_result', h_main_v18, h_main_v20, h_main_v3] <;> rfl))

theorem s26 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v18 : W (Proc.devRef .tc main_v18) = (Cert.ReferenceIdeal.Read.val_main_v18 (F := F) (a1 V)))
    (h_main_v19 : W (Proc.devRef .tc main_v19) = (Cert.ReferenceIdeal.Read.val_main_v19 (F := F))) :
    StableHlo.after (t26 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s27 V ((o26 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v16) (by decide)).trans h_main_v16)
    ((binary_result_ne' _ _ _ _ W (r := main_v18) (by decide)).trans h_main_v18)
    (show ((o26 (F := F)).result W) (Proc.devRef .tc main_v20) = (Cert.ReferenceIdeal.Read.val_main_v20 (F := F) (a1 V)) from (by rw [binary_result', h_main_v3, h_main_v19] <;> rfl))

theorem s25 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v18 : W (Proc.devRef .tc main_v18) = (Cert.ReferenceIdeal.Read.val_main_v18 (F := F) (a1 V)))
    (h_main_c_2 : W (Proc.devRef .tc main_c_2) = (Cert.ReferenceIdeal.Read.val_main_c_2 (F := F))) :
    StableHlo.after (t25 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s26 V ((o25 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    ((unary_result_ne' _ _ _ W (r := main_v18) (by decide)).trans h_main_v18)
    (show ((o25 (F := F)).result W) (Proc.devRef .tc main_v19) = (Cert.ReferenceIdeal.Read.val_main_v19 (F := F)) from (by rw [unary_result', h_main_c_2] <;> rfl))

theorem s24 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v18 : W (Proc.devRef .tc main_v18) = (Cert.ReferenceIdeal.Read.val_main_v18 (F := F) (a1 V))) :
    StableHlo.after (t24 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s25 V ((o24 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v16) (by decide)).trans h_main_v16)
    ((nullary_result_ne' _ _ W (r := main_v18) (by decide)).trans h_main_v18)
    (show ((o24 (F := F)).result W) (Proc.devRef .tc main_c_2) = (Cert.ReferenceIdeal.Read.val_main_c_2 (F := F)) from (by rw [nullary_result'] <;> rfl))

theorem s23 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_v17 : W (Proc.devRef .tc main_v17) = (Cert.ReferenceIdeal.Read.val_main_v17 (F := F))) :
    StableHlo.after (t23 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s24 V ((o23 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    ((binary_result_ne' _ _ _ _ W (r := main_v12) (by decide)).trans h_main_v12)
    ((binary_result_ne' _ _ _ _ W (r := main_v16) (by decide)).trans h_main_v16)
    (show ((o23 (F := F)).result W) (Proc.devRef .tc main_v18) = (Cert.ReferenceIdeal.Read.val_main_v18 (F := F) (a1 V)) from (by rw [binary_result', h_main_v3, h_main_v17] <;> rfl))

theorem s22 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V)))
    (h_main_c : W (Proc.devRef .tc main_c) = (Cert.ReferenceIdeal.Read.val_main_c (F := F))) :
    StableHlo.after (t22 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s23 V ((o22 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v16) (by decide)).trans h_main_v16)
    (show ((o22 (F := F)).result W) (Proc.devRef .tc main_v17) = (Cert.ReferenceIdeal.Read.val_main_v17 (F := F)) from (by rw [unary_result', h_main_c] <;> rfl))

theorem s21 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v16 : W (Proc.devRef .tc main_v16) = (Cert.ReferenceIdeal.Read.val_main_v16 (F := F) (a1 V))) :
    StableHlo.after (t21 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s22 V ((o21 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v16) (by decide)).trans h_main_v16)
    (show ((o21 (F := F)).result W) (Proc.devRef .tc main_c) = (Cert.ReferenceIdeal.Read.val_main_c (F := F)) from (by rw [nullary_result'] <;> rfl))

theorem s20 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v13 : W (Proc.devRef .tc main_v13) = (Cert.ReferenceIdeal.Read.val_main_v13 (F := F)))
    (h_main_v14 : W (Proc.devRef .tc main_v14) = (Cert.ReferenceIdeal.Read.val_main_v14 (F := F)))
    (h_main_v15 : W (Proc.devRef .tc main_v15) = (Cert.ReferenceIdeal.Read.val_main_v15 (F := F) (a1 V))) :
    StableHlo.after (t20 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s21 V ((o20 (F := F)).result W) (keep_ternary _ _ _ _ _ hargs (by decide))
    ((ternary_result_ne' _ _ _ _ _ W (r := main_v3) (by decide)).trans h_main_v3)
    ((ternary_result_ne' _ _ _ _ _ W (r := main_v6) (by decide)).trans h_main_v6)
    ((ternary_result_ne' _ _ _ _ _ W (r := main_v8) (by decide)).trans h_main_v8)
    ((ternary_result_ne' _ _ _ _ _ W (r := main_v12) (by decide)).trans h_main_v12)
    (show ((o20 (F := F)).result W) (Proc.devRef .tc main_v16) = (Cert.ReferenceIdeal.Read.val_main_v16 (F := F) (a1 V)) from (by rw [ternary_result', h_main_v14, h_main_v15, h_main_v13] <;> rfl))

theorem s19 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v13 : W (Proc.devRef .tc main_v13) = (Cert.ReferenceIdeal.Read.val_main_v13 (F := F)))
    (h_main_v14 : W (Proc.devRef .tc main_v14) = (Cert.ReferenceIdeal.Read.val_main_v14 (F := F))) :
    StableHlo.after (t19 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s20 V ((o19 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v13) (by decide)).trans h_main_v13)
    ((unary_result_ne' _ _ _ W (r := main_v14) (by decide)).trans h_main_v14)
    (show ((o19 (F := F)).result W) (Proc.devRef .tc main_v15) = (Cert.ReferenceIdeal.Read.val_main_v15 (F := F) (a1 V)) from (by rw [unary_result', h_main_v6] <;> rfl))

theorem s18 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v13 : W (Proc.devRef .tc main_v13) = (Cert.ReferenceIdeal.Read.val_main_v13 (F := F)))
    (h_main_cst_1 : W (Proc.devRef .tc main_cst_1) = (Cert.ReferenceIdeal.Read.val_main_cst_1 (F := F))) :
    StableHlo.after (t18 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s19 V ((o18 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    ((unary_result_ne' _ _ _ W (r := main_v13) (by decide)).trans h_main_v13)
    (show ((o18 (F := F)).result W) (Proc.devRef .tc main_v14) = (Cert.ReferenceIdeal.Read.val_main_v14 (F := F)) from (by rw [unary_result', h_main_cst_1] <;> rfl))

theorem s17 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_v13 : W (Proc.devRef .tc main_v13) = (Cert.ReferenceIdeal.Read.val_main_v13 (F := F))) :
    StableHlo.after (t17 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s18 V ((o17 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    ((nullary_result_ne' _ _ W (r := main_v13) (by decide)).trans h_main_v13)
    (show ((o17 (F := F)).result W) (Proc.devRef .tc main_cst_1) = (Cert.ReferenceIdeal.Read.val_main_cst_1 (F := F)) from (by rw [nullary_result'] <;> rfl))

theorem s16 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V)))
    (h_main_cst_0 : W (Proc.devRef .tc main_cst_0) = (Cert.ReferenceIdeal.Read.val_main_cst_0 (F := F))) :
    StableHlo.after (t16 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s17 V ((o16 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v12) (by decide)).trans h_main_v12)
    (show ((o16 (F := F)).result W) (Proc.devRef .tc main_v13) = (Cert.ReferenceIdeal.Read.val_main_v13 (F := F)) from (by rw [unary_result', h_main_cst_0] <;> rfl))

theorem s15 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v12 : W (Proc.devRef .tc main_v12) = (Cert.ReferenceIdeal.Read.val_main_v12 (F := F) (a2 V) (a6 V) (a7 V))) :
    StableHlo.after (t15 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s16 V ((o15 (F := F)).result W) (keep_nullary _ _ hargs (by decide))
    ((nullary_result_ne' _ _ W (r := main_v3) (by decide)).trans h_main_v3)
    ((nullary_result_ne' _ _ W (r := main_v6) (by decide)).trans h_main_v6)
    ((nullary_result_ne' _ _ W (r := main_v8) (by decide)).trans h_main_v8)
    ((nullary_result_ne' _ _ W (r := main_v12) (by decide)).trans h_main_v12)
    (show ((o15 (F := F)).result W) (Proc.devRef .tc main_cst_0) = (Cert.ReferenceIdeal.Read.val_main_cst_0 (F := F)) from (by rw [nullary_result'] <;> rfl))

theorem s14 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v9 : W (Proc.devRef .tc main_v9) = (Cert.ReferenceIdeal.Read.val_main_v9 (F := F) (a2 V) (a6 V)))
    (h_main_v11 : W (Proc.devRef .tc main_v11) = (Cert.ReferenceIdeal.Read.val_main_v11 (F := F) (a7 V))) :
    StableHlo.after (t14 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s15 V ((o14 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o14 (F := F)).result W) (Proc.devRef .tc main_v12) = (Cert.ReferenceIdeal.Read.val_main_v12 (F := F) (a2 V) (a6 V) (a7 V)) from (by rw [binary_result', h_main_v9, h_main_v11] <;> rfl))

theorem s13 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v9 : W (Proc.devRef .tc main_v9) = (Cert.ReferenceIdeal.Read.val_main_v9 (F := F) (a2 V) (a6 V)))
    (h_main_v10 : W (Proc.devRef .tc main_v10) = (Cert.ReferenceIdeal.Read.val_main_v10 (F := F) (a7 V))) :
    StableHlo.after (t13 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s14 V ((o13 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v9) (by decide)).trans h_main_v9)
    (show ((o13 (F := F)).result W) (Proc.devRef .tc main_v11) = (Cert.ReferenceIdeal.Read.val_main_v11 (F := F) (a7 V)) from (by rw [unary_result', h_main_v10] <;> rfl))

theorem s12 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V)))
    (h_main_v9 : W (Proc.devRef .tc main_v9) = (Cert.ReferenceIdeal.Read.val_main_v9 (F := F) (a2 V) (a6 V))) :
    StableHlo.after (t12 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s13 V ((o12 (F := F)).result W) (keep_unary _ _ _ hargs (by decide))
    ((unary_result_ne' _ _ _ W (r := main_v3) (by decide)).trans h_main_v3)
    ((unary_result_ne' _ _ _ W (r := main_v6) (by decide)).trans h_main_v6)
    ((unary_result_ne' _ _ _ W (r := main_v8) (by decide)).trans h_main_v8)
    ((unary_result_ne' _ _ _ W (r := main_v9) (by decide)).trans h_main_v9)
    (show ((o12 (F := F)).result W) (Proc.devRef .tc main_v10) = (Cert.ReferenceIdeal.Read.val_main_v10 (F := F) (a7 V)) from (by rw [unary_result', hargs main_arg7 (by decide)] <;> rfl))

theorem s11 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v8 : W (Proc.devRef .tc main_v8) = (Cert.ReferenceIdeal.Read.val_main_v8 (F := F) (a2 V))) :
    StableHlo.after (t11 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s12 V ((o11 (F := F)).result W) (keep_binary _ _ _ _ hargs (by decide))
    ((binary_result_ne' _ _ _ _ W (r := main_v3) (by decide)).trans h_main_v3)
    ((binary_result_ne' _ _ _ _ W (r := main_v6) (by decide)).trans h_main_v6)
    ((binary_result_ne' _ _ _ _ W (r := main_v8) (by decide)).trans h_main_v8)
    (show ((o11 (F := F)).result W) (Proc.devRef .tc main_v9) = (Cert.ReferenceIdeal.Read.val_main_v9 (F := F) (a2 V) (a6 V)) from (by rw [binary_result', h_main_v8, hargs main_arg6 (by decide)] <;> rfl))

theorem s10 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_v7 : W (Proc.devRef .tc main_v7) = (Cert.ReferenceIdeal.Read.val_main_v7 (F := F))) :
    StableHlo.after (t10 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s11 V ((o10 (F := F)).result W) (keep_binary _ _ _ _ hargs (by decide))
    ((binary_result_ne' _ _ _ _ W (r := main_v3) (by decide)).trans h_main_v3)
    ((binary_result_ne' _ _ _ _ W (r := main_v6) (by decide)).trans h_main_v6)
    (show ((o10 (F := F)).result W) (Proc.devRef .tc main_v8) = (Cert.ReferenceIdeal.Read.val_main_v8 (F := F) (a2 V)) from (by rw [binary_result', hargs main_arg2 (by decide), h_main_v7] <;> rfl))

theorem s9 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V)))
    (h_main_cst : W (Proc.devRef .tc main_cst) = (Cert.ReferenceIdeal.Read.val_main_cst (F := F))) :
    StableHlo.after (t9 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s10 V ((o9 (F := F)).result W) (keep_unary _ _ _ hargs (by decide))
    ((unary_result_ne' _ _ _ W (r := main_v3) (by decide)).trans h_main_v3)
    ((unary_result_ne' _ _ _ W (r := main_v6) (by decide)).trans h_main_v6)
    (show ((o9 (F := F)).result W) (Proc.devRef .tc main_v7) = (Cert.ReferenceIdeal.Read.val_main_v7 (F := F)) from (by rw [unary_result', h_main_cst] <;> rfl))

theorem s8 (W : Valuation τ sig (Elt F)) (hargs : Args V W)
    (h_main_v3 : W (Proc.devRef .tc main_v3) = (Cert.ReferenceIdeal.Read.val_main_v3 (F := F) (a1 V)))
    (h_main_v6 : W (Proc.devRef .tc main_v6) = (Cert.ReferenceIdeal.Read.val_main_v6 (F := F) (a1 V))) :
    StableHlo.after (t8 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s9 V ((o8 (F := F)).result W) (keep_nullary _ _ hargs (by decide))
    ((nullary_result_ne' _ _ W (r := main_v3) (by decide)).trans h_main_v3)
    ((nullary_result_ne' _ _ W (r := main_v6) (by decide)).trans h_main_v6)
    (show ((o8 (F := F)).result W) (Proc.devRef .tc main_cst) = (Cert.ReferenceIdeal.Read.val_main_cst (F := F)) from (by rw [nullary_result'] <;> rfl))

theorem s7 (W : Valuation τ sig (Elt F)) (hargs : Args V W)
    (h_main_v0 : W (Proc.devRef .tc main_v0) = (Cert.ReferenceIdeal.Read.val_main_v0 (F := F)))
    (h_main_v3 : W (Proc.devRef .tc main_v3) = (Cert.ReferenceIdeal.Read.val_main_v3 (F := F) (a1 V)))
    (h_main_v5 : W (Proc.devRef .tc main_v5) = (Cert.ReferenceIdeal.Read.val_main_v5 (F := F) (a1 V))) :
    StableHlo.after (t7 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s8 V ((o7 (F := F)).result W) (keep_binary _ _ _ _ hargs (by decide))
    ((binary_result_ne' _ _ _ _ W (r := main_v3) (by decide)).trans h_main_v3)
    (show ((o7 (F := F)).result W) (Proc.devRef .tc main_v6) = (Cert.ReferenceIdeal.Read.val_main_v6 (F := F) (a1 V)) from (by rw [binary_result', h_main_v5, h_main_v0] <;> rfl))

theorem s6 (W : Valuation τ sig (Elt F)) (hargs : Args V W)
    (h_main_v0 : W (Proc.devRef .tc main_v0) = (Cert.ReferenceIdeal.Read.val_main_v0 (F := F)))
    (h_main_v3 : W (Proc.devRef .tc main_v3) = (Cert.ReferenceIdeal.Read.val_main_v3 (F := F) (a1 V)))
    (h_main_v4 : W (Proc.devRef .tc main_v4) = (Cert.ReferenceIdeal.Read.val_main_v4 (F := F) (a1 V))) :
    StableHlo.after (t6 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s7 V ((o6 (F := F)).result W) (keep_reshape _ _ _ _ hargs (by decide))
    ((reshape_result_ne' _ _ _ _ W (r := main_v0) (by decide)).trans h_main_v0)
    ((reshape_result_ne' _ _ _ _ W (r := main_v3) (by decide)).trans h_main_v3)
    (show ((o6 (F := F)).result W) (Proc.devRef .tc main_v5) = (Cert.ReferenceIdeal.Read.val_main_v5 (F := F) (a1 V)) from (by rw [reshape_result', h_main_v4] <;> rfl))

theorem s5 (W : Valuation τ sig (Elt F)) (hargs : Args V W)
    (h_main_v0 : W (Proc.devRef .tc main_v0) = (Cert.ReferenceIdeal.Read.val_main_v0 (F := F)))
    (h_main_v3 : W (Proc.devRef .tc main_v3) = (Cert.ReferenceIdeal.Read.val_main_v3 (F := F) (a1 V))) :
    StableHlo.after (t5 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s6 V ((o5 (F := F)).result W) (keep_unary _ _ _ hargs (by decide))
    ((unary_result_ne' _ _ _ W (r := main_v0) (by decide)).trans h_main_v0)
    ((unary_result_ne' _ _ _ W (r := main_v3) (by decide)).trans h_main_v3)
    (show ((o5 (F := F)).result W) (Proc.devRef .tc main_v4) = (Cert.ReferenceIdeal.Read.val_main_v4 (F := F) (a1 V)) from (by rw [unary_result', hargs main_arg1 (by decide)] <;> rfl))

theorem s4 (W : Valuation τ sig (Elt F)) (hargs : Args V W)
    (h_main_v0 : W (Proc.devRef .tc main_v0) = (Cert.ReferenceIdeal.Read.val_main_v0 (F := F)))
    (h_main_v2 : W (Proc.devRef .tc main_v2) = (Cert.ReferenceIdeal.Read.val_main_v2 (F := F) (a1 V))) :
    StableHlo.after (t4 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s5 V ((o4 (F := F)).result W) (keep_binary _ _ _ _ hargs (by decide))
    ((binary_result_ne' _ _ _ _ W (r := main_v0) (by decide)).trans h_main_v0)
    (show ((o4 (F := F)).result W) (Proc.devRef .tc main_v3) = (Cert.ReferenceIdeal.Read.val_main_v3 (F := F) (a1 V)) from (by rw [binary_result', h_main_v2, h_main_v0] <;> rfl))

theorem s3 (W : Valuation τ sig (Elt F)) (hargs : Args V W)
    (h_main_v0 : W (Proc.devRef .tc main_v0) = (Cert.ReferenceIdeal.Read.val_main_v0 (F := F)))
    (h_main_v1 : W (Proc.devRef .tc main_v1) = (Cert.ReferenceIdeal.Read.val_main_v1 (F := F) (a1 V))) :
    StableHlo.after (t3 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s4 V ((o3 (F := F)).result W) (keep_reshape _ _ _ _ hargs (by decide))
    ((reshape_result_ne' _ _ _ _ W (r := main_v0) (by decide)).trans h_main_v0)
    (show ((o3 (F := F)).result W) (Proc.devRef .tc main_v2) = (Cert.ReferenceIdeal.Read.val_main_v2 (F := F) (a1 V)) from (by rw [reshape_result', h_main_v1] <;> rfl))

theorem s2 (W : Valuation τ sig (Elt F)) (hargs : Args V W)
    (h_main_v0 : W (Proc.devRef .tc main_v0) = (Cert.ReferenceIdeal.Read.val_main_v0 (F := F))) :
    StableHlo.after (t2 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s3 V ((o2 (F := F)).result W) (keep_unary _ _ _ hargs (by decide))
    ((unary_result_ne' _ _ _ W (r := main_v0) (by decide)).trans h_main_v0)
    (show ((o2 (F := F)).result W) (Proc.devRef .tc main_v1) = (Cert.ReferenceIdeal.Read.val_main_v1 (F := F) (a1 V)) from (by rw [unary_result', hargs main_arg1 (by decide)] <;> rfl))

theorem s1 (W : Valuation τ sig (Elt F)) (hargs : Args V W) :
    StableHlo.after (t1 (F := F)) W (Proc.devRef .tc main_v222) = (Cert.ReferenceIdeal.Read.val_main_v222 (F := F) (a0 V) (a1 V) (a2 V) (a3 V) (a4 V) (a5 V) (a6 V) (a7 V) (a8 V) (a9 V) (a10 V) (a11 V) (a12 V) (a13 V) (a14 V) (a15 V) (a16 V) (a17 V) (a18 V) (a19 V) (a20 V) (a21 V) (a22 V) (a23 V) (a24 V) (a25 V) (a26 V) (a27 V) (a28 V)) :=
  s2 V ((o1 (F := F)).result W) (keep_nullary _ _ hargs (by decide))
    (show ((o1 (F := F)).result W) (Proc.devRef .tc main_v0) = (Cert.ReferenceIdeal.Read.val_main_v0 (F := F)) from (by rw [nullary_result'] <;> rfl))

/-- The list of the suffixes' heads is the list of the operations. -/
abbrev ops : List (HloOp τ sig (Elt F)) := t1

/-- The result buffer after all 280 operations is the last stage function of the arguments' launch contents. -/
theorem result_eq :
    StableHlo.after (ops (F := F)) V (Proc.devRef .tc main_v222)
      = Cert.ReferenceIdeal.Read.val_main_v222 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) :=
  s1 V V (fun _ _ => rfl)

/-! ## The argument buffers at the end of the line -/

theorem k281 (W : Valuation τ sig (Elt F)) (hargs : Args V W) : Args V (StableHlo.after (t281 (F := F)) W) := hargs
theorem k280 (W : Valuation τ sig (Elt F)) (hargs : Args V W) : Args V (StableHlo.after (t280 (F := F)) W) :=
  k281 V ((o280 (F := F)).result W) (keep_binary _ _ _ _ hargs (by decide))
theorem k279 (W : Valuation τ sig (Elt F)) (hargs : Args V W) : Args V (StableHlo.after (t279 (F := F)) W) :=
  k280 V ((o279 (F := F)).result W) (keep_unary _ _ _ hargs (by decide))
theorem k278 (W : Valuation τ sig (Elt F)) (hargs : Args V W) : Args V (StableHlo.after (t278 (F := F)) W) :=
  k279 V ((o278 (F := F)).result W) (keep_unary _ _ _ hargs (by decide))
theorem k277 (W : Valuation τ sig (Elt F)) (hargs : Args V W) : Args V (StableHlo.after (t277 (F := F)) W) :=
  k278 V ((o277 (F := F)).result W) (keep_binary _ _ _ _ hargs (by decide))
theorem k276 (W : Valuation τ sig (Elt F)) (hargs : Args V W) : Args V (StableHlo.after (t276 (F := F)) W) :=
  k277 V ((o276 (F := F)).result W) (keep_binary _ _ _ _ hargs (by decide))
theorem k275 (W : Valuation τ sig (Elt F)) (hargs : Args V W) : Args V (StableHlo.after (t275 (F := F)) W) :=
  k276 V ((o275 (F := F)).result W) (keep_unary _ _ _ hargs (by decide))
theorem k274 (W : Valuation τ sig (Elt F)) (hargs : Args V W) : Args V (StableHlo.after (t274 (F := F)) W) :=
  k275 V ((o274 (F := F)).result W) (keep_nullary _ _ hargs (by decide))
theorem k273 (W : Valuation τ sig (Elt F)) (hargs : Args V W) : Args V (StableHlo.after (t273 (F := F)) W) :=
  k274 V ((o273 (F := F)).result W) (keep_binary _ _ _ _ hargs (by decide))
theorem k272 (W : Valuation τ sig (Elt F)) (hargs : Args V W) : Args V (StableHlo.after (t272 (F := F)) W) :=
  k273 V ((o272 (F := F)).result W) (keep_unary _ _ _ hargs (by decide))
theorem k271 (W : Valuation τ sig (Elt F)) (hargs : Args V W) : Args V (StableHlo.after (t271 (F := F)) W) :=
  k272 V ((o271 (F := F)).result W) (keep_unary _ _ _ hargs (by decide))
theorem k270 (W : Valuation τ sig (Elt F)) (hargs : Args V W) : Args V (StableHlo.after (t270 (F := F)) W) :=
  k271 V ((o270 (F := F)).result W) (keep_binary _ _ _ _ hargs (by decide))
theorem k269 (W : Valuation τ sig (Elt F)) (hargs : Args V W) : Args V (StableHlo.after (t269 (F := F)) W) :=
  k270 V ((o269 (F := F)).result W) (keep_unary _ _ _ hargs (by decide))
theorem k268 (W : Valuation τ sig (Elt F)) (hargs : Args V W) : Args V (StableHlo.after (t268 (F := F)) W) :=
  k269 V ((o268 (F := F)).result W) (keep_unary _ _ _ hargs (by decide))
theorem k267 (W : Valuation τ sig (Elt F)) (hargs : Args V W) : Args V (StableHlo.after (t267 (F := F)) W) :=
  k268 V ((o267 (F := F)).result W) (keep_unary _ _ _ hargs (by decide))
theorem k266 (W : Valuation τ sig (Elt F)) (hargs : Args V W) : Args V (StableHlo.after (t266 (F := F)) W) :=
  k267 V ((o266 (F := F)).result W) (keep_binary _ _ _ _ hargs (by decide))
theorem k265 (W : Valuation τ sig (Elt F)) (hargs : Args V W) : Args V (StableHlo.after (t265 (F := F)) W) :=
  k266 V ((o265 (F := F)).result W) (keep_unary _ _ _ hargs (by decide))
theorem k264 (W : Valuation τ sig (Elt F)) (hargs : Args V W) : Args V (StableHlo.after (t264 (F := F)) W) :=
  k265 V ((o264 (F := F)).result W) (keep_nullary _ _ hargs (by decide))
theorem k263 (W : Valuation τ sig (Elt F)) (hargs : Args V W) : Args V (StableHlo.after (t263 (F := F)) W) :=
  k264 V ((o263 (F := F)).result W) (keep_binary _ _ _ _ hargs (by decide))
theorem k262 (W : Valuation τ sig (Elt F)) (hargs : Args V W) : Args V (StableHlo.after (t262 (F := F)) W) :=
  k263 V ((o262 (F := F)).result W) (keep_unary _ _ _ hargs (by decide))
theorem k261 (W : Valuation τ sig (Elt F)) (hargs : Args V W) : Args V (StableHlo.after (t261 (F := F)) W) :=
  k262 V ((o261 (F := F)).result W) (keep_unary _ _ _ hargs (by decide))
theorem k260 (W : Valuation τ sig (Elt F)) (hargs : Args V W) : Args V (StableHlo.after (t260 (F := F)) W) :=
  k261 V ((o260 (F := F)).result W) (keep_binary _ _ _ _ hargs (by decide))
theorem k259 (W : Valuation τ sig (Elt F)) (hargs : Args V W) : Args V (StableHlo.after (t259 (F := F)) W) :=
  k260 V ((o259 (F := F)).result W) (keep_unary _ _ _ hargs (by decide))
theorem k258 (W : Valuation τ sig (Elt F)) (hargs : Args V W) : Args V (StableHlo.after (t258 (F := F)) W) :=
  k259 V ((o258 (F := F)).result W) (keep_nullary _ _ hargs (by decide))
theorem k257 (W : Valuation τ sig (Elt F)) (hargs : Args V W) : Args V (StableHlo.after (t257 (F := F)) W) :=
  k258 V ((o257 (F := F)).result W) (keep_binary _ _ _ _ hargs (by decide))
theorem k256 (W : Valuation τ sig (Elt F)) (hargs : Args V W) : Args V (StableHlo.after (t256 (F := F)) W) :=
  k257 V ((o256 (F := F)).result W) (keep_nullary _ _ hargs (by decide))
theorem k255 (W : Valuation τ sig (Elt F)) (hargs : Args V W) : Args V (StableHlo.after (t255 (F := F)) W) :=
  k256 V ((o255 (F := F)).result W) (keep_binary _ _ _ _ hargs (by decide))
theorem k254 (W : Valuation τ sig (Elt F)) (hargs : Args V W) : Args V (StableHlo.after (t254 (F := F)) W) :=
  k255 V ((o254 (F := F)).result W) (keep_binary _ _ _ _ hargs (by decide))
theorem k253 (W : Valuation τ sig (Elt F)) (hargs : Args V W) : Args V (StableHlo.after (t253 (F := F)) W) :=
  k254 V ((o253 (F := F)).result W) (keep_unary _ _ _ hargs (by decide))
theorem k252 (W : Valuation τ sig (Elt F)) (hargs : Args V W) : Args V (StableHlo.after (t252 (F := F)) W) :=
  k253 V ((o252 (F := F)).result W) (keep_unary _ _ _ hargs (by decide))
theorem k251 (W : Valuation τ sig (Elt F)) (hargs : Args V W) : Args V (StableHlo.after (t251 (F := F)) W) :=
  k252 V ((o251 (F := F)).result W) (keep_binary _ _ _ _ hargs (by decide))
theorem k250 (W : Valuation τ sig (Elt F)) (hargs : Args V W) : Args V (StableHlo.after (t250 (F := F)) W) :=
  k251 V ((o250 (F := F)).result W) (keep_binary _ _ _ _ hargs (by decide))
theorem k249 (W : Valuation τ sig (Elt F)) (hargs : Args V W) : Args V (StableHlo.after (t249 (F := F)) W) :=
  k250 V ((o249 (F := F)).result W) (keep_unary _ _ _ hargs (by decide))
theorem k248 (W : Valuation τ sig (Elt F)) (hargs : Args V W) : Args V (StableHlo.after (t248 (F := F)) W) :=
  k249 V ((o248 (F := F)).result W) (keep_nullary _ _ hargs (by decide))
theorem k247 (W : Valuation τ sig (Elt F)) (hargs : Args V W) : Args V (StableHlo.after (t247 (F := F)) W) :=
  k248 V ((o247 (F := F)).result W) (keep_binary _ _ _ _ hargs (by decide))
theorem k246 (W : Valuation τ sig (Elt F)) (hargs : Args V W) : Args V (StableHlo.after (t246 (F := F)) W) :=
  k247 V ((o246 (F := F)).result W) (keep_nullary _ _ hargs (by decide))
theorem k245 (W : Valuation τ sig (Elt F)) (hargs : Args V W) : Args V (StableHlo.after (t245 (F := F)) W) :=
  k246 V ((o245 (F := F)).result W) (keep_binary _ _ _ _ hargs (by decide))
theorem k244 (W : Valuation τ sig (Elt F)) (hargs : Args V W) : Args V (StableHlo.after (t244 (F := F)) W) :=
  k245 V ((o244 (F := F)).result W) (keep_unary _ _ _ hargs (by decide))
theorem k243 (W : Valuation τ sig (Elt F)) (hargs : Args V W) : Args V (StableHlo.after (t243 (F := F)) W) :=
  k244 V ((o243 (F := F)).result W) (keep_nullary _ _ hargs (by decide))
theorem k242 (W : Valuation τ sig (Elt F)) (hargs : Args V W) : Args V (StableHlo.after (t242 (F := F)) W) :=
  k243 V ((o242 (F := F)).result W) (keep_binary _ _ _ _ hargs (by decide))
theorem k241 (W : Valuation τ sig (Elt F)) (hargs : Args V W) : Args V (StableHlo.after (t241 (F := F)) W) :=
  k242 V ((o241 (F := F)).result W) (keep_unary _ _ _ hargs (by decide))
theorem k240 (W : Valuation τ sig (Elt F)) (hargs : Args V W) : Args V (StableHlo.after (t240 (F := F)) W) :=
  k241 V ((o240 (F := F)).result W) (keep_nullary _ _ hargs (by decide))
theorem k239 (W : Valuation τ sig (Elt F)) (hargs : Args V W) : Args V (StableHlo.after (t239 (F := F)) W) :=
  k240 V ((o239 (F := F)).result W) (keep_binary _ _ _ _ hargs (by decide))
theorem k238 (W : Valuation τ sig (Elt F)) (hargs : Args V W) : Args V (StableHlo.after (t238 (F := F)) W) :=
  k239 V ((o238 (F := F)).result W) (keep_unary _ _ _ hargs (by decide))
theorem k237 (W : Valuation τ sig (Elt F)) (hargs : Args V W) : Args V (StableHlo.after (t237 (F := F)) W) :=
  k238 V ((o237 (F := F)).result W) (keep_nullary _ _ hargs (by decide))
theorem k236 (W : Valuation τ sig (Elt F)) (hargs : Args V W) : Args V (StableHlo.after (t236 (F := F)) W) :=
  k237 V ((o236 (F := F)).result W) (keep_binary _ _ _ _ hargs (by decide))
theorem k235 (W : Valuation τ sig (Elt F)) (hargs : Args V W) : Args V (StableHlo.after (t235 (F := F)) W) :=
  k236 V ((o235 (F := F)).result W) (keep_unary _ _ _ hargs (by decide))
theorem k234 (W : Valuation τ sig (Elt F)) (hargs : Args V W) : Args V (StableHlo.after (t234 (F := F)) W) :=
  k235 V ((o234 (F := F)).result W) (keep_unary _ _ _ hargs (by decide))
theorem k233 (W : Valuation τ sig (Elt F)) (hargs : Args V W) : Args V (StableHlo.after (t233 (F := F)) W) :=
  k234 V ((o233 (F := F)).result W) (keep_binary _ _ _ _ hargs (by decide))
theorem k232 (W : Valuation τ sig (Elt F)) (hargs : Args V W) : Args V (StableHlo.after (t232 (F := F)) W) :=
  k233 V ((o232 (F := F)).result W) (keep_unary _ _ _ hargs (by decide))
theorem k231 (W : Valuation τ sig (Elt F)) (hargs : Args V W) : Args V (StableHlo.after (t231 (F := F)) W) :=
  k232 V ((o231 (F := F)).result W) (keep_unary _ _ _ hargs (by decide))
theorem k230 (W : Valuation τ sig (Elt F)) (hargs : Args V W) : Args V (StableHlo.after (t230 (F := F)) W) :=
  k231 V ((o230 (F := F)).result W) (keep_unary _ _ _ hargs (by decide))
theorem k229 (W : Valuation τ sig (Elt F)) (hargs : Args V W) : Args V (StableHlo.after (t229 (F := F)) W) :=
  k230 V ((o229 (F := F)).result W) (keep_binary _ _ _ _ hargs (by decide))
theorem k228 (W : Valuation τ sig (Elt F)) (hargs : Args V W) : Args V (StableHlo.after (t228 (F := F)) W) :=
  k229 V ((o228 (F := F)).result W) (keep_unary _ _ _ hargs (by decide))
theorem k227 (W : Valuation τ sig (Elt F)) (hargs : Args V W) : Args V (StableHlo.after (t227 (F := F)) W) :=
  k228 V ((o227 (F := F)).result W) (keep_nullary _ _ hargs (by decide))
theorem k226 (W : Valuation τ sig (Elt F)) (hargs : Args V W) : Args V (StableHlo.after (t226 (F := F)) W) :=
  k227 V ((o226 (F := F)).result W) (keep_binary _ _ _ _ hargs (by decide))
theorem k225 (W : Valuation τ sig (Elt F)) (hargs : Args V W) : Args V (StableHlo.after (t225 (F := F)) W) :=
  k226 V ((o225 (F := F)).result W) (keep_unary _ _ _ hargs (by decide))
theorem k224 (W : Valuation τ sig (Elt F)) (hargs : Args V W) : Args V (StableHlo.after (t224 (F := F)) W) :=
  k225 V ((o224 (F := F)).result W) (keep_unary _ _ _ hargs (by decide))
theorem k223 (W : Valuation τ sig (Elt F)) (hargs : Args V W) : Args V (StableHlo.after (t223 (F := F)) W) :=
  k224 V ((o223 (F := F)).result W) (keep_binary _ _ _ _ hargs (by decide))
theorem k222 (W : Valuation τ sig (Elt F)) (hargs : Args V W) : Args V (StableHlo.after (t222 (F := F)) W) :=
  k223 V ((o222 (F := F)).result W) (keep_unary _ _ _ hargs (by decide))
theorem k221 (W : Valuation τ sig (Elt F)) (hargs : Args V W) : Args V (StableHlo.after (t221 (F := F)) W) :=
  k222 V ((o221 (F := F)).result W) (keep_unary _ _ _ hargs (by decide))
theorem k220 (W : Valuation τ sig (Elt F)) (hargs : Args V W) : Args V (StableHlo.after (t220 (F := F)) W) :=
  k221 V ((o220 (F := F)).result W) (keep_binary _ _ _ _ hargs (by decide))
theorem k219 (W : Valuation τ sig (Elt F)) (hargs : Args V W) : Args V (StableHlo.after (t219 (F := F)) W) :=
  k220 V ((o219 (F := F)).result W) (keep_unary _ _ _ hargs (by decide))
theorem k218 (W : Valuation τ sig (Elt F)) (hargs : Args V W) : Args V (StableHlo.after (t218 (F := F)) W) :=
  k219 V ((o218 (F := F)).result W) (keep_nullary _ _ hargs (by decide))
theorem k217 (W : Valuation τ sig (Elt F)) (hargs : Args V W) : Args V (StableHlo.after (t217 (F := F)) W) :=
  k218 V ((o217 (F := F)).result W) (keep_binary _ _ _ _ hargs (by decide))
theorem k216 (W : Valuation τ sig (Elt F)) (hargs : Args V W) : Args V (StableHlo.after (t216 (F := F)) W) :=
  k217 V ((o216 (F := F)).result W) (keep_nullary _ _ hargs (by decide))
theorem k215 (W : Valuation τ sig (Elt F)) (hargs : Args V W) : Args V (StableHlo.after (t215 (F := F)) W) :=
  k216 V ((o215 (F := F)).result W) (keep_binary _ _ _ _ hargs (by decide))
theorem k214 (W : Valuation τ sig (Elt F)) (hargs : Args V W) : Args V (StableHlo.after (t214 (F := F)) W) :=
  k215 V ((o214 (F := F)).result W) (keep_binary _ _ _ _ hargs (by decide))
theorem k213 (W : Valuation τ sig (Elt F)) (hargs : Args V W) : Args V (StableHlo.after (t213 (F := F)) W) :=
  k214 V ((o213 (F := F)).result W) (keep_unary _ _ _ hargs (by decide))
theorem k212 (W : Valuation τ sig (Elt F)) (hargs : Args V W) : Args V (StableHlo.after (t212 (F := F)) W) :=
  k213 V ((o212 (F := F)).result W) (keep_unary _ _ _ hargs (by decide))
theorem k211 (W : Valuation τ sig (Elt F)) (hargs : Args V W) : Args V (StableHlo.after (t211 (F := F)) W) :=
  k212 V ((o211 (F := F)).result W) (keep_binary _ _ _ _ hargs (by decide))
theorem k210 (W : Valuation τ sig (Elt F)) (hargs : Args V W) : Args V (StableHlo.after (t210 (F := F)) W) :=
  k211 V ((o210 (F := F)).result W) (keep_unary _ _ _ hargs (by decide))
theorem k209 (W : Valuation τ sig (Elt F)) (hargs : Args V W) : Args V (StableHlo.after (t209 (F := F)) W) :=
  k210 V ((o209 (F := F)).result W) (keep_nullary _ _ hargs (by decide))
theorem k208 (W : Valuation τ sig (Elt F)) (hargs : Args V W) : Args V (StableHlo.after (t208 (F := F)) W) :=
  k209 V ((o208 (F := F)).result W) (keep_binary _ _ _ _ hargs (by decide))
theorem k207 (W : Valuation τ sig (Elt F)) (hargs : Args V W) : Args V (StableHlo.after (t207 (F := F)) W) :=
  k208 V ((o207 (F := F)).result W) (keep_nullary _ _ hargs (by decide))
theorem k206 (W : Valuation τ sig (Elt F)) (hargs : Args V W) : Args V (StableHlo.after (t206 (F := F)) W) :=
  k207 V ((o206 (F := F)).result W) (keep_binary _ _ _ _ hargs (by decide))
theorem k205 (W : Valuation τ sig (Elt F)) (hargs : Args V W) : Args V (StableHlo.after (t205 (F := F)) W) :=
  k206 V ((o205 (F := F)).result W) (keep_ternary _ _ _ _ _ hargs (by decide))
theorem k204 (W : Valuation τ sig (Elt F)) (hargs : Args V W) : Args V (StableHlo.after (t204 (F := F)) W) :=
  k205 V ((o204 (F := F)).result W) (keep_unary _ _ _ hargs (by decide))
theorem k203 (W : Valuation τ sig (Elt F)) (hargs : Args V W) : Args V (StableHlo.after (t203 (F := F)) W) :=
  k204 V ((o203 (F := F)).result W) (keep_unary _ _ _ hargs (by decide))
theorem k202 (W : Valuation τ sig (Elt F)) (hargs : Args V W) : Args V (StableHlo.after (t202 (F := F)) W) :=
  k203 V ((o202 (F := F)).result W) (keep_nullary _ _ hargs (by decide))
theorem k201 (W : Valuation τ sig (Elt F)) (hargs : Args V W) : Args V (StableHlo.after (t201 (F := F)) W) :=
  k202 V ((o201 (F := F)).result W) (keep_binary _ _ _ _ hargs (by decide))
theorem k200 (W : Valuation τ sig (Elt F)) (hargs : Args V W) : Args V (StableHlo.after (t200 (F := F)) W) :=
  k201 V ((o200 (F := F)).result W) (keep_binary _ _ _ _ hargs (by decide))
theorem k199 (W : Valuation τ sig (Elt F)) (hargs : Args V W) : Args V (StableHlo.after (t199 (F := F)) W) :=
  k200 V ((o199 (F := F)).result W) (keep_unary _ _ _ hargs (by decide))
theorem k198 (W : Valuation τ sig (Elt F)) (hargs : Args V W) : Args V (StableHlo.after (t198 (F := F)) W) :=
  k199 V ((o198 (F := F)).result W) (keep_nullary _ _ hargs (by decide))
theorem k197 (W : Valuation τ sig (Elt F)) (hargs : Args V W) : Args V (StableHlo.after (t197 (F := F)) W) :=
  k198 V ((o197 (F := F)).result W) (keep_binary _ _ _ _ hargs (by decide))
theorem k196 (W : Valuation τ sig (Elt F)) (hargs : Args V W) : Args V (StableHlo.after (t196 (F := F)) W) :=
  k197 V ((o196 (F := F)).result W) (keep_unary _ _ _ hargs (by decide))
theorem k195 (W : Valuation τ sig (Elt F)) (hargs : Args V W) : Args V (StableHlo.after (t195 (F := F)) W) :=
  k196 V ((o195 (F := F)).result W) (keep_nullary _ _ hargs (by decide))
theorem k194 (W : Valuation τ sig (Elt F)) (hargs : Args V W) : Args V (StableHlo.after (t194 (F := F)) W) :=
  k195 V ((o194 (F := F)).result W) (keep_unary _ _ _ hargs (by decide))
theorem k193 (W : Valuation τ sig (Elt F)) (hargs : Args V W) : Args V (StableHlo.after (t193 (F := F)) W) :=
  k194 V ((o193 (F := F)).result W) (keep_unary _ _ _ hargs (by decide))
theorem k192 (W : Valuation τ sig (Elt F)) (hargs : Args V W) : Args V (StableHlo.after (t192 (F := F)) W) :=
  k193 V ((o192 (F := F)).result W) (keep_binary _ _ _ _ hargs (by decide))
theorem k191 (W : Valuation τ sig (Elt F)) (hargs : Args V W) : Args V (StableHlo.after (t191 (F := F)) W) :=
  k192 V ((o191 (F := F)).result W) (keep_unary _ _ _ hargs (by decide))
theorem k190 (W : Valuation τ sig (Elt F)) (hargs : Args V W) : Args V (StableHlo.after (t190 (F := F)) W) :=
  k191 V ((o190 (F := F)).result W) (keep_unary _ _ _ hargs (by decide))
theorem k189 (W : Valuation τ sig (Elt F)) (hargs : Args V W) : Args V (StableHlo.after (t189 (F := F)) W) :=
  k190 V ((o189 (F := F)).result W) (keep_binary _ _ _ _ hargs (by decide))
theorem k188 (W : Valuation τ sig (Elt F)) (hargs : Args V W) : Args V (StableHlo.after (t188 (F := F)) W) :=
  k189 V ((o188 (F := F)).result W) (keep_binary _ _ _ _ hargs (by decide))
theorem k187 (W : Valuation τ sig (Elt F)) (hargs : Args V W) : Args V (StableHlo.after (t187 (F := F)) W) :=
  k188 V ((o187 (F := F)).result W) (keep_binary _ _ _ _ hargs (by decide))
theorem k186 (W : Valuation τ sig (Elt F)) (hargs : Args V W) : Args V (StableHlo.after (t186 (F := F)) W) :=
  k187 V ((o186 (F := F)).result W) (keep_unary _ _ _ hargs (by decide))
theorem k185 (W : Valuation τ sig (Elt F)) (hargs : Args V W) : Args V (StableHlo.after (t185 (F := F)) W) :=
  k186 V ((o185 (F := F)).result W) (keep_ternary _ _ _ _ _ hargs (by decide))
theorem k184 (W : Valuation τ sig (Elt F)) (hargs : Args V W) : Args V (StableHlo.after (t184 (F := F)) W) :=
  k185 V ((o184 (F := F)).result W) (keep_binary _ _ _ _ hargs (by decide))
theorem k183 (W : Valuation τ sig (Elt F)) (hargs : Args V W) : Args V (StableHlo.after (t183 (F := F)) W) :=
  k184 V ((o183 (F := F)).result W) (keep_unary _ _ _ hargs (by decide))
theorem k182 (W : Valuation τ sig (Elt F)) (hargs : Args V W) : Args V (StableHlo.after (t182 (F := F)) W) :=
  k183 V ((o182 (F := F)).result W) (keep_nullary _ _ hargs (by decide))
theorem k181 (W : Valuation τ sig (Elt F)) (hargs : Args V W) : Args V (StableHlo.after (t181 (F := F)) W) :=
  k182 V ((o181 (F := F)).result W) (keep_binary _ _ _ _ hargs (by decide))
theorem k180 (W : Valuation τ sig (Elt F)) (hargs : Args V W) : Args V (StableHlo.after (t180 (F := F)) W) :=
  k181 V ((o180 (F := F)).result W) (keep_unary _ _ _ hargs (by decide))
theorem k179 (W : Valuation τ sig (Elt F)) (hargs : Args V W) : Args V (StableHlo.after (t179 (F := F)) W) :=
  k180 V ((o179 (F := F)).result W) (keep_nullary _ _ hargs (by decide))
theorem k178 (W : Valuation τ sig (Elt F)) (hargs : Args V W) : Args V (StableHlo.after (t178 (F := F)) W) :=
  k179 V ((o178 (F := F)).result W) (keep_binary _ _ _ _ hargs (by decide))
theorem k177 (W : Valuation τ sig (Elt F)) (hargs : Args V W) : Args V (StableHlo.after (t177 (F := F)) W) :=
  k178 V ((o177 (F := F)).result W) (keep_binary _ _ _ _ hargs (by decide))
theorem k176 (W : Valuation τ sig (Elt F)) (hargs : Args V W) : Args V (StableHlo.after (t176 (F := F)) W) :=
  k177 V ((o176 (F := F)).result W) (keep_binary _ _ _ _ hargs (by decide))
theorem k175 (W : Valuation τ sig (Elt F)) (hargs : Args V W) : Args V (StableHlo.after (t175 (F := F)) W) :=
  k176 V ((o175 (F := F)).result W) (keep_unary _ _ _ hargs (by decide))
theorem k174 (W : Valuation τ sig (Elt F)) (hargs : Args V W) : Args V (StableHlo.after (t174 (F := F)) W) :=
  k175 V ((o174 (F := F)).result W) (keep_unary _ _ _ hargs (by decide))
theorem k173 (W : Valuation τ sig (Elt F)) (hargs : Args V W) : Args V (StableHlo.after (t173 (F := F)) W) :=
  k174 V ((o173 (F := F)).result W) (keep_binary _ _ _ _ hargs (by decide))
theorem k172 (W : Valuation τ sig (Elt F)) (hargs : Args V W) : Args V (StableHlo.after (t172 (F := F)) W) :=
  k173 V ((o172 (F := F)).result W) (keep_binary _ _ _ _ hargs (by decide))
theorem k171 (W : Valuation τ sig (Elt F)) (hargs : Args V W) : Args V (StableHlo.after (t171 (F := F)) W) :=
  k172 V ((o171 (F := F)).result W) (keep_unary _ _ _ hargs (by decide))
theorem k170 (W : Valuation τ sig (Elt F)) (hargs : Args V W) : Args V (StableHlo.after (t170 (F := F)) W) :=
  k171 V ((o170 (F := F)).result W) (keep_unary _ _ _ hargs (by decide))
theorem k169 (W : Valuation τ sig (Elt F)) (hargs : Args V W) : Args V (StableHlo.after (t169 (F := F)) W) :=
  k170 V ((o169 (F := F)).result W) (keep_binary _ _ _ _ hargs (by decide))
theorem k168 (W : Valuation τ sig (Elt F)) (hargs : Args V W) : Args V (StableHlo.after (t168 (F := F)) W) :=
  k169 V ((o168 (F := F)).result W) (keep_unary _ _ _ hargs (by decide))
theorem k167 (W : Valuation τ sig (Elt F)) (hargs : Args V W) : Args V (StableHlo.after (t167 (F := F)) W) :=
  k168 V ((o167 (F := F)).result W) (keep_nullary _ _ hargs (by decide))
theorem k166 (W : Valuation τ sig (Elt F)) (hargs : Args V W) : Args V (StableHlo.after (t166 (F := F)) W) :=
  k167 V ((o166 (F := F)).result W) (keep_ternary _ _ _ _ _ hargs (by decide))
theorem k165 (W : Valuation τ sig (Elt F)) (hargs : Args V W) : Args V (StableHlo.after (t165 (F := F)) W) :=
  k166 V ((o165 (F := F)).result W) (keep_unary _ _ _ hargs (by decide))
theorem k164 (W : Valuation τ sig (Elt F)) (hargs : Args V W) : Args V (StableHlo.after (t164 (F := F)) W) :=
  k165 V ((o164 (F := F)).result W) (keep_unary _ _ _ hargs (by decide))
theorem k163 (W : Valuation τ sig (Elt F)) (hargs : Args V W) : Args V (StableHlo.after (t163 (F := F)) W) :=
  k164 V ((o163 (F := F)).result W) (keep_nullary _ _ hargs (by decide))
theorem k162 (W : Valuation τ sig (Elt F)) (hargs : Args V W) : Args V (StableHlo.after (t162 (F := F)) W) :=
  k163 V ((o162 (F := F)).result W) (keep_binary _ _ _ _ hargs (by decide))
theorem k161 (W : Valuation τ sig (Elt F)) (hargs : Args V W) : Args V (StableHlo.after (t161 (F := F)) W) :=
  k162 V ((o161 (F := F)).result W) (keep_unary _ _ _ hargs (by decide))
theorem k160 (W : Valuation τ sig (Elt F)) (hargs : Args V W) : Args V (StableHlo.after (t160 (F := F)) W) :=
  k161 V ((o160 (F := F)).result W) (keep_ternary _ _ _ _ _ hargs (by decide))
theorem k159 (W : Valuation τ sig (Elt F)) (hargs : Args V W) : Args V (StableHlo.after (t159 (F := F)) W) :=
  k160 V ((o159 (F := F)).result W) (keep_binary _ _ _ _ hargs (by decide))
theorem k158 (W : Valuation τ sig (Elt F)) (hargs : Args V W) : Args V (StableHlo.after (t158 (F := F)) W) :=
  k159 V ((o158 (F := F)).result W) (keep_unary _ _ _ hargs (by decide))
theorem k157 (W : Valuation τ sig (Elt F)) (hargs : Args V W) : Args V (StableHlo.after (t157 (F := F)) W) :=
  k158 V ((o157 (F := F)).result W) (keep_nullary _ _ hargs (by decide))
theorem k156 (W : Valuation τ sig (Elt F)) (hargs : Args V W) : Args V (StableHlo.after (t156 (F := F)) W) :=
  k157 V ((o156 (F := F)).result W) (keep_binary _ _ _ _ hargs (by decide))
theorem k155 (W : Valuation τ sig (Elt F)) (hargs : Args V W) : Args V (StableHlo.after (t155 (F := F)) W) :=
  k156 V ((o155 (F := F)).result W) (keep_unary _ _ _ hargs (by decide))
theorem k154 (W : Valuation τ sig (Elt F)) (hargs : Args V W) : Args V (StableHlo.after (t154 (F := F)) W) :=
  k155 V ((o154 (F := F)).result W) (keep_nullary _ _ hargs (by decide))
theorem k153 (W : Valuation τ sig (Elt F)) (hargs : Args V W) : Args V (StableHlo.after (t153 (F := F)) W) :=
  k154 V ((o153 (F := F)).result W) (keep_ternary _ _ _ _ _ hargs (by decide))
theorem k152 (W : Valuation τ sig (Elt F)) (hargs : Args V W) : Args V (StableHlo.after (t152 (F := F)) W) :=
  k153 V ((o152 (F := F)).result W) (keep_unary _ _ _ hargs (by decide))
theorem k151 (W : Valuation τ sig (Elt F)) (hargs : Args V W) : Args V (StableHlo.after (t151 (F := F)) W) :=
  k152 V ((o151 (F := F)).result W) (keep_unary _ _ _ hargs (by decide))
theorem k150 (W : Valuation τ sig (Elt F)) (hargs : Args V W) : Args V (StableHlo.after (t150 (F := F)) W) :=
  k151 V ((o150 (F := F)).result W) (keep_nullary _ _ hargs (by decide))
theorem k149 (W : Valuation τ sig (Elt F)) (hargs : Args V W) : Args V (StableHlo.after (t149 (F := F)) W) :=
  k150 V ((o149 (F := F)).result W) (keep_unary _ _ _ hargs (by decide))
theorem k148 (W : Valuation τ sig (Elt F)) (hargs : Args V W) : Args V (StableHlo.after (t148 (F := F)) W) :=
  k149 V ((o148 (F := F)).result W) (keep_nullary _ _ hargs (by decide))
theorem k147 (W : Valuation τ sig (Elt F)) (hargs : Args V W) : Args V (StableHlo.after (t147 (F := F)) W) :=
  k148 V ((o147 (F := F)).result W) (keep_binary _ _ _ _ hargs (by decide))
theorem k146 (W : Valuation τ sig (Elt F)) (hargs : Args V W) : Args V (StableHlo.after (t146 (F := F)) W) :=
  k147 V ((o146 (F := F)).result W) (keep_unary _ _ _ hargs (by decide))
theorem k145 (W : Valuation τ sig (Elt F)) (hargs : Args V W) : Args V (StableHlo.after (t145 (F := F)) W) :=
  k146 V ((o145 (F := F)).result W) (keep_unary _ _ _ hargs (by decide))
theorem k144 (W : Valuation τ sig (Elt F)) (hargs : Args V W) : Args V (StableHlo.after (t144 (F := F)) W) :=
  k145 V ((o144 (F := F)).result W) (keep_binary _ _ _ _ hargs (by decide))
theorem k143 (W : Valuation τ sig (Elt F)) (hargs : Args V W) : Args V (StableHlo.after (t143 (F := F)) W) :=
  k144 V ((o143 (F := F)).result W) (keep_binary _ _ _ _ hargs (by decide))
theorem k142 (W : Valuation τ sig (Elt F)) (hargs : Args V W) : Args V (StableHlo.after (t142 (F := F)) W) :=
  k143 V ((o142 (F := F)).result W) (keep_unary _ _ _ hargs (by decide))
theorem k141 (W : Valuation τ sig (Elt F)) (hargs : Args V W) : Args V (StableHlo.after (t141 (F := F)) W) :=
  k142 V ((o141 (F := F)).result W) (keep_nullary _ _ hargs (by decide))
theorem k140 (W : Valuation τ sig (Elt F)) (hargs : Args V W) : Args V (StableHlo.after (t140 (F := F)) W) :=
  k141 V ((o140 (F := F)).result W) (keep_binary _ _ _ _ hargs (by decide))
theorem k139 (W : Valuation τ sig (Elt F)) (hargs : Args V W) : Args V (StableHlo.after (t139 (F := F)) W) :=
  k140 V ((o139 (F := F)).result W) (keep_unary _ _ _ hargs (by decide))
theorem k138 (W : Valuation τ sig (Elt F)) (hargs : Args V W) : Args V (StableHlo.after (t138 (F := F)) W) :=
  k139 V ((o138 (F := F)).result W) (keep_unary _ _ _ hargs (by decide))
theorem k137 (W : Valuation τ sig (Elt F)) (hargs : Args V W) : Args V (StableHlo.after (t137 (F := F)) W) :=
  k138 V ((o137 (F := F)).result W) (keep_binary _ _ _ _ hargs (by decide))
theorem k136 (W : Valuation τ sig (Elt F)) (hargs : Args V W) : Args V (StableHlo.after (t136 (F := F)) W) :=
  k137 V ((o136 (F := F)).result W) (keep_unary _ _ _ hargs (by decide))
theorem k135 (W : Valuation τ sig (Elt F)) (hargs : Args V W) : Args V (StableHlo.after (t135 (F := F)) W) :=
  k136 V ((o135 (F := F)).result W) (keep_unary _ _ _ hargs (by decide))
theorem k134 (W : Valuation τ sig (Elt F)) (hargs : Args V W) : Args V (StableHlo.after (t134 (F := F)) W) :=
  k135 V ((o134 (F := F)).result W) (keep_unary _ _ _ hargs (by decide))
theorem k133 (W : Valuation τ sig (Elt F)) (hargs : Args V W) : Args V (StableHlo.after (t133 (F := F)) W) :=
  k134 V ((o133 (F := F)).result W) (keep_binary _ _ _ _ hargs (by decide))
theorem k132 (W : Valuation τ sig (Elt F)) (hargs : Args V W) : Args V (StableHlo.after (t132 (F := F)) W) :=
  k133 V ((o132 (F := F)).result W) (keep_unary _ _ _ hargs (by decide))
theorem k131 (W : Valuation τ sig (Elt F)) (hargs : Args V W) : Args V (StableHlo.after (t131 (F := F)) W) :=
  k132 V ((o131 (F := F)).result W) (keep_nullary _ _ hargs (by decide))
theorem k130 (W : Valuation τ sig (Elt F)) (hargs : Args V W) : Args V (StableHlo.after (t130 (F := F)) W) :=
  k131 V ((o130 (F := F)).result W) (keep_binary _ _ _ _ hargs (by decide))
theorem k129 (W : Valuation τ sig (Elt F)) (hargs : Args V W) : Args V (StableHlo.after (t129 (F := F)) W) :=
  k130 V ((o129 (F := F)).result W) (keep_unary _ _ _ hargs (by decide))
theorem k128 (W : Valuation τ sig (Elt F)) (hargs : Args V W) : Args V (StableHlo.after (t128 (F := F)) W) :=
  k129 V ((o128 (F := F)).result W) (keep_unary _ _ _ hargs (by decide))
theorem k127 (W : Valuation τ sig (Elt F)) (hargs : Args V W) : Args V (StableHlo.after (t127 (F := F)) W) :=
  k128 V ((o127 (F := F)).result W) (keep_binary _ _ _ _ hargs (by decide))
theorem k126 (W : Valuation τ sig (Elt F)) (hargs : Args V W) : Args V (StableHlo.after (t126 (F := F)) W) :=
  k127 V ((o126 (F := F)).result W) (keep_unary _ _ _ hargs (by decide))
theorem k125 (W : Valuation τ sig (Elt F)) (hargs : Args V W) : Args V (StableHlo.after (t125 (F := F)) W) :=
  k126 V ((o125 (F := F)).result W) (keep_nullary _ _ hargs (by decide))
theorem k124 (W : Valuation τ sig (Elt F)) (hargs : Args V W) : Args V (StableHlo.after (t124 (F := F)) W) :=
  k125 V ((o124 (F := F)).result W) (keep_binary _ _ _ _ hargs (by decide))
theorem k123 (W : Valuation τ sig (Elt F)) (hargs : Args V W) : Args V (StableHlo.after (t123 (F := F)) W) :=
  k124 V ((o123 (F := F)).result W) (keep_nullary _ _ hargs (by decide))
theorem k122 (W : Valuation τ sig (Elt F)) (hargs : Args V W) : Args V (StableHlo.after (t122 (F := F)) W) :=
  k123 V ((o122 (F := F)).result W) (keep_binary _ _ _ _ hargs (by decide))
theorem k121 (W : Valuation τ sig (Elt F)) (hargs : Args V W) : Args V (StableHlo.after (t121 (F := F)) W) :=
  k122 V ((o121 (F := F)).result W) (keep_binary _ _ _ _ hargs (by decide))
theorem k120 (W : Valuation τ sig (Elt F)) (hargs : Args V W) : Args V (StableHlo.after (t120 (F := F)) W) :=
  k121 V ((o120 (F := F)).result W) (keep_unary _ _ _ hargs (by decide))
theorem k119 (W : Valuation τ sig (Elt F)) (hargs : Args V W) : Args V (StableHlo.after (t119 (F := F)) W) :=
  k120 V ((o119 (F := F)).result W) (keep_unary _ _ _ hargs (by decide))
theorem k118 (W : Valuation τ sig (Elt F)) (hargs : Args V W) : Args V (StableHlo.after (t118 (F := F)) W) :=
  k119 V ((o118 (F := F)).result W) (keep_binary _ _ _ _ hargs (by decide))
theorem k117 (W : Valuation τ sig (Elt F)) (hargs : Args V W) : Args V (StableHlo.after (t117 (F := F)) W) :=
  k118 V ((o117 (F := F)).result W) (keep_binary _ _ _ _ hargs (by decide))
theorem k116 (W : Valuation τ sig (Elt F)) (hargs : Args V W) : Args V (StableHlo.after (t116 (F := F)) W) :=
  k117 V ((o116 (F := F)).result W) (keep_unary _ _ _ hargs (by decide))
theorem k115 (W : Valuation τ sig (Elt F)) (hargs : Args V W) : Args V (StableHlo.after (t115 (F := F)) W) :=
  k116 V ((o115 (F := F)).result W) (keep_nullary _ _ hargs (by decide))
theorem k114 (W : Valuation τ sig (Elt F)) (hargs : Args V W) : Args V (StableHlo.after (t114 (F := F)) W) :=
  k115 V ((o114 (F := F)).result W) (keep_binary _ _ _ _ hargs (by decide))
theorem k113 (W : Valuation τ sig (Elt F)) (hargs : Args V W) : Args V (StableHlo.after (t113 (F := F)) W) :=
  k114 V ((o113 (F := F)).result W) (keep_nullary _ _ hargs (by decide))
theorem k112 (W : Valuation τ sig (Elt F)) (hargs : Args V W) : Args V (StableHlo.after (t112 (F := F)) W) :=
  k113 V ((o112 (F := F)).result W) (keep_binary _ _ _ _ hargs (by decide))
theorem k111 (W : Valuation τ sig (Elt F)) (hargs : Args V W) : Args V (StableHlo.after (t111 (F := F)) W) :=
  k112 V ((o111 (F := F)).result W) (keep_unary _ _ _ hargs (by decide))
theorem k110 (W : Valuation τ sig (Elt F)) (hargs : Args V W) : Args V (StableHlo.after (t110 (F := F)) W) :=
  k111 V ((o110 (F := F)).result W) (keep_nullary _ _ hargs (by decide))
theorem k109 (W : Valuation τ sig (Elt F)) (hargs : Args V W) : Args V (StableHlo.after (t109 (F := F)) W) :=
  k110 V ((o109 (F := F)).result W) (keep_binary _ _ _ _ hargs (by decide))
theorem k108 (W : Valuation τ sig (Elt F)) (hargs : Args V W) : Args V (StableHlo.after (t108 (F := F)) W) :=
  k109 V ((o108 (F := F)).result W) (keep_unary _ _ _ hargs (by decide))
theorem k107 (W : Valuation τ sig (Elt F)) (hargs : Args V W) : Args V (StableHlo.after (t107 (F := F)) W) :=
  k108 V ((o107 (F := F)).result W) (keep_nullary _ _ hargs (by decide))
theorem k106 (W : Valuation τ sig (Elt F)) (hargs : Args V W) : Args V (StableHlo.after (t106 (F := F)) W) :=
  k107 V ((o106 (F := F)).result W) (keep_binary _ _ _ _ hargs (by decide))
theorem k105 (W : Valuation τ sig (Elt F)) (hargs : Args V W) : Args V (StableHlo.after (t105 (F := F)) W) :=
  k106 V ((o105 (F := F)).result W) (keep_unary _ _ _ hargs (by decide))
theorem k104 (W : Valuation τ sig (Elt F)) (hargs : Args V W) : Args V (StableHlo.after (t104 (F := F)) W) :=
  k105 V ((o104 (F := F)).result W) (keep_nullary _ _ hargs (by decide))
theorem k103 (W : Valuation τ sig (Elt F)) (hargs : Args V W) : Args V (StableHlo.after (t103 (F := F)) W) :=
  k104 V ((o103 (F := F)).result W) (keep_binary _ _ _ _ hargs (by decide))
theorem k102 (W : Valuation τ sig (Elt F)) (hargs : Args V W) : Args V (StableHlo.after (t102 (F := F)) W) :=
  k103 V ((o102 (F := F)).result W) (keep_unary _ _ _ hargs (by decide))
theorem k101 (W : Valuation τ sig (Elt F)) (hargs : Args V W) : Args V (StableHlo.after (t101 (F := F)) W) :=
  k102 V ((o101 (F := F)).result W) (keep_unary _ _ _ hargs (by decide))
theorem k100 (W : Valuation τ sig (Elt F)) (hargs : Args V W) : Args V (StableHlo.after (t100 (F := F)) W) :=
  k101 V ((o100 (F := F)).result W) (keep_binary _ _ _ _ hargs (by decide))
theorem k99 (W : Valuation τ sig (Elt F)) (hargs : Args V W) : Args V (StableHlo.after (t99 (F := F)) W) :=
  k100 V ((o99 (F := F)).result W) (keep_unary _ _ _ hargs (by decide))
theorem k98 (W : Valuation τ sig (Elt F)) (hargs : Args V W) : Args V (StableHlo.after (t98 (F := F)) W) :=
  k99 V ((o98 (F := F)).result W) (keep_unary _ _ _ hargs (by decide))
theorem k97 (W : Valuation τ sig (Elt F)) (hargs : Args V W) : Args V (StableHlo.after (t97 (F := F)) W) :=
  k98 V ((o97 (F := F)).result W) (keep_unary _ _ _ hargs (by decide))
theorem k96 (W : Valuation τ sig (Elt F)) (hargs : Args V W) : Args V (StableHlo.after (t96 (F := F)) W) :=
  k97 V ((o96 (F := F)).result W) (keep_binary _ _ _ _ hargs (by decide))
theorem k95 (W : Valuation τ sig (Elt F)) (hargs : Args V W) : Args V (StableHlo.after (t95 (F := F)) W) :=
  k96 V ((o95 (F := F)).result W) (keep_unary _ _ _ hargs (by decide))
theorem k94 (W : Valuation τ sig (Elt F)) (hargs : Args V W) : Args V (StableHlo.after (t94 (F := F)) W) :=
  k95 V ((o94 (F := F)).result W) (keep_nullary _ _ hargs (by decide))
theorem k93 (W : Valuation τ sig (Elt F)) (hargs : Args V W) : Args V (StableHlo.after (t93 (F := F)) W) :=
  k94 V ((o93 (F := F)).result W) (keep_binary _ _ _ _ hargs (by decide))
theorem k92 (W : Valuation τ sig (Elt F)) (hargs : Args V W) : Args V (StableHlo.after (t92 (F := F)) W) :=
  k93 V ((o92 (F := F)).result W) (keep_unary _ _ _ hargs (by decide))
theorem k91 (W : Valuation τ sig (Elt F)) (hargs : Args V W) : Args V (StableHlo.after (t91 (F := F)) W) :=
  k92 V ((o91 (F := F)).result W) (keep_unary _ _ _ hargs (by decide))
theorem k90 (W : Valuation τ sig (Elt F)) (hargs : Args V W) : Args V (StableHlo.after (t90 (F := F)) W) :=
  k91 V ((o90 (F := F)).result W) (keep_binary _ _ _ _ hargs (by decide))
theorem k89 (W : Valuation τ sig (Elt F)) (hargs : Args V W) : Args V (StableHlo.after (t89 (F := F)) W) :=
  k90 V ((o89 (F := F)).result W) (keep_unary _ _ _ hargs (by decide))
theorem k88 (W : Valuation τ sig (Elt F)) (hargs : Args V W) : Args V (StableHlo.after (t88 (F := F)) W) :=
  k89 V ((o88 (F := F)).result W) (keep_unary _ _ _ hargs (by decide))
theorem k87 (W : Valuation τ sig (Elt F)) (hargs : Args V W) : Args V (StableHlo.after (t87 (F := F)) W) :=
  k88 V ((o87 (F := F)).result W) (keep_binary _ _ _ _ hargs (by decide))
theorem k86 (W : Valuation τ sig (Elt F)) (hargs : Args V W) : Args V (StableHlo.after (t86 (F := F)) W) :=
  k87 V ((o86 (F := F)).result W) (keep_unary _ _ _ hargs (by decide))
theorem k85 (W : Valuation τ sig (Elt F)) (hargs : Args V W) : Args V (StableHlo.after (t85 (F := F)) W) :=
  k86 V ((o85 (F := F)).result W) (keep_nullary _ _ hargs (by decide))
theorem k84 (W : Valuation τ sig (Elt F)) (hargs : Args V W) : Args V (StableHlo.after (t84 (F := F)) W) :=
  k85 V ((o84 (F := F)).result W) (keep_binary _ _ _ _ hargs (by decide))
theorem k83 (W : Valuation τ sig (Elt F)) (hargs : Args V W) : Args V (StableHlo.after (t83 (F := F)) W) :=
  k84 V ((o83 (F := F)).result W) (keep_nullary _ _ hargs (by decide))
theorem k82 (W : Valuation τ sig (Elt F)) (hargs : Args V W) : Args V (StableHlo.after (t82 (F := F)) W) :=
  k83 V ((o82 (F := F)).result W) (keep_binary _ _ _ _ hargs (by decide))
theorem k81 (W : Valuation τ sig (Elt F)) (hargs : Args V W) : Args V (StableHlo.after (t81 (F := F)) W) :=
  k82 V ((o81 (F := F)).result W) (keep_binary _ _ _ _ hargs (by decide))
theorem k80 (W : Valuation τ sig (Elt F)) (hargs : Args V W) : Args V (StableHlo.after (t80 (F := F)) W) :=
  k81 V ((o80 (F := F)).result W) (keep_unary _ _ _ hargs (by decide))
theorem k79 (W : Valuation τ sig (Elt F)) (hargs : Args V W) : Args V (StableHlo.after (t79 (F := F)) W) :=
  k80 V ((o79 (F := F)).result W) (keep_unary _ _ _ hargs (by decide))
theorem k78 (W : Valuation τ sig (Elt F)) (hargs : Args V W) : Args V (StableHlo.after (t78 (F := F)) W) :=
  k79 V ((o78 (F := F)).result W) (keep_binary _ _ _ _ hargs (by decide))
theorem k77 (W : Valuation τ sig (Elt F)) (hargs : Args V W) : Args V (StableHlo.after (t77 (F := F)) W) :=
  k78 V ((o77 (F := F)).result W) (keep_unary _ _ _ hargs (by decide))
theorem k76 (W : Valuation τ sig (Elt F)) (hargs : Args V W) : Args V (StableHlo.after (t76 (F := F)) W) :=
  k77 V ((o76 (F := F)).result W) (keep_nullary _ _ hargs (by decide))
theorem k75 (W : Valuation τ sig (Elt F)) (hargs : Args V W) : Args V (StableHlo.after (t75 (F := F)) W) :=
  k76 V ((o75 (F := F)).result W) (keep_binary _ _ _ _ hargs (by decide))
theorem k74 (W : Valuation τ sig (Elt F)) (hargs : Args V W) : Args V (StableHlo.after (t74 (F := F)) W) :=
  k75 V ((o74 (F := F)).result W) (keep_nullary _ _ hargs (by decide))
theorem k73 (W : Valuation τ sig (Elt F)) (hargs : Args V W) : Args V (StableHlo.after (t73 (F := F)) W) :=
  k74 V ((o73 (F := F)).result W) (keep_binary _ _ _ _ hargs (by decide))
theorem k72 (W : Valuation τ sig (Elt F)) (hargs : Args V W) : Args V (StableHlo.after (t72 (F := F)) W) :=
  k73 V ((o72 (F := F)).result W) (keep_ternary _ _ _ _ _ hargs (by decide))
theorem k71 (W : Valuation τ sig (Elt F)) (hargs : Args V W) : Args V (StableHlo.after (t71 (F := F)) W) :=
  k72 V ((o71 (F := F)).result W) (keep_unary _ _ _ hargs (by decide))
theorem k70 (W : Valuation τ sig (Elt F)) (hargs : Args V W) : Args V (StableHlo.after (t70 (F := F)) W) :=
  k71 V ((o70 (F := F)).result W) (keep_unary _ _ _ hargs (by decide))
theorem k69 (W : Valuation τ sig (Elt F)) (hargs : Args V W) : Args V (StableHlo.after (t69 (F := F)) W) :=
  k70 V ((o69 (F := F)).result W) (keep_nullary _ _ hargs (by decide))
theorem k68 (W : Valuation τ sig (Elt F)) (hargs : Args V W) : Args V (StableHlo.after (t68 (F := F)) W) :=
  k69 V ((o68 (F := F)).result W) (keep_binary _ _ _ _ hargs (by decide))
theorem k67 (W : Valuation τ sig (Elt F)) (hargs : Args V W) : Args V (StableHlo.after (t67 (F := F)) W) :=
  k68 V ((o67 (F := F)).result W) (keep_binary _ _ _ _ hargs (by decide))
theorem k66 (W : Valuation τ sig (Elt F)) (hargs : Args V W) : Args V (StableHlo.after (t66 (F := F)) W) :=
  k67 V ((o66 (F := F)).result W) (keep_unary _ _ _ hargs (by decide))
theorem k65 (W : Valuation τ sig (Elt F)) (hargs : Args V W) : Args V (StableHlo.after (t65 (F := F)) W) :=
  k66 V ((o65 (F := F)).result W) (keep_nullary _ _ hargs (by decide))
theorem k64 (W : Valuation τ sig (Elt F)) (hargs : Args V W) : Args V (StableHlo.after (t64 (F := F)) W) :=
  k65 V ((o64 (F := F)).result W) (keep_binary _ _ _ _ hargs (by decide))
theorem k63 (W : Valuation τ sig (Elt F)) (hargs : Args V W) : Args V (StableHlo.after (t63 (F := F)) W) :=
  k64 V ((o63 (F := F)).result W) (keep_unary _ _ _ hargs (by decide))
theorem k62 (W : Valuation τ sig (Elt F)) (hargs : Args V W) : Args V (StableHlo.after (t62 (F := F)) W) :=
  k63 V ((o62 (F := F)).result W) (keep_nullary _ _ hargs (by decide))
theorem k61 (W : Valuation τ sig (Elt F)) (hargs : Args V W) : Args V (StableHlo.after (t61 (F := F)) W) :=
  k62 V ((o61 (F := F)).result W) (keep_unary _ _ _ hargs (by decide))
theorem k60 (W : Valuation τ sig (Elt F)) (hargs : Args V W) : Args V (StableHlo.after (t60 (F := F)) W) :=
  k61 V ((o60 (F := F)).result W) (keep_unary _ _ _ hargs (by decide))
theorem k59 (W : Valuation τ sig (Elt F)) (hargs : Args V W) : Args V (StableHlo.after (t59 (F := F)) W) :=
  k60 V ((o59 (F := F)).result W) (keep_binary _ _ _ _ hargs (by decide))
theorem k58 (W : Valuation τ sig (Elt F)) (hargs : Args V W) : Args V (StableHlo.after (t58 (F := F)) W) :=
  k59 V ((o58 (F := F)).result W) (keep_unary _ _ _ hargs (by decide))
theorem k57 (W : Valuation τ sig (Elt F)) (hargs : Args V W) : Args V (StableHlo.after (t57 (F := F)) W) :=
  k58 V ((o57 (F := F)).result W) (keep_unary _ _ _ hargs (by decide))
theorem k56 (W : Valuation τ sig (Elt F)) (hargs : Args V W) : Args V (StableHlo.after (t56 (F := F)) W) :=
  k57 V ((o56 (F := F)).result W) (keep_binary _ _ _ _ hargs (by decide))
theorem k55 (W : Valuation τ sig (Elt F)) (hargs : Args V W) : Args V (StableHlo.after (t55 (F := F)) W) :=
  k56 V ((o55 (F := F)).result W) (keep_binary _ _ _ _ hargs (by decide))
theorem k54 (W : Valuation τ sig (Elt F)) (hargs : Args V W) : Args V (StableHlo.after (t54 (F := F)) W) :=
  k55 V ((o54 (F := F)).result W) (keep_binary _ _ _ _ hargs (by decide))
theorem k53 (W : Valuation τ sig (Elt F)) (hargs : Args V W) : Args V (StableHlo.after (t53 (F := F)) W) :=
  k54 V ((o53 (F := F)).result W) (keep_unary _ _ _ hargs (by decide))
theorem k52 (W : Valuation τ sig (Elt F)) (hargs : Args V W) : Args V (StableHlo.after (t52 (F := F)) W) :=
  k53 V ((o52 (F := F)).result W) (keep_ternary _ _ _ _ _ hargs (by decide))
theorem k51 (W : Valuation τ sig (Elt F)) (hargs : Args V W) : Args V (StableHlo.after (t51 (F := F)) W) :=
  k52 V ((o51 (F := F)).result W) (keep_binary _ _ _ _ hargs (by decide))
theorem k50 (W : Valuation τ sig (Elt F)) (hargs : Args V W) : Args V (StableHlo.after (t50 (F := F)) W) :=
  k51 V ((o50 (F := F)).result W) (keep_unary _ _ _ hargs (by decide))
theorem k49 (W : Valuation τ sig (Elt F)) (hargs : Args V W) : Args V (StableHlo.after (t49 (F := F)) W) :=
  k50 V ((o49 (F := F)).result W) (keep_nullary _ _ hargs (by decide))
theorem k48 (W : Valuation τ sig (Elt F)) (hargs : Args V W) : Args V (StableHlo.after (t48 (F := F)) W) :=
  k49 V ((o48 (F := F)).result W) (keep_binary _ _ _ _ hargs (by decide))
theorem k47 (W : Valuation τ sig (Elt F)) (hargs : Args V W) : Args V (StableHlo.after (t47 (F := F)) W) :=
  k48 V ((o47 (F := F)).result W) (keep_unary _ _ _ hargs (by decide))
theorem k46 (W : Valuation τ sig (Elt F)) (hargs : Args V W) : Args V (StableHlo.after (t46 (F := F)) W) :=
  k47 V ((o46 (F := F)).result W) (keep_nullary _ _ hargs (by decide))
theorem k45 (W : Valuation τ sig (Elt F)) (hargs : Args V W) : Args V (StableHlo.after (t45 (F := F)) W) :=
  k46 V ((o45 (F := F)).result W) (keep_binary _ _ _ _ hargs (by decide))
theorem k44 (W : Valuation τ sig (Elt F)) (hargs : Args V W) : Args V (StableHlo.after (t44 (F := F)) W) :=
  k45 V ((o44 (F := F)).result W) (keep_binary _ _ _ _ hargs (by decide))
theorem k43 (W : Valuation τ sig (Elt F)) (hargs : Args V W) : Args V (StableHlo.after (t43 (F := F)) W) :=
  k44 V ((o43 (F := F)).result W) (keep_binary _ _ _ _ hargs (by decide))
theorem k42 (W : Valuation τ sig (Elt F)) (hargs : Args V W) : Args V (StableHlo.after (t42 (F := F)) W) :=
  k43 V ((o42 (F := F)).result W) (keep_unary _ _ _ hargs (by decide))
theorem k41 (W : Valuation τ sig (Elt F)) (hargs : Args V W) : Args V (StableHlo.after (t41 (F := F)) W) :=
  k42 V ((o41 (F := F)).result W) (keep_unary _ _ _ hargs (by decide))
theorem k40 (W : Valuation τ sig (Elt F)) (hargs : Args V W) : Args V (StableHlo.after (t40 (F := F)) W) :=
  k41 V ((o40 (F := F)).result W) (keep_binary _ _ _ _ hargs (by decide))
theorem k39 (W : Valuation τ sig (Elt F)) (hargs : Args V W) : Args V (StableHlo.after (t39 (F := F)) W) :=
  k40 V ((o39 (F := F)).result W) (keep_binary _ _ _ _ hargs (by decide))
theorem k38 (W : Valuation τ sig (Elt F)) (hargs : Args V W) : Args V (StableHlo.after (t38 (F := F)) W) :=
  k39 V ((o38 (F := F)).result W) (keep_unary _ _ _ hargs (by decide))
theorem k37 (W : Valuation τ sig (Elt F)) (hargs : Args V W) : Args V (StableHlo.after (t37 (F := F)) W) :=
  k38 V ((o37 (F := F)).result W) (keep_unary _ _ _ hargs (by decide))
theorem k36 (W : Valuation τ sig (Elt F)) (hargs : Args V W) : Args V (StableHlo.after (t36 (F := F)) W) :=
  k37 V ((o36 (F := F)).result W) (keep_binary _ _ _ _ hargs (by decide))
theorem k35 (W : Valuation τ sig (Elt F)) (hargs : Args V W) : Args V (StableHlo.after (t35 (F := F)) W) :=
  k36 V ((o35 (F := F)).result W) (keep_unary _ _ _ hargs (by decide))
theorem k34 (W : Valuation τ sig (Elt F)) (hargs : Args V W) : Args V (StableHlo.after (t34 (F := F)) W) :=
  k35 V ((o34 (F := F)).result W) (keep_nullary _ _ hargs (by decide))
theorem k33 (W : Valuation τ sig (Elt F)) (hargs : Args V W) : Args V (StableHlo.after (t33 (F := F)) W) :=
  k34 V ((o33 (F := F)).result W) (keep_ternary _ _ _ _ _ hargs (by decide))
theorem k32 (W : Valuation τ sig (Elt F)) (hargs : Args V W) : Args V (StableHlo.after (t32 (F := F)) W) :=
  k33 V ((o32 (F := F)).result W) (keep_unary _ _ _ hargs (by decide))
theorem k31 (W : Valuation τ sig (Elt F)) (hargs : Args V W) : Args V (StableHlo.after (t31 (F := F)) W) :=
  k32 V ((o31 (F := F)).result W) (keep_unary _ _ _ hargs (by decide))
theorem k30 (W : Valuation τ sig (Elt F)) (hargs : Args V W) : Args V (StableHlo.after (t30 (F := F)) W) :=
  k31 V ((o30 (F := F)).result W) (keep_nullary _ _ hargs (by decide))
theorem k29 (W : Valuation τ sig (Elt F)) (hargs : Args V W) : Args V (StableHlo.after (t29 (F := F)) W) :=
  k30 V ((o29 (F := F)).result W) (keep_binary _ _ _ _ hargs (by decide))
theorem k28 (W : Valuation τ sig (Elt F)) (hargs : Args V W) : Args V (StableHlo.after (t28 (F := F)) W) :=
  k29 V ((o28 (F := F)).result W) (keep_unary _ _ _ hargs (by decide))
theorem k27 (W : Valuation τ sig (Elt F)) (hargs : Args V W) : Args V (StableHlo.after (t27 (F := F)) W) :=
  k28 V ((o27 (F := F)).result W) (keep_ternary _ _ _ _ _ hargs (by decide))
theorem k26 (W : Valuation τ sig (Elt F)) (hargs : Args V W) : Args V (StableHlo.after (t26 (F := F)) W) :=
  k27 V ((o26 (F := F)).result W) (keep_binary _ _ _ _ hargs (by decide))
theorem k25 (W : Valuation τ sig (Elt F)) (hargs : Args V W) : Args V (StableHlo.after (t25 (F := F)) W) :=
  k26 V ((o25 (F := F)).result W) (keep_unary _ _ _ hargs (by decide))
theorem k24 (W : Valuation τ sig (Elt F)) (hargs : Args V W) : Args V (StableHlo.after (t24 (F := F)) W) :=
  k25 V ((o24 (F := F)).result W) (keep_nullary _ _ hargs (by decide))
theorem k23 (W : Valuation τ sig (Elt F)) (hargs : Args V W) : Args V (StableHlo.after (t23 (F := F)) W) :=
  k24 V ((o23 (F := F)).result W) (keep_binary _ _ _ _ hargs (by decide))
theorem k22 (W : Valuation τ sig (Elt F)) (hargs : Args V W) : Args V (StableHlo.after (t22 (F := F)) W) :=
  k23 V ((o22 (F := F)).result W) (keep_unary _ _ _ hargs (by decide))
theorem k21 (W : Valuation τ sig (Elt F)) (hargs : Args V W) : Args V (StableHlo.after (t21 (F := F)) W) :=
  k22 V ((o21 (F := F)).result W) (keep_nullary _ _ hargs (by decide))
theorem k20 (W : Valuation τ sig (Elt F)) (hargs : Args V W) : Args V (StableHlo.after (t20 (F := F)) W) :=
  k21 V ((o20 (F := F)).result W) (keep_ternary _ _ _ _ _ hargs (by decide))
theorem k19 (W : Valuation τ sig (Elt F)) (hargs : Args V W) : Args V (StableHlo.after (t19 (F := F)) W) :=
  k20 V ((o19 (F := F)).result W) (keep_unary _ _ _ hargs (by decide))
theorem k18 (W : Valuation τ sig (Elt F)) (hargs : Args V W) : Args V (StableHlo.after (t18 (F := F)) W) :=
  k19 V ((o18 (F := F)).result W) (keep_unary _ _ _ hargs (by decide))
theorem k17 (W : Valuation τ sig (Elt F)) (hargs : Args V W) : Args V (StableHlo.after (t17 (F := F)) W) :=
  k18 V ((o17 (F := F)).result W) (keep_nullary _ _ hargs (by decide))
theorem k16 (W : Valuation τ sig (Elt F)) (hargs : Args V W) : Args V (StableHlo.after (t16 (F := F)) W) :=
  k17 V ((o16 (F := F)).result W) (keep_unary _ _ _ hargs (by decide))
theorem k15 (W : Valuation τ sig (Elt F)) (hargs : Args V W) : Args V (StableHlo.after (t15 (F := F)) W) :=
  k16 V ((o15 (F := F)).result W) (keep_nullary _ _ hargs (by decide))
theorem k14 (W : Valuation τ sig (Elt F)) (hargs : Args V W) : Args V (StableHlo.after (t14 (F := F)) W) :=
  k15 V ((o14 (F := F)).result W) (keep_binary _ _ _ _ hargs (by decide))
theorem k13 (W : Valuation τ sig (Elt F)) (hargs : Args V W) : Args V (StableHlo.after (t13 (F := F)) W) :=
  k14 V ((o13 (F := F)).result W) (keep_unary _ _ _ hargs (by decide))
theorem k12 (W : Valuation τ sig (Elt F)) (hargs : Args V W) : Args V (StableHlo.after (t12 (F := F)) W) :=
  k13 V ((o12 (F := F)).result W) (keep_unary _ _ _ hargs (by decide))
theorem k11 (W : Valuation τ sig (Elt F)) (hargs : Args V W) : Args V (StableHlo.after (t11 (F := F)) W) :=
  k12 V ((o11 (F := F)).result W) (keep_binary _ _ _ _ hargs (by decide))
theorem k10 (W : Valuation τ sig (Elt F)) (hargs : Args V W) : Args V (StableHlo.after (t10 (F := F)) W) :=
  k11 V ((o10 (F := F)).result W) (keep_binary _ _ _ _ hargs (by decide))
theorem k9 (W : Valuation τ sig (Elt F)) (hargs : Args V W) : Args V (StableHlo.after (t9 (F := F)) W) :=
  k10 V ((o9 (F := F)).result W) (keep_unary _ _ _ hargs (by decide))
theorem k8 (W : Valuation τ sig (Elt F)) (hargs : Args V W) : Args V (StableHlo.after (t8 (F := F)) W) :=
  k9 V ((o8 (F := F)).result W) (keep_nullary _ _ hargs (by decide))
theorem k7 (W : Valuation τ sig (Elt F)) (hargs : Args V W) : Args V (StableHlo.after (t7 (F := F)) W) :=
  k8 V ((o7 (F := F)).result W) (keep_binary _ _ _ _ hargs (by decide))
theorem k6 (W : Valuation τ sig (Elt F)) (hargs : Args V W) : Args V (StableHlo.after (t6 (F := F)) W) :=
  k7 V ((o6 (F := F)).result W) (keep_reshape _ _ _ _ hargs (by decide))
theorem k5 (W : Valuation τ sig (Elt F)) (hargs : Args V W) : Args V (StableHlo.after (t5 (F := F)) W) :=
  k6 V ((o5 (F := F)).result W) (keep_unary _ _ _ hargs (by decide))
theorem k4 (W : Valuation τ sig (Elt F)) (hargs : Args V W) : Args V (StableHlo.after (t4 (F := F)) W) :=
  k5 V ((o4 (F := F)).result W) (keep_binary _ _ _ _ hargs (by decide))
theorem k3 (W : Valuation τ sig (Elt F)) (hargs : Args V W) : Args V (StableHlo.after (t3 (F := F)) W) :=
  k4 V ((o3 (F := F)).result W) (keep_reshape _ _ _ _ hargs (by decide))
theorem k2 (W : Valuation τ sig (Elt F)) (hargs : Args V W) : Args V (StableHlo.after (t2 (F := F)) W) :=
  k3 V ((o2 (F := F)).result W) (keep_unary _ _ _ hargs (by decide))
theorem k1 (W : Valuation τ sig (Elt F)) (hargs : Args V W) : Args V (StableHlo.after (t1 (F := F)) W) :=
  k2 V ((o1 (F := F)).result W) (keep_nullary _ _ hargs (by decide))

/-- After all 280 operations the argument buffers hold what they held. -/
theorem args_kept : Args V (StableHlo.after (ops (F := F)) V) := k1 V V (fun _ _ => rfl)

theorem arg_kept_0 : StableHlo.after (ops (F := F)) V (Proc.devRef .tc main_arg0) = V (Proc.devRef .tc main_arg0) :=
  args_kept V main_arg0 (by decide)
theorem arg_kept_1 : StableHlo.after (ops (F := F)) V (Proc.devRef .tc main_arg1) = V (Proc.devRef .tc main_arg1) :=
  args_kept V main_arg1 (by decide)
theorem arg_kept_2 : StableHlo.after (ops (F := F)) V (Proc.devRef .tc main_arg2) = V (Proc.devRef .tc main_arg2) :=
  args_kept V main_arg2 (by decide)
theorem arg_kept_3 : StableHlo.after (ops (F := F)) V (Proc.devRef .tc main_arg3) = V (Proc.devRef .tc main_arg3) :=
  args_kept V main_arg3 (by decide)
theorem arg_kept_4 : StableHlo.after (ops (F := F)) V (Proc.devRef .tc main_arg4) = V (Proc.devRef .tc main_arg4) :=
  args_kept V main_arg4 (by decide)
theorem arg_kept_5 : StableHlo.after (ops (F := F)) V (Proc.devRef .tc main_arg5) = V (Proc.devRef .tc main_arg5) :=
  args_kept V main_arg5 (by decide)
theorem arg_kept_6 : StableHlo.after (ops (F := F)) V (Proc.devRef .tc main_arg6) = V (Proc.devRef .tc main_arg6) :=
  args_kept V main_arg6 (by decide)
theorem arg_kept_7 : StableHlo.after (ops (F := F)) V (Proc.devRef .tc main_arg7) = V (Proc.devRef .tc main_arg7) :=
  args_kept V main_arg7 (by decide)
theorem arg_kept_8 : StableHlo.after (ops (F := F)) V (Proc.devRef .tc main_arg8) = V (Proc.devRef .tc main_arg8) :=
  args_kept V main_arg8 (by decide)
theorem arg_kept_9 : StableHlo.after (ops (F := F)) V (Proc.devRef .tc main_arg9) = V (Proc.devRef .tc main_arg9) :=
  args_kept V main_arg9 (by decide)
theorem arg_kept_10 : StableHlo.after (ops (F := F)) V (Proc.devRef .tc main_arg10) = V (Proc.devRef .tc main_arg10) :=
  args_kept V main_arg10 (by decide)
theorem arg_kept_11 : StableHlo.after (ops (F := F)) V (Proc.devRef .tc main_arg11) = V (Proc.devRef .tc main_arg11) :=
  args_kept V main_arg11 (by decide)
theorem arg_kept_12 : StableHlo.after (ops (F := F)) V (Proc.devRef .tc main_arg12) = V (Proc.devRef .tc main_arg12) :=
  args_kept V main_arg12 (by decide)
theorem arg_kept_13 : StableHlo.after (ops (F := F)) V (Proc.devRef .tc main_arg13) = V (Proc.devRef .tc main_arg13) :=
  args_kept V main_arg13 (by decide)
theorem arg_kept_14 : StableHlo.after (ops (F := F)) V (Proc.devRef .tc main_arg14) = V (Proc.devRef .tc main_arg14) :=
  args_kept V main_arg14 (by decide)
theorem arg_kept_15 : StableHlo.after (ops (F := F)) V (Proc.devRef .tc main_arg15) = V (Proc.devRef .tc main_arg15) :=
  args_kept V main_arg15 (by decide)
theorem arg_kept_16 : StableHlo.after (ops (F := F)) V (Proc.devRef .tc main_arg16) = V (Proc.devRef .tc main_arg16) :=
  args_kept V main_arg16 (by decide)
theorem arg_kept_17 : StableHlo.after (ops (F := F)) V (Proc.devRef .tc main_arg17) = V (Proc.devRef .tc main_arg17) :=
  args_kept V main_arg17 (by decide)
theorem arg_kept_18 : StableHlo.after (ops (F := F)) V (Proc.devRef .tc main_arg18) = V (Proc.devRef .tc main_arg18) :=
  args_kept V main_arg18 (by decide)
theorem arg_kept_19 : StableHlo.after (ops (F := F)) V (Proc.devRef .tc main_arg19) = V (Proc.devRef .tc main_arg19) :=
  args_kept V main_arg19 (by decide)
theorem arg_kept_20 : StableHlo.after (ops (F := F)) V (Proc.devRef .tc main_arg20) = V (Proc.devRef .tc main_arg20) :=
  args_kept V main_arg20 (by decide)
theorem arg_kept_21 : StableHlo.after (ops (F := F)) V (Proc.devRef .tc main_arg21) = V (Proc.devRef .tc main_arg21) :=
  args_kept V main_arg21 (by decide)
theorem arg_kept_22 : StableHlo.after (ops (F := F)) V (Proc.devRef .tc main_arg22) = V (Proc.devRef .tc main_arg22) :=
  args_kept V main_arg22 (by decide)
theorem arg_kept_23 : StableHlo.after (ops (F := F)) V (Proc.devRef .tc main_arg23) = V (Proc.devRef .tc main_arg23) :=
  args_kept V main_arg23 (by decide)
theorem arg_kept_24 : StableHlo.after (ops (F := F)) V (Proc.devRef .tc main_arg24) = V (Proc.devRef .tc main_arg24) :=
  args_kept V main_arg24 (by decide)
theorem arg_kept_25 : StableHlo.after (ops (F := F)) V (Proc.devRef .tc main_arg25) = V (Proc.devRef .tc main_arg25) :=
  args_kept V main_arg25 (by decide)
theorem arg_kept_26 : StableHlo.after (ops (F := F)) V (Proc.devRef .tc main_arg26) = V (Proc.devRef .tc main_arg26) :=
  args_kept V main_arg26 (by decide)
theorem arg_kept_27 : StableHlo.after (ops (F := F)) V (Proc.devRef .tc main_arg27) = V (Proc.devRef .tc main_arg27) :=
  args_kept V main_arg27 (by decide)
theorem arg_kept_28 : StableHlo.after (ops (F := F)) V (Proc.devRef .tc main_arg28) = V (Proc.devRef .tc main_arg28) :=
  args_kept V main_arg28 (by decide)

end Cert.ReferenceIdeal.RunStep

end
-- ==== Proof.RefRun.lean ====
/-
  The reference program is host operations only: a straight line of 280 operations. Run from any memory it ends with
  every buffer at the fold of the operations over the launch contents; the result buffer's fold is the last stage
  function of the argument arrays, and no operation writes an argument array.
-/
import proofs.«106696_j33449205301454_2_alg».proof.Proof.Gen.ReferenceIdeal
import proofs.«106696_j33449205301454_2_alg».proof.Proof.ReadP
import proofs.«106696_j33449205301454_2_alg».proof.Proof.RefStep
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.RunStep

variable {F : FTy → Type} [FloatOps F]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 16384 in
/-- On every device, for any float values, from any memory with zero counters: every weakly fair execution of
    @main terminates with the result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v222) = Cert.ReferenceIdeal.Read.val_main_v222 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v222).trans (result_eq _),
      (h c main_arg0).trans (arg_kept_0 _),
      (h c main_arg1).trans (arg_kept_1 _),
      (h c main_arg2).trans (arg_kept_2 _),
      (h c main_arg3).trans (arg_kept_3 _),
      (h c main_arg4).trans (arg_kept_4 _),
      (h c main_arg5).trans (arg_kept_5 _),
      (h c main_arg6).trans (arg_kept_6 _),
      (h c main_arg7).trans (arg_kept_7 _),
      (h c main_arg8).trans (arg_kept_8 _),
      (h c main_arg9).trans (arg_kept_9 _),
      (h c main_arg10).trans (arg_kept_10 _),
      (h c main_arg11).trans (arg_kept_11 _),
      (h c main_arg12).trans (arg_kept_12 _),
      (h c main_arg13).trans (arg_kept_13 _),
      (h c main_arg14).trans (arg_kept_14 _),
      (h c main_arg15).trans (arg_kept_15 _),
      (h c main_arg16).trans (arg_kept_16 _),
      (h c main_arg17).trans (arg_kept_17 _),
      (h c main_arg18).trans (arg_kept_18 _),
      (h c main_arg19).trans (arg_kept_19 _),
      (h c main_arg20).trans (arg_kept_20 _),
      (h c main_arg21).trans (arg_kept_21 _),
      (h c main_arg22).trans (arg_kept_22 _),
      (h c main_arg23).trans (arg_kept_23 _),
      (h c main_arg24).trans (arg_kept_24 _),
      (h c main_arg25).trans (arg_kept_25 _),
      (h c main_arg26).trans (arg_kept_26 _),
      (h c main_arg27).trans (arg_kept_27 _),
      (h c main_arg28).trans (arg_kept_28 _)⟩)
    (run_seq scopedRefs_eq scopedSems_eq defs main (fun _ => ops) main_eq (fun _ => ops_sub) m ρ)

end Cert.ReferenceIdeal.RunValue

end
-- ==== Proof.Assemble.lean ====
/-
  The assembly: the five claims from their parts. The two kernels' frames are the generated frame certificates; the
  reference is host operations only, so its frame is its run with the result dropped; the idealization rewrote
  nothing; and the two idealized programs end with equal results because the kernel's result buffer, at the last
  region's exit, holds the reference's last stage read at the kernel's own arguments (the hypothesis the value modules
  discharge), while the reference's run ends at that same stage of arguments that agree with the kernel's.
-/
import proofs.«106696_j33449205301454_2_alg».proof.Defs
import proofs.«106696_j33449205301454_2_alg».proof.Proof.Gen.Kernel.Frame
import proofs.«106696_j33449205301454_2_alg».proof.Proof.Gen.KernelIdeal.Frame
import proofs.«106696_j33449205301454_2_alg».proof.Proof.Gen.ReferenceIdeal
import proofs.«106696_j33449205301454_2_alg».proof.Proof.Gen.Pre_finite_inputs
import proofs.«106696_j33449205301454_2_alg».proof.Proof.ReadP
import proofs.«106696_j33449205301454_2_alg».proof.Proof.RefRun
import proofs.«106696_j33449205301454_2_alg».proof.Proof.KernelRun

set_option maxRecDepth 16384

noncomputable section

namespace Cert.Proof.Assemble

open Idealize.ShloMosaic Idealize.SL.Sem

/-- A function of 29 arguments takes equal values at argument-wise equal arguments. -/
theorem congr29 {α0 α1 α2 α3 α4 α5 α6 α7 α8 α9 α10 α11 α12 α13 α14 α15 α16 α17 α18 α19 α20 α21 α22 α23 α24 α25 α26 α27 α28 β : Type} (f : α0 → α1 → α2 → α3 → α4 → α5 → α6 → α7 → α8 → α9 → α10 → α11 → α12 → α13 → α14 → α15 → α16 → α17 → α18 → α19 → α20 → α21 → α22 → α23 → α24 → α25 → α26 → α27 → α28 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12} {x13 y13 : α13} {x14 y14 : α14} {x15 y15 : α15} {x16 y16 : α16} {x17 y17 : α17} {x18 y18 : α18} {x19 y19 : α19} {x20 y20 : α20} {x21 y21 : α21} {x22 y22 : α22} {x23 y23 : α23} {x24 y24 : α24} {x25 y25 : α25} {x26 y26 : α26} {x27 y27 : α27} {x28 y28 : α28}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) :
    f x0 x1 x2 x3 x4 x5 x6 x7 x8 x9 x10 x11 x12 x13 x14 x15 x16 x17 x18 x19 x20 x21 x22 x23 x24 x25 x26 x27 x28 = f y0 y1 y2 y3 y4 y5 y6 y7 y8 y9 y10 y11 y12 y13 y14 y15 y16 y17 y18 y19 y20 y21 y22 y23 y24 y25 y26 y27 y28 := by
  subst h0 h1 h2 h3 h4 h5 h6 h7 h8 h9 h10 h11 h12 h13 h14 h15 h16 h17 h18 h19 h20 h21 h22 h23 h24 h25 h26 h27 h28
  rfl

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

set_option maxHeartbeats 1000000 in
/-- Both programs end with the same result, given that the kernel's result buffer at its last boundary is the
    reference's last stage read at the kernel's arguments: the witness is that stage; the kernel's run posts it through
    the hypothesis, the reference's run posts the last stage at ITS arguments, and the two programs' arguments agree. -/
theorem algebraic_of
    (hval : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD), Cert.Pre_KernelIdeal m →
      Cert.KernelIdeal.Gen.W26 m ρ c (Proc.devRef .tc Cert.KernelIdeal.main_v213)
        = Cert.ReferenceIdeal.Read.val_main_v222 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) :
    Cert.algebraic_KernelIdeal_ReferenceIdeal := by
  intro m ρ m' ρ' hpre hagree
  refine ⟨fun c => Cert.ReferenceIdeal.Read.val_main_v222 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono (fun _ h c => ⟨(h c).1.trans (hval m ρ c hpre), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.RunValue.run (F := Ideal) m' ρ')
    obtain ⟨a0, a1, a2, a3, a4, a5, a6, a7, a8, a9, a10, a11, a12, a13, a14, a15, a16, a17, a18, a19, a20, a21, a22, a23, a24, a25, a26, a27, a28⟩ := hagree c
    exact congr29 (Cert.ReferenceIdeal.Read.val_main_v222 (F := Ideal)) a0 a1 a2 a3 a4 a5 a6 a7 a8 a9 a10 a11 a12 a13 a14 a15 a16 a17 a18 a19 a20 a21 a22 a23 a24 a25 a26 a27 a28

theorem frame_k : Cert.frame_Kernel := fun m ρ _ => Cert.Kernel.Gen.frame m ρ

/-- Everything the certificate claims, behind the witnesses of the programs' stated facts. -/
theorem claim_of
    (hval : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD), Cert.Pre_KernelIdeal m →
      Cert.KernelIdeal.Gen.W26 m ρ c (Proc.devRef .tc Cert.KernelIdeal.main_v213)
        = Cert.ReferenceIdeal.Read.val_main_v222 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hval⟩

end Cert.Proof.Assemble

end
-- ==== Proof.StageDefs.lean ====
/-
  Names for the stage equations of the idealized kernel's run: the argument arrays as launched; the packed view (two
  node rows in one 128-lane row) and its inverse; a [64] vector laid twice in a [1, 128] row; a [64] vector as a
  [1, 64] row; the column of reciprocals of the clamped in-degrees.
-/
import proofs.«106696_j33449205301454_2_alg».proof.Proof.Gen.KernelIdeal.Frame
import proofs.«106696_j33449205301454_2_alg».proof.Proof.ReadP
import Idealize.ShloMosaic.PureOps.Ideal
import Idealize.ShloMosaic.PureOps.Ideal.Laws

set_option maxRecDepth 16384

noncomputable section

namespace Cert.KernelIdeal.Stage

open Cert.KernelIdeal Cert.KernelIdeal.Gen
open Idealize.ShloMosaic Idealize.ShloMosaic.TcCoe Idealize.SL.Sem

/-- Two consecutive node rows side by side: the [100000, 64] array as [50000, 128]. -/
abbrev pack (x : S100000x64.Idx → EReal) : S50000x128.Idx → EReal :=
  shapeCast S50000x128 x shapeCasts_S100000x64_S50000x128
/-- The packed view read back as [100000, 64]. -/
abbrev unpack (y : S50000x128.Idx → EReal) : S100000x64.Idx → EReal :=
  shapeCast S100000x64 y shapeCasts_S50000x128_S100000x64
/-- A [64] vector laid twice end to end, as one [1, 128] row. -/
abbrev rowDouble (v : S64.Idx → EReal) : S1x128.Idx → EReal :=
  shapeCast S1x128 (concatenate S128 0 [⟨S64, v⟩, ⟨S64, v⟩] concatenates_S64_S64_S128_d0) shapeCasts_S128_S1x128
/-- A [64] vector as one [1, 64] row. -/
abbrev row64 (v : S64.Idx → EReal) : S1x64.Idx → EReal := shapeCast S1x64 v shapeCasts_S64_S1x64
/-- A [16] vector as one [1, 16] row. -/
abbrev row16 (v : S16.Idx → EReal) : S1x16.Idx → EReal := shapeCast S1x16 v shapeCasts_S16_S1x16

/-- The column of reciprocals 1 / max(deg, 1), as the kernel's host code lays it out. -/
abbrev recipDeg (x1 : (⟨S2x1600000, .i32⟩ : BufTy).Contents (Elt Ideal)) : S100000x1.Idx → EReal :=
  shapeCast S100000x1 (Host.divf (F := Ideal) (φ := .f32) (Cert.ReferenceIdeal.Read.val_main_v27 (F := Ideal)) (Cert.ReferenceIdeal.Read.val_main_v28 (F := Ideal) x1)) shapeCasts_S100000_S100000x1

end Cert.KernelIdeal.Stage

end
-- ==== Proof.PreReal.lean ====
/-
  Finiteness. The precondition says, device by device, that each float argument's entries compare below plus infinity
  in absolute value (the conjunction of the 28 all-reductions of those comparisons is true). Among the extended reals
  |x| < ⊤ fails exactly at x = ⊤ and x = ⊥, so every entry of every float argument is a real number.
-/
import proofs.«106696_j33449205301454_2_alg».proof.Defs
import proofs.«106696_j33449205301454_2_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.KernelIdeal.PreReal

open Idealize.ShloMosaic Idealize.SL.Sem
open Idealize.ShloMosaic.ValueIdx

/-- The rank-0 shape has one index. -/
instance : Subsingleton (⟨0, ![]⟩ : Shape).Idx := ⟨fun a b => funext fun d => d.elim0⟩

/-- The word 0x7F800000 is plus infinity. -/
theorem inf_word : Ideal.ofBits .f32 0x7F800000#32 = ⊤ := by simp [Ideal.ofBits, Ideal.ieee]

/-- An extended real whose absolute value is below plus infinity is a real number. -/
theorem real_of_abs_lt (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One argument's check: if the all-reduction of "|x| < +inf" over every axis is true, every entry of x is real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
        (cmpf .olt (Host.absf x) (broadcastInDim s ![] hb (constant (F := Ideal) ⟨0, ![]⟩ .f32 0x7F800000#32))) init hr hu ix0
      = 1#1) :
    ∀ i, ∃ r : ℝ, x i = (r : EReal) := by
  intro i
  have hi := Host.reduce_andi_all _ init hr hu ix0 e i
  have hi' : Ideal.cmp .olt (max (x i) (-(x i))) (Ideal.ofBits .f32 0x7F800000#32) = 1#1 := hi
  rw [inf_word] at hi'
  exact real_of_abs_lt (x i) hi'

open Cert.Pre_finite_inputs in
/-- Every entry of every float argument is a real number. -/
theorem real_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal))
    ∧ (∀ i, ∃ r : ℝ, m ((c.tc : Thread Cert.KernelIdeal.nD Cert.KernelIdeal.τ).loc Cert.KernelIdeal.main_arg14) i = (r : EReal))
    ∧ (∀ i, ∃ r : ℝ, m ((c.tc : Thread Cert.KernelIdeal.nD Cert.KernelIdeal.τ).loc Cert.KernelIdeal.main_arg15) i = (r : EReal))
    ∧ (∀ i, ∃ r : ℝ, m ((c.tc : Thread Cert.KernelIdeal.nD Cert.KernelIdeal.τ).loc Cert.KernelIdeal.main_arg16) i = (r : EReal))
    ∧ (∀ i, ∃ r : ℝ, m ((c.tc : Thread Cert.KernelIdeal.nD Cert.KernelIdeal.τ).loc Cert.KernelIdeal.main_arg17) i = (r : EReal))
    ∧ (∀ i, ∃ r : ℝ, m ((c.tc : Thread Cert.KernelIdeal.nD Cert.KernelIdeal.τ).loc Cert.KernelIdeal.main_arg18) i = (r : EReal))
    ∧ (∀ i, ∃ r : ℝ, m ((c.tc : Thread Cert.KernelIdeal.nD Cert.KernelIdeal.τ).loc Cert.KernelIdeal.main_arg19) i = (r : EReal))
    ∧ (∀ i, ∃ r : ℝ, m ((c.tc : Thread Cert.KernelIdeal.nD Cert.KernelIdeal.τ).loc Cert.KernelIdeal.main_arg20) i = (r : EReal))
    ∧ (∀ i, ∃ r : ℝ, m ((c.tc : Thread Cert.KernelIdeal.nD Cert.KernelIdeal.τ).loc Cert.KernelIdeal.main_arg21) i = (r : EReal))
    ∧ (∀ i, ∃ r : ℝ, m ((c.tc : Thread Cert.KernelIdeal.nD Cert.KernelIdeal.τ).loc Cert.KernelIdeal.main_arg22) i = (r : EReal))
    ∧ (∀ i, ∃ r : ℝ, m ((c.tc : Thread Cert.KernelIdeal.nD Cert.KernelIdeal.τ).loc Cert.KernelIdeal.main_arg23) i = (r : EReal))
    ∧ (∀ i, ∃ r : ℝ, m ((c.tc : Thread Cert.KernelIdeal.nD Cert.KernelIdeal.τ).loc Cert.KernelIdeal.main_arg24) i = (r : EReal))
    ∧ (∀ i, ∃ r : ℝ, m ((c.tc : Thread Cert.KernelIdeal.nD Cert.KernelIdeal.τ).loc Cert.KernelIdeal.main_arg25) i = (r : EReal))
    ∧ (∀ i, ∃ r : ℝ, m ((c.tc : Thread Cert.KernelIdeal.nD Cert.KernelIdeal.τ).loc Cert.KernelIdeal.main_arg26) i = (r : EReal))
    ∧ (∀ i, ∃ r : ℝ, m ((c.tc : Thread Cert.KernelIdeal.nD Cert.KernelIdeal.τ).loc Cert.KernelIdeal.main_arg27) i = (r : EReal))
    ∧ (∀ i, ∃ r : ℝ, m ((c.tc : Thread Cert.KernelIdeal.nD Cert.KernelIdeal.τ).loc Cert.KernelIdeal.main_arg28) i = (r : EReal)) := by
  have h0 := congrFun (h c) ix0
  dsimp only [fn, fn_part1, fn_part2, fn_part3, fn_part4, fn_part5, fn_part6, fn_part7, fn_part8, andi] at h0
  simp only [IntOp.andi_eq_one, and_assoc] at h0
  obtain ⟨e0, e2, e3, e4, e5, e6, e7, e8, e9, e10, e11, e12, e13, e14, e15, e16, e17, e18, e19, e20, e21, e22, e23, e24, e25, e26, e27, e28⟩ := h0
  exact ⟨real_of_all _ _ _ _ _ e0, real_of_all _ _ _ _ _ e2, real_of_all _ _ _ _ _ e3, real_of_all _ _ _ _ _ e4, real_of_all _ _ _ _ _ e5, real_of_all _ _ _ _ _ e6, real_of_all _ _ _ _ _ e7, real_of_all _ _ _ _ _ e8, real_of_all _ _ _ _ _ e9, real_of_all _ _ _ _ _ e10, real_of_all _ _ _ _ _ e11, real_of_all _ _ _ _ _ e12, real_of_all _ _ _ _ _ e13, real_of_all _ _ _ _ _ e14, real_of_all _ _ _ _ _ e15, real_of_all _ _ _ _ _ e16, real_of_all _ _ _ _ _ e17, real_of_all _ _ _ _ _ e18, real_of_all _ _ _ _ _ e19, real_of_all _ _ _ _ _ e20, real_of_all _ _ _ _ _ e21, real_of_all _ _ _ _ _ e22, real_of_all _ _ _ _ _ e23, real_of_all _ _ _ _ _ e24, real_of_all _ _ _ _ _ e25, real_of_all _ _ _ _ _ e26, real_of_all _ _ _ _ _ e27, real_of_all _ _ _ _ _ e28⟩

end Cert.KernelIdeal.PreReal

end
-- ==== Proof.LibSignEntries.lean ====
/-
  Entries of an extended-real array that are POSITIVE reals, or NONNEGATIVE reals, under the host operations a
  normalisation is made of: a positive constant broadcast; the maximum with a positive array; the exponential of a
  real array; a sum of two positive arrays or of a nonnegative and a positive one; a real array times itself; the host
  sum of a nonnegative array from a nonnegative start; a quotient by a positive array. General in the shapes; only
  the library is imported.
-/
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

noncomputable section

namespace Cert.Lib.SignEntries

open Idealize.ShloMosaic
open scoped BigOperators

/-- Every entry is a real number. -/
def RealE {S : Shape} (v : S.Idx → EReal) : Prop := ∀ i, ∃ r : ℝ, v i = (r : EReal)
/-- Every entry is a positive real number. -/
def PosR {S : Shape} (v : S.Idx → EReal) : Prop := ∀ i, ∃ r : ℝ, 0 < r ∧ v i = (r : EReal)
/-- Every entry is a nonnegative real number. -/
def NonnegR {S : Shape} (v : S.Idx → EReal) : Prop := ∀ i, ∃ r : ℝ, 0 ≤ r ∧ v i = (r : EReal)

theorem PosR.real {S : Shape} {v : S.Idx → EReal} (h : PosR v) : RealE v := fun i => let ⟨r, _, e⟩ := h i; ⟨r, e⟩
theorem PosR.nonneg {S : Shape} {v : S.Idx → EReal} (h : PosR v) : NonnegR v := fun i => let ⟨r, p, e⟩ := h i; ⟨r, p.le, e⟩
theorem NonnegR.real {S : Shape} {v : S.Idx → EReal} (h : NonnegR v) : RealE v := fun i => let ⟨r, _, e⟩ := h i; ⟨r, e⟩
theorem PosR.ne_zero {S : Shape} {v : S.Idx → EReal} (h : PosR v) : ∀ i, ∃ r : ℝ, r ≠ 0 ∧ v i = (r : EReal) :=
  fun i => let ⟨r, p, e⟩ := h i; ⟨r, p.ne', e⟩

/-! ### Words -/

theorem ofBits_one : Ideal.ofBits .f32 0x3F800000#32 = ((1 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem ofBits_1e5 : Ideal.ofBits .f32 0x47C35000#32 = ((100000 : ℝ) : EReal) := by
  simp [Ideal.ofBits, Ideal.ieee]
  rw [← EReal.coe_mul]
  norm_num

theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee]

theorem pos_one : ∃ r : ℝ, 0 < r ∧ Ideal.ofBits .f32 0x3F800000#32 = (r : EReal) := ⟨1, one_pos, ofBits_one⟩
theorem pos_two : ∃ r : ℝ, 0 < r ∧ Ideal.ofBits .f32 0x40000000#32 = (r : EReal) := ⟨2, two_pos, ofBits_two⟩
theorem pos_1e5 : ∃ r : ℝ, 0 < r ∧ Ideal.ofBits .f32 0x47C35000#32 = (r : EReal) := ⟨100000, by norm_num, ofBits_1e5⟩
theorem nonneg_zero : ∃ r : ℝ, 0 ≤ r ∧ Ideal.ofBits .f32 0x00000000#32 = (r : EReal) :=
  ⟨0, le_rfl, by rw [Ideal.ofBits_zero_f32]; rfl⟩

/-! ### Arrays -/

theorem posR_constant (S : Shape) (w : BitVec 32) (h : ∃ r : ℝ, 0 < r ∧ Ideal.ofBits .f32 w = (r : EReal)) :
    PosR (constant (F := Ideal) S .f32 w) := fun _ => h

theorem nonnegR_constant (S : Shape) (w : BitVec 32) (h : ∃ r : ℝ, 0 ≤ r ∧ Ideal.ofBits .f32 w = (r : EReal)) :
    NonnegR (constant (F := Ideal) S .f32 w) := fun _ => h

theorem posR_broadcastInDim {s : Shape} (t : Shape) (dims : Fin s.rank → Fin t.rank)
    (h : s.BroadcastsInDim t dims) (x : s.Idx → EReal) (hx : PosR x) : PosR (broadcastInDim t dims h x) :=
  fun j => hx _

theorem nonnegR_broadcastInDim {s : Shape} (t : Shape) (dims : Fin s.rank → Fin t.rank)
    (h : s.BroadcastsInDim t dims) (x : s.Idx → EReal) (hx : NonnegR x) : NonnegR (broadcastInDim t dims h x) :=
  fun j => hx _

/-- The maximum of a real array with a positive one is positive. -/
theorem posR_max_right {S : Shape} (x y : FVec Ideal S .f32) (hx : RealE x) (hy : PosR y) :
    PosR (maximumf (F := Ideal) x y) := by
  intro i
  obtain ⟨a, ha⟩ := hx i
  obtain ⟨b, hb, hb'⟩ := hy i
  refine ⟨max a b, lt_max_of_lt_right hb, ?_⟩
  show max (x i) (y i) = _
  rw [ha, hb']
  exact (EReal.coe_strictMono.monotone.map_max).symm

/-- The maximum of two real arrays is real. -/
theorem realE_max {S : Shape} (x y : FVec Ideal S .f32) (hx : RealE x) (hy : RealE y) :
    RealE (maximumf (F := Ideal) x y) := by
  intro i
  obtain ⟨a, ha⟩ := hx i
  obtain ⟨b, hb⟩ := hy i
  refine ⟨max a b, ?_⟩
  show max (x i) (y i) = _
  rw [ha, hb]
  exact (EReal.coe_strictMono.monotone.map_max).symm

/-- The exponential of a real array is positive. -/
theorem posR_hostExp {S : Shape} (x : FVec Ideal S .f32) (hx : RealE x) : PosR (Host.exp (F := Ideal) x) := by
  intro i
  obtain ⟨a, ha⟩ := hx i
  refine ⟨Real.exp a, Real.exp_pos a, ?_⟩
  show Ideal.exp (x i) = _
  rw [ha]; rfl

/-- The negation of a real array is real. -/
theorem realE_hostNegf {S : Shape} (x : FVec Ideal S .f32) (hx : RealE x) : RealE (Host.negf (F := Ideal) x) := by
  intro i
  obtain ⟨a, ha⟩ := hx i
  refine ⟨-a, ?_⟩
  show -(x i) = _
  rw [ha, EReal.coe_neg]

theorem posR_addf {S : Shape} (x y : FVec Ideal S .f32) (hx : PosR x) (hy : PosR y) : PosR (addf (F := Ideal) x y) := by
  intro i
  obtain ⟨a, ha, ha'⟩ := hx i
  obtain ⟨b, hb, hb'⟩ := hy i
  refine ⟨a + b, add_pos ha hb, ?_⟩
  show x i + y i = _
  rw [ha', hb', EReal.coe_add]

theorem posR_addf_nonneg {S : Shape} (x y : FVec Ideal S .f32) (hx : NonnegR x) (hy : PosR y) :
    PosR (addf (F := Ideal) x y) := by
  intro i
  obtain ⟨a, ha, ha'⟩ := hx i
  obtain ⟨b, hb, hb'⟩ := hy i
  refine ⟨a + b, add_pos_of_nonneg_of_pos ha hb, ?_⟩
  show x i + y i = _
  rw [ha', hb', EReal.coe_add]

/-- A real array times itself is nonnegative. -/
theorem nonnegR_mul_self {S : Shape} (x : FVec Ideal S .f32) (hx : RealE x) : NonnegR (mulf (F := Ideal) x x) := by
  intro i
  obtain ⟨a, ha⟩ := hx i
  refine ⟨a * a, mul_self_nonneg a, ?_⟩
  show x i * x i = _
  rw [ha, EReal.coe_mul]

/-- A finite sum of nonnegative reals is a nonnegative real. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := ih (fun i hi => h i (Finset.mem_insert_of_mem hi))
    obtain ⟨q, hq, e'⟩ := h a (Finset.mem_insert_self a s)
    exact ⟨q + r, add_nonneg hq hr, by rw [Finset.sum_insert ha, e, e', EReal.coe_add]⟩

/-- The host sum over axes of a nonnegative array, from a nonnegative start, is nonnegative. -/
theorem nonnegR_reduceAdd {s t u : Shape} {axes : List (Fin s.rank)} (x : FVec Ideal s .f32)
    (init : u.Idx → Ideal .f32) (h : s.ReducesTo axes t) (hu : 0 < u.numel) (hx : NonnegR x)
    (hi : NonnegR init) : NonnegR (Host.reduceAdd (F := Ideal) x init h hu) := by
  intro j
  show ∃ r : ℝ, 0 ≤ r ∧ init (Shape.Idx.first hu) + ∑ i ∈ Finset.univ.filter (fun i => h.drop i = j), x i = (r : EReal)
  obtain ⟨a, ha, ea⟩ := hi (Shape.Idx.first hu)
  obtain ⟨b, hb, eb⟩ := nonneg_sum _ x (fun i _ => hx i)
  exact ⟨a + b, add_nonneg ha hb, by rw [ea, eb, EReal.coe_add]⟩

/-- A nonnegative array over a positive one is nonnegative. -/
theorem nonnegR_hostDivf {S : Shape} (x y : FVec Ideal S .f32) (hx : NonnegR x) (hy : PosR y) :
    NonnegR (Host.divf (F := Ideal) x y) := by
  intro i
  obtain ⟨a, ha, ha'⟩ := hx i
  obtain ⟨b, hb, hb'⟩ := hy i
  refine ⟨a / b, div_nonneg ha hb.le, ?_⟩
  show Ideal.div (x i) (y i) = _
  rw [ha', hb', Ideal.div_coe hb.ne', ← EReal.coe_mul, mul_one_div]

/-- A real array over a positive one is real. -/
theorem realE_hostDivf {S : Shape} (x y : FVec Ideal S .f32) (hx : RealE x) (hy : PosR y) :
    RealE (Host.divf (F := Ideal) x y) := by
  intro i
  obtain ⟨a, ha⟩ := hx i
  obtain ⟨b, hb, hb'⟩ := hy i
  refine ⟨a / b, ?_⟩
  show Ideal.div (x i) (y i) = _
  rw [ha, hb', Ideal.div_coe hb.ne', ← EReal.coe_mul, mul_one_div]

/-- The reciprocal square root of a positive array is real. -/
theorem realE_hostRsqrt {S : Shape} (x : FVec Ideal S .f32) (hx : PosR x) : RealE (Host.rsqrt (F := Ideal) x) := by
  intro i
  obtain ⟨a, ha, ha'⟩ := hx i
  refine ⟨(Real.sqrt a)⁻¹, ?_⟩
  show Ideal.rsqrt (x i) = _
  rw [ha', Ideal.rsqrt_coe, if_neg (not_lt.2 ha.le), if_neg ha.ne']

/-! ### Real entries under the remaining host operations -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem realE_constant (S : Shape) (w : BitVec 32) (h : ∃ r : ℝ, Ideal.ofBits .f32 w = (r : EReal)) :
    RealE (constant (F := Ideal) S .f32 w) := fun _ => h
theorem realE_broadcastInDim {s : Shape} (t : Shape) (dims : Fin s.rank → Fin t.rank)
    (h : s.BroadcastsInDim t dims) (x : s.Idx → EReal) (hx : RealE x) : RealE (broadcastInDim t dims h x) :=
  fun j => hx _
theorem realE_addf {S : Shape} (x y : FVec Ideal S .f32) (hx : RealE x) (hy : RealE y) : RealE (addf (F := Ideal) x y) :=
  fun i => real_add (hx i) (hy i)
theorem realE_mulf {S : Shape} (x y : FVec Ideal S .f32) (hx : RealE x) (hy : RealE y) : RealE (mulf (F := Ideal) x y) :=
  fun i => real_mul (hx i) (hy i)
theorem realE_subf {S : Shape} (x y : FVec Ideal S .f32) (hx : RealE x) (hy : RealE y) : RealE (subf (F := Ideal) x y) :=
  fun i => real_sub (hx i) (hy i)
theorem realE_gather {s si t : Shape} {w : Nat} (d : GatherDims s si t) (x : s.Idx → EReal)
    (idx : IVec si w) (hx : RealE x) : RealE (Host.gather d x idx) :=
  fun j => hx (d.operandIdx j idx)
theorem realE_scatterAdd {s si u : Shape} {w : Nat} (d : ScatterDims s si u)
    (x : FVec Ideal s .f32) (idx : IVec si w) (upd : FVec Ideal u .f32) (hx : RealE x) (hu : RealE upd) :
    RealE (Host.scatterAdd (F := Ideal) d x idx upd) := by
  intro i
  show ∃ r : ℝ, x i + ∑ j ∈ Finset.univ.filter (fun j => d.resultIdx? j idx = some i), upd j = r
  exact real_add (hx i) (real_sum _ _ fun j _ => hu j)
theorem realE_reduceAdd {s t u : Shape} {axes : List (Fin s.rank)} (x : FVec Ideal s .f32)
    (init : u.Idx → Ideal .f32) (h : s.ReducesTo axes t) (hu : 0 < u.numel) (hx : RealE x)
    (hi : RealE init) : RealE (Host.reduceAdd (F := Ideal) x init h hu) := by
  intro j
  show ∃ r : ℝ, init (Shape.Idx.first hu) + ∑ i ∈ Finset.univ.filter (fun i => h.drop i = j), x i = r
  exact real_add (hi _) (real_sum _ _ fun i _ => hx i)
theorem realE_dotGeneral {sl sr so : Shape} (D : DotDims sl sr so)
    (prec : Option ContractPrecision) (x : FVec Ideal sl .f32) (w : FVec Ideal sr .f32)
    (hx : RealE x) (hw : RealE w) : RealE (Host.dotGeneral (F := Ideal) D prec x w) := by
  intro j
  show ∃ r : ℝ, FloatOps.dotGeneral D prec .single x w j = r
  rw [Ideal.dotGeneral_apply]
  exact real_sum _ _ fun k _ => real_mul (hx _) (hw _)

/-- A concatenation of two arrays with real entries has real entries: every entry is an entry of a piece. -/
theorem realE_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : RealE x₁) (h₂ : RealE x₂) :
    RealE (concatenate t a [⟨s₁, x₁⟩, ⟨s₂, x₂⟩] h) := by
  have hxs : ∀ p ∈ ([⟨s₁, x₁⟩, ⟨s₂, x₂⟩] : List ((s : Shape) × (s.Idx → EReal))), RealE p.2 := by
    intro p hp
    simp only [List.mem_cons, List.not_mem_nil, or_false] at hp
    rcases hp with rfl | rfl
    · exact h₁
    · exact h₂
  intro j
  unfold concatenate
  exact hxs _ (List.getElem_mem _) _

end Cert.Lib.SignEntries

end
-- ==== Proof.RefReal.lean ====
/-
  The reference's stages have real entries when the float arguments have: one line per stage, in program order. Some
  stages are known to be more: a quotient's divisor is positive (the clamped degree, one plus an exponential, the
  node count), and each variance is nonnegative (a mean of squares), so that adding the small constant gives a
  positive number under the reciprocal square root.
-/
import proofs.«106696_j33449205301454_2_alg».proof.Proof.ReadP
import proofs.«106696_j33449205301454_2_alg».proof.Proof.LibSignEntries

noncomputable section

namespace Cert.ReferenceIdeal.RealStages

open Cert.ReferenceIdeal Idealize.ShloMosaic Cert.Lib.SignEntries

/-- Every float argument has real entries. -/
structure RealArgs (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 x10 x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 x19 x20 x21 x22 x23 x24 x25 x26 : (⟨S64, .f32⟩ : BufTy).Contents (Elt Ideal)) (x27 : (⟨S64x16, .f32⟩ : BufTy).Contents (Elt Ideal)) (x28 : (⟨S16, .f32⟩ : BufTy).Contents (Elt Ideal)) : Prop where
  h0 : RealE x0
  h2 : RealE x2
  h3 : RealE x3
  h4 : RealE x4
  h5 : RealE x5
  h6 : RealE x6
  h7 : RealE x7
  h8 : RealE x8
  h9 : RealE x9
  h10 : RealE x10
  h11 : RealE x11
  h12 : RealE x12
  h13 : RealE x13
  h14 : RealE x14
  h15 : RealE x15
  h16 : RealE x16
  h17 : RealE x17
  h18 : RealE x18
  h19 : RealE x19
  h20 : RealE x20
  h21 : RealE x21
  h22 : RealE x22
  h23 : RealE x23
  h24 : RealE x24
  h25 : RealE x25
  h26 : RealE x26
  h27 : RealE x27
  h28 : RealE x28

variable {x0 : (⟨S100000x32, .f32⟩ : BufTy).Contents (Elt Ideal)} {x1 : (⟨S2x1600000, .i32⟩ : BufTy).Contents (Elt Ideal)} {x2 : (⟨S1600000x16, .f32⟩ : BufTy).Contents (Elt Ideal)} {x3 : (⟨S32x64, .f32⟩ : BufTy).Contents (Elt Ideal)} {x4 : (⟨S64, .f32⟩ : BufTy).Contents (Elt Ideal)} {x5 : (⟨S32x64, .f32⟩ : BufTy).Contents (Elt Ideal)} {x6 : (⟨S16x64, .f32⟩ : BufTy).Contents (Elt Ideal)} {x7 : (⟨S64, .f32⟩ : BufTy).Contents (Elt Ideal)} {x8 : (⟨S128x64, .f32⟩ : BufTy).Contents (Elt Ideal)} {x9 x10 x11 : (⟨S64, .f32⟩ : BufTy).Contents (Elt Ideal)} {x12 : (⟨S64x64, .f32⟩ : BufTy).Contents (Elt Ideal)} {x13 : (⟨S64, .f32⟩ : BufTy).Contents (Elt Ideal)} {x14 : (⟨S64x64, .f32⟩ : BufTy).Contents (Elt Ideal)} {x15 : (⟨S16x64, .f32⟩ : BufTy).Contents (Elt Ideal)} {x16 : (⟨S64, .f32⟩ : BufTy).Contents (Elt Ideal)} {x17 : (⟨S128x64, .f32⟩ : BufTy).Contents (Elt Ideal)} {x18 x19 x20 x21 x22 x23 x24 x25 x26 : (⟨S64, .f32⟩ : BufTy).Contents (Elt Ideal)} {x27 : (⟨S64x16, .f32⟩ : BufTy).Contents (Elt Ideal)} {x28 : (⟨S16, .f32⟩ : BufTy).Contents (Elt Ideal)}
variable (H : RealArgs x0 x1 x2 x3 x4 x5 x6 x7 x8 x9 x10 x11 x12 x13 x14 x15 x16 x17 x18 x19 x20 x21 x22 x23 x24 x25 x26 x27 x28)
include H

theorem s_cst : PosR (Read.val_main_cst (F := Ideal)) := by
  unfold Read.val_main_cst
  exact posR_constant _ _ pos_one
theorem s_v7 : PosR (Read.val_main_v7 (F := Ideal)) := by
  unfold Read.val_main_v7
  exact posR_broadcastInDim _ _ _ _ (s_cst H)
theorem s_v8 : RealE (Read.val_main_v8 (F := Ideal) x2) := by
  unfold Read.val_main_v8
  exact realE_concatenate _ _ _ _ _ H.h2 ((s_v7 H)).real
theorem s_v9 : RealE (Read.val_main_v9 (F := Ideal) x2 x6) := by
  unfold Read.val_main_v9
  exact realE_dotGeneral _ _ _ _ (s_v8 H) H.h6
theorem s_v10 : RealE (Read.val_main_v10 (F := Ideal) x7) := by
  unfold Read.val_main_v10
  exact realE_broadcastInDim _ _ _ _ H.h7
theorem s_v11 : RealE (Read.val_main_v11 (F := Ideal) x7) := by
  unfold Read.val_main_v11
  exact realE_broadcastInDim _ _ _ _ (s_v10 H)
theorem s_v12 : RealE (Read.val_main_v12 (F := Ideal) x2 x6 x7) := by
  unfold Read.val_main_v12
  exact realE_addf _ _ (s_v9 H) (s_v11 H)
theorem s_cst_0 : PosR (Read.val_main_cst_0 (F := Ideal)) := by
  unfold Read.val_main_cst_0
  exact posR_constant _ _ pos_one
theorem s_v13 : PosR (Read.val_main_v13 (F := Ideal)) := by
  unfold Read.val_main_v13
  exact posR_broadcastInDim _ _ _ _ (s_cst_0 H)
theorem s_cst_1 : NonnegR (Read.val_main_cst_1 (F := Ideal)) := by
  unfold Read.val_main_cst_1
  exact nonnegR_constant _ _ nonneg_zero
theorem s_v14 : NonnegR (Read.val_main_v14 (F := Ideal)) := by
  unfold Read.val_main_v14
  exact nonnegR_broadcastInDim _ _ _ _ (s_cst_1 H)
theorem s_v16 : RealE (Read.val_main_v16 (F := Ideal) x1) := by
  unfold Read.val_main_v16
  exact realE_scatterAdd _ _ _ _ ((s_v14 H)).real ((s_v13 H)).real
theorem s_v23 : RealE (Read.val_main_v23 (F := Ideal) x0 x1) := by
  unfold Read.val_main_v23
  exact realE_gather _ _ _ H.h0
theorem s_cst_3 : NonnegR (Read.val_main_cst_3 (F := Ideal)) := by
  unfold Read.val_main_cst_3
  exact nonnegR_constant _ _ nonneg_zero
theorem s_v24 : NonnegR (Read.val_main_v24 (F := Ideal)) := by
  unfold Read.val_main_v24
  exact nonnegR_broadcastInDim _ _ _ _ (s_cst_3 H)
theorem s_v26 : RealE (Read.val_main_v26 (F := Ideal) x0 x1) := by
  unfold Read.val_main_v26
  exact realE_scatterAdd _ _ _ _ ((s_v24 H)).real (s_v23 H)
theorem s_cst_4 : PosR (Read.val_main_cst_4 (F := Ideal)) := by
  unfold Read.val_main_cst_4
  exact posR_constant _ _ pos_one
theorem s_v27 : PosR (Read.val_main_v27 (F := Ideal)) := by
  unfold Read.val_main_v27
  exact posR_broadcastInDim _ _ _ _ (s_cst_4 H)
theorem s_v28 : PosR (Read.val_main_v28 (F := Ideal) x1) := by
  unfold Read.val_main_v28
  exact posR_max_right _ _ (s_v16 H) (s_v27 H)
theorem s_v29 : PosR (Read.val_main_v29 (F := Ideal) x1) := by
  unfold Read.val_main_v29
  exact posR_broadcastInDim _ _ _ _ (s_v28 H)
theorem s_v30 : PosR (Read.val_main_v30 (F := Ideal) x1) := by
  unfold Read.val_main_v30
  exact posR_broadcastInDim _ _ _ _ (s_v29 H)
theorem s_v31 : RealE (Read.val_main_v31 (F := Ideal) x0 x1) := by
  unfold Read.val_main_v31
  exact realE_hostDivf _ _ (s_v26 H) (s_v30 H)
theorem s_v32 : RealE (Read.val_main_v32 (F := Ideal) x0 x1 x3) := by
  unfold Read.val_main_v32
  exact realE_dotGeneral _ _ _ _ (s_v31 H) H.h3
theorem s_v33 : RealE (Read.val_main_v33 (F := Ideal) x4) := by
  unfold Read.val_main_v33
  exact realE_broadcastInDim _ _ _ _ H.h4
theorem s_v34 : RealE (Read.val_main_v34 (F := Ideal) x4) := by
  unfold Read.val_main_v34
  exact realE_broadcastInDim _ _ _ _ (s_v33 H)
theorem s_v35 : RealE (Read.val_main_v35 (F := Ideal) x0 x1 x3 x4) := by
  unfold Read.val_main_v35
  exact realE_addf _ _ (s_v32 H) (s_v34 H)
theorem s_v36 : RealE (Read.val_main_v36 (F := Ideal) x0 x5) := by
  unfold Read.val_main_v36
  exact realE_dotGeneral _ _ _ _ H.h0 H.h5
theorem s_v37 : RealE (Read.val_main_v37 (F := Ideal) x0 x1 x3 x4 x5) := by
  unfold Read.val_main_v37
  exact realE_addf _ _ (s_v35 H) (s_v36 H)
theorem s_v44 : RealE (Read.val_main_v44 (F := Ideal) x0 x1 x3 x4 x5) := by
  unfold Read.val_main_v44
  exact realE_gather _ _ _ (s_v37 H)
theorem s_v45 : RealE (Read.val_main_v45 (F := Ideal) x0 x1 x2 x3 x4 x5 x6 x7) := by
  unfold Read.val_main_v45
  exact realE_concatenate _ _ _ _ _ (s_v44 H) (s_v12 H)
theorem s_v46 : RealE (Read.val_main_v46 (F := Ideal) x0 x1 x2 x3 x4 x5 x6 x7 x8) := by
  unfold Read.val_main_v46
  exact realE_dotGeneral _ _ _ _ (s_v45 H) H.h8
theorem s_v47 : RealE (Read.val_main_v47 (F := Ideal) x9) := by
  unfold Read.val_main_v47
  exact realE_broadcastInDim _ _ _ _ H.h9
theorem s_v48 : RealE (Read.val_main_v48 (F := Ideal) x9) := by
  unfold Read.val_main_v48
  exact realE_broadcastInDim _ _ _ _ (s_v47 H)
theorem s_v49 : RealE (Read.val_main_v49 (F := Ideal) x0 x1 x2 x3 x4 x5 x6 x7 x8 x9) := by
  unfold Read.val_main_v49
  exact realE_addf _ _ (s_v46 H) (s_v48 H)
theorem s_v50 : RealE (Read.val_main_v50 (F := Ideal) x0 x1 x2 x3 x4 x5 x6 x7 x8 x9) := by
  unfold Read.val_main_v50
  exact realE_hostNegf _ (s_v49 H)
theorem s_v51 : PosR (Read.val_main_v51 (F := Ideal) x0 x1 x2 x3 x4 x5 x6 x7 x8 x9) := by
  unfold Read.val_main_v51
  exact posR_hostExp _ (s_v50 H)
theorem s_cst_7 : PosR (Read.val_main_cst_7 (F := Ideal)) := by
  unfold Read.val_main_cst_7
  exact posR_constant _ _ pos_one
theorem s_v52 : PosR (Read.val_main_v52 (F := Ideal)) := by
  unfold Read.val_main_v52
  exact posR_broadcastInDim _ _ _ _ (s_cst_7 H)
theorem s_v53 : PosR (Read.val_main_v53 (F := Ideal) x0 x1 x2 x3 x4 x5 x6 x7 x8 x9) := by
  unfold Read.val_main_v53
  exact posR_addf _ _ (s_v52 H) (s_v51 H)
theorem s_cst_8 : PosR (Read.val_main_cst_8 (F := Ideal)) := by
  unfold Read.val_main_cst_8
  exact posR_constant _ _ pos_one
theorem s_v54 : PosR (Read.val_main_v54 (F := Ideal)) := by
  unfold Read.val_main_v54
  exact posR_broadcastInDim _ _ _ _ (s_cst_8 H)
theorem s_v55 : RealE (Read.val_main_v55 (F := Ideal) x0 x1 x2 x3 x4 x5 x6 x7 x8 x9) := by
  unfold Read.val_main_v55
  exact realE_hostDivf _ _ ((s_v54 H)).real (s_v53 H)
theorem s_v56 : RealE (Read.val_main_v56 (F := Ideal) x0 x1 x2 x3 x4 x5 x6 x7 x8 x9) := by
  unfold Read.val_main_v56
  exact realE_mulf _ _ (s_v55 H) (s_v12 H)
theorem s_cst_9 : NonnegR (Read.val_main_cst_9 (F := Ideal)) := by
  unfold Read.val_main_cst_9
  exact nonnegR_constant _ _ nonneg_zero
theorem s_v57 : NonnegR (Read.val_main_v57 (F := Ideal)) := by
  unfold Read.val_main_v57
  exact nonnegR_broadcastInDim _ _ _ _ (s_cst_9 H)
theorem s_v59 : RealE (Read.val_main_v59 (F := Ideal) x0 x1 x2 x3 x4 x5 x6 x7 x8 x9) := by
  unfold Read.val_main_v59
  exact realE_scatterAdd _ _ _ _ ((s_v57 H)).real (s_v56 H)
theorem s_v60 : RealE (Read.val_main_v60 (F := Ideal) x0 x1 x2 x3 x4 x5 x6 x7 x8 x9) := by
  unfold Read.val_main_v60
  exact realE_addf _ _ (s_v37 H) (s_v59 H)
theorem s_cst_10 : NonnegR (Read.val_main_cst_10 (F := Ideal)) := by
  unfold Read.val_main_cst_10
  exact nonnegR_constant _ _ nonneg_zero
theorem s_v61 : RealE (Read.val_main_v61 (F := Ideal) x0 x1 x2 x3 x4 x5 x6 x7 x8 x9) := by
  unfold Read.val_main_v61
  exact realE_reduceAdd _ _ _ _ (s_v60 H) ((s_cst_10 H)).real
theorem s_cst_11 : PosR (Read.val_main_cst_11 (F := Ideal)) := by
  unfold Read.val_main_cst_11
  exact posR_constant _ _ pos_1e5
theorem s_v62 : PosR (Read.val_main_v62 (F := Ideal)) := by
  unfold Read.val_main_v62
  exact posR_broadcastInDim _ _ _ _ (s_cst_11 H)
theorem s_v63 : RealE (Read.val_main_v63 (F := Ideal) x0 x1 x2 x3 x4 x5 x6 x7 x8 x9) := by
  unfold Read.val_main_v63
  exact realE_hostDivf _ _ (s_v61 H) (s_v62 H)
theorem s_v64 : RealE (Read.val_main_v64 (F := Ideal) x0 x1 x2 x3 x4 x5 x6 x7 x8 x9) := by
  unfold Read.val_main_v64
  exact realE_broadcastInDim _ _ _ _ (s_v63 H)
theorem s_v65 : RealE (Read.val_main_v65 (F := Ideal) x0 x1 x2 x3 x4 x5 x6 x7 x8 x9) := by
  unfold Read.val_main_v65
  exact realE_broadcastInDim _ _ _ _ (s_v64 H)
theorem s_v66 : RealE (Read.val_main_v66 (F := Ideal) x0 x1 x2 x3 x4 x5 x6 x7 x8 x9) := by
  unfold Read.val_main_v66
  exact realE_subf _ _ (s_v60 H) (s_v65 H)
theorem s_v67 : NonnegR (Read.val_main_v67 (F := Ideal) x0 x1 x2 x3 x4 x5 x6 x7 x8 x9) := by
  unfold Read.val_main_v67
  exact nonnegR_mul_self _ (s_v66 H)
theorem s_cst_12 : NonnegR (Read.val_main_cst_12 (F := Ideal)) := by
  unfold Read.val_main_cst_12
  exact nonnegR_constant _ _ nonneg_zero
theorem s_v68 : NonnegR (Read.val_main_v68 (F := Ideal) x0 x1 x2 x3 x4 x5 x6 x7 x8 x9) := by
  unfold Read.val_main_v68
  exact nonnegR_reduceAdd _ _ _ _ (s_v67 H) (s_cst_12 H)
theorem s_cst_13 : PosR (Read.val_main_cst_13 (F := Ideal)) := by
  unfold Read.val_main_cst_13
  exact posR_constant _ _ pos_1e5
theorem s_v69 : PosR (Read.val_main_v69 (F := Ideal)) := by
  unfold Read.val_main_v69
  exact posR_broadcastInDim _ _ _ _ (s_cst_13 H)
theorem s_v70 : NonnegR (Read.val_main_v70 (F := Ideal) x0 x1 x2 x3 x4 x5 x6 x7 x8 x9) := by
  unfold Read.val_main_v70
  exact nonnegR_hostDivf _ _ (s_v68 H) (s_v69 H)
theorem s_v71 : RealE (Read.val_main_v71 (F := Ideal) x0 x1 x2 x3 x4 x5 x6 x7 x8 x9) := by
  unfold Read.val_main_v71
  exact realE_broadcastInDim _ _ _ _ (s_v63 H)
theorem s_v72 : RealE (Read.val_main_v72 (F := Ideal) x0 x1 x2 x3 x4 x5 x6 x7 x8 x9) := by
  unfold Read.val_main_v72
  exact realE_broadcastInDim _ _ _ _ (s_v71 H)
theorem s_v73 : RealE (Read.val_main_v73 (F := Ideal) x0 x1 x2 x3 x4 x5 x6 x7 x8 x9) := by
  unfold Read.val_main_v73
  exact realE_subf _ _ (s_v60 H) (s_v72 H)
theorem s_v74 : RealE (Read.val_main_v74 (F := Ideal) x10) := by
  unfold Read.val_main_v74
  exact realE_broadcastInDim _ _ _ _ H.h10
theorem s_v75 : RealE (Read.val_main_v75 (F := Ideal) x10) := by
  unfold Read.val_main_v75
  exact realE_broadcastInDim _ _ _ _ (s_v74 H)
theorem s_v76 : RealE (Read.val_main_v76 (F := Ideal) x0 x1 x2 x3 x4 x5 x6 x7 x8 x9 x10) := by
  unfold Read.val_main_v76
  exact realE_mulf _ _ (s_v75 H) (s_v73 H)
theorem s_cst_14 : PosR (Read.val_main_cst_14 (F := Ideal)) := by
  unfold Read.val_main_cst_14
  exact posR_constant _ _ ofBits_eps
theorem s_v77 : PosR (Read.val_main_v77 (F := Ideal)) := by
  unfold Read.val_main_v77
  exact posR_broadcastInDim _ _ _ _ (s_cst_14 H)
theorem s_v78 : PosR (Read.val_main_v78 (F := Ideal) x0 x1 x2 x3 x4 x5 x6 x7 x8 x9) := by
  unfold Read.val_main_v78
  exact posR_addf_nonneg _ _ (s_v70 H) (s_v77 H)
theorem s_v79 : RealE (Read.val_main_v79 (F := Ideal) x0 x1 x2 x3 x4 x5 x6 x7 x8 x9) := by
  unfold Read.val_main_v79
  exact realE_hostRsqrt _ (s_v78 H)
theorem s_v80 : RealE (Read.val_main_v80 (F := Ideal) x0 x1 x2 x3 x4 x5 x6 x7 x8 x9) := by
  unfold Read.val_main_v80
  exact realE_broadcastInDim _ _ _ _ (s_v79 H)
theorem s_v81 : RealE (Read.val_main_v81 (F := Ideal) x0 x1 x2 x3 x4 x5 x6 x7 x8 x9) := by
  unfold Read.val_main_v81
  exact realE_broadcastInDim _ _ _ _ (s_v80 H)
theorem s_v82 : RealE (Read.val_main_v82 (F := Ideal) x0 x1 x2 x3 x4 x5 x6 x7 x8 x9 x10) := by
  unfold Read.val_main_v82
  exact realE_mulf _ _ (s_v76 H) (s_v81 H)
theorem s_v83 : RealE (Read.val_main_v83 (F := Ideal) x11) := by
  unfold Read.val_main_v83
  exact realE_broadcastInDim _ _ _ _ H.h11
theorem s_v84 : RealE (Read.val_main_v84 (F := Ideal) x11) := by
  unfold Read.val_main_v84
  exact realE_broadcastInDim _ _ _ _ (s_v83 H)
theorem s_v85 : RealE (Read.val_main_v85 (F := Ideal) x0 x1 x2 x3 x4 x5 x6 x7 x8 x9 x10 x11) := by
  unfold Read.val_main_v85
  exact realE_addf _ _ (s_v82 H) (s_v84 H)
theorem s_cst_15 : PosR (Read.val_main_cst_15 (F := Ideal)) := by
  unfold Read.val_main_cst_15
  exact posR_constant _ _ pos_two
theorem s_v86 : PosR (Read.val_main_v86 (F := Ideal)) := by
  unfold Read.val_main_v86
  exact posR_broadcastInDim _ _ _ _ (s_cst_15 H)
theorem s_v87 : RealE (Read.val_main_v87 (F := Ideal) x0 x1 x2 x3 x4 x5 x6 x7 x8 x9 x10 x11) := by
  unfold Read.val_main_v87
  exact realE_mulf _ _ ((s_v86 H)).real (s_v85 H)
theorem s_call0_cst : NonnegR (Read.val_main_call0_cst (F := Ideal)) := by
  unfold Read.val_main_call0_cst
  exact nonnegR_constant _ _ nonneg_zero
theorem s_call0_v0 : NonnegR (Read.val_main_call0_v0 (F := Ideal)) := by
  unfold Read.val_main_call0_v0
  exact nonnegR_broadcastInDim _ _ _ _ (s_call0_cst H)
theorem s_v88 : RealE (Read.val_main_v88 (F := Ideal) x0 x1 x2 x3 x4 x5 x6 x7 x8 x9 x10 x11) := by
  unfold Read.val_main_v88
  exact realE_max _ _ (s_v87 H) ((s_call0_v0 H)).real
theorem s_call1_cst : NonnegR (Read.val_main_call1_cst (F := Ideal)) := by
  unfold Read.val_main_call1_cst
  exact nonnegR_constant _ _ nonneg_zero
theorem s_call1_v0 : NonnegR (Read.val_main_call1_v0 (F := Ideal)) := by
  unfold Read.val_main_call1_v0
  exact nonnegR_broadcastInDim _ _ _ _ (s_call1_cst H)
theorem s_v89 : RealE (Read.val_main_v89 (F := Ideal) x0 x1 x2 x3 x4 x5 x6 x7 x8 x9 x10 x11) := by
  unfold Read.val_main_v89
  exact realE_max _ _ (s_v88 H) ((s_call1_v0 H)).real
theorem s_cst_16 : NonnegR (Read.val_main_cst_16 (F := Ideal)) := by
  unfold Read.val_main_cst_16
  exact nonnegR_constant _ _ nonneg_zero
theorem s_v90 : RealE (Read.val_main_v90 (F := Ideal) x0 x1 x2 x3 x4 x5 x6 x7 x8 x9 x10 x11) := by
  unfold Read.val_main_v90
  exact realE_reduceAdd _ _ _ _ (s_v89 H) ((s_cst_16 H)).real
theorem s_cst_17 : PosR (Read.val_main_cst_17 (F := Ideal)) := by
  unfold Read.val_main_cst_17
  exact posR_constant _ _ pos_1e5
theorem s_v91 : PosR (Read.val_main_v91 (F := Ideal)) := by
  unfold Read.val_main_v91
  exact posR_broadcastInDim _ _ _ _ (s_cst_17 H)
theorem s_v92 : RealE (Read.val_main_v92 (F := Ideal) x0 x1 x2 x3 x4 x5 x6 x7 x8 x9 x10 x11) := by
  unfold Read.val_main_v92
  exact realE_hostDivf _ _ (s_v90 H) (s_v91 H)
theorem s_v93 : RealE (Read.val_main_v93 (F := Ideal) x0 x1 x2 x3 x4 x5 x6 x7 x8 x9 x10 x11 x23) := by
  unfold Read.val_main_v93
  exact realE_mulf _ _ H.h23 (s_v92 H)
theorem s_v94 : RealE (Read.val_main_v94 (F := Ideal) x0 x1 x2 x3 x4 x5 x6 x7 x8 x9 x10 x11 x23) := by
  unfold Read.val_main_v94
  exact realE_broadcastInDim _ _ _ _ (s_v93 H)
theorem s_v95 : RealE (Read.val_main_v95 (F := Ideal) x0 x1 x2 x3 x4 x5 x6 x7 x8 x9 x10 x11 x23) := by
  unfold Read.val_main_v95
  exact realE_broadcastInDim _ _ _ _ (s_v94 H)
theorem s_v96 : RealE (Read.val_main_v96 (F := Ideal) x0 x1 x2 x3 x4 x5 x6 x7 x8 x9 x10 x11 x23) := by
  unfold Read.val_main_v96
  exact realE_subf _ _ (s_v89 H) (s_v95 H)
theorem s_v97 : NonnegR (Read.val_main_v97 (F := Ideal) x0 x1 x2 x3 x4 x5 x6 x7 x8 x9 x10 x11 x23) := by
  unfold Read.val_main_v97
  exact nonnegR_mul_self _ (s_v96 H)
theorem s_cst_18 : NonnegR (Read.val_main_cst_18 (F := Ideal)) := by
  unfold Read.val_main_cst_18
  exact nonnegR_constant _ _ nonneg_zero
theorem s_v98 : NonnegR (Read.val_main_v98 (F := Ideal) x0 x1 x2 x3 x4 x5 x6 x7 x8 x9 x10 x11 x23) := by
  unfold Read.val_main_v98
  exact nonnegR_reduceAdd _ _ _ _ (s_v97 H) (s_cst_18 H)
theorem s_cst_19 : PosR (Read.val_main_cst_19 (F := Ideal)) := by
  unfold Read.val_main_cst_19
  exact posR_constant _ _ pos_1e5
theorem s_v99 : PosR (Read.val_main_v99 (F := Ideal)) := by
  unfold Read.val_main_v99
  exact posR_broadcastInDim _ _ _ _ (s_cst_19 H)
theorem s_v100 : NonnegR (Read.val_main_v100 (F := Ideal) x0 x1 x2 x3 x4 x5 x6 x7 x8 x9 x10 x11 x23) := by
  unfold Read.val_main_v100
  exact nonnegR_hostDivf _ _ (s_v98 H) (s_v99 H)
theorem s_v101 : RealE (Read.val_main_v101 (F := Ideal) x21) := by
  unfold Read.val_main_v101
  exact realE_broadcastInDim _ _ _ _ H.h21
theorem s_v102 : RealE (Read.val_main_v102 (F := Ideal) x21) := by
  unfold Read.val_main_v102
  exact realE_broadcastInDim _ _ _ _ (s_v101 H)
theorem s_v103 : RealE (Read.val_main_v103 (F := Ideal) x0 x1 x2 x3 x4 x5 x6 x7 x8 x9 x10 x11 x21 x23) := by
  unfold Read.val_main_v103
  exact realE_mulf _ _ (s_v102 H) (s_v96 H)
theorem s_cst_20 : PosR (Read.val_main_cst_20 (F := Ideal)) := by
  unfold Read.val_main_cst_20
  exact posR_constant _ _ ofBits_eps
theorem s_v104 : PosR (Read.val_main_v104 (F := Ideal)) := by
  unfold Read.val_main_v104
  exact posR_broadcastInDim _ _ _ _ (s_cst_20 H)
theorem s_v105 : PosR (Read.val_main_v105 (F := Ideal) x0 x1 x2 x3 x4 x5 x6 x7 x8 x9 x10 x11 x23) := by
  unfold Read.val_main_v105
  exact posR_addf_nonneg _ _ (s_v100 H) (s_v104 H)
theorem s_v106 : RealE (Read.val_main_v106 (F := Ideal) x0 x1 x2 x3 x4 x5 x6 x7 x8 x9 x10 x11 x23) := by
  unfold Read.val_main_v106
  exact realE_hostRsqrt _ (s_v105 H)
theorem s_v107 : RealE (Read.val_main_v107 (F := Ideal) x0 x1 x2 x3 x4 x5 x6 x7 x8 x9 x10 x11 x23) := by
  unfold Read.val_main_v107
  exact realE_broadcastInDim _ _ _ _ (s_v106 H)
theorem s_v108 : RealE (Read.val_main_v108 (F := Ideal) x0 x1 x2 x3 x4 x5 x6 x7 x8 x9 x10 x11 x23) := by
  unfold Read.val_main_v108
  exact realE_broadcastInDim _ _ _ _ (s_v107 H)
theorem s_v109 : RealE (Read.val_main_v109 (F := Ideal) x0 x1 x2 x3 x4 x5 x6 x7 x8 x9 x10 x11 x21 x23) := by
  unfold Read.val_main_v109
  exact realE_mulf _ _ (s_v103 H) (s_v108 H)
theorem s_v110 : RealE (Read.val_main_v110 (F := Ideal) x22) := by
  unfold Read.val_main_v110
  exact realE_broadcastInDim _ _ _ _ H.h22
theorem s_v111 : RealE (Read.val_main_v111 (F := Ideal) x22) := by
  unfold Read.val_main_v111
  exact realE_broadcastInDim _ _ _ _ (s_v110 H)
theorem s_v112 : RealE (Read.val_main_v112 (F := Ideal) x0 x1 x2 x3 x4 x5 x6 x7 x8 x9 x10 x11 x21 x22 x23) := by
  unfold Read.val_main_v112
  exact realE_addf _ _ (s_v109 H) (s_v111 H)
theorem s_call2_cst : NonnegR (Read.val_main_call2_cst (F := Ideal)) := by
  unfold Read.val_main_call2_cst
  exact nonnegR_constant _ _ nonneg_zero
theorem s_call2_v0 : NonnegR (Read.val_main_call2_v0 (F := Ideal)) := by
  unfold Read.val_main_call2_v0
  exact nonnegR_broadcastInDim _ _ _ _ (s_call2_cst H)
theorem s_v113 : RealE (Read.val_main_v113 (F := Ideal) x0 x1 x2 x3 x4 x5 x6 x7 x8 x9 x10 x11 x21 x22 x23) := by
  unfold Read.val_main_v113
  exact realE_max _ _ (s_v112 H) ((s_call2_v0 H)).real
theorem s_v114 : RealE (Read.val_main_v114 (F := Ideal) x2 x15) := by
  unfold Read.val_main_v114
  exact realE_dotGeneral _ _ _ _ (s_v8 H) H.h15
theorem s_v115 : RealE (Read.val_main_v115 (F := Ideal) x16) := by
  unfold Read.val_main_v115
  exact realE_broadcastInDim _ _ _ _ H.h16
theorem s_v116 : RealE (Read.val_main_v116 (F := Ideal) x16) := by
  unfold Read.val_main_v116
  exact realE_broadcastInDim _ _ _ _ (s_v115 H)
theorem s_v117 : RealE (Read.val_main_v117 (F := Ideal) x2 x15 x16) := by
  unfold Read.val_main_v117
  exact realE_addf _ _ (s_v114 H) (s_v116 H)
theorem s_cst_21 : PosR (Read.val_main_cst_21 (F := Ideal)) := by
  unfold Read.val_main_cst_21
  exact posR_constant _ _ pos_one
theorem s_v118 : PosR (Read.val_main_v118 (F := Ideal)) := by
  unfold Read.val_main_v118
  exact posR_broadcastInDim _ _ _ _ (s_cst_21 H)
theorem s_cst_22 : NonnegR (Read.val_main_cst_22 (F := Ideal)) := by
  unfold Read.val_main_cst_22
  exact nonnegR_constant _ _ nonneg_zero
theorem s_v119 : NonnegR (Read.val_main_v119 (F := Ideal)) := by
  unfold Read.val_main_v119
  exact nonnegR_broadcastInDim _ _ _ _ (s_cst_22 H)
theorem s_v121 : RealE (Read.val_main_v121 (F := Ideal) x1) := by
  unfold Read.val_main_v121
  exact realE_scatterAdd _ _ _ _ ((s_v119 H)).real ((s_v118 H)).real
theorem s_v128 : RealE (Read.val_main_v128 (F := Ideal) x0 x1 x2 x3 x4 x5 x6 x7 x8 x9 x10 x11 x21 x22 x23) := by
  unfold Read.val_main_v128
  exact realE_gather _ _ _ (s_v113 H)
theorem s_cst_25 : NonnegR (Read.val_main_cst_25 (F := Ideal)) := by
  unfold Read.val_main_cst_25
  exact nonnegR_constant _ _ nonneg_zero
theorem s_v129 : NonnegR (Read.val_main_v129 (F := Ideal)) := by
  unfold Read.val_main_v129
  exact nonnegR_broadcastInDim _ _ _ _ (s_cst_25 H)
theorem s_v131 : RealE (Read.val_main_v131 (F := Ideal) x0 x1 x2 x3 x4 x5 x6 x7 x8 x9 x10 x11 x21 x22 x23) := by
  unfold Read.val_main_v131
  exact realE_scatterAdd _ _ _ _ ((s_v129 H)).real (s_v128 H)
theorem s_cst_26 : PosR (Read.val_main_cst_26 (F := Ideal)) := by
  unfold Read.val_main_cst_26
  exact posR_constant _ _ pos_one
theorem s_v132 : PosR (Read.val_main_v132 (F := Ideal)) := by
  unfold Read.val_main_v132
  exact posR_broadcastInDim _ _ _ _ (s_cst_26 H)
theorem s_v133 : PosR (Read.val_main_v133 (F := Ideal) x1) := by
  unfold Read.val_main_v133
  exact posR_max_right _ _ (s_v121 H) (s_v132 H)
theorem s_v134 : PosR (Read.val_main_v134 (F := Ideal) x1) := by
  unfold Read.val_main_v134
  exact posR_broadcastInDim _ _ _ _ (s_v133 H)
theorem s_v135 : PosR (Read.val_main_v135 (F := Ideal) x1) := by
  unfold Read.val_main_v135
  exact posR_broadcastInDim _ _ _ _ (s_v134 H)
theorem s_v136 : RealE (Read.val_main_v136 (F := Ideal) x0 x1 x2 x3 x4 x5 x6 x7 x8 x9 x10 x11 x21 x22 x23) := by
  unfold Read.val_main_v136
  exact realE_hostDivf _ _ (s_v131 H) (s_v135 H)
theorem s_v137 : RealE (Read.val_main_v137 (F := Ideal) x0 x1 x2 x3 x4 x5 x6 x7 x8 x9 x10 x11 x12 x21 x22 x23) := by
  unfold Read.val_main_v137
  exact realE_dotGeneral _ _ _ _ (s_v136 H) H.h12
theorem s_v138 : RealE (Read.val_main_v138 (F := Ideal) x13) := by
  unfold Read.val_main_v138
  exact realE_broadcastInDim _ _ _ _ H.h13
theorem s_v139 : RealE (Read.val_main_v139 (F := Ideal) x13) := by
  unfold Read.val_main_v139
  exact realE_broadcastInDim _ _ _ _ (s_v138 H)
theorem s_v140 : RealE (Read.val_main_v140 (F := Ideal) x0 x1 x2 x3 x4 x5 x6 x7 x8 x9 x10 x11 x12 x13 x21 x22 x23) := by
  unfold Read.val_main_v140
  exact realE_addf _ _ (s_v137 H) (s_v139 H)
theorem s_v141 : RealE (Read.val_main_v141 (F := Ideal) x0 x1 x2 x3 x4 x5 x6 x7 x8 x9 x10 x11 x14 x21 x22 x23) := by
  unfold Read.val_main_v141
  exact realE_dotGeneral _ _ _ _ (s_v113 H) H.h14
theorem s_v142 : RealE (Read.val_main_v142 (F := Ideal) x0 x1 x2 x3 x4 x5 x6 x7 x8 x9 x10 x11 x12 x13 x14 x21 x22 x23) := by
  unfold Read.val_main_v142
  exact realE_addf _ _ (s_v140 H) (s_v141 H)
theorem s_v149 : RealE (Read.val_main_v149 (F := Ideal) x0 x1 x2 x3 x4 x5 x6 x7 x8 x9 x10 x11 x12 x13 x14 x21 x22 x23) := by
  unfold Read.val_main_v149
  exact realE_gather _ _ _ (s_v142 H)
theorem s_v150 : RealE (Read.val_main_v150 (F := Ideal) x0 x1 x2 x3 x4 x5 x6 x7 x8 x9 x10 x11 x12 x13 x14 x15 x16 x21 x22 x23) := by
  unfold Read.val_main_v150
  exact realE_concatenate _ _ _ _ _ (s_v149 H) (s_v117 H)
theorem s_v151 : RealE (Read.val_main_v151 (F := Ideal) x0 x1 x2 x3 x4 x5 x6 x7 x8 x9 x10 x11 x12 x13 x14 x15 x16 x17 x21 x22 x23) := by
  unfold Read.val_main_v151
  exact realE_dotGeneral _ _ _ _ (s_v150 H) H.h17
theorem s_v152 : RealE (Read.val_main_v152 (F := Ideal) x18) := by
  unfold Read.val_main_v152
  exact realE_broadcastInDim _ _ _ _ H.h18
theorem s_v153 : RealE (Read.val_main_v153 (F := Ideal) x18) := by
  unfold Read.val_main_v153
  exact realE_broadcastInDim _ _ _ _ (s_v152 H)
theorem s_v154 : RealE (Read.val_main_v154 (F := Ideal) x0 x1 x2 x3 x4 x5 x6 x7 x8 x9 x10 x11 x12 x13 x14 x15 x16 x17 x18 x21 x22 x23) := by
  unfold Read.val_main_v154
  exact realE_addf _ _ (s_v151 H) (s_v153 H)
theorem s_v155 : RealE (Read.val_main_v155 (F := Ideal) x0 x1 x2 x3 x4 x5 x6 x7 x8 x9 x10 x11 x12 x13 x14 x15 x16 x17 x18 x21 x22 x23) := by
  unfold Read.val_main_v155
  exact realE_hostNegf _ (s_v154 H)
theorem s_v156 : PosR (Read.val_main_v156 (F := Ideal) x0 x1 x2 x3 x4 x5 x6 x7 x8 x9 x10 x11 x12 x13 x14 x15 x16 x17 x18 x21 x22 x23) := by
  unfold Read.val_main_v156
  exact posR_hostExp _ (s_v155 H)
theorem s_cst_29 : PosR (Read.val_main_cst_29 (F := Ideal)) := by
  unfold Read.val_main_cst_29
  exact posR_constant _ _ pos_one
theorem s_v157 : PosR (Read.val_main_v157 (F := Ideal)) := by
  unfold Read.val_main_v157
  exact posR_broadcastInDim _ _ _ _ (s_cst_29 H)
theorem s_v158 : PosR (Read.val_main_v158 (F := Ideal) x0 x1 x2 x3 x4 x5 x6 x7 x8 x9 x10 x11 x12 x13 x14 x15 x16 x17 x18 x21 x22 x23) := by
  unfold Read.val_main_v158
  exact posR_addf _ _ (s_v157 H) (s_v156 H)
theorem s_cst_30 : PosR (Read.val_main_cst_30 (F := Ideal)) := by
  unfold Read.val_main_cst_30
  exact posR_constant _ _ pos_one
theorem s_v159 : PosR (Read.val_main_v159 (F := Ideal)) := by
  unfold Read.val_main_v159
  exact posR_broadcastInDim _ _ _ _ (s_cst_30 H)
theorem s_v160 : RealE (Read.val_main_v160 (F := Ideal) x0 x1 x2 x3 x4 x5 x6 x7 x8 x9 x10 x11 x12 x13 x14 x15 x16 x17 x18 x21 x22 x23) := by
  unfold Read.val_main_v160
  exact realE_hostDivf _ _ ((s_v159 H)).real (s_v158 H)
theorem s_v161 : RealE (Read.val_main_v161 (F := Ideal) x0 x1 x2 x3 x4 x5 x6 x7 x8 x9 x10 x11 x12 x13 x14 x15 x16 x17 x18 x21 x22 x23) := by
  unfold Read.val_main_v161
  exact realE_mulf _ _ (s_v160 H) (s_v117 H)
theorem s_cst_31 : NonnegR (Read.val_main_cst_31 (F := Ideal)) := by
  unfold Read.val_main_cst_31
  exact nonnegR_constant _ _ nonneg_zero
theorem s_v162 : NonnegR (Read.val_main_v162 (F := Ideal)) := by
  unfold Read.val_main_v162
  exact nonnegR_broadcastInDim _ _ _ _ (s_cst_31 H)
theorem s_v164 : RealE (Read.val_main_v164 (F := Ideal) x0 x1 x2 x3 x4 x5 x6 x7 x8 x9 x10 x11 x12 x13 x14 x15 x16 x17 x18 x21 x22 x23) := by
  unfold Read.val_main_v164
  exact realE_scatterAdd _ _ _ _ ((s_v162 H)).real (s_v161 H)
theorem s_v165 : RealE (Read.val_main_v165 (F := Ideal) x0 x1 x2 x3 x4 x5 x6 x7 x8 x9 x10 x11 x12 x13 x14 x15 x16 x17 x18 x21 x22 x23) := by
  unfold Read.val_main_v165
  exact realE_addf _ _ (s_v142 H) (s_v164 H)
theorem s_cst_32 : NonnegR (Read.val_main_cst_32 (F := Ideal)) := by
  unfold Read.val_main_cst_32
  exact nonnegR_constant _ _ nonneg_zero
theorem s_v166 : RealE (Read.val_main_v166 (F := Ideal) x0 x1 x2 x3 x4 x5 x6 x7 x8 x9 x10 x11 x12 x13 x14 x15 x16 x17 x18 x21 x22 x23) := by
  unfold Read.val_main_v166
  exact realE_reduceAdd _ _ _ _ (s_v165 H) ((s_cst_32 H)).real
theorem s_cst_33 : PosR (Read.val_main_cst_33 (F := Ideal)) := by
  unfold Read.val_main_cst_33
  exact posR_constant _ _ pos_1e5
theorem s_v167 : PosR (Read.val_main_v167 (F := Ideal)) := by
  unfold Read.val_main_v167
  exact posR_broadcastInDim _ _ _ _ (s_cst_33 H)
theorem s_v168 : RealE (Read.val_main_v168 (F := Ideal) x0 x1 x2 x3 x4 x5 x6 x7 x8 x9 x10 x11 x12 x13 x14 x15 x16 x17 x18 x21 x22 x23) := by
  unfold Read.val_main_v168
  exact realE_hostDivf _ _ (s_v166 H) (s_v167 H)
theorem s_v169 : RealE (Read.val_main_v169 (F := Ideal) x0 x1 x2 x3 x4 x5 x6 x7 x8 x9 x10 x11 x12 x13 x14 x15 x16 x17 x18 x21 x22 x23) := by
  unfold Read.val_main_v169
  exact realE_broadcastInDim _ _ _ _ (s_v168 H)
theorem s_v170 : RealE (Read.val_main_v170 (F := Ideal) x0 x1 x2 x3 x4 x5 x6 x7 x8 x9 x10 x11 x12 x13 x14 x15 x16 x17 x18 x21 x22 x23) := by
  unfold Read.val_main_v170
  exact realE_broadcastInDim _ _ _ _ (s_v169 H)
theorem s_v171 : RealE (Read.val_main_v171 (F := Ideal) x0 x1 x2 x3 x4 x5 x6 x7 x8 x9 x10 x11 x12 x13 x14 x15 x16 x17 x18 x21 x22 x23) := by
  unfold Read.val_main_v171
  exact realE_subf _ _ (s_v165 H) (s_v170 H)
theorem s_v172 : NonnegR (Read.val_main_v172 (F := Ideal) x0 x1 x2 x3 x4 x5 x6 x7 x8 x9 x10 x11 x12 x13 x14 x15 x16 x17 x18 x21 x22 x23) := by
  unfold Read.val_main_v172
  exact nonnegR_mul_self _ (s_v171 H)
theorem s_cst_34 : NonnegR (Read.val_main_cst_34 (F := Ideal)) := by
  unfold Read.val_main_cst_34
  exact nonnegR_constant _ _ nonneg_zero
theorem s_v173 : NonnegR (Read.val_main_v173 (F := Ideal) x0 x1 x2 x3 x4 x5 x6 x7 x8 x9 x10 x11 x12 x13 x14 x15 x16 x17 x18 x21 x22 x23) := by
  unfold Read.val_main_v173
  exact nonnegR_reduceAdd _ _ _ _ (s_v172 H) (s_cst_34 H)
theorem s_cst_35 : PosR (Read.val_main_cst_35 (F := Ideal)) := by
  unfold Read.val_main_cst_35
  exact posR_constant _ _ pos_1e5
theorem s_v174 : PosR (Read.val_main_v174 (F := Ideal)) := by
  unfold Read.val_main_v174
  exact posR_broadcastInDim _ _ _ _ (s_cst_35 H)
theorem s_v175 : NonnegR (Read.val_main_v175 (F := Ideal) x0 x1 x2 x3 x4 x5 x6 x7 x8 x9 x10 x11 x12 x13 x14 x15 x16 x17 x18 x21 x22 x23) := by
  unfold Read.val_main_v175
  exact nonnegR_hostDivf _ _ (s_v173 H) (s_v174 H)
theorem s_v176 : RealE (Read.val_main_v176 (F := Ideal) x0 x1 x2 x3 x4 x5 x6 x7 x8 x9 x10 x11 x12 x13 x14 x15 x16 x17 x18 x21 x22 x23) := by
  unfold Read.val_main_v176
  exact realE_broadcastInDim _ _ _ _ (s_v168 H)
theorem s_v177 : RealE (Read.val_main_v177 (F := Ideal) x0 x1 x2 x3 x4 x5 x6 x7 x8 x9 x10 x11 x12 x13 x14 x15 x16 x17 x18 x21 x22 x23) := by
  unfold Read.val_main_v177
  exact realE_broadcastInDim _ _ _ _ (s_v176 H)
theorem s_v178 : RealE (Read.val_main_v178 (F := Ideal) x0 x1 x2 x3 x4 x5 x6 x7 x8 x9 x10 x11 x12 x13 x14 x15 x16 x17 x18 x21 x22 x23) := by
  unfold Read.val_main_v178
  exact realE_subf _ _ (s_v165 H) (s_v177 H)
theorem s_v179 : RealE (Read.val_main_v179 (F := Ideal) x19) := by
  unfold Read.val_main_v179
  exact realE_broadcastInDim _ _ _ _ H.h19
theorem s_v180 : RealE (Read.val_main_v180 (F := Ideal) x19) := by
  unfold Read.val_main_v180
  exact realE_broadcastInDim _ _ _ _ (s_v179 H)
theorem s_v181 : RealE (Read.val_main_v181 (F := Ideal) x0 x1 x2 x3 x4 x5 x6 x7 x8 x9 x10 x11 x12 x13 x14 x15 x16 x17 x18 x19 x21 x22 x23) := by
  unfold Read.val_main_v181
  exact realE_mulf _ _ (s_v180 H) (s_v178 H)
theorem s_cst_36 : PosR (Read.val_main_cst_36 (F := Ideal)) := by
  unfold Read.val_main_cst_36
  exact posR_constant _ _ ofBits_eps
theorem s_v182 : PosR (Read.val_main_v182 (F := Ideal)) := by
  unfold Read.val_main_v182
  exact posR_broadcastInDim _ _ _ _ (s_cst_36 H)
theorem s_v183 : PosR (Read.val_main_v183 (F := Ideal) x0 x1 x2 x3 x4 x5 x6 x7 x8 x9 x10 x11 x12 x13 x14 x15 x16 x17 x18 x21 x22 x23) := by
  unfold Read.val_main_v183
  exact posR_addf_nonneg _ _ (s_v175 H) (s_v182 H)
theorem s_v184 : RealE (Read.val_main_v184 (F := Ideal) x0 x1 x2 x3 x4 x5 x6 x7 x8 x9 x10 x11 x12 x13 x14 x15 x16 x17 x18 x21 x22 x23) := by
  unfold Read.val_main_v184
  exact realE_hostRsqrt _ (s_v183 H)
theorem s_v185 : RealE (Read.val_main_v185 (F := Ideal) x0 x1 x2 x3 x4 x5 x6 x7 x8 x9 x10 x11 x12 x13 x14 x15 x16 x17 x18 x21 x22 x23) := by
  unfold Read.val_main_v185
  exact realE_broadcastInDim _ _ _ _ (s_v184 H)
theorem s_v186 : RealE (Read.val_main_v186 (F := Ideal) x0 x1 x2 x3 x4 x5 x6 x7 x8 x9 x10 x11 x12 x13 x14 x15 x16 x17 x18 x21 x22 x23) := by
  unfold Read.val_main_v186
  exact realE_broadcastInDim _ _ _ _ (s_v185 H)
theorem s_v187 : RealE (Read.val_main_v187 (F := Ideal) x0 x1 x2 x3 x4 x5 x6 x7 x8 x9 x10 x11 x12 x13 x14 x15 x16 x17 x18 x19 x21 x22 x23) := by
  unfold Read.val_main_v187
  exact realE_mulf _ _ (s_v181 H) (s_v186 H)
theorem s_v188 : RealE (Read.val_main_v188 (F := Ideal) x20) := by
  unfold Read.val_main_v188
  exact realE_broadcastInDim _ _ _ _ H.h20
theorem s_v189 : RealE (Read.val_main_v189 (F := Ideal) x20) := by
  unfold Read.val_main_v189
  exact realE_broadcastInDim _ _ _ _ (s_v188 H)
theorem s_v190 : RealE (Read.val_main_v190 (F := Ideal) x0 x1 x2 x3 x4 x5 x6 x7 x8 x9 x10 x11 x12 x13 x14 x15 x16 x17 x18 x19 x20 x21 x22 x23) := by
  unfold Read.val_main_v190
  exact realE_addf _ _ (s_v187 H) (s_v189 H)
theorem s_cst_37 : PosR (Read.val_main_cst_37 (F := Ideal)) := by
  unfold Read.val_main_cst_37
  exact posR_constant _ _ pos_two
theorem s_v191 : PosR (Read.val_main_v191 (F := Ideal)) := by
  unfold Read.val_main_v191
  exact posR_broadcastInDim _ _ _ _ (s_cst_37 H)
theorem s_v192 : RealE (Read.val_main_v192 (F := Ideal) x0 x1 x2 x3 x4 x5 x6 x7 x8 x9 x10 x11 x12 x13 x14 x15 x16 x17 x18 x19 x20 x21 x22 x23) := by
  unfold Read.val_main_v192
  exact realE_mulf _ _ ((s_v191 H)).real (s_v190 H)
theorem s_call3_cst : NonnegR (Read.val_main_call3_cst (F := Ideal)) := by
  unfold Read.val_main_call3_cst
  exact nonnegR_constant _ _ nonneg_zero
theorem s_call3_v0 : NonnegR (Read.val_main_call3_v0 (F := Ideal)) := by
  unfold Read.val_main_call3_v0
  exact nonnegR_broadcastInDim _ _ _ _ (s_call3_cst H)
theorem s_v193 : RealE (Read.val_main_v193 (F := Ideal) x0 x1 x2 x3 x4 x5 x6 x7 x8 x9 x10 x11 x12 x13 x14 x15 x16 x17 x18 x19 x20 x21 x22 x23) := by
  unfold Read.val_main_v193
  exact realE_max _ _ (s_v192 H) ((s_call3_v0 H)).real
theorem s_call4_cst : NonnegR (Read.val_main_call4_cst (F := Ideal)) := by
  unfold Read.val_main_call4_cst
  exact nonnegR_constant _ _ nonneg_zero
theorem s_call4_v0 : NonnegR (Read.val_main_call4_v0 (F := Ideal)) := by
  unfold Read.val_main_call4_v0
  exact nonnegR_broadcastInDim _ _ _ _ (s_call4_cst H)
theorem s_v194 : RealE (Read.val_main_v194 (F := Ideal) x0 x1 x2 x3 x4 x5 x6 x7 x8 x9 x10 x11 x12 x13 x14 x15 x16 x17 x18 x19 x20 x21 x22 x23) := by
  unfold Read.val_main_v194
  exact realE_max _ _ (s_v193 H) ((s_call4_v0 H)).real
theorem s_cst_38 : NonnegR (Read.val_main_cst_38 (F := Ideal)) := by
  unfold Read.val_main_cst_38
  exact nonnegR_constant _ _ nonneg_zero
theorem s_v195 : RealE (Read.val_main_v195 (F := Ideal) x0 x1 x2 x3 x4 x5 x6 x7 x8 x9 x10 x11 x12 x13 x14 x15 x16 x17 x18 x19 x20 x21 x22 x23) := by
  unfold Read.val_main_v195
  exact realE_reduceAdd _ _ _ _ (s_v194 H) ((s_cst_38 H)).real
theorem s_cst_39 : PosR (Read.val_main_cst_39 (F := Ideal)) := by
  unfold Read.val_main_cst_39
  exact posR_constant _ _ pos_1e5
theorem s_v196 : PosR (Read.val_main_v196 (F := Ideal)) := by
  unfold Read.val_main_v196
  exact posR_broadcastInDim _ _ _ _ (s_cst_39 H)
theorem s_v197 : RealE (Read.val_main_v197 (F := Ideal) x0 x1 x2 x3 x4 x5 x6 x7 x8 x9 x10 x11 x12 x13 x14 x15 x16 x17 x18 x19 x20 x21 x22 x23) := by
  unfold Read.val_main_v197
  exact realE_hostDivf _ _ (s_v195 H) (s_v196 H)
theorem s_v198 : RealE (Read.val_main_v198 (F := Ideal) x0 x1 x2 x3 x4 x5 x6 x7 x8 x9 x10 x11 x12 x13 x14 x15 x16 x17 x18 x19 x20 x21 x22 x23 x26) := by
  unfold Read.val_main_v198
  exact realE_mulf _ _ H.h26 (s_v197 H)
theorem s_v199 : RealE (Read.val_main_v199 (F := Ideal) x0 x1 x2 x3 x4 x5 x6 x7 x8 x9 x10 x11 x12 x13 x14 x15 x16 x17 x18 x19 x20 x21 x22 x23 x26) := by
  unfold Read.val_main_v199
  exact realE_broadcastInDim _ _ _ _ (s_v198 H)
theorem s_v200 : RealE (Read.val_main_v200 (F := Ideal) x0 x1 x2 x3 x4 x5 x6 x7 x8 x9 x10 x11 x12 x13 x14 x15 x16 x17 x18 x19 x20 x21 x22 x23 x26) := by
  unfold Read.val_main_v200
  exact realE_broadcastInDim _ _ _ _ (s_v199 H)
theorem s_v201 : RealE (Read.val_main_v201 (F := Ideal) x0 x1 x2 x3 x4 x5 x6 x7 x8 x9 x10 x11 x12 x13 x14 x15 x16 x17 x18 x19 x20 x21 x22 x23 x26) := by
  unfold Read.val_main_v201
  exact realE_subf _ _ (s_v194 H) (s_v200 H)
theorem s_v202 : NonnegR (Read.val_main_v202 (F := Ideal) x0 x1 x2 x3 x4 x5 x6 x7 x8 x9 x10 x11 x12 x13 x14 x15 x16 x17 x18 x19 x20 x21 x22 x23 x26) := by
  unfold Read.val_main_v202
  exact nonnegR_mul_self _ (s_v201 H)
theorem s_cst_40 : NonnegR (Read.val_main_cst_40 (F := Ideal)) := by
  unfold Read.val_main_cst_40
  exact nonnegR_constant _ _ nonneg_zero
theorem s_v203 : NonnegR (Read.val_main_v203 (F := Ideal) x0 x1 x2 x3 x4 x5 x6 x7 x8 x9 x10 x11 x12 x13 x14 x15 x16 x17 x18 x19 x20 x21 x22 x23 x26) := by
  unfold Read.val_main_v203
  exact nonnegR_reduceAdd _ _ _ _ (s_v202 H) (s_cst_40 H)
theorem s_cst_41 : PosR (Read.val_main_cst_41 (F := Ideal)) := by
  unfold Read.val_main_cst_41
  exact posR_constant _ _ pos_1e5
theorem s_v204 : PosR (Read.val_main_v204 (F := Ideal)) := by
  unfold Read.val_main_v204
  exact posR_broadcastInDim _ _ _ _ (s_cst_41 H)
theorem s_v205 : NonnegR (Read.val_main_v205 (F := Ideal) x0 x1 x2 x3 x4 x5 x6 x7 x8 x9 x10 x11 x12 x13 x14 x15 x16 x17 x18 x19 x20 x21 x22 x23 x26) := by
  unfold Read.val_main_v205
  exact nonnegR_hostDivf _ _ (s_v203 H) (s_v204 H)
theorem s_v206 : RealE (Read.val_main_v206 (F := Ideal) x24) := by
  unfold Read.val_main_v206
  exact realE_broadcastInDim _ _ _ _ H.h24
theorem s_v207 : RealE (Read.val_main_v207 (F := Ideal) x24) := by
  unfold Read.val_main_v207
  exact realE_broadcastInDim _ _ _ _ (s_v206 H)
theorem s_v208 : RealE (Read.val_main_v208 (F := Ideal) x0 x1 x2 x3 x4 x5 x6 x7 x8 x9 x10 x11 x12 x13 x14 x15 x16 x17 x18 x19 x20 x21 x22 x23 x24 x26) := by
  unfold Read.val_main_v208
  exact realE_mulf _ _ (s_v207 H) (s_v201 H)
theorem s_cst_42 : PosR (Read.val_main_cst_42 (F := Ideal)) := by
  unfold Read.val_main_cst_42
  exact posR_constant _ _ ofBits_eps
theorem s_v209 : PosR (Read.val_main_v209 (F := Ideal)) := by
  unfold Read.val_main_v209
  exact posR_broadcastInDim _ _ _ _ (s_cst_42 H)
theorem s_v210 : PosR (Read.val_main_v210 (F := Ideal) x0 x1 x2 x3 x4 x5 x6 x7 x8 x9 x10 x11 x12 x13 x14 x15 x16 x17 x18 x19 x20 x21 x22 x23 x26) := by
  unfold Read.val_main_v210
  exact posR_addf_nonneg _ _ (s_v205 H) (s_v209 H)
theorem s_v211 : RealE (Read.val_main_v211 (F := Ideal) x0 x1 x2 x3 x4 x5 x6 x7 x8 x9 x10 x11 x12 x13 x14 x15 x16 x17 x18 x19 x20 x21 x22 x23 x26) := by
  unfold Read.val_main_v211
  exact realE_hostRsqrt _ (s_v210 H)
theorem s_v212 : RealE (Read.val_main_v212 (F := Ideal) x0 x1 x2 x3 x4 x5 x6 x7 x8 x9 x10 x11 x12 x13 x14 x15 x16 x17 x18 x19 x20 x21 x22 x23 x26) := by
  unfold Read.val_main_v212
  exact realE_broadcastInDim _ _ _ _ (s_v211 H)
theorem s_v213 : RealE (Read.val_main_v213 (F := Ideal) x0 x1 x2 x3 x4 x5 x6 x7 x8 x9 x10 x11 x12 x13 x14 x15 x16 x17 x18 x19 x20 x21 x22 x23 x26) := by
  unfold Read.val_main_v213
  exact realE_broadcastInDim _ _ _ _ (s_v212 H)
theorem s_v214 : RealE (Read.val_main_v214 (F := Ideal) x0 x1 x2 x3 x4 x5 x6 x7 x8 x9 x10 x11 x12 x13 x14 x15 x16 x17 x18 x19 x20 x21 x22 x23 x24 x26) := by
  unfold Read.val_main_v214
  exact realE_mulf _ _ (s_v208 H) (s_v213 H)
theorem s_v215 : RealE (Read.val_main_v215 (F := Ideal) x25) := by
  unfold Read.val_main_v215
  exact realE_broadcastInDim _ _ _ _ H.h25
theorem s_v216 : RealE (Read.val_main_v216 (F := Ideal) x25) := by
  unfold Read.val_main_v216
  exact realE_broadcastInDim _ _ _ _ (s_v215 H)
theorem s_v217 : RealE (Read.val_main_v217 (F := Ideal) x0 x1 x2 x3 x4 x5 x6 x7 x8 x9 x10 x11 x12 x13 x14 x15 x16 x17 x18 x19 x20 x21 x22 x23 x24 x25 x26) := by
  unfold Read.val_main_v217
  exact realE_addf _ _ (s_v214 H) (s_v216 H)
theorem s_call5_cst : NonnegR (Read.val_main_call5_cst (F := Ideal)) := by
  unfold Read.val_main_call5_cst
  exact nonnegR_constant _ _ nonneg_zero
theorem s_call5_v0 : NonnegR (Read.val_main_call5_v0 (F := Ideal)) := by
  unfold Read.val_main_call5_v0
  exact nonnegR_broadcastInDim _ _ _ _ (s_call5_cst H)
theorem s_v218 : RealE (Read.val_main_v218 (F := Ideal) x0 x1 x2 x3 x4 x5 x6 x7 x8 x9 x10 x11 x12 x13 x14 x15 x16 x17 x18 x19 x20 x21 x22 x23 x24 x25 x26) := by
  unfold Read.val_main_v218
  exact realE_max _ _ (s_v217 H) ((s_call5_v0 H)).real
theorem s_v219 : RealE (Read.val_main_v219 (F := Ideal) x0 x1 x2 x3 x4 x5 x6 x7 x8 x9 x10 x11 x12 x13 x14 x15 x16 x17 x18 x19 x20 x21 x22 x23 x24 x25 x26 x27) := by
  unfold Read.val_main_v219
  exact realE_dotGeneral _ _ _ _ (s_v218 H) H.h27
theorem s_v220 : RealE (Read.val_main_v220 (F := Ideal) x28) := by
  unfold Read.val_main_v220
  exact realE_broadcastInDim _ _ _ _ H.h28
theorem s_v221 : RealE (Read.val_main_v221 (F := Ideal) x28) := by
  unfold Read.val_main_v221
  exact realE_broadcastInDim _ _ _ _ (s_v220 H)
theorem s_v222 : RealE (Read.val_main_v222 (F := Ideal) x0 x1 x2 x3 x4 x5 x6 x7 x8 x9 x10 x11 x12 x13 x14 x15 x16 x17 x18 x19 x20 x21 x22 x23 x24 x25 x26 x27 x28) := by
  unfold Read.val_main_v222
  exact realE_addf _ _ (s_v219 H) (s_v221 H)

end Cert.ReferenceIdeal.RealStages

end
-- ==== Proof.LibMeanCast.lean ====
/-
  Neighbourhood means, array by array, at exact arithmetic: the sums times the column of reciprocals 1 / max(count, 1)
  — the [n] vector cast to one column [n, 1] and broadcast along the rows — are the sums divided by the column of
  max(count, 1) — the [n] vector broadcast to [n, 1] and on to [n, f]. Both read the count of the entry's row, and
  s · (1 / d) = s / d for every extended real s when d ≥ 1. General in the extents; only the library is imported.
-/
import Idealize.ShloMosaic.PureOps.Ideal.Laws
import Idealize.ShloMosaic.Lib.ValueIdx
import Idealize.ShloMosaic.Lib.ValueLayout
import Idealize.ShloMosaic.Lib.Pipeline.Value
import Mathlib.Tactic

noncomputable section

namespace Cert.Lib.MeanCast

open Idealize.ShloMosaic Idealize.ShloMosaic.ValueIdx

abbrev oneWord : EReal := Ideal.ofBits .f32 0x3F800000#32

theorem oneWord_eq : oneWord = 1 := by
  show Ideal.ofBits .f32 0x3F800000#32 = 1
  simp [Ideal.ofBits, Ideal.ieee]
  rw [← EReal.coe_mul, ← EReal.coe_one]
  norm_num

/-- A sum times the reciprocal of max(count, 1) is the sum divided by max(count, 1), for all extended reals. -/
theorem mean_scalar (s cnt : EReal) :
    s * Ideal.div oneWord (max cnt oneWord) = Ideal.div s (max cnt oneWord) := by
  rw [oneWord_eq]
  have hne : max cnt (1 : EReal) ≠ 0 := ne_of_gt (lt_of_lt_of_le zero_lt_one (le_max_right _ _))
  rw [Ideal.div, if_neg hne, Ideal.div, if_neg hne, one_mul]

variable {α : Type} {n f : Nat}

/-- An [n] vector cast to one column [n, 1] reads, at (p, u), the vector at p. -/
theorem cast_col_apply (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [n] vector broadcast to one column [n, 1] along axis 0 reads, at (p, u), the vector at p. -/
theorem bcast_col_apply (v : (⟨1, ![n]⟩ : Shape).Idx → α) (h : (⟨1, ![n]⟩ : Shape).BroadcastsInDim ⟨2, ![n, 1]⟩ ![0])
    (p : Fin n) (u : Fin 1) : broadcastInDim ⟨2, ![n, 1]⟩ ![0] h v (ix2 p u) = v (ix1 p) := by
  by_cases hn : n = 1
  · subst hn
    refine broadcastInDim_apply _ h v (ix2 p u) (ix1 p) (fun a => ?_)
    match a with
    | ⟨0, _⟩ => show p.val = if (1 : Nat) = 1 then 0 else p.val; rw [if_pos rfl]; omega
  · refine broadcastInDim_apply _ h v (ix2 p u) (ix1 p) (fun a => ?_)
    match a with
    | ⟨0, _⟩ => show p.val = if n = 1 then 0 else p.val; rw [if_neg hn]

/-- The two columns are one function. -/
theorem cast_col_eq_bcast_col (v : (⟨1, ![n]⟩ : Shape).Idx → α) (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ v hc = broadcastInDim ⟨2, ![n, 1]⟩ ![0] hb v := by
  funext j
  obtain ⟨p, u, rfl⟩ : ∃ (p : Fin n) (u : Fin 1), j = ix2 p u := ⟨j 0, j 1, eq_ix2 j⟩
  rw [cast_col_apply, bcast_col_apply]

/-- The means, with the reciprocals' column made by a cast and the divisors' by a broadcast. -/
theorem mean_array_cast (S : (⟨2, ![n, f]⟩ : Shape).Idx → EReal) (cnt : (⟨1, ![n]⟩ : Shape).Idx → EReal)
    (h0 : (⟨0, ![]⟩ : Shape).BroadcastsInDim ⟨1, ![n]⟩ ![])
    (hc : (⟨1, ![n]⟩ : Shape).ShapeCasts ⟨2, ![n, 1]⟩)
    (h1 : (⟨1, ![n]⟩ : Shape).BroadcastsInDim ⟨2, ![n, 1]⟩ ![0])
    (h2 : (⟨2, ![n, 1]⟩ : Shape).BroadcastsInDim ⟨2, ![n, f]⟩ ![0, 1]) :
    mulf (F := Ideal) (φ := .f32) S
        (broadcastInDim ⟨2, ![n, f]⟩ ![0, 1] h2 (shapeCast ⟨2, ![n, 1]⟩
          (Host.divf (F := Ideal) (φ := .f32) (broadcastInDim ⟨1, ![n]⟩ ![] h0 (constant (F := Ideal) ⟨0, ![]⟩ .f32 0x3F800000#32))
            (maximumf (F := Ideal) (φ := .f32) cnt (broadcastInDim ⟨1, ![n]⟩ ![] h0 (constant (F := Ideal) ⟨0, ![]⟩ .f32 0x3F800000#32)))) hc))
      = Host.divf (F := Ideal) (φ := .f32) S
        (broadcastInDim ⟨2, ![n, f]⟩ ![0, 1] h2 (broadcastInDim ⟨2, ![n, 1]⟩ ![0] h1
          (maximumf (F := Ideal) (φ := .f32) cnt (broadcastInDim ⟨1, ![n]⟩ ![] h0 (constant (F := Ideal) ⟨0, ![]⟩ .f32 0x3F800000#32))))) := by
  rw [cast_col_eq_bcast_col _ hc h1]
  funext i
  exact mean_scalar (S i) _

end Cert.Lib.MeanCast

end
-- ==== Proof.Stage1.lean ====
/-
  The first stretch of host operations, read at the buffers the later segments use: the edge sources and targets with the self loops appended, the edge attributes with the rows of ones appended, the column of reciprocal clamped in-degrees, the first layer's neighbourhood means (the scattered sums times that column are the reference's sums divided by the clamped in-degrees), and the first bias as a row.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibMeanCast
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

set_option maxHeartbeats 4000000 in
theorem f1_v3 (c : Dev nD) : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results
  rfl

set_option maxHeartbeats 4000000 in
theorem f1_v6 (c : Dev nD) : W1 m ρ c (Proc.devRef .tc main_v6) = (Cert.ReferenceIdeal.Read.val_main_v6 (F := Ideal) (m ((c : Thread nD τ).loc main_arg1))) := by
  show StableHlo.after hostOps0 (W0 m ρ c) (Proc.devRef .tc main_v6) = _
  after_results
  rfl

set_option maxHeartbeats 4000000 in
theorem f1_v8 (c : Dev nD) : W1 m ρ c (Proc.devRef .tc main_v8) = (Cert.ReferenceIdeal.Read.val_main_v8 (F := Ideal) (m ((c : Thread nD τ).loc main_arg2))) := by
  show StableHlo.after hostOps0 (W0 m ρ c) (Proc.devRef .tc main_v8) = _
  after_results
  rfl

set_option maxHeartbeats 4000000 in
theorem f1_v17 (c : Dev nD) : W1 m ρ c (Proc.devRef .tc main_v17) = recipDeg (m ((c : Thread nD τ).loc main_arg1)) := by
  show StableHlo.after hostOps0 (W0 m ρ c) (Proc.devRef .tc main_v17) = _
  after_results
  rfl

set_option maxHeartbeats 4000000 in
theorem f1_v30 (c : Dev nD) : W1 m ρ c (Proc.devRef .tc main_v30) = row64 (m ((c : Thread nD τ).loc main_arg4)) := by
  show StableHlo.after hostOps0 (W0 m ρ c) (Proc.devRef .tc main_v30) = _
  after_results
  rfl

set_option maxHeartbeats 4000000 in
theorem f1_v29 (c : Dev nD) : W1 m ρ c (Proc.devRef .tc main_v29) = (Cert.ReferenceIdeal.Read.val_main_v31 (F := Ideal) (m ((c : Thread nD τ).loc main_arg0)) (m ((c : Thread nD τ).loc main_arg1))) := by
  show StableHlo.after hostOps0 (W0 m ρ c) (Proc.devRef .tc main_v29) = _
  after_results
  unfold Cert.ReferenceIdeal.Read.val_main_v31 Cert.ReferenceIdeal.Read.val_main_v30 Cert.ReferenceIdeal.Read.val_main_v29 Cert.ReferenceIdeal.Read.val_main_v28
  exact Cert.Lib.MeanCast.mean_array_cast _ _ _ _ _ _

end Cert.KernelIdeal.Stage

end
-- ==== Proof.Region0.lean ====
/-
  Region 0 (a node update): for the contents V the region is entered with, the output array ends holding, at
  every (p, q) of the [100000, 64] result,
      ((∑ k : Fin 32, agg (p, k) · Wl (k, q)) + bl (0, q)) + ∑ k : Fin 32, x (p, k) · Wr (k, q),
  agg and x the first two windows' [100000, 32] arrays, Wl and Wr the [32, 64] weights, bl the [1, 64] bias row.
  Each of the ten grid points writes the 10000 rows of its block; both matrix products run into a zero
  accumulator, so each is the plain sum over the contracted axis.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- A matrix product of an [M, K] by a [K, N] matrix into the zero accumulator, read at (p, q): the sum over the
    contracted coordinate k of x (p, k) · w (k, q). The four hypotheses say which operand coordinate each of the
    product's index maps takes from the output index and which from the contraction index. -/
theorem matmul_zero_rc {M K N : Nat} {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The node update's entry: row p of the aggregate against column q of the first weights, plus the bias row at q,
    plus row p of the features against column q of the second weights. -/
def nodeOut (agg x : S100000x32.Idx → EReal) (Wl : S32x64.Idx → EReal) (bl : S1x64.Idx → EReal) (Wr : S32x64.Idx → EReal) :
    S100000x64.Idx → EReal :=
  fun i => ((∑ k : Fin 32, agg (ix2 (n0 := 100000) (n1 := 32) ⟨(i 0).val, (i 0).isLt⟩ k)
        * Wl (ix2 (n0 := 32) (n1 := 64) k ⟨(i 1).val, (i 1).isLt⟩))
      + bl (ix2 (n0 := 1) (n1 := 64) 0 ⟨(i 1).val, (i 1).isLt⟩))
    + ∑ k : Fin 32, x (ix2 (n0 := 100000) (n1 := 32) ⟨(i 0).val, (i 0).isLt⟩ k)
        * Wr (ix2 (n0 := 32) (n1 := 64) k ⟨(i 1).val, (i 1).isLt⟩)

theorem nodeOut_apply (agg x : S100000x32.Idx → EReal) (Wl : S32x64.Idx → EReal) (bl : S1x64.Idx → EReal)
    (Wr : S32x64.Idx → EReal) (p : Fin 100000) (q : Fin 64) :
    nodeOut agg x Wl bl Wr (ix2 p q)
      = ((∑ k : Fin 32, agg (ix2 p k) * Wl (ix2 k q)) + bl (ix2 0 q)) + ∑ k : Fin 32, x (ix2 p k) * Wr (ix2 k q) := rfl

/-! The product's index maps: the left operand takes its row from the output and its column from the contraction, the
    right operand its row from the contraction and its column from the output. -/

theorem dot_l0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem dot_l1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem dot_r0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem dot_r1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The body's stored value at an entry (p, q) of the block. -/
theorem pay_at (a : Vec Ideal S10000x32 .f32) (wl : Vec Ideal S32x64 .f32) (bl : Vec Ideal S1x64 .f32)
    (x : Vec Ideal S10000x32 .f32) (wr : Vec Ideal S32x64 .f32) (p : Fin 10000) (q : Fin 64) :
    k0_pay1 (F := Ideal) a wl bl x wr (ix2 p q)
      = ((∑ k : Fin 32, a (ix2 p k) * wl (ix2 k q)) + bl (ix2 0 q)) + ∑ k : Fin 32, x (ix2 p k) * wr (ix2 k q) := by
  unfold k0_pay1
  simp only [shapeCast_self, addf_apply, broadcastTo_1b_ab_apply]
  refine congrArg₂ (· + ·) (congrArg (· + bl (ix2 0 q)) ?_) ?_
  · exact matmul_zero_rc dot_S10000x32_S32x64_S10000x64_1_0_0_1_n_n rfl rfl dot_l0 dot_l1 dot_r0 dot_r1 none a wl p q
  · exact matmul_zero_rc dot_S10000x32_S32x64_S10000x64_1_0_0_1_n_n rfl rfl dot_l0 dot_l1 dot_r0 dot_r1 none x wr p q

/-- One block against the arrays: if the block's aggregate and feature rows are the arrays' rows n · 10000 + p, and the
    weights and the bias are read whole, the stored value at (p, q) is the specification at (n · 10000 + p, q). -/
theorem blk_at (A X : S100000x32.Idx → EReal) (Wl : S32x64.Idx → EReal) (Bl : S1x64.Idx → EReal) (Wr : S32x64.Idx → EReal)
    (a : Vec Ideal S10000x32 .f32) (wl : Vec Ideal S32x64 .f32) (bl : Vec Ideal S1x64 .f32)
    (x : Vec Ideal S10000x32 .f32) (wr : Vec Ideal S32x64 .f32) (n : Nat) (hn : n < 10)
    (ha : ∀ (p : Fin 10000) (k : Fin 32), a (ix2 p k) = A (ix2 ⟨n * 10000 + p.val, by omega⟩ k))
    (hx : ∀ (p : Fin 10000) (k : Fin 32), x (ix2 p k) = X (ix2 ⟨n * 10000 + p.val, by omega⟩ k))
    (hwl : wl = Wl) (hbl : bl = Bl) (hwr : wr = Wr)
    (j : S10000x64.Idx) (i : S100000x64.Idx) (hi0 : (i 0).val = n * 10000 + (j 0).val) (hi1 : (i 1).val = (j 1).val) :
    k0_pay1 (F := Ideal) a wl bl x wr j = nodeOut A X Wl Bl Wr i := by
  obtain ⟨p, q, rfl⟩ : ∃ (p : Fin 10000) (q : Fin 64), j = ix2 p q := ⟨j 0, j 1, eq_ix2 j⟩
  have hlt : n * 10000 + p.val < 100000 := by have := p.isLt; omega
  have hi : i = ix2 ⟨n * 10000 + p.val, hlt⟩ q := by
    funext a
    match a with
    | ⟨0, _⟩ => exact Fin.ext hi0
    | ⟨1, _⟩ => exact Fin.ext hi1
  subst hwl hbl hwr
  rw [hi, pay_at, nodeOut_apply]
  refine congrArg₂ (· + ·) (congrArg (· + bl (ix2 0 q)) ?_) ?_
  · exact Finset.sum_congr rfl fun k _ => congrArg (· * wl (ix2 k q)) (ha p k)
  · exact Finset.sum_congr rfl fun k _ => congrArg (· * wr (ix2 k q)) (hx p k)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the weights and the bias at the origin. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 0's block at point t holds rows t · 10000 + p of its array. -/
theorem rows_agg (c : Dev nD) (t : Fin cfg0.N) (p : Fin 10000) (k : Fin 32) (h : t.val * 10000 + p.val < 100000) :
    iblk0 V c 0 t (ix2 p k) = V c (Pipeline.arrRef spec0 0) (ix2 ⟨t.val * 10000 + p.val, h⟩ k) := by
  obtain ⟨-, -, e0, e1, -, -, -, -, -, -, -, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 32 + 1 * k.val = k.val; omega

/-- Window 1's block at point t holds rows t · 10000 + p of its array. -/
theorem rows_x (c : Dev nD) (t : Fin cfg0.N) (p : Fin 10000) (k : Fin 32) (h : t.val * 10000 + p.val < 100000) :
    iblk0 V c 1 t (ix2 p k) = V c (Pipeline.arrRef spec0 1) (ix2 ⟨t.val * 10000 + p.val, h⟩ k) := by
  obtain ⟨-, -, -, -, e0, e1, -, -, -, -, -, -⟩ := idx_facts t
  show V c (Pipeline.arrRef spec0 1) (((cfg0.win 1).blk t).view.emb (ix2 p k)) = _
  refine congrArg _ (funext fun a => Fin.ext ?_)
  match a with
  | ⟨0, _⟩ => show win0_1.index t (0 : Fin 2) * 10000 + 1 * p.val = t.val * 10000 + p.val; omega
  | ⟨1, _⟩ => show win0_1.index t (1 : Fin 2) * 32 + 1 * k.val = k.val; omega

/-- Window 2's block at every point is its whole array. -/
theorem whole_wl (c : Dev nD) (t : Fin cfg0.N) : iblk0 V c 2 t = V c (Pipeline.arrRef spec0 2) := by
  obtain ⟨-, -, -, -, -, -, e0, e1, -, -, -, -⟩ := idx_facts t
  funext y
  show V c (Pipeline.arrRef spec0 2) (((cfg0.win 2).blk t).view.emb y) = _
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega

/-- Window 3's block at every point is its whole array. -/
theorem whole_bl (c : Dev nD) (t : Fin cfg0.N) : iblk0 V c 3 t = V c (Pipeline.arrRef spec0 3) := by
  obtain ⟨-, -, -, -, -, -, -, -, e0, e1, -, -⟩ := idx_facts t
  funext y
  show V c (Pipeline.arrRef spec0 3) (((cfg0.win 3).blk t).view.emb y) = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is its whole array. -/
theorem whole_wr (c : Dev nD) (t : Fin cfg0.N) : iblk0 V c 4 t = V c (Pipeline.arrRef spec0 4) := by
  obtain ⟨-, -, -, -, -, -, -, -, -, -, e0, e1⟩ := idx_facts t
  funext y
  show V c (Pipeline.arrRef spec0 4) (((cfg0.win 4).blk t).view.emb y) = _
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 64 + 1 * (y 1).val = (y 1).val; omega

/-- What point t writes back is block t of the specification. -/
theorem flushed_eq (c : Dev nD) (t : Fin cfg0.N) :
    (dat0 V c).flushed 5 t = ((cfg0.win 5).blk t).view.read (Elt Ideal)
      (nodeOut (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S10000x32) hz, View.ld_unit_zero (S := S32x64) hz, View.ld_unit_zero (S := S1x64) hz]
  obtain ⟨e50, e51, -⟩ := idx_facts t
  have ht : t.val < 10 := lt_of_lt_of_eq t.isLt N_0
  funext j
  refine blk_at _ _ _ _ _ _ _ _ _ _ t.val ht (fun p k => rows_agg V c t p k _) (fun p k => rows_x V c t p k _)
    (whole_wl V c t) (whole_bl V c t) (whole_wr V c t) j _ ?_ ?_
  · show win0_5.index t (0 : Fin 2) * 10000 + 1 * (j 0).val = t.val * 10000 + (j 0).val; omega
  · show win0_5.index t (1 : Fin 2) * 64 + 1 * (j 1).val = (j 1).val; omega

/-- An index of the array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v31).slice (win0_5.rect t)).set ↔ _
  rw [View.set_slice_whole, Rect.mem_set_unit]
  exact Iff.rfl

/-- Row r lies in the block of point r / 10000, and every point writes back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < cfg0.N := lt_of_lt_of_eq (by omega : (i 0).val / 10000 < 10) N_0.symm
  obtain ⟨e50, e51, -⟩ := idx_facts ⟨(i 0).val / 10000, hN⟩
  refine ⟨⟨(i 0).val / 10000, hN⟩, flush0_5 _, ?_⟩
  rw [mem_blk]
  intro a
  match a with
  | ⟨0, _⟩ =>
    show win0_5.index ⟨(i 0).val / 10000, hN⟩ (0 : Fin 2) * 10000 ≤ (i 0).val
      ∧ (i 0).val < win0_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win0_5.index ⟨(i 0).val / 10000, hN⟩ (1 : Fin 2) * 64 ≤ (i 1).val
      ∧ (i 1).val < win0_5.index ⟨(i 0).val / 10000, hN⟩ (1 : Fin 2) * 64 + 64
    rw [e51]
    omega

/-- The output array after the region: the node update of the five input arrays as the region found them. -/
theorem final (c : Dev nD) :
    (dat0 V c).arrAt 5 cfg0.N
      = nodeOut (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed_eq V c t) cover

end Cert.KernelIdeal.Region0

end
-- ==== Proof.Math2.lean ====
/-
  The first layer's node update, as the region computes it from the neighbourhood means, the node features, the two weight matrices and the bias row, is the reference's stage: a dot_general, the bias broadcast, a second dot_general, added in the same order.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region0
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

open Cert.ReferenceIdeal.Read

theorem lidx32 (p : Fin 100000) (q : Fin 64) (k : Fin 32) : lidx_main_v32 (ix2 p q) k = ix2 p k :=
  funext fun a => Fin.ext (by match a with | ⟨0, _⟩ => rfl | ⟨1, _⟩ => rfl)
theorem ridx32 (p : Fin 100000) (q : Fin 64) (k : Fin 32) : ridx_main_v32 (ix2 p q) k = ix2 k q :=
  funext fun a => Fin.ext (by match a with | ⟨0, _⟩ => rfl | ⟨1, _⟩ => rfl)
theorem lidx36 (p : Fin 100000) (q : Fin 64) (k : Fin 32) : lidx_main_v36 (ix2 p q) k = ix2 p k :=
  funext fun a => Fin.ext (by match a with | ⟨0, _⟩ => rfl | ⟨1, _⟩ => rfl)
theorem ridx36 (p : Fin 100000) (q : Fin 64) (k : Fin 32) : ridx_main_v36 (ix2 p q) k = ix2 k q :=
  funext fun a => Fin.ext (by match a with | ⟨0, _⟩ => rfl | ⟨1, _⟩ => rfl)
theorem idx3433 (p : Fin 100000) (q : Fin 64) : idx_main_v33 (idx_main_v34 (ix2 p q)) = ix1 q :=
  funext fun a => Fin.ext (by match a with | ⟨0, _⟩ => rfl)

/-- A [64] vector as one row reads, at (0, q), the vector at q. -/
theorem row64_apply (v : S64.Idx → EReal) (q : Fin 64) : row64 v (ix2 0 q) = v (ix1 q) :=
  shapeCast_a_1a_apply v shapeCasts_S64_S1x64 0 q

theorem node1 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) :
    Cert.KernelIdeal.Region0.nodeOut (Cert.ReferenceIdeal.Read.val_main_v31 (F := Ideal) x0 x1) x0 x3 (row64 x4) x5 = (Cert.ReferenceIdeal.Read.val_main_v37 (F := Ideal) x0 x1 x3 x4 x5) := by
  funext i
  obtain ⟨p, q, rfl⟩ : ∃ (p : Fin 100000) (q : Fin 64), i = ix2 p q := ⟨i 0, i 1, eq_ix2 i⟩
  rw [Cert.KernelIdeal.Region0.nodeOut_apply, val_main_v37_apply, val_main_v35_apply, val_main_v32_apply, val_main_v34_apply,
    val_main_v33_apply, val_main_v36_apply, idx3433, row64_apply]
  simp only [lidx32, ridx32, lidx36, ridx36, Ideal.addf_def]

end Cert.KernelIdeal.Stage

end
-- ==== Proof.Keep1.lean ====
/-
  Buffers that a stretch of host operations does not write and that are no output of a region keep their contents across it: each theorem follows one buffer from the boundary where it is read back to the boundary where it was written (or to the launch memory, for an argument).
-/
import proofs.«106696_j33449205301454_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_arg27_25_0 (c : Dev nD) : W25 m ρ c (Proc.devRef .tc main_arg27) = W0 m ρ c (Proc.devRef .tc main_arg27) :=
  calc W25 m ρ c (Proc.devRef .tc main_arg27)
    _ = W24 m ρ c (Proc.devRef .tc main_arg27) := StableHlo.after_of_forall_not_mem (b := Proc.devRef .tc main_arg27) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg27) := W24_of_ne m ρ c main_arg27 (by decide)
    _ = W22 m ρ c (Proc.devRef .tc main_arg27) := StableHlo.after_of_forall_not_mem (b := Proc.devRef .tc main_arg27) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg27) := W22_of_ne m ρ c main_arg27 (by decide)
    _ = W20 m ρ c (Proc.devRef .tc main_arg27) := StableHlo.after_of_forall_not_mem (b := Proc.devRef .tc main_arg27) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg27) := W20_of_ne m ρ c main_arg27 (by decide)
    _ = W18 m ρ c (Proc.devRef .tc main_arg27) := StableHlo.after_of_forall_not_mem (b := Proc.devRef .tc main_arg27) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg27) := W18_of_ne m ρ c main_arg27 (by decide)
    _ = W16 m ρ c (Proc.devRef .tc main_arg27) := StableHlo.after_of_forall_not_mem (b := Proc.devRef .tc main_arg27) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg27) := W16_of_ne m ρ c main_arg27 (by decide)
    _ = W14 m ρ c (Proc.devRef .tc main_arg27) := StableHlo.after_of_forall_not_mem (b := Proc.devRef .tc main_arg27) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg27) := W14_of_ne m ρ c main_arg27 (by decide)
    _ = W12 m ρ c (Proc.devRef .tc main_arg27) := StableHlo.after_of_forall_not_mem (b := Proc.devRef .tc main_arg27) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg27) := W12_of_ne m ρ c main_arg27 (by decide)
    _ = W10 m ρ c (Proc.devRef .tc main_arg27) := StableHlo.after_of_forall_not_mem (b := Proc.devRef .tc main_arg27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg27) := W10_of_ne m ρ c main_arg27 (by decide)
    _ = W8 m ρ c (Proc.devRef .tc main_arg27) := StableHlo.after_of_forall_not_mem (b := Proc.devRef .tc main_arg27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg27) := W8_of_ne m ρ c main_arg27 (by decide)
    _ = W6 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_16_1 (c : Dev nD) : W16 m ρ c (Proc.devRef .tc main_v6) = W1 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := StableHlo.after_of_forall_not_mem (b := Proc.devRef .tc main_v6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v6) := W14_of_ne m ρ c main_v6 (by decide)
    _ = W12 m ρ c (Proc.devRef .tc main_v6) := StableHlo.after_of_forall_not_mem (b := Proc.devRef .tc main_v6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem keep_arg15_15_0 (c : Dev nD) : W15 m ρ c (Proc.devRef .tc main_arg15) = W0 m ρ c (Proc.devRef .tc main_arg15) :=
  calc W15 m ρ c (Proc.devRef .tc main_arg15)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_14_1 (c : Dev nD) : W14 m ρ c (Proc.devRef .tc main_v6) = W1 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := StableHlo.after_of_forall_not_mem (b := Proc.devRef .tc main_v6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem keep_arg13_12_0 (c : Dev nD) : W12 m ρ c (Proc.devRef .tc main_arg13) = W0 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg21_10_0 (c : Dev nD) : W10 m ρ c (Proc.devRef .tc main_arg21) = W0 m ρ c (Proc.devRef .tc main_arg21) :=
  calc W10 m ρ c (Proc.devRef .tc main_arg21)
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_3_0 (c : Dev nD) : W3 m ρ c (Proc.devRef .tc main_arg6) = W0 m ρ c (Proc.devRef .tc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v31_4_2 (c : Dev nD) : W4 m ρ c (Proc.devRef .tc main_v31) = W2 m ρ c (Proc.devRef .tc main_v31) :=
  calc W4 m ρ c (Proc.devRef .tc main_v31)
    _ = W3 m ρ c (Proc.devRef .tc main_v31) := W4_of_ne m ρ c main_v31 (by decide)
    _ = W2 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v176_23_21 (c : Dev nD) : W23 m ρ c (Proc.devRef .tc main_v176) = W21 m ρ c (Proc.devRef .tc main_v176) :=
  calc W23 m ρ c (Proc.devRef .tc main_v176)
    _ = W22 m ρ c (Proc.devRef .tc main_v176) := StableHlo.after_of_forall_not_mem (b := Proc.devRef .tc main_v176) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v176) := (W22_arr m ρ c 0).trans (((dat10 (V21 m ρ) c).arrAt_in 0 rfl _).trans (A_eq10 (V21 m ρ) c 0))

theorem keep_arg5_1_0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.Keep2.lean ====
/-
  Buffers that a stretch of host operations does not write and that are no output of a region keep their contents across it: each theorem follows one buffer from the boundary where it is read back to the boundary where it was written (or to the launch memory, for an argument).
-/
import proofs.«106696_j33449205301454_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_arg28_24_0 (c : Dev nD) : W24 m ρ c (Proc.devRef .tc main_arg28) = W0 m ρ c (Proc.devRef .tc main_arg28) :=
  calc W24 m ρ c (Proc.devRef .tc main_arg28)
    _ = W23 m ρ c (Proc.devRef .tc main_arg28) := W24_of_ne m ρ c main_arg28 (by decide)
    _ = W22 m ρ c (Proc.devRef .tc main_arg28) := StableHlo.after_of_forall_not_mem (b := Proc.devRef .tc main_arg28) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg28) := W22_of_ne m ρ c main_arg28 (by decide)
    _ = W20 m ρ c (Proc.devRef .tc main_arg28) := StableHlo.after_of_forall_not_mem (b := Proc.devRef .tc main_arg28) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg28) := W20_of_ne m ρ c main_arg28 (by decide)
    _ = W18 m ρ c (Proc.devRef .tc main_arg28) := StableHlo.after_of_forall_not_mem (b := Proc.devRef .tc main_arg28) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg28) := W18_of_ne m ρ c main_arg28 (by decide)
    _ = W16 m ρ c (Proc.devRef .tc main_arg28) := StableHlo.after_of_forall_not_mem (b := Proc.devRef .tc main_arg28) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg28) := W16_of_ne m ρ c main_arg28 (by decide)
    _ = W14 m ρ c (Proc.devRef .tc main_arg28) := StableHlo.after_of_forall_not_mem (b := Proc.devRef .tc main_arg28) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg28) := W14_of_ne m ρ c main_arg28 (by decide)
    _ = W12 m ρ c (Proc.devRef .tc main_arg28) := StableHlo.after_of_forall_not_mem (b := Proc.devRef .tc main_arg28) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg28) := W12_of_ne m ρ c main_arg28 (by decide)
    _ = W10 m ρ c (Proc.devRef .tc main_arg28) := StableHlo.after_of_forall_not_mem (b := Proc.devRef .tc main_arg28) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg28) := W10_of_ne m ρ c main_arg28 (by decide)
    _ = W8 m ρ c (Proc.devRef .tc main_arg28) := StableHlo.after_of_forall_not_mem (b := Proc.devRef .tc main_arg28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg28) := W8_of_ne m ρ c main_arg28 (by decide)
    _ = W6 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg20_18_0 (c : Dev nD) : W18 m ρ c (Proc.devRef .tc main_arg20) = W0 m ρ c (Proc.devRef .tc main_arg20) :=
  calc W18 m ρ c (Proc.devRef .tc main_arg20)
    _ = W17 m ρ c (Proc.devRef .tc main_arg20) := W18_of_ne m ρ c main_arg20 (by decide)
    _ = W16 m ρ c (Proc.devRef .tc main_arg20) := StableHlo.after_of_forall_not_mem (b := Proc.devRef .tc main_arg20) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg20) := W16_of_ne m ρ c main_arg20 (by decide)
    _ = W14 m ρ c (Proc.devRef .tc main_arg20) := StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg16_14_0 (c : Dev nD) : W14 m ρ c (Proc.devRef .tc main_arg16) = W0 m ρ c (Proc.devRef .tc main_arg16) :=
  calc W14 m ρ c (Proc.devRef .tc main_arg16)
    _ = W13 m ρ c (Proc.devRef .tc main_arg16) := W14_of_ne m ρ c main_arg16 (by decide)
    _ = W12 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg12_13_0 (c : Dev nD) : W13 m ρ c (Proc.devRef .tc main_arg12) = W0 m ρ c (Proc.devRef .tc main_arg12) :=
  calc W13 m ρ c (Proc.devRef .tc main_arg12)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_12_1 (c : Dev nD) : W12 m ρ c (Proc.devRef .tc main_v6) = W1 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem keep_arg22_10_0 (c : Dev nD) : W10 m ρ c (Proc.devRef .tc main_arg22) = W0 m ρ c (Proc.devRef .tc main_arg22) :=
  calc W10 m ρ c (Proc.devRef .tc main_arg22)
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_2_0 (c : Dev nD) : W2 m ρ c (Proc.devRef .tc main_arg8) = W0 m ρ c (Proc.devRef .tc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_2_0 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v128_16_14 (c : Dev nD) : W16 m ρ c (Proc.devRef .tc main_v128) = W14 m ρ c (Proc.devRef .tc main_v128) :=
  calc W16 m ρ c (Proc.devRef .tc main_v128)
    _ = W15 m ρ c (Proc.devRef .tc main_v128) := W16_of_ne m ρ c main_v128 (by decide)
    _ = W14 m ρ c (Proc.devRef .tc main_v128) := StableHlo.after_of_forall_not_mem (b := Proc.devRef .tc main_v128) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem keep_v49_0_7_6 (c : Dev nD) : W7 m ρ c (Proc.devRef .tc main_v49_0) = W6 m ρ c (Proc.devRef .tc main_v49_0) :=
  calc W7 m ρ c (Proc.devRef .tc main_v49_0)
    _ = W6 m ρ c (Proc.devRef .tc main_v49_0) := StableHlo.after_of_forall_not_mem (b := Proc.devRef .tc main_v49_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.Keep3.lean ====
/-
  Buffers that a stretch of host operations does not write and that are no output of a region keep their contents across it: each theorem follows one buffer from the boundary where it is read back to the boundary where it was written (or to the launch memory, for an argument).
-/
import proofs.«106696_j33449205301454_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_arg26_22_0 (c : Dev nD) : W22 m ρ c (Proc.devRef .tc main_arg26) = W0 m ρ c (Proc.devRef .tc main_arg26) :=
  calc W22 m ρ c (Proc.devRef .tc main_arg26)
    _ = W21 m ρ c (Proc.devRef .tc main_arg26) := W22_of_ne m ρ c main_arg26 (by decide)
    _ = W20 m ρ c (Proc.devRef .tc main_arg26) := StableHlo.after_of_forall_not_mem (b := Proc.devRef .tc main_arg26) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg26) := W20_of_ne m ρ c main_arg26 (by decide)
    _ = W18 m ρ c (Proc.devRef .tc main_arg26) := StableHlo.after_of_forall_not_mem (b := Proc.devRef .tc main_arg26) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg26) := W18_of_ne m ρ c main_arg26 (by decide)
    _ = W16 m ρ c (Proc.devRef .tc main_arg26) := StableHlo.after_of_forall_not_mem (b := Proc.devRef .tc main_arg26) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg26) := W16_of_ne m ρ c main_arg26 (by decide)
    _ = W14 m ρ c (Proc.devRef .tc main_arg26) := StableHlo.after_of_forall_not_mem (b := Proc.devRef .tc main_arg26) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg26) := W14_of_ne m ρ c main_arg26 (by decide)
    _ = W12 m ρ c (Proc.devRef .tc main_arg26) := StableHlo.after_of_forall_not_mem (b := Proc.devRef .tc main_arg26) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg26) := W12_of_ne m ρ c main_arg26 (by decide)
    _ = W10 m ρ c (Proc.devRef .tc main_arg26) := StableHlo.after_of_forall_not_mem (b := Proc.devRef .tc main_arg26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg26) := W10_of_ne m ρ c main_arg26 (by decide)
    _ = W8 m ρ c (Proc.devRef .tc main_arg26) := StableHlo.after_of_forall_not_mem (b := Proc.devRef .tc main_arg26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg26) := W8_of_ne m ρ c main_arg26 (by decide)
    _ = W6 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg25_22_0 (c : Dev nD) : W22 m ρ c (Proc.devRef .tc main_arg25) = W0 m ρ c (Proc.devRef .tc main_arg25) :=
  calc W22 m ρ c (Proc.devRef .tc main_arg25)
    _ = W21 m ρ c (Proc.devRef .tc main_arg25) := W22_of_ne m ρ c main_arg25 (by decide)
    _ = W20 m ρ c (Proc.devRef .tc main_arg25) := StableHlo.after_of_forall_not_mem (b := Proc.devRef .tc main_arg25) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg25) := W20_of_ne m ρ c main_arg25 (by decide)
    _ = W18 m ρ c (Proc.devRef .tc main_arg25) := StableHlo.after_of_forall_not_mem (b := Proc.devRef .tc main_arg25) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg25) := W18_of_ne m ρ c main_arg25 (by decide)
    _ = W16 m ρ c (Proc.devRef .tc main_arg25) := StableHlo.after_of_forall_not_mem (b := Proc.devRef .tc main_arg25) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg25) := W16_of_ne m ρ c main_arg25 (by decide)
    _ = W14 m ρ c (Proc.devRef .tc main_arg25) := StableHlo.after_of_forall_not_mem (b := Proc.devRef .tc main_arg25) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg25) := W14_of_ne m ρ c main_arg25 (by decide)
    _ = W12 m ρ c (Proc.devRef .tc main_arg25) := StableHlo.after_of_forall_not_mem (b := Proc.devRef .tc main_arg25) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg25) := W12_of_ne m ρ c main_arg25 (by decide)
    _ = W10 m ρ c (Proc.devRef .tc main_arg25) := StableHlo.after_of_forall_not_mem (b := Proc.devRef .tc main_arg25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg25) := W10_of_ne m ρ c main_arg25 (by decide)
    _ = W8 m ρ c (Proc.devRef .tc main_arg25) := StableHlo.after_of_forall_not_mem (b := Proc.devRef .tc main_arg25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg18_14_0 (c : Dev nD) : W14 m ρ c (Proc.devRef .tc main_arg18) = W0 m ρ c (Proc.devRef .tc main_arg18) :=
  calc W14 m ρ c (Proc.devRef .tc main_arg18)
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg14_13_0 (c : Dev nD) : W13 m ρ c (Proc.devRef .tc main_arg14) = W0 m ρ c (Proc.devRef .tc main_arg14) :=
  calc W13 m ρ c (Proc.devRef .tc main_arg14)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v17_12_1 (c : Dev nD) : W12 m ρ c (Proc.devRef .tc main_v17) = W1 m ρ c (Proc.devRef .tc main_v17) :=
  calc W12 m ρ c (Proc.devRef .tc main_v17)
    _ = W11 m ρ c (Proc.devRef .tc main_v17) := W12_of_ne m ρ c main_v17 (by decide)
    _ = W10 m ρ c (Proc.devRef .tc main_v17) := StableHlo.after_of_forall_not_mem (b := Proc.devRef .tc main_v17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v17) := W10_of_ne m ρ c main_v17 (by decide)
    _ = W8 m ρ c (Proc.devRef .tc main_v17) := StableHlo.after_of_forall_not_mem (b := Proc.devRef .tc main_v17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v17) := W8_of_ne m ρ c main_v17 (by decide)
    _ = W6 m ρ c (Proc.devRef .tc main_v17) := StableHlo.after_of_forall_not_mem (b := Proc.devRef .tc main_v17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v17) := W6_of_ne m ρ c main_v17 (by decide)
    _ = W4 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) := W4_of_ne m ρ c main_v17 (by decide)
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := W2_of_ne m ρ c main_v17 (by decide)

theorem keep_arg10_6_0 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_6_0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v8_3_1 (c : Dev nD) : W3 m ρ c (Proc.devRef .tc main_v8) = W1 m ρ c (Proc.devRef .tc main_v8) :=
  calc W3 m ρ c (Proc.devRef .tc main_v8)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v146_0_19_18 (c : Dev nD) : W19 m ρ c (Proc.devRef .tc main_v146_0) = W18 m ρ c (Proc.devRef .tc main_v146_0) :=
  calc W19 m ρ c (Proc.devRef .tc main_v146_0)
    _ = W18 m ρ c (Proc.devRef .tc main_v146_0) := StableHlo.after_of_forall_not_mem (b := Proc.devRef .tc main_v146_0) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.Keep4.lean ====
/-
  Buffers that a stretch of host operations does not write and that are no output of a region keep their contents across it: each theorem follows one buffer from the boundary where it is read back to the boundary where it was written (or to the launch memory, for an argument).
-/
import proofs.«106696_j33449205301454_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep_arg24_22_0 (c : Dev nD) : W22 m ρ c (Proc.devRef .tc main_arg24) = W0 m ρ c (Proc.devRef .tc main_arg24) :=
  calc W22 m ρ c (Proc.devRef .tc main_arg24)
    _ = W21 m ρ c (Proc.devRef .tc main_arg24) := W22_of_ne m ρ c main_arg24 (by decide)
    _ = W20 m ρ c (Proc.devRef .tc main_arg24) := StableHlo.after_of_forall_not_mem (b := Proc.devRef .tc main_arg24) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg24) := W20_of_ne m ρ c main_arg24 (by decide)
    _ = W18 m ρ c (Proc.devRef .tc main_arg24) := StableHlo.after_of_forall_not_mem (b := Proc.devRef .tc main_arg24) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg24) := W18_of_ne m ρ c main_arg24 (by decide)
    _ = W16 m ρ c (Proc.devRef .tc main_arg24) := StableHlo.after_of_forall_not_mem (b := Proc.devRef .tc main_arg24) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg24) := W16_of_ne m ρ c main_arg24 (by decide)
    _ = W14 m ρ c (Proc.devRef .tc main_arg24) := StableHlo.after_of_forall_not_mem (b := Proc.devRef .tc main_arg24) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg24) := W12_of_ne m ρ c main_arg24 (by decide)
    _ = W10 m ρ c (Proc.devRef .tc main_arg24) := StableHlo.after_of_forall_not_mem (b := Proc.devRef .tc main_arg24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg24) := W10_of_ne m ρ c main_arg24 (by decide)
    _ = W8 m ρ c (Proc.devRef .tc main_arg24) := StableHlo.after_of_forall_not_mem (b := Proc.devRef .tc main_arg24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg19_18_0 (c : Dev nD) : W18 m ρ c (Proc.devRef .tc main_arg19) = W0 m ρ c (Proc.devRef .tc main_arg19) :=
  calc W18 m ρ c (Proc.devRef .tc main_arg19)
    _ = W17 m ρ c (Proc.devRef .tc main_arg19) := W18_of_ne m ρ c main_arg19 (by decide)
    _ = W16 m ρ c (Proc.devRef .tc main_arg19) := StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg19) := W16_of_ne m ρ c main_arg19 (by decide)
    _ = W14 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg17_14_0 (c : Dev nD) : W14 m ρ c (Proc.devRef .tc main_arg17) = W0 m ρ c (Proc.devRef .tc main_arg17) :=
  calc W14 m ρ c (Proc.devRef .tc main_arg17)
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v8_15_1 (c : Dev nD) : W15 m ρ c (Proc.devRef .tc main_v8) = W1 m ρ c (Proc.devRef .tc main_v8) :=
  calc W15 m ρ c (Proc.devRef .tc main_v8)
    _ = W14 m ρ c (Proc.devRef .tc main_v8) := StableHlo.after_of_forall_not_mem (b := Proc.devRef .tc main_v8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v8) := W14_of_ne m ρ c main_v8 (by decide)
    _ = W12 m ρ c (Proc.devRef .tc main_v8) := StableHlo.after_of_forall_not_mem (b := Proc.devRef .tc main_v8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v8) := W12_of_ne m ρ c main_v8 (by decide)
    _ = W10 m ρ c (Proc.devRef .tc main_v8) := StableHlo.after_of_forall_not_mem (b := Proc.devRef .tc main_v8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v8) := W10_of_ne m ρ c main_v8 (by decide)
    _ = W8 m ρ c (Proc.devRef .tc main_v8) := StableHlo.after_of_forall_not_mem (b := Proc.devRef .tc main_v8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v8) := W8_of_ne m ρ c main_v8 (by decide)
    _ = W6 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := (W4_arr m ρ c 1).trans (((dat1 (V3 m ρ) c).arrAt_in 1 rfl _).trans (A_eq1 (V3 m ρ) c 1))
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

theorem keep_v3_12_1 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_arg23_10_0 (c : Dev nD) : W10 m ρ c (Proc.devRef .tc main_arg23) = W0 m ρ c (Proc.devRef .tc main_arg23) :=
  calc W10 m ρ c (Proc.devRef .tc main_arg23)
    _ = W9 m ρ c (Proc.devRef .tc main_arg23) := W10_of_ne m ρ c main_arg23 (by decide)
    _ = W8 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem keep_arg9_2_0 (c : Dev nD) : W2 m ρ c (Proc.devRef .tc main_arg9) = W0 m ρ c (Proc.devRef .tc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v79_11_9 (c : Dev nD) : W11 m ρ c (Proc.devRef .tc main_v79) = W9 m ρ c (Proc.devRef .tc main_v79) :=
  calc W11 m ρ c (Proc.devRef .tc main_v79)
    _ = W10 m ρ c (Proc.devRef .tc main_v79) := StableHlo.after_of_forall_not_mem (b := Proc.devRef .tc main_v79) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v79) := (W10_arr m ρ c 0).trans (((dat4 (V9 m ρ) c).arrAt_in 0 rfl _).trans (A_eq4 (V9 m ρ) c 0))

theorem keep_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.Stage2.lean ====
/-
  Region 0's output at its exit is the reference's first node update: the region's value lemma at the entry contents, the entry contents read back through the first stretch, and the stage equation.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region0
import proofs.«106696_j33449205301454_2_alg».proof.Proof.Math2
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f2_v31 (c : Dev nD)
    (h29 : W1 m ρ c (Proc.devRef .tc main_v29) = (Cert.ReferenceIdeal.Read.val_main_v31 (F := Ideal) (m ((c : Thread nD τ).loc main_arg0)) (m ((c : Thread nD τ).loc main_arg1))))
    (h30 : W1 m ρ c (Proc.devRef .tc main_v30) = row64 (m ((c : Thread nD τ).loc main_arg4))) :
    W2 m ρ c (Proc.devRef .tc main_v31) = (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine ((W2_arr m ρ c 5).trans (Cert.KernelIdeal.Region0.final (V1 m ρ) c)).trans ?_
  show Cert.KernelIdeal.Region0.nodeOut (W1 m ρ c (Proc.devRef .tc main_v29)) (W1 m ρ c (Proc.devRef .tc main_arg0)) (W1 m ρ c (Proc.devRef .tc main_arg3)) (W1 m ρ c (Proc.devRef .tc main_v30)) (W1 m ρ c (Proc.devRef .tc main_arg5)) = _
  rw [h29, h30, Keep.keep_arg0_1_0 m ρ c, Keep.keep_arg3_1_0 m ρ c, Keep.keep_arg5_1_0 m ρ c]
  exact node1 _ _ _ _ _

end Cert.KernelIdeal.Stage

end
-- ==== Proof.Region1.lean ====
/-
  Region 1 (the edge gate): for the contents V the region is entered with, the output array ends holding, at
  every (p, q) of the [1700000, 64] result, with the transformed edge attribute
      e (p, j) = (∑ k : Fin 16, ea (p, k) · We (k, j)) + be (0, j)
  and the gate's pre-activation
      s = ((∑ j : Fin 64, oc (p, j) · Wg1 (j, q)) + ∑ j : Fin 64, e (p, j) · Wg2 (j, q)) + bg (0, q),
  the entry  logistic s · e (p, q).  Each of the 170 grid points writes the 10000 rows of its block; every matrix
  product runs into a zero accumulator, so each is the plain sum over the contracted axis.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- A matrix product of an [M, K] by a [K, N] matrix into the zero accumulator, read at (p, q): the sum over the
    contracted coordinate k of x (p, k) · w (k, q). The four hypotheses say which operand coordinate each of the
    product's index maps takes from the output index and which from the contraction index. -/
theorem matmul_zero_rc {M K N : Nat} {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The transformed edge attribute at (p, j): row p of the attributes against column j of the weights, plus the bias. -/
def edgeT (ea : S1700000x16.Idx → EReal) (We : S16x64.Idx → EReal) (be : S1x64.Idx → EReal) (p : Fin 1700000) (j : Fin 64) : EReal :=
  (∑ k : Fin 16, ea (ix2 p k) * We (ix2 k j)) + be (ix2 0 j)

/-- The gated edge message's entry: the logistic of the gate's pre-activation times the transformed edge attribute. -/
def gateOut (oc : S1700000x64.Idx → EReal) (ea : S1700000x16.Idx → EReal) (We : S16x64.Idx → EReal) (be : S1x64.Idx → EReal)
    (Wg1 Wg2 : S64x64.Idx → EReal) (bg : S1x64.Idx → EReal) : S1700000x64.Idx → EReal :=
  fun i => Ideal.logistic
      (((∑ j : Fin 64, oc (ix2 (n0 := 1700000) (n1 := 64) ⟨(i 0).val, (i 0).isLt⟩ j)
            * Wg1 (ix2 (n0 := 64) (n1 := 64) j ⟨(i 1).val, (i 1).isLt⟩))
          + ∑ j : Fin 64, edgeT ea We be ⟨(i 0).val, (i 0).isLt⟩ j * Wg2 (ix2 (n0 := 64) (n1 := 64) j ⟨(i 1).val, (i 1).isLt⟩))
        + bg (ix2 (n0 := 1) (n1 := 64) 0 ⟨(i 1).val, (i 1).isLt⟩))
    * edgeT ea We be ⟨(i 0).val, (i 0).isLt⟩ ⟨(i 1).val, (i 1).isLt⟩

theorem gateOut_apply (oc : S1700000x64.Idx → EReal) (ea : S1700000x16.Idx → EReal) (We : S16x64.Idx → EReal)
    (be : S1x64.Idx → EReal) (Wg1 Wg2 : S64x64.Idx → EReal) (bg : S1x64.Idx → EReal) (p : Fin 1700000) (q : Fin 64) :
    gateOut oc ea We be Wg1 Wg2 bg (ix2 p q)
      = Ideal.logistic (((∑ j : Fin 64, oc (ix2 p j) * Wg1 (ix2 j q)) + ∑ j : Fin 64, edgeT ea We be p j * Wg2 (ix2 j q))
          + bg (ix2 0 q)) * edgeT ea We be p q := rfl

theorem edgeT_def (ea : S1700000x16.Idx → EReal) (We : S16x64.Idx → EReal) (be : S1x64.Idx → EReal) (p : Fin 1700000) (j : Fin 64) :
    edgeT ea We be p j = (∑ k : Fin 16, ea (ix2 p k) * We (ix2 k j)) + be (ix2 0 j) := rfl

/-! The two products' index maps: the left operand takes its row from the output and its column from the contraction,
    the right operand its row from the contraction and its column from the output. -/

theorem dotE_l0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem dotE_l1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem dotE_r0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem dotE_r1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

theorem dotG_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotG_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotG_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotG_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The logistic of a vector at an index is the logistic of its entry. -/
theorem logistic_at {s : Shape} {φ : FTy} (a : FVec Ideal s φ) (i : s.Idx) : logistic a i = Ideal.logistic (a i) := rfl

/-- The body's stored value at an entry (p, q) of the block. -/
theorem pay_at (ea : Vec Ideal S10000x16 .f32) (we : Vec Ideal S16x64 .f32) (be : Vec Ideal S1x64 .f32)
    (oc : Vec Ideal S10000x64 .f32) (wg1 wg2 : Vec Ideal S64x64 .f32) (bg : Vec Ideal S1x64 .f32) (p : Fin 10000) (q : Fin 64) :
    k1_pay1 (F := Ideal) ea we be oc wg1 wg2 bg (ix2 p q)
      = Ideal.logistic (((∑ j : Fin 64, oc (ix2 p j) * wg1 (ix2 j q))
            + ∑ j : Fin 64, ((∑ k : Fin 16, ea (ix2 p k) * we (ix2 k j)) + be (ix2 0 j)) * wg2 (ix2 j q))
          + bg (ix2 0 q))
        * ((∑ k : Fin 16, ea (ix2 p k) * we (ix2 k q)) + be (ix2 0 q)) := by
  have he : ∀ j : Fin 64, (addf (F := Ideal) (matmul (F := Ideal) (φ₁ := .f32) (φ₂ := .f32) dot_S10000x16_S16x64_S10000x64_1_0_0_1_n_n none ea we
          (constant (F := Ideal) S10000x64 .f32 0x00000000#32))
        (broadcastTo S10000x64 be broadcasts_S1x64_S10000x64) : FVec Ideal S10000x64 .f32) (ix2 p j)
      = (∑ k : Fin 16, ea (ix2 p k) * we (ix2 k j)) + be (ix2 0 j) := fun j => by
    rw [addf_apply, broadcastTo_1b_ab_apply]
    exact congrArg (· + be (ix2 0 j)) (matmul_zero_rc (φ₁ := .f32) (φ₂ := .f32) dot_S10000x16_S16x64_S10000x64_1_0_0_1_n_n rfl rfl dotE_l0 dotE_l1 dotE_r0 dotE_r1 none ea we p j)
  unfold k1_pay1
  simp only [shapeCast_self]
  rw [mulf_apply, logistic_at, addf_apply, addf_apply, broadcastTo_1b_ab_apply, he q]
  refine congrArg (fun s => Ideal.logistic (s + bg (ix2 0 q)) * _) ?_
  refine congrArg₂ (· + ·) ?_ ?_
  · exact matmul_zero_rc dot_S10000x64_S64x64_S10000x64_1_0_0_1_n_n rfl rfl dotG_l0 dotG_l1 dotG_r0 dotG_r1 none oc wg1 p q
  · refine (matmul_zero_rc dot_S10000x64_S64x64_S10000x64_1_0_0_1_n_n rfl rfl dotG_l0 dotG_l1 dotG_r0 dotG_r1 none _ wg2 p q).trans ?_
    exact Finset.sum_congr rfl fun j _ => congrArg (· * wg2 (ix2 j q)) (he j)

/-- One block against the arrays: if the block's source-feature and edge-attribute rows are the arrays' rows
    n · 10000 + p, and the weights and the biases are read whole, the stored value at (p, q) is the specification at
    (n · 10000 + p, q). -/
theorem blk_at (OC : S1700000x64.Idx → EReal) (EA : S1700000x16.Idx → EReal) (We : S16x64.Idx → EReal) (Be : S1x64.Idx → EReal)
    (Wg1 Wg2 : S64x64.Idx → EReal) (Bg : S1x64.Idx → EReal)
    (ea : Vec Ideal S10000x16 .f32) (we : Vec Ideal S16x64 .f32) (be : Vec Ideal S1x64 .f32)
    (oc : Vec Ideal S10000x64 .f32) (wg1 wg2 : Vec Ideal S64x64 .f32) (bg : Vec Ideal S1x64 .f32) (n : Nat) (hn : n < 170)
    (hoc : ∀ (p : Fin 10000) (k : Fin 64), oc (ix2 p k) = OC (ix2 ⟨n * 10000 + p.val, by omega⟩ k))
    (hea : ∀ (p : Fin 10000) (k : Fin 16), ea (ix2 p k) = EA (ix2 ⟨n * 10000 + p.val, by omega⟩ k))
    (hwe : we = We) (hbe : be = Be) (hwg1 : wg1 = Wg1) (hwg2 : wg2 = Wg2) (hbg : bg = Bg)
    (j : S10000x64.Idx) (i : S1700000x64.Idx) (hi0 : (i 0).val = n * 10000 + (j 0).val) (hi1 : (i 1).val = (j 1).val) :
    k1_pay1 (F := Ideal) ea we be oc wg1 wg2 bg j = gateOut OC EA We Be Wg1 Wg2 Bg i := by
  obtain ⟨p, q, rfl⟩ : ∃ (p : Fin 10000) (q : Fin 64), j = ix2 p q := ⟨j 0, j 1, eq_ix2 j⟩
  have hlt : n * 10000 + p.val < 1700000 := by have := p.isLt; omega
  have hi : i = ix2 ⟨n * 10000 + p.val, hlt⟩ q := by
    funext a
    match a with
    | ⟨0, _⟩ => exact Fin.ext hi0
    | ⟨1, _⟩ => exact Fin.ext hi1
  subst hwe hbe hwg1 hwg2 hbg
  have he : ∀ u : Fin 64, (∑ k : Fin 16, ea (ix2 p k) * we (ix2 k u)) + be (ix2 0 u) = edgeT EA we be ⟨n * 10000 + p.val, hlt⟩ u :=
    fun u => congrArg (· + be (ix2 0 u)) (Finset.sum_congr rfl fun k _ => congrArg (· * we (ix2 k u)) (hea p k))
  rw [hi, pay_at, gateOut_apply, he q]
  refine congrArg (fun s => Ideal.logistic (s + bg (ix2 0 q)) * _) ?_
  refine congrArg₂ (· + ·) ?_ ?_
  · exact Finset.sum_congr rfl fun k _ => congrArg (· * wg1 (ix2 k q)) (hoc p k)
  · exact Finset.sum_congr rfl fun u _ => congrArg (· * wg2 (ix2 u q)) (he u)

variable (V : (c : Dev nD) → (b : Ref sig .tc) → Buf (Elt Ideal) ((c : Thread nD τ).loc b))

theorem hz : (![0, 0] : Fin 2 → Nat) = fun _ => 0 := funext fun a => by fin_cases a <;> rfl

/-- The index maps over the 170 points: the tiled windows sit at row block t, the weights and the biases at the origin. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Window 0's block at point t holds rows t · 10000 + p of its array. -/
theorem rows_oc (c : Dev nD) (t : Fin cfg1.N) (p : Fin 10000) (k : Fin 64) (h : t.val * 10000 + p.val < 1700000) :
    iblk1 V c 0 t (ix2 p k) = V c (Pipeline.arrRef spec1 0) (ix2 ⟨t.val * 10000 + p.val, h⟩ k) := by
  obtain ⟨-, -, e0, e1, -, -, -, -, -, -, -, -, -, -, -, -⟩ := idx_facts t
  show V c (Pipeline.arrRef spec1 0) (((cfg1.win 0).blk t).view.emb (ix2 p k)) = _
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- Window 1's block at point t holds rows t · 10000 + p of its array. -/
theorem rows_ea (c : Dev nD) (t : Fin cfg1.N) (p : Fin 10000) (k : Fin 16) (h : t.val * 10000 + p.val < 1700000) :
    iblk1 V c 1 t (ix2 p k) = V c (Pipeline.arrRef spec1 1) (ix2 ⟨t.val * 10000 + p.val, h⟩ k) := by
  obtain ⟨-, -, -, -, e0, e1, -, -, -, -, -, -, -, -, -, -⟩ := idx_facts t
  show V c (Pipeline.arrRef spec1 1) (((cfg1.win 1).blk t).view.emb (ix2 p k)) = _
  refine congrArg _ (funext fun a => Fin.ext ?_)
  match a with
  | ⟨0, _⟩ => show win1_1.index t (0 : Fin 2) * 10000 + 1 * p.val = t.val * 10000 + p.val; omega
  | ⟨1, _⟩ => show win1_1.index t (1 : Fin 2) * 16 + 1 * k.val = k.val; omega

/-- Window 2's block at every point is its whole array. -/
theorem whole_we (c : Dev nD) (t : Fin cfg1.N) : iblk1 V c 2 t = V c (Pipeline.arrRef spec1 2) := by
  obtain ⟨-, -, -, -, -, -, e0, e1, -, -, -, -, -, -, -, -⟩ := idx_facts t
  funext y
  show V c (Pipeline.arrRef spec1 2) (((cfg1.win 2).blk t).view.emb y) = _
  refine congrArg _ (funext fun a => Fin.ext ?_)
  match a with
  | ⟨0, _⟩ => show win1_2.index t (0 : Fin 2) * 16 + 1 * (y 0).val = (y 0).val; omega
  | ⟨1, _⟩ => show win1_2.index t (1 : Fin 2) * 64 + 1 * (y 1).val = (y 1).val; omega

/-- Window 3's block at every point is its whole array. -/
theorem whole_be (c : Dev nD) (t : Fin cfg1.N) : iblk1 V c 3 t = V c (Pipeline.arrRef spec1 3) := by
  obtain ⟨-, -, -, -, -, -, -, -, e0, e1, -, -, -, -, -, -⟩ := idx_facts t
  funext y
  show V c (Pipeline.arrRef spec1 3) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block at every point is its whole array. -/
theorem whole_wg1 (c : Dev nD) (t : Fin cfg1.N) : iblk1 V c 4 t = V c (Pipeline.arrRef spec1 4) := by
  obtain ⟨-, -, -, -, -, -, -, -, -, -, e0, e1, -, -, -, -⟩ := idx_facts t
  funext y
  show V c (Pipeline.arrRef spec1 4) (((cfg1.win 4).blk t).view.emb y) = _
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's block at every point is its whole array. -/
theorem whole_wg2 (c : Dev nD) (t : Fin cfg1.N) : iblk1 V c 5 t = V c (Pipeline.arrRef spec1 5) := by
  obtain ⟨-, -, -, -, -, -, -, -, -, -, -, -, e0, e1, -, -⟩ := idx_facts t
  funext y
  show V c (Pipeline.arrRef spec1 5) (((cfg1.win 5).blk t).view.emb y) = _
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block at every point is its whole array. -/
theorem whole_bg (c : Dev nD) (t : Fin cfg1.N) : iblk1 V c 6 t = V c (Pipeline.arrRef spec1 6) := by
  obtain ⟨-, -, -, -, -, -, -, -, -, -, -, -, -, -, e0, e1⟩ := idx_facts t
  funext y
  show V c (Pipeline.arrRef spec1 6) (((cfg1.win 6).blk t).view.emb y) = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What point t writes back is block t of the specification. -/
theorem flushed_eq (c : Dev nD) (t : Fin cfg1.N) :
    (dat1 V c).flushed 7 t = ((cfg1.win 7).blk t).view.read (Elt Ideal)
      (gateOut (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7]
  unfold out1_7
  rw [View.canon_unit_zero hz]
  simp only [View.ld_unit_zero (S := S10000x64) hz, View.ld_unit_zero (S := S10000x16) hz, View.ld_unit_zero (S := S16x64) hz,
    View.ld_unit_zero (S := S1x64) hz, View.ld_unit_zero (S := S64x64) hz]
  obtain ⟨e70, e71, -⟩ := idx_facts t
  have ht : t.val < 170 := lt_of_lt_of_eq t.isLt N_1
  funext j
  refine blk_at _ _ _ _ _ _ _ _ _ _ _ _ _ _ t.val ht (fun p k => rows_oc V c t p k _) (fun p k => rows_ea V c t p k _)
    (whole_we V c t) (whole_be V c t) (whole_wg1 V c t) (whole_wg2 V c t) (whole_bg V c t) j _ ?_ ?_
  · show win1_7.index t (0 : Fin 2) * 10000 + 1 * (j 0).val = t.val * 10000 + (j 0).val; omega
  · show win1_7.index t (1 : Fin 2) * 64 + 1 * (j 1).val = (j 1).val; omega

/-- An index of the array is in point t's block iff each coordinate is in the block's range on its axis. -/
theorem mem_blk (t : Fin cfg1.N) (i : S1700000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v43).slice (win1_7.rect t)).set ↔ _
  rw [View.set_slice_whole, Rect.mem_set_unit]
  exact Iff.rfl

/-- Row r lies in the block of point r / 10000, and every point writes back. -/
theorem cover (i : S1700000x64.Idx) :
    ∃ t : Fin cfg1.N, (cfg1.win 7).flush t = true ∧ i ∈ ((cfg1.win 7).blk t).view.set := by
  have hi0 : (i 0).val < 1700000 := (i 0).isLt
  have hi1 : (i 1).val < 64 := (i 1).isLt
  have hN : (i 0).val / 10000 < cfg1.N := lt_of_lt_of_eq (by omega : (i 0).val / 10000 < 170) N_1.symm
  obtain ⟨e70, e71, -⟩ := idx_facts ⟨(i 0).val / 10000, hN⟩
  refine ⟨⟨(i 0).val / 10000, hN⟩, flush1_7 _, ?_⟩
  rw [mem_blk]
  intro a
  match a with
  | ⟨0, _⟩ =>
    show win1_7.index ⟨(i 0).val / 10000, hN⟩ (0 : Fin 2) * 10000 ≤ (i 0).val
      ∧ (i 0).val < win1_7.index ⟨(i 0).val / 10000, hN⟩ (0 : Fin 2) * 10000 + 10000
    rw [e70]
    show (i 0).val / 10000 * 10000 ≤ (i 0).val ∧ (i 0).val < (i 0).val / 10000 * 10000 + 10000
    omega
  | ⟨1, _⟩ =>
    show win1_7.index ⟨(i 0).val / 10000, hN⟩ (1 : Fin 2) * 64 ≤ (i 1).val
      ∧ (i 1).val < win1_7.index ⟨(i 0).val / 10000, hN⟩ (1 : Fin 2) * 64 + 64
    rw [e71]
    omega

/-- The output array after the region: the gated edge messages of the seven input arrays as the region found them. -/
theorem final (c : Dev nD) :
    (dat1 V c).arrAt 7 cfg1.N
      = gateOut (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 V c).arrAt_eq_of_cover 7 _ (fun t _ => flushed_eq V c t) cover

end Cert.KernelIdeal.Region1

end
-- ==== Proof.Math4.lean ====
/-
  The first layer's gated edge messages, as the region computes them from the gathered node rows, the edge attributes and the split gate weights, are the reference's stage: the reference multiplies the concatenation [gathered row, transformed attributes] by the whole [128, 64] gate matrix, which is the sum of the two half products; its logistic is spelt 1 / (1 + exp (−s)).
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region1
import proofs.«106696_j33449205301454_2_alg».proof.Proof.Math2
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

open Cert.ReferenceIdeal.Read
open scoped BigOperators

/-- The upper and the lower half of the gate matrix. -/
abbrev gateTop (w : S128x64.Idx → EReal) : S64x64.Idx → EReal := extractStridedSlice S64x64 ![0, 0] w slices_S128x64_S64x64_0_0
abbrev gateBot (w : S128x64.Idx → EReal) : S64x64.Idx → EReal := extractStridedSlice S64x64 ![64, 0] w slices_S128x64_S64x64_64_0

theorem gateTop_apply (w : S128x64.Idx → EReal) (j : Fin 64) (q : Fin 64) :
    gateTop w (ix2 j q) = w (ix2 ⟨j.val, by omega⟩ q) :=
  extractStridedSlice_apply _ w slices_S128x64_S64x64_0_0 (ix2 j q) (ix2 ⟨j.val, by omega⟩ q) (fun a => by
    match a with
    | ⟨0, _⟩ => show j.val = 0 + j.val; omega
    | ⟨1, _⟩ => show q.val = 0 + q.val; omega)
theorem gateBot_apply (w : S128x64.Idx → EReal) (j : Fin 64) (q : Fin 64) :
    gateBot w (ix2 j q) = w (ix2 ⟨64 + j.val, by omega⟩ q) :=
  extractStridedSlice_apply _ w slices_S128x64_S64x64_64_0 (ix2 j q) (ix2 ⟨64 + j.val, by omega⟩ q) (fun a => by
    match a with
    | ⟨0, _⟩ => show 64 + j.val = 64 + j.val; rfl
    | ⟨1, _⟩ => show q.val = 0 + q.val; omega)

/-- A sum over 128 terms as the sum of its two halves. -/
theorem sum128 {β : Type*} [AddCommMonoid β] (g : Fin 128 → β) :
    ∑ k, g k = ∑ j : Fin 64, g ⟨j.val, by omega⟩ + ∑ j : Fin 64, g ⟨64 + j.val, by omega⟩ :=
  Fin.sum_univ_add (a := 64) (b := 64) g

/-- The concatenation along the second axis read in its left and in its right half. -/
theorem cat_left (a b : Cert.ReferenceIdeal.S1700000x64.Idx → EReal) (p : Fin 1700000) (j : Fin 64) :
    concatenate Cert.ReferenceIdeal.S1700000x128 1 [⟨Cert.ReferenceIdeal.S1700000x64, a⟩, ⟨Cert.ReferenceIdeal.S1700000x64, b⟩] Cert.ReferenceIdeal.Facts₀.concatenates_S1700000x64_S1700000x64_S1700000x128_d1
      (ix2 p ⟨j.val, by omega⟩) = a (ix2 p j) :=
  concatenate_pair_apply_left (t := Cert.ReferenceIdeal.S1700000x128) (1 : Fin 2) a b Cert.ReferenceIdeal.Facts₀.concatenates_S1700000x64_S1700000x64_S1700000x128_d1 _ rfl (ix2 p j) (fun d => by
    match d with
    | ⟨0, _⟩ => rfl
    | ⟨1, _⟩ => rfl)
theorem cat_right (a b : Cert.ReferenceIdeal.S1700000x64.Idx → EReal) (p : Fin 1700000) (j : Fin 64) :
    concatenate Cert.ReferenceIdeal.S1700000x128 1 [⟨Cert.ReferenceIdeal.S1700000x64, a⟩, ⟨Cert.ReferenceIdeal.S1700000x64, b⟩] Cert.ReferenceIdeal.Facts₀.concatenates_S1700000x64_S1700000x64_S1700000x128_d1
      (ix2 p ⟨64 + j.val, by omega⟩) = b (ix2 p j) :=
  concatenate_pair_apply_right (t := Cert.ReferenceIdeal.S1700000x128) (1 : Fin 2) a b Cert.ReferenceIdeal.Facts₀.concatenates_S1700000x64_S1700000x64_S1700000x128_d1 _ rfl rfl (ix2 p j) (fun d hd => by
    match d with
    | ⟨0, _⟩ => rfl
    | ⟨1, _⟩ => exact absurd rfl hd) (by show j.val + 64 = 64 + j.val; omega)

theorem lidx9 (p : Fin 1700000) (q : Fin 64) (k : Fin 16) : lidx_main_v9 (ix2 p q) k = ix2 p k :=
  funext fun a => Fin.ext (by match a with | ⟨0, _⟩ => rfl | ⟨1, _⟩ => rfl)
theorem ridx9 (p : Fin 1700000) (q : Fin 64) (k : Fin 16) : ridx_main_v9 (ix2 p q) k = ix2 k q :=
  funext fun a => Fin.ext (by match a with | ⟨0, _⟩ => rfl | ⟨1, _⟩ => rfl)
theorem idx1110 (p : Fin 1700000) (q : Fin 64) : idx_main_v10 (idx_main_v11 (ix2 p q)) = ix1 q :=
  funext fun a => Fin.ext (by match a with | ⟨0, _⟩ => rfl)
theorem lidx46 (p : Fin 1700000) (q : Fin 64) (k : Fin 128) : lidx_main_v46 (ix2 p q) k = ix2 p k :=
  funext fun a => Fin.ext (by match a with | ⟨0, _⟩ => rfl | ⟨1, _⟩ => rfl)
theorem ridx46 (p : Fin 1700000) (q : Fin 64) (k : Fin 128) : ridx_main_v46 (ix2 p q) k = ix2 k q :=
  funext fun a => Fin.ext (by match a with | ⟨0, _⟩ => rfl | ⟨1, _⟩ => rfl)
theorem idx4847 (p : Fin 1700000) (q : Fin 64) : idx_main_v47 (idx_main_v48 (ix2 p q)) = ix1 q :=
  funext fun a => Fin.ext (by match a with | ⟨0, _⟩ => rfl)

/-- The transformed edge attributes: the region's entry is the reference's stage. -/
theorem edge1 (x2 : (⟨S1600000x16, .f32⟩ : BufTy).Contents (Elt Ideal)) (x6 : (⟨S16x64, .f32⟩ : BufTy).Contents (Elt Ideal)) (x7 : (⟨S64, .f32⟩ : BufTy).Contents (Elt Ideal)) (p : Fin 1700000) (j : Fin 64) :
    Cert.KernelIdeal.Region1.edgeT (Cert.ReferenceIdeal.Read.val_main_v8 (F := Ideal) x2) x6 (row64 x7) p j = (Cert.ReferenceIdeal.Read.val_main_v12 (F := Ideal) x2 x6 x7) (ix2 p j) := by
  rw [Cert.KernelIdeal.Region1.edgeT_def, val_main_v12_apply, val_main_v9_apply, val_main_v11_apply, val_main_v10_apply, idx1110, row64_apply]
  simp only [lidx9, ridx9, Ideal.addf_def]

theorem one_word : Ideal.ofBits .f32 0x3F800000#32 = 1 := by
  simp [Ideal.ofBits, Ideal.ieee]
  rw [← EReal.coe_mul, ← EReal.coe_one]
  norm_num

theorem gate1 (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) :
    Cert.KernelIdeal.Region1.gateOut (Cert.ReferenceIdeal.Read.val_main_v44 (F := Ideal) x0 x1 x3 x4 x5) (Cert.ReferenceIdeal.Read.val_main_v8 (F := Ideal) x2) x6 (row64 x7) (gateTop x8) (gateBot x8) (row64 x9)
      = (Cert.ReferenceIdeal.Read.val_main_v56 (F := Ideal) x0 x1 x2 x3 x4 x5 x6 x7 x8 x9) := by
  funext i
  obtain ⟨p, q, rfl⟩ : ∃ (p : Fin 1700000) (q : Fin 64), i = ix2 p q := ⟨i 0, i 1, eq_ix2 i⟩
  rw [Cert.KernelIdeal.Region1.gateOut_apply]
  simp only [edge1, gateTop_apply, gateBot_apply, row64_apply]
  rw [val_main_v56_apply, val_main_v55_apply, val_main_v53_apply, val_main_v51_apply, val_main_v50_apply, val_main_v49_apply,
    val_main_v46_apply, val_main_v48_apply, val_main_v47_apply, idx4847, val_main_v54_apply, val_main_v52_apply, sum128]
  simp only [lidx46, ridx46]
  unfold val_main_v45 val_main_cst_7 val_main_cst_8
  simp only [cat_left, cat_right, constant_apply, one_word, Ideal.addf_def, Ideal.mulf_def, Ideal.hostDivf_def, Ideal.hostNegf_def,
    Ideal.negf_def, Ideal.hostUnary_exp_def]
  rfl

end Cert.KernelIdeal.Stage

end
-- ==== Proof.Stage3.lean ====
/-
  The stretch after the node update: the update gathered at the edge targets is the reference's gather; the gate matrix's two halves and the two bias rows.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Math4
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

set_option maxHeartbeats 4000000 in
theorem f3_v38 (c : Dev nD)
    (h31 : W2 m ρ c (Proc.devRef .tc main_v31) = (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))))
    (h6 : W1 m ρ c (Proc.devRef .tc main_v6) = (Cert.ReferenceIdeal.Read.val_main_v6 (F := Ideal) (m ((c : Thread nD τ).loc main_arg1)))) :
    W3 m ρ c (Proc.devRef .tc main_v38) = (Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v38) = _
  after_results
  rw [h31, Keep.keep_v6_2_1 m ρ c, h6]
  rfl

set_option maxHeartbeats 4000000 in
theorem f3_v39 (c : Dev nD) : W3 m ρ c (Proc.devRef .tc main_v39) = gateTop (m ((c : Thread nD τ).loc main_arg8)) := by
  show StableHlo.after hostOps1 (W2 m ρ c) (Proc.devRef .tc main_v39) = _
  after_results
  rw [Keep.keep_arg8_2_0 m ρ c]

set_option maxHeartbeats 4000000 in
theorem f3_v40 (c : Dev nD) : W3 m ρ c (Proc.devRef .tc main_v40) = gateBot (m ((c : Thread nD τ).loc main_arg8)) := by
  show StableHlo.after hostOps1 (W2 m ρ c) (Proc.devRef .tc main_v40) = _
  after_results
  rw [Keep.keep_arg8_2_0 m ρ c]

set_option maxHeartbeats 4000000 in
theorem f3_v41 (c : Dev nD) : W3 m ρ c (Proc.devRef .tc main_v41) = row64 (m ((c : Thread nD τ).loc main_arg7)) := by
  show StableHlo.after hostOps1 (W2 m ρ c) (Proc.devRef .tc main_v41) = _
  after_results
  rw [Keep.keep_arg7_2_0 m ρ c]
  rfl

set_option maxHeartbeats 4000000 in
theorem f3_v42 (c : Dev nD) : W3 m ρ c (Proc.devRef .tc main_v42) = row64 (m ((c : Thread nD τ).loc main_arg9)) := by
  show StableHlo.after hostOps1 (W2 m ρ c) (Proc.devRef .tc main_v42) = _
  after_results
  rw [Keep.keep_arg9_2_0 m ρ c]
  rfl

end Cert.KernelIdeal.Stage

end
-- ==== Proof.Stage4.lean ====
/-
  The gate region's output at its exit is the reference's gated edge messages.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region1
import proofs.«106696_j33449205301454_2_alg».proof.Proof.Math4
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

set_option maxHeartbeats 4000000 in
theorem f4_v43 (c : Dev nD)
    (h38 : W3 m ρ c (Proc.devRef .tc main_v38) = (Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5))))
    (h8 : W1 m ρ c (Proc.devRef .tc main_v8) = (Cert.ReferenceIdeal.Read.val_main_v8 (F := Ideal) (m ((c : Thread nD τ).loc main_arg2))))
    (h39 : W3 m ρ c (Proc.devRef .tc main_v39) = gateTop (m ((c : Thread nD τ).loc main_arg8)))
    (h40 : W3 m ρ c (Proc.devRef .tc main_v40) = gateBot (m ((c : Thread nD τ).loc main_arg8)))
    (h41 : W3 m ρ c (Proc.devRef .tc main_v41) = row64 (m ((c : Thread nD τ).loc main_arg7)))
    (h42 : W3 m ρ c (Proc.devRef .tc main_v42) = row64 (m ((c : Thread nD τ).loc main_arg9))) :
    W4 m ρ c (Proc.devRef .tc main_v43) = (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine ((W4_arr m ρ c 7).trans (Cert.KernelIdeal.Region1.final (V3 m ρ) c)).trans ?_
  show Cert.KernelIdeal.Region1.gateOut (W3 m ρ c (Proc.devRef .tc main_v38)) (W3 m ρ c (Proc.devRef .tc main_v8)) (W3 m ρ c (Proc.devRef .tc main_arg6)) (W3 m ρ c (Proc.devRef .tc main_v41)) (W3 m ρ c (Proc.devRef .tc main_v39)) (W3 m ρ c (Proc.devRef .tc main_v40)) (W3 m ρ c (Proc.devRef .tc main_v42)) = _
  rw [h38, Keep.keep_v8_3_1 m ρ c, h8, Keep.keep_arg6_3_0 m ρ c, h41, h39, h40, h42]
  exact gate1 _ _ _ _ _ _ _ _ _ _

end Cert.KernelIdeal.Stage

end
-- ==== Proof.Stage5.lean ====
/-
  The stretch after the gate region: the node update and the scattered edge messages in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f5_v47 (c : Dev nD)
    (h31 : W2 m ρ c (Proc.devRef .tc main_v31) = (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) :
    W5 m ρ c (Proc.devRef .tc main_v47) = pack (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps2 (W4 m ρ c) (Proc.devRef .tc main_v47) = _
  after_results
  rw [Keep.keep_v31_4_2 m ρ c, h31]
  rfl

theorem f5_v48 (c : Dev nD)
    (h43 : W4 m ρ c (Proc.devRef .tc main_v43) = (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
    (h6 : W1 m ρ c (Proc.devRef .tc main_v6) = (Cert.ReferenceIdeal.Read.val_main_v6 (F := Ideal) (m ((c : Thread nD τ).loc main_arg1)))) :
    W5 m ρ c (Proc.devRef .tc main_v48) = pack (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v48) = _
  after_results
  rw [h43, Keep.keep_v6_4_1 m ρ c, h6]
  rfl

end Cert.KernelIdeal.Stage

end
-- ==== Proof.Region2.lean ====
/-
  Region 2 (the entrywise sum of two packed [50000, 128] arrays, with its running column sums and column sums of squares):
  for the contents V the region is entered with, the third window's array ends holding a (r, l) + b (r, l) at every entry,
  and the two [1, 128] accumulator arrays end holding, at lane q,
      0 + ∑ r < 50000, (a + b) (r, q)      and      0 + ∑ r < 50000, (a + b) (r, q) · (a + b) (r, q),
  a and b the first two windows' arrays and 0 the zero word the first point stores. Each of the ten grid points stores the
  sum of its two 5000-row blocks and adds its column sums to the rows the point before left; the last point alone writes
  the accumulators back.
-/
import proofs.«106696_j33449205301454_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Tactic
open Idealize.ShloMosaic.ValueIdx
open Idealize.ShloMosaic.Pipeline (Dat)
open scoped BigOperators

/-- The index the reduction over the first axis reads for column q at position k is (k, q). -/
theorem lift_col {M N : Nat} (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum over the first axis of an [M, N] matrix, read at column q: the sum of the column's entries. -/
theorem colSum_apply {M N : Nat} (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) := by
  refine (Ideal.multiReduction_add_single src 0x00000000#32 h hφ hacc (ix1 q)).trans ?_
  exact Finset.sum_congr rfl fun k _ => congrArg src (lift_col h q k)

/-- The zero word. -/
abbrev z : EReal := Ideal.ofBits .f32 0x00000000#32

/-- The stored block is the entrywise sum of the two input blocks. -/
theorem pay1_at (a b : Vec Ideal S5000x128 .f32) (i : S5000x128.Idx) : k2_pay1 (F := Ideal) a b i = a i + b i := by
  unfold k2_pay1
  simp only [shapeCast_self, addf_apply]

/-- The first accumulator's new row at lane q: the old row plus the column sum of the summed block. -/
theorem pay4_at (a b : Vec Ideal S5000x128 .f32) (acc : Vec Ideal S1x128 .f32) (q : Fin 128) :
    k2_pay4 (F := Ideal) a b acc (ix2 0 q) = acc (ix2 0 q) + ∑ k : Fin 5000, (a (ix2 k q) + b (ix2 k q)) := by
  unfold k2_pay4
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  exact Finset.sum_congr rfl fun k _ => pay1_at a b (ix2 k q)

/-- The second accumulator's new row at lane q: the old row plus the column sum of squares of the summed block. -/
theorem pay5_at (a b : Vec Ideal S5000x128 .f32) (acc : Vec Ideal S1x128 .f32) (q : Fin 128) :
    k2_pay5 (F := Ideal) a b acc (ix2 0 q)
      = acc (ix2 0 q) + ∑ k : Fin 5000, (a (ix2 k q) + b (ix2 k q)) * (a (ix2 k q) + b (ix2 k q)) := by
  unfold k2_pay5
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  refine Finset.sum_congr rfl fun k _ => ?_
  rw [mulf_apply, pay1_at]

/-- Row r (taken modulo the extent, so that every natural number names a row) of the [50000, 128] array at lane q. -/
def rowAt (x : S50000x128.Idx → EReal) (r : ℕ) (q : Fin 128) : EReal :=
  x (ix2 (⟨r % 50000, Nat.mod_lt _ (by norm_num)⟩ : Fin 50000) q)

/-- The column sums of the rows below a bound, from the zero word. -/
def sumBelow (f : S50000x128.Idx → EReal) (n : ℕ) : Vec Ideal S1x128 .f32 :=
  fun i => z + ∑ r ∈ Finset.range n, rowAt f r (i 1)

/-- The column sums over all rows of the array, from the zero word. -/
def colSums (f : S50000x128.Idx → EReal) : S1x128.Idx → EReal :=
  fun i => z + ∑ r : Fin 50000, f (ix2 r (i 1))

theorem colSums_apply (f : S50000x128.Idx → EReal) (q : Fin 128) :
    colSums f (ix2 0 q) = z + ∑ r : Fin 50000, f (ix2 r q) := rfl

/-- The sums below the full extent are the sums over the array. -/
theorem sumBelow_all (f : S50000x128.Idx → EReal) : sumBelow f 50000 = colSums f := by
  funext i
  unfold sumBelow colSums
  rw [Finset.sum_range]
  refine congrArg (z + ·) (Finset.sum_congr rfl fun r _ => ?_)
  unfold rowAt
  exact congrArg f (congrArg (fun a => ix2 a (i 1)) (Fin.ext (Nat.mod_eq_of_lt r.isLt)))

/-- Adding the next 5000 rows to the sums below a bound. -/
theorem sumBelow_step (f : S50000x128.Idx → EReal) (n : ℕ) (q : Fin 128) :
    sumBelow f n (ix2 0 q) + ∑ k : Fin 5000, rowAt f (n + k.val) q = sumBelow f (n + 5000) (ix2 0 q) := by
  unfold sumBelow
  rw [Finset.sum_range_add, ← Finset.sum_range (fun k => rowAt f (n + k) q), add_assoc]

/-- The squares of the entries. -/
def sq (f : S50000x128.Idx → EReal) : S50000x128.Idx → EReal := fun i => f i * f i

/-- The column sums of squares over all rows of the array, from the zero word. -/
def colSumSqs (f : S50000x128.Idx → EReal) : S1x128.Idx → EReal := colSums (sq f)

theorem colSumSqs_apply (f : S50000x128.Idx → EReal) (q : Fin 128) :
    colSumSqs f (ix2 0 q) = z + ∑ r : Fin 50000, f (ix2 r q) * f (ix2 r q) := rfl

/-- The entrywise sum of two arrays. -/
def addArr (a b : S50000x128.Idx → EReal) : S50000x128.Idx → EReal := fun i => a i + b i

theorem addArr_apply (a b : S50000x128.Idx → EReal) (p : Fin 50000) (q : Fin 128) :
    addArr a b (ix2 p q) = a (ix2 p q) + b (ix2 p q) := rfl

/-- The reset rows are the sums below no row. -/
theorem reset_eq (f : S50000x128.Idx → EReal) : (k2_pay2 (F := Ideal)) = sumBelow f (0 * 5000) := by
  funext i
  unfold sumBelow
  rw [Nat.zero_mul, Finset.range_zero, Finset.sum_empty, add_zero]
  rfl

theorem reset_eq' (f : S50000x128.Idx → EReal) : (k2_pay3 (F := Ideal)) = sumBelow f (0 * 5000) := by
  funext i
  unfold sumBelow
  rw [Nat.zero_mul, Finset.range_zero, Finset.sum_empty, add_zero]
  rfl

/-- One point's step on the first accumulator: block m of the summed rows is added to the sums below it. -/
theorem step_sum (a b : S50000x128.Idx → EReal) (m : ℕ) (A B : Vec Ideal S5000x128 .f32)
    (hA : ∀ (k : Fin 5000) (q : Fin 128), A (ix2 k q) = rowAt a (m * 5000 + k.val) q)
    (hB : ∀ (k : Fin 5000) (q : Fin 128), B (ix2 k q) = rowAt b (m * 5000 + k.val) q) :
    k2_pay4 (F := Ideal) A B (sumBelow (addArr a b) (m * 5000)) = sumBelow (addArr a b) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay4_at, Nat.succ_mul, ← sumBelow_step]
  refine congrArg (sumBelow (addArr a b) (m * 5000) (ix2 0 q) + ·) (Finset.sum_congr rfl fun k _ => ?_)
  rw [hA k q, hB k q]
  rfl

/-- One point's step on the second accumulator: the squares of block m of the summed rows are added. -/
theorem step_sq (a b : S50000x128.Idx → EReal) (m : ℕ) (A B : Vec Ideal S5000x128 .f32)
    (hA : ∀ (k : Fin 5000) (q : Fin 128), A (ix2 k q) = rowAt a (m * 5000 + k.val) q)
    (hB : ∀ (k : Fin 5000) (q : Fin 128), B (ix2 k q) = rowAt b (m * 5000 + k.val) q) :
    k2_pay5 (F := Ideal) A B (sumBelow (sq (addArr a b)) (m * 5000)) = sumBelow (sq (addArr a b)) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay5_at, Nat.succ_mul, ← sumBelow_step]
  refine congrArg (sumBelow (sq (addArr a b)) (m * 5000) (ix2 0 q) + ·) (Finset.sum_congr rfl fun k _ => ?_)
  rw [hA k q, hB k q]
  rfl

/-- The index maps over the ten points: the three tiled windows sit at row block t. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Block t of the first tiled window read at row k and lane q is row t · 5000 + k of its array. -/
theorem blk0_read (c : Dev nD) (X : Buf (Elt Ideal) ((c : Thread nD τ).loc (Pipeline.arrRef spec2 0))) (t : Fin cfg2.N)
    (k : Fin 5000) (q : Fin 128) :
    (((cfg2.win 0).blk t).view.read (Elt Ideal) X : Vec Ideal S5000x128 .f32) (ix2 k q) = rowAt X (t.val * 5000 + k.val) q := by
  have hi := idx_facts t
  have hN : t.val < 10 := lt_of_lt_of_eq t.isLt (show cfg2.N = 10 from N_2)
  unfold rowAt
  rw [View.read_apply]
  refine congrArg X ?_
  funext a
  apply Fin.ext
  match a with
  | ⟨0, _⟩ =>
    show win2_0.index t 0 * 5000 + 1 * k.val = (t.val * 5000 + k.val) % 50000
    rw [hi.1, Nat.mod_eq_of_lt (by omega)]; omega
  | ⟨1, _⟩ =>
    show win2_0.index t 1 * 128 + 1 * q.val = q.val
    rw [hi.2.1]; omega

/-- Block t of the second tiled window read at row k and lane q is row t · 5000 + k of its array. -/
theorem blk1_read (c : Dev nD) (X : Buf (Elt Ideal) ((c : Thread nD τ).loc (Pipeline.arrRef spec2 1))) (t : Fin cfg2.N)
    (k : Fin 5000) (q : Fin 128) :
    (((cfg2.win 1).blk t).view.read (Elt Ideal) X : Vec Ideal S5000x128 .f32) (ix2 k q) = rowAt X (t.val * 5000 + k.val) q := by
  have hi := idx_facts t
  have hN : t.val < 10 := lt_of_lt_of_eq t.isLt (show cfg2.N = 10 from N_2)
  unfold rowAt
  rw [View.read_apply]
  refine congrArg X ?_
  funext a
  apply Fin.ext
  match a with
  | ⟨0, _⟩ =>
    show win2_1.index t 0 * 5000 + 1 * k.val = (t.val * 5000 + k.val) % 50000
    rw [hi.2.2.1, Nat.mod_eq_of_lt (by omega)]; omega
  | ⟨1, _⟩ =>
    show win2_1.index t 1 * 128 + 1 * q.val = q.val
    rw [hi.2.2.2.1]; omega

/-- An index of the summed array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49_0).slice (win2_2.rect t)).set ↔ _
  rw [View.set_slice_whole, Rect.mem_set_unit]
  exact Iff.rfl

/-- Every index of the summed array is in the block of the point its row falls in. -/
theorem coverC (c : Dev nD) (i : ((cfg2.win 2).arr.view.loc (c.tc : Thread nD τ)).2.ty.Idx) :
    ∃ t : Fin cfg2.N, (cfg2.win 2).flush t = true ∧ i ∈ ((cfg2.win 2).blk t).view.set := by
  have hi0 : ((i : S50000x128.Idx) 0).val < 50000 := (i 0).isLt
  have hi1 : ((i : S50000x128.Idx) 1).val < 128 := (i 1).isLt
  have hN : cfg2.N = 10 := N_2
  let t : Fin cfg2.N := ⟨((i : S50000x128.Idx) 0).val / 5000, by omega⟩
  have ht : t.val = ((i : S50000x128.Idx) 0).val / 5000 := rfl
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The last point's block of the first accumulator's window is its whole array. -/
theorem cover3 (c : Dev nD) (i : ((cfg2.win 3).arr.view.loc (c.tc : Thread nD τ)).2.ty.Idx) :
    ∃ t : Fin cfg2.N, (cfg2.win 3).flush t = true ∧ i ∈ ((cfg2.win 3).blk t).view.set :=
  ⟨t2_9, (flush2_3 t2_9).mpr rfl, by
    show i ∈ ((View.whole main_v49_1).slice (win2_3.rect t2_9)).set
    rw [View.set_slice_whole, Rect.mem_set_unit]
    intro a
    have h0 : (i 0 : Nat) < 1 := (i 0).isLt
    have h1 : (i 1 : Nat) < 128 := (i 1).isLt
    match a with
    | ⟨0, _⟩ =>
      show win2_3.index t2_9 0 * win2_3.size 0 ≤ (i 0 : Nat) ∧ (i 0 : Nat) < win2_3.index t2_9 0 * win2_3.size 0 + win2_3.xsize (grid2.coords t2_9) 0
      rw [show win2_3.index t2_9 0 * win2_3.size 0 = 0 from by decide +kernel, show win2_3.xsize (grid2.coords t2_9) 0 = 1 from by decide +kernel]; omega
    | ⟨1, _⟩ =>
      show win2_3.index t2_9 1 * win2_3.size 1 ≤ (i 1 : Nat) ∧ (i 1 : Nat) < win2_3.index t2_9 1 * win2_3.size 1 + win2_3.xsize (grid2.coords t2_9) 1
      rw [show win2_3.index t2_9 1 * win2_3.size 1 = 0 from by decide +kernel, show win2_3.xsize (grid2.coords t2_9) 1 = 128 from by decide +kernel]; omega⟩

/-- The last point's block of the second accumulator's window is its whole array. -/
theorem cover4 (c : Dev nD) (i : ((cfg2.win 4).arr.view.loc (c.tc : Thread nD τ)).2.ty.Idx) :
    ∃ t : Fin cfg2.N, (cfg2.win 4).flush t = true ∧ i ∈ ((cfg2.win 4).blk t).view.set :=
  ⟨t2_9, (flush2_4 t2_9).mpr rfl, by
    show i ∈ ((View.whole main_v49_2).slice (win2_4.rect t2_9)).set
    rw [View.set_slice_whole, Rect.mem_set_unit]
    intro a
    have h0 : (i 0 : Nat) < 1 := (i 0).isLt
    have h1 : (i 1 : Nat) < 128 := (i 1).isLt
    match a with
    | ⟨0, _⟩ =>
      show win2_4.index t2_9 0 * win2_4.size 0 ≤ (i 0 : Nat) ∧ (i 0 : Nat) < win2_4.index t2_9 0 * win2_4.size 0 + win2_4.xsize (grid2.coords t2_9) 0
      rw [show win2_4.index t2_9 0 * win2_4.size 0 = 0 from by decide +kernel, show win2_4.xsize (grid2.coords t2_9) 0 = 1 from by decide +kernel]; omega
    | ⟨1, _⟩ =>
      show win2_4.index t2_9 1 * win2_4.size 1 ≤ (i 1 : Nat) ∧ (i 1 : Nat) < win2_4.index t2_9 1 * win2_4.size 1 + win2_4.xsize (grid2.coords t2_9) 1
      rw [show win2_4.index t2_9 1 * win2_4.size 1 = 0 from by decide +kernel, show win2_4.xsize (grid2.coords t2_9) 1 = 128 from by decide +kernel]; omega⟩

theorem hz : (![0, 0] : Fin 2 → Nat) = fun _ => 0 := funext fun a => by fin_cases a <;> rfl

section Pieces
variable {F : FTy → Type} [FloatOps F]

/-- At a later point the summed block is stored. -/
theorem out_B_2 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 x1 : Vec F S5000x128 .f32) (xo3 xo4 : Vec F S1x128 .f32) :
    out2_B_2 c i a1 h1 a2 h2 a3 h3 a4 h4 a5 h5 hc x0 x1 xo3 xo4 = k2_pay1 x0 x1 := by
  unfold out2_B_2
  rw [View.read_writes_eq_canon _ _ _ (cover2_B_2 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, View.ld_unit_zero (S := S5000x128) hz]

/-- At a later point the first accumulator is left at the body's sum row over the summed block and the running row. -/
theorem out_B_3 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 x1 : Vec F S5000x128 .f32) (xo3 xo4 : Vec F S1x128 .f32) :
    out2_B_3 c i a1 h1 a2 h2 a3 h3 a4 h4 a5 h5 hc x0 x1 xo3 xo4 = k2_pay4 x0 x1 xo3 := by
  unfold out2_B_3
  rw [View.read_writes_eq_canon _ _ _ (cover2_B_3 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h4.read_unread, View.ld_unit_zero (S := S5000x128) hz,
    View.ld_unit_zero (S := S1x128) hz]

/-- At a later point the second accumulator is left at the body's sum-of-squares row and the running row. -/
theorem out_B_4 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond2_0 i) (x0 x1 : Vec F S5000x128 .f32) (xo3 xo4 : Vec F S1x128 .f32) :
    out2_B_4 c i a1 h1 a2 h2 a3 h3 a4 h4 a5 h5 hc x0 x1 xo3 xo4 = k2_pay5 x0 x1 xo4 := by
  unfold out2_B_4
  rw [View.read_writes_eq_canon _ _ _ (cover2_B_4 c i a1 h1 a2 h2 a3 h3 a4 h4 a5 h5 hc x0 x1 xo3 xo4)]
  unfold kernelRun2_B
  dsimp only
  sl_unfold_words
  rw [View.canon_unit_zero hz]
  simp only [View.readAt_eq_ld, h1.read_unread, h2.read_unread, h5.read_unread, View.ld_unit_zero (S := S5000x128) hz,
    View.ld_unit_zero (S := S1x128) hz]

/-- At the first point the summed block is stored. -/
theorem out_A_2 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 x1 : Vec F S5000x128 .f32) :
    out2_A_2 c i a1 h1 a2 h2 a3 h3 a4 h4 a5 h5 hc x0 x1 = k2_pay1 x0 x1 := by
  unfold out2_A_2
  rw [View.read_writes_eq_canon _ _ _ (cover2_A_2 c i a1 h1 a2 h2 a3 h3 a4 h4 a5 h5 hc x0 x1)]
  unfold kernelRun2_A
  dsimp only
  sl_unfold_words
  rw [View.canon_unit_zero hz]
  simp only [View.readAt_eq_ld, h1.read_unread, h2.read_unread, View.ld_unit_zero (S := S5000x128) hz]

/-- At the first point the first accumulator is reset to the zero row, read back, and left at the body's sum row over it. -/
theorem out_A_3 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 x1 : Vec F S5000x128 .f32) :
    out2_A_3 c i a1 h1 a2 h2 a3 h3 a4 h4 a5 h5 hc x0 x1 = k2_pay4 x0 x1 k2_pay2 := by
  unfold out2_A_3
  rw [View.read_writes_eq_canon _ _ _ (cover2_A_3 c i a1 h1 a2 h2 a3 h3 a4 h4 a5 h5 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz]

/-- At the first point the second accumulator likewise. -/
theorem out_A_4 (c : Dev nD) (i : grid2.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond2_0 i) (x0 x1 : Vec F S5000x128 .f32) :
    out2_A_4 c i a1 h1 a2 h2 a3 h3 a4 h4 a5 h5 hc x0 x1 = k2_pay5 x0 x1 k2_pay3 := by
  unfold out2_A_4
  rw [View.read_writes_eq_canon _ _ _ (cover2_A_4 c i a1 h1 a2 h2 a3 h3 a4 h4 a5 h5 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz]

end Pieces

variable (V : (c : Dev nD) → (b : Ref sig .tc) → Buf (Elt Ideal) ((c : Thread nD τ).loc b))

/-- The first input window's block at point t, read at row k and lane q, is row t · 5000 + k of its array. -/
theorem iblk0_at (c : Dev nD) (t : Fin cfg2.N) (k : Fin 5000) (q : Fin 128) :
    (iblk2 V c 0 t : Vec Ideal S5000x128 .f32) (ix2 k q) = rowAt (V c (Pipeline.arrRef spec2 0)) (t.val * 5000 + k.val) q := by
  unfold iblk2
  exact blk0_read c (V c (Pipeline.arrRef spec2 0)) t k q

/-- The second input window's block at point t, read at row k and lane q, is row t · 5000 + k of its array. -/
theorem iblk1_at (c : Dev nD) (t : Fin cfg2.N) (k : Fin 5000) (q : Fin 128) :
    (iblk2 V c 1 t : Vec Ideal S5000x128 .f32) (ix2 k q) = rowAt (V c (Pipeline.arrRef spec2 1)) (t.val * 5000 + k.val) q := by
  unfold iblk2
  exact blk1_read c (V c (Pipeline.arrRef spec2 1)) t k q

/-- After point n the staging buffers hold the summed block of the point, and the column sums and column sums of squares
    of the summed rows below (n + 1) · 5000: by induction on the point. -/
theorem outsAt_eq (c : Dev nD) : ∀ (n : ℕ) (h : n < cfg2.N),
    outsAt2 V c n h = (k2_pay1 (iblk2 V c 0 ⟨n, h⟩) (iblk2 V c 1 ⟨n, h⟩),
      sumBelow (addArr (V c (Pipeline.arrRef spec2 0)) (V c (Pipeline.arrRef spec2 1))) ((n + 1) * 5000),
      sumBelow (sq (addArr (V c (Pipeline.arrRef spec2 0)) (V c (Pipeline.arrRef spec2 1)))) ((n + 1) * 5000)) := by
  intro n
  induction n with
  | zero =>
    intro h
    rw [outsAt2_A V c ⟨0, h⟩ rfl]
    refine Prod.ext ?_ (Prod.ext ?_ ?_)
    · dsimp only
      exact out_A_2 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) _ (iblk2 V c 0 ⟨0, h⟩) (iblk2 V c 1 ⟨0, h⟩)
    · dsimp only
      refine (out_A_3 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) _ (iblk2 V c 0 ⟨0, h⟩) (iblk2 V c 1 ⟨0, h⟩)).trans ?_
      rw [reset_eq (addArr (V c (Pipeline.arrRef spec2 0)) (V c (Pipeline.arrRef spec2 1)))]
      exact step_sum (V c (Pipeline.arrRef spec2 0)) (V c (Pipeline.arrRef spec2 1)) 0 (iblk2 V c 0 ⟨0, h⟩) (iblk2 V c 1 ⟨0, h⟩)
        (fun k q => iblk0_at V c ⟨0, h⟩ k q) (fun k q => iblk1_at V c ⟨0, h⟩ k q)
    · dsimp only
      refine (out_A_4 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) _ (iblk2 V c 0 ⟨0, h⟩) (iblk2 V c 1 ⟨0, h⟩)).trans ?_
      rw [reset_eq' (sq (addArr (V c (Pipeline.arrRef spec2 0)) (V c (Pipeline.arrRef spec2 1))))]
      exact step_sq (V c (Pipeline.arrRef spec2 0)) (V c (Pipeline.arrRef spec2 1)) 0 (iblk2 V c 0 ⟨0, h⟩) (iblk2 V c 1 ⟨0, h⟩)
        (fun k q => iblk0_at V c ⟨0, h⟩ k q) (fun k q => iblk1_at V c ⟨0, h⟩ k q)
  | succ n ih =>
    intro h
    have hN : cfg2.N = 10 := N_2
    have hB : ¬(⟨n + 1, h⟩ : Fin cfg2.N).val % 10 = 0 := by dsimp only; omega
    have e := outsAt2_B V c ⟨n + 1, h⟩ hB
    have ih' : outsAt2 V c ((⟨n + 1, h⟩ : Fin cfg2.N).val - 1)
        (Nat.lt_of_le_of_lt (Nat.sub_le _ _) (⟨n + 1, h⟩ : Fin cfg2.N).isLt)
        = (k2_pay1 (iblk2 V c 0 ⟨n, Nat.lt_of_succ_lt h⟩) (iblk2 V c 1 ⟨n, Nat.lt_of_succ_lt h⟩),
            sumBelow (addArr (V c (Pipeline.arrRef spec2 0)) (V c (Pipeline.arrRef spec2 1))) ((n + 1) * 5000),
            sumBelow (sq (addArr (V c (Pipeline.arrRef spec2 0)) (V c (Pipeline.arrRef spec2 1)))) ((n + 1) * 5000)) := ih _
    rw [ih'] at e
    refine e.trans (Prod.ext ?_ (Prod.ext ?_ ?_))
    · dsimp only
      exact out_B_2 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) _ (iblk2 V c 0 ⟨n + 1, h⟩) (iblk2 V c 1 ⟨n + 1, h⟩) _ _
    · dsimp only
      refine (out_B_3 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) _ (iblk2 V c 0 ⟨n + 1, h⟩) (iblk2 V c 1 ⟨n + 1, h⟩) _ _).trans ?_
      exact step_sum (V c (Pipeline.arrRef spec2 0)) (V c (Pipeline.arrRef spec2 1)) (n + 1) (iblk2 V c 0 ⟨n + 1, h⟩) (iblk2 V c 1 ⟨n + 1, h⟩)
        (fun k q => iblk0_at V c ⟨n + 1, h⟩ k q) (fun k q => iblk1_at V c ⟨n + 1, h⟩ k q)
    · dsimp only
      refine (out_B_4 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) _ (iblk2 V c 0 ⟨n + 1, h⟩) (iblk2 V c 1 ⟨n + 1, h⟩) _ _).trans ?_
      exact step_sq (V c (Pipeline.arrRef spec2 0)) (V c (Pipeline.arrRef spec2 1)) (n + 1) (iblk2 V c 0 ⟨n + 1, h⟩) (iblk2 V c 1 ⟨n + 1, h⟩)
        (fun k q => iblk0_at V c ⟨n + 1, h⟩ k q) (fun k q => iblk1_at V c ⟨n + 1, h⟩ k q)

/-- What point t writes back through the summed array's window is block t of the entrywise sum of the two input arrays. -/
theorem flushedC_eq (c : Dev nD) (t : Fin cfg2.N) :
    (dat2 V c).flushed 2 t = ((cfg2.win 2).blk t).view.read (Elt Ideal) (addArr (V c (Pipeline.arrRef spec2 0)) (V c (Pipeline.arrRef spec2 1))) := by
  show (cfg2.win 2).cut (grid2.coords t) ((dat2 V c).after 2 t) = _
  rw [after2_2, outsAt_eq V c t.val t.isLt]
  obtain ⟨e0, e1, e2, e3, e4, e5⟩ := idx_facts t
  funext j
  refine (pay1_at (iblk2 V c 0 t) (iblk2 V c 1 t) j).trans ?_
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  have hA : (iblk2 V c 0 t : Vec Ideal S5000x128 .f32) j = (V c (Pipeline.arrRef spec2 0)) (((cfg2.win 2).blk t).view.emb j) := by
    unfold iblk2; rw [View.read_apply, h0]; rfl
  have hB : (iblk2 V c 1 t : Vec Ideal S5000x128 .f32) j = (V c (Pipeline.arrRef spec2 1)) (((cfg2.win 2).blk t).view.emb j) := by
    unfold iblk2; rw [View.read_apply, h1]; rfl
  rw [hA, hB, View.read_apply]
  rfl

/-- The one write-back of the first accumulator, at the last point, writes the column sums of the summed array. -/
theorem flushed3_eq (c : Dev nD) (t : Fin cfg2.N) (hf : (cfg2.win 3).flush t = true) :
    (dat2 V c).flushed 3 t = ((cfg2.win 3).blk t).view.read (Elt Ideal) (colSums (addArr (V c (Pipeline.arrRef spec2 0)) (V c (Pipeline.arrRef spec2 1)))) := by
  have hN : cfg2.N = 10 := N_2
  have h9 : t.val = 9 := by have := (flush2_3 t).mp hf; have := t.isLt; omega
  obtain rfl : t = t2_9 := Fin.ext h9
  show (cfg2.win 3).cut (grid2.coords t2_9) ((dat2 V c).after 3 t2_9) = _
  rw [after2_3, outsAt_eq V c]
  show (cfg2.win 3).cut (grid2.coords t2_9) (sumBelow (addArr (V c (Pipeline.arrRef spec2 0)) (V c (Pipeline.arrRef spec2 1))) 50000) = _
  rw [sumBelow_all]
  have hz' : (fun a => win2_3.index t2_9 a * main_v49_1.ty.shape.size a) = fun _ => 0 := funext fun a => by fin_cases a <;> decide
  exact (Memref.read_access_unit_zero (Elt Ideal) main_v49_1 hz' (fun a => by rw [congrFun hz' a]; simp) _).symm

/-- The one write-back of the second accumulator, at the last point, writes the column sums of squares of the summed array. -/
theorem flushed4_eq (c : Dev nD) (t : Fin cfg2.N) (hf : (cfg2.win 4).flush t = true) :
    (dat2 V c).flushed 4 t = ((cfg2.win 4).blk t).view.read (Elt Ideal) (colSumSqs (addArr (V c (Pipeline.arrRef spec2 0)) (V c (Pipeline.arrRef spec2 1)))) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4, outsAt_eq V c]
  show (cfg2.win 4).cut (grid2.coords t2_9) (sumBelow (sq (addArr (V c (Pipeline.arrRef spec2 0)) (V c (Pipeline.arrRef spec2 1)))) 50000) = _
  rw [sumBelow_all]
  have hz' : (fun a => win2_4.index t2_9 a * main_v49_2.ty.shape.size a) = fun _ => 0 := funext fun a => by fin_cases a <;> decide
  exact (Memref.read_access_unit_zero (Elt Ideal) main_v49_2 hz' (fun a => by rw [congrFun hz' a]; simp) _).symm

/-- The summed array ends holding a (r, l) + b (r, l) at every entry. -/
theorem final2 (c : Dev nD) : (dat2 V c).arrAt 2 cfg2.N = addArr (V c (Pipeline.arrRef spec2 0)) (V c (Pipeline.arrRef spec2 1)) :=
  (dat2 V c).arrAt_eq_of_cover 2 (addArr (V c (Pipeline.arrRef spec2 0)) (V c (Pipeline.arrRef spec2 1))) (fun t _ => flushedC_eq V c t) (coverC c)

/-- The first accumulator's array ends holding, at lane q, the zero word plus the sum over all rows of a + b at lane q. -/
theorem final3 (c : Dev nD) : (dat2 V c).arrAt 3 cfg2.N = colSums (addArr (V c (Pipeline.arrRef spec2 0)) (V c (Pipeline.arrRef spec2 1))) :=
  (dat2 V c).arrAt_eq_of_cover 3 (colSums (addArr (V c (Pipeline.arrRef spec2 0)) (V c (Pipeline.arrRef spec2 1)))) (flushed3_eq V c) (cover3 c)

/-- The second accumulator's array ends holding, at lane q, the zero word plus the sum over all rows of (a + b)² at lane q. -/
theorem final4 (c : Dev nD) : (dat2 V c).arrAt 4 cfg2.N = colSumSqs (addArr (V c (Pipeline.arrRef spec2 0)) (V c (Pipeline.arrRef spec2 1))) :=
  (dat2 V c).arrAt_eq_of_cover 4 (colSumSqs (addArr (V c (Pipeline.arrRef spec2 0)) (V c (Pipeline.arrRef spec2 1)))) (flushed4_eq V c) (cover4 c)

end Cert.KernelIdeal.Region2

end
-- ==== Proof.Stage6.lean ====
/-
  The add-and-reduce region's three outputs at its exit: the sum of the node update and the scattered messages in the packed view, and the packed view's column sums and column sums of squares.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region2
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- The packed view of a sum of two arrays is the sum of the packed views. -/
theorem addArr_pack (a b : S100000x64.Idx → EReal) :
    Cert.KernelIdeal.Region2.addArr (pack a) (pack b) = pack (addf (F := Ideal) (φ := .f32) a b) := by
  funext i
  obtain ⟨r, l, rfl⟩ : ∃ (r : Fin 50000) (l : Fin 128), i = ix2 r l := ⟨i 0, i 1, eq_ix2 i⟩
  rw [Cert.KernelIdeal.Region2.addArr_apply]
  rfl

theorem f6_v49_0 (c : Dev nD)
    (h47 : W5 m ρ c (Proc.devRef .tc main_v47) = pack (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))))
    (h48 : W5 m ρ c (Proc.devRef .tc main_v48) = pack (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W6 m ρ c (Proc.devRef .tc main_v49_0) = pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine ((W6_arr m ρ c 2).trans (Cert.KernelIdeal.Region2.final2 (V5 m ρ) c)).trans ?_
  show Cert.KernelIdeal.Region2.addArr (W5 m ρ c (Proc.devRef .tc main_v47)) (W5 m ρ c (Proc.devRef .tc main_v48)) = _
  rw [h47, h48, addArr_pack]
  rfl

theorem f6_v49_1 (c : Dev nD)
    (h47 : W5 m ρ c (Proc.devRef .tc main_v47) = pack (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))))
    (h48 : W5 m ρ c (Proc.devRef .tc main_v48) = pack (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W6 m ρ c (Proc.devRef .tc main_v49_1) = Cert.KernelIdeal.Region2.colSums (pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) := by
  refine ((W6_arr m ρ c 3).trans (Cert.KernelIdeal.Region2.final3 (V5 m ρ) c)).trans ?_
  show Cert.KernelIdeal.Region2.colSums (Cert.KernelIdeal.Region2.addArr (W5 m ρ c (Proc.devRef .tc main_v47)) (W5 m ρ c (Proc.devRef .tc main_v48))) = _
  rw [h47, h48, addArr_pack]
  rfl

theorem f6_v49_2 (c : Dev nD)
    (h47 : W5 m ρ c (Proc.devRef .tc main_v47) = pack (Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5))))
    (h48 : W5 m ρ c (Proc.devRef .tc main_v48) = pack (Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W6 m ρ c (Proc.devRef .tc main_v49_2) = Cert.KernelIdeal.Region2.colSumSqs (pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) := by
  refine ((W6_arr m ρ c 4).trans (Cert.KernelIdeal.Region2.final4 (V5 m ρ) c)).trans ?_
  show Cert.KernelIdeal.Region2.colSumSqs (Cert.KernelIdeal.Region2.addArr (W5 m ρ c (Proc.devRef .tc main_v47)) (W5 m ρ c (Proc.devRef .tc main_v48))) = _
  rw [h47, h48, addArr_pack]
  rfl

end Cert.KernelIdeal.Stage

end
-- ==== Proof.LibBatchMoments.lean ====
import Idealize.ShloMosaic.PureOps.Ideal
import Mathlib.Tactic

/-!
# Batch moments on the extended reals

For a finite family of real numbers `r : Fin n → ℝ` with `n = N ≠ 0`, the mean of the squared
deviations from the mean equals the mean of the squares minus the square of the mean:

  `(∑ (r p - μ)²) / N = (∑ (r p)²) / N - μ²`,   `μ = (∑ r p) / N`.

The identity is stated on the extended reals, with the division `Ideal.div`; since every entry is
the coercion of a real number and the divisor is a nonzero real, every intermediate value is the
coercion of a real number, and the identity is the one of real arithmetic. On the extended reals at
large the two sides differ (an infinite entry makes one side `⊥` and the other not), so the
hypothesis that the entries are real cannot be dropped.
-/

noncomputable section

namespace Cert.Lib.BatchMoments

open Idealize.ShloMosaic
open scoped BigOperators

/-- A finite sum of coercions of real numbers is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real number by a nonzero real number, taken on the extended reals, is the
    coercion of the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The mean of a real family, taken on the extended reals, is the coercion of the real mean. -/
theorem mean_coe {n : ℕ} {N : ℝ} (hN : N ≠ 0) (r : Fin n → ℝ) :
    Ideal.div (∑ p, ((r p : ℝ) : EReal)) (N : EReal) = (((∑ p, r p) / N : ℝ) : EReal) := by
  rw [coe_finset_sum, div_coe_coe _ hN]

/-- The identity on the real numbers: with `m = (∑ r p) / N` and `n = N ≠ 0`,
    `(∑ (r p - m)²) / N = (∑ (r p)²) / N - m²`. Expanding the square,
    `∑ (r p - m)² = ∑ (r p)² - 2 m ∑ r p + N m²` and `∑ r p = N m`. -/
theorem real_mean_sq_dev {n : ℕ} {N : ℝ} (hN : N ≠ 0) (hn : (n : ℝ) = N) (r : Fin n → ℝ) :
    (∑ p, (r p - (∑ q, r q) / N) * (r p - (∑ q, r q) / N)) / N
      = (∑ p, r p * r p) / N - ((∑ q, r q) / N) * ((∑ q, r q) / N) := by
  have h1 : ∀ m : ℝ, ∑ p, (r p - m) * (r p - m)
      = (∑ p, r p * r p) - 2 * m * (∑ p, r p) + N * (m * m) := by
    intro m
    have h2 : ∀ p, (r p - m) * (r p - m) = r p * r p - 2 * m * r p + m * m := fun p => by ring
    simp only [h2]
    rw [Finset.sum_add_distrib, Finset.sum_sub_distrib, ← Finset.mul_sum, Finset.sum_const,
      Finset.card_univ, Fintype.card_fin, nsmul_eq_mul, hn]
  rw [h1]
  field_simp
  ring

/-- The sum of the squared deviations of real entries from a real centre, on the extended reals,
    is the coercion of the real sum of squared deviations. -/
theorem sum_sq_dev_coe {n : ℕ} (r : Fin n → ℝ) (m : ℝ) :
    (∑ p, (((r p : ℝ) : EReal) - (m : EReal)) * (((r p : ℝ) : EReal) - (m : EReal)))
      = ((∑ p, (r p - m) * (r p - m) : ℝ) : EReal) := by
  rw [← coe_finset_sum]
  refine Finset.sum_congr rfl (fun p _ => ?_)
  rw [← EReal.coe_sub, ← EReal.coe_mul]

/-- The sum of the squares of real entries, on the extended reals, is the coercion of the real
    sum of squares. -/
theorem sum_sq_coe {n : ℕ} (r : Fin n → ℝ) :
    (∑ p, ((r p : ℝ) : EReal) * ((r p : ℝ) : EReal)) = ((∑ p, r p * r p : ℝ) : EReal) := by
  rw [← coe_finset_sum]
  refine Finset.sum_congr rfl (fun p _ => ?_)
  rw [← EReal.coe_mul]

/-- **Variance identity**, with the mean named: for real entries `r p`, a nonzero real count
    `N = n` and `μ = (∑ r p) / N`, the mean squared deviation from `μ` is the mean of the squares
    minus `μ²`, on the extended reals. -/
theorem mean_sq_dev_eq' {n : ℕ} {N : ℝ} (hN : N ≠ 0) (hn : (n : ℝ) = N) (r : Fin n → ℝ)
    (μ : EReal) (hμ : μ = Ideal.div (∑ p, ((r p : ℝ) : EReal)) (N : EReal)) :
    Ideal.div (∑ p, (((r p : ℝ) : EReal) - μ) * (((r p : ℝ) : EReal) - μ)) (N : EReal)
      = Ideal.div (∑ p, ((r p : ℝ) : EReal) * ((r p : ℝ) : EReal)) (N : EReal) - μ * μ := by
  rw [hμ, mean_coe hN, sum_sq_dev_coe, sum_sq_coe, div_coe_coe _ hN, div_coe_coe _ hN,
    ← EReal.coe_mul, ← EReal.coe_sub, real_mean_sq_dev hN hn]

/-- **Variance identity**: for real entries `r p` and a nonzero real count `N = n`, with
    `μ = (∑ r p) / N`: `(∑ (r p - μ)²) / N = (∑ (r p)²) / N - μ²` on the extended reals. -/
theorem mean_sq_dev_eq {n : ℕ} {N : ℝ} (hN : N ≠ 0) (hn : (n : ℝ) = N) (r : Fin n → ℝ) :
    Ideal.div (∑ p, (((r p : ℝ) : EReal) - Ideal.div (∑ q, ((r q : ℝ) : EReal)) (N : EReal))
        * (((r p : ℝ) : EReal) - Ideal.div (∑ q, ((r q : ℝ) : EReal)) (N : EReal))) (N : EReal)
      = Ideal.div (∑ p, ((r p : ℝ) : EReal) * ((r p : ℝ) : EReal)) (N : EReal)
        - Ideal.div (∑ q, ((r q : ℝ) : EReal)) (N : EReal)
          * Ideal.div (∑ q, ((r q : ℝ) : EReal)) (N : EReal) :=
  mean_sq_dev_eq' hN hn r _ rfl

/-- The mean squared deviation of real entries from their mean is a nonnegative real number
    (mean named): a sum of squares divided by a positive count. -/
theorem mean_sq_dev_nonneg' {n : ℕ} {N : ℝ} (hN : 0 < N) (r : Fin n → ℝ)
    (μ : EReal) (hμ : μ = Ideal.div (∑ p, ((r p : ℝ) : EReal)) (N : EReal)) :
    ∃ v : ℝ, 0 ≤ v ∧
      Ideal.div (∑ p, (((r p : ℝ) : EReal) - μ) * (((r p : ℝ) : EReal) - μ)) (N : EReal)
        = (v : EReal) := by
  refine ⟨(∑ p, (r p - (∑ q, r q) / N) * (r p - (∑ q, r q) / N)) / N, ?_, ?_⟩
  · exact div_nonneg (Finset.sum_nonneg (fun p _ => mul_self_nonneg _)) hN.le
  · rw [hμ, mean_coe hN.ne', sum_sq_dev_coe, div_coe_coe _ hN.ne']

/-- The mean squared deviation of real entries from their mean is a nonnegative real number. -/
theorem mean_sq_dev_nonneg {n : ℕ} {N : ℝ} (hN : 0 < N) (r : Fin n → ℝ) :
    ∃ v : ℝ, 0 ≤ v ∧
      Ideal.div (∑ p, (((r p : ℝ) : EReal) - Ideal.div (∑ q, ((r q : ℝ) : EReal)) (N : EReal))
          * (((r p : ℝ) : EReal) - Ideal.div (∑ q, ((r q : ℝ) : EReal)) (N : EReal))) (N : EReal)
        = (v : EReal) :=
  mean_sq_dev_nonneg' hN r _ rfl

/-- The moments in the two spellings that occur: the entries are extended reals known to be real,
    and a sum may carry a leading `0 +` (the initial value of a reduction). For such entries and a
    positive real count `N = n`: the mean with and without the leading zero agree; the mean of the
    squares minus the square of the mean is the mean of the squared deviations from the mean; the
    mean is a real number; and the mean of the squared deviations is a nonnegative real number. -/
theorem moments_bridge {n : ℕ} {N : ℝ} (hN : 0 < N) (hn : (n : ℝ) = N) (f : Fin n → EReal)
    (hf : ∀ p, ∃ r : ℝ, f p = (r : EReal)) :
    Ideal.div (∑ p, f p) (N : EReal) = Ideal.div (0 + ∑ p, f p) (N : EReal)
    ∧ Ideal.div (∑ p, f p * f p) (N : EReal)
          - Ideal.div (∑ p, f p) (N : EReal) * Ideal.div (∑ p, f p) (N : EReal)
        = Ideal.div (0 + ∑ p, (f p - Ideal.div (0 + ∑ q, f q) (N : EReal))
            * (f p - Ideal.div (0 + ∑ q, f q) (N : EReal))) (N : EReal)
    ∧ (∃ μ : ℝ, Ideal.div (0 + ∑ p, f p) (N : EReal) = (μ : EReal))
    ∧ (∃ v : ℝ, 0 ≤ v ∧
        Ideal.div (0 + ∑ p, (f p - Ideal.div (0 + ∑ q, f q) (N : EReal))
            * (f p - Ideal.div (0 + ∑ q, f q) (N : EReal))) (N : EReal) = (v : EReal)) := by
  choose r hr using hf
  obtain rfl : f = fun p => ((r p : ℝ) : EReal) := funext hr
  simp only [zero_add]
  exact ⟨trivial, (mean_sq_dev_eq hN.ne' hn r).symm, ⟨_, mean_coe hN.ne' r⟩,
    mean_sq_dev_nonneg hN r⟩

end Cert.Lib.BatchMoments

end
-- ==== Proof.LibPacked.lean ====
/-
  Two rows in one: an [M, b] array with M = 2·a viewed as [a, c] with c = 2·b puts rows 2r and 2r+1 side by side in row r.
  Read at an index both ways, a [b] vector doubled to a [1, c] row, and a sum over the M rows as the two half-rows'
  sums over the a packed rows. General in the extents; only the library is imported.
-/
import Idealize.ShloMosaic.PureOps.Ideal.Laws
import Idealize.ShloMosaic.Lib.ValueIdx
import Idealize.ShloMosaic.Lib.Pipeline.Value
import Idealize.ShloMosaic.Lib.ValueLayout
import Mathlib.Tactic

noncomputable section

namespace Cert.Lib.Packed

open Idealize.ShloMosaic Idealize.ShloMosaic.ValueIdx
open scoped BigOperators

variable {α : Type} {M a b c : Nat}

/-- The packed view read at (r, l): the entry of row 2r + l / b, column l % b. -/
theorem pack_apply (x : (⟨2, ![M, b]⟩ : Shape).Idx → α) (h : (⟨2, ![M, b]⟩ : Shape).ShapeCasts ⟨2, ![a, c]⟩)
    (hc : c = 2 * b) (r : Fin a) (l : Fin c) (p : Fin M) (q : Fin b)
    (hp : p.val = 2 * r.val + l.val / b) (hq : q.val = l.val % b) :
    shapeCast ⟨2, ![a, c]⟩ x h (ix2 r l) = x (ix2 p q) := by
  refine shapeCast_apply x h (ix2 r l) (ix2 p q) ?_
  rw [Shape.rowMajor_val_two, Shape.rowMajor_val_two]
  show p.val * b + q.val = r.val * c + l.val
  have hb : 0 < b := by
    rcases Nat.eq_zero_or_pos b with h0 | h0
    · exact absurd q.isLt (by omega)
    · exact h0
  have := Nat.div_add_mod l.val b
  subst hc
  rw [hp, hq]
  nlinarith [Nat.div_add_mod l.val b]

/-- The unpacked view read at (p, q): the packed entry of row p / 2, lane (p % 2)·b + q. -/
theorem unpack_apply (y : (⟨2, ![a, c]⟩ : Shape).Idx → α) (h : (⟨2, ![a, c]⟩ : Shape).ShapeCasts ⟨2, ![M, b]⟩)
    (hc : c = 2 * b) (p : Fin M) (q : Fin b) (r : Fin a) (l : Fin c)
    (hr : r.val = p.val / 2) (hl : l.val = (p.val % 2) * b + q.val) :
    shapeCast ⟨2, ![M, b]⟩ y h (ix2 p q) = y (ix2 r l) := by
  refine shapeCast_apply y h (ix2 p q) (ix2 r l) ?_
  rw [Shape.rowMajor_val_two, Shape.rowMajor_val_two]
  show r.val * c + l.val = p.val * b + q.val
  subst hc
  rw [hr, hl]
  have := Nat.div_add_mod p.val 2
  nlinarith [Nat.div_add_mod p.val 2]

/-- A sum over 2·a rows as the sum over the a pairs of the even row's and the odd row's terms. -/
theorem sum_pairs {β : Type*} [AddCommMonoid β] (f : ℕ → β) :
    ∑ p : Fin (2 * a), f p.val = ∑ r : Fin a, (f (2 * r.val) + f (2 * r.val + 1)) := by
  induction a with
  | zero => simp
  | succ n ih =>
    rw [show 2 * (n + 1) = 2 * n + 1 + 1 from by ring, Fin.sum_univ_castSucc, Fin.sum_univ_castSucc, Fin.sum_univ_castSucc (n := n)]
    simp only [Fin.coe_castSucc, Fin.val_last]
    rw [ih, add_assoc]

/-- A [b] vector laid twice end to end, as a [c] vector with c = 2·b, reads at l the vector at l % b. -/
theorem double_apply (v : (⟨1, ![b]⟩ : Shape).Idx → α)
    (hcat : Shape.Concatenates [(⟨1, ![b]⟩ : Shape), ⟨1, ![b]⟩] ⟨1, ![c]⟩ 0) (hc : c = 2 * b)
    (l : Fin c) (q : Fin b) (hq : q.val = l.val % b) :
    concatenate ⟨1, ![c]⟩ 0 [⟨⟨1, ![b]⟩, v⟩, ⟨⟨1, ![b]⟩, v⟩] hcat (ix1 l) = v (ix1 q) := by
  have hl := l.isLt
  have hqb := q.isLt
  by_cases hlt : l.val < b
  · refine concatenate_pair_apply_left (0 : Fin 1) v v hcat (ix1 l) rfl (ix1 q) ?_
    intro d
    match d with
    | ⟨0, _⟩ => show q.val = l.val; rw [hq, Nat.mod_eq_of_lt hlt]
  · refine concatenate_pair_apply_right (0 : Fin 1) v v hcat (ix1 l) rfl rfl (ix1 q) ?_ ?_
    · intro d hd
      match d with
      | ⟨0, _⟩ => exact absurd rfl hd
    · show q.val + b = l.val
      have : l.val % b = l.val - b := by
        rw [Nat.mod_eq_sub_mod (by omega), Nat.mod_eq_of_lt (by omega)]
      omega

/-- The doubled vector cast to one row [1, c] reads, at lane l, the vector at l % b. -/
theorem double_row_apply (v : (⟨1, ![b]⟩ : Shape).Idx → α)
    (hcat : Shape.Concatenates [(⟨1, ![b]⟩ : Shape), ⟨1, ![b]⟩] ⟨1, ![c]⟩ 0)
    (hcast : (⟨1, ![c]⟩ : Shape).ShapeCasts ⟨2, ![1, c]⟩) (hc : c = 2 * b)
    (l : Fin c) (q : Fin b) (hq : q.val = l.val % b) :
    shapeCast ⟨2, ![1, c]⟩ (concatenate ⟨1, ![c]⟩ 0 [⟨⟨1, ![b]⟩, v⟩, ⟨⟨1, ![b]⟩, v⟩] hcat) hcast (ix2 0 l) = v (ix1 q) :=
  (shapeCast_a_1a_apply _ hcast 0 l).trans (double_apply v hcat hc l q hq)

end Cert.Lib.Packed

end
-- ==== Proof.Stage7.lean ====
/-
  The fourth stretch: the four [1, 128] rows the first layer's batch normalisation reads. The mean row is the reference's
  mean laid twice: lanes q and 64 + q of the packed column sums add up to the sum of column q over the 100000 node rows.
  The row of reciprocal standard deviations likewise: on real entries the mean of the squares minus the squared mean, cut
  at zero, is the mean squared deviation from the mean. The scale and shift rows are the arguments laid twice. The two
  facts about packed column sums are stated for any array f.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region2
import proofs.«106696_j33449205301454_2_alg».proof.Proof.LibBatchMoments
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import proofs.«106696_j33449205301454_2_alg».proof.Proof.LibPacked
import proofs.«106696_j33449205301454_2_alg».proof.Proof.LibSignEntries
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx
open scoped BigOperators

namespace BN

/-- The zero word, the count word (100000), the small word added under the root, the word 2. -/
abbrev zw : EReal := Ideal.ofBits .f32 0x00000000#32
abbrev nw : EReal := Ideal.ofBits .f32 0x47C35000#32
abbrev ew : EReal := Ideal.ofBits .f32 0x3727C5AC#32
abbrev tw : EReal := Ideal.ofBits .f32 0x40000000#32

/-- Lane q of the first half of a 128-lane row and lane 64 + q of its second half. -/
abbrev lo (q : Fin 64) : Fin 128 := ⟨q.val, Nat.lt_of_lt_of_le q.isLt (by decide)⟩
abbrev hi (q : Fin 64) : Fin 128 := ⟨64 + q.val, Nat.add_lt_add_left q.isLt 64⟩
/-- The even and the odd node row packed into row r. -/
abbrev ev (r : Fin 50000) : Fin 100000 := ⟨2 * r.val, by have := r.isLt; omega⟩
abbrev od (r : Fin 50000) : Fin 100000 := ⟨2 * r.val + 1, by have := r.isLt; omega⟩

/-! ### The kernel's side: rows of 128 lanes folded to 64 -/

/-- The two half-rows of a [1, 128] row added, as a [64] vector. -/
def kHalf (S : S1x128.Idx → EReal) : S64.Idx → EReal :=
  shapeCast S64 (addf (F := Ideal) (φ := .f32) (extractStridedSlice S1x64 ![0, 0] S slices_S1x128_S1x64_0_0)
    (extractStridedSlice S1x64 ![0, 64] S slices_S1x128_S1x64_0_64)) shapeCasts_S1x64_S64
/-- A word laid along a [64] vector. -/
def kWord (w : BitVec 32) : S64.Idx → EReal := broadcastInDim S64 ![] bcast_S_S64 (constant (F := Ideal) S_ .f32 w)
/-- The kernel's mean vector from the row of packed column sums. -/
def kMean (S : S1x128.Idx → EReal) : S64.Idx → EReal :=
  Host.divf (F := Ideal) (φ := .f32) (kHalf S) (kWord 0x47C35000#32)

/-! ### The reference's side: sums over the 100000 node rows -/

/-- The host's column sums of a [100000, 64] array from the zero word. -/
def rSum (f : S100000x64.Idx → EReal) : S64.Idx → EReal :=
  Host.reduceAdd (F := Ideal) (φ := .f32) f (constant (F := Ideal) Cert.ReferenceIdeal.S_ .f32 0x00000000#32) Cert.ReferenceIdeal.Gen.reducesTo_S100000x64_S64_d0 Cert.ReferenceIdeal.Gen.h_S_
/-- A word laid along a [64] vector, as the reference lays it. -/
def rWord (w : BitVec 32) : S64.Idx → EReal :=
  broadcastInDim Cert.ReferenceIdeal.S64 ![] Cert.ReferenceIdeal.Gen.bcast_S_S64 (constant (F := Ideal) Cert.ReferenceIdeal.S_ .f32 w)
/-- The reference's mean vector. -/
def rMean (f : S100000x64.Idx → EReal) : S64.Idx → EReal :=
  Host.divf (F := Ideal) (φ := .f32) (rSum f) (rWord 0x47C35000#32)
/-- A [64] vector laid along every node row. -/
def rSpread (v : S64.Idx → EReal) : S100000x64.Idx → EReal :=
  broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 v)

/-! ### Read at an index -/

theorem kHalf_apply (S : S1x128.Idx → EReal) (q : Fin 64) :
    kHalf S (ix1 q) = S (ix2 0 (lo q)) + S (ix2 0 (hi q)) := by
  unfold kHalf
  refine (shapeCast_1a_a_apply _ shapeCasts_S1x64_S64 q).trans ?_
  exact congrArg₂ (· + ·)
    (slice2_axis1_apply 0 S slices_S1x128_S1x64_0_0 0 q (lo q) (Nat.zero_add _).symm)
    (slice2_axis1_apply 64 S slices_S1x128_S1x64_0_64 0 q (hi q) rfl)

theorem kWord_apply (w : BitVec 32) (i : S64.Idx) : kWord w i = Ideal.ofBits .f32 w := by
  unfold kWord
  exact broadcastInDim_apply _ bcast_S_S64 _ i (fun a => a.elim0) (fun a => a.elim0)

theorem rWord_apply (w : BitVec 32) (i : S64.Idx) : rWord w i = Ideal.ofBits .f32 w := by
  unfold rWord
  exact broadcastInDim_apply _ Cert.ReferenceIdeal.Gen.bcast_S_S64 _ i (fun a => a.elim0) (fun a => a.elim0)

theorem rSum_apply (f : S100000x64.Idx → EReal) (q : Fin 64) :
    rSum f (ix1 q) = zw + ∑ k : Fin 100000, f (ix2 k q) := by
  unfold rSum
  simp only [Host.reduceAdd, Ideal.hostReduceAdd_def]
  rw [Ideal.hostReduceAdd_single Cert.ReferenceIdeal.Gen.reducesTo_S100000x64_S64_d0 (by decide)]
  refine congrArg₂ (· + ·) rfl (Finset.sum_congr rfl fun k _ => ?_)
  exact congrArg f (funext fun a => Fin.ext (by match a with | ⟨0, _⟩ => rfl | ⟨1, _⟩ => rfl))

theorem rSpread_apply (v : S64.Idx → EReal) (p : Fin 100000) (q : Fin 64) : rSpread v (ix2 p q) = v (ix1 q) := by
  unfold rSpread
  refine (broadcastInDim_apply _ Cert.ReferenceIdeal.Gen.bcast_S1x64_S100000x64_0_1 _ (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ Cert.ReferenceIdeal.Gen.bcast_S64_S1x64_1 v (ix2 0 q) (ix1 q) (fun a => match a with
    | ⟨0, _⟩ => by show q.val = if (64 : Nat) = 1 then 0 else q.val; rw [if_neg (by decide)])

/-! ### The packed column sums are the sums over the node rows -/

/-- Column q of the array under φ, as a function of a natural row number (0 beyond the rows). -/
def colFn (f : S100000x64.Idx → EReal) (φ : EReal → EReal) (q : Fin 64) (n : ℕ) : EReal :=
  if h : n < 100000 then φ (f (ix2 ⟨n, h⟩ q)) else 0

theorem colFn_of_lt (f : S100000x64.Idx → EReal) (φ : EReal → EReal) (q : Fin 64) (n : ℕ) (h : n < 100000) :
    colFn f φ q n = φ (f (ix2 ⟨n, h⟩ q)) := dif_pos h

/-- Lanes q and 64 + q of the packed row r are column q of the node rows 2r and 2r + 1. -/
theorem pack_lo (f : S100000x64.Idx → EReal) (r : Fin 50000) (q : Fin 64) : pack f (ix2 r (lo q)) = f (ix2 (ev r) q) :=
  Cert.Lib.Packed.pack_apply f shapeCasts_S100000x64_S50000x128 rfl r (lo q) (ev r) q
    (by show 2 * r.val = 2 * r.val + q.val / 64; have := q.isLt; omega) (by show q.val = q.val % 64; have := q.isLt; omega)
theorem pack_hi (f : S100000x64.Idx → EReal) (r : Fin 50000) (q : Fin 64) : pack f (ix2 r (hi q)) = f (ix2 (od r) q) :=
  Cert.Lib.Packed.pack_apply f shapeCasts_S100000x64_S50000x128 rfl r (hi q) (od r) q
    (by show 2 * r.val + 1 = 2 * r.val + (64 + q.val) / 64; have := q.isLt; omega)
    (by show q.val = (64 + q.val) % 64; have := q.isLt; omega)

/-- A [1, 128] row holding, at every lane, the zero word plus the packed view's column sum under φ: its lanes q and
    64 + q add up to the sum of column q over all 100000 node rows. -/
theorem lane_sum (f : S100000x64.Idx → EReal) (φ : EReal → EReal) (S : S1x128.Idx → EReal)
    (hS : ∀ l : Fin 128, S (ix2 0 l) = zw + ∑ r : Fin 50000, φ (pack f (ix2 r l))) (q : Fin 64) :
    S (ix2 0 (lo q)) + S (ix2 0 (hi q)) = ∑ p : Fin 100000, φ (f (ix2 p q)) := by
  have hL : ∀ r : Fin 50000, φ (pack f (ix2 r (lo q))) + φ (pack f (ix2 r (hi q)))
      = colFn f φ q (2 * r.val) + colFn f φ q (2 * r.val + 1) := fun r =>
    congrArg₂ (· + ·) ((congrArg φ (pack_lo f r q)).trans (colFn_of_lt f φ q (2 * r.val) (ev r).isLt).symm)
      ((congrArg φ (pack_hi f r q)).trans (colFn_of_lt f φ q (2 * r.val + 1) (od r).isLt).symm)
  have hz : zw = 0 := Ideal.ofBits_zero_f32
  rw [hS (lo q), hS (hi q), hz, zero_add, zero_add, ← Finset.sum_add_distrib]
  calc ∑ r : Fin 50000, (φ (pack f (ix2 r (lo q))) + φ (pack f (ix2 r (hi q))))
      = ∑ r : Fin 50000, (colFn f φ q (2 * r.val) + colFn f φ q (2 * r.val + 1)) := Finset.sum_congr rfl fun r _ => hL r
    _ = ∑ p : Fin 100000, colFn f φ q p.val := (Cert.Lib.Packed.sum_pairs (a := 50000) (colFn f φ q)).symm
    _ = ∑ p : Fin 100000, φ (f (ix2 p q)) := Finset.sum_congr rfl fun p _ => colFn_of_lt f φ q p.val p.isLt

/-- The count word is the real number 100000. -/
theorem nw_eq : nw = ((100000 : ℝ) : EReal) := Cert.Lib.SignEntries.ofBits_1e5

/-- The kernel's mean at q: the sum of column q over the node rows, divided by the count. -/
theorem kMean_apply (f : S100000x64.Idx → EReal) (S : S1x128.Idx → EReal)
    (hS : ∀ l : Fin 128, S (ix2 0 l) = zw + ∑ r : Fin 50000, pack f (ix2 r l)) (q : Fin 64) :
    kMean S (ix1 q) = Ideal.div (∑ p : Fin 100000, f (ix2 p q)) nw := by
  show Ideal.div (kHalf S (ix1 q)) (kWord 0x47C35000#32 (ix1 q)) = _
  rw [kHalf_apply, lane_sum f (fun x => x) S hS q, kWord_apply]

/-- The reference's mean at q. -/
theorem rMean_apply (f : S100000x64.Idx → EReal) (q : Fin 64) :
    rMean f (ix1 q) = Ideal.div (zw + ∑ p : Fin 100000, f (ix2 p q)) nw := by
  show Ideal.div (rSum f (ix1 q)) (rWord 0x47C35000#32 (ix1 q)) = _
  rw [rSum_apply, rWord_apply]

/-- THE MEAN: the kernel's mean vector of the packed column sums of f is the reference's mean vector of f. -/
theorem kMean_eq (f : S100000x64.Idx → EReal) (S : S1x128.Idx → EReal)
    (hS : ∀ l : Fin 128, S (ix2 0 l) = zw + ∑ r : Fin 50000, pack f (ix2 r l)) : kMean S = rMean f := by
  funext i
  obtain ⟨q, rfl⟩ : ∃ q : Fin 64, i = ix1 q := ⟨i 0, eq_ix1 i⟩
  have hz : zw = 0 := Ideal.ofBits_zero_f32
  rw [kMean_apply f S hS q, rMean_apply f q, hz, zero_add]

/-! ### The batch normalisation's reciprocal standard deviation -/

/-- The kernel's: the root's reciprocal of max (E[x²] − μ², 0) + ε, from the two rows of packed column sums. -/
def kRstd (S1 S2 : S1x128.Idx → EReal) : S64.Idx → EReal :=
  Host.rsqrt (F := Ideal) (φ := .f32) (addf (F := Ideal) (φ := .f32)
    (maximumf (F := Ideal) (φ := .f32)
      (subf (F := Ideal) (φ := .f32) (Host.divf (F := Ideal) (φ := .f32) (kHalf S2) (kWord 0x47C35000#32))
        (mulf (F := Ideal) (φ := .f32) (kMean S1) (kMean S1)))
      (kWord 0x00000000#32))
    (kWord 0x3727C5AC#32))

/-- The reference's: the root's reciprocal of the mean squared deviation from the mean, plus ε. -/
def rRstd (f : S100000x64.Idx → EReal) : S64.Idx → EReal :=
  Host.rsqrt (F := Ideal) (φ := .f32) (addf (F := Ideal) (φ := .f32)
    (Host.divf (F := Ideal) (φ := .f32)
      (rSum (mulf (F := Ideal) (φ := .f32) (subf (F := Ideal) (φ := .f32) f (rSpread (rMean f)))
        (subf (F := Ideal) (φ := .f32) f (rSpread (rMean f)))))
      (rWord 0x47C35000#32))
    (rWord 0x3727C5AC#32))

/-- On one column of real entries: the mean of the squares minus the squared mean, cut at zero, is the mean squared
    deviation from the mean. -/
theorem bn_scalar (g : Fin 100000 → EReal) (hg : ∀ p, ∃ r : ℝ, g p = (r : EReal)) :
    max (Ideal.div (∑ p, g p * g p) nw - Ideal.div (∑ p, g p) nw * Ideal.div (∑ p, g p) nw) zw + ew
      = Ideal.div (zw + ∑ p, (g p - Ideal.div (zw + ∑ k, g k) nw) * (g p - Ideal.div (zw + ∑ k, g k) nw)) nw + ew := by
  have hz : zw = 0 := Ideal.ofBits_zero_f32
  rw [nw_eq, hz]
  obtain ⟨-, h2, -, v, hv, h4⟩ :=
    Cert.Lib.BatchMoments.moments_bridge (n := 100000) (N := 100000) (by norm_num) (by norm_num) g hg
  rw [h2, h4, max_eq_left (by exact_mod_cast hv)]

/-- THE SPREAD: the kernel's reciprocal standard deviation from the packed column sums and sums of squares of a real
    array f is the reference's of f. -/
theorem kRstd_eq (f : S100000x64.Idx → EReal) (S1 S2 : S1x128.Idx → EReal)
    (hS1 : ∀ l : Fin 128, S1 (ix2 0 l) = zw + ∑ r : Fin 50000, pack f (ix2 r l))
    (hS2 : ∀ l : Fin 128, S2 (ix2 0 l) = zw + ∑ r : Fin 50000, pack f (ix2 r l) * pack f (ix2 r l))
    (hreal : ∀ i, ∃ r : ℝ, f i = (r : EReal)) : kRstd S1 S2 = rRstd f := by
  funext i
  obtain ⟨q, rfl⟩ : ∃ q : Fin 64, i = ix1 q := ⟨i 0, eq_ix1 i⟩
  have hK : kRstd S1 S2 (ix1 q)
      = Ideal.rsqrt (max (Ideal.div (∑ p : Fin 100000, f (ix2 p q) * f (ix2 p q)) nw
          - Ideal.div (∑ p : Fin 100000, f (ix2 p q)) nw * Ideal.div (∑ p : Fin 100000, f (ix2 p q)) nw) zw + ew) := by
    show Ideal.rsqrt (max (Ideal.div (kHalf S2 (ix1 q)) (kWord 0x47C35000#32 (ix1 q))
        - kMean S1 (ix1 q) * kMean S1 (ix1 q)) (kWord 0x00000000#32 (ix1 q)) + kWord 0x3727C5AC#32 (ix1 q)) = _
    rw [kHalf_apply, lane_sum f (fun x => x * x) S2 hS2 q, kMean_apply f S1 hS1 q, kWord_apply, kWord_apply, kWord_apply]
  have hR : rRstd f (ix1 q)
      = Ideal.rsqrt (Ideal.div (zw + ∑ p : Fin 100000,
          (f (ix2 p q) - Ideal.div (zw + ∑ k : Fin 100000, f (ix2 k q)) nw)
            * (f (ix2 p q) - Ideal.div (zw + ∑ k : Fin 100000, f (ix2 k q)) nw)) nw + ew) := by
    show Ideal.rsqrt (Ideal.div (rSum (mulf (F := Ideal) (φ := .f32) (subf (F := Ideal) (φ := .f32) f (rSpread (rMean f)))
        (subf (F := Ideal) (φ := .f32) f (rSpread (rMean f)))) (ix1 q)) (rWord 0x47C35000#32 (ix1 q))
        + rWord 0x3727C5AC#32 (ix1 q)) = _
    rw [rSum_apply, rWord_apply, rWord_apply]
    refine congrArg (fun x => Ideal.rsqrt (Ideal.div (zw + x) nw + ew)) (Finset.sum_congr rfl fun p _ => ?_)
    show (f (ix2 p q) - rSpread (rMean f) (ix2 p q)) * (f (ix2 p q) - rSpread (rMean f) (ix2 p q)) = _
    rw [rSpread_apply, rMean_apply]
  rw [hK, hR]
  exact congrArg Ideal.rsqrt (bn_scalar (fun p => f (ix2 p q)) (fun p => hreal (ix2 p q)))

end BN

variable (m : (ℓ : Loc nD τ sig) → Buf (Elt Ideal) ℓ) (ρ : Dev nD → PrngReg)

open Cert.ReferenceIdeal.Read

set_option maxHeartbeats 4000000 in
/-- The mean row. -/
theorem f7_v70 (c : Dev nD)
    (h1 : W6 m ρ c (Proc.devRef .tc main_v49_1) = Cert.KernelIdeal.Region2.colSums (pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))) :
    W7 m ρ c (Proc.devRef .tc main_v70) = rowDouble (Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W6 m ρ c) (Proc.devRef .tc main_v70) = _
  after_results
  rw [h1]
  exact congrArg rowDouble (BN.kMean_eq (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) _ (fun l => Cert.KernelIdeal.Region2.colSums_apply _ l))

set_option maxHeartbeats 4000000 in
/-- The row of reciprocal standard deviations. -/
theorem f7_v72 (c : Dev nD)
    (h1 : W6 m ρ c (Proc.devRef .tc main_v49_1) = Cert.KernelIdeal.Region2.colSums (pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))))
    (h2 : W6 m ρ c (Proc.devRef .tc main_v49_2) = Cert.KernelIdeal.Region2.colSumSqs (pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))))
    (hreal : ∀ i, ∃ r : ℝ, (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i = (r : EReal)) :
    W7 m ρ c (Proc.devRef .tc main_v72) = rowDouble (Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W6 m ρ c) (Proc.devRef .tc main_v72) = _
  after_results
  rw [h1, h2]
  exact congrArg rowDouble (BN.kRstd_eq (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) _ _ (fun l => Cert.KernelIdeal.Region2.colSums_apply _ l)
    (fun l => Cert.KernelIdeal.Region2.colSumSqs_apply _ l) hreal)

set_option maxHeartbeats 4000000 in
/-- The scale row. -/
theorem f7_v74 (c : Dev nD) : W7 m ρ c (Proc.devRef .tc main_v74) = rowDouble (m ((c : Thread nD τ).loc main_arg10)) := by
  show StableHlo.after hostOps3 (W6 m ρ c) (Proc.devRef .tc main_v74) = _
  after_results
  rw [Keep.keep_arg10_6_0 m ρ c]
  rfl

set_option maxHeartbeats 4000000 in
/-- The shift row. -/
theorem f7_v76 (c : Dev nD) : W7 m ρ c (Proc.devRef .tc main_v76) = rowDouble (m ((c : Thread nD τ).loc main_arg11)) := by
  show StableHlo.after hostOps3 (W6 m ρ c) (Proc.devRef .tc main_v76) = _
  after_results
  rw [Keep.keep_arg11_6_0 m ρ c]
  rfl

end Cert.KernelIdeal.Stage

end
-- ==== Proof.Region3.lean ====
/-
  Region 3 (batch normalisation and rectifier on the packed view): for the contents V the region is entered with,
  the output array ends holding, at every (r, l) of the [50000, 128] view,
      max (2 · (g l · (x (r, l) − μ l) · s l + b l)) 0,
  x the first window's array and the other four windows the [1, 128] rows, read at the entry's lane. Each of the ten
  grid points writes the 5000 rows of its block.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-- The normalised and rectified entry: window 0's array at the entry, windows 1 to 4's rows at its lane. -/
def bnRelu (X : S50000x128.Idx → EReal) (MU S G B : S1x128.Idx → EReal) : S50000x128.Idx → EReal :=
  fun i => max (Ideal.ofBits .f32 0x40000000#32 * (G (ix2 (n0 := 1) (n1 := 128) 0 ⟨(i 1).val, (i 1).isLt⟩) * (X i - MU (ix2 (n0 := 1) (n1 := 128) 0 ⟨(i 1).val, (i 1).isLt⟩)) * S (ix2 (n0 := 1) (n1 := 128) 0 ⟨(i 1).val, (i 1).isLt⟩) + B (ix2 (n0 := 1) (n1 := 128) 0 ⟨(i 1).val, (i 1).isLt⟩))) (Ideal.ofBits .f32 0x00000000#32)

theorem bnRelu_apply (X : S50000x128.Idx → EReal) (MU S G B : S1x128.Idx → EReal) (r : Fin 50000) (l : Fin 128) :
    bnRelu X MU S G B (ix2 r l) = max (Ideal.ofBits .f32 0x40000000#32 * (G (ix2 0 l) * (X (ix2 r l) - MU (ix2 0 l)) * S (ix2 0 l) + B (ix2 0 l))) (Ideal.ofBits .f32 0x00000000#32) := rfl

/-- The body's stored value at an entry (p, l) of the block. -/
theorem pay_at (x : Vec Ideal S5000x128 .f32) (mu s g b : Vec Ideal S1x128 .f32) (p : Fin 5000) (l : Fin 128) :
    k3_pay1 (F := Ideal) g x mu s b (ix2 p l) = max (Ideal.ofBits .f32 0x40000000#32 * (g (ix2 0 l) * (x (ix2 p l) - mu (ix2 0 l)) * s (ix2 0 l) + b (ix2 0 l))) (Ideal.ofBits .f32 0x00000000#32) := by
  unfold k3_pay1
  simp only [shapeCast_self, maximumf_apply, mulf_apply, addf_apply, subf_apply, broadcast_apply,
    broadcastTo_1b_ab_apply]
  rfl

/-- One block against the array: if the block's rows are the array's rows n · 5000 + p and the four rows are read
    whole, the stored value at (p, l) is the specification at (n · 5000 + p, l). -/
theorem blk_at (X : S50000x128.Idx → EReal) (MU S G B : S1x128.Idx → EReal)
    (x : Vec Ideal S5000x128 .f32) (mu s g b : Vec Ideal S1x128 .f32) (n : Nat) (hn : n < 10)
    (hx : ∀ (p : Fin 5000) (l : Fin 128), x (ix2 p l) = X (ix2 ⟨n * 5000 + p.val, by omega⟩ l))
    (hmu : mu = MU) (hs : s = S) (hg : g = G) (hb : b = B)
    (j : S5000x128.Idx) (i : S50000x128.Idx) (hi0 : (i 0).val = n * 5000 + (j 0).val) (hi1 : (i 1).val = (j 1).val) :
    k3_pay1 (F := Ideal) g x mu s b j = bnRelu X MU S G B i := by
  obtain ⟨p, l, rfl⟩ : ∃ (p : Fin 5000) (l : Fin 128), j = ix2 p l := ⟨j 0, j 1, eq_ix2 j⟩
  have hlt : n * 5000 + p.val < 50000 := by have := p.isLt; omega
  have hi : i = ix2 ⟨n * 5000 + p.val, hlt⟩ l := by
    funext a
    match a with
    | ⟨0, _⟩ => exact Fin.ext hi0
    | ⟨1, _⟩ => exact Fin.ext hi1
  subst hmu hs hg hb
  rw [hi, pay_at, bnRelu_apply, hx p l]

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the four rows at the origin. -/
theorem idx_facts : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

set_option maxHeartbeats 2000000 in
/-- What point t writes back is block t of the specification. -/
theorem flushed_eq (c : Dev nD) (t : Fin cfg3.N) :
    (dat3 V c).flushed 5 t = ((cfg3.win 5).blk t).view.read (Elt Ideal)
      (bnRelu (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  obtain ⟨e50, e51, e00, e01, e10, e11, e20, e21, e30, e31, e40, e41⟩ := idx_facts t
  have ht : t.val < 10 := lt_of_lt_of_eq t.isLt N_3
  funext j
  refine blk_at _ _ _ _ _ _ _ _ _ _ t.val ht ?_ ?_ ?_ ?_ ?_ j _ ?_ ?_
  · intro p l
    show V c (Pipeline.arrRef spec3 0) (((cfg3.win 0).blk t).view.emb (ix2 p l)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * l.val = l.val; omega
  · funext y
    show V c (Pipeline.arrRef spec3 1) (((cfg3.win 1).blk t).view.emb y) = _
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · funext y
    show V c (Pipeline.arrRef spec3 2) (((cfg3.win 2).blk t).view.emb y) = _
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · funext y
    show V c (Pipeline.arrRef spec3 3) (((cfg3.win 3).blk t).view.emb y) = _
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · funext y
    show V c (Pipeline.arrRef spec3 4) (((cfg3.win 4).blk t).view.emb y) = _
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · show win3_5.index t (0 : Fin 2) * 5000 + 1 * (j 0).val = t.val * 5000 + (j 0).val; omega
  · show win3_5.index t (1 : Fin 2) * 128 + 1 * (j 1).val = (j 1).val; omega

/-- An index of the array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v77).slice (win3_5.rect t)).set ↔ _
  rw [View.set_slice_whole, Rect.mem_set_unit]
  exact Iff.rfl

/-- Row r lies in the block of point r / 5000, and every point writes back. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : (i 0).val / 5000 < cfg3.N := lt_of_lt_of_eq (by omega : (i 0).val / 5000 < 10) N_3.symm
  obtain ⟨e50, e51, -⟩ := idx_facts ⟨(i 0).val / 5000, hN⟩
  refine ⟨⟨(i 0).val / 5000, hN⟩, flush3_5 _, ?_⟩
  rw [mem_blk]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, hN⟩ (1 : Fin 2) * 128 ≤ (i 1).val
      ∧ (i 1).val < win3_5.index ⟨(i 0).val / 5000, hN⟩ (1 : Fin 2) * 128 + 128
    rw [e51]
    omega

/-- The output array after the region: the specification of the five input arrays as the region found them. -/
theorem final (c : Dev nD) :
    (dat3 V c).arrAt 5 cfg3.N
      = bnRelu (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq V c t) cover

end Cert.KernelIdeal.Region3

end
-- ==== Proof.Math8.lean ====
/-
  The first layer's batch normalisation with its rectifier, as the region computes it on the packed view from the
  summed node features, the column means, the reciprocal standard deviations and the scale and shift rows (each laid
  twice across the 128 lanes), is the reference's stage read through the packed view: entry (r, l) of the packed array
  is entry (2r + l / 64, l % 64) of the [100000, 64] one, and there both sides are
      max (2 · ((g · (x − μ)) · s + b)) 0
  with the same association. A second rectifier applied to the rectified stage changes nothing.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibPacked
import proofs.«106696_j33449205301454_2_alg».proof.Proof.Region3
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M8

/-- The packed view at (r, l) is the array at row 2r + l / 64, column l % 64. -/
theorem pack_at (x : S100000x64.Idx → EReal) (r : Fin 50000) (l : Fin 128) (p : Fin 100000) (q : Fin 64)
    (hp : p.val = 2 * r.val + l.val / 64) (hq : q.val = l.val % 64) : pack x (ix2 r l) = x (ix2 p q) :=
  Cert.Lib.Packed.pack_apply x shapeCasts_S100000x64_S50000x128 rfl r l p q hp hq

/-- A [64] vector laid twice in one row reads, at lane l, the vector at l % 64. -/
theorem rowDouble_at (v : S64.Idx → EReal) (l : Fin 128) (q : Fin 64) (hq : q.val = l.val % 64) :
    rowDouble v (ix2 0 l) = v (ix1 q) :=
  Cert.Lib.Packed.double_row_apply v concatenates_S64_S64_S128_d0 shapeCasts_S128_S1x128 rfl l q hq

/-! The reference broadcasts a [64] vector to [1, 64] and then down the rows: read at (p, q) it is the vector at q. -/
theorem idx7475 (p : Fin 100000) (q : Fin 64) : idx_main_v74 (idx_main_v75 (ix2 p q)) = ix1 q :=
  funext fun a => Fin.ext (by match a with | ⟨0, _⟩ => rfl)
theorem idx7172 (p : Fin 100000) (q : Fin 64) : idx_main_v71 (idx_main_v72 (ix2 p q)) = ix1 q :=
  funext fun a => Fin.ext (by match a with | ⟨0, _⟩ => rfl)
theorem idx8081 (p : Fin 100000) (q : Fin 64) : idx_main_v80 (idx_main_v81 (ix2 p q)) = ix1 q :=
  funext fun a => Fin.ext (by match a with | ⟨0, _⟩ => rfl)
theorem idx8384 (p : Fin 100000) (q : Fin 64) : idx_main_v83 (idx_main_v84 (ix2 p q)) = ix1 q :=
  funext fun a => Fin.ext (by match a with | ⟨0, _⟩ => rfl)

end M8

theorem bn1 (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) :
    Cert.KernelIdeal.Region3.bnRelu (pack (Cert.ReferenceIdeal.Read.val_main_v60 (F := Ideal) x0 x1 x2 x3 x4 x5 x6 x7 x8 x9)) (rowDouble (Cert.ReferenceIdeal.Read.val_main_v63 (F := Ideal) x0 x1 x2 x3 x4 x5 x6 x7 x8 x9)) (rowDouble (Cert.ReferenceIdeal.Read.val_main_v79 (F := Ideal) x0 x1 x2 x3 x4 x5 x6 x7 x8 x9)) (rowDouble x10) (rowDouble x11)
      = pack (Cert.ReferenceIdeal.Read.val_main_v88 (F := Ideal) x0 x1 x2 x3 x4 x5 x6 x7 x8 x9 x10 x11) := by
  funext i
  obtain ⟨r, l, rfl⟩ : ∃ (r : Fin 50000) (l : Fin 128), i = ix2 r l := ⟨i 0, i 1, eq_ix2 i⟩
  obtain ⟨p, hp⟩ : ∃ p : Fin 100000, p.val = 2 * r.val + l.val / 64 :=
    ⟨⟨2 * r.val + l.val / 64, by have := r.isLt; have := l.isLt; omega⟩, rfl⟩
  obtain ⟨q, hq⟩ : ∃ q : Fin 64, q.val = l.val % 64 := ⟨⟨l.val % 64, Nat.mod_lt _ (by norm_num)⟩, rfl⟩
  rw [Cert.KernelIdeal.Region3.bnRelu_apply, M8.pack_at _ r l p q hp hq, M8.pack_at _ r l p q hp hq,
    M8.rowDouble_at _ l q hq, M8.rowDouble_at _ l q hq, M8.rowDouble_at _ l q hq, M8.rowDouble_at _ l q hq]
  rw [val_main_v88_apply, val_main_v87_apply, val_main_v86_apply, val_main_cst_15_apply, val_main_v85_apply, val_main_v82_apply,
    val_main_v76_apply, val_main_v75_apply, val_main_v74_apply, val_main_v73_apply, val_main_v72_apply, val_main_v71_apply,
    val_main_v81_apply, val_main_v80_apply, val_main_v84_apply, val_main_v83_apply, val_main_call0_v0_apply,
    val_main_call0_cst_apply, M8.idx7475, M8.idx7172, M8.idx8081, M8.idx8384]
  simp only [Ideal.mulf_def, Ideal.addf_def, Ideal.subf_def, Ideal.maximumf_def, Ideal.ofBits_def]

/-- Rectifying twice is rectifying once: max (max a 0) 0 = max a 0. -/
theorem relu_relu (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) :
    (Cert.ReferenceIdeal.Read.val_main_v89 (F := Ideal) x0 x1 x2 x3 x4 x5 x6 x7 x8 x9 x10 x11) = (Cert.ReferenceIdeal.Read.val_main_v88 (F := Ideal) x0 x1 x2 x3 x4 x5 x6 x7 x8 x9 x10 x11) := by
  funext i
  rw [val_main_v89_apply, val_main_v88_apply, val_main_call1_v0_apply, val_main_call1_cst_apply, val_main_call0_v0_apply,
    val_main_call0_cst_apply]
  simp only [Ideal.maximumf_def]
  exact max_eq_left (le_max_right _ _)

end Cert.KernelIdeal.Stage

end
-- ==== Proof.Stage8.lean ====
/-
  The batch-normalisation region's output at its exit: the normalised, doubled and rectified layer, in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region3
import proofs.«106696_j33449205301454_2_alg».proof.Proof.Math8
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f8_v77 (c : Dev nD)
    (h49 : W6 m ρ c (Proc.devRef .tc main_v49_0) = pack (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
    (h70 : W7 m ρ c (Proc.devRef .tc main_v70) = rowDouble (Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
    (h72 : W7 m ρ c (Proc.devRef .tc main_v72) = rowDouble (Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
    (h74 : W7 m ρ c (Proc.devRef .tc main_v74) = rowDouble (m ((c : Thread nD τ).loc main_arg10)))
    (h76 : W7 m ρ c (Proc.devRef .tc main_v76) = rowDouble (m ((c : Thread nD τ).loc main_arg11))) :
    W8 m ρ c (Proc.devRef .tc main_v77) = pack (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine ((W8_arr m ρ c 5).trans (Cert.KernelIdeal.Region3.final (V7 m ρ) c)).trans ?_
  show Cert.KernelIdeal.Region3.bnRelu (W7 m ρ c (Proc.devRef .tc main_v49_0)) (W7 m ρ c (Proc.devRef .tc main_v70)) (W7 m ρ c (Proc.devRef .tc main_v72)) (W7 m ρ c (Proc.devRef .tc main_v74)) (W7 m ρ c (Proc.devRef .tc main_v76)) = _
  rw [Keep.keep_v49_0_7_6 m ρ c, h49, h70, h72, h74, h76]
  exact bn1 _ _ _ _ _ _ _ _ _ _ _ _

end Cert.KernelIdeal.Stage

end
-- ==== Proof.Stage9.lean ====
/-
  The stretch that unpacks and packs again: the packed view is unchanged, and a rectifier applied twice is the rectifier.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Math8
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- Packing what was unpacked gives the array back. -/
theorem pack_unpack (y : S50000x128.Idx → EReal) : pack (unpack y) = y :=
  shapeCast_shapeCast y shapeCasts_S50000x128_S100000x64 shapeCasts_S100000x64_S50000x128

theorem f9_v79 (c : Dev nD)
    (h77 : W8 m ρ c (Proc.devRef .tc main_v77) = pack (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) :
    W9 m ρ c (Proc.devRef .tc main_v79) = pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps4 (W8 m ρ c) (Proc.devRef .tc main_v79) = _
  after_results
  rw [h77, relu_relu]
  exact pack_unpack _

end Cert.KernelIdeal.Stage

end
-- ==== Proof.Region4.lean ====
/-
  Region 4 (the running column sums of the packed [50000, 128] array and of its squares): for the contents V the region
  is entered with, the two [1, 128] accumulator arrays end holding, at lane q,
      0 + ∑ r < 50000, x (r, q)      and      0 + ∑ r < 50000, x (r, q) · x (r, q),
  x the first window's array and 0 the zero word the first point stores. Each of the ten grid points adds the column
  sums of its 5000 rows to the rows the point before left; the last point alone writes the accumulators back.
-/
import proofs.«106696_j33449205301454_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Tactic
open Idealize.ShloMosaic.ValueIdx
open Idealize.ShloMosaic.Pipeline (Dat)
open scoped BigOperators

/-- The index the reduction over the first axis reads for column q at position k is (k, q). -/
theorem lift_col {M N : Nat} (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum over the first axis of an [M, N] matrix, read at column q: the sum of the column's entries. -/
theorem colSum_apply {M N : Nat} (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) := by
  refine (Ideal.multiReduction_add_single src 0x00000000#32 h hφ hacc (ix1 q)).trans ?_
  exact Finset.sum_congr rfl fun k _ => congrArg src (lift_col h q k)

/-- The zero word. -/
abbrev z : EReal := Ideal.ofBits .f32 0x00000000#32

/-- The reset rows hold the zero word at every lane. -/
theorem pay1_at (i : S1x128.Idx) : k4_pay1 (F := Ideal) i = z := rfl
theorem pay2_at (i : S1x128.Idx) : k4_pay2 (F := Ideal) i = z := rfl

/-- The first accumulator's new row at lane q: the old row plus the block's column sum. -/
theorem pay4_at (x : Vec Ideal S5000x128 .f32) (acc : Vec Ideal S1x128 .f32) (q : Fin 128) :
    k4_pay4 (F := Ideal) x acc (ix2 0 q) = acc (ix2 0 q) + ∑ k : Fin 5000, x (ix2 k q) := by
  unfold k4_pay4 k4_pay3
  simp only [shapeCast_self, addf_apply]
  refine congrArg (acc (ix2 0 q) + ·) ?_
  refine (shapeCast_a_1a_apply _ shapeCasts_S128_S1x128 0 q).trans ?_
  exact colSum_apply x reduces_S5000x128_S128 (.inl rfl) rfl q

/-- The second accumulator's new row at lane q: the old row plus the block's column sum of squares. -/
theorem pay5_at (x : Vec Ideal S5000x128 .f32) (acc : Vec Ideal S1x128 .f32) (q : Fin 128) :
    k4_pay5 (F := Ideal) x acc (ix2 0 q) = acc (ix2 0 q) + ∑ k : Fin 5000, x (ix2 k q) * x (ix2 k q) := by
  unfold k4_pay5 k4_pay3
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  rfl

/-- Row r (taken modulo the extent, so that every natural number names a row) of the [50000, 128] array at lane q. -/
def rowAt (x : S50000x128.Idx → EReal) (r : ℕ) (q : Fin 128) : EReal :=
  x (ix2 (⟨r % 50000, Nat.mod_lt _ (by norm_num)⟩ : Fin 50000) q)

/-- The column sums of the rows below a bound, from the zero word. -/
def sumBelow (f : S50000x128.Idx → EReal) (n : ℕ) : Vec Ideal S1x128 .f32 :=
  fun i => z + ∑ r ∈ Finset.range n, rowAt f r (i 1)

/-- The column sums over all rows of the array, from the zero word. -/
def colSums (f : S50000x128.Idx → EReal) : S1x128.Idx → EReal :=
  fun i => z + ∑ r : Fin 50000, f (ix2 r (i 1))

theorem colSums_apply (f : S50000x128.Idx → EReal) (q : Fin 128) :
    colSums f (ix2 0 q) = z + ∑ r : Fin 50000, f (ix2 r q) := rfl

/-- The sums below the full extent are the sums over the array. -/
theorem sumBelow_all (f : S50000x128.Idx → EReal) : sumBelow f 50000 = colSums f := by
  funext i
  unfold sumBelow colSums
  rw [Finset.sum_range]
  refine congrArg (z + ·) (Finset.sum_congr rfl fun r _ => ?_)
  unfold rowAt
  exact congrArg f (congrArg (fun a => ix2 a (i 1)) (Fin.ext (Nat.mod_eq_of_lt r.isLt)))

/-- Adding the next 5000 rows to the sums below a bound. -/
theorem sumBelow_step (f : S50000x128.Idx → EReal) (n : ℕ) (q : Fin 128) :
    sumBelow f n (ix2 0 q) + ∑ k : Fin 5000, rowAt f (n + k.val) q = sumBelow f (n + 5000) (ix2 0 q) := by
  unfold sumBelow
  rw [Finset.sum_range_add, ← Finset.sum_range (fun k => rowAt f (n + k) q), add_assoc]

/-- The squares of the entries. -/
def sq (f : S50000x128.Idx → EReal) : S50000x128.Idx → EReal := fun i => f i * f i

/-- The column sums of squares over all rows of the array, from the zero word. -/
def colSumSqs (f : S50000x128.Idx → EReal) : S1x128.Idx → EReal := colSums (sq f)

theorem colSumSqs_apply (f : S50000x128.Idx → EReal) (q : Fin 128) :
    colSumSqs f (ix2 0 q) = z + ∑ r : Fin 50000, f (ix2 r q) * f (ix2 r q) := rfl

/-- The reset row is the sum below no row. -/
theorem reset_eq (f : S50000x128.Idx → EReal) : (k4_pay1 (F := Ideal)) = sumBelow f (0 * 5000) := by
  funext i
  unfold sumBelow
  rw [Nat.zero_mul, Finset.range_zero, Finset.sum_empty, add_zero]
  rfl

theorem reset_eq' (f : S50000x128.Idx → EReal) : (k4_pay2 (F := Ideal)) = sumBelow f (0 * 5000) := by
  funext i
  unfold sumBelow
  rw [Nat.zero_mul, Finset.range_zero, Finset.sum_empty, add_zero]
  rfl

/-- One point's step on the first accumulator: block m of the rows is added to the sums below it. -/
theorem step_sum (f : S50000x128.Idx → EReal) (m : ℕ) (X : Vec Ideal S5000x128 .f32)
    (hX : ∀ (k : Fin 5000) (q : Fin 128), X (ix2 k q) = rowAt f (m * 5000 + k.val) q) :
    k4_pay4 (F := Ideal) X (sumBelow f (m * 5000)) = sumBelow f ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay4_at, Nat.succ_mul, ← sumBelow_step]
  exact congrArg (sumBelow f (m * 5000) (ix2 0 q) + ·) (Finset.sum_congr rfl fun k _ => hX k q)

/-- One point's step on the second accumulator: the squares of block m of the rows are added. -/
theorem step_sq (f : S50000x128.Idx → EReal) (m : ℕ) (X : Vec Ideal S5000x128 .f32)
    (hX : ∀ (k : Fin 5000) (q : Fin 128), X (ix2 k q) = rowAt f (m * 5000 + k.val) q) :
    k4_pay5 (F := Ideal) X (sumBelow (sq f) (m * 5000)) = sumBelow (sq f) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay5_at, Nat.succ_mul, ← sumBelow_step]
  refine congrArg (sumBelow (sq f) (m * 5000) (ix2 0 q) + ·) (Finset.sum_congr rfl fun k _ => ?_)
  rw [hX k q]
  rfl

/-- The index maps over the ten points: the tiled window sits at row block t, the accumulators at the origin. -/
theorem idx_facts : ∀ t : Fin cfg4.N,
    win4_0.index t (0 : Fin 2) = t.val ∧ win4_0.index t (1 : Fin 2) = 0 :=
  (by decide +kernel : ∀ t : Fin grid4.N, _)

/-- Block t of the tiled window read at row k and lane q is row t · 5000 + k of the array. -/
theorem blk0_read (c : Dev nD) (X : Buf (Elt Ideal) ((c : Thread nD τ).loc (Pipeline.arrRef spec4 0))) (t : Fin cfg4.N)
    (k : Fin 5000) (q : Fin 128) :
    (((cfg4.win 0).blk t).view.read (Elt Ideal) X : Vec Ideal S5000x128 .f32) (ix2 k q) = rowAt X (t.val * 5000 + k.val) q := by
  have hi := idx_facts t
  have hN : t.val < 10 := lt_of_lt_of_eq t.isLt (show cfg4.N = 10 from N_4)
  unfold rowAt
  rw [View.read_apply]
  refine congrArg X ?_
  funext a
  apply Fin.ext
  match a with
  | ⟨0, _⟩ =>
    show win4_0.index t 0 * 5000 + 1 * k.val = (t.val * 5000 + k.val) % 50000
    rw [hi.1, Nat.mod_eq_of_lt (by omega)]; omega
  | ⟨1, _⟩ =>
    show win4_0.index t 1 * 128 + 1 * q.val = q.val
    rw [hi.2]; omega

/-- The last point's block of the first accumulator's window is its whole array. -/
theorem cover1 (c : Dev nD) (i : ((cfg4.win 1).arr.view.loc (c.tc : Thread nD τ)).2.ty.Idx) :
    ∃ t : Fin cfg4.N, (cfg4.win 1).flush t = true ∧ i ∈ ((cfg4.win 1).blk t).view.set :=
  ⟨t4_9, (flush4_1 t4_9).mpr rfl, by
    show i ∈ ((View.whole main_v80_0).slice (win4_1.rect t4_9)).set
    rw [View.set_slice_whole, Rect.mem_set_unit]
    intro a
    have h0 : (i 0 : Nat) < 1 := (i 0).isLt
    have h1 : (i 1 : Nat) < 128 := (i 1).isLt
    match a with
    | ⟨0, _⟩ =>
      show win4_1.index t4_9 0 * win4_1.size 0 ≤ (i 0 : Nat) ∧ (i 0 : Nat) < win4_1.index t4_9 0 * win4_1.size 0 + win4_1.xsize (grid4.coords t4_9) 0
      rw [show win4_1.index t4_9 0 * win4_1.size 0 = 0 from by decide +kernel, show win4_1.xsize (grid4.coords t4_9) 0 = 1 from by decide +kernel]; omega
    | ⟨1, _⟩ =>
      show win4_1.index t4_9 1 * win4_1.size 1 ≤ (i 1 : Nat) ∧ (i 1 : Nat) < win4_1.index t4_9 1 * win4_1.size 1 + win4_1.xsize (grid4.coords t4_9) 1
      rw [show win4_1.index t4_9 1 * win4_1.size 1 = 0 from by decide +kernel, show win4_1.xsize (grid4.coords t4_9) 1 = 128 from by decide +kernel]; omega⟩

/-- The last point's block of the second accumulator's window is its whole array. -/
theorem cover2 (c : Dev nD) (i : ((cfg4.win 2).arr.view.loc (c.tc : Thread nD τ)).2.ty.Idx) :
    ∃ t : Fin cfg4.N, (cfg4.win 2).flush t = true ∧ i ∈ ((cfg4.win 2).blk t).view.set :=
  ⟨t4_9, (flush4_2 t4_9).mpr rfl, by
    show i ∈ ((View.whole main_v80_1).slice (win4_2.rect t4_9)).set
    rw [View.set_slice_whole, Rect.mem_set_unit]
    intro a
    have h0 : (i 0 : Nat) < 1 := (i 0).isLt
    have h1 : (i 1 : Nat) < 128 := (i 1).isLt
    match a with
    | ⟨0, _⟩ =>
      show win4_2.index t4_9 0 * win4_2.size 0 ≤ (i 0 : Nat) ∧ (i 0 : Nat) < win4_2.index t4_9 0 * win4_2.size 0 + win4_2.xsize (grid4.coords t4_9) 0
      rw [show win4_2.index t4_9 0 * win4_2.size 0 = 0 from by decide +kernel, show win4_2.xsize (grid4.coords t4_9) 0 = 1 from by decide +kernel]; omega
    | ⟨1, _⟩ =>
      show win4_2.index t4_9 1 * win4_2.size 1 ≤ (i 1 : Nat) ∧ (i 1 : Nat) < win4_2.index t4_9 1 * win4_2.size 1 + win4_2.xsize (grid4.coords t4_9) 1
      rw [show win4_2.index t4_9 1 * win4_2.size 1 = 0 from by decide +kernel, show win4_2.xsize (grid4.coords t4_9) 1 = 128 from by decide +kernel]; omega⟩

theorem hz : (![0, 0] : Fin 2 → Nat) = fun _ => 0 := funext fun a => by fin_cases a <;> rfl

section Pieces
variable {F : FTy → Type} [FloatOps F]

/-- At a later point the first accumulator is left at the body's sum row over the block and the running row. -/
theorem out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero hz]
  simp only [View.readAt_eq_ld, h1.read_unread, h2.read_unread, View.ld_unit_zero (S := S5000x128) hz,
    View.ld_unit_zero (S := S1x128) hz]

/-- At a later point the second accumulator is left at the body's sum-of-squares row over the block and the running row. -/
theorem out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero hz]
  simp only [View.readAt_eq_ld, h1.read_unread, h3.read_unread, View.ld_unit_zero (S := S5000x128) hz,
    View.ld_unit_zero (S := S1x128) hz]

/-- At the first point the first accumulator is reset to the zero row, read back, and left at the body's sum row over it. -/
theorem out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- At the first point the second accumulator likewise. -/
theorem out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

variable (V : (c : Dev nD) → (b : Ref sig .tc) → Buf (Elt Ideal) ((c : Thread nD τ).loc b))

/-- The tiled window's block at point t, read at row k and lane q, is row t · 5000 + k of the array the region finds. -/
theorem iblk_at (c : Dev nD) (t : Fin cfg4.N) (k : Fin 5000) (q : Fin 128) :
    (iblk4 V c 0 t : Vec Ideal S5000x128 .f32) (ix2 k q) = rowAt (V c (Pipeline.arrRef spec4 0)) (t.val * 5000 + k.val) q := by
  unfold iblk4
  exact blk0_read c (V c (Pipeline.arrRef spec4 0)) t k q

/-- After point n the two accumulators hold the column sums, and the column sums of squares, of the rows below (n + 1) · 5000:
    by induction on the point. -/
theorem outsAt_eq (c : Dev nD) : ∀ (n : ℕ) (h : n < cfg4.N),
    outsAt4 V c n h = (sumBelow (V c (Pipeline.arrRef spec4 0)) ((n + 1) * 5000),
      sumBelow (sq (V c (Pipeline.arrRef spec4 0))) ((n + 1) * 5000)) := by
  intro n
  induction n with
  | zero =>
    intro h
    rw [outsAt4_A V c ⟨0, h⟩ rfl]
    refine Prod.ext ?_ ?_
    · dsimp only
      refine (out_A_1 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) _ (iblk4 V c 0 ⟨0, h⟩)).trans ?_
      rw [reset_eq (V c (Pipeline.arrRef spec4 0))]
      exact step_sum (V c (Pipeline.arrRef spec4 0)) 0 (iblk4 V c 0 ⟨0, h⟩) (fun k q => iblk_at V c ⟨0, h⟩ k q)
    · dsimp only
      refine (out_A_2 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) _ (iblk4 V c 0 ⟨0, h⟩)).trans ?_
      rw [reset_eq' (sq (V c (Pipeline.arrRef spec4 0)))]
      exact step_sq (V c (Pipeline.arrRef spec4 0)) 0 (iblk4 V c 0 ⟨0, h⟩) (fun k q => iblk_at V c ⟨0, h⟩ k q)
  | succ n ih =>
    intro h
    have hN : cfg4.N = 10 := N_4
    have hB : ¬(⟨n + 1, h⟩ : Fin cfg4.N).val % 10 = 0 := by dsimp only; omega
    have e := outsAt4_B V c ⟨n + 1, h⟩ hB
    have ih' : outsAt4 V c ((⟨n + 1, h⟩ : Fin cfg4.N).val - 1)
        (Nat.lt_of_le_of_lt (Nat.sub_le _ _) (⟨n + 1, h⟩ : Fin cfg4.N).isLt)
        = (sumBelow (V c (Pipeline.arrRef spec4 0)) ((n + 1) * 5000),
            sumBelow (sq (V c (Pipeline.arrRef spec4 0))) ((n + 1) * 5000)) := ih _
    rw [ih'] at e
    refine e.trans (Prod.ext ?_ ?_)
    · dsimp only
      refine (out_B_1 (F := Ideal) c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) _ (iblk4 V c 0 ⟨n + 1, h⟩) _ _).trans ?_
      exact step_sum (V c (Pipeline.arrRef spec4 0)) (n + 1) (iblk4 V c 0 ⟨n + 1, h⟩) (fun k q => iblk_at V c ⟨n + 1, h⟩ k q)
    · dsimp only
      refine (out_B_2 (F := Ideal) c (grid4.coords ⟨n + 1, h⟩) (ms4_0 ⟨n + 1, h⟩) (hs4_0 ⟨n + 1, h⟩) (ms4_1 ⟨n + 1, h⟩)
        (hs4_1 ⟨n + 1, h⟩) (ms4_2 ⟨n + 1, h⟩) (hs4_2 ⟨n + 1, h⟩) _ (iblk4 V c 0 ⟨n + 1, h⟩) _ _).trans ?_
      exact step_sq (V c (Pipeline.arrRef spec4 0)) (n + 1) (iblk4 V c 0 ⟨n + 1, h⟩) (fun k q => iblk_at V c ⟨n + 1, h⟩ k q)

/-- The one write-back of the first accumulator, at the last point, writes the column sums over all rows. -/
theorem flushed1_eq (c : Dev nD) (t : Fin cfg4.N) (hf : (cfg4.win 1).flush t = true) :
    (dat4 V c).flushed 1 t = ((cfg4.win 1).blk t).view.read (Elt Ideal) (colSums (V c (Pipeline.arrRef spec4 0))) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1, outsAt_eq V c]
  show (cfg4.win 1).cut (grid4.coords t4_9) (sumBelow (V c (Pipeline.arrRef spec4 0)) 50000) = _
  rw [sumBelow_all]
  have hz' : (fun a => win4_1.index t4_9 a * main_v80_0.ty.shape.size a) = fun _ => 0 := funext fun a => by fin_cases a <;> decide
  exact (Memref.read_access_unit_zero (Elt Ideal) main_v80_0 hz' (fun a => by rw [congrFun hz' a]; simp) _).symm

/-- The one write-back of the second accumulator, at the last point, writes the column sums of squares over all rows. -/
theorem flushed2_eq (c : Dev nD) (t : Fin cfg4.N) (hf : (cfg4.win 2).flush t = true) :
    (dat4 V c).flushed 2 t = ((cfg4.win 2).blk t).view.read (Elt Ideal) (colSumSqs (V c (Pipeline.arrRef spec4 0))) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2, outsAt_eq V c]
  show (cfg4.win 2).cut (grid4.coords t4_9) (sumBelow (sq (V c (Pipeline.arrRef spec4 0))) 50000) = _
  rw [sumBelow_all]
  have hz' : (fun a => win4_2.index t4_9 a * main_v80_1.ty.shape.size a) = fun _ => 0 := funext fun a => by fin_cases a <;> decide
  exact (Memref.read_access_unit_zero (Elt Ideal) main_v80_1 hz' (fun a => by rw [congrFun hz' a]; simp) _).symm

/-- The first accumulator's array ends holding, at lane q, the zero word plus the sum over all 50000 rows of the input at lane q. -/
theorem final1 (c : Dev nD) : (dat4 V c).arrAt 1 cfg4.N = colSums (V c (Pipeline.arrRef spec4 0)) :=
  (dat4 V c).arrAt_eq_of_cover 1 (colSums (V c (Pipeline.arrRef spec4 0))) (flushed1_eq V c) (cover1 c)

/-- The second accumulator's array ends holding, at lane q, the zero word plus the sum over all rows of the squares at lane q. -/
theorem final2 (c : Dev nD) : (dat4 V c).arrAt 2 cfg4.N = colSumSqs (V c (Pipeline.arrRef spec4 0)) :=
  (dat4 V c).arrAt_eq_of_cover 2 (colSumSqs (V c (Pipeline.arrRef spec4 0))) (flushed2_eq V c) (cover2 c)

end Cert.KernelIdeal.Region4

end
-- ==== Proof.Stage10.lean ====
/-
  The reduction region's two outputs at its exit: the column sums and column sums of squares of the rectified layer in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region4
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f10_v80_0 (c : Dev nD)
    (h79 : W9 m ρ c (Proc.devRef .tc main_v79) = pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) :
    W10 m ρ c (Proc.devRef .tc main_v80_0) = Cert.KernelIdeal.Region4.colSums (pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) := by
  refine ((W10_arr m ρ c 1).trans (Cert.KernelIdeal.Region4.final1 (V9 m ρ) c)).trans ?_
  show Cert.KernelIdeal.Region4.colSums (W9 m ρ c (Proc.devRef .tc main_v79)) = _
  rw [h79]

theorem f10_v80_1 (c : Dev nD)
    (h79 : W9 m ρ c (Proc.devRef .tc main_v79) = pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) :
    W10 m ρ c (Proc.devRef .tc main_v80_1) = Cert.KernelIdeal.Region4.colSumSqs (pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) := by
  refine ((W10_arr m ρ c 2).trans (Cert.KernelIdeal.Region4.final2 (V9 m ρ) c)).trans ?_
  show Cert.KernelIdeal.Region4.colSumSqs (W9 m ρ c (Proc.devRef .tc main_v79)) = _
  rw [h79]

end Cert.KernelIdeal.Stage

end
-- ==== Proof.LibScaledMoments.lean ====
import Idealize.ShloMosaic.PureOps.Ideal
import Mathlib.Tactic

/-!
# Moments about a scaled mean, on the extended reals

For real entries `r p` (`p < n`, `n = N > 0`), a real scale `a` and `μ = (∑ r p) / N`:

  `(∑ (r p - a μ)²) / N = (∑ (r p)²) / N - 2 (a μ) μ + (a μ)²`,

a nonnegative real number, so its maximum with zero is itself. Stated on the extended reals with the division
`Ideal.div`, the entries being coercions of reals; a reduction's leading `0 +` is allowed on the side that has it.
-/

noncomputable section

namespace Cert.Lib.ScaledMoments

open Idealize.ShloMosaic
open scoped BigOperators

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (hy : y ≠ 0) :
    Ideal.div (x : EReal) (y : EReal) = ((x / y : ℝ) : EReal) := by
  rw [Ideal.div_coe hy, ← EReal.coe_mul, mul_one_div]

/-- The identity on the reals. -/
theorem real_scaled {n : ℕ} {N : ℝ} (hN : N ≠ 0) (hn : (n : ℝ) = N) (r : Fin n → ℝ) (a : ℝ) :
    (∑ p, (r p - a * ((∑ q, r q) / N)) * (r p - a * ((∑ q, r q) / N))) / N
      = (∑ p, r p * r p) / N - 2 * (a * ((∑ q, r q) / N)) * ((∑ q, r q) / N)
        + (a * ((∑ q, r q) / N)) * (a * ((∑ q, r q) / N)) := by
  have h1 : ∀ m : ℝ, ∑ p, (r p - m) * (r p - m)
      = (∑ p, r p * r p) - 2 * m * (∑ p, r p) + N * (m * m) := by
    intro m
    have h2 : ∀ p, (r p - m) * (r p - m) = r p * r p - 2 * m * r p + m * m := fun p => by ring
    simp only [h2]
    rw [Finset.sum_add_distrib, Finset.sum_sub_distrib, ← Finset.mul_sum, Finset.sum_const,
      Finset.card_univ, Fintype.card_fin, nsmul_eq_mul, hn]
  rw [h1]
  first | (field_simp; ring) | field_simp

/-- On the extended reals: the kernel's `E[x²] − 2·(aμ)·μ + (aμ)²`, cut at zero, is the reference's mean of
    `(x − aμ)²` (whose sums carry the reduction's leading zero); both are one nonnegative real. -/
theorem scaled_bridge {n : ℕ} {N : ℝ} (hN : 0 < N) (hn : (n : ℝ) = N) (f : Fin n → EReal)
    (hf : ∀ p, ∃ r : ℝ, f p = (r : EReal)) (A two zero : EReal) (hA : ∃ a : ℝ, A = (a : EReal))
    (h2 : two = ((2 : ℝ) : EReal)) (h0 : zero = 0) :
    ∃ v : ℝ, 0 ≤ v ∧
      max (Ideal.div (∑ p, f p * f p) (N : EReal)
            - two * (A * Ideal.div (∑ p, f p) (N : EReal)) * Ideal.div (∑ p, f p) (N : EReal)
            + (A * Ideal.div (∑ p, f p) (N : EReal)) * (A * Ideal.div (∑ p, f p) (N : EReal))) zero = (v : EReal)
      ∧ Ideal.div (0 + ∑ p, (f p - A * Ideal.div (0 + ∑ q, f q) (N : EReal))
            * (f p - A * Ideal.div (0 + ∑ q, f q) (N : EReal))) (N : EReal) = (v : EReal) := by
  choose r hr using hf
  obtain rfl : f = fun p => ((r p : ℝ) : EReal) := funext hr
  obtain ⟨a, rfl⟩ := hA
  subst h2 h0
  simp only [zero_add]
  have hN' := hN.ne'
  refine ⟨(∑ p, (r p - a * ((∑ q, r q) / N)) * (r p - a * ((∑ q, r q) / N))) / N,
    div_nonneg (Finset.sum_nonneg fun p _ => mul_self_nonneg _) hN.le, ?_, ?_⟩
  · have e1 : (∑ p, ((r p : ℝ) : EReal) * ((r p : ℝ) : EReal)) = ((∑ p, r p * r p : ℝ) : EReal) := by
      rw [← coe_sum]; exact Finset.sum_congr rfl fun p _ => (EReal.coe_mul _ _).symm
    rw [e1, coe_sum, div_coe_coe _ hN', div_coe_coe _ hN', ← EReal.coe_mul, ← EReal.coe_mul, ← EReal.coe_mul,
      ← EReal.coe_sub, ← EReal.coe_mul, ← EReal.coe_add, ← real_scaled hN' hn r a]
    rw [max_eq_left]
    exact_mod_cast div_nonneg (Finset.sum_nonneg fun p _ => mul_self_nonneg _) hN.le
  · rw [coe_sum, div_coe_coe _ hN', ← EReal.coe_mul]
    have e2 : (∑ p, (((r p : ℝ) : EReal) - ((a * ((∑ q, r q) / N) : ℝ) : EReal))
        * (((r p : ℝ) : EReal) - ((a * ((∑ q, r q) / N) : ℝ) : EReal)))
        = ((∑ p, (r p - a * ((∑ q, r q) / N)) * (r p - a * ((∑ q, r q) / N)) : ℝ) : EReal) := by
      rw [← coe_sum]
      exact Finset.sum_congr rfl fun p _ => by rw [← EReal.coe_sub, ← EReal.coe_mul]
    rw [e2, div_coe_coe _ hN']

end Cert.Lib.ScaledMoments

end
-- ==== Proof.Stage11.lean ====
/-
  The sixth stretch: the four [1, 128] rows the first layer's graph normalisation reads. The row of scaled means a · μ is
  the reference's laid twice (lanes q and 64 + q of the packed column sums add up to the sum of column q over the 100000
  node rows). The row of reciprocal standard deviations likewise: on real entries and a real scale,
  E[x²] − 2 (aμ) μ + (aμ)², cut at zero, is the mean squared deviation from aμ. The scale and shift rows are the arguments
  laid twice. The facts about packed column sums are stated for any array f.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region4
import proofs.«106696_j33449205301454_2_alg».proof.Proof.LibScaledMoments
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import proofs.«106696_j33449205301454_2_alg».proof.Proof.LibPacked
import proofs.«106696_j33449205301454_2_alg».proof.Proof.LibSignEntries
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx
open scoped BigOperators

namespace GN

/-- The zero word, the count word (100000), the small word added under the root, the word 2. -/
abbrev zw : EReal := Ideal.ofBits .f32 0x00000000#32
abbrev nw : EReal := Ideal.ofBits .f32 0x47C35000#32
abbrev ew : EReal := Ideal.ofBits .f32 0x3727C5AC#32
abbrev tw : EReal := Ideal.ofBits .f32 0x40000000#32

/-- Lane q of the first half of a 128-lane row and lane 64 + q of its second half. -/
abbrev lo (q : Fin 64) : Fin 128 := ⟨q.val, Nat.lt_of_lt_of_le q.isLt (by decide)⟩
abbrev hi (q : Fin 64) : Fin 128 := ⟨64 + q.val, Nat.add_lt_add_left q.isLt 64⟩
/-- The even and the odd node row packed into row r. -/
abbrev ev (r : Fin 50000) : Fin 100000 := ⟨2 * r.val, by have := r.isLt; omega⟩
abbrev od (r : Fin 50000) : Fin 100000 := ⟨2 * r.val + 1, by have := r.isLt; omega⟩

/-! ### The kernel's side: rows of 128 lanes folded to 64 -/

/-- The two half-rows of a [1, 128] row added, as a [64] vector. -/
def kHalf (S : S1x128.Idx → EReal) : S64.Idx → EReal :=
  shapeCast S64 (addf (F := Ideal) (φ := .f32) (extractStridedSlice S1x64 ![0, 0] S slices_S1x128_S1x64_0_0)
    (extractStridedSlice S1x64 ![0, 64] S slices_S1x128_S1x64_0_64)) shapeCasts_S1x64_S64
/-- A word laid along a [64] vector. -/
def kWord (w : BitVec 32) : S64.Idx → EReal := broadcastInDim S64 ![] bcast_S_S64 (constant (F := Ideal) S_ .f32 w)
/-- The kernel's mean vector from the row of packed column sums. -/
def kMean (S : S1x128.Idx → EReal) : S64.Idx → EReal :=
  Host.divf (F := Ideal) (φ := .f32) (kHalf S) (kWord 0x47C35000#32)

/-! ### The reference's side: sums over the 100000 node rows -/

/-- The host's column sums of a [100000, 64] array from the zero word. -/
def rSum (f : S100000x64.Idx → EReal) : S64.Idx → EReal :=
  Host.reduceAdd (F := Ideal) (φ := .f32) f (constant (F := Ideal) Cert.ReferenceIdeal.S_ .f32 0x00000000#32) Cert.ReferenceIdeal.Gen.reducesTo_S100000x64_S64_d0 Cert.ReferenceIdeal.Gen.h_S_
/-- A word laid along a [64] vector, as the reference lays it. -/
def rWord (w : BitVec 32) : S64.Idx → EReal :=
  broadcastInDim Cert.ReferenceIdeal.S64 ![] Cert.ReferenceIdeal.Gen.bcast_S_S64 (constant (F := Ideal) Cert.ReferenceIdeal.S_ .f32 w)
/-- The reference's mean vector. -/
def rMean (f : S100000x64.Idx → EReal) : S64.Idx → EReal :=
  Host.divf (F := Ideal) (φ := .f32) (rSum f) (rWord 0x47C35000#32)
/-- A [64] vector laid along every node row. -/
def rSpread (v : S64.Idx → EReal) : S100000x64.Idx → EReal :=
  broadcastInDim Cert.ReferenceIdeal.S100000x64 ![0, 1] Cert.ReferenceIdeal.Gen.bcast_S1x64_S100000x64_0_1 (broadcastInDim Cert.ReferenceIdeal.S1x64 ![1] Cert.ReferenceIdeal.Gen.bcast_S64_S1x64_1 v)

/-! ### Read at an index -/

theorem kHalf_apply (S : S1x128.Idx → EReal) (q : Fin 64) :
    kHalf S (ix1 q) = S (ix2 0 (lo q)) + S (ix2 0 (hi q)) := by
  unfold kHalf
  refine (shapeCast_1a_a_apply _ shapeCasts_S1x64_S64 q).trans ?_
  exact congrArg₂ (· + ·)
    (slice2_axis1_apply 0 S slices_S1x128_S1x64_0_0 0 q (lo q) (Nat.zero_add _).symm)
    (slice2_axis1_apply 64 S slices_S1x128_S1x64_0_64 0 q (hi q) rfl)

theorem kWord_apply (w : BitVec 32) (i : S64.Idx) : kWord w i = Ideal.ofBits .f32 w := by
  unfold kWord
  exact broadcastInDim_apply _ bcast_S_S64 _ i (fun a => a.elim0) (fun a => a.elim0)

theorem rWord_apply (w : BitVec 32) (i : S64.Idx) : rWord w i = Ideal.ofBits .f32 w := by
  unfold rWord
  exact broadcastInDim_apply _ Cert.ReferenceIdeal.Gen.bcast_S_S64 _ i (fun a => a.elim0) (fun a => a.elim0)

theorem rSum_apply (f : S100000x64.Idx → EReal) (q : Fin 64) :
    rSum f (ix1 q) = zw + ∑ k : Fin 100000, f (ix2 k q) := by
  unfold rSum
  simp only [Host.reduceAdd, Ideal.hostReduceAdd_def]
  rw [Ideal.hostReduceAdd_single Cert.ReferenceIdeal.Gen.reducesTo_S100000x64_S64_d0 (by decide)]
  refine congrArg₂ (· + ·) rfl (Finset.sum_congr rfl fun k _ => ?_)
  exact congrArg f (funext fun a => Fin.ext (by match a with | ⟨0, _⟩ => rfl | ⟨1, _⟩ => rfl))

theorem rSpread_apply (v : S64.Idx → EReal) (p : Fin 100000) (q : Fin 64) : rSpread v (ix2 p q) = v (ix1 q) := by
  unfold rSpread
  refine (broadcastInDim_apply _ Cert.ReferenceIdeal.Gen.bcast_S1x64_S100000x64_0_1 _ (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ Cert.ReferenceIdeal.Gen.bcast_S64_S1x64_1 v (ix2 0 q) (ix1 q) (fun a => match a with
    | ⟨0, _⟩ => by show q.val = if (64 : Nat) = 1 then 0 else q.val; rw [if_neg (by decide)])

/-! ### The packed column sums are the sums over the node rows -/

/-- Column q of the array under φ, as a function of a natural row number (0 beyond the rows). -/
def colFn (f : S100000x64.Idx → EReal) (φ : EReal → EReal) (q : Fin 64) (n : ℕ) : EReal :=
  if h : n < 100000 then φ (f (ix2 ⟨n, h⟩ q)) else 0

theorem colFn_of_lt (f : S100000x64.Idx → EReal) (φ : EReal → EReal) (q : Fin 64) (n : ℕ) (h : n < 100000) :
    colFn f φ q n = φ (f (ix2 ⟨n, h⟩ q)) := dif_pos h

/-- Lanes q and 64 + q of the packed row r are column q of the node rows 2r and 2r + 1. -/
theorem pack_lo (f : S100000x64.Idx → EReal) (r : Fin 50000) (q : Fin 64) : pack f (ix2 r (lo q)) = f (ix2 (ev r) q) :=
  Cert.Lib.Packed.pack_apply f shapeCasts_S100000x64_S50000x128 rfl r (lo q) (ev r) q
    (by show 2 * r.val = 2 * r.val + q.val / 64; have := q.isLt; omega) (by show q.val = q.val % 64; have := q.isLt; omega)
theorem pack_hi (f : S100000x64.Idx → EReal) (r : Fin 50000) (q : Fin 64) : pack f (ix2 r (hi q)) = f (ix2 (od r) q) :=
  Cert.Lib.Packed.pack_apply f shapeCasts_S100000x64_S50000x128 rfl r (hi q) (od r) q
    (by show 2 * r.val + 1 = 2 * r.val + (64 + q.val) / 64; have := q.isLt; omega)
    (by show q.val = (64 + q.val) % 64; have := q.isLt; omega)

/-- A [1, 128] row holding, at every lane, the zero word plus the packed view's column sum under φ: its lanes q and
    64 + q add up to the sum of column q over all 100000 node rows. -/
theorem lane_sum (f : S100000x64.Idx → EReal) (φ : EReal → EReal) (S : S1x128.Idx → EReal)
    (hS : ∀ l : Fin 128, S (ix2 0 l) = zw + ∑ r : Fin 50000, φ (pack f (ix2 r l))) (q : Fin 64) :
    S (ix2 0 (lo q)) + S (ix2 0 (hi q)) = ∑ p : Fin 100000, φ (f (ix2 p q)) := by
  have hL : ∀ r : Fin 50000, φ (pack f (ix2 r (lo q))) + φ (pack f (ix2 r (hi q)))
      = colFn f φ q (2 * r.val) + colFn f φ q (2 * r.val + 1) := fun r =>
    congrArg₂ (· + ·) ((congrArg φ (pack_lo f r q)).trans (colFn_of_lt f φ q (2 * r.val) (ev r).isLt).symm)
      ((congrArg φ (pack_hi f r q)).trans (colFn_of_lt f φ q (2 * r.val + 1) (od r).isLt).symm)
  have hz : zw = 0 := Ideal.ofBits_zero_f32
  rw [hS (lo q), hS (hi q), hz, zero_add, zero_add, ← Finset.sum_add_distrib]
  calc ∑ r : Fin 50000, (φ (pack f (ix2 r (lo q))) + φ (pack f (ix2 r (hi q))))
      = ∑ r : Fin 50000, (colFn f φ q (2 * r.val) + colFn f φ q (2 * r.val + 1)) := Finset.sum_congr rfl fun r _ => hL r
    _ = ∑ p : Fin 100000, colFn f φ q p.val := (Cert.Lib.Packed.sum_pairs (a := 50000) (colFn f φ q)).symm
    _ = ∑ p : Fin 100000, φ (f (ix2 p q)) := Finset.sum_congr rfl fun p _ => colFn_of_lt f φ q p.val p.isLt

/-- The count word is the real number 100000. -/
theorem nw_eq : nw = ((100000 : ℝ) : EReal) := Cert.Lib.SignEntries.ofBits_1e5

/-- The kernel's mean at q: the sum of column q over the node rows, divided by the count. -/
theorem kMean_apply (f : S100000x64.Idx → EReal) (S : S1x128.Idx → EReal)
    (hS : ∀ l : Fin 128, S (ix2 0 l) = zw + ∑ r : Fin 50000, pack f (ix2 r l)) (q : Fin 64) :
    kMean S (ix1 q) = Ideal.div (∑ p : Fin 100000, f (ix2 p q)) nw := by
  show Ideal.div (kHalf S (ix1 q)) (kWord 0x47C35000#32 (ix1 q)) = _
  rw [kHalf_apply, lane_sum f (fun x => x) S hS q, kWord_apply]

/-- The reference's mean at q. -/
theorem rMean_apply (f : S100000x64.Idx → EReal) (q : Fin 64) :
    rMean f (ix1 q) = Ideal.div (zw + ∑ p : Fin 100000, f (ix2 p q)) nw := by
  show Ideal.div (rSum f (ix1 q)) (rWord 0x47C35000#32 (ix1 q)) = _
  rw [rSum_apply, rWord_apply]

/-- THE MEAN: the kernel's mean vector of the packed column sums of f is the reference's mean vector of f. -/
theorem kMean_eq (f : S100000x64.Idx → EReal) (S : S1x128.Idx → EReal)
    (hS : ∀ l : Fin 128, S (ix2 0 l) = zw + ∑ r : Fin 50000, pack f (ix2 r l)) : kMean S = rMean f := by
  funext i
  obtain ⟨q, rfl⟩ : ∃ q : Fin 64, i = ix1 q := ⟨i 0, eq_ix1 i⟩
  have hz : zw = 0 := Ideal.ofBits_zero_f32
  rw [kMean_apply f S hS q, rMean_apply f q, hz, zero_add]

/-! ### The graph normalisation's scaled mean and reciprocal standard deviation -/

/-- The kernel's scaled mean a · μ. -/
def kScaled (a : S64.Idx → EReal) (S1 : S1x128.Idx → EReal) : S64.Idx → EReal :=
  mulf (F := Ideal) (φ := .f32) a (kMean S1)

/-- The kernel's: the root's reciprocal of max (E[x²] − 2 (aμ) μ + (aμ)², 0) + ε. -/
def kRstd (a : S64.Idx → EReal) (S1 S2 : S1x128.Idx → EReal) : S64.Idx → EReal :=
  Host.rsqrt (F := Ideal) (φ := .f32) (addf (F := Ideal) (φ := .f32)
    (maximumf (F := Ideal) (φ := .f32)
      (addf (F := Ideal) (φ := .f32)
        (subf (F := Ideal) (φ := .f32) (Host.divf (F := Ideal) (φ := .f32) (kHalf S2) (kWord 0x47C35000#32))
          (mulf (F := Ideal) (φ := .f32) (mulf (F := Ideal) (φ := .f32) (kWord 0x40000000#32) (kScaled a S1)) (kMean S1)))
        (mulf (F := Ideal) (φ := .f32) (kScaled a S1) (kScaled a S1)))
      (kWord 0x00000000#32))
    (kWord 0x3727C5AC#32))

/-- The reference's scaled mean. -/
def rScaled (a : S64.Idx → EReal) (f : S100000x64.Idx → EReal) : S64.Idx → EReal :=
  mulf (F := Ideal) (φ := .f32) a (rMean f)

/-- The reference's: the root's reciprocal of the mean squared deviation from the scaled mean, plus ε. -/
def rRstd (a : S64.Idx → EReal) (f : S100000x64.Idx → EReal) : S64.Idx → EReal :=
  Host.rsqrt (F := Ideal) (φ := .f32) (addf (F := Ideal) (φ := .f32)
    (Host.divf (F := Ideal) (φ := .f32)
      (rSum (mulf (F := Ideal) (φ := .f32) (subf (F := Ideal) (φ := .f32) f (rSpread (rScaled a f)))
        (subf (F := Ideal) (φ := .f32) f (rSpread (rScaled a f)))))
      (rWord 0x47C35000#32))
    (rWord 0x3727C5AC#32))

/-- On one column of real entries and a real scale A: E[x²] − 2 (Aμ) μ + (Aμ)², cut at zero, is the mean squared deviation
    from Aμ. -/
theorem gn_scalar (g : Fin 100000 → EReal) (hg : ∀ p, ∃ r : ℝ, g p = (r : EReal)) (A : EReal)
    (hA : ∃ a : ℝ, A = (a : EReal)) :
    max (Ideal.div (∑ p, g p * g p) nw - tw * (A * Ideal.div (∑ p, g p) nw) * Ideal.div (∑ p, g p) nw
          + (A * Ideal.div (∑ p, g p) nw) * (A * Ideal.div (∑ p, g p) nw)) zw + ew
      = Ideal.div (zw + ∑ p, (g p - A * Ideal.div (zw + ∑ k, g k) nw) * (g p - A * Ideal.div (zw + ∑ k, g k) nw)) nw + ew := by
  have hz : zw = 0 := Ideal.ofBits_zero_f32
  rw [nw_eq, hz]
  obtain ⟨v, hv, hk, hr⟩ := Cert.Lib.ScaledMoments.scaled_bridge (n := 100000) (N := 100000) (by norm_num) (by norm_num)
    g hg A tw 0 hA Cert.Lib.SignEntries.ofBits_two rfl
  rw [hk, hr]

/-- THE SCALED MEAN: a · (the kernel's mean of the packed column sums of f) is a · (the reference's mean of f). -/
theorem kScaled_eq (a : S64.Idx → EReal) (f : S100000x64.Idx → EReal) (S : S1x128.Idx → EReal)
    (hS : ∀ l : Fin 128, S (ix2 0 l) = zw + ∑ r : Fin 50000, pack f (ix2 r l)) : kScaled a S = rScaled a f :=
  congrArg (mulf (F := Ideal) (φ := .f32) a) (kMean_eq f S hS)

/-- THE SPREAD about the scaled mean: the kernel's reciprocal standard deviation from the packed column sums and sums of
    squares of a real array f, with a real scale a, is the reference's of f. -/
theorem kRstd_eq (a : S64.Idx → EReal) (f : S100000x64.Idx → EReal) (S1 S2 : S1x128.Idx → EReal)
    (hS1 : ∀ l : Fin 128, S1 (ix2 0 l) = zw + ∑ r : Fin 50000, pack f (ix2 r l))
    (hS2 : ∀ l : Fin 128, S2 (ix2 0 l) = zw + ∑ r : Fin 50000, pack f (ix2 r l) * pack f (ix2 r l))
    (hreal : ∀ i, ∃ r : ℝ, f i = (r : EReal)) (ha : ∀ i, ∃ r : ℝ, a i = (r : EReal)) :
    kRstd a S1 S2 = rRstd a f := by
  funext i
  obtain ⟨q, rfl⟩ : ∃ q : Fin 64, i = ix1 q := ⟨i 0, eq_ix1 i⟩
  have hK : kRstd a S1 S2 (ix1 q)
      = Ideal.rsqrt (max (Ideal.div (∑ p : Fin 100000, f (ix2 p q) * f (ix2 p q)) nw
          - tw * (a (ix1 q) * Ideal.div (∑ p : Fin 100000, f (ix2 p q)) nw) * Ideal.div (∑ p : Fin 100000, f (ix2 p q)) nw
          + (a (ix1 q) * Ideal.div (∑ p : Fin 100000, f (ix2 p q)) nw)
            * (a (ix1 q) * Ideal.div (∑ p : Fin 100000, f (ix2 p q)) nw)) zw + ew) := by
    show Ideal.rsqrt (max (Ideal.div (kHalf S2 (ix1 q)) (kWord 0x47C35000#32 (ix1 q))
        - kWord 0x40000000#32 (ix1 q) * (a (ix1 q) * kMean S1 (ix1 q)) * kMean S1 (ix1 q)
        + (a (ix1 q) * kMean S1 (ix1 q)) * (a (ix1 q) * kMean S1 (ix1 q))) (kWord 0x00000000#32 (ix1 q))
        + kWord 0x3727C5AC#32 (ix1 q)) = _
    rw [kHalf_apply, lane_sum f (fun x => x * x) S2 hS2 q, kMean_apply f S1 hS1 q, kWord_apply, kWord_apply, kWord_apply,
      kWord_apply]
  have hR : rRstd a f (ix1 q)
      = Ideal.rsqrt (Ideal.div (zw + ∑ p : Fin 100000,
          (f (ix2 p q) - a (ix1 q) * Ideal.div (zw + ∑ k : Fin 100000, f (ix2 k q)) nw)
            * (f (ix2 p q) - a (ix1 q) * Ideal.div (zw + ∑ k : Fin 100000, f (ix2 k q)) nw)) nw + ew) := by
    show Ideal.rsqrt (Ideal.div (rSum (mulf (F := Ideal) (φ := .f32) (subf (F := Ideal) (φ := .f32) f (rSpread (rScaled a f)))
        (subf (F := Ideal) (φ := .f32) f (rSpread (rScaled a f)))) (ix1 q)) (rWord 0x47C35000#32 (ix1 q))
        + rWord 0x3727C5AC#32 (ix1 q)) = _
    rw [rSum_apply, rWord_apply, rWord_apply]
    refine congrArg (fun x => Ideal.rsqrt (Ideal.div (zw + x) nw + ew)) (Finset.sum_congr rfl fun p _ => ?_)
    show (f (ix2 p q) - rSpread (rScaled a f) (ix2 p q)) * (f (ix2 p q) - rSpread (rScaled a f) (ix2 p q)) = _
    rw [rSpread_apply]
    show (f (ix2 p q) - a (ix1 q) * rMean f (ix1 q)) * (f (ix2 p q) - a (ix1 q) * rMean f (ix1 q)) = _
    rw [rMean_apply]
  rw [hK, hR]
  exact congrArg Ideal.rsqrt (gn_scalar (fun p => f (ix2 p q)) (fun p => hreal (ix2 p q)) (a (ix1 q)) (ha (ix1 q)))

end GN

variable (m : (ℓ : Loc nD τ sig) → Buf (Elt Ideal) ℓ) (ρ : Dev nD → PrngReg)

open Cert.ReferenceIdeal.Read

set_option maxHeartbeats 4000000 in
/-- The row of scaled means. -/
theorem f11_v106 (c : Dev nD)
    (g1 : W10 m ρ c (Proc.devRef .tc main_v80_0) = Cert.KernelIdeal.Region4.colSums (pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))))) :
    W11 m ρ c (Proc.devRef .tc main_v106) = rowDouble (Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg23))) := by
  show StableHlo.after hostOps5 (W10 m ρ c) (Proc.devRef .tc main_v106) = _
  after_results
  rw [g1, Keep.keep_arg23_10_0 m ρ c]
  exact congrArg rowDouble (GN.kScaled_eq (m ((c : Thread nD τ).loc main_arg23)) (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) _ (fun l => Cert.KernelIdeal.Region4.colSums_apply _ l))

set_option maxHeartbeats 2000000 in
set_option maxHeartbeats 4000000 in
/-- The row of reciprocal standard deviations about the scaled mean. -/
theorem f11_v108 (c : Dev nD)
    (g1 : W10 m ρ c (Proc.devRef .tc main_v80_0) = Cert.KernelIdeal.Region4.colSums (pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))))
    (g2 : W10 m ρ c (Proc.devRef .tc main_v80_1) = Cert.KernelIdeal.Region4.colSumSqs (pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))))
    (hreal : ∀ i, ∃ r : ℝ, (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i = (r : EReal))
    (ha : ∀ i, ∃ r : ℝ, (m ((c : Thread nD τ).loc main_arg23)) i = (r : EReal)) :
    W11 m ρ c (Proc.devRef .tc main_v108) = rowDouble (Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg23))) := by
  show StableHlo.after hostOps5 (W10 m ρ c) (Proc.devRef .tc main_v108) = _
  after_results
  rw [g1, g2, Keep.keep_arg23_10_0 m ρ c]
  exact congrArg rowDouble (GN.kRstd_eq (m ((c : Thread nD τ).loc main_arg23)) (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) _ _ (fun l => Cert.KernelIdeal.Region4.colSums_apply _ l)
    (fun l => Cert.KernelIdeal.Region4.colSumSqs_apply _ l) hreal ha)

set_option maxHeartbeats 4000000 in
/-- The scale row. -/
theorem f11_v110 (c : Dev nD) : W11 m ρ c (Proc.devRef .tc main_v110) = rowDouble (m ((c : Thread nD τ).loc main_arg21)) := by
  show StableHlo.after hostOps5 (W10 m ρ c) (Proc.devRef .tc main_v110) = _
  after_results
  rw [Keep.keep_arg21_10_0 m ρ c]
  rfl

set_option maxHeartbeats 4000000 in
/-- The shift row. -/
theorem f11_v112 (c : Dev nD) : W11 m ρ c (Proc.devRef .tc main_v112) = rowDouble (m ((c : Thread nD τ).loc main_arg22)) := by
  show StableHlo.after hostOps5 (W10 m ρ c) (Proc.devRef .tc main_v112) = _
  after_results
  rw [Keep.keep_arg22_10_0 m ρ c]
  rfl

end Cert.KernelIdeal.Stage

end
-- ==== Proof.Region5.lean ====
/-
  Region 5 (graph normalisation and rectifier on the packed view): for the contents V the region is entered with,
  the output array ends holding, at every (r, l) of the [50000, 128] view,
      max (g l · (x (r, l) − aμ l) · s l + b l) 0,
  x the first window's array and the other four windows the [1, 128] rows, read at the entry's lane. Each of the ten
  grid points writes the 5000 rows of its block.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

/-- The normalised and rectified entry: window 0's array at the entry, windows 1 to 4's rows at its lane. -/
def gnRelu (X : S50000x128.Idx → EReal) (MU S G B : S1x128.Idx → EReal) : S50000x128.Idx → EReal :=
  fun i => max (G (ix2 (n0 := 1) (n1 := 128) 0 ⟨(i 1).val, (i 1).isLt⟩) * (X i - MU (ix2 (n0 := 1) (n1 := 128) 0 ⟨(i 1).val, (i 1).isLt⟩)) * S (ix2 (n0 := 1) (n1 := 128) 0 ⟨(i 1).val, (i 1).isLt⟩) + B (ix2 (n0 := 1) (n1 := 128) 0 ⟨(i 1).val, (i 1).isLt⟩)) (Ideal.ofBits .f32 0x00000000#32)

theorem gnRelu_apply (X : S50000x128.Idx → EReal) (MU S G B : S1x128.Idx → EReal) (r : Fin 50000) (l : Fin 128) :
    gnRelu X MU S G B (ix2 r l) = max (G (ix2 0 l) * (X (ix2 r l) - MU (ix2 0 l)) * S (ix2 0 l) + B (ix2 0 l)) (Ideal.ofBits .f32 0x00000000#32) := rfl

/-- The body's stored value at an entry (p, l) of the block. -/
theorem pay_at (x : Vec Ideal S5000x128 .f32) (mu s g b : Vec Ideal S1x128 .f32) (p : Fin 5000) (l : Fin 128) :
    k5_pay1 (F := Ideal) x mu g s b (ix2 p l) = max (g (ix2 0 l) * (x (ix2 p l) - mu (ix2 0 l)) * s (ix2 0 l) + b (ix2 0 l)) (Ideal.ofBits .f32 0x00000000#32) := by
  unfold k5_pay1
  simp only [shapeCast_self, maximumf_apply, mulf_apply, addf_apply, subf_apply, broadcast_apply,
    broadcastTo_1b_ab_apply]
  rfl

/-- One block against the array: if the block's rows are the array's rows n · 5000 + p and the four rows are read
    whole, the stored value at (p, l) is the specification at (n · 5000 + p, l). -/
theorem blk_at (X : S50000x128.Idx → EReal) (MU S G B : S1x128.Idx → EReal)
    (x : Vec Ideal S5000x128 .f32) (mu s g b : Vec Ideal S1x128 .f32) (n : Nat) (hn : n < 10)
    (hx : ∀ (p : Fin 5000) (l : Fin 128), x (ix2 p l) = X (ix2 ⟨n * 5000 + p.val, by omega⟩ l))
    (hmu : mu = MU) (hs : s = S) (hg : g = G) (hb : b = B)
    (j : S5000x128.Idx) (i : S50000x128.Idx) (hi0 : (i 0).val = n * 5000 + (j 0).val) (hi1 : (i 1).val = (j 1).val) :
    k5_pay1 (F := Ideal) x mu g s b j = gnRelu X MU S G B i := by
  obtain ⟨p, l, rfl⟩ : ∃ (p : Fin 5000) (l : Fin 128), j = ix2 p l := ⟨j 0, j 1, eq_ix2 j⟩
  have hlt : n * 5000 + p.val < 50000 := by have := p.isLt; omega
  have hi : i = ix2 ⟨n * 5000 + p.val, hlt⟩ l := by
    funext a
    match a with
    | ⟨0, _⟩ => exact Fin.ext hi0
    | ⟨1, _⟩ => exact Fin.ext hi1
  subst hmu hs hg hb
  rw [hi, pay_at, gnRelu_apply, hx p l]

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the four rows at the origin. -/
theorem idx_facts : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

set_option maxHeartbeats 2000000 in
/-- What point t writes back is block t of the specification. -/
theorem flushed_eq (c : Dev nD) (t : Fin cfg5.N) :
    (dat5 V c).flushed 5 t = ((cfg5.win 5).blk t).view.read (Elt Ideal)
      (gnRelu (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨e50, e51, e00, e01, e10, e11, e20, e21, e30, e31, e40, e41⟩ := idx_facts t
  have ht : t.val < 10 := lt_of_lt_of_eq t.isLt N_5
  funext j
  refine blk_at _ _ _ _ _ _ _ _ _ _ t.val ht ?_ ?_ ?_ ?_ ?_ j _ ?_ ?_
  · intro p l
    show V c (Pipeline.arrRef spec5 0) (((cfg5.win 0).blk t).view.emb (ix2 p l)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * l.val = l.val; omega
  · funext y
    show V c (Pipeline.arrRef spec5 1) (((cfg5.win 1).blk t).view.emb y) = _
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · funext y
    show V c (Pipeline.arrRef spec5 2) (((cfg5.win 2).blk t).view.emb y) = _
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  · funext y
    show V c (Pipeline.arrRef spec5 3) (((cfg5.win 3).blk t).view.emb y) = _
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · funext y
    show V c (Pipeline.arrRef spec5 4) (((cfg5.win 4).blk t).view.emb y) = _
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega
  · show win5_5.index t (0 : Fin 2) * 5000 + 1 * (j 0).val = t.val * 5000 + (j 0).val; omega
  · show win5_5.index t (1 : Fin 2) * 128 + 1 * (j 1).val = (j 1).val; omega

/-- An index of the array is in point t's block iff each coordinate is in the block's range on its axis. -/
theorem mem_blk (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v113).slice (win5_5.rect t)).set ↔ _
  rw [View.set_slice_whole, Rect.mem_set_unit]
  exact Iff.rfl

/-- Row r lies in the block of point r / 5000, and every point writes back. -/
theorem cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : (i 0).val / 5000 < cfg5.N := lt_of_lt_of_eq (by omega : (i 0).val / 5000 < 10) N_5.symm
  obtain ⟨e50, e51, -⟩ := idx_facts ⟨(i 0).val / 5000, hN⟩
  refine ⟨⟨(i 0).val / 5000, hN⟩, flush5_5 _, ?_⟩
  rw [mem_blk]
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win5_5.index ⟨(i 0).val / 5000, hN⟩ (1 : Fin 2) * 128 ≤ (i 1).val
      ∧ (i 1).val < win5_5.index ⟨(i 0).val / 5000, hN⟩ (1 : Fin 2) * 128 + 128
    rw [e51]
    omega

/-- The output array after the region: the specification of the five input arrays as the region found them. -/
theorem final (c : Dev nD) :
    (dat5 V c).arrAt 5 cfg5.N
      = gnRelu (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed_eq V c t) cover

end Cert.KernelIdeal.Region5

end
-- ==== Proof.Math12.lean ====
/-
  The first layer's graph normalisation with its rectifier, as the region computes it on the packed view from the
  rectified features, the scaled column means, the reciprocal standard deviations and the scale and shift rows (each
  laid twice across the 128 lanes), is the reference's stage read through the packed view: entry (r, l) of the packed
  array is entry (2r + l / 64, l % 64) of the [100000, 64] one, and there both sides are
      max ((g · (x − aμ)) · s + b) 0
  with the same association.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibPacked
import proofs.«106696_j33449205301454_2_alg».proof.Proof.Region5
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M12

/-- The packed view at (r, l) is the array at row 2r + l / 64, column l % 64. -/
theorem pack_at (x : S100000x64.Idx → EReal) (r : Fin 50000) (l : Fin 128) (p : Fin 100000) (q : Fin 64)
    (hp : p.val = 2 * r.val + l.val / 64) (hq : q.val = l.val % 64) : pack x (ix2 r l) = x (ix2 p q) :=
  Cert.Lib.Packed.pack_apply x shapeCasts_S100000x64_S50000x128 rfl r l p q hp hq

/-- A [64] vector laid twice in one row reads, at lane l, the vector at l % 64. -/
theorem rowDouble_at (v : S64.Idx → EReal) (l : Fin 128) (q : Fin 64) (hq : q.val = l.val % 64) :
    rowDouble v (ix2 0 l) = v (ix1 q) :=
  Cert.Lib.Packed.double_row_apply v concatenates_S64_S64_S128_d0 shapeCasts_S128_S1x128 rfl l q hq

/-! The reference broadcasts a [64] vector to [1, 64] and then down the rows: read at (p, q) it is the vector at q. -/
theorem idx101102 (p : Fin 100000) (q : Fin 64) : idx_main_v101 (idx_main_v102 (ix2 p q)) = ix1 q :=
  funext fun a => Fin.ext (by match a with | ⟨0, _⟩ => rfl)
theorem idx9495 (p : Fin 100000) (q : Fin 64) : idx_main_v94 (idx_main_v95 (ix2 p q)) = ix1 q :=
  funext fun a => Fin.ext (by match a with | ⟨0, _⟩ => rfl)
theorem idx107108 (p : Fin 100000) (q : Fin 64) : idx_main_v107 (idx_main_v108 (ix2 p q)) = ix1 q :=
  funext fun a => Fin.ext (by match a with | ⟨0, _⟩ => rfl)
theorem idx110111 (p : Fin 100000) (q : Fin 64) : idx_main_v110 (idx_main_v111 (ix2 p q)) = ix1 q :=
  funext fun a => Fin.ext (by match a with | ⟨0, _⟩ => rfl)

end M12

theorem gn1 (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) :
    Cert.KernelIdeal.Region5.gnRelu (pack (Cert.ReferenceIdeal.Read.val_main_v89 (F := Ideal) x0 x1 x2 x3 x4 x5 x6 x7 x8 x9 x10 x11)) (rowDouble (Cert.ReferenceIdeal.Read.val_main_v93 (F := Ideal) x0 x1 x2 x3 x4 x5 x6 x7 x8 x9 x10 x11 x23)) (rowDouble (Cert.ReferenceIdeal.Read.val_main_v106 (F := Ideal) x0 x1 x2 x3 x4 x5 x6 x7 x8 x9 x10 x11 x23)) (rowDouble x21) (rowDouble x22)
      = pack (Cert.ReferenceIdeal.Read.val_main_v113 (F := Ideal) x0 x1 x2 x3 x4 x5 x6 x7 x8 x9 x10 x11 x21 x22 x23) := by
  funext i
  obtain ⟨r, l, rfl⟩ : ∃ (r : Fin 50000) (l : Fin 128), i = ix2 r l := ⟨i 0, i 1, eq_ix2 i⟩
  obtain ⟨p, hp⟩ : ∃ p : Fin 100000, p.val = 2 * r.val + l.val / 64 :=
    ⟨⟨2 * r.val + l.val / 64, by have := r.isLt; have := l.isLt; omega⟩, rfl⟩
  obtain ⟨q, hq⟩ : ∃ q : Fin 64, q.val = l.val % 64 := ⟨⟨l.val % 64, Nat.mod_lt _ (by norm_num)⟩, rfl⟩
  rw [Cert.KernelIdeal.Region5.gnRelu_apply, M12.pack_at _ r l p q hp hq, M12.pack_at _ r l p q hp hq,
    M12.rowDouble_at _ l q hq, M12.rowDouble_at _ l q hq, M12.rowDouble_at _ l q hq, M12.rowDouble_at _ l q hq]
  rw [val_main_v113_apply, val_main_v112_apply, val_main_v109_apply, val_main_v103_apply, val_main_v102_apply,
    val_main_v101_apply, val_main_v96_apply, val_main_v95_apply, val_main_v94_apply, val_main_v108_apply, val_main_v107_apply,
    val_main_v111_apply, val_main_v110_apply, val_main_call2_v0_apply, val_main_call2_cst_apply,
    M12.idx101102, M12.idx9495, M12.idx107108, M12.idx110111]
  simp only [Ideal.mulf_def, Ideal.addf_def, Ideal.subf_def, Ideal.maximumf_def, Ideal.ofBits_def]

end Cert.KernelIdeal.Stage

end
-- ==== Proof.Stage12.lean ====
/-
  The graph-normalisation region's output at its exit: the normalised and rectified layer, in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region5
import proofs.«106696_j33449205301454_2_alg».proof.Proof.Math12
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f12_v113 (c : Dev nD)
    (h79 : W9 m ρ c (Proc.devRef .tc main_v79) = pack (Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))))
    (h106 : W11 m ρ c (Proc.devRef .tc main_v106) = rowDouble (Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg23))))
    (h108 : W11 m ρ c (Proc.devRef .tc main_v108) = rowDouble (Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg23))))
    (h110 : W11 m ρ c (Proc.devRef .tc main_v110) = rowDouble (m ((c : Thread nD τ).loc main_arg21)))
    (h112 : W11 m ρ c (Proc.devRef .tc main_v112) = rowDouble (m ((c : Thread nD τ).loc main_arg22))) :
    W12 m ρ c (Proc.devRef .tc main_v113) = pack (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))) := by
  refine ((W12_arr m ρ c 5).trans (Cert.KernelIdeal.Region5.final (V11 m ρ) c)).trans ?_
  show Cert.KernelIdeal.Region5.gnRelu (W11 m ρ c (Proc.devRef .tc main_v79)) (W11 m ρ c (Proc.devRef .tc main_v106)) (W11 m ρ c (Proc.devRef .tc main_v108)) (W11 m ρ c (Proc.devRef .tc main_v110)) (W11 m ρ c (Proc.devRef .tc main_v112)) = _
  rw [Keep.keep_v79_11_9 m ρ c, h79, h106, h108, h110, h112]
  exact gn1 _ _ _ _ _ _ _ _ _ _ _ _ _ _ _

end Cert.KernelIdeal.Stage

end
-- ==== Proof.Stage13.lean ====
/-
  The stretch that opens the second layer: the first layer's output unpacked, the second layer's neighbourhood means (the scattered sums times the column of reciprocal clamped in-degrees, which are the reference's sums divided by the clamped in-degrees), and the second bias as a row.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibMeanCast
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- Unpacking what was packed gives the array back. -/
theorem unpack_pack (x : S100000x64.Idx → EReal) : unpack (pack x) = x :=
  shapeCast_shapeCast x shapeCasts_S100000x64_S50000x128 shapeCasts_S50000x128_S100000x64

set_option maxHeartbeats 4000000 in
theorem f13_v114 (c : Dev nD)
    (h113 : W12 m ρ c (Proc.devRef .tc main_v113) = pack (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23)))) :
    W13 m ρ c (Proc.devRef .tc main_v114) = (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))) := by
  show StableHlo.after hostOps6 (W12 m ρ c) (Proc.devRef .tc main_v114) = _
  after_results
  rw [h113]
  exact unpack_pack _

set_option maxHeartbeats 4000000 in
theorem f13_v127 (c : Dev nD) : W13 m ρ c (Proc.devRef .tc main_v127) = row64 (m ((c : Thread nD τ).loc main_arg13)) := by
  show StableHlo.after hostOps6 (W12 m ρ c) (Proc.devRef .tc main_v127) = _
  after_results
  rw [Keep.keep_arg13_12_0 m ρ c]
  rfl

set_option maxHeartbeats 4000000 in
theorem f13_v126 (c : Dev nD)
    (h113 : W12 m ρ c (Proc.devRef .tc main_v113) = pack (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))))
    (h3 : W1 m ρ c (Proc.devRef .tc main_v3) = (Cert.ReferenceIdeal.Read.val_main_v3 (F := Ideal) (m ((c : Thread nD τ).loc main_arg1))))
    (h6 : W1 m ρ c (Proc.devRef .tc main_v6) = (Cert.ReferenceIdeal.Read.val_main_v6 (F := Ideal) (m ((c : Thread nD τ).loc main_arg1))))
    (h17 : W1 m ρ c (Proc.devRef .tc main_v17) = recipDeg (m ((c : Thread nD τ).loc main_arg1))) :
    W13 m ρ c (Proc.devRef .tc main_v126) = (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))) := by
  show StableHlo.after hostOps6 (W12 m ρ c) (Proc.devRef .tc main_v126) = _
  after_results
  rw [h113, Keep.keep_v3_12_1 m ρ c, h3, Keep.keep_v6_12_1 m ρ c, h6, Keep.keep_v17_12_1 m ρ c, h17]
  refine (congrArg (fun o => mulf (F := Ideal) (φ := .f32) (Host.scatterAdd _ _ _ (Host.gather _ o _)) _) (unpack_pack (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))))).trans ?_
  unfold Cert.ReferenceIdeal.Read.val_main_v136 Cert.ReferenceIdeal.Read.val_main_v135 Cert.ReferenceIdeal.Read.val_main_v134 Cert.ReferenceIdeal.Read.val_main_v133
  exact Cert.Lib.MeanCast.mean_array_cast _ _ _ _ _ _

end Cert.KernelIdeal.Stage

end
-- ==== Proof.Region6.lean ====
/-
  Region 6 (a node update): for the contents V the region is entered with, the output array ends holding, at
  every (p, q) of the [100000, 64] result,
      ((∑ k : Fin 64, agg (p, k) · Wl (k, q)) + bl (0, q)) + ∑ k : Fin 64, x (p, k) · Wr (k, q),
  agg and x the first two windows' [100000, 64] arrays, Wl and Wr the [64, 64] weights, bl the [1, 64] bias row.
  Each of the ten grid points writes the 10000 rows of its block; both matrix products run into a zero
  accumulator, so each is the plain sum over the contracted axis.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

/-- A matrix product of an [M, K] by a [K, N] matrix into the zero accumulator, read at (p, q): the sum over the
    contracted coordinate k of x (p, k) · w (k, q). The four hypotheses say which operand coordinate each of the
    product's index maps takes from the output index and which from the contraction index. -/
theorem matmul_zero_rc {M K N : Nat} {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The node update's entry: row p of the aggregate against column q of the first weights, plus the bias row at q,
    plus row p of the features against column q of the second weights. -/
def nodeOut (agg x : S100000x64.Idx → EReal) (Wl : S64x64.Idx → EReal) (bl : S1x64.Idx → EReal) (Wr : S64x64.Idx → EReal) :
    S100000x64.Idx → EReal :=
  fun i => ((∑ k : Fin 64, agg (ix2 (n0 := 100000) (n1 := 64) ⟨(i 0).val, (i 0).isLt⟩ k)
        * Wl (ix2 (n0 := 64) (n1 := 64) k ⟨(i 1).val, (i 1).isLt⟩))
      + bl (ix2 (n0 := 1) (n1 := 64) 0 ⟨(i 1).val, (i 1).isLt⟩))
    + ∑ k : Fin 64, x (ix2 (n0 := 100000) (n1 := 64) ⟨(i 0).val, (i 0).isLt⟩ k)
        * Wr (ix2 (n0 := 64) (n1 := 64) k ⟨(i 1).val, (i 1).isLt⟩)

theorem nodeOut_apply (agg x : S100000x64.Idx → EReal) (Wl : S64x64.Idx → EReal) (bl : S1x64.Idx → EReal)
    (Wr : S64x64.Idx → EReal) (p : Fin 100000) (q : Fin 64) :
    nodeOut agg x Wl bl Wr (ix2 p q)
      = ((∑ k : Fin 64, agg (ix2 p k) * Wl (ix2 k q)) + bl (ix2 0 q)) + ∑ k : Fin 64, x (ix2 p k) * Wr (ix2 k q) := rfl

/-! The product's index maps: the left operand takes its row from the output and its column from the contraction, the
    right operand its row from the contraction and its column from the output. -/

theorem dot_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's stored value at an entry (p, q) of the block. -/
theorem pay_at (a : Vec Ideal S10000x64 .f32) (wl : Vec Ideal S64x64 .f32) (bl : Vec Ideal S1x64 .f32)
    (x : Vec Ideal S10000x64 .f32) (wr : Vec Ideal S64x64 .f32) (p : Fin 10000) (q : Fin 64) :
    k6_pay1 (F := Ideal) a wl bl x wr (ix2 p q)
      = ((∑ k : Fin 64, a (ix2 p k) * wl (ix2 k q)) + bl (ix2 0 q)) + ∑ k : Fin 64, x (ix2 p k) * wr (ix2 k q) := by
  unfold k6_pay1
  simp only [shapeCast_self, addf_apply, broadcastTo_1b_ab_apply]
  refine congrArg₂ (· + ·) (congrArg (· + bl (ix2 0 q)) ?_) ?_
  · exact matmul_zero_rc dot_S10000x64_S64x64_S10000x64_1_0_0_1_n_n rfl rfl dot_l0 dot_l1 dot_r0 dot_r1 none a wl p q
  · exact matmul_zero_rc dot_S10000x64_S64x64_S10000x64_1_0_0_1_n_n rfl rfl dot_l0 dot_l1 dot_r0 dot_r1 none x wr p q

/-- One block against the arrays: if the block's aggregate and feature rows are the arrays' rows n · 10000 + p, and the
    weights and the bias are read whole, the stored value at (p, q) is the specification at (n · 10000 + p, q). -/
theorem blk_at (A X : S100000x64.Idx → EReal) (Wl : S64x64.Idx → EReal) (Bl : S1x64.Idx → EReal) (Wr : S64x64.Idx → EReal)
    (a : Vec Ideal S10000x64 .f32) (wl : Vec Ideal S64x64 .f32) (bl : Vec Ideal S1x64 .f32)
    (x : Vec Ideal S10000x64 .f32) (wr : Vec Ideal S64x64 .f32) (n : Nat) (hn : n < 10)
    (ha : ∀ (p : Fin 10000) (k : Fin 64), a (ix2 p k) = A (ix2 ⟨n * 10000 + p.val, by omega⟩ k))
    (hx : ∀ (p : Fin 10000) (k : Fin 64), x (ix2 p k) = X (ix2 ⟨n * 10000 + p.val, by omega⟩ k))
    (hwl : wl = Wl) (hbl : bl = Bl) (hwr : wr = Wr)
    (j : S10000x64.Idx) (i : S100000x64.Idx) (hi0 : (i 0).val = n * 10000 + (j 0).val) (hi1 : (i 1).val = (j 1).val) :
    k6_pay1 (F := Ideal) a wl bl x wr j = nodeOut A X Wl Bl Wr i := by
  obtain ⟨p, q, rfl⟩ : ∃ (p : Fin 10000) (q : Fin 64), j = ix2 p q := ⟨j 0, j 1, eq_ix2 j⟩
  have hlt : n * 10000 + p.val < 100000 := by have := p.isLt; omega
  have hi : i = ix2 ⟨n * 10000 + p.val, hlt⟩ q := by
    funext a
    match a with
    | ⟨0, _⟩ => exact Fin.ext hi0
    | ⟨1, _⟩ => exact Fin.ext hi1
  subst hwl hbl hwr
  rw [hi, pay_at, nodeOut_apply]
  refine congrArg₂ (· + ·) (congrArg (· + bl (ix2 0 q)) ?_) ?_
  · exact Finset.sum_congr rfl fun k _ => congrArg (· * wl (ix2 k q)) (ha p k)
  · exact Finset.sum_congr rfl fun k _ => congrArg (· * wr (ix2 k q)) (hx p k)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the weights and the bias at the origin. -/
theorem idx_facts : ∀ t : Fin cfg6.N,
    win6_5.index t (0 : Fin 2) = t.val ∧ win6_5.index t (1 : Fin 2) = 0
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Window 0's block at point t holds rows t · 10000 + p of its array. -/
theorem rows_agg (c : Dev nD) (t : Fin cfg6.N) (p : Fin 10000) (k : Fin 64) (h : t.val * 10000 + p.val < 100000) :
    iblk6 V c 0 t (ix2 p k) = V c (Pipeline.arrRef spec6 0) (ix2 ⟨t.val * 10000 + p.val, h⟩ k) := by
  obtain ⟨-, -, e0, e1, -, -, -, -, -, -, -, -⟩ := idx_facts t
  show V c (Pipeline.arrRef spec6 0) (((cfg6.win 0).blk t).view.emb (ix2 p k)) = _
  refine congrArg _ (funext fun a => Fin.ext ?_)
  match a with
  | ⟨0, _⟩ => show win6_0.index t (0 : Fin 2) * 10000 + 1 * p.val = t.val * 10000 + p.val; omega
  | ⟨1, _⟩ => show win6_0.index t (1 : Fin 2) * 64 + 1 * k.val = k.val; omega

/-- Window 1's block at point t holds rows t · 10000 + p of its array. -/
theorem rows_x (c : Dev nD) (t : Fin cfg6.N) (p : Fin 10000) (k : Fin 64) (h : t.val * 10000 + p.val < 100000) :
    iblk6 V c 1 t (ix2 p k) = V c (Pipeline.arrRef spec6 1) (ix2 ⟨t.val * 10000 + p.val, h⟩ k) := by
  obtain ⟨-, -, -, -, e0, e1, -, -, -, -, -, -⟩ := idx_facts t
  show V c (Pipeline.arrRef spec6 1) (((cfg6.win 1).blk t).view.emb (ix2 p k)) = _
  refine congrArg _ (funext fun a => Fin.ext ?_)
  match a with
  | ⟨0, _⟩ => show win6_1.index t (0 : Fin 2) * 10000 + 1 * p.val = t.val * 10000 + p.val; omega
  | ⟨1, _⟩ => show win6_1.index t (1 : Fin 2) * 64 + 1 * k.val = k.val; omega

/-- Window 2's block at every point is its whole array. -/
theorem whole_wl (c : Dev nD) (t : Fin cfg6.N) : iblk6 V c 2 t = V c (Pipeline.arrRef spec6 2) := by
  obtain ⟨-, -, -, -, -, -, e0, e1, -, -, -, -⟩ := idx_facts t
  funext y
  show V c (Pipeline.arrRef spec6 2) (((cfg6.win 2).blk t).view.emb y) = _
  refine congrArg _ (funext fun a => Fin.ext ?_)
  match a with
  | ⟨0, _⟩ => show win6_2.index t (0 : Fin 2) * 64 + 1 * (y 0).val = (y 0).val; omega
  | ⟨1, _⟩ => show win6_2.index t (1 : Fin 2) * 64 + 1 * (y 1).val = (y 1).val; omega

/-- Window 3's block at every point is its whole array. -/
theorem whole_bl (c : Dev nD) (t : Fin cfg6.N) : iblk6 V c 3 t = V c (Pipeline.arrRef spec6 3) := by
  obtain ⟨-, -, -, -, -, -, -, -, e0, e1, -, -⟩ := idx_facts t
  funext y
  show V c (Pipeline.arrRef spec6 3) (((cfg6.win 3).blk t).view.emb y) = _
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- Window 4's block at every point is its whole array. -/
theorem whole_wr (c : Dev nD) (t : Fin cfg6.N) : iblk6 V c 4 t = V c (Pipeline.arrRef spec6 4) := by
  obtain ⟨-, -, -, -, -, -, -, -, -, -, e0, e1⟩ := idx_facts t
  funext y
  show V c (Pipeline.arrRef spec6 4) (((cfg6.win 4).blk t).view.emb y) = _
  refine congrArg _ (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega

/-- What point t writes back is block t of the specification. -/
theorem flushed_eq (c : Dev nD) (t : Fin cfg6.N) :
    (dat6 V c).flushed 5 t = ((cfg6.win 5).blk t).view.read (Elt Ideal)
      (nodeOut (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S10000x64) hz, View.ld_unit_zero (S := S64x64) hz, View.ld_unit_zero (S := S1x64) hz]
  obtain ⟨e50, e51, -⟩ := idx_facts t
  have ht : t.val < 10 := lt_of_lt_of_eq t.isLt N_6
  funext j
  refine blk_at _ _ _ _ _ _ _ _ _ _ t.val ht (fun p k => rows_agg V c t p k _) (fun p k => rows_x V c t p k _)
    (whole_wl V c t) (whole_bl V c t) (whole_wr V c t) j _ ?_ ?_
  · show win6_5.index t (0 : Fin 2) * 10000 + 1 * (j 0).val = t.val * 10000 + (j 0).val; omega
  · show win6_5.index t (1 : Fin 2) * 64 + 1 * (j 1).val = (j 1).val; omega

/-- An index of the array is in point t's block iff each coordinate is in the block's range on its axis. -/
theorem mem_blk (t : Fin cfg6.N) (i : S100000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v128).slice (win6_5.rect t)).set ↔ _
  rw [View.set_slice_whole, Rect.mem_set_unit]
  exact Iff.rfl

/-- Row r lies in the block of point r / 10000, and every point writes back. -/
theorem cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : (i 0).val / 10000 < cfg6.N := lt_of_lt_of_eq (by omega : (i 0).val / 10000 < 10) N_6.symm
  obtain ⟨e50, e51, -⟩ := idx_facts ⟨(i 0).val / 10000, hN⟩
  refine ⟨⟨(i 0).val / 10000, hN⟩, flush6_5 _, ?_⟩
  rw [mem_blk]
  intro a
  match a with
  | ⟨0, _⟩ =>
    show win6_5.index ⟨(i 0).val / 10000, hN⟩ (0 : Fin 2) * 10000 ≤ (i 0).val
      ∧ (i 0).val < win6_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win6_5.index ⟨(i 0).val / 10000, hN⟩ (1 : Fin 2) * 64 ≤ (i 1).val
      ∧ (i 1).val < win6_5.index ⟨(i 0).val / 10000, hN⟩ (1 : Fin 2) * 64 + 64
    rw [e51]
    omega

/-- The output array after the region: the node update of the five input arrays as the region found them. -/
theorem final (c : Dev nD) :
    (dat6 V c).arrAt 5 cfg6.N
      = nodeOut (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => flushed_eq V c t) cover

end Cert.KernelIdeal.Region6

end
-- ==== Proof.Math14.lean ====
/-
  The second layer's node update, as the region computes it from the neighbourhood means of the first layer's output,
  that output itself, the two [64, 64] weight matrices and the bias row, is the reference's stage: a dot_general, the
  bias broadcast, a second dot_general, added in the same order.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region6
import proofs.«106696_j33449205301454_2_alg».proof.Proof.Math2
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M14

theorem lidx137 (p : Fin 100000) (q : Fin 64) (k : Fin 64) : lidx_main_v137 (ix2 p q) k = ix2 p k :=
  funext fun a => Fin.ext (by match a with | ⟨0, _⟩ => rfl | ⟨1, _⟩ => rfl)
theorem ridx137 (p : Fin 100000) (q : Fin 64) (k : Fin 64) : ridx_main_v137 (ix2 p q) k = ix2 k q :=
  funext fun a => Fin.ext (by match a with | ⟨0, _⟩ => rfl | ⟨1, _⟩ => rfl)
theorem lidx141 (p : Fin 100000) (q : Fin 64) (k : Fin 64) : lidx_main_v141 (ix2 p q) k = ix2 p k :=
  funext fun a => Fin.ext (by match a with | ⟨0, _⟩ => rfl | ⟨1, _⟩ => rfl)
theorem ridx141 (p : Fin 100000) (q : Fin 64) (k : Fin 64) : ridx_main_v141 (ix2 p q) k = ix2 k q :=
  funext fun a => Fin.ext (by match a with | ⟨0, _⟩ => rfl | ⟨1, _⟩ => rfl)
theorem idx138139 (p : Fin 100000) (q : Fin 64) : idx_main_v138 (idx_main_v139 (ix2 p q)) = ix1 q :=
  funext fun a => Fin.ext (by match a with | ⟨0, _⟩ => rfl)

end M14

theorem node1b (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) :
    Cert.KernelIdeal.Region6.nodeOut (Cert.ReferenceIdeal.Read.val_main_v136 (F := Ideal) x0 x1 x2 x3 x4 x5 x6 x7 x8 x9 x10 x11 x21 x22 x23) (Cert.ReferenceIdeal.Read.val_main_v113 (F := Ideal) x0 x1 x2 x3 x4 x5 x6 x7 x8 x9 x10 x11 x21 x22 x23) x12 (row64 x13) x14 = (Cert.ReferenceIdeal.Read.val_main_v142 (F := Ideal) x0 x1 x2 x3 x4 x5 x6 x7 x8 x9 x10 x11 x12 x13 x14 x21 x22 x23) := by
  funext i
  obtain ⟨p, q, rfl⟩ : ∃ (p : Fin 100000) (q : Fin 64), i = ix2 p q := ⟨i 0, i 1, eq_ix2 i⟩
  rw [Cert.KernelIdeal.Region6.nodeOut_apply, val_main_v142_apply, val_main_v140_apply, val_main_v137_apply, val_main_v139_apply,
    val_main_v138_apply, val_main_v141_apply, M14.idx138139, row64_apply]
  simp only [M14.lidx137, M14.ridx137, M14.lidx141, M14.ridx141, Ideal.addf_def]

end Cert.KernelIdeal.Stage

end
-- ==== Proof.Stage14.lean ====
/-
  Region 6's output at its exit is the reference's second node update.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region6
import proofs.«106696_j33449205301454_2_alg».proof.Proof.Math14
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f14_v128 (c : Dev nD)
    (h126 : W13 m ρ c (Proc.devRef .tc main_v126) = (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))))
    (h114 : W13 m ρ c (Proc.devRef .tc main_v114) = (Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg21)) (m ((c : Thread nD τ).loc main_arg22)) (m ((c : Thread nD τ).loc main_arg23))))
    (h127 : W13 m ρ c (Proc.devRef .tc main_v127) = row64 (m ((c : Thread nD τ).loc main_arg13))) :
    W14 m ρ c (Proc.devRef .tc main_v128) = (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))) := by
  refine ((W14_arr m ρ c 5).trans (Cert.KernelIdeal.Region6.final (V13 m ρ) c)).trans ?_
  show Cert.KernelIdeal.Region6.nodeOut (W13 m ρ c (Proc.devRef .tc main_v126)) (W13 m ρ c (Proc.devRef .tc main_v114)) (W13 m ρ c (Proc.devRef .tc main_arg12)) (W13 m ρ c (Proc.devRef .tc main_v127)) (W13 m ρ c (Proc.devRef .tc main_arg14)) = _
  rw [h126, h114, h127, Keep.keep_arg12_13_0 m ρ c, Keep.keep_arg14_13_0 m ρ c]
  exact node1b _ _ _ _ _ _ _ _ _ _ _ _ _ _ _ _ _ _

end Cert.KernelIdeal.Stage

end
-- ==== Proof.Stage15.lean ====
/-
  The stretch after the node update: the update gathered at the edge targets is the reference's gather; the gate matrix's two halves and the two bias rows.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Math4
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

set_option maxHeartbeats 4000000 in
theorem f15_v135 (c : Dev nD)
    (h31 : W14 m ρ c (Proc.devRef .tc main_v128) = (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))))
    (h6 : W1 m ρ c (Proc.devRef .tc main_v6) = (Cert.ReferenceIdeal.Read.val_main_v6 (F := Ideal) (m ((c : Thread nD τ).loc main_arg1)))) :
    W15 m ρ c (Proc.devRef .tc main_v135) = (Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))) := by
  show StableHlo.after hostOps7 (W14 m ρ c) (Proc.devRef .tc main_v135) = _
  after_results
  rw [h31, Keep.keep_v6_14_1 m ρ c, h6]
  rfl

set_option maxHeartbeats 4000000 in
theorem f15_v136 (c : Dev nD) : W15 m ρ c (Proc.devRef .tc main_v136) = gateTop (m ((c : Thread nD τ).loc main_arg17)) := by
  show StableHlo.after hostOps7 (W14 m ρ c) (Proc.devRef .tc main_v136) = _
  after_results
  rw [Keep.keep_arg17_14_0 m ρ c]

set_option maxHeartbeats 4000000 in
theorem f15_v137 (c : Dev nD) : W15 m ρ c (Proc.devRef .tc main_v137) = gateBot (m ((c : Thread nD τ).loc main_arg17)) := by
  show StableHlo.after hostOps7 (W14 m ρ c) (Proc.devRef .tc main_v137) = _
  after_results
  rw [Keep.keep_arg17_14_0 m ρ c]

set_option maxHeartbeats 4000000 in
theorem f15_v138 (c : Dev nD) : W15 m ρ c (Proc.devRef .tc main_v138) = row64 (m ((c : Thread nD τ).loc main_arg16)) := by
  show StableHlo.after hostOps7 (W14 m ρ c) (Proc.devRef .tc main_v138) = _
  after_results
  rw [Keep.keep_arg16_14_0 m ρ c]
  rfl

set_option maxHeartbeats 4000000 in
theorem f15_v139 (c : Dev nD) : W15 m ρ c (Proc.devRef .tc main_v139) = row64 (m ((c : Thread nD τ).loc main_arg18)) := by
  show StableHlo.after hostOps7 (W14 m ρ c) (Proc.devRef .tc main_v139) = _
  after_results
  rw [Keep.keep_arg18_14_0 m ρ c]
  rfl

end Cert.KernelIdeal.Stage

end
-- ==== Proof.Region7.lean ====
/-
  Region 7 (the edge gate): for the contents V the region is entered with, the output array ends holding, at
  every (p, q) of the [1700000, 64] result, with the transformed edge attribute
      e (p, j) = (∑ k : Fin 16, ea (p, k) · We (k, j)) + be (0, j)
  and the gate's pre-activation
      s = ((∑ j : Fin 64, oc (p, j) · Wg1 (j, q)) + ∑ j : Fin 64, e (p, j) · Wg2 (j, q)) + bg (0, q),
  the entry  logistic s · e (p, q).  Each of the 170 grid points writes the 10000 rows of its block; every matrix
  product runs into a zero accumulator, so each is the plain sum over the contracted axis.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region7

open Cert.KernelIdeal Cert.KernelIdeal.Gen Idealize.ShloMosaic Idealize.ShloMosaic.TcCoe Idealize.SL.Sem
open Idealize.ShloMosaic.ValueIdx
open Idealize.ShloMosaic.Pipeline (Dat)

/-- A matrix product of an [M, K] by a [K, N] matrix into the zero accumulator, read at (p, q): the sum over the
    contracted coordinate k of x (p, k) · w (k, q). The four hypotheses say which operand coordinate each of the
    product's index maps takes from the output index and which from the contraction index. -/
theorem matmul_zero_rc {M K N : Nat} {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The transformed edge attribute at (p, j): row p of the attributes against column j of the weights, plus the bias. -/
def edgeT (ea : S1700000x16.Idx → EReal) (We : S16x64.Idx → EReal) (be : S1x64.Idx → EReal) (p : Fin 1700000) (j : Fin 64) : EReal :=
  (∑ k : Fin 16, ea (ix2 p k) * We (ix2 k j)) + be (ix2 0 j)

/-- The gated edge message's entry: the logistic of the gate's pre-activation times the transformed edge attribute. -/
def gateOut (oc : S1700000x64.Idx → EReal) (ea : S1700000x16.Idx → EReal) (We : S16x64.Idx → EReal) (be : S1x64.Idx → EReal)
    (Wg1 Wg2 : S64x64.Idx → EReal) (bg : S1x64.Idx → EReal) : S1700000x64.Idx → EReal :=
  fun i => Ideal.logistic
      (((∑ j : Fin 64, oc (ix2 (n0 := 1700000) (n1 := 64) ⟨(i 0).val, (i 0).isLt⟩ j)
            * Wg1 (ix2 (n0 := 64) (n1 := 64) j ⟨(i 1).val, (i 1).isLt⟩))
          + ∑ j : Fin 64, edgeT ea We be ⟨(i 0).val, (i 0).isLt⟩ j * Wg2 (ix2 (n0 := 64) (n1 := 64) j ⟨(i 1).val, (i 1).isLt⟩))
        + bg (ix2 (n0 := 1) (n1 := 64) 0 ⟨(i 1).val, (i 1).isLt⟩))
    * edgeT ea We be ⟨(i 0).val, (i 0).isLt⟩ ⟨(i 1).val, (i 1).isLt⟩

theorem gateOut_apply (oc : S1700000x64.Idx → EReal) (ea : S1700000x16.Idx → EReal) (We : S16x64.Idx → EReal)
    (be : S1x64.Idx → EReal) (Wg1 Wg2 : S64x64.Idx → EReal) (bg : S1x64.Idx → EReal) (p : Fin 1700000) (q : Fin 64) :
    gateOut oc ea We be Wg1 Wg2 bg (ix2 p q)
      = Ideal.logistic (((∑ j : Fin 64, oc (ix2 p j) * Wg1 (ix2 j q)) + ∑ j : Fin 64, edgeT ea We be p j * Wg2 (ix2 j q))
          + bg (ix2 0 q)) * edgeT ea We be p q := rfl

theorem edgeT_def (ea : S1700000x16.Idx → EReal) (We : S16x64.Idx → EReal) (be : S1x64.Idx → EReal) (p : Fin 1700000) (j : Fin 64) :
    edgeT ea We be p j = (∑ k : Fin 16, ea (ix2 p k) * We (ix2 k j)) + be (ix2 0 j) := rfl

/-! The two products' index maps: the left operand takes its row from the output and its column from the contraction,
    the right operand its row from the contraction and its column from the output. -/

theorem dotE_l0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem dotE_l1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem dotE_r0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem dotE_r1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

theorem dotG_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotG_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotG_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotG_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The logistic of a vector at an index is the logistic of its entry. -/
theorem logistic_at {s : Shape} {φ : FTy} (a : FVec Ideal s φ) (i : s.Idx) : logistic a i = Ideal.logistic (a i) := rfl

/-- The body's stored value at an entry (p, q) of the block. -/
theorem pay_at (ea : Vec Ideal S10000x16 .f32) (we : Vec Ideal S16x64 .f32) (be : Vec Ideal S1x64 .f32)
    (oc : Vec Ideal S10000x64 .f32) (wg1 wg2 : Vec Ideal S64x64 .f32) (bg : Vec Ideal S1x64 .f32) (p : Fin 10000) (q : Fin 64) :
    k7_pay1 (F := Ideal) ea we be oc wg1 wg2 bg (ix2 p q)
      = Ideal.logistic (((∑ j : Fin 64, oc (ix2 p j) * wg1 (ix2 j q))
            + ∑ j : Fin 64, ((∑ k : Fin 16, ea (ix2 p k) * we (ix2 k j)) + be (ix2 0 j)) * wg2 (ix2 j q))
          + bg (ix2 0 q))
        * ((∑ k : Fin 16, ea (ix2 p k) * we (ix2 k q)) + be (ix2 0 q)) := by
  have he : ∀ j : Fin 64, (addf (F := Ideal) (matmul (F := Ideal) (φ₁ := .f32) (φ₂ := .f32) dot_S10000x16_S16x64_S10000x64_1_0_0_1_n_n none ea we
          (constant (F := Ideal) S10000x64 .f32 0x00000000#32))
        (broadcastTo S10000x64 be broadcasts_S1x64_S10000x64) : FVec Ideal S10000x64 .f32) (ix2 p j)
      = (∑ k : Fin 16, ea (ix2 p k) * we (ix2 k j)) + be (ix2 0 j) := fun j => by
    rw [addf_apply, broadcastTo_1b_ab_apply]
    exact congrArg (· + be (ix2 0 j)) (matmul_zero_rc (φ₁ := .f32) (φ₂ := .f32) dot_S10000x16_S16x64_S10000x64_1_0_0_1_n_n rfl rfl dotE_l0 dotE_l1 dotE_r0 dotE_r1 none ea we p j)
  unfold k7_pay1
  simp only [shapeCast_self]
  rw [mulf_apply, logistic_at, addf_apply, addf_apply, broadcastTo_1b_ab_apply, he q]
  refine congrArg (fun s => Ideal.logistic (s + bg (ix2 0 q)) * _) ?_
  refine congrArg₂ (· + ·) ?_ ?_
  · exact matmul_zero_rc dot_S10000x64_S64x64_S10000x64_1_0_0_1_n_n rfl rfl dotG_l0 dotG_l1 dotG_r0 dotG_r1 none oc wg1 p q
  · refine (matmul_zero_rc dot_S10000x64_S64x64_S10000x64_1_0_0_1_n_n rfl rfl dotG_l0 dotG_l1 dotG_r0 dotG_r1 none _ wg2 p q).trans ?_
    exact Finset.sum_congr rfl fun j _ => congrArg (· * wg2 (ix2 j q)) (he j)

/-- One block against the arrays: if the block's source-feature and edge-attribute rows are the arrays' rows
    n · 10000 + p, and the weights and the biases are read whole, the stored value at (p, q) is the specification at
    (n · 10000 + p, q). -/
theorem blk_at (OC : S1700000x64.Idx → EReal) (EA : S1700000x16.Idx → EReal) (We : S16x64.Idx → EReal) (Be : S1x64.Idx → EReal)
    (Wg1 Wg2 : S64x64.Idx → EReal) (Bg : S1x64.Idx → EReal)
    (ea : Vec Ideal S10000x16 .f32) (we : Vec Ideal S16x64 .f32) (be : Vec Ideal S1x64 .f32)
    (oc : Vec Ideal S10000x64 .f32) (wg1 wg2 : Vec Ideal S64x64 .f32) (bg : Vec Ideal S1x64 .f32) (n : Nat) (hn : n < 170)
    (hoc : ∀ (p : Fin 10000) (k : Fin 64), oc (ix2 p k) = OC (ix2 ⟨n * 10000 + p.val, by omega⟩ k))
    (hea : ∀ (p : Fin 10000) (k : Fin 16), ea (ix2 p k) = EA (ix2 ⟨n * 10000 + p.val, by omega⟩ k))
    (hwe : we = We) (hbe : be = Be) (hwg1 : wg1 = Wg1) (hwg2 : wg2 = Wg2) (hbg : bg = Bg)
    (j : S10000x64.Idx) (i : S1700000x64.Idx) (hi0 : (i 0).val = n * 10000 + (j 0).val) (hi1 : (i 1).val = (j 1).val) :
    k7_pay1 (F := Ideal) ea we be oc wg1 wg2 bg j = gateOut OC EA We Be Wg1 Wg2 Bg i := by
  obtain ⟨p, q, rfl⟩ : ∃ (p : Fin 10000) (q : Fin 64), j = ix2 p q := ⟨j 0, j 1, eq_ix2 j⟩
  have hlt : n * 10000 + p.val < 1700000 := by have := p.isLt; omega
  have hi : i = ix2 ⟨n * 10000 + p.val, hlt⟩ q := by
    funext a
    match a with
    | ⟨0, _⟩ => exact Fin.ext hi0
    | ⟨1, _⟩ => exact Fin.ext hi1
  subst hwe hbe hwg1 hwg2 hbg
  have he : ∀ u : Fin 64, (∑ k : Fin 16, ea (ix2 p k) * we (ix2 k u)) + be (ix2 0 u) = edgeT EA we be ⟨n * 10000 + p.val, hlt⟩ u :=
    fun u => congrArg (· + be (ix2 0 u)) (Finset.sum_congr rfl fun k _ => congrArg (· * we (ix2 k u)) (hea p k))
  rw [hi, pay_at, gateOut_apply, he q]
  refine congrArg (fun s => Ideal.logistic (s + bg (ix2 0 q)) * _) ?_
  refine congrArg₂ (· + ·) ?_ ?_
  · exact Finset.sum_congr rfl fun k _ => congrArg (· * wg1 (ix2 k q)) (hoc p k)
  · exact Finset.sum_congr rfl fun u _ => congrArg (· * wg2 (ix2 u q)) (he u)

variable (V : (c : Dev nD) → (b : Ref sig .tc) → Buf (Elt Ideal) ((c : Thread nD τ).loc b))

theorem hz : (![0, 0] : Fin 2 → Nat) = fun _ => 0 := funext fun a => by fin_cases a <;> rfl

/-- The index maps over the 170 points: the tiled windows sit at row block t, the weights and the biases at the origin. -/
theorem idx_facts : ∀ t : Fin cfg7.N,
    win7_7.index t (0 : Fin 2) = t.val ∧ win7_7.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Window 0's block at point t holds rows t · 10000 + p of its array. -/
theorem rows_oc (c : Dev nD) (t : Fin cfg7.N) (p : Fin 10000) (k : Fin 64) (h : t.val * 10000 + p.val < 1700000) :
    iblk7 V c 0 t (ix2 p k) = V c (Pipeline.arrRef spec7 0) (ix2 ⟨t.val * 10000 + p.val, h⟩ k) := by
  obtain ⟨-, -, e0, e1, -, -, -, -, -, -, -, -, -, -, -, -⟩ := idx_facts t
  show V c (Pipeline.arrRef spec7 0) (((cfg7.win 0).blk t).view.emb (ix2 p k)) = _
  refine congrArg _ (funext fun a => Fin.ext ?_)
  match a with
  | ⟨0, _⟩ => show win7_0.index t (0 : Fin 2) * 10000 + 1 * p.val = t.val * 10000 + p.val; omega
  | ⟨1, _⟩ => show win7_0.index t (1 : Fin 2) * 64 + 1 * k.val = k.val; omega

/-- Window 1's block at point t holds rows t · 10000 + p of its array. -/
theorem rows_ea (c : Dev nD) (t : Fin cfg7.N) (p : Fin 10000) (k : Fin 16) (h : t.val * 10000 + p.val < 1700000) :
    iblk7 V c 1 t (ix2 p k) = V c (Pipeline.arrRef spec7 1) (ix2 ⟨t.val * 10000 + p.val, h⟩ k) := by
  obtain ⟨-, -, -, -, e0, e1, -, -, -, -, -, -, -, -, -, -⟩ := idx_facts t
  show V c (Pipeline.arrRef spec7 1) (((cfg7.win 1).blk t).view.emb (ix2 p k)) = _
  refine congrArg _ (funext fun a => Fin.ext ?_)
  match a with
  | ⟨0, _⟩ => show win7_1.index t (0 : Fin 2) * 10000 + 1 * p.val = t.val * 10000 + p.val; omega
  | ⟨1, _⟩ => show win7_1.index t (1 : Fin 2) * 16 + 1 * k.val = k.val; omega

/-- Window 2's block at every point is its whole array. -/
theorem whole_we (c : Dev nD) (t : Fin cfg7.N) : iblk7 V c 2 t = V c (Pipeline.arrRef spec7 2) := by
  obtain ⟨-, -, -, -, -, -, e0, e1, -, -, -, -, -, -, -, -⟩ := idx_facts t
  funext y
  show V c (Pipeline.arrRef spec7 2) (((cfg7.win 2).blk t).view.emb y) = _
  refine congrArg _ (funext fun a => Fin.ext ?_)
  match a with
  | ⟨0, _⟩ => show win7_2.index t (0 : Fin 2) * 16 + 1 * (y 0).val = (y 0).val; omega
  | ⟨1, _⟩ => show win7_2.index t (1 : Fin 2) * 64 + 1 * (y 1).val = (y 1).val; omega

/-- Window 3's block at every point is its whole array. -/
theorem whole_be (c : Dev nD) (t : Fin cfg7.N) : iblk7 V c 3 t = V c (Pipeline.arrRef spec7 3) := by
  obtain ⟨-, -, -, -, -, -, -, -, e0, e1, -, -, -, -, -, -⟩ := idx_facts t
  funext y
  show V c (Pipeline.arrRef spec7 3) (((cfg7.win 3).blk t).view.emb y) = _
  refine congrArg _ (funext fun a => Fin.ext ?_)
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- Window 4's block at every point is its whole array. -/
theorem whole_wg1 (c : Dev nD) (t : Fin cfg7.N) : iblk7 V c 4 t = V c (Pipeline.arrRef spec7 4) := by
  obtain ⟨-, -, -, -, -, -, -, -, -, -, e0, e1, -, -, -, -⟩ := idx_facts t
  funext y
  show V c (Pipeline.arrRef spec7 4) (((cfg7.win 4).blk t).view.emb y) = _
  refine congrArg _ (funext fun a => Fin.ext ?_)
  match a with
  | ⟨0, _⟩ => show win7_4.index t (0 : Fin 2) * 64 + 1 * (y 0).val = (y 0).val; omega
  | ⟨1, _⟩ => show win7_4.index t (1 : Fin 2) * 64 + 1 * (y 1).val = (y 1).val; omega

/-- Window 5's block at every point is its whole array. -/
theorem whole_wg2 (c : Dev nD) (t : Fin cfg7.N) : iblk7 V c 5 t = V c (Pipeline.arrRef spec7 5) := by
  obtain ⟨-, -, -, -, -, -, -, -, -, -, -, -, e0, e1, -, -⟩ := idx_facts t
  funext y
  show V c (Pipeline.arrRef spec7 5) (((cfg7.win 5).blk t).view.emb y) = _
  refine congrArg _ (funext fun a => Fin.ext ?_)
  match a with
  | ⟨0, _⟩ => show win7_5.index t (0 : Fin 2) * 64 + 1 * (y 0).val = (y 0).val; omega
  | ⟨1, _⟩ => show win7_5.index t (1 : Fin 2) * 64 + 1 * (y 1).val = (y 1).val; omega

/-- Window 6's block at every point is its whole array. -/
theorem whole_bg (c : Dev nD) (t : Fin cfg7.N) : iblk7 V c 6 t = V c (Pipeline.arrRef spec7 6) := by
  obtain ⟨-, -, -, -, -, -, -, -, -, -, -, -, -, -, e0, e1⟩ := idx_facts t
  funext y
  show V c (Pipeline.arrRef spec7 6) (((cfg7.win 6).blk t).view.emb y) = _
  refine congrArg _ (funext fun a => Fin.ext ?_)
  match a with
  | ⟨0, _⟩ => show win7_6.index t (0 : Fin 2) * 1 + 1 * (y 0).val = (y 0).val; omega
  | ⟨1, _⟩ => show win7_6.index t (1 : Fin 2) * 64 + 1 * (y 1).val = (y 1).val; omega

/-- What point t writes back is block t of the specification. -/
theorem flushed_eq (c : Dev nD) (t : Fin cfg7.N) :
    (dat7 V c).flushed 7 t = ((cfg7.win 7).blk t).view.read (Elt Ideal)
      (gateOut (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6))) := by
  show (cfg7.win 7).cut (grid7.coords t) ((dat7 V c).after 7 t) = _
  rw [after7_7]
  unfold out7_7
  rw [View.canon_unit_zero hz]
  simp only [View.ld_unit_zero (S := S10000x64) hz, View.ld_unit_zero (S := S10000x16) hz, View.ld_unit_zero (S := S16x64) hz,
    View.ld_unit_zero (S := S1x64) hz, View.ld_unit_zero (S := S64x64) hz]
  obtain ⟨e70, e71, -⟩ := idx_facts t
  have ht : t.val < 170 := lt_of_lt_of_eq t.isLt N_7
  funext j
  refine blk_at _ _ _ _ _ _ _ _ _ _ _ _ _ _ t.val ht (fun p k => rows_oc V c t p k _) (fun p k => rows_ea V c t p k _)
    (whole_we V c t) (whole_be V c t) (whole_wg1 V c t) (whole_wg2 V c t) (whole_bg V c t) j _ ?_ ?_
  · show win7_7.index t (0 : Fin 2) * 10000 + 1 * (j 0).val = t.val * 10000 + (j 0).val; omega
  · show win7_7.index t (1 : Fin 2) * 64 + 1 * (j 1).val = (j 1).val; omega

/-- An index of the array is in point t's block iff each coordinate is in the block's range on its axis. -/
theorem mem_blk (t : Fin cfg7.N) (i : S1700000x64.Idx) :
    i ∈ ((cfg7.win 7).blk t).view.set ↔ ∀ a : Fin 2, win7_7.index t a * S10000x64.size a ≤ (i a).val
      ∧ (i a).val < win7_7.index t a * S10000x64.size a + S10000x64.size a := by
  show i ∈ ((View.whole main_v140).slice (win7_7.rect t)).set ↔ _
  rw [View.set_slice_whole, Rect.mem_set_unit]
  exact Iff.rfl

/-- Row r lies in the block of point r / 10000, and every point writes back. -/
theorem cover (i : S1700000x64.Idx) :
    ∃ t : Fin cfg7.N, (cfg7.win 7).flush t = true ∧ i ∈ ((cfg7.win 7).blk t).view.set := by
  have hi0 : (i 0).val < 1700000 := (i 0).isLt
  have hi1 : (i 1).val < 64 := (i 1).isLt
  have hN : (i 0).val / 10000 < cfg7.N := lt_of_lt_of_eq (by omega : (i 0).val / 10000 < 170) N_7.symm
  obtain ⟨e70, e71, -⟩ := idx_facts ⟨(i 0).val / 10000, hN⟩
  refine ⟨⟨(i 0).val / 10000, hN⟩, flush7_7 _, ?_⟩
  rw [mem_blk]
  intro a
  match a with
  | ⟨0, _⟩ =>
    show win7_7.index ⟨(i 0).val / 10000, hN⟩ (0 : Fin 2) * 10000 ≤ (i 0).val
      ∧ (i 0).val < win7_7.index ⟨(i 0).val / 10000, hN⟩ (0 : Fin 2) * 10000 + 10000
    rw [e70]
    show (i 0).val / 10000 * 10000 ≤ (i 0).val ∧ (i 0).val < (i 0).val / 10000 * 10000 + 10000
    omega
  | ⟨1, _⟩ =>
    show win7_7.index ⟨(i 0).val / 10000, hN⟩ (1 : Fin 2) * 64 ≤ (i 1).val
      ∧ (i 1).val < win7_7.index ⟨(i 0).val / 10000, hN⟩ (1 : Fin 2) * 64 + 64
    rw [e71]
    omega

/-- The output array after the region: the gated edge messages of the seven input arrays as the region found them. -/
theorem final (c : Dev nD) :
    (dat7 V c).arrAt 7 cfg7.N
      = gateOut (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) :=
  (dat7 V c).arrAt_eq_of_cover 7 _ (fun t _ => flushed_eq V c t) cover

end Cert.KernelIdeal.Region7

end
-- ==== Proof.Math16.lean ====
/-
  The second layer's gated edge messages, as the region computes them from the gathered node rows, the edge attributes
  and the split gate weights, are the reference's stage: the reference multiplies the concatenation [gathered row,
  transformed attributes] by the whole [128, 64] gate matrix, which is the sum of the two half products; its logistic
  is spelt 1 / (1 + exp (−s)).
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region7
import proofs.«106696_j33449205301454_2_alg».proof.Proof.Math2
import proofs.«106696_j33449205301454_2_alg».proof.Proof.Math4
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read
open scoped BigOperators

namespace M16

theorem lidx114 (p : Fin 1700000) (q : Fin 64) (k : Fin 16) : lidx_main_v114 (ix2 p q) k = ix2 p k :=
  funext fun a => Fin.ext (by match a with | ⟨0, _⟩ => rfl | ⟨1, _⟩ => rfl)
theorem ridx114 (p : Fin 1700000) (q : Fin 64) (k : Fin 16) : ridx_main_v114 (ix2 p q) k = ix2 k q :=
  funext fun a => Fin.ext (by match a with | ⟨0, _⟩ => rfl | ⟨1, _⟩ => rfl)
theorem idx115116 (p : Fin 1700000) (q : Fin 64) : idx_main_v115 (idx_main_v116 (ix2 p q)) = ix1 q :=
  funext fun a => Fin.ext (by match a with | ⟨0, _⟩ => rfl)
theorem lidx151 (p : Fin 1700000) (q : Fin 64) (k : Fin 128) : lidx_main_v151 (ix2 p q) k = ix2 p k :=
  funext fun a => Fin.ext (by match a with | ⟨0, _⟩ => rfl | ⟨1, _⟩ => rfl)
theorem ridx151 (p : Fin 1700000) (q : Fin 64) (k : Fin 128) : ridx_main_v151 (ix2 p q) k = ix2 k q :=
  funext fun a => Fin.ext (by match a with | ⟨0, _⟩ => rfl | ⟨1, _⟩ => rfl)
theorem idx152153 (p : Fin 1700000) (q : Fin 64) : idx_main_v152 (idx_main_v153 (ix2 p q)) = ix1 q :=
  funext fun a => Fin.ext (by match a with | ⟨0, _⟩ => rfl)

end M16

/-- The transformed edge attributes of the second layer: the region's entry is the reference's stage. -/
theorem edge1b (x2 : (⟨S1600000x16, .f32⟩ : BufTy).Contents (Elt Ideal)) (x15 : (⟨S16x64, .f32⟩ : BufTy).Contents (Elt Ideal)) (x16 : (⟨S64, .f32⟩ : BufTy).Contents (Elt Ideal)) (p : Fin 1700000) (j : Fin 64) :
    Cert.KernelIdeal.Region7.edgeT (Cert.ReferenceIdeal.Read.val_main_v8 (F := Ideal) x2) x15 (row64 x16) p j = (Cert.ReferenceIdeal.Read.val_main_v117 (F := Ideal) x2 x15 x16) (ix2 p j) := by
  rw [Cert.KernelIdeal.Region7.edgeT_def, val_main_v117_apply, val_main_v114_apply, val_main_v116_apply, val_main_v115_apply, M16.idx115116, row64_apply]
  simp only [M16.lidx114, M16.ridx114, Ideal.addf_def]

theorem gate1b (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) :
    Cert.KernelIdeal.Region7.gateOut (Cert.ReferenceIdeal.Read.val_main_v149 (F := Ideal) x0 x1 x2 x3 x4 x5 x6 x7 x8 x9 x10 x11 x12 x13 x14 x21 x22 x23) (Cert.ReferenceIdeal.Read.val_main_v8 (F := Ideal) x2) x15 (row64 x16) (gateTop x17) (gateBot x17) (row64 x18)
      = (Cert.ReferenceIdeal.Read.val_main_v161 (F := Ideal) x0 x1 x2 x3 x4 x5 x6 x7 x8 x9 x10 x11 x12 x13 x14 x15 x16 x17 x18 x21 x22 x23) := by
  funext i
  obtain ⟨p, q, rfl⟩ : ∃ (p : Fin 1700000) (q : Fin 64), i = ix2 p q := ⟨i 0, i 1, eq_ix2 i⟩
  rw [Cert.KernelIdeal.Region7.gateOut_apply]
  simp only [edge1b, gateTop_apply, gateBot_apply, row64_apply]
  rw [val_main_v161_apply, val_main_v160_apply, val_main_v158_apply, val_main_v156_apply, val_main_v155_apply, val_main_v154_apply,
    val_main_v151_apply, val_main_v153_apply, val_main_v152_apply, M16.idx152153, val_main_v159_apply, val_main_v157_apply, sum128]
  simp only [M16.lidx151, M16.ridx151]
  unfold val_main_v150 val_main_cst_29 val_main_cst_30
  simp only [cat_left, cat_right, constant_apply, one_word, Ideal.addf_def, Ideal.mulf_def, Ideal.hostDivf_def, Ideal.hostNegf_def,
    Ideal.negf_def, Ideal.hostUnary_exp_def]
  rfl

end Cert.KernelIdeal.Stage

end
-- ==== Proof.Stage16.lean ====
/-
  The gate region's output at its exit is the reference's gated edge messages.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region7
import proofs.«106696_j33449205301454_2_alg».proof.Proof.Math16
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

set_option maxHeartbeats 4000000 in
theorem f16_v140 (c : Dev nD)
    (h38 : W15 m ρ c (Proc.devRef .tc main_v135) = (Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))))
    (h8 : W1 m ρ c (Proc.devRef .tc main_v8) = (Cert.ReferenceIdeal.Read.val_main_v8 (F := Ideal) (m ((c : Thread nD τ).loc main_arg2))))
    (h39 : W15 m ρ c (Proc.devRef .tc main_v136) = gateTop (m ((c : Thread nD τ).loc main_arg17)))
    (h40 : W15 m ρ c (Proc.devRef .tc main_v137) = gateBot (m ((c : Thread nD τ).loc main_arg17)))
    (h41 : W15 m ρ c (Proc.devRef .tc main_v138) = row64 (m ((c : Thread nD τ).loc main_arg16)))
    (h42 : W15 m ρ c (Proc.devRef .tc main_v139) = row64 (m ((c : Thread nD τ).loc main_arg18))) :
    W16 m ρ c (Proc.devRef .tc main_v140) = (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  refine ((W16_arr m ρ c 7).trans (Cert.KernelIdeal.Region7.final (V15 m ρ) c)).trans ?_
  show Cert.KernelIdeal.Region7.gateOut (W15 m ρ c (Proc.devRef .tc main_v135)) (W15 m ρ c (Proc.devRef .tc main_v8)) (W15 m ρ c (Proc.devRef .tc main_arg15)) (W15 m ρ c (Proc.devRef .tc main_v138)) (W15 m ρ c (Proc.devRef .tc main_v136)) (W15 m ρ c (Proc.devRef .tc main_v137)) (W15 m ρ c (Proc.devRef .tc main_v139)) = _
  rw [h38, Keep.keep_v8_15_1 m ρ c, h8, Keep.keep_arg15_15_0 m ρ c, h41, h39, h40, h42]
  exact gate1b _ _ _ _ _ _ _ _ _ _ _ _ _ _ _ _ _ _ _ _ _ _

end Cert.KernelIdeal.Stage

end
-- ==== Proof.Stage17.lean ====
/-
  The stretch after the gate region: the node update and the scattered edge messages in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f17_v144 (c : Dev nD)
    (h31 : W14 m ρ c (Proc.devRef .tc main_v128) = (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23)))) :
    W17 m ρ c (Proc.devRef .tc main_v144) = pack (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))) := by
  show StableHlo.after hostOps8 (W16 m ρ c) (Proc.devRef .tc main_v144) = _
  after_results
  rw [Keep.keep_v128_16_14 m ρ c, h31]
  rfl

theorem f17_v145 (c : Dev nD)
    (h43 : W16 m ρ c (Proc.devRef .tc main_v140) = (Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))))
    (h6 : W1 m ρ c (Proc.devRef .tc main_v6) = (Cert.ReferenceIdeal.Read.val_main_v6 (F := Ideal) (m ((c : Thread nD τ).loc main_arg1)))) :
    W17 m ρ c (Proc.devRef .tc main_v145) = pack (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  show StableHlo.after hostOps8 (W16 m ρ c) (Proc.devRef .tc main_v145) = _
  after_results
  rw [h43, Keep.keep_v6_16_1 m ρ c, h6]
  rfl

end Cert.KernelIdeal.Stage

end
-- ==== Proof.Region8.lean ====
/-
  Region 8 (the second layer's entrywise sum of two packed [50000, 128] arrays, with its running column sums and column sums of squares):
  for the contents V the region is entered with, the third window's array ends holding a (r, l) + b (r, l) at every entry,
  and the two [1, 128] accumulator arrays end holding, at lane q,
      0 + ∑ r < 50000, (a + b) (r, q)      and      0 + ∑ r < 50000, (a + b) (r, q) · (a + b) (r, q),
  a and b the first two windows' arrays and 0 the zero word the first point stores. Each of the ten grid points stores the
  sum of its two 5000-row blocks and adds its column sums to the rows the point before left; the last point alone writes
  the accumulators back.
-/
import proofs.«106696_j33449205301454_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region8

open Cert.KernelIdeal Cert.KernelIdeal.Gen Idealize.ShloMosaic Idealize.ShloMosaic.TcCoe Idealize.SL.Sem
open Idealize.ShloMosaic.Tactic
open Idealize.ShloMosaic.ValueIdx
open Idealize.ShloMosaic.Pipeline (Dat)
open scoped BigOperators

/-- The index the reduction over the first axis reads for column q at position k is (k, q). -/
theorem lift_col {M N : Nat} (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum over the first axis of an [M, N] matrix, read at column q: the sum of the column's entries. -/
theorem colSum_apply {M N : Nat} (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) := by
  refine (Ideal.multiReduction_add_single src 0x00000000#32 h hφ hacc (ix1 q)).trans ?_
  exact Finset.sum_congr rfl fun k _ => congrArg src (lift_col h q k)

/-- The zero word. -/
abbrev z : EReal := Ideal.ofBits .f32 0x00000000#32

/-- The stored block is the entrywise sum of the two input blocks. -/
theorem pay1_at (a b : Vec Ideal S5000x128 .f32) (i : S5000x128.Idx) : k8_pay1 (F := Ideal) a b i = a i + b i := by
  unfold k8_pay1
  simp only [shapeCast_self, addf_apply]

/-- The first accumulator's new row at lane q: the old row plus the column sum of the summed block. -/
theorem pay4_at (a b : Vec Ideal S5000x128 .f32) (acc : Vec Ideal S1x128 .f32) (q : Fin 128) :
    k8_pay4 (F := Ideal) a b acc (ix2 0 q) = acc (ix2 0 q) + ∑ k : Fin 5000, (a (ix2 k q) + b (ix2 k q)) := by
  unfold k8_pay4
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  exact Finset.sum_congr rfl fun k _ => pay1_at a b (ix2 k q)

/-- The second accumulator's new row at lane q: the old row plus the column sum of squares of the summed block. -/
theorem pay5_at (a b : Vec Ideal S5000x128 .f32) (acc : Vec Ideal S1x128 .f32) (q : Fin 128) :
    k8_pay5 (F := Ideal) a b acc (ix2 0 q)
      = acc (ix2 0 q) + ∑ k : Fin 5000, (a (ix2 k q) + b (ix2 k q)) * (a (ix2 k q) + b (ix2 k q)) := by
  unfold k8_pay5
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  refine Finset.sum_congr rfl fun k _ => ?_
  rw [mulf_apply, pay1_at]

/-- Row r (taken modulo the extent, so that every natural number names a row) of the [50000, 128] array at lane q. -/
def rowAt (x : S50000x128.Idx → EReal) (r : ℕ) (q : Fin 128) : EReal :=
  x (ix2 (⟨r % 50000, Nat.mod_lt _ (by norm_num)⟩ : Fin 50000) q)

/-- The column sums of the rows below a bound, from the zero word. -/
def sumBelow (f : S50000x128.Idx → EReal) (n : ℕ) : Vec Ideal S1x128 .f32 :=
  fun i => z + ∑ r ∈ Finset.range n, rowAt f r (i 1)

/-- The column sums over all rows of the array, from the zero word. -/
def colSums (f : S50000x128.Idx → EReal) : S1x128.Idx → EReal :=
  fun i => z + ∑ r : Fin 50000, f (ix2 r (i 1))

theorem colSums_apply (f : S50000x128.Idx → EReal) (q : Fin 128) :
    colSums f (ix2 0 q) = z + ∑ r : Fin 50000, f (ix2 r q) := rfl

/-- The sums below the full extent are the sums over the array. -/
theorem sumBelow_all (f : S50000x128.Idx → EReal) : sumBelow f 50000 = colSums f := by
  funext i
  unfold sumBelow colSums
  rw [Finset.sum_range]
  refine congrArg (z + ·) (Finset.sum_congr rfl fun r _ => ?_)
  unfold rowAt
  exact congrArg f (congrArg (fun a => ix2 a (i 1)) (Fin.ext (Nat.mod_eq_of_lt r.isLt)))

/-- Adding the next 5000 rows to the sums below a bound. -/
theorem sumBelow_step (f : S50000x128.Idx → EReal) (n : ℕ) (q : Fin 128) :
    sumBelow f n (ix2 0 q) + ∑ k : Fin 5000, rowAt f (n + k.val) q = sumBelow f (n + 5000) (ix2 0 q) := by
  unfold sumBelow
  rw [Finset.sum_range_add, ← Finset.sum_range (fun k => rowAt f (n + k) q), add_assoc]

/-- The squares of the entries. -/
def sq (f : S50000x128.Idx → EReal) : S50000x128.Idx → EReal := fun i => f i * f i

/-- The column sums of squares over all rows of the array, from the zero word. -/
def colSumSqs (f : S50000x128.Idx → EReal) : S1x128.Idx → EReal := colSums (sq f)

theorem colSumSqs_apply (f : S50000x128.Idx → EReal) (q : Fin 128) :
    colSumSqs f (ix2 0 q) = z + ∑ r : Fin 50000, f (ix2 r q) * f (ix2 r q) := rfl

/-- The entrywise sum of two arrays. -/
def addArr (a b : S50000x128.Idx → EReal) : S50000x128.Idx → EReal := fun i => a i + b i

theorem addArr_apply (a b : S50000x128.Idx → EReal) (p : Fin 50000) (q : Fin 128) :
    addArr a b (ix2 p q) = a (ix2 p q) + b (ix2 p q) := rfl

/-- The reset rows are the sums below no row. -/
theorem reset_eq (f : S50000x128.Idx → EReal) : (k8_pay2 (F := Ideal)) = sumBelow f (0 * 5000) := by
  funext i
  unfold sumBelow
  rw [Nat.zero_mul, Finset.range_zero, Finset.sum_empty, add_zero]
  rfl

theorem reset_eq' (f : S50000x128.Idx → EReal) : (k8_pay3 (F := Ideal)) = sumBelow f (0 * 5000) := by
  funext i
  unfold sumBelow
  rw [Nat.zero_mul, Finset.range_zero, Finset.sum_empty, add_zero]
  rfl

/-- One point's step on the first accumulator: block m of the summed rows is added to the sums below it. -/
theorem step_sum (a b : S50000x128.Idx → EReal) (m : ℕ) (A B : Vec Ideal S5000x128 .f32)
    (hA : ∀ (k : Fin 5000) (q : Fin 128), A (ix2 k q) = rowAt a (m * 5000 + k.val) q)
    (hB : ∀ (k : Fin 5000) (q : Fin 128), B (ix2 k q) = rowAt b (m * 5000 + k.val) q) :
    k8_pay4 (F := Ideal) A B (sumBelow (addArr a b) (m * 5000)) = sumBelow (addArr a b) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay4_at, Nat.succ_mul, ← sumBelow_step]
  refine congrArg (sumBelow (addArr a b) (m * 5000) (ix2 0 q) + ·) (Finset.sum_congr rfl fun k _ => ?_)
  rw [hA k q, hB k q]
  rfl

/-- One point's step on the second accumulator: the squares of block m of the summed rows are added. -/
theorem step_sq (a b : S50000x128.Idx → EReal) (m : ℕ) (A B : Vec Ideal S5000x128 .f32)
    (hA : ∀ (k : Fin 5000) (q : Fin 128), A (ix2 k q) = rowAt a (m * 5000 + k.val) q)
    (hB : ∀ (k : Fin 5000) (q : Fin 128), B (ix2 k q) = rowAt b (m * 5000 + k.val) q) :
    k8_pay5 (F := Ideal) A B (sumBelow (sq (addArr a b)) (m * 5000)) = sumBelow (sq (addArr a b)) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay5_at, Nat.succ_mul, ← sumBelow_step]
  refine congrArg (sumBelow (sq (addArr a b)) (m * 5000) (ix2 0 q) + ·) (Finset.sum_congr rfl fun k _ => ?_)
  rw [hA k q, hB k q]
  rfl

/-- The index maps over the ten points: the three tiled windows sit at row block t. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- Block t of the first tiled window read at row k and lane q is row t · 5000 + k of its array. -/
theorem blk0_read (c : Dev nD) (X : Buf (Elt Ideal) ((c : Thread nD τ).loc (Pipeline.arrRef spec8 0))) (t : Fin cfg8.N)
    (k : Fin 5000) (q : Fin 128) :
    (((cfg8.win 0).blk t).view.read (Elt Ideal) X : Vec Ideal S5000x128 .f32) (ix2 k q) = rowAt X (t.val * 5000 + k.val) q := by
  have hi := idx_facts t
  have hN : t.val < 10 := lt_of_lt_of_eq t.isLt (show cfg8.N = 10 from N_8)
  unfold rowAt
  rw [View.read_apply]
  refine congrArg X ?_
  funext a
  apply Fin.ext
  match a with
  | ⟨0, _⟩ =>
    show win8_0.index t 0 * 5000 + 1 * k.val = (t.val * 5000 + k.val) % 50000
    rw [hi.1, Nat.mod_eq_of_lt (by omega)]; omega
  | ⟨1, _⟩ =>
    show win8_0.index t 1 * 128 + 1 * q.val = q.val
    rw [hi.2.1]; omega

/-- Block t of the second tiled window read at row k and lane q is row t · 5000 + k of its array. -/
theorem blk1_read (c : Dev nD) (X : Buf (Elt Ideal) ((c : Thread nD τ).loc (Pipeline.arrRef spec8 1))) (t : Fin cfg8.N)
    (k : Fin 5000) (q : Fin 128) :
    (((cfg8.win 1).blk t).view.read (Elt Ideal) X : Vec Ideal S5000x128 .f32) (ix2 k q) = rowAt X (t.val * 5000 + k.val) q := by
  have hi := idx_facts t
  have hN : t.val < 10 := lt_of_lt_of_eq t.isLt (show cfg8.N = 10 from N_8)
  unfold rowAt
  rw [View.read_apply]
  refine congrArg X ?_
  funext a
  apply Fin.ext
  match a with
  | ⟨0, _⟩ =>
    show win8_1.index t 0 * 5000 + 1 * k.val = (t.val * 5000 + k.val) % 50000
    rw [hi.2.2.1, Nat.mod_eq_of_lt (by omega)]; omega
  | ⟨1, _⟩ =>
    show win8_1.index t 1 * 128 + 1 * q.val = q.val
    rw [hi.2.2.2.1]; omega

/-- An index of the summed array is in point t's block iff each coordinate is in the block's range on its axis. -/
theorem mem_blk (t : Fin cfg8.N) (i : S50000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v146_0).slice (win8_2.rect t)).set ↔ _
  rw [View.set_slice_whole, Rect.mem_set_unit]
  exact Iff.rfl

/-- Every index of the summed array is in the block of the point its row falls in. -/
theorem coverC (c : Dev nD) (i : ((cfg8.win 2).arr.view.loc (c.tc : Thread nD τ)).2.ty.Idx) :
    ∃ t : Fin cfg8.N, (cfg8.win 2).flush t = true ∧ i ∈ ((cfg8.win 2).blk t).view.set := by
  have hi0 : ((i : S50000x128.Idx) 0).val < 50000 := (i 0).isLt
  have hi1 : ((i : S50000x128.Idx) 1).val < 128 := (i 1).isLt
  have hN : cfg8.N = 10 := N_8
  let t : Fin cfg8.N := ⟨((i : S50000x128.Idx) 0).val / 5000, by omega⟩
  have ht : t.val = ((i : S50000x128.Idx) 0).val / 5000 := rfl
  obtain ⟨-, -, -, -, e4, e5⟩ := idx_facts t
  refine ⟨t, flush8_2 t, ?_⟩
  rw [mem_blk]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The last point's block of the first accumulator's window is its whole array. -/
theorem cover3 (c : Dev nD) (i : ((cfg8.win 3).arr.view.loc (c.tc : Thread nD τ)).2.ty.Idx) :
    ∃ t : Fin cfg8.N, (cfg8.win 3).flush t = true ∧ i ∈ ((cfg8.win 3).blk t).view.set :=
  ⟨t8_9, (flush8_3 t8_9).mpr rfl, by
    show i ∈ ((View.whole main_v146_1).slice (win8_3.rect t8_9)).set
    rw [View.set_slice_whole, Rect.mem_set_unit]
    intro a
    have h0 : (i 0 : Nat) < 1 := (i 0).isLt
    have h1 : (i 1 : Nat) < 128 := (i 1).isLt
    match a with
    | ⟨0, _⟩ =>
      show win8_3.index t8_9 0 * win8_3.size 0 ≤ (i 0 : Nat) ∧ (i 0 : Nat) < win8_3.index t8_9 0 * win8_3.size 0 + win8_3.xsize (grid8.coords t8_9) 0
      rw [show win8_3.index t8_9 0 * win8_3.size 0 = 0 from by decide +kernel, show win8_3.xsize (grid8.coords t8_9) 0 = 1 from by decide +kernel]; omega
    | ⟨1, _⟩ =>
      show win8_3.index t8_9 1 * win8_3.size 1 ≤ (i 1 : Nat) ∧ (i 1 : Nat) < win8_3.index t8_9 1 * win8_3.size 1 + win8_3.xsize (grid8.coords t8_9) 1
      rw [show win8_3.index t8_9 1 * win8_3.size 1 = 0 from by decide +kernel, show win8_3.xsize (grid8.coords t8_9) 1 = 128 from by decide +kernel]; omega⟩

/-- The last point's block of the second accumulator's window is its whole array. -/
theorem cover4 (c : Dev nD) (i : ((cfg8.win 4).arr.view.loc (c.tc : Thread nD τ)).2.ty.Idx) :
    ∃ t : Fin cfg8.N, (cfg8.win 4).flush t = true ∧ i ∈ ((cfg8.win 4).blk t).view.set :=
  ⟨t8_9, (flush8_4 t8_9).mpr rfl, by
    show i ∈ ((View.whole main_v146_2).slice (win8_4.rect t8_9)).set
    rw [View.set_slice_whole, Rect.mem_set_unit]
    intro a
    have h0 : (i 0 : Nat) < 1 := (i 0).isLt
    have h1 : (i 1 : Nat) < 128 := (i 1).isLt
    match a with
    | ⟨0, _⟩ =>
      show win8_4.index t8_9 0 * win8_4.size 0 ≤ (i 0 : Nat) ∧ (i 0 : Nat) < win8_4.index t8_9 0 * win8_4.size 0 + win8_4.xsize (grid8.coords t8_9) 0
      rw [show win8_4.index t8_9 0 * win8_4.size 0 = 0 from by decide +kernel, show win8_4.xsize (grid8.coords t8_9) 0 = 1 from by decide +kernel]; omega
    | ⟨1, _⟩ =>
      show win8_4.index t8_9 1 * win8_4.size 1 ≤ (i 1 : Nat) ∧ (i 1 : Nat) < win8_4.index t8_9 1 * win8_4.size 1 + win8_4.xsize (grid8.coords t8_9) 1
      rw [show win8_4.index t8_9 1 * win8_4.size 1 = 0 from by decide +kernel, show win8_4.xsize (grid8.coords t8_9) 1 = 128 from by decide +kernel]; omega⟩

theorem hz : (![0, 0] : Fin 2 → Nat) = fun _ => 0 := funext fun a => by fin_cases a <;> rfl

section Pieces
variable {F : FTy → Type} [FloatOps F]

/-- At a later point the summed block is stored. -/
theorem out_B_2 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond8_0 i) (x0 x1 : Vec F S5000x128 .f32) (xo3 xo4 : Vec F S1x128 .f32) :
    out8_B_2 c i a1 h1 a2 h2 a3 h3 a4 h4 a5 h5 hc x0 x1 xo3 xo4 = k8_pay1 x0 x1 := by
  unfold out8_B_2
  rw [View.read_writes_eq_canon _ _ _ (cover8_B_2 c i a1 h1 a2 h2 a3 h3 a4 h4 a5 h5 hc x0 x1 xo3 xo4)]
  unfold kernelRun8_B
  dsimp only
  sl_unfold_words
  rw [View.canon_unit_zero hz]
  simp only [View.readAt_eq_ld, h1.read_unread, h2.read_unread, View.ld_unit_zero (S := S5000x128) hz]

/-- At a later point the first accumulator is left at the body's sum row over the summed block and the running row. -/
theorem out_B_3 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond8_0 i) (x0 x1 : Vec F S5000x128 .f32) (xo3 xo4 : Vec F S1x128 .f32) :
    out8_B_3 c i a1 h1 a2 h2 a3 h3 a4 h4 a5 h5 hc x0 x1 xo3 xo4 = k8_pay4 x0 x1 xo3 := by
  unfold out8_B_3
  rw [View.read_writes_eq_canon _ _ _ (cover8_B_3 c i a1 h1 a2 h2 a3 h3 a4 h4 a5 h5 hc x0 x1 xo3 xo4)]
  unfold kernelRun8_B
  dsimp only
  sl_unfold_words
  rw [View.canon_unit_zero hz]
  simp only [View.readAt_eq_ld, h1.read_unread, h2.read_unread, h4.read_unread, View.ld_unit_zero (S := S5000x128) hz,
    View.ld_unit_zero (S := S1x128) hz]

/-- At a later point the second accumulator is left at the body's sum-of-squares row and the running row. -/
theorem out_B_4 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond8_0 i) (x0 x1 : Vec F S5000x128 .f32) (xo3 xo4 : Vec F S1x128 .f32) :
    out8_B_4 c i a1 h1 a2 h2 a3 h3 a4 h4 a5 h5 hc x0 x1 xo3 xo4 = k8_pay5 x0 x1 xo4 := by
  unfold out8_B_4
  rw [View.read_writes_eq_canon _ _ _ (cover8_B_4 c i a1 h1 a2 h2 a3 h3 a4 h4 a5 h5 hc x0 x1 xo3 xo4)]
  unfold kernelRun8_B
  dsimp only
  sl_unfold_words
  rw [View.canon_unit_zero hz]
  simp only [View.readAt_eq_ld, h1.read_unread, h2.read_unread, h5.read_unread, View.ld_unit_zero (S := S5000x128) hz,
    View.ld_unit_zero (S := S1x128) hz]

/-- At the first point the summed block is stored. -/
theorem out_A_2 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond8_0 i) (x0 x1 : Vec F S5000x128 .f32) :
    out8_A_2 c i a1 h1 a2 h2 a3 h3 a4 h4 a5 h5 hc x0 x1 = k8_pay1 x0 x1 := by
  unfold out8_A_2
  rw [View.read_writes_eq_canon _ _ _ (cover8_A_2 c i a1 h1 a2 h2 a3 h3 a4 h4 a5 h5 hc x0 x1)]
  unfold kernelRun8_A
  dsimp only
  sl_unfold_words
  rw [View.canon_unit_zero hz]
  simp only [View.readAt_eq_ld, h1.read_unread, h2.read_unread, View.ld_unit_zero (S := S5000x128) hz]

/-- At the first point the first accumulator is reset to the zero row, read back, and left at the body's sum row over it. -/
theorem out_A_3 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond8_0 i) (x0 x1 : Vec F S5000x128 .f32) :
    out8_A_3 c i a1 h1 a2 h2 a3 h3 a4 h4 a5 h5 hc x0 x1 = k8_pay4 x0 x1 k8_pay2 := by
  unfold out8_A_3
  rw [View.read_writes_eq_canon _ _ _ (cover8_A_3 c i a1 h1 a2 h2 a3 h3 a4 h4 a5 h5 hc x0 x1)]
  unfold kernelRun8_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz]

/-- At the first point the second accumulator likewise. -/
theorem out_A_4 (c : Dev nD) (i : grid8.Coords) (a1 : Memref sig .tc .vmem S5000x128 .f32) (h1 : a1.IsWhole)
    (a2 : Memref sig .tc .vmem S5000x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond8_0 i) (x0 x1 : Vec F S5000x128 .f32) :
    out8_A_4 c i a1 h1 a2 h2 a3 h3 a4 h4 a5 h5 hc x0 x1 = k8_pay5 x0 x1 k8_pay3 := by
  unfold out8_A_4
  rw [View.read_writes_eq_canon _ _ _ (cover8_A_4 c i a1 h1 a2 h2 a3 h3 a4 h4 a5 h5 hc x0 x1)]
  unfold kernelRun8_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz]

end Pieces

variable (V : (c : Dev nD) → (b : Ref sig .tc) → Buf (Elt Ideal) ((c : Thread nD τ).loc b))

/-- The first input window's block at point t, read at row k and lane q, is row t · 5000 + k of its array. -/
theorem iblk0_at (c : Dev nD) (t : Fin cfg8.N) (k : Fin 5000) (q : Fin 128) :
    (iblk8 V c 0 t : Vec Ideal S5000x128 .f32) (ix2 k q) = rowAt (V c (Pipeline.arrRef spec8 0)) (t.val * 5000 + k.val) q := by
  unfold iblk8
  exact blk0_read c (V c (Pipeline.arrRef spec8 0)) t k q

/-- The second input window's block at point t, read at row k and lane q, is row t · 5000 + k of its array. -/
theorem iblk1_at (c : Dev nD) (t : Fin cfg8.N) (k : Fin 5000) (q : Fin 128) :
    (iblk8 V c 1 t : Vec Ideal S5000x128 .f32) (ix2 k q) = rowAt (V c (Pipeline.arrRef spec8 1)) (t.val * 5000 + k.val) q := by
  unfold iblk8
  exact blk1_read c (V c (Pipeline.arrRef spec8 1)) t k q

/-- After point n the staging buffers hold the summed block of the point, and the column sums and column sums of squares
    of the summed rows below (n + 1) · 5000: by induction on the point. -/
theorem outsAt_eq (c : Dev nD) : ∀ (n : ℕ) (h : n < cfg8.N),
    outsAt8 V c n h = (k8_pay1 (iblk8 V c 0 ⟨n, h⟩) (iblk8 V c 1 ⟨n, h⟩),
      sumBelow (addArr (V c (Pipeline.arrRef spec8 0)) (V c (Pipeline.arrRef spec8 1))) ((n + 1) * 5000),
      sumBelow (sq (addArr (V c (Pipeline.arrRef spec8 0)) (V c (Pipeline.arrRef spec8 1)))) ((n + 1) * 5000)) := by
  intro n
  induction n with
  | zero =>
    intro h
    rw [outsAt8_A V c ⟨0, h⟩ rfl]
    refine Prod.ext ?_ (Prod.ext ?_ ?_)
    · dsimp only
      exact out_A_2 (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) _ (iblk8 V c 0 ⟨0, h⟩) (iblk8 V c 1 ⟨0, h⟩)
    · dsimp only
      refine (out_A_3 (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) _ (iblk8 V c 0 ⟨0, h⟩) (iblk8 V c 1 ⟨0, h⟩)).trans ?_
      rw [reset_eq (addArr (V c (Pipeline.arrRef spec8 0)) (V c (Pipeline.arrRef spec8 1)))]
      exact step_sum (V c (Pipeline.arrRef spec8 0)) (V c (Pipeline.arrRef spec8 1)) 0 (iblk8 V c 0 ⟨0, h⟩) (iblk8 V c 1 ⟨0, h⟩)
        (fun k q => iblk0_at V c ⟨0, h⟩ k q) (fun k q => iblk1_at V c ⟨0, h⟩ k q)
    · dsimp only
      refine (out_A_4 (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) _ (iblk8 V c 0 ⟨0, h⟩) (iblk8 V c 1 ⟨0, h⟩)).trans ?_
      rw [reset_eq' (sq (addArr (V c (Pipeline.arrRef spec8 0)) (V c (Pipeline.arrRef spec8 1))))]
      exact step_sq (V c (Pipeline.arrRef spec8 0)) (V c (Pipeline.arrRef spec8 1)) 0 (iblk8 V c 0 ⟨0, h⟩) (iblk8 V c 1 ⟨0, h⟩)
        (fun k q => iblk0_at V c ⟨0, h⟩ k q) (fun k q => iblk1_at V c ⟨0, h⟩ k q)
  | succ n ih =>
    intro h
    have hN : cfg8.N = 10 := N_8
    have hB : ¬(⟨n + 1, h⟩ : Fin cfg8.N).val % 10 = 0 := by dsimp only; omega
    have e := outsAt8_B V c ⟨n + 1, h⟩ hB
    have ih' : outsAt8 V c ((⟨n + 1, h⟩ : Fin cfg8.N).val - 1)
        (Nat.lt_of_le_of_lt (Nat.sub_le _ _) (⟨n + 1, h⟩ : Fin cfg8.N).isLt)
        = (k8_pay1 (iblk8 V c 0 ⟨n, Nat.lt_of_succ_lt h⟩) (iblk8 V c 1 ⟨n, Nat.lt_of_succ_lt h⟩),
            sumBelow (addArr (V c (Pipeline.arrRef spec8 0)) (V c (Pipeline.arrRef spec8 1))) ((n + 1) * 5000),
            sumBelow (sq (addArr (V c (Pipeline.arrRef spec8 0)) (V c (Pipeline.arrRef spec8 1)))) ((n + 1) * 5000)) := ih _
    rw [ih'] at e
    refine e.trans (Prod.ext ?_ (Prod.ext ?_ ?_))
    · dsimp only
      exact out_B_2 (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) _ (iblk8 V c 0 ⟨n + 1, h⟩) (iblk8 V c 1 ⟨n + 1, h⟩) _ _
    · dsimp only
      refine (out_B_3 (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) _ (iblk8 V c 0 ⟨n + 1, h⟩) (iblk8 V c 1 ⟨n + 1, h⟩) _ _).trans ?_
      exact step_sum (V c (Pipeline.arrRef spec8 0)) (V c (Pipeline.arrRef spec8 1)) (n + 1) (iblk8 V c 0 ⟨n + 1, h⟩) (iblk8 V c 1 ⟨n + 1, h⟩)
        (fun k q => iblk0_at V c ⟨n + 1, h⟩ k q) (fun k q => iblk1_at V c ⟨n + 1, h⟩ k q)
    · dsimp only
      refine (out_B_4 (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) _ (iblk8 V c 0 ⟨n + 1, h⟩) (iblk8 V c 1 ⟨n + 1, h⟩) _ _).trans ?_
      exact step_sq (V c (Pipeline.arrRef spec8 0)) (V c (Pipeline.arrRef spec8 1)) (n + 1) (iblk8 V c 0 ⟨n + 1, h⟩) (iblk8 V c 1 ⟨n + 1, h⟩)
        (fun k q => iblk0_at V c ⟨n + 1, h⟩ k q) (fun k q => iblk1_at V c ⟨n + 1, h⟩ k q)

/-- What point t writes back through the summed array's window is block t of the entrywise sum of the two input arrays. -/
theorem flushedC_eq (c : Dev nD) (t : Fin cfg8.N) :
    (dat8 V c).flushed 2 t = ((cfg8.win 2).blk t).view.read (Elt Ideal) (addArr (V c (Pipeline.arrRef spec8 0)) (V c (Pipeline.arrRef spec8 1))) := by
  show (cfg8.win 2).cut (grid8.coords t) ((dat8 V c).after 2 t) = _
  rw [after8_2, outsAt_eq V c t.val t.isLt]
  obtain ⟨e0, e1, e2, e3, e4, e5⟩ := idx_facts t
  funext j
  refine (pay1_at (iblk8 V c 0 t) (iblk8 V c 1 t) j).trans ?_
  have h0 : ((cfg8.win 0).blk t).view.emb j = ((cfg8.win 2).blk t).view.emb j := by
    funext a; apply Fin.ext
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 128 + 1 * (j 1).val = win8_2.index t (1 : Fin 2) * 128 + 1 * (j 1).val; omega
  have h1 : ((cfg8.win 1).blk t).view.emb j = ((cfg8.win 2).blk t).view.emb j := by
    funext a; apply Fin.ext
    match a with
    | ⟨0, _⟩ => show win8_1.index t (0 : Fin 2) * 5000 + 1 * (j 0).val = win8_2.index t (0 : Fin 2) * 5000 + 1 * (j 0).val; omega
    | ⟨1, _⟩ => show win8_1.index t (1 : Fin 2) * 128 + 1 * (j 1).val = win8_2.index t (1 : Fin 2) * 128 + 1 * (j 1).val; omega
  have hA : (iblk8 V c 0 t : Vec Ideal S5000x128 .f32) j = (V c (Pipeline.arrRef spec8 0)) (((cfg8.win 2).blk t).view.emb j) := by
    unfold iblk8; rw [View.read_apply, h0]; rfl
  have hB : (iblk8 V c 1 t : Vec Ideal S5000x128 .f32) j = (V c (Pipeline.arrRef spec8 1)) (((cfg8.win 2).blk t).view.emb j) := by
    unfold iblk8; rw [View.read_apply, h1]; rfl
  rw [hA, hB, View.read_apply]
  rfl

/-- The one write-back of the first accumulator, at the last point, writes the column sums of the summed array. -/
theorem flushed3_eq (c : Dev nD) (t : Fin cfg8.N) (hf : (cfg8.win 3).flush t = true) :
    (dat8 V c).flushed 3 t = ((cfg8.win 3).blk t).view.read (Elt Ideal) (colSums (addArr (V c (Pipeline.arrRef spec8 0)) (V c (Pipeline.arrRef spec8 1)))) := by
  have hN : cfg8.N = 10 := N_8
  have h9 : t.val = 9 := by have := (flush8_3 t).mp hf; have := t.isLt; omega
  obtain rfl : t = t8_9 := Fin.ext h9
  show (cfg8.win 3).cut (grid8.coords t8_9) ((dat8 V c).after 3 t8_9) = _
  rw [after8_3, outsAt_eq V c]
  show (cfg8.win 3).cut (grid8.coords t8_9) (sumBelow (addArr (V c (Pipeline.arrRef spec8 0)) (V c (Pipeline.arrRef spec8 1))) 50000) = _
  rw [sumBelow_all]
  have hz' : (fun a => win8_3.index t8_9 a * main_v146_1.ty.shape.size a) = fun _ => 0 := funext fun a => by fin_cases a <;> decide
  exact (Memref.read_access_unit_zero (Elt Ideal) main_v146_1 hz' (fun a => by rw [congrFun hz' a]; simp) _).symm

/-- The one write-back of the second accumulator, at the last point, writes the column sums of squares of the summed array. -/
theorem flushed4_eq (c : Dev nD) (t : Fin cfg8.N) (hf : (cfg8.win 4).flush t = true) :
    (dat8 V c).flushed 4 t = ((cfg8.win 4).blk t).view.read (Elt Ideal) (colSumSqs (addArr (V c (Pipeline.arrRef spec8 0)) (V c (Pipeline.arrRef spec8 1)))) := by
  have hN : cfg8.N = 10 := N_8
  have h9 : t.val = 9 := by have := (flush8_4 t).mp hf; have := t.isLt; omega
  obtain rfl : t = t8_9 := Fin.ext h9
  show (cfg8.win 4).cut (grid8.coords t8_9) ((dat8 V c).after 4 t8_9) = _
  rw [after8_4, outsAt_eq V c]
  show (cfg8.win 4).cut (grid8.coords t8_9) (sumBelow (sq (addArr (V c (Pipeline.arrRef spec8 0)) (V c (Pipeline.arrRef spec8 1)))) 50000) = _
  rw [sumBelow_all]
  have hz' : (fun a => win8_4.index t8_9 a * main_v146_2.ty.shape.size a) = fun _ => 0 := funext fun a => by fin_cases a <;> decide
  exact (Memref.read_access_unit_zero (Elt Ideal) main_v146_2 hz' (fun a => by rw [congrFun hz' a]; simp) _).symm

/-- The summed array ends holding a (r, l) + b (r, l) at every entry. -/
theorem final2 (c : Dev nD) : (dat8 V c).arrAt 2 cfg8.N = addArr (V c (Pipeline.arrRef spec8 0)) (V c (Pipeline.arrRef spec8 1)) :=
  (dat8 V c).arrAt_eq_of_cover 2 (addArr (V c (Pipeline.arrRef spec8 0)) (V c (Pipeline.arrRef spec8 1))) (fun t _ => flushedC_eq V c t) (coverC c)

/-- The first accumulator's array ends holding, at lane q, the zero word plus the sum over all rows of a + b at lane q. -/
theorem final3 (c : Dev nD) : (dat8 V c).arrAt 3 cfg8.N = colSums (addArr (V c (Pipeline.arrRef spec8 0)) (V c (Pipeline.arrRef spec8 1))) :=
  (dat8 V c).arrAt_eq_of_cover 3 (colSums (addArr (V c (Pipeline.arrRef spec8 0)) (V c (Pipeline.arrRef spec8 1)))) (flushed3_eq V c) (cover3 c)

/-- The second accumulator's array ends holding, at lane q, the zero word plus the sum over all rows of (a + b)² at lane q. -/
theorem final4 (c : Dev nD) : (dat8 V c).arrAt 4 cfg8.N = colSumSqs (addArr (V c (Pipeline.arrRef spec8 0)) (V c (Pipeline.arrRef spec8 1))) :=
  (dat8 V c).arrAt_eq_of_cover 4 (colSumSqs (addArr (V c (Pipeline.arrRef spec8 0)) (V c (Pipeline.arrRef spec8 1)))) (flushed4_eq V c) (cover4 c)

end Cert.KernelIdeal.Region8

end
-- ==== Proof.Stage18.lean ====
/-
  The add-and-reduce region's three outputs at its exit: the sum of the node update and the scattered messages in the packed view, and the packed view's column sums and column sums of squares.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region8
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- The packed view of a sum of two arrays is the sum of the packed views. -/
theorem addArr_packb (a b : S100000x64.Idx → EReal) :
    Cert.KernelIdeal.Region8.addArr (pack a) (pack b) = pack (addf (F := Ideal) (φ := .f32) a b) := by
  funext i
  obtain ⟨r, l, rfl⟩ : ∃ (r : Fin 50000) (l : Fin 128), i = ix2 r l := ⟨i 0, i 1, eq_ix2 i⟩
  rw [Cert.KernelIdeal.Region8.addArr_apply]
  rfl

theorem f18_v146_0 (c : Dev nD)
    (h47 : W17 m ρ c (Proc.devRef .tc main_v144) = pack (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))))
    (h48 : W17 m ρ c (Proc.devRef .tc main_v145) = pack (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))) :
    W18 m ρ c (Proc.devRef .tc main_v146_0) = pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  refine ((W18_arr m ρ c 2).trans (Cert.KernelIdeal.Region8.final2 (V17 m ρ) c)).trans ?_
  show Cert.KernelIdeal.Region8.addArr (W17 m ρ c (Proc.devRef .tc main_v144)) (W17 m ρ c (Proc.devRef .tc main_v145)) = _
  rw [h47, h48, addArr_packb]
  rfl

theorem f18_v146_1 (c : Dev nD)
    (h47 : W17 m ρ c (Proc.devRef .tc main_v144) = pack (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))))
    (h48 : W17 m ρ c (Proc.devRef .tc main_v145) = pack (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))) :
    W18 m ρ c (Proc.devRef .tc main_v146_1) = Cert.KernelIdeal.Region8.colSums (pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))) := by
  refine ((W18_arr m ρ c 3).trans (Cert.KernelIdeal.Region8.final3 (V17 m ρ) c)).trans ?_
  show Cert.KernelIdeal.Region8.colSums (Cert.KernelIdeal.Region8.addArr (W17 m ρ c (Proc.devRef .tc main_v144)) (W17 m ρ c (Proc.devRef .tc main_v145))) = _
  rw [h47, h48, addArr_packb]
  rfl

theorem f18_v146_2 (c : Dev nD)
    (h47 : W17 m ρ c (Proc.devRef .tc main_v144) = pack (Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg23))))
    (h48 : W17 m ρ c (Proc.devRef .tc main_v145) = pack (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))) :
    W18 m ρ c (Proc.devRef .tc main_v146_2) = Cert.KernelIdeal.Region8.colSumSqs (pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))) := by
  refine ((W18_arr m ρ c 4).trans (Cert.KernelIdeal.Region8.final4 (V17 m ρ) c)).trans ?_
  show Cert.KernelIdeal.Region8.colSumSqs (Cert.KernelIdeal.Region8.addArr (W17 m ρ c (Proc.devRef .tc main_v144)) (W17 m ρ c (Proc.devRef .tc main_v145))) = _
  rw [h47, h48, addArr_packb]
  rfl

end Cert.KernelIdeal.Stage

end
-- ==== Proof.Stage19.lean ====
/-
  The tenth stretch: the four [1, 128] rows the second layer's batch normalisation reads — the mean row, the row of
  reciprocal standard deviations, the scale and shift rows — by the first layer's two facts about packed column sums, at
  the second layer's array.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region8
import proofs.«106696_j33449205301454_2_alg».proof.Proof.Stage7
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg)

open Cert.ReferenceIdeal.Read

set_option maxHeartbeats 4000000 in
/-- The mean row. -/
theorem f19_v167 (c : Dev nD)
    (h1 : W18 m ρ c (Proc.devRef .tc main_v146_1) = Cert.KernelIdeal.Region8.colSums (pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))))) :
    W19 m ρ c (Proc.devRef .tc main_v167) = rowDouble (Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  show StableHlo.after hostOps9 (W18 m ρ c) (Proc.devRef .tc main_v167) = _
  after_results
  rw [h1]
  exact congrArg rowDouble (BN.kMean_eq (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) _ (fun l => Cert.KernelIdeal.Region8.colSums_apply _ l))

set_option maxHeartbeats 4000000 in
/-- The row of reciprocal standard deviations. -/
theorem f19_v169 (c : Dev nD)
    (h1 : W18 m ρ c (Proc.devRef .tc main_v146_1) = Cert.KernelIdeal.Region8.colSums (pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))))
    (h2 : W18 m ρ c (Proc.devRef .tc main_v146_2) = Cert.KernelIdeal.Region8.colSumSqs (pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23)))))
    (hreal : ∀ i, ∃ r : ℝ, (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) i = (r : EReal)) :
    W19 m ρ c (Proc.devRef .tc main_v169) = rowDouble (Cert.ReferenceIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) := by
  show StableHlo.after hostOps9 (W18 m ρ c) (Proc.devRef .tc main_v169) = _
  after_results
  rw [h1, h2]
  exact congrArg rowDouble (BN.kRstd_eq (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))) _ _ (fun l => Cert.KernelIdeal.Region8.colSums_apply _ l)
    (fun l => Cert.KernelIdeal.Region8.colSumSqs_apply _ l) hreal)

set_option maxHeartbeats 4000000 in
/-- The scale row. -/
theorem f19_v171 (c : Dev nD) : W19 m ρ c (Proc.devRef .tc main_v171) = rowDouble (m ((c : Thread nD τ).loc main_arg19)) := by
  show StableHlo.after hostOps9 (W18 m ρ c) (Proc.devRef .tc main_v171) = _
  after_results
  rw [Keep.keep_arg19_18_0 m ρ c]
  rfl

set_option maxHeartbeats 4000000 in
/-- The shift row. -/
theorem f19_v173 (c : Dev nD) : W19 m ρ c (Proc.devRef .tc main_v173) = rowDouble (m ((c : Thread nD τ).loc main_arg20)) := by
  show StableHlo.after hostOps9 (W18 m ρ c) (Proc.devRef .tc main_v173) = _
  after_results
  rw [Keep.keep_arg20_18_0 m ρ c]
  rfl

end Cert.KernelIdeal.Stage

end
-- ==== Proof.Region9.lean ====
/-
  Region 9 (batch normalisation and rectifier on the packed view): for the contents V the region is entered with,
  the output array ends holding, at every (r, l) of the [50000, 128] view,
      max (2 · (g l · (x (r, l) − μ l) · s l + b l)) 0,
  x the first window's array and the other four windows the [1, 128] rows, read at the entry's lane. Each of the ten
  grid points writes the 5000 rows of its block.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region9

open Cert.KernelIdeal Cert.KernelIdeal.Gen Idealize.ShloMosaic Idealize.ShloMosaic.TcCoe Idealize.SL.Sem
open Idealize.ShloMosaic.ValueIdx
open Idealize.ShloMosaic.Pipeline (Dat)

/-- The normalised and rectified entry: window 0's array at the entry, windows 1 to 4's rows at its lane. -/
def bnRelu (X : S50000x128.Idx → EReal) (MU S G B : S1x128.Idx → EReal) : S50000x128.Idx → EReal :=
  fun i => max (Ideal.ofBits .f32 0x40000000#32 * (G (ix2 (n0 := 1) (n1 := 128) 0 ⟨(i 1).val, (i 1).isLt⟩) * (X i - MU (ix2 (n0 := 1) (n1 := 128) 0 ⟨(i 1).val, (i 1).isLt⟩)) * S (ix2 (n0 := 1) (n1 := 128) 0 ⟨(i 1).val, (i 1).isLt⟩) + B (ix2 (n0 := 1) (n1 := 128) 0 ⟨(i 1).val, (i 1).isLt⟩))) (Ideal.ofBits .f32 0x00000000#32)

theorem bnRelu_apply (X : S50000x128.Idx → EReal) (MU S G B : S1x128.Idx → EReal) (r : Fin 50000) (l : Fin 128) :
    bnRelu X MU S G B (ix2 r l) = max (Ideal.ofBits .f32 0x40000000#32 * (G (ix2 0 l) * (X (ix2 r l) - MU (ix2 0 l)) * S (ix2 0 l) + B (ix2 0 l))) (Ideal.ofBits .f32 0x00000000#32) := rfl

/-- The body's stored value at an entry (p, l) of the block. -/
theorem pay_at (x : Vec Ideal S5000x128 .f32) (mu s g b : Vec Ideal S1x128 .f32) (p : Fin 5000) (l : Fin 128) :
    k9_pay1 (F := Ideal) g x mu s b (ix2 p l) = max (Ideal.ofBits .f32 0x40000000#32 * (g (ix2 0 l) * (x (ix2 p l) - mu (ix2 0 l)) * s (ix2 0 l) + b (ix2 0 l))) (Ideal.ofBits .f32 0x00000000#32) := by
  unfold k9_pay1
  simp only [shapeCast_self, maximumf_apply, mulf_apply, addf_apply, subf_apply, broadcast_apply,
    broadcastTo_1b_ab_apply]
  rfl

/-- One block against the array: if the block's rows are the array's rows n · 5000 + p and the four rows are read
    whole, the stored value at (p, l) is the specification at (n · 5000 + p, l). -/
theorem blk_at (X : S50000x128.Idx → EReal) (MU S G B : S1x128.Idx → EReal)
    (x : Vec Ideal S5000x128 .f32) (mu s g b : Vec Ideal S1x128 .f32) (n : Nat) (hn : n < 10)
    (hx : ∀ (p : Fin 5000) (l : Fin 128), x (ix2 p l) = X (ix2 ⟨n * 5000 + p.val, by omega⟩ l))
    (hmu : mu = MU) (hs : s = S) (hg : g = G) (hb : b = B)
    (j : S5000x128.Idx) (i : S50000x128.Idx) (hi0 : (i 0).val = n * 5000 + (j 0).val) (hi1 : (i 1).val = (j 1).val) :
    k9_pay1 (F := Ideal) g x mu s b j = bnRelu X MU S G B i := by
  obtain ⟨p, l, rfl⟩ : ∃ (p : Fin 5000) (l : Fin 128), j = ix2 p l := ⟨j 0, j 1, eq_ix2 j⟩
  have hlt : n * 5000 + p.val < 50000 := by have := p.isLt; omega
  have hi : i = ix2 ⟨n * 5000 + p.val, hlt⟩ l := by
    funext a
    match a with
    | ⟨0, _⟩ => exact Fin.ext hi0
    | ⟨1, _⟩ => exact Fin.ext hi1
  subst hmu hs hg hb
  rw [hi, pay_at, bnRelu_apply, hx p l]

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the four rows at the origin. -/
theorem idx_facts : ∀ t : Fin cfg9.N,
    win9_5.index t (0 : Fin 2) = t.val ∧ win9_5.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

set_option maxHeartbeats 2000000 in
/-- What point t writes back is block t of the specification. -/
theorem flushed_eq (c : Dev nD) (t : Fin cfg9.N) :
    (dat9 V c).flushed 5 t = ((cfg9.win 5).blk t).view.read (Elt Ideal)
      (bnRelu (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero hz]
  simp only [View.ld_unit_zero (S := S5000x128) hz, View.ld_unit_zero (S := S1x128) hz]
  obtain ⟨e50, e51, e00, e01, e10, e11, e20, e21, e30, e31, e40, e41⟩ := idx_facts t
  have ht : t.val < 10 := lt_of_lt_of_eq t.isLt N_9
  funext j
  refine blk_at _ _ _ _ _ _ _ _ _ _ t.val ht ?_ ?_ ?_ ?_ ?_ j _ ?_ ?_
  · intro p l
    show V c (Pipeline.arrRef spec9 0) (((cfg9.win 0).blk t).view.emb (ix2 p l)) = _
    refine congrArg _ (funext fun a => Fin.ext ?_)
    match a with
    | ⟨0, _⟩ => show win9_0.index t (0 : Fin 2) * 5000 + 1 * p.val = t.val * 5000 + p.val; omega
    | ⟨1, _⟩ => show win9_0.index t (1 : Fin 2) * 128 + 1 * l.val = l.val; omega
  · funext y
    show V c (Pipeline.arrRef spec9 1) (((cfg9.win 1).blk t).view.emb y) = _
    refine congrArg _ (funext fun a => Fin.ext ?_)
    match a with
    | ⟨0, _⟩ => show win9_1.index t (0 : Fin 2) * 1 + 1 * (y 0).val = (y 0).val; omega
    | ⟨1, _⟩ => show win9_1.index t (1 : Fin 2) * 128 + 1 * (y 1).val = (y 1).val; omega
  · funext y
    show V c (Pipeline.arrRef spec9 2) (((cfg9.win 2).blk t).view.emb y) = _
    refine congrArg _ (funext fun a => Fin.ext ?_)
    match a with
    | ⟨0, _⟩ => show win9_2.index t (0 : Fin 2) * 1 + 1 * (y 0).val = (y 0).val; omega
    | ⟨1, _⟩ => show win9_2.index t (1 : Fin 2) * 128 + 1 * (y 1).val = (y 1).val; omega
  · funext y
    show V c (Pipeline.arrRef spec9 3) (((cfg9.win 3).blk t).view.emb y) = _
    refine congrArg _ (funext fun a => Fin.ext ?_)
    match a with
    | ⟨0, _⟩ => show win9_3.index t (0 : Fin 2) * 1 + 1 * (y 0).val = (y 0).val; omega
    | ⟨1, _⟩ => show win9_3.index t (1 : Fin 2) * 128 + 1 * (y 1).val = (y 1).val; omega
  · funext y
    show V c (Pipeline.arrRef spec9 4) (((cfg9.win 4).blk t).view.emb y) = _
    refine congrArg _ (funext fun a => Fin.ext ?_)
    match a with
    | ⟨0, _⟩ => show win9_4.index t (0 : Fin 2) * 1 + 1 * (y 0).val = (y 0).val; omega
    | ⟨1, _⟩ => show win9_4.index t (1 : Fin 2) * 128 + 1 * (y 1).val = (y 1).val; omega
  · show win9_5.index t (0 : Fin 2) * 5000 + 1 * (j 0).val = t.val * 5000 + (j 0).val; omega
  · show win9_5.index t (1 : Fin 2) * 128 + 1 * (j 1).val = (j 1).val; omega

/-- An index of the array is in point t's block iff each coordinate is in the block's range on its axis. -/
theorem mem_blk (t : Fin cfg9.N) (i : S50000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v174).slice (win9_5.rect t)).set ↔ _
  rw [View.set_slice_whole, Rect.mem_set_unit]
  exact Iff.rfl

/-- Row r lies in the block of point r / 5000, and every point writes back. -/
theorem cover (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  have hN : (i 0).val / 5000 < cfg9.N := lt_of_lt_of_eq (by omega : (i 0).val / 5000 < 10) N_9.symm
  obtain ⟨e50, e51, -⟩ := idx_facts ⟨(i 0).val / 5000, hN⟩
  refine ⟨⟨(i 0).val / 5000, hN⟩, flush9_5 _, ?_⟩
  rw [mem_blk]
  intro a
  match a with
  | ⟨0, _⟩ =>
    show win9_5.index ⟨(i 0).val / 5000, hN⟩ (0 : Fin 2) * 5000 ≤ (i 0).val
      ∧ (i 0).val < win9_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win9_5.index ⟨(i 0).val / 5000, hN⟩ (1 : Fin 2) * 128 ≤ (i 1).val
      ∧ (i 1).val < win9_5.index ⟨(i 0).val / 5000, hN⟩ (1 : Fin 2) * 128 + 128
    rw [e51]
    omega

/-- The output array after the region: the specification of the five input arrays as the region found them. -/
theorem final (c : Dev nD) :
    (dat9 V c).arrAt 5 cfg9.N
      = bnRelu (V c (Pipeline.arrRef spec9 0)) (V c (Pipeline.arrRef spec9 1)) (V c (Pipeline.arrRef spec9 2))
        (V c (Pipeline.arrRef spec9 3)) (V c (Pipeline.arrRef spec9 4)) :=
  (dat9 V c).arrAt_eq_of_cover 5 _ (fun t _ => flushed_eq V c t) cover

end Cert.KernelIdeal.Region9

end
-- ==== Proof.Math20.lean ====
/-
  The second layer's batch normalisation with its rectifier, as the region computes it on the packed view, is the
  reference's stage read through the packed view: entry (r, l) of the packed array is entry (2r + l / 64, l % 64) of
  the [100000, 64] one, and there both sides are  max (2 · ((g · (x − μ)) · s + b)) 0  with the same association. A second
  rectifier applied to the rectified stage changes nothing.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibPacked
import proofs.«106696_j33449205301454_2_alg».proof.Proof.Region9
import proofs.«106696_j33449205301454_2_alg».proof.Proof.Math8
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M20

theorem idx179180 (p : Fin 100000) (q : Fin 64) : idx_main_v179 (idx_main_v180 (ix2 p q)) = ix1 q :=
  funext fun a => Fin.ext (by match a with | ⟨0, _⟩ => rfl)
theorem idx176177 (p : Fin 100000) (q : Fin 64) : idx_main_v176 (idx_main_v177 (ix2 p q)) = ix1 q :=
  funext fun a => Fin.ext (by match a with | ⟨0, _⟩ => rfl)
theorem idx185186 (p : Fin 100000) (q : Fin 64) : idx_main_v185 (idx_main_v186 (ix2 p q)) = ix1 q :=
  funext fun a => Fin.ext (by match a with | ⟨0, _⟩ => rfl)
theorem idx188189 (p : Fin 100000) (q : Fin 64) : idx_main_v188 (idx_main_v189 (ix2 p q)) = ix1 q :=
  funext fun a => Fin.ext (by match a with | ⟨0, _⟩ => rfl)

end M20

theorem bn1b (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) :
    Cert.KernelIdeal.Region9.bnRelu (pack (Cert.ReferenceIdeal.Read.val_main_v165 (F := Ideal) x0 x1 x2 x3 x4 x5 x6 x7 x8 x9 x10 x11 x12 x13 x14 x15 x16 x17 x18 x21 x22 x23)) (rowDouble (Cert.ReferenceIdeal.Read.val_main_v168 (F := Ideal) x0 x1 x2 x3 x4 x5 x6 x7 x8 x9 x10 x11 x12 x13 x14 x15 x16 x17 x18 x21 x22 x23)) (rowDouble (Cert.ReferenceIdeal.Read.val_main_v184 (F := Ideal) x0 x1 x2 x3 x4 x5 x6 x7 x8 x9 x10 x11 x12 x13 x14 x15 x16 x17 x18 x21 x22 x23)) (rowDouble x19) (rowDouble x20)
      = pack (Cert.ReferenceIdeal.Read.val_main_v193 (F := Ideal) x0 x1 x2 x3 x4 x5 x6 x7 x8 x9 x10 x11 x12 x13 x14 x15 x16 x17 x18 x19 x20 x21 x22 x23) := by
  funext i
  obtain ⟨r, l, rfl⟩ : ∃ (r : Fin 50000) (l : Fin 128), i = ix2 r l := ⟨i 0, i 1, eq_ix2 i⟩
  obtain ⟨p, hp⟩ : ∃ p : Fin 100000, p.val = 2 * r.val + l.val / 64 :=
    ⟨⟨2 * r.val + l.val / 64, by have := r.isLt; have := l.isLt; omega⟩, rfl⟩
  obtain ⟨q, hq⟩ : ∃ q : Fin 64, q.val = l.val % 64 := ⟨⟨l.val % 64, Nat.mod_lt _ (by norm_num)⟩, rfl⟩
  rw [Cert.KernelIdeal.Region9.bnRelu_apply, M8.pack_at _ r l p q hp hq, M8.pack_at _ r l p q hp hq,
    M8.rowDouble_at _ l q hq, M8.rowDouble_at _ l q hq, M8.rowDouble_at _ l q hq, M8.rowDouble_at _ l q hq]
  rw [val_main_v193_apply, val_main_v192_apply, val_main_v191_apply, val_main_cst_37_apply, val_main_v190_apply, val_main_v187_apply,
    val_main_v181_apply, val_main_v180_apply, val_main_v179_apply, val_main_v178_apply, val_main_v177_apply, val_main_v176_apply,
    val_main_v186_apply, val_main_v185_apply, val_main_v189_apply, val_main_v188_apply, val_main_call3_v0_apply,
    val_main_call3_cst_apply, M20.idx179180, M20.idx176177, M20.idx185186, M20.idx188189]
  simp only [Ideal.mulf_def, Ideal.addf_def, Ideal.subf_def, Ideal.maximumf_def, Ideal.ofBits_def]

/-- Rectifying twice is rectifying once: max (max a 0) 0 = max a 0. -/
theorem relu_relub (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) :
    (Cert.ReferenceIdeal.Read.val_main_v194 (F := Ideal) x0 x1 x2 x3 x4 x5 x6 x7 x8 x9 x10 x11 x12 x13 x14 x15 x16 x17 x18 x19 x20 x21 x22 x23) = (Cert.ReferenceIdeal.Read.val_main_v193 (F := Ideal) x0 x1 x2 x3 x4 x5 x6 x7 x8 x9 x10 x11 x12 x13 x14 x15 x16 x17 x18 x19 x20 x21 x22 x23) := by
  funext i
  rw [val_main_v194_apply, val_main_v193_apply, val_main_call4_v0_apply, val_main_call4_cst_apply, val_main_call3_v0_apply,
    val_main_call3_cst_apply]
  simp only [Ideal.maximumf_def]
  exact max_eq_left (le_max_right _ _)

end Cert.KernelIdeal.Stage

end
-- ==== Proof.Stage20.lean ====
/-
  The batch-normalisation region's output at its exit: the normalised, doubled and rectified layer, in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region9
import proofs.«106696_j33449205301454_2_alg».proof.Proof.Math20
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f20_v174 (c : Dev nD)
    (h49 : W18 m ρ c (Proc.devRef .tc main_v146_0) = pack (Cert.ReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))))
    (h70 : W19 m ρ c (Proc.devRef .tc main_v167) = rowDouble (Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))))
    (h72 : W19 m ρ c (Proc.devRef .tc main_v169) = rowDouble (Cert.ReferenceIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg21)) (m ((c : Thread nD τ).loc main_arg22)) (m ((c : Thread nD τ).loc main_arg23))))
    (h74 : W19 m ρ c (Proc.devRef .tc main_v171) = rowDouble (m ((c : Thread nD τ).loc main_arg19)))
    (h76 : W19 m ρ c (Proc.devRef .tc main_v173) = rowDouble (m ((c : Thread nD τ).loc main_arg20))) :
    W20 m ρ c (Proc.devRef .tc main_v174) = pack (Cert.ReferenceIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine ((W20_arr m ρ c 5).trans (Cert.KernelIdeal.Region9.final (V19 m ρ) c)).trans ?_
  show Cert.KernelIdeal.Region9.bnRelu (W19 m ρ c (Proc.devRef .tc main_v146_0)) (W19 m ρ c (Proc.devRef .tc main_v167)) (W19 m ρ c (Proc.devRef .tc main_v169)) (W19 m ρ c (Proc.devRef .tc main_v171)) (W19 m ρ c (Proc.devRef .tc main_v173)) = _
  rw [Keep.keep_v146_0_19_18 m ρ c, h49, h70, h72, h74, h76]
  exact bn1b _ _ _ _ _ _ _ _ _ _ _ _ _ _ _ _ _ _ _ _ _ _ _ _

end Cert.KernelIdeal.Stage

end
-- ==== Proof.Stage21.lean ====
/-
  The stretch that unpacks and packs again: the packed view is unchanged, and a rectifier applied twice is the rectifier.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Math20
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- Packing what was unpacked gives the array back. -/
theorem pack_unpackb (y : S50000x128.Idx → EReal) : pack (unpack y) = y :=
  shapeCast_shapeCast y shapeCasts_S50000x128_S100000x64 shapeCasts_S100000x64_S50000x128

theorem f21_v176 (c : Dev nD)
    (h77 : W20 m ρ c (Proc.devRef .tc main_v174) = pack (Cert.ReferenceIdeal.Read.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) :
    W21 m ρ c (Proc.devRef .tc main_v176) = pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  show StableHlo.after hostOps10 (W20 m ρ c) (Proc.devRef .tc main_v176) = _
  after_results
  rw [h77, relu_relub]
  exact pack_unpackb _

end Cert.KernelIdeal.Stage

end
-- ==== Proof.Region10.lean ====
/-
  Region 10 (the second layer's running column sums of the packed [50000, 128] array and of its squares): for the contents V the region
  is entered with, the two [1, 128] accumulator arrays end holding, at lane q,
      0 + ∑ r < 50000, x (r, q)      and      0 + ∑ r < 50000, x (r, q) · x (r, q),
  x the first window's array and 0 the zero word the first point stores. Each of the ten grid points adds the column
  sums of its 5000 rows to the rows the point before left; the last point alone writes the accumulators back.
-/
import proofs.«106696_j33449205301454_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region10

open Cert.KernelIdeal Cert.KernelIdeal.Gen Idealize.ShloMosaic Idealize.ShloMosaic.TcCoe Idealize.SL.Sem
open Idealize.ShloMosaic.Tactic
open Idealize.ShloMosaic.ValueIdx
open Idealize.ShloMosaic.Pipeline (Dat)
open scoped BigOperators

/-- The index the reduction over the first axis reads for column q at position k is (k, q). -/
theorem lift_col {M N : Nat} (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum over the first axis of an [M, N] matrix, read at column q: the sum of the column's entries. -/
theorem colSum_apply {M N : Nat} (src : FVec Ideal ⟨2, ![M, N]⟩ .f32) (h : (⟨2, ![M, N]⟩ : Shape).Reduces [0] ⟨1, ![N]⟩)
    (hφ : FKind.Formats .f32) (hacc : (0x00000000#32 : BitVec 32) = 0x00000000#32) (q : Fin N) :
    multiReduction .add [0] ⟨1, ![N]⟩ src 0x00000000#32 h hφ hacc (ix1 q) = ∑ k : Fin M, src (ix2 k q) := by
  refine (Ideal.multiReduction_add_single src 0x00000000#32 h hφ hacc (ix1 q)).trans ?_
  exact Finset.sum_congr rfl fun k _ => congrArg src (lift_col h q k)

/-- The zero word. -/
abbrev z : EReal := Ideal.ofBits .f32 0x00000000#32

/-- The reset rows hold the zero word at every lane. -/
theorem pay1_at (i : S1x128.Idx) : k10_pay1 (F := Ideal) i = z := rfl
theorem pay2_at (i : S1x128.Idx) : k10_pay2 (F := Ideal) i = z := rfl

/-- The first accumulator's new row at lane q: the old row plus the block's column sum. -/
theorem pay4_at (x : Vec Ideal S5000x128 .f32) (acc : Vec Ideal S1x128 .f32) (q : Fin 128) :
    k10_pay4 (F := Ideal) x acc (ix2 0 q) = acc (ix2 0 q) + ∑ k : Fin 5000, x (ix2 k q) := by
  unfold k10_pay4 k10_pay3
  simp only [shapeCast_self, addf_apply]
  refine congrArg (acc (ix2 0 q) + ·) ?_
  refine (shapeCast_a_1a_apply _ shapeCasts_S128_S1x128 0 q).trans ?_
  exact colSum_apply x reduces_S5000x128_S128 (.inl rfl) rfl q

/-- The second accumulator's new row at lane q: the old row plus the block's column sum of squares. -/
theorem pay5_at (x : Vec Ideal S5000x128 .f32) (acc : Vec Ideal S1x128 .f32) (q : Fin 128) :
    k10_pay5 (F := Ideal) x acc (ix2 0 q) = acc (ix2 0 q) + ∑ k : Fin 5000, x (ix2 k q) * x (ix2 k q) := by
  unfold k10_pay5 k10_pay3
  simp only [shapeCast_self, addf_apply]
  refine congrArg (acc (ix2 0 q) + ·) ?_
  refine (shapeCast_a_1a_apply _ shapeCasts_S128_S1x128 0 q).trans ?_
  refine (colSum_apply _ reduces_S5000x128_S128 (.inl rfl) rfl q).trans ?_
  rfl

/-- Row r (taken modulo the extent, so that every natural number names a row) of the [50000, 128] array at lane q. -/
def rowAt (x : S50000x128.Idx → EReal) (r : ℕ) (q : Fin 128) : EReal :=
  x (ix2 (⟨r % 50000, Nat.mod_lt _ (by norm_num)⟩ : Fin 50000) q)

/-- The column sums of the rows below a bound, from the zero word. -/
def sumBelow (f : S50000x128.Idx → EReal) (n : ℕ) : Vec Ideal S1x128 .f32 :=
  fun i => z + ∑ r ∈ Finset.range n, rowAt f r (i 1)

/-- The column sums over all rows of the array, from the zero word. -/
def colSums (f : S50000x128.Idx → EReal) : S1x128.Idx → EReal :=
  fun i => z + ∑ r : Fin 50000, f (ix2 r (i 1))

theorem colSums_apply (f : S50000x128.Idx → EReal) (q : Fin 128) :
    colSums f (ix2 0 q) = z + ∑ r : Fin 50000, f (ix2 r q) := rfl

/-- The sums below the full extent are the sums over the array. -/
theorem sumBelow_all (f : S50000x128.Idx → EReal) : sumBelow f 50000 = colSums f := by
  funext i
  unfold sumBelow colSums
  rw [Finset.sum_range]
  refine congrArg (z + ·) (Finset.sum_congr rfl fun r _ => ?_)
  unfold rowAt
  exact congrArg f (congrArg (fun a => ix2 a (i 1)) (Fin.ext (Nat.mod_eq_of_lt r.isLt)))

/-- Adding the next 5000 rows to the sums below a bound. -/
theorem sumBelow_step (f : S50000x128.Idx → EReal) (n : ℕ) (q : Fin 128) :
    sumBelow f n (ix2 0 q) + ∑ k : Fin 5000, rowAt f (n + k.val) q = sumBelow f (n + 5000) (ix2 0 q) := by
  unfold sumBelow
  rw [Finset.sum_range_add, ← Finset.sum_range (fun k => rowAt f (n + k) q), add_assoc]

/-- The squares of the entries. -/
def sq (f : S50000x128.Idx → EReal) : S50000x128.Idx → EReal := fun i => f i * f i

/-- The column sums of squares over all rows of the array, from the zero word. -/
def colSumSqs (f : S50000x128.Idx → EReal) : S1x128.Idx → EReal := colSums (sq f)

theorem colSumSqs_apply (f : S50000x128.Idx → EReal) (q : Fin 128) :
    colSumSqs f (ix2 0 q) = z + ∑ r : Fin 50000, f (ix2 r q) * f (ix2 r q) := rfl

/-- The reset row is the sum below no row. -/
theorem reset_eq (f : S50000x128.Idx → EReal) : (k10_pay1 (F := Ideal)) = sumBelow f (0 * 5000) := by
  funext i
  unfold sumBelow
  rw [Nat.zero_mul, Finset.range_zero, Finset.sum_empty, add_zero]
  rfl

theorem reset_eq' (f : S50000x128.Idx → EReal) : (k10_pay2 (F := Ideal)) = sumBelow f (0 * 5000) := by
  funext i
  unfold sumBelow
  rw [Nat.zero_mul, Finset.range_zero, Finset.sum_empty, add_zero]
  rfl

/-- One point's step on the first accumulator: block m of the rows is added to the sums below it. -/
theorem step_sum (f : S50000x128.Idx → EReal) (m : ℕ) (X : Vec Ideal S5000x128 .f32)
    (hX : ∀ (k : Fin 5000) (q : Fin 128), X (ix2 k q) = rowAt f (m * 5000 + k.val) q) :
    k10_pay4 (F := Ideal) X (sumBelow f (m * 5000)) = sumBelow f ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay4_at, Nat.succ_mul, ← sumBelow_step]
  exact congrArg (sumBelow f (m * 5000) (ix2 0 q) + ·) (Finset.sum_congr rfl fun k _ => hX k q)

/-- One point's step on the second accumulator: the squares of block m of the rows are added. -/
theorem step_sq (f : S50000x128.Idx → EReal) (m : ℕ) (X : Vec Ideal S5000x128 .f32)
    (hX : ∀ (k : Fin 5000) (q : Fin 128), X (ix2 k q) = rowAt f (m * 5000 + k.val) q) :
    k10_pay5 (F := Ideal) X (sumBelow (sq f) (m * 5000)) = sumBelow (sq f) ((m + 1) * 5000) := by
  funext i
  obtain ⟨u, q, rfl⟩ : ∃ (u : Fin 1) (q : Fin 128), i = ix2 u q := ⟨i 0, i 1, eq_ix2 i⟩
  obtain rfl : u = 0 := Subsingleton.elim _ _
  rw [pay5_at, Nat.succ_mul, ← sumBelow_step]
  refine congrArg (sumBelow (sq f) (m * 5000) (ix2 0 q) + ·) (Finset.sum_congr rfl fun k _ => ?_)
  rw [hX k q]
  rfl

/-- The index maps over the ten points: the tiled window sits at row block t, the accumulators at the origin. -/
theorem idx_facts : ∀ t : Fin cfg10.N,
    win10_0.index t (0 : Fin 2) = t.val ∧ win10_0.index t (1 : Fin 2) = 0 :=
  (by decide +kernel : ∀ t : Fin grid10.N, _)

/-- Block t of the tiled window read at row k and lane q is row t · 5000 + k of the array. -/
theorem blk0_read (c : Dev nD) (X : Buf (Elt Ideal) ((c : Thread nD τ).loc (Pipeline.arrRef spec10 0))) (t : Fin cfg10.N)
    (k : Fin 5000) (q : Fin 128) :
    (((cfg10.win 0).blk t).view.read (Elt Ideal) X : Vec Ideal S5000x128 .f32) (ix2 k q) = rowAt X (t.val * 5000 + k.val) q := by
  have hi := idx_facts t
  have hN : t.val < 10 := lt_of_lt_of_eq t.isLt (show cfg10.N = 10 from N_10)
  unfold rowAt
  rw [View.read_apply]
  refine congrArg X ?_
  funext a
  apply Fin.ext
  match a with
  | ⟨0, _⟩ =>
    show win10_0.index t 0 * 5000 + 1 * k.val = (t.val * 5000 + k.val) % 50000
    rw [hi.1, Nat.mod_eq_of_lt (by omega)]; omega
  | ⟨1, _⟩ =>
    show win10_0.index t 1 * 128 + 1 * q.val = q.val
    rw [hi.2]; omega

/-- The last point's block of the first accumulator's window is its whole array. -/
theorem cover1 (c : Dev nD) (i : ((cfg10.win 1).arr.view.loc (c.tc : Thread nD τ)).2.ty.Idx) :
    ∃ t : Fin cfg10.N, (cfg10.win 1).flush t = true ∧ i ∈ ((cfg10.win 1).blk t).view.set :=
  ⟨t10_9, (flush10_1 t10_9).mpr rfl, by
    show i ∈ ((View.whole main_v177_0).slice (win10_1.rect t10_9)).set
    rw [View.set_slice_whole, Rect.mem_set_unit]
    intro a
    have h0 : (i 0 : Nat) < 1 := (i 0).isLt
    have h1 : (i 1 : Nat) < 128 := (i 1).isLt
    match a with
    | ⟨0, _⟩ =>
      show win10_1.index t10_9 0 * win10_1.size 0 ≤ (i 0 : Nat) ∧ (i 0 : Nat) < win10_1.index t10_9 0 * win10_1.size 0 + win10_1.xsize (grid10.coords t10_9) 0
      rw [show win10_1.index t10_9 0 * win10_1.size 0 = 0 from by decide +kernel, show win10_1.xsize (grid10.coords t10_9) 0 = 1 from by decide +kernel]; omega
    | ⟨1, _⟩ =>
      show win10_1.index t10_9 1 * win10_1.size 1 ≤ (i 1 : Nat) ∧ (i 1 : Nat) < win10_1.index t10_9 1 * win10_1.size 1 + win10_1.xsize (grid10.coords t10_9) 1
      rw [show win10_1.index t10_9 1 * win10_1.size 1 = 0 from by decide +kernel, show win10_1.xsize (grid10.coords t10_9) 1 = 128 from by decide +kernel]; omega⟩

/-- The last point's block of the second accumulator's window is its whole array. -/
theorem cover2 (c : Dev nD) (i : ((cfg10.win 2).arr.view.loc (c.tc : Thread nD τ)).2.ty.Idx) :
    ∃ t : Fin cfg10.N, (cfg10.win 2).flush t = true ∧ i ∈ ((cfg10.win 2).blk t).view.set :=
  ⟨t10_9, (flush10_2 t10_9).mpr rfl, by
    show i ∈ ((View.whole main_v177_1).slice (win10_2.rect t10_9)).set
    rw [View.set_slice_whole, Rect.mem_set_unit]
    intro a
    have h0 : (i 0 : Nat) < 1 := (i 0).isLt
    have h1 : (i 1 : Nat) < 128 := (i 1).isLt
    match a with
    | ⟨0, _⟩ =>
      show win10_2.index t10_9 0 * win10_2.size 0 ≤ (i 0 : Nat) ∧ (i 0 : Nat) < win10_2.index t10_9 0 * win10_2.size 0 + win10_2.xsize (grid10.coords t10_9) 0
      rw [show win10_2.index t10_9 0 * win10_2.size 0 = 0 from by decide +kernel, show win10_2.xsize (grid10.coords t10_9) 0 = 1 from by decide +kernel]; omega
    | ⟨1, _⟩ =>
      show win10_2.index t10_9 1 * win10_2.size 1 ≤ (i 1 : Nat) ∧ (i 1 : Nat) < win10_2.index t10_9 1 * win10_2.size 1 + win10_2.xsize (grid10.coords t10_9) 1
      rw [show win10_2.index t10_9 1 * win10_2.size 1 = 0 from by decide +kernel, show win10_2.xsize (grid10.coords t10_9) 1 = 128 from by decide +kernel]; omega⟩

theorem hz : (![0, 0] : Fin 2 → Nat) = fun _ => 0 := funext fun a => by fin_cases a <;> rfl

section Pieces
variable {F : FTy → Type} [FloatOps F]

/-- At a later point the first accumulator is left at the body's sum row over the block and the running row. -/
theorem out_B_1 (c : Dev nD) (i : grid10.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond10_0 i) (x : Vec F S5000x128 .f32) (xo1 xo2 : Vec F S1x128 .f32) :
    out10_B_1 c i a1 h1 a2 h2 a3 h3 hc x xo1 xo2 = k10_pay4 x xo1 := by
  unfold out10_B_1
  rw [View.read_writes_eq_canon _ _ _ (cover10_B_1 c i a1 h1 a2 h2 a3 h3 hc x xo1 xo2)]
  unfold kernelRun10_B
  dsimp only
  sl_unfold_words
  rw [View.canon_unit_zero hz]
  simp only [View.readAt_eq_ld, h1.read_unread, h2.read_unread, View.ld_unit_zero (S := S5000x128) hz,
    View.ld_unit_zero (S := S1x128) hz]

/-- At a later point the second accumulator is left at the body's sum-of-squares row over the block and the running row. -/
theorem out_B_2 (c : Dev nD) (i : grid10.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond10_0 i) (x : Vec F S5000x128 .f32) (xo1 xo2 : Vec F S1x128 .f32) :
    out10_B_2 c i a1 h1 a2 h2 a3 h3 hc x xo1 xo2 = k10_pay5 x xo2 := by
  unfold out10_B_2
  rw [View.read_writes_eq_canon _ _ _ (cover10_B_2 c i a1 h1 a2 h2 a3 h3 hc x xo1 xo2)]
  unfold kernelRun10_B
  dsimp only
  sl_unfold_words
  rw [View.canon_unit_zero hz]
  simp only [View.readAt_eq_ld, h1.read_unread, h3.read_unread, View.ld_unit_zero (S := S5000x128) hz,
    View.ld_unit_zero (S := S1x128) hz]

/-- At the first point the first accumulator is reset to the zero row, read back, and left at the body's sum row over it. -/
theorem out_A_1 (c : Dev nD) (i : grid10.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond10_0 i) (x : Vec F S5000x128 .f32) :
    out10_A_1 c i a1 h1 a2 h2 a3 h3 hc x = k10_pay4 x k10_pay1 := by
  unfold out10_A_1
  rw [View.read_writes_eq_canon _ _ _ (cover10_A_1 c i a1 h1 a2 h2 a3 h3 hc x)]
  unfold kernelRun10_A
  dsimp only
  sl_unfold_words
  rw [View.canon_cons_unit_zero (S := S1x128) hz, View.readCov_unit_zero (S := S1x128) _ hz]
  simp only [View.readAt_eq_ld, h1.read_unread, View.ld_unit_zero (S := S5000x128) hz]

/-- At the first point the second accumulator likewise. -/
theorem out_A_2 (c : Dev nD) (i : grid10.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond10_0 i) (x : Vec F S5000x128 .f32) :
    out10_A_2 c i a1 h1 a2 h2 a3 h3 hc x = k10_pay5 x k10_pay2 := by
  unfold out10_A_2
  rw [View.read_writes_eq_canon _ _ _ (cover10_A_2 c i a1 h1 a2 h2 a3 h3 hc x)]
  unfold kernelRun10_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

variable (V : (c : Dev nD) → (b : Ref sig .tc) → Buf (Elt Ideal) ((c : Thread nD τ).loc b))

/-- The tiled window's block at point t, read at row k and lane q, is row t · 5000 + k of the array the region finds. -/
theorem iblk_at (c : Dev nD) (t : Fin cfg10.N) (k : Fin 5000) (q : Fin 128) :
    (iblk10 V c 0 t : Vec Ideal S5000x128 .f32) (ix2 k q) = rowAt (V c (Pipeline.arrRef spec10 0)) (t.val * 5000 + k.val) q := by
  unfold iblk10
  exact blk0_read c (V c (Pipeline.arrRef spec10 0)) t k q

/-- After point n the two accumulators hold the column sums, and the column sums of squares, of the rows below (n + 1) · 5000:
    by induction on the point. -/
theorem outsAt_eq (c : Dev nD) : ∀ (n : ℕ) (h : n < cfg10.N),
    outsAt10 V c n h = (sumBelow (V c (Pipeline.arrRef spec10 0)) ((n + 1) * 5000),
      sumBelow (sq (V c (Pipeline.arrRef spec10 0))) ((n + 1) * 5000)) := by
  intro n
  induction n with
  | zero =>
    intro h
    rw [outsAt10_A V c ⟨0, h⟩ rfl]
    refine Prod.ext ?_ ?_
    · dsimp only
      refine (out_A_1 (F := Ideal) c (grid10.coords ⟨0, h⟩) (ms10_0 ⟨0, h⟩) (hs10_0 ⟨0, h⟩) (ms10_1 ⟨0, h⟩) (hs10_1 ⟨0, h⟩)
        (ms10_2 ⟨0, h⟩) (hs10_2 ⟨0, h⟩) _ (iblk10 V c 0 ⟨0, h⟩)).trans ?_
      rw [reset_eq (V c (Pipeline.arrRef spec10 0))]
      exact step_sum (V c (Pipeline.arrRef spec10 0)) 0 (iblk10 V c 0 ⟨0, h⟩) (fun k q => iblk_at V c ⟨0, h⟩ k q)
    · dsimp only
      refine (out_A_2 (F := Ideal) c (grid10.coords ⟨0, h⟩) (ms10_0 ⟨0, h⟩) (hs10_0 ⟨0, h⟩) (ms10_1 ⟨0, h⟩) (hs10_1 ⟨0, h⟩)
        (ms10_2 ⟨0, h⟩) (hs10_2 ⟨0, h⟩) _ (iblk10 V c 0 ⟨0, h⟩)).trans ?_
      rw [reset_eq' (sq (V c (Pipeline.arrRef spec10 0)))]
      exact step_sq (V c (Pipeline.arrRef spec10 0)) 0 (iblk10 V c 0 ⟨0, h⟩) (fun k q => iblk_at V c ⟨0, h⟩ k q)
  | succ n ih =>
    intro h
    have hN : cfg10.N = 10 := N_10
    have hB : ¬(⟨n + 1, h⟩ : Fin cfg10.N).val % 10 = 0 := by dsimp only; omega
    have e := outsAt10_B V c ⟨n + 1, h⟩ hB
    have ih' : outsAt10 V c ((⟨n + 1, h⟩ : Fin cfg10.N).val - 1)
        (Nat.lt_of_le_of_lt (Nat.sub_le _ _) (⟨n + 1, h⟩ : Fin cfg10.N).isLt)
        = (sumBelow (V c (Pipeline.arrRef spec10 0)) ((n + 1) * 5000),
            sumBelow (sq (V c (Pipeline.arrRef spec10 0))) ((n + 1) * 5000)) := ih _
    rw [ih'] at e
    refine e.trans (Prod.ext ?_ ?_)
    · dsimp only
      refine (out_B_1 (F := Ideal) c (grid10.coords ⟨n + 1, h⟩) (ms10_0 ⟨n + 1, h⟩) (hs10_0 ⟨n + 1, h⟩) (ms10_1 ⟨n + 1, h⟩)
        (hs10_1 ⟨n + 1, h⟩) (ms10_2 ⟨n + 1, h⟩) (hs10_2 ⟨n + 1, h⟩) _ (iblk10 V c 0 ⟨n + 1, h⟩) _ _).trans ?_
      exact step_sum (V c (Pipeline.arrRef spec10 0)) (n + 1) (iblk10 V c 0 ⟨n + 1, h⟩) (fun k q => iblk_at V c ⟨n + 1, h⟩ k q)
    · dsimp only
      refine (out_B_2 (F := Ideal) c (grid10.coords ⟨n + 1, h⟩) (ms10_0 ⟨n + 1, h⟩) (hs10_0 ⟨n + 1, h⟩) (ms10_1 ⟨n + 1, h⟩)
        (hs10_1 ⟨n + 1, h⟩) (ms10_2 ⟨n + 1, h⟩) (hs10_2 ⟨n + 1, h⟩) _ (iblk10 V c 0 ⟨n + 1, h⟩) _ _).trans ?_
      exact step_sq (V c (Pipeline.arrRef spec10 0)) (n + 1) (iblk10 V c 0 ⟨n + 1, h⟩) (fun k q => iblk_at V c ⟨n + 1, h⟩ k q)

/-- The one write-back of the first accumulator, at the last point, writes the column sums over all rows. -/
theorem flushed1_eq (c : Dev nD) (t : Fin cfg10.N) (hf : (cfg10.win 1).flush t = true) :
    (dat10 V c).flushed 1 t = ((cfg10.win 1).blk t).view.read (Elt Ideal) (colSums (V c (Pipeline.arrRef spec10 0))) := by
  have hN : cfg10.N = 10 := N_10
  have h9 : t.val = 9 := by have := (flush10_1 t).mp hf; have := t.isLt; omega
  obtain rfl : t = t10_9 := Fin.ext h9
  show (cfg10.win 1).cut (grid10.coords t10_9) ((dat10 V c).after 1 t10_9) = _
  rw [after10_1, outsAt_eq V c]
  show (cfg10.win 1).cut (grid10.coords t10_9) (sumBelow (V c (Pipeline.arrRef spec10 0)) 50000) = _
  rw [sumBelow_all]
  have hz' : (fun a => win10_1.index t10_9 a * main_v177_0.ty.shape.size a) = fun _ => 0 := funext fun a => by fin_cases a <;> decide
  exact (Memref.read_access_unit_zero (Elt Ideal) main_v177_0 hz' (fun a => by rw [congrFun hz' a]; simp) _).symm

/-- The one write-back of the second accumulator, at the last point, writes the column sums of squares over all rows. -/
theorem flushed2_eq (c : Dev nD) (t : Fin cfg10.N) (hf : (cfg10.win 2).flush t = true) :
    (dat10 V c).flushed 2 t = ((cfg10.win 2).blk t).view.read (Elt Ideal) (colSumSqs (V c (Pipeline.arrRef spec10 0))) := by
  have hN : cfg10.N = 10 := N_10
  have h9 : t.val = 9 := by have := (flush10_2 t).mp hf; have := t.isLt; omega
  obtain rfl : t = t10_9 := Fin.ext h9
  show (cfg10.win 2).cut (grid10.coords t10_9) ((dat10 V c).after 2 t10_9) = _
  rw [after10_2, outsAt_eq V c]
  show (cfg10.win 2).cut (grid10.coords t10_9) (sumBelow (sq (V c (Pipeline.arrRef spec10 0))) 50000) = _
  rw [sumBelow_all]
  have hz' : (fun a => win10_2.index t10_9 a * main_v177_1.ty.shape.size a) = fun _ => 0 := funext fun a => by fin_cases a <;> decide
  exact (Memref.read_access_unit_zero (Elt Ideal) main_v177_1 hz' (fun a => by rw [congrFun hz' a]; simp) _).symm

/-- The first accumulator's array ends holding, at lane q, the zero word plus the sum over all 50000 rows of the input at lane q. -/
theorem final1 (c : Dev nD) : (dat10 V c).arrAt 1 cfg10.N = colSums (V c (Pipeline.arrRef spec10 0)) :=
  (dat10 V c).arrAt_eq_of_cover 1 (colSums (V c (Pipeline.arrRef spec10 0))) (flushed1_eq V c) (cover1 c)

/-- The second accumulator's array ends holding, at lane q, the zero word plus the sum over all rows of the squares at lane q. -/
theorem final2 (c : Dev nD) : (dat10 V c).arrAt 2 cfg10.N = colSumSqs (V c (Pipeline.arrRef spec10 0)) :=
  (dat10 V c).arrAt_eq_of_cover 2 (colSumSqs (V c (Pipeline.arrRef spec10 0))) (flushed2_eq V c) (cover2 c)

end Cert.KernelIdeal.Region10

end
-- ==== Proof.Stage22.lean ====
/-
  The reduction region's two outputs at its exit: the column sums and column sums of squares of the rectified layer in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region10
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f22_v177_0 (c : Dev nD)
    (h79 : W21 m ρ c (Proc.devRef .tc main_v176) = pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) :
    W22 m ρ c (Proc.devRef .tc main_v177_0) = Cert.KernelIdeal.Region10.colSums (pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) := by
  refine ((W22_arr m ρ c 1).trans (Cert.KernelIdeal.Region10.final1 (V21 m ρ) c)).trans ?_
  show Cert.KernelIdeal.Region10.colSums (W21 m ρ c (Proc.devRef .tc main_v176)) = _
  rw [h79]

theorem f22_v177_1 (c : Dev nD)
    (h79 : W21 m ρ c (Proc.devRef .tc main_v176) = pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) :
    W22 m ρ c (Proc.devRef .tc main_v177_1) = Cert.KernelIdeal.Region10.colSumSqs (pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))) := by
  refine ((W22_arr m ρ c 2).trans (Cert.KernelIdeal.Region10.final2 (V21 m ρ) c)).trans ?_
  show Cert.KernelIdeal.Region10.colSumSqs (W21 m ρ c (Proc.devRef .tc main_v176)) = _
  rw [h79]

end Cert.KernelIdeal.Stage

end
-- ==== Proof.Stage23.lean ====
/-
  The twelfth stretch: the four [1, 128] rows the second layer's graph normalisation reads — the row of scaled means, the
  row of reciprocal standard deviations about the scaled mean, the scale and shift rows — by the first layer's facts about
  packed column sums, at the second layer's array.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region10
import proofs.«106696_j33449205301454_2_alg».proof.Proof.Stage11
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (ρ : Dev nD → PrngReg)

open Cert.ReferenceIdeal.Read

set_option maxHeartbeats 4000000 in
/-- The row of scaled means. -/
theorem f23_v203 (c : Dev nD)
    (g1 : W22 m ρ c (Proc.devRef .tc main_v177_0) = Cert.KernelIdeal.Region10.colSums (pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))))) :
    W23 m ρ c (Proc.devRef .tc main_v203) = rowDouble (Cert.ReferenceIdeal.Read.val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg26))) := by
  show StableHlo.after hostOps11 (W22 m ρ c) (Proc.devRef .tc main_v203) = _
  after_results
  rw [g1, Keep.keep_arg26_22_0 m ρ c]
  exact congrArg rowDouble (GN.kScaled_eq (m ((c : Thread nD τ).loc main_arg26)) (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) _ (fun l => Cert.KernelIdeal.Region10.colSums_apply _ l))

set_option maxHeartbeats 2000000 in
set_option maxHeartbeats 4000000 in
/-- The row of reciprocal standard deviations about the scaled mean. -/
theorem f23_v205 (c : Dev nD)
    (g1 : W22 m ρ c (Proc.devRef .tc main_v177_0) = Cert.KernelIdeal.Region10.colSums (pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))))
    (g2 : W22 m ρ c (Proc.devRef .tc main_v177_1) = Cert.KernelIdeal.Region10.colSumSqs (pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)))))
    (hreal : ∀ i, ∃ r : ℝ, (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) i = (r : EReal))
    (ha : ∀ i, ∃ r : ℝ, (m ((c : Thread nD τ).loc main_arg26)) i = (r : EReal)) :
    W23 m ρ c (Proc.devRef .tc main_v205) = rowDouble (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg26))) := by
  show StableHlo.after hostOps11 (W22 m ρ c) (Proc.devRef .tc main_v205) = _
  after_results
  rw [g1, g2, Keep.keep_arg26_22_0 m ρ c]
  exact congrArg rowDouble (GN.kRstd_eq (m ((c : Thread nD τ).loc main_arg26)) (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) _ _ (fun l => Cert.KernelIdeal.Region10.colSums_apply _ l)
    (fun l => Cert.KernelIdeal.Region10.colSumSqs_apply _ l) hreal ha)

set_option maxHeartbeats 4000000 in
/-- The scale row. -/
theorem f23_v207 (c : Dev nD) : W23 m ρ c (Proc.devRef .tc main_v207) = rowDouble (m ((c : Thread nD τ).loc main_arg24)) := by
  show StableHlo.after hostOps11 (W22 m ρ c) (Proc.devRef .tc main_v207) = _
  after_results
  rw [Keep.keep_arg24_22_0 m ρ c]
  rfl

set_option maxHeartbeats 4000000 in
/-- The shift row. -/
theorem f23_v209 (c : Dev nD) : W23 m ρ c (Proc.devRef .tc main_v209) = rowDouble (m ((c : Thread nD τ).loc main_arg25)) := by
  show StableHlo.after hostOps11 (W22 m ρ c) (Proc.devRef .tc main_v209) = _
  after_results
  rw [Keep.keep_arg25_22_0 m ρ c]
  rfl

end Cert.KernelIdeal.Stage

end
-- ==== Proof.Region11.lean ====
/-
  Region 11 (graph normalisation and rectifier on the packed view): for the contents V the region is entered with,
  the output array ends holding, at every (r, l) of the [50000, 128] view,
      max (g l · (x (r, l) − aμ l) · s l + b l) 0,
  x the first window's array and the other four windows the [1, 128] rows, read at the entry's lane. Each of the ten
  grid points writes the 5000 rows of its block.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region11

open Cert.KernelIdeal Cert.KernelIdeal.Gen Idealize.ShloMosaic Idealize.ShloMosaic.TcCoe Idealize.SL.Sem
open Idealize.ShloMosaic.ValueIdx
open Idealize.ShloMosaic.Pipeline (Dat)

/-- The normalised and rectified entry: window 0's array at the entry, windows 1 to 4's rows at its lane. -/
def gnRelu (X : S50000x128.Idx → EReal) (MU S G B : S1x128.Idx → EReal) : S50000x128.Idx → EReal :=
  fun i => max (G (ix2 (n0 := 1) (n1 := 128) 0 ⟨(i 1).val, (i 1).isLt⟩) * (X i - MU (ix2 (n0 := 1) (n1 := 128) 0 ⟨(i 1).val, (i 1).isLt⟩)) * S (ix2 (n0 := 1) (n1 := 128) 0 ⟨(i 1).val, (i 1).isLt⟩) + B (ix2 (n0 := 1) (n1 := 128) 0 ⟨(i 1).val, (i 1).isLt⟩)) (Ideal.ofBits .f32 0x00000000#32)

theorem gnRelu_apply (X : S50000x128.Idx → EReal) (MU S G B : S1x128.Idx → EReal) (r : Fin 50000) (l : Fin 128) :
    gnRelu X MU S G B (ix2 r l) = max (G (ix2 0 l) * (X (ix2 r l) - MU (ix2 0 l)) * S (ix2 0 l) + B (ix2 0 l)) (Ideal.ofBits .f32 0x00000000#32) := rfl

/-- The body's stored value at an entry (p, l) of the block. -/
theorem pay_at (x : Vec Ideal S5000x128 .f32) (mu s g b : Vec Ideal S1x128 .f32) (p : Fin 5000) (l : Fin 128) :
    k11_pay1 (F := Ideal) x mu g s b (ix2 p l) = max (g (ix2 0 l) * (x (ix2 p l) - mu (ix2 0 l)) * s (ix2 0 l) + b (ix2 0 l)) (Ideal.ofBits .f32 0x00000000#32) := by
  unfold k11_pay1
  simp only [shapeCast_self, maximumf_apply, mulf_apply, addf_apply, subf_apply, broadcast_apply,
    broadcastTo_1b_ab_apply]
  rfl

/-- One block against the array: if the block's rows are the array's rows n · 5000 + p and the four rows are read
    whole, the stored value at (p, l) is the specification at (n · 5000 + p, l). -/
theorem blk_at (X : S50000x128.Idx → EReal) (MU S G B : S1x128.Idx → EReal)
    (x : Vec Ideal S5000x128 .f32) (mu s g b : Vec Ideal S1x128 .f32) (n : Nat) (hn : n < 10)
    (hx : ∀ (p : Fin 5000) (l : Fin 128), x (ix2 p l) = X (ix2 ⟨n * 5000 + p.val, by omega⟩ l))
    (hmu : mu = MU) (hs : s = S) (hg : g = G) (hb : b = B)
    (j : S5000x128.Idx) (i : S50000x128.Idx) (hi0 : (i 0).val = n * 5000 + (j 0).val) (hi1 : (i 1).val = (j 1).val) :
    k11_pay1 (F := Ideal) x mu g s b j = gnRelu X MU S G B i := by
  obtain ⟨p, l, rfl⟩ : ∃ (p : Fin 5000) (l : Fin 128), j = ix2 p l := ⟨j 0, j 1, eq_ix2 j⟩
  have hlt : n * 5000 + p.val < 50000 := by have := p.isLt; omega
  have hi : i = ix2 ⟨n * 5000 + p.val, hlt⟩ l := by
    funext a
    match a with
    | ⟨0, _⟩ => exact Fin.ext hi0
    | ⟨1, _⟩ => exact Fin.ext hi1
  subst hmu hs hg hb
  rw [hi, pay_at, gnRelu_apply, hx p l]

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the four rows at the origin. -/
theorem idx_facts : ∀ t : Fin cfg11.N,
    win11_5.index t (0 : Fin 2) = t.val ∧ win11_5.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

set_option maxHeartbeats 2000000 in
/-- What point t writes back is block t of the specification. -/
theorem flushed_eq (c : Dev nD) (t : Fin cfg11.N) :
    (dat11 V c).flushed 5 t = ((cfg11.win 5).blk t).view.read (Elt Ideal)
      (gnRelu (V c (Pipeline.arrRef spec11 0)) (V c (Pipeline.arrRef spec11 1)) (V c (Pipeline.arrRef spec11 2))
        (V c (Pipeline.arrRef spec11 3)) (V c (Pipeline.arrRef spec11 4))) := by
  show (cfg11.win 5).cut (grid11.coords t) ((dat11 V c).after 5 t) = _
  rw [after11_5]
  unfold out11_5
  rw [View.canon_unit_zero hz]
  simp only [View.ld_unit_zero (S := S5000x128) hz, View.ld_unit_zero (S := S1x128) hz]
  obtain ⟨e50, e51, e00, e01, e10, e11, e20, e21, e30, e31, e40, e41⟩ := idx_facts t
  have ht : t.val < 10 := lt_of_lt_of_eq t.isLt N_11
  funext j
  refine blk_at _ _ _ _ _ _ _ _ _ _ t.val ht ?_ ?_ ?_ ?_ ?_ j _ ?_ ?_
  · intro p l
    show V c (Pipeline.arrRef spec11 0) (((cfg11.win 0).blk t).view.emb (ix2 p l)) = _
    refine congrArg _ (funext fun a => Fin.ext ?_)
    match a with
    | ⟨0, _⟩ => show win11_0.index t (0 : Fin 2) * 5000 + 1 * p.val = t.val * 5000 + p.val; omega
    | ⟨1, _⟩ => show win11_0.index t (1 : Fin 2) * 128 + 1 * l.val = l.val; omega
  · funext y
    show V c (Pipeline.arrRef spec11 1) (((cfg11.win 1).blk t).view.emb y) = _
    refine congrArg _ (funext fun a => Fin.ext ?_)
    match a with
    | ⟨0, _⟩ => show win11_1.index t (0 : Fin 2) * 1 + 1 * (y 0).val = (y 0).val; omega
    | ⟨1, _⟩ => show win11_1.index t (1 : Fin 2) * 128 + 1 * (y 1).val = (y 1).val; omega
  · funext y
    show V c (Pipeline.arrRef spec11 2) (((cfg11.win 2).blk t).view.emb y) = _
    refine congrArg _ (funext fun a => Fin.ext ?_)
    match a with
    | ⟨0, _⟩ => show win11_2.index t (0 : Fin 2) * 1 + 1 * (y 0).val = (y 0).val; omega
    | ⟨1, _⟩ => show win11_2.index t (1 : Fin 2) * 128 + 1 * (y 1).val = (y 1).val; omega
  · funext y
    show V c (Pipeline.arrRef spec11 3) (((cfg11.win 3).blk t).view.emb y) = _
    refine congrArg _ (funext fun a => Fin.ext ?_)
    match a with
    | ⟨0, _⟩ => show win11_3.index t (0 : Fin 2) * 1 + 1 * (y 0).val = (y 0).val; omega
    | ⟨1, _⟩ => show win11_3.index t (1 : Fin 2) * 128 + 1 * (y 1).val = (y 1).val; omega
  · funext y
    show V c (Pipeline.arrRef spec11 4) (((cfg11.win 4).blk t).view.emb y) = _
    refine congrArg _ (funext fun a => Fin.ext ?_)
    match a with
    | ⟨0, _⟩ => show win11_4.index t (0 : Fin 2) * 1 + 1 * (y 0).val = (y 0).val; omega
    | ⟨1, _⟩ => show win11_4.index t (1 : Fin 2) * 128 + 1 * (y 1).val = (y 1).val; omega
  · show win11_5.index t (0 : Fin 2) * 5000 + 1 * (j 0).val = t.val * 5000 + (j 0).val; omega
  · show win11_5.index t (1 : Fin 2) * 128 + 1 * (j 1).val = (j 1).val; omega

/-- An index of the array is in point t's block iff each coordinate is in the block's range on its axis. -/
theorem mem_blk (t : Fin cfg11.N) (i : S50000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v210).slice (win11_5.rect t)).set ↔ _
  rw [View.set_slice_whole, Rect.mem_set_unit]
  exact Iff.rfl

/-- Row r lies in the block of point r / 5000, and every point writes back. -/
theorem cover (i : S50000x128.Idx) :
    ∃ t : Fin cfg11.N, (cfg11.win 5).flush t = true ∧ i ∈ ((cfg11.win 5).blk t).view.set := by
  have hi0 : (i 0).val < 50000 := (i 0).isLt
  have hi1 : (i 1).val < 128 := (i 1).isLt
  have hN : (i 0).val / 5000 < cfg11.N := lt_of_lt_of_eq (by omega : (i 0).val / 5000 < 10) N_11.symm
  obtain ⟨e50, e51, -⟩ := idx_facts ⟨(i 0).val / 5000, hN⟩
  refine ⟨⟨(i 0).val / 5000, hN⟩, flush11_5 _, ?_⟩
  rw [mem_blk]
  intro a
  match a with
  | ⟨0, _⟩ =>
    show win11_5.index ⟨(i 0).val / 5000, hN⟩ (0 : Fin 2) * 5000 ≤ (i 0).val
      ∧ (i 0).val < win11_5.index ⟨(i 0).val / 5000, hN⟩ (0 : Fin 2) * 5000 + 5000
    rw [e50]
    show (i 0).val / 5000 * 5000 ≤ (i 0).val ∧ (i 0).val < (i 0).val / 5000 * 5000 + 5000
    omega
  | ⟨1, _⟩ =>
    show win11_5.index ⟨(i 0).val / 5000, hN⟩ (1 : Fin 2) * 128 ≤ (i 1).val
      ∧ (i 1).val < win11_5.index ⟨(i 0).val / 5000, hN⟩ (1 : Fin 2) * 128 + 128
    rw [e51]
    omega

/-- The output array after the region: the specification of the five input arrays as the region found them. -/
theorem final (c : Dev nD) :
    (dat11 V c).arrAt 5 cfg11.N
      = gnRelu (V c (Pipeline.arrRef spec11 0)) (V c (Pipeline.arrRef spec11 1)) (V c (Pipeline.arrRef spec11 2))
        (V c (Pipeline.arrRef spec11 3)) (V c (Pipeline.arrRef spec11 4)) :=
  (dat11 V c).arrAt_eq_of_cover 5 _ (fun t _ => flushed_eq V c t) cover

end Cert.KernelIdeal.Region11

end
-- ==== Proof.Math24.lean ====
/-
  The second layer's graph normalisation with its rectifier, as the region computes it on the packed view, is the
  reference's stage read through the packed view: entry (r, l) of the packed array is entry (2r + l / 64, l % 64) of
  the [100000, 64] one, and there both sides are  max ((g · (x − aμ)) · s + b) 0  with the same association.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.LibPacked
import proofs.«106696_j33449205301454_2_alg».proof.Proof.Region11
import proofs.«106696_j33449205301454_2_alg».proof.Proof.Math12
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M24

theorem idx206207 (p : Fin 100000) (q : Fin 64) : idx_main_v206 (idx_main_v207 (ix2 p q)) = ix1 q :=
  funext fun a => Fin.ext (by match a with | ⟨0, _⟩ => rfl)
theorem idx199200 (p : Fin 100000) (q : Fin 64) : idx_main_v199 (idx_main_v200 (ix2 p q)) = ix1 q :=
  funext fun a => Fin.ext (by match a with | ⟨0, _⟩ => rfl)
theorem idx212213 (p : Fin 100000) (q : Fin 64) : idx_main_v212 (idx_main_v213 (ix2 p q)) = ix1 q :=
  funext fun a => Fin.ext (by match a with | ⟨0, _⟩ => rfl)
theorem idx215216 (p : Fin 100000) (q : Fin 64) : idx_main_v215 (idx_main_v216 (ix2 p q)) = ix1 q :=
  funext fun a => Fin.ext (by match a with | ⟨0, _⟩ => rfl)

end M24

theorem gn1b (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64, .f32⟩ : BufTy).Contents (Elt Ideal)) :
    Cert.KernelIdeal.Region11.gnRelu (pack (Cert.ReferenceIdeal.Read.val_main_v194 (F := Ideal) x0 x1 x2 x3 x4 x5 x6 x7 x8 x9 x10 x11 x12 x13 x14 x15 x16 x17 x18 x19 x20 x21 x22 x23)) (rowDouble (Cert.ReferenceIdeal.Read.val_main_v198 (F := Ideal) x0 x1 x2 x3 x4 x5 x6 x7 x8 x9 x10 x11 x12 x13 x14 x15 x16 x17 x18 x19 x20 x21 x22 x23 x26)) (rowDouble (Cert.ReferenceIdeal.Read.val_main_v211 (F := Ideal) x0 x1 x2 x3 x4 x5 x6 x7 x8 x9 x10 x11 x12 x13 x14 x15 x16 x17 x18 x19 x20 x21 x22 x23 x26)) (rowDouble x24) (rowDouble x25)
      = pack (Cert.ReferenceIdeal.Read.val_main_v218 (F := Ideal) x0 x1 x2 x3 x4 x5 x6 x7 x8 x9 x10 x11 x12 x13 x14 x15 x16 x17 x18 x19 x20 x21 x22 x23 x24 x25 x26) := by
  funext i
  obtain ⟨r, l, rfl⟩ : ∃ (r : Fin 50000) (l : Fin 128), i = ix2 r l := ⟨i 0, i 1, eq_ix2 i⟩
  obtain ⟨p, hp⟩ : ∃ p : Fin 100000, p.val = 2 * r.val + l.val / 64 :=
    ⟨⟨2 * r.val + l.val / 64, by have := r.isLt; have := l.isLt; omega⟩, rfl⟩
  obtain ⟨q, hq⟩ : ∃ q : Fin 64, q.val = l.val % 64 := ⟨⟨l.val % 64, Nat.mod_lt _ (by norm_num)⟩, rfl⟩
  rw [Cert.KernelIdeal.Region11.gnRelu_apply, M12.pack_at _ r l p q hp hq, M12.pack_at _ r l p q hp hq,
    M12.rowDouble_at _ l q hq, M12.rowDouble_at _ l q hq, M12.rowDouble_at _ l q hq, M12.rowDouble_at _ l q hq]
  rw [val_main_v218_apply, val_main_v217_apply, val_main_v214_apply, val_main_v208_apply, val_main_v207_apply,
    val_main_v206_apply, val_main_v201_apply, val_main_v200_apply, val_main_v199_apply, val_main_v213_apply, val_main_v212_apply,
    val_main_v216_apply, val_main_v215_apply, val_main_call5_v0_apply, val_main_call5_cst_apply,
    M24.idx206207, M24.idx199200, M24.idx212213, M24.idx215216]
  simp only [Ideal.mulf_def, Ideal.addf_def, Ideal.subf_def, Ideal.maximumf_def, Ideal.ofBits_def]

end Cert.KernelIdeal.Stage

end
-- ==== Proof.Stage24.lean ====
/-
  The graph-normalisation region's output at its exit: the normalised and rectified layer, in the packed view.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region11
import proofs.«106696_j33449205301454_2_alg».proof.Proof.Math24
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem f24_v210 (c : Dev nD)
    (h79 : W21 m ρ c (Proc.devRef .tc main_v176) = pack (Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))))
    (h106 : W23 m ρ c (Proc.devRef .tc main_v203) = rowDouble (Cert.ReferenceIdeal.Read.val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg26))))
    (h108 : W23 m ρ c (Proc.devRef .tc main_v205) = rowDouble (Cert.ReferenceIdeal.Read.val_main_v211 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg26))))
    (h110 : W23 m ρ c (Proc.devRef .tc main_v207) = rowDouble (m ((c : Thread nD τ).loc main_arg24)))
    (h112 : W23 m ρ c (Proc.devRef .tc main_v209) = rowDouble (m ((c : Thread nD τ).loc main_arg25))) :
    W24 m ρ c (Proc.devRef .tc main_v210) = pack (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) := by
  refine ((W24_arr m ρ c 5).trans (Cert.KernelIdeal.Region11.final (V23 m ρ) c)).trans ?_
  show Cert.KernelIdeal.Region11.gnRelu (W23 m ρ c (Proc.devRef .tc main_v176)) (W23 m ρ c (Proc.devRef .tc main_v203)) (W23 m ρ c (Proc.devRef .tc main_v205)) (W23 m ρ c (Proc.devRef .tc main_v207)) (W23 m ρ c (Proc.devRef .tc main_v209)) = _
  rw [Keep.keep_v176_23_21 m ρ c, h79, h106, h108, h110, h112]
  exact gn1b _ _ _ _ _ _ _ _ _ _ _ _ _ _ _ _ _ _ _ _ _ _ _ _ _ _ _

end Cert.KernelIdeal.Stage

end
-- ==== Proof.Region12.lean ====
/-
  Region 12 (the closing linear layer): for the contents V the region is entered with, the output array ends
  holding, at every (p, q) of the [100000, 16] result,
      (∑ k : Fin 64, x (p, k) · W (k, q)) + b (0, q),
  x the first window's [100000, 64] array, W the [64, 16] weights, b the [1, 16] bias row. Each of the ten grid
  points writes the 10000 rows of its block; the matrix product runs into a zero accumulator, so an entry is
  the plain sum over the contracted axis.
-/
import proofs.«106696_j33449205301454_2_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region12

open Cert.KernelIdeal Cert.KernelIdeal.Gen Idealize.ShloMosaic Idealize.ShloMosaic.TcCoe Idealize.SL.Sem
open Idealize.ShloMosaic.ValueIdx
open Idealize.ShloMosaic.Pipeline (Dat)

/-- A matrix product of an [M, K] by a [K, N] matrix into the zero accumulator, read at (p, q): the sum over the
    contracted coordinate k of x (p, k) · w (k, q). The four hypotheses say which operand coordinate each of the
    product's index maps takes from the output index and which from the contraction index. -/
theorem matmul_zero_rc {M K N : Nat} {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The linear layer's entry: row p of x against column q of W, plus the bias row at q. -/
def linOut (x : S100000x64.Idx → EReal) (W : S64x16.Idx → EReal) (b : S1x16.Idx → EReal) : S100000x16.Idx → EReal :=
  fun i => (∑ k : Fin 64, x (ix2 (n0 := 100000) (n1 := 64) ⟨(i 0).val, (i 0).isLt⟩ k)
      * W (ix2 (n0 := 64) (n1 := 16) k ⟨(i 1).val, (i 1).isLt⟩))
    + b (ix2 (n0 := 1) (n1 := 16) 0 ⟨(i 1).val, (i 1).isLt⟩)

theorem linOut_apply (x : S100000x64.Idx → EReal) (W : S64x16.Idx → EReal) (b : S1x16.Idx → EReal)
    (p : Fin 100000) (q : Fin 16) :
    linOut x W b (ix2 p q) = (∑ k : Fin 64, x (ix2 p k) * W (ix2 k q)) + b (ix2 0 q) := rfl

/-! The product's index maps: the left operand takes its row from the output and its column from the contraction, the
    right operand its row from the contraction and its column from the output. -/

theorem dot_l0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem dot_l1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem dot_r0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem dot_r1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The body's stored value at an entry (p, q) of the block: the block's row p against W's column q, plus the bias. -/
theorem pay_at (x : Vec Ideal S10000x64 .f32) (w : Vec Ideal S64x16 .f32) (b : Vec Ideal S1x16 .f32)
    (p : Fin 10000) (q : Fin 16) :
    k12_pay1 (F := Ideal) x w b (ix2 p q) = (∑ k : Fin 64, x (ix2 p k) * w (ix2 k q)) + b (ix2 0 q) := by
  unfold k12_pay1
  simp only [shapeCast_self, addf_apply, broadcastTo_1b_ab_apply]
  refine congrArg (· + b (ix2 0 q)) ?_
  exact matmul_zero_rc dot_S10000x64_S64x16_S10000x16_1_0_0_1_n_n rfl rfl dot_l0 dot_l1 dot_r0 dot_r1 none x w p q

/-- One block against the array: if the block's x rows are the array's rows n · 10000 + p, and the weights and bias
    are read whole, the stored value at (p, q) is the specification at (n · 10000 + p, q). -/
theorem blk_at (X : S100000x64.Idx → EReal) (W : S64x16.Idx → EReal) (B : S1x16.Idx → EReal)
    (x : Vec Ideal S10000x64 .f32) (w : Vec Ideal S64x16 .f32) (b : Vec Ideal S1x16 .f32) (n : Nat) (hn : n < 10)
    (hx : ∀ (p : Fin 10000) (k : Fin 64), x (ix2 p k) = X (ix2 ⟨n * 10000 + p.val, by omega⟩ k))
    (hw : w = W) (hb : b = B)
    (j : S10000x16.Idx) (i : S100000x16.Idx) (hi0 : (i 0).val = n * 10000 + (j 0).val) (hi1 : (i 1).val = (j 1).val) :
    k12_pay1 (F := Ideal) x w b j = linOut X W B i := by
  obtain ⟨p, q, rfl⟩ : ∃ (p : Fin 10000) (q : Fin 16), j = ix2 p q := ⟨j 0, j 1, eq_ix2 j⟩
  have hlt : n * 10000 + p.val < 100000 := by have := p.isLt; omega
  have hi : i = ix2 ⟨n * 10000 + p.val, hlt⟩ q := by
    funext a
    match a with
    | ⟨0, _⟩ => exact Fin.ext hi0
    | ⟨1, _⟩ => exact Fin.ext hi1
  subst hw hb
  rw [hi, pay_at, linOut_apply]
  exact congrArg (· + b (ix2 0 q)) (Finset.sum_congr rfl fun k _ => congrArg (· * w (ix2 k q)) (hx p k))

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tiled windows sit at row block t, the weights and the bias at the origin. -/
theorem idx_facts : ∀ t : Fin cfg12.N,
    win12_3.index t (0 : Fin 2) = t.val ∧ win12_3.index t (1 : Fin 2) = 0
    ∧ win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0 :=
  (by decide +kernel : ∀ t : Fin grid12.N, _)

/-- What point t writes back is block t of the specification. -/
theorem flushed_eq (c : Dev nD) (t : Fin cfg12.N) :
    (dat12 V c).flushed 3 t = ((cfg12.win 3).blk t).view.read (Elt Ideal)
      (linOut (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz]
  simp only [View.ld_unit_zero (S := S10000x64) hz, View.ld_unit_zero (S := S64x16) hz, View.ld_unit_zero (S := S1x16) hz]
  obtain ⟨e30, e31, e00, e01, e10, e11, e20, e21⟩ := idx_facts t
  have ht : t.val < 10 := lt_of_lt_of_eq t.isLt N_12
  funext j
  refine blk_at _ _ _ _ _ _ t.val ht ?_ ?_ ?_ j _ ?_ ?_
  · intro p k
    show V c (Pipeline.arrRef spec12 0) (((cfg12.win 0).blk t).view.emb (ix2 p k)) = _
    refine congrArg _ (funext fun a => Fin.ext ?_)
    match a with
    | ⟨0, _⟩ => show win12_0.index t (0 : Fin 2) * 10000 + 1 * p.val = t.val * 10000 + p.val; omega
    | ⟨1, _⟩ => show win12_0.index t (1 : Fin 2) * 64 + 1 * k.val = k.val; omega
  · funext y
    show V c (Pipeline.arrRef spec12 1) (((cfg12.win 1).blk t).view.emb y) = _
    refine congrArg _ (funext fun a => Fin.ext ?_)
    match a with
    | ⟨0, _⟩ => show win12_1.index t (0 : Fin 2) * 64 + 1 * (y 0).val = (y 0).val; omega
    | ⟨1, _⟩ => show win12_1.index t (1 : Fin 2) * 16 + 1 * (y 1).val = (y 1).val; omega
  · funext y
    show V c (Pipeline.arrRef spec12 2) (((cfg12.win 2).blk t).view.emb y) = _
    refine congrArg _ (funext fun a => Fin.ext ?_)
    match a with
    | ⟨0, _⟩ => show win12_2.index t (0 : Fin 2) * 1 + 1 * (y 0).val = (y 0).val; omega
    | ⟨1, _⟩ => show win12_2.index t (1 : Fin 2) * 16 + 1 * (y 1).val = (y 1).val; omega
  · show win12_3.index t (0 : Fin 2) * 10000 + 1 * (j 0).val = t.val * 10000 + (j 0).val; omega
  · show win12_3.index t (1 : Fin 2) * 16 + 1 * (j 1).val = (j 1).val; omega

/-- An index of the array is in point t's block iff each coordinate is in the block's range on its axis. -/
theorem mem_blk (t : Fin cfg12.N) (i : S100000x16.Idx) :
    i ∈ ((cfg12.win 3).blk t).view.set ↔ ∀ a : Fin 2, win12_3.index t a * S10000x16.size a ≤ (i a).val
      ∧ (i a).val < win12_3.index t a * S10000x16.size a + S10000x16.size a := by
  show i ∈ ((View.whole main_v213).slice (win12_3.rect t)).set ↔ _
  rw [View.set_slice_whole, Rect.mem_set_unit]
  exact Iff.rfl

/-- Row r lies in the block of point r / 10000, and every point writes back. -/
theorem cover (i : S100000x16.Idx) :
    ∃ t : Fin cfg12.N, (cfg12.win 3).flush t = true ∧ i ∈ ((cfg12.win 3).blk t).view.set := by
  have hi0 : (i 0).val < 100000 := (i 0).isLt
  have hi1 : (i 1).val < 16 := (i 1).isLt
  have hN : (i 0).val / 10000 < cfg12.N := lt_of_lt_of_eq (by omega : (i 0).val / 10000 < 10) N_12.symm
  obtain ⟨e30, e31, -⟩ := idx_facts ⟨(i 0).val / 10000, hN⟩
  refine ⟨⟨(i 0).val / 10000, hN⟩, flush12_3 _, ?_⟩
  rw [mem_blk]
  intro a
  match a with
  | ⟨0, _⟩ =>
    show win12_3.index ⟨(i 0).val / 10000, hN⟩ (0 : Fin 2) * 10000 ≤ (i 0).val
      ∧ (i 0).val < win12_3.index ⟨(i 0).val / 10000, hN⟩ (0 : Fin 2) * 10000 + 10000
    rw [e30]
    show (i 0).val / 10000 * 10000 ≤ (i 0).val ∧ (i 0).val < (i 0).val / 10000 * 10000 + 10000
    omega
  | ⟨1, _⟩ =>
    show win12_3.index ⟨(i 0).val / 10000, hN⟩ (1 : Fin 2) * 16 ≤ (i 1).val
      ∧ (i 1).val < win12_3.index ⟨(i 0).val / 10000, hN⟩ (1 : Fin 2) * 16 + 16
    rw [e31]
    omega

/-- The output array after the region: the linear layer of the three input arrays as the region found them. -/
theorem final (c : Dev nD) :
    (dat12 V c).arrAt 3 cfg12.N
      = linOut (V c (Pipeline.arrRef spec12 0)) (V c (Pipeline.arrRef spec12 1)) (V c (Pipeline.arrRef spec12 2)) :=
  (dat12 V c).arrAt_eq_of_cover 3 _ (fun t _ => flushed_eq V c t) cover

end Cert.KernelIdeal.Region12

end
-- ==== Proof.Math25.lean ====
/-
  The closing linear layer, as the region computes it from the last rectified features, the [64, 16] weights and the
  bias as one row, is the reference's last stage: a dot_general over the 64 features plus the bias broadcast down the
  rows, added in the same order.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region12
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem
open Idealize.ShloMosaic.ValueIdx

open Cert.ReferenceIdeal.Read

namespace M25

theorem lidx219 (p : Fin 100000) (q : Fin 16) (k : Fin 64) : lidx_main_v219 (ix2 p q) k = ix2 p k :=
  funext fun a => Fin.ext (by match a with | ⟨0, _⟩ => rfl | ⟨1, _⟩ => rfl)
theorem ridx219 (p : Fin 100000) (q : Fin 16) (k : Fin 64) : ridx_main_v219 (ix2 p q) k = ix2 k q :=
  funext fun a => Fin.ext (by match a with | ⟨0, _⟩ => rfl | ⟨1, _⟩ => rfl)
theorem idx220221 (p : Fin 100000) (q : Fin 16) : idx_main_v220 (idx_main_v221 (ix2 p q)) = ix1 q :=
  funext fun a => Fin.ext (by match a with | ⟨0, _⟩ => rfl)

/-- A [16] vector as one row reads, at (0, q), the vector at q. -/
theorem row16_at (v : S16.Idx → EReal) (q : Fin 16) : row16 v (ix2 0 q) = v (ix1 q) :=
  shapeCast_a_1a_apply v shapeCasts_S16_S1x16 0 q

end M25

theorem lin1 (x0 : (⟨S100000x32, .f32⟩ : BufTy).Contents (Elt Ideal)) (x1 : (⟨S2x1600000, .i32⟩ : BufTy).Contents (Elt Ideal)) (x2 : (⟨S1600000x16, .f32⟩ : BufTy).Contents (Elt Ideal)) (x3 : (⟨S32x64, .f32⟩ : BufTy).Contents (Elt Ideal)) (x4 : (⟨S64, .f32⟩ : BufTy).Contents (Elt Ideal)) (x5 : (⟨S32x64, .f32⟩ : BufTy).Contents (Elt Ideal)) (x6 : (⟨S16x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S16x64, .f32⟩ : BufTy).Contents (Elt Ideal)) (x16 : (⟨S64, .f32⟩ : BufTy).Contents (Elt Ideal)) (x17 : (⟨S128x64, .f32⟩ : BufTy).Contents (Elt Ideal)) (x18 : (⟨S64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S64, .f32⟩ : BufTy).Contents (Elt Ideal)) (x24 : (⟨S64, .f32⟩ : BufTy).Contents (Elt Ideal)) (x25 : (⟨S64, .f32⟩ : BufTy).Contents (Elt Ideal)) (x26 : (⟨S64, .f32⟩ : BufTy).Contents (Elt Ideal)) (x27 : (⟨S64x16, .f32⟩ : BufTy).Contents (Elt Ideal)) (x28 : (⟨S16, .f32⟩ : BufTy).Contents (Elt Ideal)) :
    Cert.KernelIdeal.Region12.linOut (Cert.ReferenceIdeal.Read.val_main_v218 (F := Ideal) x0 x1 x2 x3 x4 x5 x6 x7 x8 x9 x10 x11 x12 x13 x14 x15 x16 x17 x18 x19 x20 x21 x22 x23 x24 x25 x26) x27 (row16 x28) = (Cert.ReferenceIdeal.Read.val_main_v222 (F := Ideal) x0 x1 x2 x3 x4 x5 x6 x7 x8 x9 x10 x11 x12 x13 x14 x15 x16 x17 x18 x19 x20 x21 x22 x23 x24 x25 x26 x27 x28) := by
  funext i
  obtain ⟨p, q, rfl⟩ : ∃ (p : Fin 100000) (q : Fin 16), i = ix2 p q := ⟨i 0, i 1, eq_ix2 i⟩
  rw [Cert.KernelIdeal.Region12.linOut_apply, val_main_v222_apply, val_main_v219_apply, val_main_v221_apply, val_main_v220_apply,
    M25.idx220221, M25.row16_at]
  simp only [M25.lidx219, M25.ridx219, Ideal.addf_def]

end Cert.KernelIdeal.Stage

end
-- ==== Proof.Stage25.lean ====
/-
  The last stretch and the last region: the second layer's output unpacked, the last bias as a row, and the closing linear layer, which is the reference's result.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.Region12
import proofs.«106696_j33449205301454_2_alg».proof.Proof.Math25
import proofs.«106696_j33449205301454_2_alg».proof.Proof.Keep1
import proofs.«106696_j33449205301454_2_alg».proof.Proof.Keep2
import proofs.«106696_j33449205301454_2_alg».proof.Proof.Keep3
import proofs.«106696_j33449205301454_2_alg».proof.Proof.Keep4
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

/-- Unpacking what was packed gives the array back. -/
theorem unpack_pack' (x : S100000x64.Idx → EReal) : unpack (pack x) = x :=
  shapeCast_shapeCast x shapeCasts_S100000x64_S50000x128 shapeCasts_S50000x128_S100000x64

theorem f25_v211 (c : Dev nD)
    (h210 : W24 m ρ c (Proc.devRef .tc main_v210) = pack (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)))) :
    W25 m ρ c (Proc.devRef .tc main_v211) = (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) := by
  show StableHlo.after hostOps12 (W24 m ρ c) (Proc.devRef .tc main_v211) = _
  after_results
  rw [h210]
  exact unpack_pack' _

theorem f25_v212 (c : Dev nD) : W25 m ρ c (Proc.devRef .tc main_v212) = row16 (m ((c : Thread nD τ).loc main_arg28)) := by
  show StableHlo.after hostOps12 (W24 m ρ c) (Proc.devRef .tc main_v212) = _
  after_results
  rw [Keep.keep_arg28_24_0 m ρ c]
  rfl

theorem f26_v213 (c : Dev nD)
    (h211 : W25 m ρ c (Proc.devRef .tc main_v211) = (Cert.ReferenceIdeal.Read.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))))
    (h212 : W25 m ρ c (Proc.devRef .tc main_v212) = row16 (m ((c : Thread nD τ).loc main_arg28))) :
    W26 m ρ c (Proc.devRef .tc main_v213) = (Cert.ReferenceIdeal.Read.val_main_v222 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))) := by
  refine ((W26_arr m ρ c 3).trans (Cert.KernelIdeal.Region12.final (V25 m ρ) c)).trans ?_
  show Cert.KernelIdeal.Region12.linOut (W25 m ρ c (Proc.devRef .tc main_v211)) (W25 m ρ c (Proc.devRef .tc main_arg27)) (W25 m ρ c (Proc.devRef .tc main_v212)) = _
  rw [h211, h212, Keep.keep_arg27_25_0 m ρ c]
  exact lin1 _ _ _ _ _ _ _ _ _ _ _ _ _ _ _ _ _ _ _ _ _ _ _ _ _ _ _ _ _

end Cert.KernelIdeal.Stage

end
-- ==== Proof.KernelValue.lean ====
/-
  The idealized kernel's result buffer after the run holds the reference's result, as a function of the launch memory's arguments: the stage equations chained through the twenty-six segment boundaries. Where a law of the reals is used (a variance as a difference of moments), the stages' entries are real because the precondition makes every float argument's entries real.
-/
import proofs.«106696_j33449205301454_2_alg».proof.Proof.Gen.KernelIdeal.Frame
import proofs.«106696_j33449205301454_2_alg».proof.Proof.ReadP
import proofs.«106696_j33449205301454_2_alg».proof.Proof.StageDefs
import proofs.«106696_j33449205301454_2_alg».proof.Proof.PreReal
import proofs.«106696_j33449205301454_2_alg».proof.Proof.RefReal
import proofs.«106696_j33449205301454_2_alg».proof.Proof.Stage1
import proofs.«106696_j33449205301454_2_alg».proof.Proof.Stage2
import proofs.«106696_j33449205301454_2_alg».proof.Proof.Stage3
import proofs.«106696_j33449205301454_2_alg».proof.Proof.Stage4
import proofs.«106696_j33449205301454_2_alg».proof.Proof.Stage5
import proofs.«106696_j33449205301454_2_alg».proof.Proof.Stage6
import proofs.«106696_j33449205301454_2_alg».proof.Proof.Stage7
import proofs.«106696_j33449205301454_2_alg».proof.Proof.Stage8
import proofs.«106696_j33449205301454_2_alg».proof.Proof.Stage9
import proofs.«106696_j33449205301454_2_alg».proof.Proof.Stage10
import proofs.«106696_j33449205301454_2_alg».proof.Proof.Stage11
import proofs.«106696_j33449205301454_2_alg».proof.Proof.Stage12
import proofs.«106696_j33449205301454_2_alg».proof.Proof.Stage13
import proofs.«106696_j33449205301454_2_alg».proof.Proof.Stage14
import proofs.«106696_j33449205301454_2_alg».proof.Proof.Stage15
import proofs.«106696_j33449205301454_2_alg».proof.Proof.Stage16
import proofs.«106696_j33449205301454_2_alg».proof.Proof.Stage17
import proofs.«106696_j33449205301454_2_alg».proof.Proof.Stage18
import proofs.«106696_j33449205301454_2_alg».proof.Proof.Stage19
import proofs.«106696_j33449205301454_2_alg».proof.Proof.Stage20
import proofs.«106696_j33449205301454_2_alg».proof.Proof.Stage21
import proofs.«106696_j33449205301454_2_alg».proof.Proof.Stage22
import proofs.«106696_j33449205301454_2_alg».proof.Proof.Stage23
import proofs.«106696_j33449205301454_2_alg».proof.Proof.Stage24
import proofs.«106696_j33449205301454_2_alg».proof.Proof.Stage25
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

open Cert.ReferenceIdeal.Read

theorem kernel_value [hP : Cert.Pre_finite_inputs.Facts] (hPre : Cert.Pre_KernelIdeal m) (c : Dev nD) :
    W26 m ρ c (Proc.devRef .tc main_v213) = (Cert.ReferenceIdeal.Read.val_main_v222 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))) := by
  obtain ⟨r0, r2, r3, r4, r5, r6, r7, r8, r9, r10, r11, r12, r13, r14, r15, r16, r17, r18, r19, r20, r21, r22, r23, r24, r25, r26, r27, r28⟩ := Cert.KernelIdeal.PreReal.real_args m hPre c
  have HR : Cert.ReferenceIdeal.RealStages.RealArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
    ⟨r0, r2, r3, r4, r5, r6, r7, r8, r9, r10, r11, r12, r13, r14, r15, r16, r17, r18, r19, r20, r21, r22, r23, r24, r25, r26, r27, r28⟩
  -- the first stretch
  have e3 := f1_v3 m ρ c
  have e6 := f1_v6 m ρ c
  have e8 := f1_v8 m ρ c
  have e17 := f1_v17 m ρ c
  have e29 := f1_v29 m ρ c
  have e30 := f1_v30 m ρ c
  -- layer 1
  have e31 := f2_v31 m ρ c e29 e30
  have e38 := f3_v38 m ρ c e31 e6
  have e43 := f4_v43 m ρ c e38 e8 (f3_v39 m ρ c) (f3_v40 m ρ c) (f3_v41 m ρ c) (f3_v42 m ρ c)
  have e47 := f5_v47 m ρ c e31
  have e48 := f5_v48 m ρ c e43 e6
  have e49_0 := f6_v49_0 m ρ c e47 e48
  have e49_1 := f6_v49_1 m ρ c e47 e48
  have e49_2 := f6_v49_2 m ρ c e47 e48
  have e70 := f7_v70 m ρ c e49_1
  have e72 := f7_v72 m ρ c e49_1 e49_2 (Cert.ReferenceIdeal.RealStages.s_v60 HR)
  have e77 := f8_v77 m ρ c e49_0 e70 e72 (f7_v74 m ρ c) (f7_v76 m ρ c)
  have e79 := f9_v79 m ρ c e77
  have e80_0 := f10_v80_0 m ρ c e79
  have e80_1 := f10_v80_1 m ρ c e79
  have e106 := f11_v106 m ρ c e80_0
  have e108 := f11_v108 m ρ c e80_0 e80_1 (Cert.ReferenceIdeal.RealStages.s_v89 HR) r23
  have e113 := f12_v113 m ρ c e79 e106 e108 (f11_v110 m ρ c) (f11_v112 m ρ c)
  -- layer 2
  have e114 := f13_v114 m ρ c e113
  have e126 := f13_v126 m ρ c e113 e3 e6 e17
  have e128 := f14_v128 m ρ c e126 e114 (f13_v127 m ρ c)
  have e135 := f15_v135 m ρ c e128 e6
  have e140 := f16_v140 m ρ c e135 e8 (f15_v136 m ρ c) (f15_v137 m ρ c) (f15_v138 m ρ c) (f15_v139 m ρ c)
  have e144 := f17_v144 m ρ c e128
  have e145 := f17_v145 m ρ c e140 e6
  have e146_0 := f18_v146_0 m ρ c e144 e145
  have e146_1 := f18_v146_1 m ρ c e144 e145
  have e146_2 := f18_v146_2 m ρ c e144 e145
  have e167 := f19_v167 m ρ c e146_1
  have e169 := f19_v169 m ρ c e146_1 e146_2 (Cert.ReferenceIdeal.RealStages.s_v165 HR)
  have e174 := f20_v174 m ρ c e146_0 e167 e169 (f19_v171 m ρ c) (f19_v173 m ρ c)
  have e176 := f21_v176 m ρ c e174
  have e177_0 := f22_v177_0 m ρ c e176
  have e177_1 := f22_v177_1 m ρ c e176
  have e203 := f23_v203 m ρ c e177_0
  have e205 := f23_v205 m ρ c e177_0 e177_1 (Cert.ReferenceIdeal.RealStages.s_v194 HR) r26
  have e210 := f24_v210 m ρ c e176 e203 e205 (f23_v207 m ρ c) (f23_v209 m ρ c)
  -- the closing linear layer
  exact f26_v213 m ρ c (f25_v211 m ρ c e210) (f25_v212 m ρ c)

end Cert.KernelIdeal.Stage

end
-- ==== Proof.lean ====
/-
  The certificate of a two-layer gated message-passing network on 100000 nodes and 1700000 edges (self loops included):
  thirteen tiled regions — per layer a node update (neighbourhood means and node features through two weight matrices),
  the gated edge messages (a logistic gate on [gathered node row, transformed edge attributes]), the sum with the
  scattered messages together with its column moments, a batch normalisation with doubling and rectifier, the column
  moments again and a graph normalisation with rectifier; then the closing linear layer — against the reference written
  with whole-array operations.

  At exact arithmetic the two programs compute one function of the arguments. Gathers, scatter-adds, the edge lists and
  the in-degrees are the same operations on both sides. The differences are: sums times 1 / max(deg, 1) against sums
  divided by max(deg, 1) (equal for every extended real, the divisor being at least 1); the gate's product with the
  concatenation [a, b] against the sum of the two half products; the logistic against 1 / (1 + exp (−s)); every
  normalisation computed on the view that packs two node rows into one 128-lane row, its column sums taken block by
  block; and each variance taken as E[x²] − μ² (or E[x²] − 2(aμ)μ + (aμ)²), cut at zero, against the mean of the
  squared deviations — equal because every entry is a real number, which the precondition gives for the arguments and
  the operations preserve (divisors are positive: a clamped count, one plus an exponential, the node count, a
  nonnegative variance plus a positive constant under the reciprocal square root).

  The frames are the generated ones; the idealized kernel's result is read off its run segment by segment.
-/
import proofs.«106696_j33449205301454_2_alg».proof.Proof.Assemble
import proofs.«106696_j33449205301454_2_alg».proof.Proof.KernelValue

noncomputable section

namespace Cert.Proof

open Idealize.ShloMosaic Idealize.SL.Sem

theorem claim : Cert.Claim :=
  Cert.Proof.Assemble.claim_of (fun m ρ c h => Cert.KernelIdeal.Stage.kernel_value m ρ h c)

end Cert.Proof

end
